-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v301) = v0 c
          ∧ r.2.mem ((c.tc : Thread Cert.ReferenceIdeal.nD Cert.ReferenceIdeal.τ).loc Cert.ReferenceIdeal.main_v296) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x352 : Shape := ⟨2, ![10000, 352]⟩
abbrev S10000x64 : Shape := ⟨2, ![10000, 64]⟩
abbrev S64x10000 : Shape := ⟨2, ![64, 10000]⟩
abbrev S64 : Shape := ⟨1, ![64]⟩
abbrev S352x64 : Shape := ⟨2, ![352, 64]⟩
abbrev S6x64x64 : Shape := ⟨3, ![6, 64, 64]⟩
abbrev S6x64x128 : Shape := ⟨3, ![6, 64, 128]⟩
abbrev S128 : Shape := ⟨1, ![128]⟩
abbrev S128x256 : Shape := ⟨2, ![128, 256]⟩
abbrev S256 : Shape := ⟨1, ![256]⟩
abbrev S256x10000 : Shape := ⟨2, ![256, 10000]⟩
abbrev S10000 : Shape := ⟨1, ![10000]⟩
abbrev S_ : Shape := ⟨0, ![]⟩

class Facts : Prop where
  bcast_S_S10000x352 : S_.BroadcastsInDim S10000x352 (![] : Fin 0 → Fin S10000x352.rank)
  reducesTo_S10000x352_S_d0_1 : S10000x352.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x10000 : S_.BroadcastsInDim S64x10000 (![] : Fin 0 → Fin S64x10000.rank)
  reducesTo_S64x10000_S_d0_1 : S64x10000.ReducesTo [0, 1] S_
  bcast_S_S64 : S_.BroadcastsInDim S64 (![] : Fin 0 → Fin S64.rank)
  reducesTo_S64_S_d0 : S64.ReducesTo [0] S_
  bcast_S_S352x64 : S_.BroadcastsInDim S352x64 (![] : Fin 0 → Fin S352x64.rank)
  reducesTo_S352x64_S_d0_1 : S352x64.ReducesTo [0, 1] S_
  bcast_S_S6x64x64 : S_.BroadcastsInDim S6x64x64 (![] : Fin 0 → Fin S6x64x64.rank)
  reducesTo_S6x64x64_S_d0_1_2 : S6x64x64.ReducesTo [0, 1, 2] S_
  bcast_S_S6x64x128 : S_.BroadcastsInDim S6x64x128 (![] : Fin 0 → Fin S6x64x128.rank)
  reducesTo_S6x64x128_S_d0_1_2 : S6x64x128.ReducesTo [0, 1, 2] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10000 : S_.BroadcastsInDim S256x10000 (![] : Fin 0 → Fin S256x10000.rank)
  reducesTo_S256x10000_S_d0_1 : S256x10000.ReducesTo [0, 1] S_
  bcast_S_S10000 : S_.BroadcastsInDim S10000 (![] : Fin 0 → Fin S10000.rank)
  reducesTo_S10000_S_d0 : S10000.ReducesTo [0] S_

variable [Facts]

def fn_part7 {F : FTy → Type} [FloatOps F] (main_arg25 : FVec F S10000 .f32) (main_v118 : IVec S_ 1) (main_v119 : FVec F S256x10000 .f32) : IVec S_ 1 :=
  let main_cst_46 : FVec F S_ .f32 := constant S_ .f32 0x7F800000#32
  let main_v120 : FVec F S256x10000 .f32 := broadcastInDim S256x10000 ![] bcast_S_S256x10000 main_cst_46
  let main_v121 : IVec S256x10000 1 := cmpf .olt main_v119 main_v120
  let main_c_47 : IVec S_ 1 := constantI S_ 1 1#1
  let main_v122 : IVec S_ 1 := (fun x v => Host.reduce IntOp.andi x v reducesTo_S256x10000_S_d0_1 h_S_) main_v121 main_c_47
  let main_v123 : IVec S_ 1 := andi main_v118 main_v122
  let main_v124 : FVec F S10000 .f32 := Host.absf main_arg25
  let main_cst_48 : FVec F S_ .f32 := constant S_ .f32 0x7F800000#32
  let main_v125 : FVec F S10000 .f32 := broadcastInDim S10000 ![] bcast_S_S10000 main_cst_48
  let main_v126 : IVec S10000 1 := cmpf .olt main_v124 main_v125
  let main_c_49 : IVec S_ 1 := constantI S_ 1 1#1
  let main_v127 : IVec S_ 1 := (fun x v => Host.reduce IntOp.andi x v reducesTo_S10000_S_d0 h_S_) main_v126 main_c_49
  let main_v128 : IVec S_ 1 := andi main_v123 main_v127
  main_v128

def fn_part6 {F : FTy → Type} [FloatOps F] (main_arg21 : FVec F S256 .f32) (main_arg22 : FVec F S256 .f32) (main_arg23 : FVec F S256 .f32) (main_arg24 : FVec F S256x10000 .f32) (main_arg25 : FVec F S10000 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x10000 .f32 := Host.absf main_arg24
  fn_part7 (F := F) main_arg25 main_v118 main_v119

def fn_part5 {F : FTy → Type} [FloatOps F] (main_arg18 : FVec F S128 .f32) (main_arg19 : FVec F S128 .f32) (main_arg20 : FVec F S128x256 .f32) (main_arg21 : FVec F S256 .f32) (main_arg22 : FVec F S256 .f32) (main_arg23 : FVec F S256 .f32) (main_arg24 : FVec F S256x10000 .f32) (main_arg25 : FVec F S10000 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x256 .f32 := Host.absf main_arg20
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S64 .f32) (main_arg15 : FVec F S64 .f32) (main_arg16 : FVec F S6x64x128 .f32) (main_arg17 : FVec F S128 .f32) (main_arg18 : FVec F S128 .f32) (main_arg19 : FVec F S128 .f32) (main_arg20 : FVec F S128x256 .f32) (main_arg21 : FVec F S256 .f32) (main_arg22 : FVec F S256 .f32) (main_arg23 : FVec F S256 .f32) (main_arg24 : FVec F S256x10000 .f32) (main_arg25 : FVec F S10000 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S6x64x128 .f32 := Host.absf main_arg16
  let main_cst_30 : FVec F S_ .f32 := constant S_ .f32 0x7F800000#32
  let main_v80 : FVec F S6x64x128 .f32 := broadcastInDim S6x64x128 ![] bcast_S_S6x64x128 main_cst_30
  let main_v81 : IVec S6x64x128 1 := cmpf .olt main_v79 main_v80
  let main_c_31 : IVec S_ 1 := constantI S_ 1 1#1
  let main_v82 : IVec S_ 1 := (fun x v => Host.reduce IntOp.andi x v reducesTo_S6x64x128_S_d0_1_2 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S64 .f32) (main_arg12 : FVec F S6x64x64 .f32) (main_arg13 : FVec F S64 .f32) (main_arg14 : FVec F S64 .f32) (main_arg15 : FVec F S64 .f32) (main_arg16 : FVec F S6x64x128 .f32) (main_arg17 : FVec F S128 .f32) (main_arg18 : FVec F S128 .f32) (main_arg19 : FVec F S128 .f32) (main_arg20 : FVec F S128x256 .f32) (main_arg21 : FVec F S256 .f32) (main_arg22 : FVec F S256 .f32) (main_arg23 : FVec F S256 .f32) (main_arg24 : FVec F S256x10000 .f32) (main_arg25 : FVec F S10000 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S6x64x64 .f32 := Host.absf main_arg12
  let main_cst_22 : FVec F S_ .f32 := constant S_ .f32 0x7F800000#32
  let main_v60 : FVec F S6x64x64 .f32 := broadcastInDim S6x64x64 ![] bcast_S_S6x64x64 main_cst_22
  let main_v61 : IVec S6x64x64 1 := cmpf .olt main_v59 main_v60
  let main_c_23 : IVec S_ 1 := constantI S_ 1 1#1
  let main_v62 : IVec S_ 1 := (fun x v => Host.reduce IntOp.andi x v reducesTo_S6x64x64_S_d0_1_2 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S64 .f32) (main_arg8 : FVec F S6x64x64 .f32) (main_arg9 : FVec F S64 .f32) (main_arg10 : FVec F S64 .f32) (main_arg11 : FVec F S64 .f32) (main_arg12 : FVec F S6x64x64 .f32) (main_arg13 : FVec F S64 .f32) (main_arg14 : FVec F S64 .f32) (main_arg15 : FVec F S64 .f32) (main_arg16 : FVec F S6x64x128 .f32) (main_arg17 : FVec F S128 .f32) (main_arg18 : FVec F S128 .f32) (main_arg19 : FVec F S128 .f32) (main_arg20 : FVec F S128x256 .f32) (main_arg21 : FVec F S256 .f32) (main_arg22 : FVec F S256 .f32) (main_arg23 : FVec F S256 .f32) (main_arg24 : FVec F S256x10000 .f32) (main_arg25 : FVec F S10000 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S6x64x64 .f32 := Host.absf main_arg8
  let main_cst_14 : FVec F S_ .f32 := constant S_ .f32 0x7F800000#32
  let main_v40 : FVec F S6x64x64 .f32 := broadcastInDim S6x64x64 ![] bcast_S_S6x64x64 main_cst_14
  let main_v41 : IVec S6x64x64 1 := cmpf .olt main_v39 main_v40
  let main_c_15 : IVec S_ 1 := constantI S_ 1 1#1
  let main_v42 : IVec S_ 1 := (fun x v => Host.reduce IntOp.andi x v reducesTo_S6x64x64_S_d0_1_2 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S352x64 .f32) (main_arg5 : FVec F S64 .f32) (main_arg6 : FVec F S64 .f32) (main_arg7 : FVec F S64 .f32) (main_arg8 : FVec F S6x64x64 .f32) (main_arg9 : FVec F S64 .f32) (main_arg10 : FVec F S64 .f32) (main_arg11 : FVec F S64 .f32) (main_arg12 : FVec F S6x64x64 .f32) (main_arg13 : FVec F S64 .f32) (main_arg14 : FVec F S64 .f32) (main_arg15 : FVec F S64 .f32) (main_arg16 : FVec F S6x64x128 .f32) (main_arg17 : FVec F S128 .f32) (main_arg18 : FVec F S128 .f32) (main_arg19 : FVec F S128 .f32) (main_arg20 : FVec F S128x256 .f32) (main_arg21 : FVec F S256 .f32) (main_arg22 : FVec F S256 .f32) (main_arg23 : FVec F S256 .f32) (main_arg24 : FVec F S256x10000 .f32) (main_arg25 : FVec F S10000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S352x64 .f32 := Host.absf main_arg4
  let main_cst_6 : FVec F S_ .f32 := constant S_ .f32 0x7F800000#32
  let main_v20 : FVec F S352x64 .f32 := broadcastInDim S352x64 ![] bcast_S_S352x64 main_cst_6
  let main_v21 : IVec S352x64 1 := cmpf .olt main_v19 main_v20
  let main_c_7 : IVec S_ 1 := constantI S_ 1 1#1
  let main_v22 : IVec S_ 1 := (fun x v => Host.reduce IntOp.andi x v reducesTo_S352x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x352 .f32) (main_arg1 : FVec F S10000x64 .f32) (main_arg2 : FVec F S64x10000 .f32) (main_arg3 : FVec F S64 .f32) (main_arg4 : FVec F S352x64 .f32) (main_arg5 : FVec F S64 .f32) (main_arg6 : FVec F S64 .f32) (main_arg7 : FVec F S64 .f32) (main_arg8 : FVec F S6x64x64 .f32) (main_arg9 : FVec F S64 .f32) (main_arg10 : FVec F S64 .f32) (main_arg11 : FVec F S64 .f32) (main_arg12 : FVec F S6x64x64 .f32) (main_arg13 : FVec F S64 .f32) (main_arg14 : FVec F S64 .f32) (main_arg15 : FVec F S64 .f32) (main_arg16 : FVec F S6x64x128 .f32) (main_arg17 : FVec F S128 .f32) (main_arg18 : FVec F S128 .f32) (main_arg19 : FVec F S128 .f32) (main_arg20 : FVec F S128x256 .f32) (main_arg21 : FVec F S256 .f32) (main_arg22 : FVec F S256 .f32) (main_arg23 : FVec F S256 .f32) (main_arg24 : FVec F S256x10000 .f32) (main_arg25 : FVec F S10000 .f32) : IVec S_ 1 :=
  let main_v0 : FVec F S10000x352 .f32 := Host.absf main_arg0
  let main_cst : FVec F S_ .f32 := constant S_ .f32 0x7F800000#32
  let main_v1 : FVec F S10000x352 .f32 := broadcastInDim S10000x352 ![] bcast_S_S10000x352 main_cst
  let main_v2 : IVec S10000x352 1 := cmpf .olt main_v0 main_v1
  let main_c : IVec S_ 1 := constantI S_ 1 1#1
  let main_v3 : IVec S_ 1 := (fun x v => Host.reduce IntOp.andi x v reducesTo_S10000x352_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64x10000 .f32 := Host.absf main_arg2
  let main_cst_2 : FVec F S_ .f32 := constant S_ .f32 0x7F800000#32
  let main_v10 : FVec F S64x10000 .f32 := broadcastInDim S64x10000 ![] bcast_S_S64x10000 main_cst_2
  let main_v11 : IVec S64x10000 1 := cmpf .olt main_v9 main_v10
  let main_c_3 : IVec S_ 1 := constantI S_ 1 1#1
  let main_v12 : IVec S_ 1 := (fun x v => Host.reduce IntOp.andi x v reducesTo_S64x10000_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x352 : Shape := ⟨2, ![10000, 352]⟩
abbrev S10000x64 : Shape := ⟨2, ![10000, 64]⟩
abbrev S64x10000 : Shape := ⟨2, ![64, 10000]⟩
abbrev S64 : Shape := ⟨1, ![64]⟩
abbrev S352x64 : Shape := ⟨2, ![352, 64]⟩
abbrev S6x64x64 : Shape := ⟨3, ![6, 64, 64]⟩
abbrev S6x64x128 : Shape := ⟨3, ![6, 64, 128]⟩
abbrev S128 : Shape := ⟨1, ![128]⟩
abbrev S128x256 : Shape := ⟨2, ![128, 256]⟩
abbrev S256 : Shape := ⟨1, ![256]⟩
abbrev S256x10000 : Shape := ⟨2, ![256, 10000]⟩
abbrev S10000 : Shape := ⟨1, ![10000]⟩
abbrev S1x64 : Shape := ⟨2, ![1, 64]⟩
abbrev S_ : Shape := ⟨0, ![]⟩
abbrev S64x1 : Shape := ⟨2, ![64, 1]⟩
abbrev S1x128 : Shape := ⟨2, ![1, 128]⟩
abbrev S10000x128 : Shape := ⟨2, ![10000, 128]⟩
abbrev S64x64 : Shape := ⟨2, ![64, 64]⟩
abbrev S1x64x64 : Shape := ⟨3, ![1, 64, 64]⟩
abbrev S1x64x128 : Shape := ⟨3, ![1, 64, 128]⟩
abbrev S64x128 : Shape := ⟨2, ![64, 128]⟩
abbrev S10000x256 : Shape := ⟨2, ![10000, 256]⟩
abbrev S1x256 : Shape := ⟨2, ![1, 256]⟩
abbrev S1x10000 : Shape := ⟨2, ![1, 10000]⟩
abbrev S10000x10000 : Shape := ⟨2, ![10000, 10000]⟩
abbrev S200x256 : Shape := ⟨2, ![200, 256]⟩
abbrev S200x10000 : Shape := ⟨2, ![200, 10000]⟩
abbrev S200 : Shape := ⟨1, ![200]⟩
abbrev S200x1 : Shape := ⟨2, ![200, 1]⟩

abbrev nBuf : Space → Nat
  | .hbm => 142
  | .vmem => 24
  | .smem => 0
  | _ => 0

abbrev hbmTy0_0 (i : Nat) : BufTy := match i % 128 with
  | 0 => ⟨S10000x352, .f32⟩
  | 1 => ⟨S10000x64, .f32⟩
  | 2 => ⟨S64x10000, .f32⟩
  | 3 => ⟨S64, .f32⟩
  | 4 => ⟨S352x64, .f32⟩
  | 5 => ⟨S64, .f32⟩
  | 6 => ⟨S64, .f32⟩
  | 7 => ⟨S64, .f32⟩
  | 8 => ⟨S6x64x64, .f32⟩
  | 9 => ⟨S64, .f32⟩
  | 10 => ⟨S64, .f32⟩
  | 11 => ⟨S64, .f32⟩
  | 12 => ⟨S6x64x64, .f32⟩
  | 13 => ⟨S64, .f32⟩
  | 14 => ⟨S64, .f32⟩
  | 15 => ⟨S64, .f32⟩
  | 16 => ⟨S6x64x128, .f32⟩
  | 17 => ⟨S128, .f32⟩
  | 18 => ⟨S128, .f32⟩
  | 19 => ⟨S128, .f32⟩
  | 20 => ⟨S128x256, .f32⟩
  | 21 => ⟨S256, .f32⟩
  | 22 => ⟨S256, .f32⟩
  | 23 => ⟨S256, .f32⟩
  | 24 => ⟨S256x10000, .f32⟩
  | 25 => ⟨S10000, .f32⟩
  | 26 => ⟨S10000x64, .f32⟩
  | 27 => ⟨S1x64, .f32⟩
  | 28 => ⟨S10000x64, .f32⟩
  | 29 => ⟨S10000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S10000x64, .f32⟩
  | 43 => ⟨S10000x64, .f32⟩
  | 44 => ⟨S10000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S10000x64, .f32⟩
  | 60 => ⟨S10000x64, .f32⟩
  | 61 => ⟨S_, .f32⟩
  | 62 => ⟨S64, .f32⟩
  | 63 => ⟨S64, .f32⟩
  | 64 => ⟨S64, .f32⟩
  | 65 => ⟨S1x64, .f32⟩
  | 66 => ⟨S10000x64, .f32⟩
  | 67 => ⟨S10000x64, .f32⟩
  | 68 => ⟨S1x64, .f32⟩
  | 69 => ⟨S10000x64, .f32⟩
  | 70 => ⟨S10000x64, .f32⟩
  | 71 => ⟨S1x64, .f32⟩
  | 72 => ⟨S10000x64, .f32⟩
  | 73 => ⟨S10000x64, .f32⟩
  | 74 => ⟨S_, .f32⟩
  | 75 => ⟨S10000x64, .f32⟩
  | 76 => ⟨S10000x64, .f32⟩
  | 77 => ⟨S64x1, .f32⟩
  | 78 => ⟨S1x64, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x128, .f32⟩
  | 85 => ⟨S1x128, .f32⟩
  | 86 => ⟨S1x128, .f32⟩
  | 87 => ⟨S10000x128, .f32⟩
  | 88 => ⟨S10000x256, .f32⟩
  | 89 => ⟨S1x256, .f32⟩
  | 90 => ⟨S10000x256, .f32⟩
  | 91 => ⟨S10000x256, .f32⟩
  | 92 => ⟨S_, .f32⟩
  | 93 => ⟨S256, .f32⟩
  | 94 => ⟨S_, .f32⟩
  | 95 => ⟨S256, .f32⟩
  | 96 => ⟨S256, .f32⟩
  | 97 => ⟨S_, .i32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S10000x256, .f32⟩
  | 105 => ⟨S10000x256, .f32⟩
  | 106 => ⟨S10000x256, .f32⟩
  | 107 => ⟨S_, .f32⟩
  | 108 => ⟨S_, .f32⟩
  | 109 => ⟨S_, .f32⟩
  | 110 => ⟨S_, .f32⟩
  | 111 => ⟨S256, .f32⟩
  | 112 => ⟨S256, .f32⟩
  | 113 => ⟨S256, .f32⟩
  | 114 => ⟨S_, .f32⟩
  | 115 => ⟨S_, .i1⟩
  | 116 => ⟨S_, .f32⟩
  | 117 => ⟨S_, .f32⟩
  | 118 => ⟨S256, .f32⟩
  | 119 => ⟨S256, .f32⟩
  | 120 => ⟨S1x256, .f32⟩
  | 121 => ⟨S10000x256, .f32⟩
  | 122 => ⟨S10000x256, .f32⟩
  | 123 => ⟨S_, .f32⟩
  | 124 => ⟨S256, .f32⟩
  | 125 => ⟨S256, .f32⟩
  | 126 => ⟨S256, .f32⟩
  | 127 => ⟨S1x256, .f32⟩
  | _ => ⟨S10000x352, .f32⟩

abbrev hbmTy0_1 (i : Nat) : BufTy := match i % 128 with
  | 0 => ⟨S10000x256, .f32⟩
  | 1 => ⟨S10000x256, .f32⟩
  | 2 => ⟨S1x256, .f32⟩
  | 3 => ⟨S10000x256, .f32⟩
  | 4 => ⟨S10000x256, .f32⟩
  | 5 => ⟨S1x256, .f32⟩
  | 6 => ⟨S10000x256, .f32⟩
  | 7 => ⟨S10000x256, .f32⟩
  | 8 => ⟨S_, .f32⟩
  | 9 => ⟨S10000x256, .f32⟩
  | 10 => ⟨S10000x256, .f32⟩
  | 11 => ⟨S256x10000, .bf16⟩
  | 12 => ⟨S1x10000, .f32⟩
  | 13 => ⟨S10000x10000, .f32⟩
  | _ => ⟨S10000x352, .f32⟩

abbrev hbmTy (i : Nat) : BufTy := match i / 128 with
  | 0 => hbmTy0_0 i
  | 1 => hbmTy0_1 i
  | _ => ⟨S10000x352, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x10000, .f32⟩
  | .local _ .vmem, ⟨3, _⟩ => ⟨S64x1, .f32⟩
  | .local _ .vmem, ⟨4, _⟩ => ⟨S6x64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S6x64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S6x64x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S200x256, .f32⟩
  | .local _ .vmem, ⟨18, _⟩ => ⟨S200x256, .f32⟩
  | .local _ .vmem, ⟨19, _⟩ => ⟨S256x10000, .bf16⟩
  | .local _ .vmem, ⟨20, _⟩ => ⟨S1x10000, .f32⟩
  | .local _ .vmem, ⟨21, _⟩ => ⟨S200x10000, .f32⟩
  | .local _ .vmem, ⟨22, _⟩ => ⟨S200x10000, .f32⟩
  | .local _ .vmem, ⟨23, _⟩ => ⟨S200x10000, .f32⟩
  | _, _ => ⟨S10000x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_call1_cst : Ref sig .tc := ⟨.hbm, 74, rfl⟩
abbrev main_call1_v0 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_2 : Ref sig .tc := ⟨.hbm, 92, rfl⟩
abbrev main_v39 : Ref sig .tc := ⟨.hbm, 93, rfl⟩
abbrev main_cst_3 : Ref sig .tc := ⟨.hbm, 94, rfl⟩
abbrev main_v40 : Ref sig .tc := ⟨.hbm, 95, rfl⟩
abbrev main_v41 : Ref sig .tc := ⟨.hbm, 96, rfl⟩
abbrev main_c_4 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_cst_3 : Ref sig .tc := ⟨.hbm, 114, rfl⟩
abbrev main_call2_v12 : Ref sig .tc := ⟨.hbm, 115, rfl⟩
abbrev main_call2_cst_4 : Ref sig .tc := ⟨.hbm, 116, rfl⟩
abbrev main_call2_call0_v0 : Ref sig .tc := ⟨.hbm, 117, rfl⟩
abbrev main_call2_call0_v1 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_5 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_call3_cst : Ref sig .tc := ⟨.hbm, 136, rfl⟩
abbrev main_call3_v0 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S10000x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x10000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S10000x64 : S_.BroadcastsInDim S10000x64 (![] : Fin 0 → Fin S10000x64.rank)
  shapeCasts_S64_S64x1 : S64.ShapeCasts S64x1
  shapeCasts_S64_S1x64 : S64.ShapeCasts S1x64
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S64x10000_S64x10000_0_0 : ∀ a, (![0, 0] : Fin 2 → Nat) a + S64x10000.size a ≤ S64x10000.size a
  h_S64x10000 : 0 < S64x10000.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  bitsLt_bf16_f32 : FTy.bits .bf16 < FTy.bits .f32
  shapeCasts_S10000x64_S10000x64 : S10000x64.ShapeCasts S10000x64
  broadcasts_S64x1_S64x64 : S64x1.Broadcasts S64x64
  inb_S6x64x64_S1x64x64_0_0_0 : ∀ a, (![0, 0, 0] : Fin 3 → Nat) a + S1x64x64.size a ≤ S6x64x64.size a
  h_S1x64x64 : 0 < S1x64x64.numel
  shapeCasts_S1x64x64_S64x64 : S1x64x64.ShapeCasts S64x64
  inb_S6x64x64_S1x64x64_1_0_0 : ∀ a, (![1, 0, 0] : Fin 3 → Nat) a + S1x64x64.size a ≤ S6x64x64.size a
  inb_S6x64x64_S1x64x64_2_0_0 : ∀ a, (![2, 0, 0] : Fin 3 → Nat) a + S1x64x64.size a ≤ S6x64x64.size a
  inb_S6x64x64_S1x64x64_3_0_0 : ∀ a, (![3, 0, 0] : Fin 3 → Nat) a + S1x64x64.size a ≤ S6x64x64.size a
  inb_S6x64x64_S1x64x64_4_0_0 : ∀ a, (![4, 0, 0] : Fin 3 → Nat) a + S1x64x64.size a ≤ S6x64x64.size a
  inb_S6x64x64_S1x64x64_5_0_0 : ∀ a, (![5, 0, 0] : Fin 3 → Nat) a + S1x64x64.size a ≤ S6x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  inb_S6x64x128_S1x64x128_0_0_0 : ∀ a, (![0, 0, 0] : Fin 3 → Nat) a + S1x64x128.size a ≤ S6x64x128.size a
  h_S1x64x128 : 0 < S1x64x128.numel
  shapeCasts_S1x64x128_S64x128 : S1x64x128.ShapeCasts S64x128
  inb_S6x64x128_S1x64x128_1_0_0 : ∀ a, (![1, 0, 0] : Fin 3 → Nat) a + S1x64x128.size a ≤ S6x64x128.size a
  inb_S6x64x128_S1x64x128_2_0_0 : ∀ a, (![2, 0, 0] : Fin 3 → Nat) a + S1x64x128.size a ≤ S6x64x128.size a
  inb_S6x64x128_S1x64x128_3_0_0 : ∀ a, (![3, 0, 0] : Fin 3 → Nat) a + S1x64x128.size a ≤ S6x64x128.size a
  inb_S6x64x128_S1x64x128_4_0_0 : ∀ a, (![4, 0, 0] : Fin 3 → Nat) a + S1x64x128.size a ≤ S6x64x128.size a
  inb_S6x64x128_S1x64x128_5_0_0 : ∀ a, (![5, 0, 0] : Fin 3 → Nat) a + S1x64x128.size a ≤ S6x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  inb_S10000x128_S10000x128_0_0 : ∀ a, (![0, 0] : Fin 2 → Nat) a + S10000x128.size a ≤ S10000x128.size a
  h_S10000x128 : 0 < S10000x128.numel
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  bcast_S_S256 : S_.BroadcastsInDim S256 (![] : Fin 0 → Fin S256.rank)
  bcast_S_S1x256 : S_.BroadcastsInDim S1x256 (![] : Fin 0 → Fin S1x256.rank)
  bcast_S_S10000x256 : S_.BroadcastsInDim S10000x256 (![] : Fin 0 → Fin S10000x256.rank)
  shapeCasts_S10000_S1x10000 : S10000.ShapeCasts S1x10000
  inb_S200x256_S200x256_0_0 : ∀ a, (![0, 0] : Fin 2 → Nat) a + S200x256.size a ≤ S200x256.size a
  h_S200x256 : 0 < S200x256.numel
  shapeCasts_S200x256_S200x256 : S200x256.ShapeCasts S200x256
  inb_S256x10000_S256x10000_0_0 : ∀ a, (![0, 0] : Fin 2 → Nat) a + S256x10000.size a ≤ S256x10000.size a
  h_S256x10000 : 0 < S256x10000.numel
  shapeCasts_S256x10000_S256x10000 : S256x10000.ShapeCasts S256x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  reduces_S200x10000_S200 : S200x10000.Reduces [1] S200
  shapeCasts_S200_S200x1 : S200.ShapeCasts S200x1
  broadcasts_S200x1_S200x10000 : S200x1.Broadcasts S200x10000
  dot_S10000x352_S352x64_S10000x64_1_0_0_1_n_n_wf : DotDims.WF S10000x352 S352x64 S10000x64 [1] [0] [0] [1] [] []
  dot_S64x10000_S10000x64_S64x64_1_0_0_1_n_n_wf : DotDims.WF S64x10000 S10000x64 S64x64 [1] [0] [0] [1] [] []
  dot_S64x64_S64x64_S64x64_1_0_0_1_n_n_wf : DotDims.WF S64x64 S64x64 S64x64 [1] [0] [0] [1] [] []
  dot_S10000x64_S64x64_S10000x64_1_0_0_1_n_n_wf : DotDims.WF S10000x64 S64x64 S10000x64 [1] [0] [0] [1] [] []
  dot_S64x64_S64x128_S64x128_1_0_0_1_n_n_wf : DotDims.WF S64x64 S64x128 S64x128 [1] [0] [0] [1] [] []
  dot_S10000x64_S64x128_S10000x128_1_0_0_1_n_n_wf : DotDims.WF S10000x64 S64x128 S10000x128 [1] [0] [0] [1] [] []
  dot_S10000x128_S128x256_S10000x256_1_0_0_1_n_n_wf : DotDims.WF S10000x128 S128x256 S10000x256 [1] [0] [0] [1] [] []
  dot_S200x256_S256x10000_S200x10000_1_0_0_1_n_n_wf : DotDims.WF S200x256 S256x10000 S200x10000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S10000x64.size a
  hwx0_0 : ∀ i : grid0.Coords, EltTy.bits .f32 = 32 ∨ (Rect.block (s := S10000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x10000.size a ≤ S64x10000.size a
  hwx0_2 : ∀ i : grid0.Coords, EltTy.bits .f32 = 32 ∨ (Rect.block (s := S64x10000) S64x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x64x64.size a ≤ S6x64x64.size a
  hwx0_4 : ∀ i : grid0.Coords, EltTy.bits .f32 = 32 ∨ (Rect.block (s := S6x64x64) S6x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x64x64.size a ≤ S6x64x64.size a
  hwx0_8 : ∀ i : grid0.Coords, EltTy.bits .f32 = 32 ∨ (Rect.block (s := S6x64x64) S6x64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6x64x128.size a ≤ S6x64x128.size a
  hwx0_12 : ∀ i : grid0.Coords, EltTy.bits .f32 = 32 ∨ (Rect.block (s := S6x64x128) S6x64x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S10000x128.size a ≤ S10000x128.size a
  hwx0_16 : ∀ i : grid0.Coords, EltTy.bits .f32 = 32 ∨ (Rect.block (s := S10000x128) S10000x128.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x256.size a ≤ S10000x256.size a
  hwx1_0 : ∀ i : grid1.Coords, EltTy.bits .f32 = 32 ∨ (Rect.block (s := S10000x256) S200x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x10000.size a ≤ S256x10000.size a
  hwx1_1 : ∀ i : grid1.Coords, EltTy.bits .bf16 = 32 ∨ (Rect.block (s := S256x10000) S256x10000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10000.size a ≤ S1x10000.size a
  hwx1_2 : ∀ i : grid1.Coords, EltTy.bits .f32 = 32 ∨ (Rect.block (s := S1x10000) S1x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .f32 = 32 ∨ (Rect.block (s := S10000x10000) S200x10000.size (cc1_transform_3 i) (hinb1_3 i)).WholeWords (EltTy.packing .f32)

variable [Facts₀]

def dot_S10000x352_S352x64_S10000x64_1_0_0_1_n_n : DotDims S10000x352 S352x64 S10000x64 where
  lhsContracting := [1]
  rhsContracting := [0]
  lhsNonContracting := [0]
  rhsNonContracting := [1]
  lhsBatch := []
  rhsBatch := []
  wf := dot_S10000x352_S352x64_S10000x64_1_0_0_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S200x256_S256x10000_S200x10000_1_0_0_1_n_n : DotDims S200x256 S256x10000 S200x10000 where
  lhsContracting := [1]
  rhsContracting := [0]
  lhsNonContracting := [0]
  rhsNonContracting := [1]
  lhsBatch := []
  rhsBatch := []
  wf := dot_S200x256_S256x10000_S200x10000_1_0_0_1_n_n_wf

abbrev win0_0 : Pipeline.Window sig grid0 :=
  Pipeline.Window.ofSpec (Memref.whole main_v23) S10000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S6x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S6x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S6x64x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v31) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v32) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S10000x128.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v58) S200x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S256x10000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S200x10000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x352 : Shape := ⟨2, ![10000, 352]⟩
abbrev S10000x64 : Shape := ⟨2, ![10000, 64]⟩
abbrev S64x10000 : Shape := ⟨2, ![64, 10000]⟩
abbrev S64 : Shape := ⟨1, ![64]⟩
abbrev S352x64 : Shape := ⟨2, ![352, 64]⟩
abbrev S6x64x64 : Shape := ⟨3, ![6, 64, 64]⟩
abbrev S6x64x128 : Shape := ⟨3, ![6, 64, 128]⟩
abbrev S128 : Shape := ⟨1, ![128]⟩
abbrev S128x256 : Shape := ⟨2, ![128, 256]⟩
abbrev S256 : Shape := ⟨1, ![256]⟩
abbrev S256x10000 : Shape := ⟨2, ![256, 10000]⟩
abbrev S10000 : Shape := ⟨1, ![10000]⟩
abbrev S1x64 : Shape := ⟨2, ![1, 64]⟩
abbrev S_ : Shape := ⟨0, ![]⟩
abbrev S64x1 : Shape := ⟨2, ![64, 1]⟩
abbrev S64x64 : Shape := ⟨2, ![64, 64]⟩
abbrev S1x64x64 : Shape := ⟨3, ![1, 64, 64]⟩
abbrev S1x64x128 : Shape := ⟨3, ![1, 64, 128]⟩
abbrev S64x128 : Shape := ⟨2, ![64, 128]⟩
abbrev S10000x128 : Shape := ⟨2, ![10000, 128]⟩
abbrev S1x128 : Shape := ⟨2, ![1, 128]⟩
abbrev S10000x256 : Shape := ⟨2, ![10000, 256]⟩
abbrev S1x256 : Shape := ⟨2, ![1, 256]⟩
abbrev S10000x10000 : Shape := ⟨2, ![10000, 10000]⟩
abbrev S1x10000 : Shape := ⟨2, ![1, 10000]⟩
abbrev S10000x1 : Shape := ⟨2, ![10000, 1]⟩

abbrev nBuf : Space → Nat
  | .hbm => 489
  | .vmem => 0
  | .smem => 0
  | _ => 0

abbrev hbmTy0_0 (i : Nat) : BufTy := match i % 128 with
  | 0 => ⟨S10000x352, .f32⟩
  | 1 => ⟨S10000x64, .f32⟩
  | 2 => ⟨S64x10000, .f32⟩
  | 3 => ⟨S64, .f32⟩
  | 4 => ⟨S352x64, .f32⟩
  | 5 => ⟨S64, .f32⟩
  | 6 => ⟨S64, .f32⟩
  | 7 => ⟨S64, .f32⟩
  | 8 => ⟨S6x64x64, .f32⟩
  | 9 => ⟨S64, .f32⟩
  | 10 => ⟨S64, .f32⟩
  | 11 => ⟨S64, .f32⟩
  | 12 => ⟨S6x64x64, .f32⟩
  | 13 => ⟨S64, .f32⟩
  | 14 => ⟨S64, .f32⟩
  | 15 => ⟨S64, .f32⟩
  | 16 => ⟨S6x64x128, .f32⟩
  | 17 => ⟨S128, .f32⟩
  | 18 => ⟨S128, .f32⟩
  | 19 => ⟨S128, .f32⟩
  | 20 => ⟨S128x256, .f32⟩
  | 21 => ⟨S256, .f32⟩
  | 22 => ⟨S256, .f32⟩
  | 23 => ⟨S256, .f32⟩
  | 24 => ⟨S256x10000, .f32⟩
  | 25 => ⟨S10000, .f32⟩
  | 26 => ⟨S10000x64, .f32⟩
  | 27 => ⟨S1x64, .f32⟩
  | 28 => ⟨S10000x64, .f32⟩
  | 29 => ⟨S10000x64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S10000x64, .f32⟩
  | 43 => ⟨S10000x64, .f32⟩
  | 44 => ⟨S10000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S10000x64, .f32⟩
  | 60 => ⟨S10000x64, .f32⟩
  | 61 => ⟨S_, .f32⟩
  | 62 => ⟨S64, .f32⟩
  | 63 => ⟨S64, .f32⟩
  | 64 => ⟨S64, .f32⟩
  | 65 => ⟨S1x64, .f32⟩
  | 66 => ⟨S10000x64, .f32⟩
  | 67 => ⟨S10000x64, .f32⟩
  | 68 => ⟨S1x64, .f32⟩
  | 69 => ⟨S10000x64, .f32⟩
  | 70 => ⟨S10000x64, .f32⟩
  | 71 => ⟨S1x64, .f32⟩
  | 72 => ⟨S10000x64, .f32⟩
  | 73 => ⟨S10000x64, .f32⟩
  | 74 => ⟨S_, .f32⟩
  | 75 => ⟨S10000x64, .f32⟩
  | 76 => ⟨S10000x64, .f32⟩
  | 77 => ⟨S64x1, .f32⟩
  | 78 => ⟨S64x64, .f32⟩
  | 79 => ⟨S64x64, .f32⟩
  | 80 => ⟨S64x64, .f32⟩
  | 81 => ⟨S10000x64, .f32⟩
  | 82 => ⟨S1x64x64, .f32⟩
  | 83 => ⟨S64x64, .f32⟩
  | 84 => ⟨S10000x64, .f32⟩
  | 85 => ⟨S1x64x64, .f32⟩
  | 86 => ⟨S64x64, .f32⟩
  | 87 => ⟨S10000x64, .f32⟩
  | 88 => ⟨S10000x64, .f32⟩
  | 89 => ⟨S64x1, .f32⟩
  | 90 => ⟨S64x64, .f32⟩
  | 91 => ⟨S64x64, .f32⟩
  | 92 => ⟨S64x64, .f32⟩
  | 93 => ⟨S10000x64, .f32⟩
  | 94 => ⟨S_, .f32⟩
  | 95 => ⟨S10000x64, .f32⟩
  | 96 => ⟨S10000x64, .f32⟩
  | 97 => ⟨S10000x64, .f32⟩
  | 98 => ⟨S1x64x64, .f32⟩
  | 99 => ⟨S64x64, .f32⟩
  | 100 => ⟨S10000x64, .f32⟩
  | 101 => ⟨S10000x64, .f32⟩
  | 102 => ⟨S64x1, .f32⟩
  | 103 => ⟨S64x64, .f32⟩
  | 104 => ⟨S64x64, .f32⟩
  | 105 => ⟨S64x64, .f32⟩
  | 106 => ⟨S10000x64, .f32⟩
  | 107 => ⟨S_, .f32⟩
  | 108 => ⟨S10000x64, .f32⟩
  | 109 => ⟨S10000x64, .f32⟩
  | 110 => ⟨S10000x64, .f32⟩
  | 111 => ⟨S1x64x64, .f32⟩
  | 112 => ⟨S64x64, .f32⟩
  | 113 => ⟨S10000x64, .f32⟩
  | 114 => ⟨S10000x64, .f32⟩
  | 115 => ⟨S64x1, .f32⟩
  | 116 => ⟨S64x64, .f32⟩
  | 117 => ⟨S64x64, .f32⟩
  | 118 => ⟨S64x64, .f32⟩
  | 119 => ⟨S10000x64, .f32⟩
  | 120 => ⟨S_, .f32⟩
  | 121 => ⟨S10000x64, .f32⟩
  | 122 => ⟨S10000x64, .f32⟩
  | 123 => ⟨S10000x64, .f32⟩
  | 124 => ⟨S1x64x64, .f32⟩
  | 125 => ⟨S64x64, .f32⟩
  | 126 => ⟨S10000x64, .f32⟩
  | 127 => ⟨S10000x64, .f32⟩
  | _ => ⟨S10000x352, .f32⟩

abbrev hbmTy0_1 (i : Nat) : BufTy := match i % 128 with
  | 0 => ⟨S64x1, .f32⟩
  | 1 => ⟨S64x64, .f32⟩
  | 2 => ⟨S64x64, .f32⟩
  | 3 => ⟨S64x64, .f32⟩
  | 4 => ⟨S10000x64, .f32⟩
  | 5 => ⟨S_, .f32⟩
  | 6 => ⟨S10000x64, .f32⟩
  | 7 => ⟨S10000x64, .f32⟩
  | 8 => ⟨S10000x64, .f32⟩
  | 9 => ⟨S1x64x64, .f32⟩
  | 10 => ⟨S64x64, .f32⟩
  | 11 => ⟨S10000x64, .f32⟩
  | 12 => ⟨S10000x64, .f32⟩
  | 13 => ⟨S1x64, .f32⟩
  | 14 => ⟨S10000x64, .f32⟩
  | 15 => ⟨S10000x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S10000x64, .f32⟩
  | 29 => ⟨S10000x64, .f32⟩
  | 30 => ⟨S10000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S10000x64, .f32⟩
  | 46 => ⟨S10000x64, .f32⟩
  | 47 => ⟨S_, .f32⟩
  | 48 => ⟨S64, .f32⟩
  | 49 => ⟨S64, .f32⟩
  | 50 => ⟨S64, .f32⟩
  | 51 => ⟨S1x64, .f32⟩
  | 52 => ⟨S10000x64, .f32⟩
  | 53 => ⟨S10000x64, .f32⟩
  | 54 => ⟨S1x64, .f32⟩
  | 55 => ⟨S10000x64, .f32⟩
  | 56 => ⟨S10000x64, .f32⟩
  | 57 => ⟨S1x64, .f32⟩
  | 58 => ⟨S10000x64, .f32⟩
  | 59 => ⟨S10000x64, .f32⟩
  | 60 => ⟨S_, .f32⟩
  | 61 => ⟨S10000x64, .f32⟩
  | 62 => ⟨S10000x64, .f32⟩
  | 63 => ⟨S64x1, .f32⟩
  | 64 => ⟨S64x64, .f32⟩
  | 65 => ⟨S64x64, .f32⟩
  | 66 => ⟨S64x64, .f32⟩
  | 67 => ⟨S10000x64, .f32⟩
  | 68 => ⟨S1x64x64, .f32⟩
  | 69 => ⟨S64x64, .f32⟩
  | 70 => ⟨S10000x64, .f32⟩
  | 71 => ⟨S1x64x64, .f32⟩
  | 72 => ⟨S64x64, .f32⟩
  | 73 => ⟨S10000x64, .f32⟩
  | 74 => ⟨S10000x64, .f32⟩
  | 75 => ⟨S64x1, .f32⟩
  | 76 => ⟨S64x64, .f32⟩
  | 77 => ⟨S64x64, .f32⟩
  | 78 => ⟨S64x64, .f32⟩
  | 79 => ⟨S10000x64, .f32⟩
  | 80 => ⟨S_, .f32⟩
  | 81 => ⟨S10000x64, .f32⟩
  | 82 => ⟨S10000x64, .f32⟩
  | 83 => ⟨S10000x64, .f32⟩
  | 84 => ⟨S1x64x64, .f32⟩
  | 85 => ⟨S64x64, .f32⟩
  | 86 => ⟨S10000x64, .f32⟩
  | 87 => ⟨S10000x64, .f32⟩
  | 88 => ⟨S64x1, .f32⟩
  | 89 => ⟨S64x64, .f32⟩
  | 90 => ⟨S64x64, .f32⟩
  | 91 => ⟨S64x64, .f32⟩
  | 92 => ⟨S10000x64, .f32⟩
  | 93 => ⟨S_, .f32⟩
  | 94 => ⟨S10000x64, .f32⟩
  | 95 => ⟨S10000x64, .f32⟩
  | 96 => ⟨S10000x64, .f32⟩
  | 97 => ⟨S1x64x64, .f32⟩
  | 98 => ⟨S64x64, .f32⟩
  | 99 => ⟨S10000x64, .f32⟩
  | 100 => ⟨S10000x64, .f32⟩
  | 101 => ⟨S64x1, .f32⟩
  | 102 => ⟨S64x64, .f32⟩
  | 103 => ⟨S64x64, .f32⟩
  | 104 => ⟨S64x64, .f32⟩
  | 105 => ⟨S10000x64, .f32⟩
  | 106 => ⟨S_, .f32⟩
  | 107 => ⟨S10000x64, .f32⟩
  | 108 => ⟨S10000x64, .f32⟩
  | 109 => ⟨S10000x64, .f32⟩
  | 110 => ⟨S1x64x64, .f32⟩
  | 111 => ⟨S64x64, .f32⟩
  | 112 => ⟨S10000x64, .f32⟩
  | 113 => ⟨S10000x64, .f32⟩
  | 114 => ⟨S64x1, .f32⟩
  | 115 => ⟨S64x64, .f32⟩
  | 116 => ⟨S64x64, .f32⟩
  | 117 => ⟨S64x64, .f32⟩
  | 118 => ⟨S10000x64, .f32⟩
  | 119 => ⟨S_, .f32⟩
  | 120 => ⟨S10000x64, .f32⟩
  | 121 => ⟨S10000x64, .f32⟩
  | 122 => ⟨S10000x64, .f32⟩
  | 123 => ⟨S1x64x64, .f32⟩
  | 124 => ⟨S64x64, .f32⟩
  | 125 => ⟨S10000x64, .f32⟩
  | 126 => ⟨S10000x64, .f32⟩
  | 127 => ⟨S1x64, .f32⟩
  | _ => ⟨S10000x352, .f32⟩

abbrev hbmTy0_2 (i : Nat) : BufTy := match i % 128 with
  | 0 => ⟨S10000x64, .f32⟩
  | 1 => ⟨S10000x64, .f32⟩
  | 2 => ⟨S_, .f32⟩
  | 3 => ⟨S64, .f32⟩
  | 4 => ⟨S_, .f32⟩
  | 5 => ⟨S64, .f32⟩
  | 6 => ⟨S64, .f32⟩
  | 7 => ⟨S_, .i32⟩
  | 8 => ⟨S_, .f32⟩
  | 9 => ⟨S64, .f32⟩
  | 10 => ⟨S1x64, .f32⟩
  | 11 => ⟨S_, .f32⟩
  | 12 => ⟨S1x64, .f32⟩
  | 13 => ⟨S1x64, .f32⟩
  | 14 => ⟨S10000x64, .f32⟩
  | 15 => ⟨S10000x64, .f32⟩
  | 16 => ⟨S10000x64, .f32⟩
  | 17 => ⟨S_, .f32⟩
  | 18 => ⟨S_, .f32⟩
  | 19 => ⟨S_, .f32⟩
  | 20 => ⟨S_, .f32⟩
  | 21 => ⟨S64, .f32⟩
  | 22 => ⟨S64, .f32⟩
  | 23 => ⟨S64, .f32⟩
  | 24 => ⟨S_, .f32⟩
  | 25 => ⟨S_, .i1⟩
  | 26 => ⟨S_, .f32⟩
  | 27 => ⟨S_, .f32⟩
  | 28 => ⟨S64, .f32⟩
  | 29 => ⟨S64, .f32⟩
  | 30 => ⟨S1x64, .f32⟩
  | 31 => ⟨S10000x64, .f32⟩
  | 32 => ⟨S10000x64, .f32⟩
  | 33 => ⟨S_, .f32⟩
  | 34 => ⟨S64, .f32⟩
  | 35 => ⟨S64, .f32⟩
  | 36 => ⟨S64, .f32⟩
  | 37 => ⟨S1x64, .f32⟩
  | 38 => ⟨S10000x64, .f32⟩
  | 39 => ⟨S10000x64, .f32⟩
  | 40 => ⟨S1x64, .f32⟩
  | 41 => ⟨S10000x64, .f32⟩
  | 42 => ⟨S10000x64, .f32⟩
  | 43 => ⟨S1x64, .f32⟩
  | 44 => ⟨S10000x64, .f32⟩
  | 45 => ⟨S10000x64, .f32⟩
  | 46 => ⟨S_, .f32⟩
  | 47 => ⟨S10000x64, .f32⟩
  | 48 => ⟨S10000x64, .f32⟩
  | 49 => ⟨S64x1, .f32⟩
  | 50 => ⟨S64x64, .f32⟩
  | 51 => ⟨S64x64, .f32⟩
  | 52 => ⟨S64x64, .f32⟩
  | 53 => ⟨S10000x64, .f32⟩
  | 54 => ⟨S1x64x128, .f32⟩
  | 55 => ⟨S64x128, .f32⟩
  | 56 => ⟨S10000x128, .f32⟩
  | 57 => ⟨S1x64x128, .f32⟩
  | 58 => ⟨S64x128, .f32⟩
  | 59 => ⟨S10000x128, .f32⟩
  | 60 => ⟨S10000x128, .f32⟩
  | 61 => ⟨S64x1, .f32⟩
  | 62 => ⟨S64x64, .f32⟩
  | 63 => ⟨S64x64, .f32⟩
  | 64 => ⟨S64x64, .f32⟩
  | 65 => ⟨S10000x64, .f32⟩
  | 66 => ⟨S_, .f32⟩
  | 67 => ⟨S10000x64, .f32⟩
  | 68 => ⟨S10000x64, .f32⟩
  | 69 => ⟨S10000x64, .f32⟩
  | 70 => ⟨S1x64x128, .f32⟩
  | 71 => ⟨S64x128, .f32⟩
  | 72 => ⟨S10000x128, .f32⟩
  | 73 => ⟨S10000x128, .f32⟩
  | 74 => ⟨S64x1, .f32⟩
  | 75 => ⟨S64x64, .f32⟩
  | 76 => ⟨S64x64, .f32⟩
  | 77 => ⟨S64x64, .f32⟩
  | 78 => ⟨S10000x64, .f32⟩
  | 79 => ⟨S_, .f32⟩
  | 80 => ⟨S10000x64, .f32⟩
  | 81 => ⟨S10000x64, .f32⟩
  | 82 => ⟨S10000x64, .f32⟩
  | 83 => ⟨S1x64x128, .f32⟩
  | 84 => ⟨S64x128, .f32⟩
  | 85 => ⟨S10000x128, .f32⟩
  | 86 => ⟨S10000x128, .f32⟩
  | 87 => ⟨S64x1, .f32⟩
  | 88 => ⟨S64x64, .f32⟩
  | 89 => ⟨S64x64, .f32⟩
  | 90 => ⟨S64x64, .f32⟩
  | 91 => ⟨S10000x64, .f32⟩
  | 92 => ⟨S_, .f32⟩
  | 93 => ⟨S10000x64, .f32⟩
  | 94 => ⟨S10000x64, .f32⟩
  | 95 => ⟨S10000x64, .f32⟩
  | 96 => ⟨S1x64x128, .f32⟩
  | 97 => ⟨S64x128, .f32⟩
  | 98 => ⟨S10000x128, .f32⟩
  | 99 => ⟨S10000x128, .f32⟩
  | 100 => ⟨S64x1, .f32⟩
  | 101 => ⟨S64x64, .f32⟩
  | 102 => ⟨S64x64, .f32⟩
  | 103 => ⟨S64x64, .f32⟩
  | 104 => ⟨S10000x64, .f32⟩
  | 105 => ⟨S_, .f32⟩
  | 106 => ⟨S10000x64, .f32⟩
  | 107 => ⟨S10000x64, .f32⟩
  | 108 => ⟨S10000x64, .f32⟩
  | 109 => ⟨S1x64x128, .f32⟩
  | 110 => ⟨S64x128, .f32⟩
  | 111 => ⟨S10000x128, .f32⟩
  | 112 => ⟨S10000x128, .f32⟩
  | 113 => ⟨S1x128, .f32⟩
  | 114 => ⟨S10000x128, .f32⟩
  | 115 => ⟨S10000x128, .f32⟩
  | 116 => ⟨S_, .f32⟩
  | 117 => ⟨S128, .f32⟩
  | 118 => ⟨S_, .f32⟩
  | 119 => ⟨S128, .f32⟩
  | 120 => ⟨S128, .f32⟩
  | 121 => ⟨S_, .i32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S10000x352, .f32⟩

abbrev hbmTy0_3 (i : Nat) : BufTy := match i % 128 with
  | 0 => ⟨S10000x128, .f32⟩
  | 1 => ⟨S10000x128, .f32⟩
  | 2 => ⟨S10000x128, .f32⟩
  | 3 => ⟨S_, .f32⟩
  | 4 => ⟨S_, .f32⟩
  | 5 => ⟨S_, .f32⟩
  | 6 => ⟨S_, .f32⟩
  | 7 => ⟨S128, .f32⟩
  | 8 => ⟨S128, .f32⟩
  | 9 => ⟨S128, .f32⟩
  | 10 => ⟨S_, .f32⟩
  | 11 => ⟨S_, .i1⟩
  | 12 => ⟨S_, .f32⟩
  | 13 => ⟨S_, .f32⟩
  | 14 => ⟨S128, .f32⟩
  | 15 => ⟨S128, .f32⟩
  | 16 => ⟨S1x128, .f32⟩
  | 17 => ⟨S10000x128, .f32⟩
  | 18 => ⟨S10000x128, .f32⟩
  | 19 => ⟨S_, .f32⟩
  | 20 => ⟨S128, .f32⟩
  | 21 => ⟨S128, .f32⟩
  | 22 => ⟨S128, .f32⟩
  | 23 => ⟨S1x128, .f32⟩
  | 24 => ⟨S10000x128, .f32⟩
  | 25 => ⟨S10000x128, .f32⟩
  | 26 => ⟨S1x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S_, .f32⟩
  | 33 => ⟨S10000x128, .f32⟩
  | 34 => ⟨S10000x128, .f32⟩
  | 35 => ⟨S10000x256, .f32⟩
  | 36 => ⟨S1x256, .f32⟩
  | 37 => ⟨S10000x256, .f32⟩
  | 38 => ⟨S10000x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S10000x256, .f32⟩
  | 52 => ⟨S10000x256, .f32⟩
  | 53 => ⟨S10000x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S10000x256, .f32⟩
  | 69 => ⟨S10000x256, .f32⟩
  | 70 => ⟨S_, .f32⟩
  | 71 => ⟨S256, .f32⟩
  | 72 => ⟨S256, .f32⟩
  | 73 => ⟨S256, .f32⟩
  | 74 => ⟨S1x256, .f32⟩
  | 75 => ⟨S10000x256, .f32⟩
  | 76 => ⟨S10000x256, .f32⟩
  | 77 => ⟨S1x256, .f32⟩
  | 78 => ⟨S10000x256, .f32⟩
  | 79 => ⟨S10000x256, .f32⟩
  | 80 => ⟨S1x256, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S10000x10000, .f32⟩
  | 87 => ⟨S1x10000, .f32⟩
  | 88 => ⟨S10000x10000, .f32⟩
  | 89 => ⟨S10000x10000, .f32⟩
  | 90 => ⟨S_, .f32⟩
  | 91 => ⟨S10000, .f32⟩
  | 92 => ⟨S_, .f32⟩
  | 93 => ⟨S10000, .f32⟩
  | 94 => ⟨S10000, .f32⟩
  | 95 => ⟨S10000x1, .f32⟩
  | 96 => ⟨S10000x10000, .f32⟩
  | 97 => ⟨S10000x10000, .f32⟩
  | 98 => ⟨S10000x10000, .f32⟩
  | 99 => ⟨S_, .f32⟩
  | 100 => ⟨S10000, .f32⟩
  | 101 => ⟨S10000x1, .f32⟩
  | 102 => ⟨S10000x1, .f32⟩
  | 103 => ⟨S10000x10000, .f32⟩
  | 104 => ⟨S10000x10000, .f32⟩
  | _ => ⟨S10000x352, .f32⟩

abbrev hbmTy (i : Nat) : BufTy := match i / 128 with
  | 0 => hbmTy0_0 i
  | 1 => hbmTy0_1 i
  | 2 => hbmTy0_2 i
  | 3 => hbmTy0_3 i
  | _ => ⟨S10000x352, .f32⟩

abbrev bufTy : (tb : Table) → Fin (tcTables nBuf tb) → BufTy
  | .hbm, ⟨i, _⟩ => hbmTy i
  | _, _ => ⟨S10000x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_call1_cst : Ref sig .tc := ⟨.hbm, 74, rfl⟩
abbrev main_call1_v0 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_2 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_cst_3 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_4 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_5 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_6 : Ref sig .tc := ⟨.hbm, 144, rfl⟩
abbrev main_v87 : Ref sig .tc := ⟨.hbm, 145, rfl⟩
abbrev main_cst_7 : Ref sig .tc := ⟨.hbm, 146, rfl⟩
abbrev main_v88 : Ref sig .tc := ⟨.hbm, 147, rfl⟩
abbrev main_v89 : Ref sig .tc := ⟨.hbm, 148, rfl⟩
abbrev main_c_8 : Ref sig .tc := ⟨.hbm, 149, rfl⟩
abbrev main_call2_cst : Ref sig .tc := ⟨.hbm, 150, rfl⟩
abbrev main_call2_v0 : Ref sig .tc := ⟨.hbm, 151, rfl⟩
abbrev main_call2_v1 : Ref sig .tc := ⟨.hbm, 152, rfl⟩
abbrev main_call2_cst_0 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_call2_v5 : Ref sig .tc := ⟨.hbm, 157, rfl⟩
abbrev main_call2_v6 : Ref sig .tc := ⟨.hbm, 158, rfl⟩
abbrev main_call2_v7 : Ref sig .tc := ⟨.hbm, 159, rfl⟩
abbrev main_call2_cst_1 : Ref sig .tc := ⟨.hbm, 160, rfl⟩
abbrev main_call2_v8 : Ref sig .tc := ⟨.hbm, 161, rfl⟩
abbrev main_call2_cst_2 : Ref sig .tc := ⟨.hbm, 162, rfl⟩
abbrev main_call2_v9 : Ref sig .tc := ⟨.hbm, 163, rfl⟩
abbrev main_call2_v10 : Ref sig .tc := ⟨.hbm, 164, rfl⟩
abbrev main_call2_v11 : Ref sig .tc := ⟨.hbm, 165, rfl⟩
abbrev main_call2_cst_3 : Ref sig .tc := ⟨.hbm, 166, rfl⟩
abbrev main_call2_v12 : Ref sig .tc := ⟨.hbm, 167, rfl⟩
abbrev main_call2_cst_4 : Ref sig .tc := ⟨.hbm, 168, rfl⟩
abbrev main_call2_call0_v0 : Ref sig .tc := ⟨.hbm, 169, rfl⟩
abbrev main_call2_call0_v1 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_cst_9 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_call3_cst : Ref sig .tc := ⟨.hbm, 188, rfl⟩
abbrev main_call3_v0 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_10 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_cst_11 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_12 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_cst_13 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_14 : Ref sig .tc := ⟨.hbm, 258, rfl⟩
abbrev main_v170 : Ref sig .tc := ⟨.hbm, 259, rfl⟩
abbrev main_cst_15 : Ref sig .tc := ⟨.hbm, 260, rfl⟩
abbrev main_v171 : Ref sig .tc := ⟨.hbm, 261, rfl⟩
abbrev main_v172 : Ref sig .tc := ⟨.hbm, 262, rfl⟩
abbrev main_c_16 : Ref sig .tc := ⟨.hbm, 263, rfl⟩
abbrev main_call4_cst : Ref sig .tc := ⟨.hbm, 264, rfl⟩
abbrev main_call4_v0 : Ref sig .tc := ⟨.hbm, 265, rfl⟩
abbrev main_call4_v1 : Ref sig .tc := ⟨.hbm, 266, rfl⟩
abbrev main_call4_cst_0 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_call4_v5 : Ref sig .tc := ⟨.hbm, 271, rfl⟩
abbrev main_call4_v6 : Ref sig .tc := ⟨.hbm, 272, rfl⟩
abbrev main_call4_v7 : Ref sig .tc := ⟨.hbm, 273, rfl⟩
abbrev main_call4_cst_1 : Ref sig .tc := ⟨.hbm, 274, rfl⟩
abbrev main_call4_v8 : Ref sig .tc := ⟨.hbm, 275, rfl⟩
abbrev main_call4_cst_2 : Ref sig .tc := ⟨.hbm, 276, rfl⟩
abbrev main_call4_v9 : Ref sig .tc := ⟨.hbm, 277, rfl⟩
abbrev main_call4_v10 : Ref sig .tc := ⟨.hbm, 278, rfl⟩
abbrev main_call4_v11 : Ref sig .tc := ⟨.hbm, 279, rfl⟩
abbrev main_call4_cst_3 : Ref sig .tc := ⟨.hbm, 280, rfl⟩
abbrev main_call4_v12 : Ref sig .tc := ⟨.hbm, 281, rfl⟩
abbrev main_call4_cst_4 : Ref sig .tc := ⟨.hbm, 282, rfl⟩
abbrev main_call4_call0_v0 : Ref sig .tc := ⟨.hbm, 283, rfl⟩
abbrev main_call4_call0_v1 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_cst_17 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_call5_cst : Ref sig .tc := ⟨.hbm, 302, rfl⟩
abbrev main_call5_v0 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_cst_18 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_cst_19 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_v230 : Ref sig .tc := ⟨.hbm, 347, rfl⟩
abbrev main_cst_20 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_cst_21 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_cst_22 : Ref sig .tc := ⟨.hbm, 372, rfl⟩
abbrev main_v253 : Ref sig .tc := ⟨.hbm, 373, rfl⟩
abbrev main_cst_23 : Ref sig .tc := ⟨.hbm, 374, rfl⟩
abbrev main_v254 : Ref sig .tc := ⟨.hbm, 375, rfl⟩
abbrev main_v255 : Ref sig .tc := ⟨.hbm, 376, rfl⟩
abbrev main_c_24 : Ref sig .tc := ⟨.hbm, 377, rfl⟩
abbrev main_call6_cst : Ref sig .tc := ⟨.hbm, 378, rfl⟩
abbrev main_call6_v0 : Ref sig .tc := ⟨.hbm, 379, rfl⟩
abbrev main_call6_v1 : Ref sig .tc := ⟨.hbm, 380, rfl⟩
abbrev main_call6_cst_0 : Ref sig .tc := ⟨.hbm, 381, rfl⟩
abbrev main_call6_v2 : Ref sig .tc := ⟨.hbm, 382, rfl⟩
abbrev main_call6_v3 : Ref sig .tc := ⟨.hbm, 383, rfl⟩
abbrev main_call6_v4 : Ref sig .tc := ⟨.hbm, 384, rfl⟩
abbrev main_call6_v5 : Ref sig .tc := ⟨.hbm, 385, rfl⟩
abbrev main_call6_v6 : Ref sig .tc := ⟨.hbm, 386, rfl⟩
abbrev main_call6_v7 : Ref sig .tc := ⟨.hbm, 387, rfl⟩
abbrev main_call6_cst_1 : Ref sig .tc := ⟨.hbm, 388, rfl⟩
abbrev main_call6_v8 : Ref sig .tc := ⟨.hbm, 389, rfl⟩
abbrev main_call6_cst_2 : Ref sig .tc := ⟨.hbm, 390, rfl⟩
abbrev main_call6_v9 : Ref sig .tc := ⟨.hbm, 391, rfl⟩
abbrev main_call6_v10 : Ref sig .tc := ⟨.hbm, 392, rfl⟩
abbrev main_call6_v11 : Ref sig .tc := ⟨.hbm, 393, rfl⟩
abbrev main_call6_cst_3 : Ref sig .tc := ⟨.hbm, 394, rfl⟩
abbrev main_call6_v12 : Ref sig .tc := ⟨.hbm, 395, rfl⟩
abbrev main_call6_cst_4 : Ref sig .tc := ⟨.hbm, 396, rfl⟩
abbrev main_call6_call0_v0 : Ref sig .tc := ⟨.hbm, 397, rfl⟩
abbrev main_call6_call0_v1 : Ref sig .tc := ⟨.hbm, 398, rfl⟩
abbrev main_v256 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_cst_25 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_call7_cst : Ref sig .tc := ⟨.hbm, 416, rfl⟩
abbrev main_call7_v0 : Ref sig .tc := ⟨.hbm, 417, rfl⟩
abbrev main_v272 : Ref sig .tc := ⟨.hbm, 418, rfl⟩
abbrev main_v273 : Ref sig .tc := ⟨.hbm, 419, rfl⟩
abbrev main_v274 : Ref sig .tc := ⟨.hbm, 420, rfl⟩
abbrev main_v275 : Ref sig .tc := ⟨.hbm, 421, rfl⟩
abbrev main_v276 : Ref sig .tc := ⟨.hbm, 422, rfl⟩
abbrev main_cst_26 : Ref sig .tc := ⟨.hbm, 423, rfl⟩
abbrev main_v277 : Ref sig .tc := ⟨.hbm, 424, rfl⟩
abbrev main_cst_27 : Ref sig .tc := ⟨.hbm, 425, rfl⟩
abbrev main_v278 : Ref sig .tc := ⟨.hbm, 426, rfl⟩
abbrev main_v279 : Ref sig .tc := ⟨.hbm, 427, rfl⟩
abbrev main_c_28 : Ref sig .tc := ⟨.hbm, 428, rfl⟩
abbrev main_call8_cst : Ref sig .tc := ⟨.hbm, 429, rfl⟩
abbrev main_call8_v0 : Ref sig .tc := ⟨.hbm, 430, rfl⟩
abbrev main_call8_v1 : Ref sig .tc := ⟨.hbm, 431, rfl⟩
abbrev main_call8_cst_0 : Ref sig .tc := ⟨.hbm, 432, rfl⟩
abbrev main_call8_v2 : Ref sig .tc := ⟨.hbm, 433, rfl⟩
abbrev main_call8_v3 : Ref sig .tc := ⟨.hbm, 434, rfl⟩
abbrev main_call8_v4 : Ref sig .tc := ⟨.hbm, 435, rfl⟩
abbrev main_call8_v5 : Ref sig .tc := ⟨.hbm, 436, rfl⟩
abbrev main_call8_v6 : Ref sig .tc := ⟨.hbm, 437, rfl⟩
abbrev main_call8_v7 : Ref sig .tc := ⟨.hbm, 438, rfl⟩
abbrev main_call8_cst_1 : Ref sig .tc := ⟨.hbm, 439, rfl⟩
abbrev main_call8_v8 : Ref sig .tc := ⟨.hbm, 440, rfl⟩
abbrev main_call8_cst_2 : Ref sig .tc := ⟨.hbm, 441, rfl⟩
abbrev main_call8_v9 : Ref sig .tc := ⟨.hbm, 442, rfl⟩
abbrev main_call8_v10 : Ref sig .tc := ⟨.hbm, 443, rfl⟩
abbrev main_call8_v11 : Ref sig .tc := ⟨.hbm, 444, rfl⟩
abbrev main_call8_cst_3 : Ref sig .tc := ⟨.hbm, 445, rfl⟩
abbrev main_call8_v12 : Ref sig .tc := ⟨.hbm, 446, rfl⟩
abbrev main_call8_cst_4 : Ref sig .tc := ⟨.hbm, 447, rfl⟩
abbrev main_call8_call0_v0 : Ref sig .tc := ⟨.hbm, 448, rfl⟩
abbrev main_call8_call0_v1 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_v283 : Ref sig .tc := ⟨.hbm, 453, rfl⟩
abbrev main_cst_29 : Ref sig .tc := ⟨.hbm, 454, rfl⟩
abbrev main_v284 : Ref sig .tc := ⟨.hbm, 455, rfl⟩
abbrev main_v285 : Ref sig .tc := ⟨.hbm, 456, rfl⟩
abbrev main_v286 : Ref sig .tc := ⟨.hbm, 457, rfl⟩
abbrev main_v287 : Ref sig .tc := ⟨.hbm, 458, rfl⟩
abbrev main_v288 : Ref sig .tc := ⟨.hbm, 459, rfl⟩
abbrev main_v289 : Ref sig .tc := ⟨.hbm, 460, rfl⟩
abbrev main_v290 : Ref sig .tc := ⟨.hbm, 461, rfl⟩
abbrev main_v291 : Ref sig .tc := ⟨.hbm, 462, rfl⟩
abbrev main_v292 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_call9_cst : Ref sig .tc := ⟨.hbm, 467, rfl⟩
abbrev main_call9_v0 : Ref sig .tc := ⟨.hbm, 468, rfl⟩
abbrev main_v296 : Ref sig .tc := ⟨.hbm, 469, rfl⟩
abbrev main_v297 : Ref sig .tc := ⟨.hbm, 470, rfl⟩
abbrev main_v298 : Ref sig .tc := ⟨.hbm, 471, rfl⟩
abbrev main_v299 : Ref sig .tc := ⟨.hbm, 472, rfl⟩
abbrev main_v300 : Ref sig .tc := ⟨.hbm, 473, rfl⟩
abbrev main_call10_cst : Ref sig .tc := ⟨.hbm, 474, rfl⟩
abbrev main_call10_v0 : Ref sig .tc := ⟨.hbm, 475, rfl⟩
abbrev main_call10_cst_0 : Ref sig .tc := ⟨.hbm, 476, rfl⟩
abbrev main_call10_v1 : Ref sig .tc := ⟨.hbm, 477, rfl⟩
abbrev main_call10_v2 : Ref sig .tc := ⟨.hbm, 478, rfl⟩
abbrev main_call10_v3 : Ref sig .tc := ⟨.hbm, 479, rfl⟩
abbrev main_call10_v4 : Ref sig .tc := ⟨.hbm, 480, rfl⟩
abbrev main_call10_v5 : Ref sig .tc := ⟨.hbm, 481, rfl⟩
abbrev main_call10_v6 : Ref sig .tc := ⟨.hbm, 482, rfl⟩
abbrev main_call10_cst_1 : Ref sig .tc := ⟨.hbm, 483, rfl⟩
abbrev main_call10_v7 : Ref sig .tc := ⟨.hbm, 484, rfl⟩
abbrev main_call10_v8 : Ref sig .tc := ⟨.hbm, 485, rfl⟩
abbrev main_call10_v9 : Ref sig .tc := ⟨.hbm, 486, rfl⟩
abbrev main_call10_v10 : Ref sig .tc := ⟨.hbm, 487, rfl⟩
abbrev main_v301 : Ref sig .tc := ⟨.hbm, 488, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S10000x64 : S_.BroadcastsInDim S10000x64 (![] : Fin 0 → Fin S10000x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  slices_S6x64x64_S1x64x64_0_0_0 : S6x64x64.Slices ![0, 0, 0] S1x64x64
  shapeCasts_S1x64x64_S64x64 : S1x64x64.ShapeCasts S64x64
  slices_S6x64x64_S1x64x64_1_0_0 : S6x64x64.Slices ![1, 0, 0] S1x64x64
  slices_S6x64x64_S1x64x64_2_0_0 : S6x64x64.Slices ![2, 0, 0] S1x64x64
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  slices_S6x64x128_S1x64x128_0_0_0 : S6x64x128.Slices ![0, 0, 0] S1x64x128
  shapeCasts_S1x64x128_S64x128 : S1x64x128.ShapeCasts S64x128
  slices_S6x64x128_S1x64x128_1_0_0 : S6x64x128.Slices ![1, 0, 0] S1x64x128
  slices_S6x64x128_S1x64x128_2_0_0 : S6x64x128.Slices ![2, 0, 0] S1x64x128
  slices_S6x64x128_S1x64x128_3_0_0 : S6x64x128.Slices ![3, 0, 0] S1x64x128
  slices_S6x64x128_S1x64x128_4_0_0 : S6x64x128.Slices ![4, 0, 0] S1x64x128
  slices_S6x64x128_S1x64x128_5_0_0 : S6x64x128.Slices ![5, 0, 0] S1x64x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  bcast_S_S128 : S_.BroadcastsInDim S128 (![] : Fin 0 → Fin S128.rank)
  bcast_S_S1x128 : S_.BroadcastsInDim S1x128 (![] : Fin 0 → Fin S1x128.rank)
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  bcast_S_S256 : S_.BroadcastsInDim S256 (![] : Fin 0 → Fin S256.rank)
  bcast_S_S1x256 : S_.BroadcastsInDim S1x256 (![] : Fin 0 → Fin S1x256.rank)
  bcast_S_S10000x256 : S_.BroadcastsInDim S10000x256 (![] : Fin 0 → Fin S10000x256.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  reducesTo_S10000x10000_S10000_d1 : S10000x10000.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  dot_S10000x352_S352x64_S10000x64_1_0_0_1_n_n_wf : DotDims.WF S10000x352 S352x64 S10000x64 [1] [0] [0] [1] [] []
  dot_S64x10000_S10000x64_S64x64_1_0_0_1_n_n_wf : DotDims.WF S64x10000 S10000x64 S64x64 [1] [0] [0] [1] [] []
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  dot_S10000x128_S128x256_S10000x256_1_0_0_1_n_n_wf : DotDims.WF S10000x128 S128x256 S10000x256 [1] [0] [0] [1] [] []
  dot_S10000x256_S256x10000_S10000x10000_1_0_0_1_n_n_wf : DotDims.WF S10000x256 S256x10000 S10000x10000 [1] [0] [0] [1] [] []

variable [Facts₀]

def dot_S10000x352_S352x64_S10000x64_1_0_0_1_n_n : DotDims S10000x352 S352x64 S10000x64 where
  lhsContracting := [1]
  rhsContracting := [0]
  lhsNonContracting := [0]
  rhsNonContracting := [1]
  lhsBatch := []
  rhsBatch := []
  wf := dot_S10000x352_S352x64_S10000x64_1_0_0_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf

class Facts : Prop extends Facts₀ where

variable [Facts]
-- ==== Proof.KernelRun.lean ====
/-
  The idealized kernel program's run with EVERY buffer named.

  The program is twelve segments: five stretches of host operations, the first pallas region (three spectral
  Chebyshev layers, each followed by batch normalisation and a rectifier, on one grid point), five more stretches
  of host operations (the dense layer, its batch normalisation and rectifier, the weight cast and the bias
  reshape), and the second region (the row-tiled matrix product with bias followed by the row-wise log-softmax,
  fifty grid points of two hundred rows). The buffer contents at the thirteen segment boundaries form a fold from
  the launch memory: a stretch applies its operations' composed function, a region replaces its windows' arrays by
  what its write-backs leave. This module states the run against the LAST boundary: every weakly fair execution
  terminates, nothing faults, and every unscoped TensorCore buffer — the two results among them — ends at the
  fold's final contents.
-/
import proofs.«135777_j83262236000435_2_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates without a fault, and
    in every final state each unscoped TensorCore buffer holds the last boundary's contents: the launch memory
    carried through the host stretches' functions and the two regions' write-backs. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.NamedRun

end
-- ==== Proof.RefRunOps0.lean ====
/- Window main_part0 of the reference program's @main as a table: its 83 operations in order, each call of a
   module-local function replaced by the callee's operations over that call's record of buffers (a callee's own call
   likewise), the operations' text as the program states them; the reference each operation writes; and, operation by
   operation, the lemma placing its buffers among the TensorCore's references. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order, the calls unfolded. -/
abbrev ops0 : List (HloOp τ sig (Elt F)) :=
  [ StableHlo.binary main_arg0 main_arg4 main_v0 ((fun l r => Host.dotGeneral dot_S10000x352_S352x64_S10000x64_1_0_0_1_n_n none l r) : (⟨S10000x352, .f32⟩ : BufTy).Contents (Elt F) → (⟨S352x64, .f32⟩ : BufTy).Contents (Elt F) → (⟨S10000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S10000x64 ![0, 1] bcast_S1x64_S10000x64_0_1 : (⟨S1x64, .f32⟩ : BufTy).Contents (Elt F) → (⟨S10000x64, .f32⟩ : BufTy).Contents (Elt F)),
    StableHlo.binary main_v0 main_v2 main_v3 (addf : (⟨S10000x64, .f32⟩ : BufTy).Contents (Elt F) → (⟨S10000x64, .f32⟩ : BufTy).Contents (Elt F) → (⟨S10000x64, .f32⟩ : BufTy).Contents (Elt F)),
    StableHlo.nullary main_cst (constant S_ .f32 0x00000000#32),
    StableHlo.binary main_v3 main_cst main_v4 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_0 (constant S_ .f32 0x461C4000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S10000x64, .f32⟩) main_call0.cst main_call0.v0 (fun x v => Host.reduceAdd x v reducesTo_S10000x64_S64_d0 h_S_),
    StableHlo.TRef.unary main_call0.v0 main_call0.v1 (broadcastInDim S1x64 ![1] bcast_S64_S1x64_1),
    StableHlo.TRef.nullary main_call0.cst_0 (constant S_ .f32 0x461C4000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S10000x64 ![0, 1] bcast_S1x64_S10000x64_0_1),
    StableHlo.TRef.binary (.of main_v3 : StableHlo.TRef sig ⟨S10000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S10000x64 ![0, 1] bcast_S1x64_S10000x64_0_1 : (⟨S1x64, .f32⟩ : BufTy).Contents (Elt F) → (⟨S10000x64, .f32⟩ : BufTy).Contents (Elt F)),
    StableHlo.binary main_v3 main_v9 main_v10 (subf : (⟨S10000x64, .f32⟩ : BufTy).Contents (Elt F) → (⟨S10000x64, .f32⟩ : BufTy).Contents (Elt F) → (⟨S10000x64, .f32⟩ : BufTy).Contents (Elt F)),
    StableHlo.nullary main_cst_1 (constant S_ .f32 0x3A83126F#32),
    StableHlo.unary main_cst_1 main_v11 (broadcastInDim S64 ![] bcast_S_S64 : (⟨S_, .f32⟩ : BufTy).Contents (Elt F) → (⟨S64, .f32⟩ : BufTy).Contents (Elt F)),
    StableHlo.binary main_v7 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.rsqrt : (⟨S64, .f32⟩ : BufTy).Contents (Elt F) → (⟨S64, .f32⟩ : BufTy).Contents (Elt F)),
    StableHlo.unary main_v13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S10000x64 ![0, 1] bcast_S1x64_S10000x64_0_1 : (⟨S1x64, .f32⟩ : BufTy).Contents (Elt F) → (⟨S10000x64, .f32⟩ : BufTy).Contents (Elt F)),
    StableHlo.binary main_v10 main_v15 main_v16 (mulf : (⟨S10000x64, .f32⟩ : BufTy).Contents (Elt F) → (⟨S10000x64, .f32⟩ : BufTy).Contents (Elt F) → (⟨S10000x64, .f32⟩ : BufTy).Contents (Elt F)),
    StableHlo.unary main_arg6 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S10000x64 ![0, 1] bcast_S1x64_S10000x64_0_1 : (⟨S1x64, .f32⟩ : BufTy).Contents (Elt F) → (⟨S10000x64, .f32⟩ : BufTy).Contents (Elt F)),
    StableHlo.binary main_v16 main_v18 main_v19 (mulf : (⟨S10000x64, .f32⟩ : BufTy).Contents (Elt F) → (⟨S10000x64, .f32⟩ : BufTy).Contents (Elt F) → (⟨S10000x64, .f32⟩ : BufTy).Contents (Elt F)),
    StableHlo.unary main_arg7 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S10000x64 ![0, 1] bcast_S1x64_S10000x64_0_1 : (⟨S1x64, .f32⟩ : BufTy).Contents (Elt F) → (⟨S10000x64, .f32⟩ : BufTy).Contents (Elt F)),
    StableHlo.binary main_v19 main_v21 main_v22 (addf : (⟨S10000x64, .f32⟩ : BufTy).Contents (Elt F) → (⟨S10000x64, .f32⟩ : BufTy).Contents (Elt F) → (⟨S10000x64, .f32⟩ : BufTy).Contents (Elt F)),
    StableHlo.TRef.nullary main_call1.cst (constant S_ .f32 0x00000000#32),
    StableHlo.TRef.unary main_call1.cst main_call1.v0 (broadcastInDim S10000x64 ![] bcast_S_S10000x64),
    StableHlo.TRef.binary (.of main_v22 : StableHlo.TRef sig ⟨S10000x64, .f32⟩) main_call1.v0 main_call1.v1 maximumf,
    StableHlo.unary main_arg3 main_v24 (broadcastInDim S64x1 ![0] bcast_S64_S64x1_0 : (⟨S64, .f32⟩ : BufTy).Contents (Elt F) → (⟨S64x1, .f32⟩ : BufTy).Contents (Elt F)),
    StableHlo.binary main_arg2 main_v23 main_v25 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v24 main_v26 (broadcastInDim S64x64 ![0, 1] bcast_S64x1_S64x64_0_1 : (⟨S64x1, .f32⟩ : BufTy).Contents (Elt F) → (⟨S64x64, .f32⟩ : BufTy).Contents (Elt F)),
    StableHlo.binary main_v26 main_v25 main_v27 (mulf : (⟨S64x64, .f32⟩ : BufTy).Contents (Elt F) → (⟨S64x64, .f32⟩ : BufTy).Contents (Elt F) → (⟨S64x64, .f32⟩ : BufTy).Contents (Elt F)),
    StableHlo.binary main_arg1 main_v27 main_v28 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg8 main_v29 ((extractStridedSlice S1x64x64 ![0, 0, 0] · slices_S6x64x64_S1x64x64_0_0_0) : (⟨S6x64x64, .f32⟩ : BufTy).Contents (Elt F) → (⟨S1x64x64, .f32⟩ : BufTy).Contents (Elt F)),
    StableHlo.reshape main_v29 main_v30 rfl shapeCasts_S1x64x64_S64x64,
    StableHlo.binary main_v23 main_v30 main_v31 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg8 main_v32 ((extractStridedSlice S1x64x64 ![1, 0, 0] · slices_S6x64x64_S1x64x64_1_0_0) : (⟨S6x64x64, .f32⟩ : BufTy).Contents (Elt F) → (⟨S1x64x64, .f32⟩ : BufTy).Contents (Elt F)),
    StableHlo.reshape main_v32 main_v33 rfl shapeCasts_S1x64x64_S64x64,
    StableHlo.binary main_v28 main_v33 main_v34 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v31 main_v34 main_v35 (addf : (⟨S10000x64, .f32⟩ : BufTy).Contents (Elt F) → (⟨S10000x64, .f32⟩ : BufTy).Contents (Elt F) → (⟨S10000x64, .f32⟩ : BufTy).Contents (Elt F)),
    StableHlo.unary main_arg3 main_v36 (broadcastInDim S64x1 ![0] bcast_S64_S64x1_0 : (⟨S64, .f32⟩ : BufTy).Contents (Elt F) → (⟨S64x1, .f32⟩ : BufTy).Contents (Elt F)),
    StableHlo.binary main_arg2 main_v28 main_v37 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v36 main_v38 (broadcastInDim S64x64 ![0, 1] bcast_S64x1_S64x64_0_1 : (⟨S64x1, .f32⟩ : BufTy).Contents (Elt F) → (⟨S64x64, .f32⟩ : BufTy).Contents (Elt F)),
    StableHlo.binary main_v38 main_v37 main_v39 (mulf : (⟨S64x64, .f32⟩ : BufTy).Contents (Elt F) → (⟨S64x64, .f32⟩ : BufTy).Contents (Elt F) → (⟨S64x64, .f32⟩ : BufTy).Contents (Elt F)),
    StableHlo.binary main_arg1 main_v39 main_v40 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_2 (constant S_ .f32 0x40000000#32),
    StableHlo.unary main_cst_2 main_v41 (broadcastInDim S10000x64 ![] bcast_S_S10000x64 : (⟨S_, .f32⟩ : BufTy).Contents (Elt F) → (⟨S10000x64, .f32⟩ : BufTy).Contents (Elt F)),
    StableHlo.binary main_v41 main_v40 main_v42 (mulf : (⟨S10000x64, .f32⟩ : BufTy).Contents (Elt F) → (⟨S10000x64, .f32⟩ : BufTy).Contents (Elt F) → (⟨S10000x64, .f32⟩ : BufTy).Contents (Elt F)),
    StableHlo.binary main_v42 main_v23 main_v43 (subf : (⟨S10000x64, .f32⟩ : BufTy).Contents (Elt F) → (⟨S10000x64, .f32⟩ : BufTy).Contents (Elt F) → (⟨S10000x64, .f32⟩ : BufTy).Contents (Elt F)),
    StableHlo.unary main_arg8 main_v44 ((extractStridedSlice S1x64x64 ![2, 0, 0] · slices_S6x64x64_S1x64x64_2_0_0) : (⟨S6x64x64, .f32⟩ : BufTy).Contents (Elt F) → (⟨S1x64x64, .f32⟩ : BufTy).Contents (Elt F)),
    StableHlo.reshape main_v44 main_v45 rfl shapeCasts_S1x64x64_S64x64,
    StableHlo.binary main_v43 main_v45 main_v46 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v35 main_v46 main_v47 (addf : (⟨S10000x64, .f32⟩ : BufTy).Contents (Elt F) → (⟨S10000x64, .f32⟩ : BufTy).Contents (Elt F) → (⟨S10000x64, .f32⟩ : BufTy).Contents (Elt F)),
    StableHlo.unary main_arg3 main_v48 (broadcastInDim S64x1 ![0] bcast_S64_S64x1_0 : (⟨S64, .f32⟩ : BufTy).Contents (Elt F) → (⟨S64x1, .f32⟩ : BufTy).Contents (Elt F)),
    StableHlo.binary main_arg2 main_v43 main_v49 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v48 main_v50 (broadcastInDim S64x64 ![0, 1] bcast_S64x1_S64x64_0_1 : (⟨S64x1, .f32⟩ : BufTy).Contents (Elt F) → (⟨S64x64, .f32⟩ : BufTy).Contents (Elt F)),
    StableHlo.binary main_v50 main_v49 main_v51 (mulf : (⟨S64x64, .f32⟩ : BufTy).Contents (Elt F) → (⟨S64x64, .f32⟩ : BufTy).Contents (Elt F) → (⟨S64x64, .f32⟩ : BufTy).Contents (Elt F)),
    StableHlo.binary main_arg1 main_v51 main_v52 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_3 (constant S_ .f32 0x40000000#32),
    StableHlo.unary main_cst_3 main_v53 (broadcastInDim S10000x64 ![] bcast_S_S10000x64 : (⟨S_, .f32⟩ : BufTy).Contents (Elt F) → (⟨S10000x64, .f32⟩ : BufTy).Contents (Elt F)) ]

/-- The reference each of those operations writes, in the same order. -/
abbrev ops0_W : List (Ref sig .tc) :=
  [ main_v0,
    main_v1,
    main_v2,
    main_v3,
    main_cst,
    main_v4,
    main_cst_0,
    main_v5,
    main_v6,
    main_c,
    main_call0.cst.ref,
    main_call0.v0.ref,
    main_call0.v1.ref,
    main_call0.cst_0.ref,
    main_call0.v2.ref,
    main_call0.v3.ref,
    main_call0.v4.ref,
    main_call0.v5.ref,
    main_call0.v6.ref,
    main_call0.v7.ref,
    main_call0.cst_1.ref,
    main_call0.v8.ref,
    main_call0.cst_2.ref,
    main_call0.v9.ref,
    main_call0.v10.ref,
    main_call0.v11.ref,
    main_call0.cst_3.ref,
    main_call0.v12.ref,
    main_call0.cst_4.ref,
    main_call0.call0.v0.ref,
    main_call0.call0.v1.ref,
    main_call0.call0.v2.ref,
    main_v8,
    main_v9,
    main_v10,
    main_cst_1,
    main_v11,
    main_v12,
    main_v13,
    main_v14,
    main_v15,
    main_v16,
    main_v17,
    main_v18,
    main_v19,
    main_v20,
    main_v21,
    main_v22,
    main_call1.cst.ref,
    main_call1.v0.ref,
    main_call1.v1.ref,
    main_v24,
    main_v25,
    main_v26,
    main_v27,
    main_v28,
    main_v29,
    main_v30,
    main_v31,
    main_v32,
    main_v33,
    main_v34,
    main_v35,
    main_v36,
    main_v37,
    main_v38,
    main_v39,
    main_v40,
    main_cst_2,
    main_v41,
    main_v42,
    main_v43,
    main_v44,
    main_v45,
    main_v46,
    main_v47,
    main_v48,
    main_v49,
    main_v50,
    main_v51,
    main_v52,
    main_cst_3,
    main_v53 ]

set_option maxRecDepth 8192 in
/-- Every operation of the window touches TensorCore references only. -/
theorem ops0_sub : (ops0 : List (HloOp τ sig (Elt F))).Forall fun op => op.bufs ⊆ tcRefs τ sig :=
  ⟨binary_bufs_sub ..,
   unary_bufs_sub ..,
   unary_bufs_sub ..,
   binary_bufs_sub ..,
   nullary_bufs_sub ..,
   binary_bufs_sub ..,
   nullary_bufs_sub ..,
   unary_bufs_sub ..,
   binary_bufs_sub ..,
   nullary_bufs_sub ..,
   nullary_bufs_sub ..,
   binary_bufs_sub ..,
   unary_bufs_sub ..,
   nullary_bufs_sub ..,
   unary_bufs_sub ..,
   binary_bufs_sub ..,
   unary_bufs_sub ..,
   binary_bufs_sub ..,
   binary_bufs_sub ..,
   unary_bufs_sub ..,
   nullary_bufs_sub ..,
   binary_bufs_sub ..,
   nullary_bufs_sub ..,
   binary_bufs_sub ..,
   unary_bufs_sub ..,
   binary_bufs_sub ..,
   nullary_bufs_sub ..,
   binary_bufs_sub ..,
   nullary_bufs_sub ..,
   unary_bufs_sub ..,
   unary_bufs_sub ..,
   ternary_bufs_sub ..,
   unary_bufs_sub ..,
   unary_bufs_sub ..,
   binary_bufs_sub ..,
   nullary_bufs_sub ..,
   unary_bufs_sub ..,
   binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..,
   nullary_bufs_sub ..,
   unary_bufs_sub ..,
   binary_bufs_sub ..,
   unary_bufs_sub ..,
   binary_bufs_sub ..,
   unary_bufs_sub ..,
   binary_bufs_sub ..,
   binary_bufs_sub ..,
   unary_bufs_sub ..,
   reshape_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..⟩

end Cert.ReferenceIdeal.RefRun

end
-- ==== Proof.RefRunEq0.lean ====
/-
  Window 0 of the reference program's @main (`main_part0`) is the straight line of the operations `ops0`:
  a call of a module-local function means its body, substituted (the printed form's meaning of a call), so
  unfolding each function's definition at its call sites, and the calls' records at their fields, leaves one
  chain of `hlo` steps; reassociating the sequencing (`bind_assoc`, `pure_bind`) makes it `seq ops0`.
  None of the operations leaves a buffer undetermined (`fresh` is empty for every builder used here), each
  writes exactly one reference, the one listed at its place in `ops0_W`, and so a reference that is not in
  that list holds after the window what it held before it.
-/
import proofs.«135777_j83262236000435_2_alg».proof.Proof.RefRunOps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is the straight line of its operations. -/
theorem part0_eq (c : Dev nD) : main_part0 (F := F) c = seq ops0 := by
  simp only [main_part0, fn_where.body, fn_var.body, fn_relu.body, fn_where_1.body, fn_var_0.body, fn_relu_2.body, fn_where_4.body, fn_var_3.body, fn_relu_5.body, fn_log_softmax.body,
    seq, bind_assoc, pure_bind]
  rfl

set_option maxRecDepth 16384 in
/-- Every operation of the window determines all that it writes. -/
theorem ops0_fresh : (ops0 : List (HloOp τ sig (Elt F))).Forall fun op => op.fresh = ∅ := by
  simp only [ops0, List.Forall]
  repeat' constructor

set_option maxRecDepth 16384 in
set_option maxHeartbeats 4000000 in
/-- Each operation writes the one reference listed at its place in `ops0_W`. -/
theorem ops0_writes : (ops0 : List (HloOp τ sig (Elt F))).Forall fun op =>
    op.writes ⊆ (ops0_W.map (Proc.devRef (τ := τ) .tc)).toFinset := by
  simp only [ops0, List.Forall]
  repeat' apply And.intro
  all_goals
    simp only [nullary_writes, unary_writes, binary_writes, ternary_writes, reshape_writes,
      Finset.singleton_subset_iff, List.mem_toFinset]
    exact List.mem_map_of_mem (by decide)

/-- A reference the window does not write holds after it what it held before. -/
theorem ops0_keeps (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.RefRunOps1.lean ====
/- Window main_part1 of the reference program's @main as a table: its 83 operations in order, each call of a
   module-local function replaced by the callee's operations over that call's record of buffers (a callee's own call
   likewise), the operations' text as the program states them; the reference each operation writes; and, operation by
   operation, the lemma placing its buffers among the TensorCore's references. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 1, in order, the calls unfolded. -/
abbrev ops1 : List (HloOp τ sig (Elt F)) :=
  [ StableHlo.binary main_v53 main_v52 main_v54 (mulf : (⟨S10000x64, .f32⟩ : BufTy).Contents (Elt F) → (⟨S10000x64, .f32⟩ : BufTy).Contents (Elt F) → (⟨S10000x64, .f32⟩ : BufTy).Contents (Elt F)),
    StableHlo.binary main_v54 main_v28 main_v55 (subf : (⟨S10000x64, .f32⟩ : BufTy).Contents (Elt F) → (⟨S10000x64, .f32⟩ : BufTy).Contents (Elt F) → (⟨S10000x64, .f32⟩ : BufTy).Contents (Elt F)),
    StableHlo.unary main_arg8 main_v56 ((extractStridedSlice S1x64x64 ![3, 0, 0] · slices_S6x64x64_S1x64x64_3_0_0) : (⟨S6x64x64, .f32⟩ : BufTy).Contents (Elt F) → (⟨S1x64x64, .f32⟩ : BufTy).Contents (Elt F)),
    StableHlo.reshape main_v56 main_v57 rfl shapeCasts_S1x64x64_S64x64,
    StableHlo.binary main_v55 main_v57 main_v58 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v47 main_v58 main_v59 (addf : (⟨S10000x64, .f32⟩ : BufTy).Contents (Elt F) → (⟨S10000x64, .f32⟩ : BufTy).Contents (Elt F) → (⟨S10000x64, .f32⟩ : BufTy).Contents (Elt F)),
    StableHlo.unary main_arg3 main_v60 (broadcastInDim S64x1 ![0] bcast_S64_S64x1_0 : (⟨S64, .f32⟩ : BufTy).Contents (Elt F) → (⟨S64x1, .f32⟩ : BufTy).Contents (Elt F)),
    StableHlo.binary main_arg2 main_v55 main_v61 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v60 main_v62 (broadcastInDim S64x64 ![0, 1] bcast_S64x1_S64x64_0_1 : (⟨S64x1, .f32⟩ : BufTy).Contents (Elt F) → (⟨S64x64, .f32⟩ : BufTy).Contents (Elt F)),
    StableHlo.binary main_v62 main_v61 main_v63 (mulf : (⟨S64x64, .f32⟩ : BufTy).Contents (Elt F) → (⟨S64x64, .f32⟩ : BufTy).Contents (Elt F) → (⟨S64x64, .f32⟩ : BufTy).Contents (Elt F)),
    StableHlo.binary main_arg1 main_v63 main_v64 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_4 (constant S_ .f32 0x40000000#32),
    StableHlo.unary main_cst_4 main_v65 (broadcastInDim S10000x64 ![] bcast_S_S10000x64 : (⟨S_, .f32⟩ : BufTy).Contents (Elt F) → (⟨S10000x64, .f32⟩ : BufTy).Contents (Elt F)),
    StableHlo.binary main_v65 main_v64 main_v66 (mulf : (⟨S10000x64, .f32⟩ : BufTy).Contents (Elt F) → (⟨S10000x64, .f32⟩ : BufTy).Contents (Elt F) → (⟨S10000x64, .f32⟩ : BufTy).Contents (Elt F)),
    StableHlo.binary main_v66 main_v43 main_v67 (subf : (⟨S10000x64, .f32⟩ : BufTy).Contents (Elt F) → (⟨S10000x64, .f32⟩ : BufTy).Contents (Elt F) → (⟨S10000x64, .f32⟩ : BufTy).Contents (Elt F)),
    StableHlo.unary main_arg8 main_v68 ((extractStridedSlice S1x64x64 ![4, 0, 0] · slices_S6x64x64_S1x64x64_4_0_0) : (⟨S6x64x64, .f32⟩ : BufTy).Contents (Elt F) → (⟨S1x64x64, .f32⟩ : BufTy).Contents (Elt F)),
    StableHlo.reshape main_v68 main_v69 rfl shapeCasts_S1x64x64_S64x64,
    StableHlo.binary main_v67 main_v69 main_v70 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v59 main_v70 main_v71 (addf : (⟨S10000x64, .f32⟩ : BufTy).Contents (Elt F) → (⟨S10000x64, .f32⟩ : BufTy).Contents (Elt F) → (⟨S10000x64, .f32⟩ : BufTy).Contents (Elt F)),
    StableHlo.unary main_arg3 main_v72 (broadcastInDim S64x1 ![0] bcast_S64_S64x1_0 : (⟨S64, .f32⟩ : BufTy).Contents (Elt F) → (⟨S64x1, .f32⟩ : BufTy).Contents (Elt F)),
    StableHlo.binary main_arg2 main_v67 main_v73 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v72 main_v74 (broadcastInDim S64x64 ![0, 1] bcast_S64x1_S64x64_0_1 : (⟨S64x1, .f32⟩ : BufTy).Contents (Elt F) → (⟨S64x64, .f32⟩ : BufTy).Contents (Elt F)),
    StableHlo.binary main_v74 main_v73 main_v75 (mulf : (⟨S64x64, .f32⟩ : BufTy).Contents (Elt F) → (⟨S64x64, .f32⟩ : BufTy).Contents (Elt F) → (⟨S64x64, .f32⟩ : BufTy).Contents (Elt F)),
    StableHlo.binary main_arg1 main_v75 main_v76 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_5 (constant S_ .f32 0x40000000#32),
    StableHlo.unary main_cst_5 main_v77 (broadcastInDim S10000x64 ![] bcast_S_S10000x64 : (⟨S_, .f32⟩ : BufTy).Contents (Elt F) → (⟨S10000x64, .f32⟩ : BufTy).Contents (Elt F)),
    StableHlo.binary main_v77 main_v76 main_v78 (mulf : (⟨S10000x64, .f32⟩ : BufTy).Contents (Elt F) → (⟨S10000x64, .f32⟩ : BufTy).Contents (Elt F) → (⟨S10000x64, .f32⟩ : BufTy).Contents (Elt F)),
    StableHlo.binary main_v78 main_v55 main_v79 (subf : (⟨S10000x64, .f32⟩ : BufTy).Contents (Elt F) → (⟨S10000x64, .f32⟩ : BufTy).Contents (Elt F) → (⟨S10000x64, .f32⟩ : BufTy).Contents (Elt F)),
    StableHlo.unary main_arg8 main_v80 ((extractStridedSlice S1x64x64 ![5, 0, 0] · slices_S6x64x64_S1x64x64_5_0_0) : (⟨S6x64x64, .f32⟩ : BufTy).Contents (Elt F) → (⟨S1x64x64, .f32⟩ : BufTy).Contents (Elt F)),
    StableHlo.reshape main_v80 main_v81 rfl shapeCasts_S1x64x64_S64x64,
    StableHlo.binary main_v79 main_v81 main_v82 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v71 main_v82 main_v83 (addf : (⟨S10000x64, .f32⟩ : BufTy).Contents (Elt F) → (⟨S10000x64, .f32⟩ : BufTy).Contents (Elt F) → (⟨S10000x64, .f32⟩ : BufTy).Contents (Elt F)),
    StableHlo.unary main_arg9 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S10000x64 ![0, 1] bcast_S1x64_S10000x64_0_1 : (⟨S1x64, .f32⟩ : BufTy).Contents (Elt F) → (⟨S10000x64, .f32⟩ : BufTy).Contents (Elt F)),
    StableHlo.binary main_v83 main_v85 main_v86 (addf : (⟨S10000x64, .f32⟩ : BufTy).Contents (Elt F) → (⟨S10000x64, .f32⟩ : BufTy).Contents (Elt F) → (⟨S10000x64, .f32⟩ : BufTy).Contents (Elt F)),
    StableHlo.nullary main_cst_6 (constant S_ .f32 0x00000000#32),
    StableHlo.binary main_v86 main_cst_6 main_v87 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_7 (constant S_ .f32 0x461C4000#32),
    StableHlo.unary main_cst_7 main_v88 (broadcastInDim S64 ![] bcast_S_S64 : (⟨S_, .f32⟩ : BufTy).Contents (Elt F) → (⟨S64, .f32⟩ : BufTy).Contents (Elt F)),
    StableHlo.binary main_v87 main_v88 main_v89 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call2.cst (constant S_ .f32 0x00000000#32),
    StableHlo.TRef.binary (.of main_v86 : StableHlo.TRef sig ⟨S10000x64, .f32⟩) main_call2.cst main_call2.v0 (fun x v => Host.reduceAdd x v reducesTo_S10000x64_S64_d0 h_S_),
    StableHlo.TRef.unary main_call2.v0 main_call2.v1 (broadcastInDim S1x64 ![1] bcast_S64_S1x64_1),
    StableHlo.TRef.nullary main_call2.cst_0 (constant S_ .f32 0x461C4000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S10000x64 ![0, 1] bcast_S1x64_S10000x64_0_1),
    StableHlo.TRef.binary (.of main_v86 : StableHlo.TRef sig ⟨S10000x64, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v89 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S10000x64 ![0, 1] bcast_S1x64_S10000x64_0_1 : (⟨S1x64, .f32⟩ : BufTy).Contents (Elt F) → (⟨S10000x64, .f32⟩ : BufTy).Contents (Elt F)),
    StableHlo.binary main_v86 main_v92 main_v93 (subf : (⟨S10000x64, .f32⟩ : BufTy).Contents (Elt F) → (⟨S10000x64, .f32⟩ : BufTy).Contents (Elt F) → (⟨S10000x64, .f32⟩ : BufTy).Contents (Elt F)),
    StableHlo.nullary main_cst_9 (constant S_ .f32 0x3A83126F#32),
    StableHlo.unary main_cst_9 main_v94 (broadcastInDim S64 ![] bcast_S_S64 : (⟨S_, .f32⟩ : BufTy).Contents (Elt F) → (⟨S64, .f32⟩ : BufTy).Contents (Elt F)),
    StableHlo.binary main_v90 main_v94 main_v95 (addf : (⟨S64, .f32⟩ : BufTy).Contents (Elt F) → (⟨S64, .f32⟩ : BufTy).Contents (Elt F) → (⟨S64, .f32⟩ : BufTy).Contents (Elt F)),
    StableHlo.unary main_v95 main_v96 (Host.rsqrt : (⟨S64, .f32⟩ : BufTy).Contents (Elt F) → (⟨S64, .f32⟩ : BufTy).Contents (Elt F)),
    StableHlo.unary main_v96 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S10000x64 ![0, 1] bcast_S1x64_S10000x64_0_1 : (⟨S1x64, .f32⟩ : BufTy).Contents (Elt F) → (⟨S10000x64, .f32⟩ : BufTy).Contents (Elt F)),
    StableHlo.binary main_v93 main_v98 main_v99 (mulf : (⟨S10000x64, .f32⟩ : BufTy).Contents (Elt F) → (⟨S10000x64, .f32⟩ : BufTy).Contents (Elt F) → (⟨S10000x64, .f32⟩ : BufTy).Contents (Elt F)),
    StableHlo.unary main_arg10 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S10000x64 ![0, 1] bcast_S1x64_S10000x64_0_1 : (⟨S1x64, .f32⟩ : BufTy).Contents (Elt F) → (⟨S10000x64, .f32⟩ : BufTy).Contents (Elt F)),
    StableHlo.binary main_v99 main_v101 main_v102 (mulf : (⟨S10000x64, .f32⟩ : BufTy).Contents (Elt F) → (⟨S10000x64, .f32⟩ : BufTy).Contents (Elt F) → (⟨S10000x64, .f32⟩ : BufTy).Contents (Elt F)),
    StableHlo.unary main_arg11 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S10000x64 ![0, 1] bcast_S1x64_S10000x64_0_1 : (⟨S1x64, .f32⟩ : BufTy).Contents (Elt F) → (⟨S10000x64, .f32⟩ : BufTy).Contents (Elt F)),
    StableHlo.binary main_v102 main_v104 main_v105 (addf : (⟨S10000x64, .f32⟩ : BufTy).Contents (Elt F) → (⟨S10000x64, .f32⟩ : BufTy).Contents (Elt F) → (⟨S10000x64, .f32⟩ : BufTy).Contents (Elt F)),
    StableHlo.TRef.nullary main_call3.cst (constant S_ .f32 0x00000000#32),
    StableHlo.TRef.unary main_call3.cst main_call3.v0 (broadcastInDim S10000x64 ![] bcast_S_S10000x64),
    StableHlo.TRef.binary (.of main_v105 : StableHlo.TRef sig ⟨S10000x64, .f32⟩) main_call3.v0 main_call3.v1 maximumf,
    StableHlo.unary main_arg3 main_v107 (broadcastInDim S64x1 ![0] bcast_S64_S64x1_0 : (⟨S64, .f32⟩ : BufTy).Contents (Elt F) → (⟨S64x1, .f32⟩ : BufTy).Contents (Elt F)) ]

/-- The reference each of those operations writes, in the same order. -/
abbrev ops1_W : List (Ref sig .tc) :=
  [ main_v54,
    main_v55,
    main_v56,
    main_v57,
    main_v58,
    main_v59,
    main_v60,
    main_v61,
    main_v62,
    main_v63,
    main_v64,
    main_cst_4,
    main_v65,
    main_v66,
    main_v67,
    main_v68,
    main_v69,
    main_v70,
    main_v71,
    main_v72,
    main_v73,
    main_v74,
    main_v75,
    main_v76,
    main_cst_5,
    main_v77,
    main_v78,
    main_v79,
    main_v80,
    main_v81,
    main_v82,
    main_v83,
    main_v84,
    main_v85,
    main_v86,
    main_cst_6,
    main_v87,
    main_cst_7,
    main_v88,
    main_v89,
    main_c_8,
    main_call2.cst.ref,
    main_call2.v0.ref,
    main_call2.v1.ref,
    main_call2.cst_0.ref,
    main_call2.v2.ref,
    main_call2.v3.ref,
    main_call2.v4.ref,
    main_call2.v5.ref,
    main_call2.v6.ref,
    main_call2.v7.ref,
    main_call2.cst_1.ref,
    main_call2.v8.ref,
    main_call2.cst_2.ref,
    main_call2.v9.ref,
    main_call2.v10.ref,
    main_call2.v11.ref,
    main_call2.cst_3.ref,
    main_call2.v12.ref,
    main_call2.cst_4.ref,
    main_call2.call0.v0.ref,
    main_call2.call0.v1.ref,
    main_call2.call0.v2.ref,
    main_v91,
    main_v92,
    main_v93,
    main_cst_9,
    main_v94,
    main_v95,
    main_v96,
    main_v97,
    main_v98,
    main_v99,
    main_v100,
    main_v101,
    main_v102,
    main_v103,
    main_v104,
    main_v105,
    main_call3.cst.ref,
    main_call3.v0.ref,
    main_call3.v1.ref,
    main_v107 ]

set_option maxRecDepth 8192 in
/-- Every operation of the window touches TensorCore references only. -/
theorem ops1_sub : (ops1 : List (HloOp τ sig (Elt F))).Forall fun op => op.bufs ⊆ tcRefs τ sig :=
  ⟨binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   unary_bufs_sub ..,
   binary_bufs_sub ..,
   nullary_bufs_sub ..,
   binary_bufs_sub ..,
   nullary_bufs_sub ..,
   unary_bufs_sub ..,
   binary_bufs_sub ..,
   nullary_bufs_sub ..,
   nullary_bufs_sub ..,
   binary_bufs_sub ..,
   unary_bufs_sub ..,
   nullary_bufs_sub ..,
   unary_bufs_sub ..,
   binary_bufs_sub ..,
   unary_bufs_sub ..,
   binary_bufs_sub ..,
   binary_bufs_sub ..,
   unary_bufs_sub ..,
   nullary_bufs_sub ..,
   binary_bufs_sub ..,
   nullary_bufs_sub ..,
   binary_bufs_sub ..,
   unary_bufs_sub ..,
   binary_bufs_sub ..,
   nullary_bufs_sub ..,
   binary_bufs_sub ..,
   nullary_bufs_sub ..,
   unary_bufs_sub ..,
   unary_bufs_sub ..,
   ternary_bufs_sub ..,
   unary_bufs_sub ..,
   unary_bufs_sub ..,
   binary_bufs_sub ..,
   nullary_bufs_sub ..,
   unary_bufs_sub ..,
   binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..,
   nullary_bufs_sub ..,
   unary_bufs_sub ..,
   binary_bufs_sub ..,
   unary_bufs_sub ..⟩

end Cert.ReferenceIdeal.RefRun

end
-- ==== Proof.RefRunEq1.lean ====
/-
  Window 1 of the reference program's @main (`main_part1`) is the straight line of the operations `ops1`:
  a call of a module-local function means its body, substituted (the printed form's meaning of a call), so
  unfolding each function's definition at its call sites, and the calls' records at their fields, leaves one
  chain of `hlo` steps; reassociating the sequencing (`bind_assoc`, `pure_bind`) makes it `seq ops1`.
  None of the operations leaves a buffer undetermined (`fresh` is empty for every builder used here), each
  writes exactly one reference, the one listed at its place in `ops1_W`, and so a reference that is not in
  that list holds after the window what it held before it.
-/
import proofs.«135777_j83262236000435_2_alg».proof.Proof.RefRunOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is the straight line of its operations. -/
theorem part1_eq (c : Dev nD) : main_part1 (F := F) c = seq ops1 := by
  simp only [main_part1, fn_where.body, fn_var.body, fn_relu.body, fn_where_1.body, fn_var_0.body, fn_relu_2.body, fn_where_4.body, fn_var_3.body, fn_relu_5.body, fn_log_softmax.body,
    seq, bind_assoc, pure_bind]
  rfl

set_option maxRecDepth 16384 in
/-- Every operation of the window determines all that it writes. -/
theorem ops1_fresh : (ops1 : List (HloOp τ sig (Elt F))).Forall fun op => op.fresh = ∅ := by
  simp only [ops1, List.Forall]
  repeat' constructor

set_option maxRecDepth 16384 in
set_option maxHeartbeats 4000000 in
/-- Each operation writes the one reference listed at its place in `ops1_W`. -/
theorem ops1_writes : (ops1 : List (HloOp τ sig (Elt F))).Forall fun op =>
    op.writes ⊆ (ops1_W.map (Proc.devRef (τ := τ) .tc)).toFinset := by
  simp only [ops1, List.Forall]
  repeat' apply And.intro
  all_goals
    simp only [nullary_writes, unary_writes, binary_writes, ternary_writes, reshape_writes,
      Finset.singleton_subset_iff, List.mem_toFinset]
    exact List.mem_map_of_mem (by decide)

/-- A reference the window does not write holds after it what it held before. -/
theorem ops1_keeps (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefRunOps2.lean ====
/- Window main_part2 of the reference program's @main as a table: its 60 operations in order, each call of a
   module-local function replaced by the callee's operations over that call's record of buffers (a callee's own call
   likewise), the operations' text as the program states them; the reference each operation writes; and, operation by
   operation, the lemma placing its buffers among the TensorCore's references. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 2, in order, the calls unfolded. -/
abbrev ops2 : List (HloOp τ sig (Elt F)) :=
  [ StableHlo.binary main_arg2 main_v106 main_v108 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v107 main_v109 (broadcastInDim S64x64 ![0, 1] bcast_S64x1_S64x64_0_1 : (⟨S64x1, .f32⟩ : BufTy).Contents (Elt F) → (⟨S64x64, .f32⟩ : BufTy).Contents (Elt F)),
    StableHlo.binary main_v109 main_v108 main_v110 (mulf : (⟨S64x64, .f32⟩ : BufTy).Contents (Elt F) → (⟨S64x64, .f32⟩ : BufTy).Contents (Elt F) → (⟨S64x64, .f32⟩ : BufTy).Contents (Elt F)),
    StableHlo.binary main_arg1 main_v110 main_v111 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg12 main_v112 ((extractStridedSlice S1x64x64 ![0, 0, 0] · slices_S6x64x64_S1x64x64_0_0_0) : (⟨S6x64x64, .f32⟩ : BufTy).Contents (Elt F) → (⟨S1x64x64, .f32⟩ : BufTy).Contents (Elt F)),
    StableHlo.reshape main_v112 main_v113 rfl shapeCasts_S1x64x64_S64x64,
    StableHlo.binary main_v106 main_v113 main_v114 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg12 main_v115 ((extractStridedSlice S1x64x64 ![1, 0, 0] · slices_S6x64x64_S1x64x64_1_0_0) : (⟨S6x64x64, .f32⟩ : BufTy).Contents (Elt F) → (⟨S1x64x64, .f32⟩ : BufTy).Contents (Elt F)),
    StableHlo.reshape main_v115 main_v116 rfl shapeCasts_S1x64x64_S64x64,
    StableHlo.binary main_v111 main_v116 main_v117 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v114 main_v117 main_v118 (addf : (⟨S10000x64, .f32⟩ : BufTy).Contents (Elt F) → (⟨S10000x64, .f32⟩ : BufTy).Contents (Elt F) → (⟨S10000x64, .f32⟩ : BufTy).Contents (Elt F)),
    StableHlo.unary main_arg3 main_v119 (broadcastInDim S64x1 ![0] bcast_S64_S64x1_0 : (⟨S64, .f32⟩ : BufTy).Contents (Elt F) → (⟨S64x1, .f32⟩ : BufTy).Contents (Elt F)),
    StableHlo.binary main_arg2 main_v111 main_v120 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v119 main_v121 (broadcastInDim S64x64 ![0, 1] bcast_S64x1_S64x64_0_1 : (⟨S64x1, .f32⟩ : BufTy).Contents (Elt F) → (⟨S64x64, .f32⟩ : BufTy).Contents (Elt F)),
    StableHlo.binary main_v121 main_v120 main_v122 (mulf : (⟨S64x64, .f32⟩ : BufTy).Contents (Elt F) → (⟨S64x64, .f32⟩ : BufTy).Contents (Elt F) → (⟨S64x64, .f32⟩ : BufTy).Contents (Elt F)),
    StableHlo.binary main_arg1 main_v122 main_v123 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_10 (constant S_ .f32 0x40000000#32),
    StableHlo.unary main_cst_10 main_v124 (broadcastInDim S10000x64 ![] bcast_S_S10000x64 : (⟨S_, .f32⟩ : BufTy).Contents (Elt F) → (⟨S10000x64, .f32⟩ : BufTy).Contents (Elt F)),
    StableHlo.binary main_v124 main_v123 main_v125 (mulf : (⟨S10000x64, .f32⟩ : BufTy).Contents (Elt F) → (⟨S10000x64, .f32⟩ : BufTy).Contents (Elt F) → (⟨S10000x64, .f32⟩ : BufTy).Contents (Elt F)),
    StableHlo.binary main_v125 main_v106 main_v126 (subf : (⟨S10000x64, .f32⟩ : BufTy).Contents (Elt F) → (⟨S10000x64, .f32⟩ : BufTy).Contents (Elt F) → (⟨S10000x64, .f32⟩ : BufTy).Contents (Elt F)),
    StableHlo.unary main_arg12 main_v127 ((extractStridedSlice S1x64x64 ![2, 0, 0] · slices_S6x64x64_S1x64x64_2_0_0) : (⟨S6x64x64, .f32⟩ : BufTy).Contents (Elt F) → (⟨S1x64x64, .f32⟩ : BufTy).Contents (Elt F)),
    StableHlo.reshape main_v127 main_v128 rfl shapeCasts_S1x64x64_S64x64,
    StableHlo.binary main_v126 main_v128 main_v129 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v118 main_v129 main_v130 (addf : (⟨S10000x64, .f32⟩ : BufTy).Contents (Elt F) → (⟨S10000x64, .f32⟩ : BufTy).Contents (Elt F) → (⟨S10000x64, .f32⟩ : BufTy).Contents (Elt F)),
    StableHlo.unary main_arg3 main_v131 (broadcastInDim S64x1 ![0] bcast_S64_S64x1_0 : (⟨S64, .f32⟩ : BufTy).Contents (Elt F) → (⟨S64x1, .f32⟩ : BufTy).Contents (Elt F)),
    StableHlo.binary main_arg2 main_v126 main_v132 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v131 main_v133 (broadcastInDim S64x64 ![0, 1] bcast_S64x1_S64x64_0_1 : (⟨S64x1, .f32⟩ : BufTy).Contents (Elt F) → (⟨S64x64, .f32⟩ : BufTy).Contents (Elt F)),
    StableHlo.binary main_v133 main_v132 main_v134 (mulf : (⟨S64x64, .f32⟩ : BufTy).Contents (Elt F) → (⟨S64x64, .f32⟩ : BufTy).Contents (Elt F) → (⟨S64x64, .f32⟩ : BufTy).Contents (Elt F)),
    StableHlo.binary main_arg1 main_v134 main_v135 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_11 (constant S_ .f32 0x40000000#32),
    StableHlo.unary main_cst_11 main_v136 (broadcastInDim S10000x64 ![] bcast_S_S10000x64 : (⟨S_, .f32⟩ : BufTy).Contents (Elt F) → (⟨S10000x64, .f32⟩ : BufTy).Contents (Elt F)),
    StableHlo.binary main_v136 main_v135 main_v137 (mulf : (⟨S10000x64, .f32⟩ : BufTy).Contents (Elt F) → (⟨S10000x64, .f32⟩ : BufTy).Contents (Elt F) → (⟨S10000x64, .f32⟩ : BufTy).Contents (Elt F)),
    StableHlo.binary main_v137 main_v111 main_v138 (subf : (⟨S10000x64, .f32⟩ : BufTy).Contents (Elt F) → (⟨S10000x64, .f32⟩ : BufTy).Contents (Elt F) → (⟨S10000x64, .f32⟩ : BufTy).Contents (Elt F)),
    StableHlo.unary main_arg12 main_v139 ((extractStridedSlice S1x64x64 ![3, 0, 0] · slices_S6x64x64_S1x64x64_3_0_0) : (⟨S6x64x64, .f32⟩ : BufTy).Contents (Elt F) → (⟨S1x64x64, .f32⟩ : BufTy).Contents (Elt F)),
    StableHlo.reshape main_v139 main_v140 rfl shapeCasts_S1x64x64_S64x64,
    StableHlo.binary main_v138 main_v140 main_v141 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v130 main_v141 main_v142 (addf : (⟨S10000x64, .f32⟩ : BufTy).Contents (Elt F) → (⟨S10000x64, .f32⟩ : BufTy).Contents (Elt F) → (⟨S10000x64, .f32⟩ : BufTy).Contents (Elt F)),
    StableHlo.unary main_arg3 main_v143 (broadcastInDim S64x1 ![0] bcast_S64_S64x1_0 : (⟨S64, .f32⟩ : BufTy).Contents (Elt F) → (⟨S64x1, .f32⟩ : BufTy).Contents (Elt F)),
    StableHlo.binary main_arg2 main_v138 main_v144 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v143 main_v145 (broadcastInDim S64x64 ![0, 1] bcast_S64x1_S64x64_0_1 : (⟨S64x1, .f32⟩ : BufTy).Contents (Elt F) → (⟨S64x64, .f32⟩ : BufTy).Contents (Elt F)),
    StableHlo.binary main_v145 main_v144 main_v146 (mulf : (⟨S64x64, .f32⟩ : BufTy).Contents (Elt F) → (⟨S64x64, .f32⟩ : BufTy).Contents (Elt F) → (⟨S64x64, .f32⟩ : BufTy).Contents (Elt F)),
    StableHlo.binary main_arg1 main_v146 main_v147 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_12 (constant S_ .f32 0x40000000#32),
    StableHlo.unary main_cst_12 main_v148 (broadcastInDim S10000x64 ![] bcast_S_S10000x64 : (⟨S_, .f32⟩ : BufTy).Contents (Elt F) → (⟨S10000x64, .f32⟩ : BufTy).Contents (Elt F)),
    StableHlo.binary main_v148 main_v147 main_v149 (mulf : (⟨S10000x64, .f32⟩ : BufTy).Contents (Elt F) → (⟨S10000x64, .f32⟩ : BufTy).Contents (Elt F) → (⟨S10000x64, .f32⟩ : BufTy).Contents (Elt F)),
    StableHlo.binary main_v149 main_v126 main_v150 (subf : (⟨S10000x64, .f32⟩ : BufTy).Contents (Elt F) → (⟨S10000x64, .f32⟩ : BufTy).Contents (Elt F) → (⟨S10000x64, .f32⟩ : BufTy).Contents (Elt F)),
    StableHlo.unary main_arg12 main_v151 ((extractStridedSlice S1x64x64 ![4, 0, 0] · slices_S6x64x64_S1x64x64_4_0_0) : (⟨S6x64x64, .f32⟩ : BufTy).Contents (Elt F) → (⟨S1x64x64, .f32⟩ : BufTy).Contents (Elt F)),
    StableHlo.reshape main_v151 main_v152 rfl shapeCasts_S1x64x64_S64x64,
    StableHlo.binary main_v150 main_v152 main_v153 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v142 main_v153 main_v154 (addf : (⟨S10000x64, .f32⟩ : BufTy).Contents (Elt F) → (⟨S10000x64, .f32⟩ : BufTy).Contents (Elt F) → (⟨S10000x64, .f32⟩ : BufTy).Contents (Elt F)),
    StableHlo.unary main_arg3 main_v155 (broadcastInDim S64x1 ![0] bcast_S64_S64x1_0 : (⟨S64, .f32⟩ : BufTy).Contents (Elt F) → (⟨S64x1, .f32⟩ : BufTy).Contents (Elt F)),
    StableHlo.binary main_arg2 main_v150 main_v156 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v155 main_v157 (broadcastInDim S64x64 ![0, 1] bcast_S64x1_S64x64_0_1 : (⟨S64x1, .f32⟩ : BufTy).Contents (Elt F) → (⟨S64x64, .f32⟩ : BufTy).Contents (Elt F)),
    StableHlo.binary main_v157 main_v156 main_v158 (mulf : (⟨S64x64, .f32⟩ : BufTy).Contents (Elt F) → (⟨S64x64, .f32⟩ : BufTy).Contents (Elt F) → (⟨S64x64, .f32⟩ : BufTy).Contents (Elt F)),
    StableHlo.binary main_arg1 main_v158 main_v159 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_13 (constant S_ .f32 0x40000000#32),
    StableHlo.unary main_cst_13 main_v160 (broadcastInDim S10000x64 ![] bcast_S_S10000x64 : (⟨S_, .f32⟩ : BufTy).Contents (Elt F) → (⟨S10000x64, .f32⟩ : BufTy).Contents (Elt F)),
    StableHlo.binary main_v160 main_v159 main_v161 (mulf : (⟨S10000x64, .f32⟩ : BufTy).Contents (Elt F) → (⟨S10000x64, .f32⟩ : BufTy).Contents (Elt F) → (⟨S10000x64, .f32⟩ : BufTy).Contents (Elt F)),
    StableHlo.binary main_v161 main_v138 main_v162 (subf : (⟨S10000x64, .f32⟩ : BufTy).Contents (Elt F) → (⟨S10000x64, .f32⟩ : BufTy).Contents (Elt F) → (⟨S10000x64, .f32⟩ : BufTy).Contents (Elt F)),
    StableHlo.unary main_arg12 main_v163 ((extractStridedSlice S1x64x64 ![5, 0, 0] · slices_S6x64x64_S1x64x64_5_0_0) : (⟨S6x64x64, .f32⟩ : BufTy).Contents (Elt F) → (⟨S1x64x64, .f32⟩ : BufTy).Contents (Elt F)) ]

/-- The reference each of those operations writes, in the same order. -/
abbrev ops2_W : List (Ref sig .tc) :=
  [ main_v108,
    main_v109,
    main_v110,
    main_v111,
    main_v112,
    main_v113,
    main_v114,
    main_v115,
    main_v116,
    main_v117,
    main_v118,
    main_v119,
    main_v120,
    main_v121,
    main_v122,
    main_v123,
    main_cst_10,
    main_v124,
    main_v125,
    main_v126,
    main_v127,
    main_v128,
    main_v129,
    main_v130,
    main_v131,
    main_v132,
    main_v133,
    main_v134,
    main_v135,
    main_cst_11,
    main_v136,
    main_v137,
    main_v138,
    main_v139,
    main_v140,
    main_v141,
    main_v142,
    main_v143,
    main_v144,
    main_v145,
    main_v146,
    main_v147,
    main_cst_12,
    main_v148,
    main_v149,
    main_v150,
    main_v151,
    main_v152,
    main_v153,
    main_v154,
    main_v155,
    main_v156,
    main_v157,
    main_v158,
    main_v159,
    main_cst_13,
    main_v160,
    main_v161,
    main_v162,
    main_v163 ]

set_option maxRecDepth 8192 in
/-- Every operation of the window touches TensorCore references only. -/
theorem ops2_sub : (ops2 : List (HloOp τ sig (Elt F))).Forall fun op => op.bufs ⊆ tcRefs τ sig :=
  ⟨binary_bufs_sub ..,
   unary_bufs_sub ..,
   binary_bufs_sub ..,
   binary_bufs_sub ..,
   unary_bufs_sub ..,
   reshape_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..⟩

end Cert.ReferenceIdeal.RefRun

end
-- ==== Proof.RefRunEq2.lean ====
/-
  Window 2 of the reference program's @main (`main_part2`) is the straight line of the operations `ops2`:
  a call of a module-local function means its body, substituted (the printed form's meaning of a call), so
  unfolding each function's definition at its call sites, and the calls' records at their fields, leaves one
  chain of `hlo` steps; reassociating the sequencing (`bind_assoc`, `pure_bind`) makes it `seq ops2`.
  None of the operations leaves a buffer undetermined (`fresh` is empty for every builder used here), each
  writes exactly one reference, the one listed at its place in `ops2_W`, and so a reference that is not in
  that list holds after the window what it held before it.
-/
import proofs.«135777_j83262236000435_2_alg».proof.Proof.RefRunOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is the straight line of its operations. -/
theorem part2_eq (c : Dev nD) : main_part2 (F := F) c = seq ops2 := by
  simp only [main_part2, fn_where.body, fn_var.body, fn_relu.body, fn_where_1.body, fn_var_0.body, fn_relu_2.body, fn_where_4.body, fn_var_3.body, fn_relu_5.body, fn_log_softmax.body,
    seq, bind_assoc, pure_bind]
  rfl

set_option maxRecDepth 16384 in
/-- Every operation of the window determines all that it writes. -/
theorem ops2_fresh : (ops2 : List (HloOp τ sig (Elt F))).Forall fun op => op.fresh = ∅ := by
  simp only [ops2, List.Forall]
  repeat' constructor

set_option maxRecDepth 16384 in
set_option maxHeartbeats 4000000 in
/-- Each operation writes the one reference listed at its place in `ops2_W`. -/
theorem ops2_writes : (ops2 : List (HloOp τ sig (Elt F))).Forall fun op =>
    op.writes ⊆ (ops2_W.map (Proc.devRef (τ := τ) .tc)).toFinset := by
  simp only [ops2, List.Forall]
  repeat' apply And.intro
  all_goals
    simp only [nullary_writes, unary_writes, binary_writes, ternary_writes, reshape_writes,
      Finset.singleton_subset_iff, List.mem_toFinset]
    exact List.mem_map_of_mem (by decide)

/-- A reference the window does not write holds after it what it held before. -/
theorem ops2_keeps (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefRunOps3.lean ====
/- Window main_part3 of the reference program's @main as a table: its 83 operations in order, each call of a
   module-local function replaced by the callee's operations over that call's record of buffers (a callee's own call
   likewise), the operations' text as the program states them; the reference each operation writes; and, operation by
   operation, the lemma placing its buffers among the TensorCore's references. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 3, in order, the calls unfolded. -/
abbrev ops3 : List (HloOp τ sig (Elt F)) :=
  [ StableHlo.reshape main_v163 main_v164 rfl shapeCasts_S1x64x64_S64x64,
    StableHlo.binary main_v162 main_v164 main_v165 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v154 main_v165 main_v166 (addf : (⟨S10000x64, .f32⟩ : BufTy).Contents (Elt F) → (⟨S10000x64, .f32⟩ : BufTy).Contents (Elt F) → (⟨S10000x64, .f32⟩ : BufTy).Contents (Elt F)),
    StableHlo.unary main_arg13 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S10000x64 ![0, 1] bcast_S1x64_S10000x64_0_1 : (⟨S1x64, .f32⟩ : BufTy).Contents (Elt F) → (⟨S10000x64, .f32⟩ : BufTy).Contents (Elt F)),
    StableHlo.binary main_v166 main_v168 main_v169 (addf : (⟨S10000x64, .f32⟩ : BufTy).Contents (Elt F) → (⟨S10000x64, .f32⟩ : BufTy).Contents (Elt F) → (⟨S10000x64, .f32⟩ : BufTy).Contents (Elt F)),
    StableHlo.nullary main_cst_14 (constant S_ .f32 0x00000000#32),
    StableHlo.binary main_v169 main_cst_14 main_v170 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_15 (constant S_ .f32 0x461C4000#32),
    StableHlo.unary main_cst_15 main_v171 (broadcastInDim S64 ![] bcast_S_S64 : (⟨S_, .f32⟩ : BufTy).Contents (Elt F) → (⟨S64, .f32⟩ : BufTy).Contents (Elt F)),
    StableHlo.binary main_v170 main_v171 main_v172 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call4.cst (constant S_ .f32 0x00000000#32),
    StableHlo.TRef.binary (.of main_v169 : StableHlo.TRef sig ⟨S10000x64, .f32⟩) main_call4.cst main_call4.v0 (fun x v => Host.reduceAdd x v reducesTo_S10000x64_S64_d0 h_S_),
    StableHlo.TRef.unary main_call4.v0 main_call4.v1 (broadcastInDim S1x64 ![1] bcast_S64_S1x64_1),
    StableHlo.TRef.nullary main_call4.cst_0 (constant S_ .f32 0x461C4000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S10000x64 ![0, 1] bcast_S1x64_S10000x64_0_1),
    StableHlo.TRef.binary (.of main_v169 : StableHlo.TRef sig ⟨S10000x64, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v172 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S10000x64 ![0, 1] bcast_S1x64_S10000x64_0_1 : (⟨S1x64, .f32⟩ : BufTy).Contents (Elt F) → (⟨S10000x64, .f32⟩ : BufTy).Contents (Elt F)),
    StableHlo.binary main_v169 main_v175 main_v176 (subf : (⟨S10000x64, .f32⟩ : BufTy).Contents (Elt F) → (⟨S10000x64, .f32⟩ : BufTy).Contents (Elt F) → (⟨S10000x64, .f32⟩ : BufTy).Contents (Elt F)),
    StableHlo.nullary main_cst_17 (constant S_ .f32 0x3A83126F#32),
    StableHlo.unary main_cst_17 main_v177 (broadcastInDim S64 ![] bcast_S_S64 : (⟨S_, .f32⟩ : BufTy).Contents (Elt F) → (⟨S64, .f32⟩ : BufTy).Contents (Elt F)),
    StableHlo.binary main_v173 main_v177 main_v178 (addf : (⟨S64, .f32⟩ : BufTy).Contents (Elt F) → (⟨S64, .f32⟩ : BufTy).Contents (Elt F) → (⟨S64, .f32⟩ : BufTy).Contents (Elt F)),
    StableHlo.unary main_v178 main_v179 (Host.rsqrt : (⟨S64, .f32⟩ : BufTy).Contents (Elt F) → (⟨S64, .f32⟩ : BufTy).Contents (Elt F)),
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S10000x64 ![0, 1] bcast_S1x64_S10000x64_0_1 : (⟨S1x64, .f32⟩ : BufTy).Contents (Elt F) → (⟨S10000x64, .f32⟩ : BufTy).Contents (Elt F)),
    StableHlo.binary main_v176 main_v181 main_v182 (mulf : (⟨S10000x64, .f32⟩ : BufTy).Contents (Elt F) → (⟨S10000x64, .f32⟩ : BufTy).Contents (Elt F) → (⟨S10000x64, .f32⟩ : BufTy).Contents (Elt F)),
    StableHlo.unary main_arg14 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S10000x64 ![0, 1] bcast_S1x64_S10000x64_0_1 : (⟨S1x64, .f32⟩ : BufTy).Contents (Elt F) → (⟨S10000x64, .f32⟩ : BufTy).Contents (Elt F)),
    StableHlo.binary main_v182 main_v184 main_v185 (mulf : (⟨S10000x64, .f32⟩ : BufTy).Contents (Elt F) → (⟨S10000x64, .f32⟩ : BufTy).Contents (Elt F) → (⟨S10000x64, .f32⟩ : BufTy).Contents (Elt F)),
    StableHlo.unary main_arg15 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S10000x64 ![0, 1] bcast_S1x64_S10000x64_0_1 : (⟨S1x64, .f32⟩ : BufTy).Contents (Elt F) → (⟨S10000x64, .f32⟩ : BufTy).Contents (Elt F)),
    StableHlo.binary main_v185 main_v187 main_v188 (addf : (⟨S10000x64, .f32⟩ : BufTy).Contents (Elt F) → (⟨S10000x64, .f32⟩ : BufTy).Contents (Elt F) → (⟨S10000x64, .f32⟩ : BufTy).Contents (Elt F)),
    StableHlo.TRef.nullary main_call5.cst (constant S_ .f32 0x00000000#32),
    StableHlo.TRef.unary main_call5.cst main_call5.v0 (broadcastInDim S10000x64 ![] bcast_S_S10000x64),
    StableHlo.TRef.binary (.of main_v188 : StableHlo.TRef sig ⟨S10000x64, .f32⟩) main_call5.v0 main_call5.v1 maximumf,
    StableHlo.unary main_arg3 main_v190 (broadcastInDim S64x1 ![0] bcast_S64_S64x1_0 : (⟨S64, .f32⟩ : BufTy).Contents (Elt F) → (⟨S64x1, .f32⟩ : BufTy).Contents (Elt F)),
    StableHlo.binary main_arg2 main_v189 main_v191 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v190 main_v192 (broadcastInDim S64x64 ![0, 1] bcast_S64x1_S64x64_0_1 : (⟨S64x1, .f32⟩ : BufTy).Contents (Elt F) → (⟨S64x64, .f32⟩ : BufTy).Contents (Elt F)),
    StableHlo.binary main_v192 main_v191 main_v193 (mulf : (⟨S64x64, .f32⟩ : BufTy).Contents (Elt F) → (⟨S64x64, .f32⟩ : BufTy).Contents (Elt F) → (⟨S64x64, .f32⟩ : BufTy).Contents (Elt F)),
    StableHlo.binary main_arg1 main_v193 main_v194 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg16 main_v195 ((extractStridedSlice S1x64x128 ![0, 0, 0] · slices_S6x64x128_S1x64x128_0_0_0) : (⟨S6x64x128, .f32⟩ : BufTy).Contents (Elt F) → (⟨S1x64x128, .f32⟩ : BufTy).Contents (Elt F)),
    StableHlo.reshape main_v195 main_v196 rfl shapeCasts_S1x64x128_S64x128,
    StableHlo.binary main_v189 main_v196 main_v197 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.unary main_arg16 main_v198 ((extractStridedSlice S1x64x128 ![1, 0, 0] · slices_S6x64x128_S1x64x128_1_0_0) : (⟨S6x64x128, .f32⟩ : BufTy).Contents (Elt F) → (⟨S1x64x128, .f32⟩ : BufTy).Contents (Elt F)),
    StableHlo.reshape main_v198 main_v199 rfl shapeCasts_S1x64x128_S64x128,
    StableHlo.binary main_v194 main_v199 main_v200 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v197 main_v200 main_v201 (addf : (⟨S10000x128, .f32⟩ : BufTy).Contents (Elt F) → (⟨S10000x128, .f32⟩ : BufTy).Contents (Elt F) → (⟨S10000x128, .f32⟩ : BufTy).Contents (Elt F)),
    StableHlo.unary main_arg3 main_v202 (broadcastInDim S64x1 ![0] bcast_S64_S64x1_0 : (⟨S64, .f32⟩ : BufTy).Contents (Elt F) → (⟨S64x1, .f32⟩ : BufTy).Contents (Elt F)),
    StableHlo.binary main_arg2 main_v194 main_v203 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v202 main_v204 (broadcastInDim S64x64 ![0, 1] bcast_S64x1_S64x64_0_1 : (⟨S64x1, .f32⟩ : BufTy).Contents (Elt F) → (⟨S64x64, .f32⟩ : BufTy).Contents (Elt F)),
    StableHlo.binary main_v204 main_v203 main_v205 (mulf : (⟨S64x64, .f32⟩ : BufTy).Contents (Elt F) → (⟨S64x64, .f32⟩ : BufTy).Contents (Elt F) → (⟨S64x64, .f32⟩ : BufTy).Contents (Elt F)),
    StableHlo.binary main_arg1 main_v205 main_v206 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_18 (constant S_ .f32 0x40000000#32),
    StableHlo.unary main_cst_18 main_v207 (broadcastInDim S10000x64 ![] bcast_S_S10000x64 : (⟨S_, .f32⟩ : BufTy).Contents (Elt F) → (⟨S10000x64, .f32⟩ : BufTy).Contents (Elt F)),
    StableHlo.binary main_v207 main_v206 main_v208 (mulf : (⟨S10000x64, .f32⟩ : BufTy).Contents (Elt F) → (⟨S10000x64, .f32⟩ : BufTy).Contents (Elt F) → (⟨S10000x64, .f32⟩ : BufTy).Contents (Elt F)),
    StableHlo.binary main_v208 main_v189 main_v209 (subf : (⟨S10000x64, .f32⟩ : BufTy).Contents (Elt F) → (⟨S10000x64, .f32⟩ : BufTy).Contents (Elt F) → (⟨S10000x64, .f32⟩ : BufTy).Contents (Elt F)),
    StableHlo.unary main_arg16 main_v210 ((extractStridedSlice S1x64x128 ![2, 0, 0] · slices_S6x64x128_S1x64x128_2_0_0) : (⟨S6x64x128, .f32⟩ : BufTy).Contents (Elt F) → (⟨S1x64x128, .f32⟩ : BufTy).Contents (Elt F)),
    StableHlo.reshape main_v210 main_v211 rfl shapeCasts_S1x64x128_S64x128,
    StableHlo.binary main_v209 main_v211 main_v212 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v201 main_v212 main_v213 (addf : (⟨S10000x128, .f32⟩ : BufTy).Contents (Elt F) → (⟨S10000x128, .f32⟩ : BufTy).Contents (Elt F) → (⟨S10000x128, .f32⟩ : BufTy).Contents (Elt F)),
    StableHlo.unary main_arg3 main_v214 (broadcastInDim S64x1 ![0] bcast_S64_S64x1_0 : (⟨S64, .f32⟩ : BufTy).Contents (Elt F) → (⟨S64x1, .f32⟩ : BufTy).Contents (Elt F)),
    StableHlo.binary main_arg2 main_v209 main_v215 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v214 main_v216 (broadcastInDim S64x64 ![0, 1] bcast_S64x1_S64x64_0_1 : (⟨S64x1, .f32⟩ : BufTy).Contents (Elt F) → (⟨S64x64, .f32⟩ : BufTy).Contents (Elt F)),
    StableHlo.binary main_v216 main_v215 main_v217 (mulf : (⟨S64x64, .f32⟩ : BufTy).Contents (Elt F) → (⟨S64x64, .f32⟩ : BufTy).Contents (Elt F) → (⟨S64x64, .f32⟩ : BufTy).Contents (Elt F)),
    StableHlo.binary main_arg1 main_v217 main_v218 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) ]

/-- The reference each of those operations writes, in the same order. -/
abbrev ops3_W : List (Ref sig .tc) :=
  [ main_v164,
    main_v165,
    main_v166,
    main_v167,
    main_v168,
    main_v169,
    main_cst_14,
    main_v170,
    main_cst_15,
    main_v171,
    main_v172,
    main_c_16,
    main_call4.cst.ref,
    main_call4.v0.ref,
    main_call4.v1.ref,
    main_call4.cst_0.ref,
    main_call4.v2.ref,
    main_call4.v3.ref,
    main_call4.v4.ref,
    main_call4.v5.ref,
    main_call4.v6.ref,
    main_call4.v7.ref,
    main_call4.cst_1.ref,
    main_call4.v8.ref,
    main_call4.cst_2.ref,
    main_call4.v9.ref,
    main_call4.v10.ref,
    main_call4.v11.ref,
    main_call4.cst_3.ref,
    main_call4.v12.ref,
    main_call4.cst_4.ref,
    main_call4.call0.v0.ref,
    main_call4.call0.v1.ref,
    main_call4.call0.v2.ref,
    main_v174,
    main_v175,
    main_v176,
    main_cst_17,
    main_v177,
    main_v178,
    main_v179,
    main_v180,
    main_v181,
    main_v182,
    main_v183,
    main_v184,
    main_v185,
    main_v186,
    main_v187,
    main_v188,
    main_call5.cst.ref,
    main_call5.v0.ref,
    main_call5.v1.ref,
    main_v190,
    main_v191,
    main_v192,
    main_v193,
    main_v194,
    main_v195,
    main_v196,
    main_v197,
    main_v198,
    main_v199,
    main_v200,
    main_v201,
    main_v202,
    main_v203,
    main_v204,
    main_v205,
    main_v206,
    main_cst_18,
    main_v207,
    main_v208,
    main_v209,
    main_v210,
    main_v211,
    main_v212,
    main_v213,
    main_v214,
    main_v215,
    main_v216,
    main_v217,
    main_v218 ]

set_option maxRecDepth 8192 in
/-- Every operation of the window touches TensorCore references only. -/
theorem ops3_sub : (ops3 : List (HloOp τ sig (Elt F))).Forall fun op => op.bufs ⊆ tcRefs τ sig :=
  ⟨reshape_bufs_sub ..,
   binary_bufs_sub ..,
   binary_bufs_sub ..,
   unary_bufs_sub ..,
   unary_bufs_sub ..,
   binary_bufs_sub ..,
   nullary_bufs_sub ..,
   binary_bufs_sub ..,
   nullary_bufs_sub ..,
   unary_bufs_sub ..,
   binary_bufs_sub ..,
   nullary_bufs_sub ..,
   nullary_bufs_sub ..,
   binary_bufs_sub ..,
   unary_bufs_sub ..,
   nullary_bufs_sub ..,
   unary_bufs_sub ..,
   binary_bufs_sub ..,
   unary_bufs_sub ..,
   binary_bufs_sub ..,
   binary_bufs_sub ..,
   unary_bufs_sub ..,
   nullary_bufs_sub ..,
   binary_bufs_sub ..,
   nullary_bufs_sub ..,
   binary_bufs_sub ..,
   unary_bufs_sub ..,
   binary_bufs_sub ..,
   nullary_bufs_sub ..,
   binary_bufs_sub ..,
   nullary_bufs_sub ..,
   unary_bufs_sub ..,
   unary_bufs_sub ..,
   ternary_bufs_sub ..,
   unary_bufs_sub ..,
   unary_bufs_sub ..,
   binary_bufs_sub ..,
   nullary_bufs_sub ..,
   unary_bufs_sub ..,
   binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..,
   nullary_bufs_sub ..,
   unary_bufs_sub ..,
   binary_bufs_sub ..,
   unary_bufs_sub ..,
   binary_bufs_sub ..,
   unary_bufs_sub ..,
   binary_bufs_sub ..,
   binary_bufs_sub ..,
   unary_bufs_sub ..,
   reshape_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..⟩

end Cert.ReferenceIdeal.RefRun

end
-- ==== Proof.RefRunEq3.lean ====
/-
  Window 3 of the reference program's @main (`main_part3`) is the straight line of the operations `ops3`:
  a call of a module-local function means its body, substituted (the printed form's meaning of a call), so
  unfolding each function's definition at its call sites, and the calls' records at their fields, leaves one
  chain of `hlo` steps; reassociating the sequencing (`bind_assoc`, `pure_bind`) makes it `seq ops3`.
  None of the operations leaves a buffer undetermined (`fresh` is empty for every builder used here), each
  writes exactly one reference, the one listed at its place in `ops3_W`, and so a reference that is not in
  that list holds after the window what it held before it.
-/
import proofs.«135777_j83262236000435_2_alg».proof.Proof.RefRunOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is the straight line of its operations. -/
theorem part3_eq (c : Dev nD) : main_part3 (F := F) c = seq ops3 := by
  simp only [main_part3, fn_where.body, fn_var.body, fn_relu.body, fn_where_1.body, fn_var_0.body, fn_relu_2.body, fn_where_4.body, fn_var_3.body, fn_relu_5.body, fn_log_softmax.body,
    seq, bind_assoc, pure_bind]
  rfl

set_option maxRecDepth 16384 in
/-- Every operation of the window determines all that it writes. -/
theorem ops3_fresh : (ops3 : List (HloOp τ sig (Elt F))).Forall fun op => op.fresh = ∅ := by
  simp only [ops3, List.Forall]
  repeat' constructor

set_option maxRecDepth 16384 in
set_option maxHeartbeats 4000000 in
/-- Each operation writes the one reference listed at its place in `ops3_W`. -/
theorem ops3_writes : (ops3 : List (HloOp τ sig (Elt F))).Forall fun op =>
    op.writes ⊆ (ops3_W.map (Proc.devRef (τ := τ) .tc)).toFinset := by
  simp only [ops3, List.Forall]
  repeat' apply And.intro
  all_goals
    simp only [nullary_writes, unary_writes, binary_writes, ternary_writes, reshape_writes,
      Finset.singleton_subset_iff, List.mem_toFinset]
    exact List.mem_map_of_mem (by decide)

/-- A reference the window does not write holds after it what it held before. -/
theorem ops3_keeps (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefRunOps4.lean ====
/- Window main_part4 of the reference program's @main as a table: its 81 operations in order, each call of a
   module-local function replaced by the callee's operations over that call's record of buffers (a callee's own call
   likewise), the operations' text as the program states them; the reference each operation writes; and, operation by
   operation, the lemma placing its buffers among the TensorCore's references. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 4, in order, the calls unfolded. -/
abbrev ops4 : List (HloOp τ sig (Elt F)) :=
  [ StableHlo.nullary main_cst_19 (constant S_ .f32 0x40000000#32),
    StableHlo.unary main_cst_19 main_v219 (broadcastInDim S10000x64 ![] bcast_S_S10000x64 : (⟨S_, .f32⟩ : BufTy).Contents (Elt F) → (⟨S10000x64, .f32⟩ : BufTy).Contents (Elt F)),
    StableHlo.binary main_v219 main_v218 main_v220 (mulf : (⟨S10000x64, .f32⟩ : BufTy).Contents (Elt F) → (⟨S10000x64, .f32⟩ : BufTy).Contents (Elt F) → (⟨S10000x64, .f32⟩ : BufTy).Contents (Elt F)),
    StableHlo.binary main_v220 main_v194 main_v221 (subf : (⟨S10000x64, .f32⟩ : BufTy).Contents (Elt F) → (⟨S10000x64, .f32⟩ : BufTy).Contents (Elt F) → (⟨S10000x64, .f32⟩ : BufTy).Contents (Elt F)),
    StableHlo.unary main_arg16 main_v222 ((extractStridedSlice S1x64x128 ![3, 0, 0] · slices_S6x64x128_S1x64x128_3_0_0) : (⟨S6x64x128, .f32⟩ : BufTy).Contents (Elt F) → (⟨S1x64x128, .f32⟩ : BufTy).Contents (Elt F)),
    StableHlo.reshape main_v222 main_v223 rfl shapeCasts_S1x64x128_S64x128,
    StableHlo.binary main_v221 main_v223 main_v224 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v213 main_v224 main_v225 (addf : (⟨S10000x128, .f32⟩ : BufTy).Contents (Elt F) → (⟨S10000x128, .f32⟩ : BufTy).Contents (Elt F) → (⟨S10000x128, .f32⟩ : BufTy).Contents (Elt F)),
    StableHlo.unary main_arg3 main_v226 (broadcastInDim S64x1 ![0] bcast_S64_S64x1_0 : (⟨S64, .f32⟩ : BufTy).Contents (Elt F) → (⟨S64x1, .f32⟩ : BufTy).Contents (Elt F)),
    StableHlo.binary main_arg2 main_v221 main_v227 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v226 main_v228 (broadcastInDim S64x64 ![0, 1] bcast_S64x1_S64x64_0_1 : (⟨S64x1, .f32⟩ : BufTy).Contents (Elt F) → (⟨S64x64, .f32⟩ : BufTy).Contents (Elt F)),
    StableHlo.binary main_v228 main_v227 main_v229 (mulf : (⟨S64x64, .f32⟩ : BufTy).Contents (Elt F) → (⟨S64x64, .f32⟩ : BufTy).Contents (Elt F) → (⟨S64x64, .f32⟩ : BufTy).Contents (Elt F)),
    StableHlo.binary main_arg1 main_v229 main_v230 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_20 (constant S_ .f32 0x40000000#32),
    StableHlo.unary main_cst_20 main_v231 (broadcastInDim S10000x64 ![] bcast_S_S10000x64 : (⟨S_, .f32⟩ : BufTy).Contents (Elt F) → (⟨S10000x64, .f32⟩ : BufTy).Contents (Elt F)),
    StableHlo.binary main_v231 main_v230 main_v232 (mulf : (⟨S10000x64, .f32⟩ : BufTy).Contents (Elt F) → (⟨S10000x64, .f32⟩ : BufTy).Contents (Elt F) → (⟨S10000x64, .f32⟩ : BufTy).Contents (Elt F)),
    StableHlo.binary main_v232 main_v209 main_v233 (subf : (⟨S10000x64, .f32⟩ : BufTy).Contents (Elt F) → (⟨S10000x64, .f32⟩ : BufTy).Contents (Elt F) → (⟨S10000x64, .f32⟩ : BufTy).Contents (Elt F)),
    StableHlo.unary main_arg16 main_v234 ((extractStridedSlice S1x64x128 ![4, 0, 0] · slices_S6x64x128_S1x64x128_4_0_0) : (⟨S6x64x128, .f32⟩ : BufTy).Contents (Elt F) → (⟨S1x64x128, .f32⟩ : BufTy).Contents (Elt F)),
    StableHlo.reshape main_v234 main_v235 rfl shapeCasts_S1x64x128_S64x128,
    StableHlo.binary main_v233 main_v235 main_v236 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v225 main_v236 main_v237 (addf : (⟨S10000x128, .f32⟩ : BufTy).Contents (Elt F) → (⟨S10000x128, .f32⟩ : BufTy).Contents (Elt F) → (⟨S10000x128, .f32⟩ : BufTy).Contents (Elt F)),
    StableHlo.unary main_arg3 main_v238 (broadcastInDim S64x1 ![0] bcast_S64_S64x1_0 : (⟨S64, .f32⟩ : BufTy).Contents (Elt F) → (⟨S64x1, .f32⟩ : BufTy).Contents (Elt F)),
    StableHlo.binary main_arg2 main_v233 main_v239 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v238 main_v240 (broadcastInDim S64x64 ![0, 1] bcast_S64x1_S64x64_0_1 : (⟨S64x1, .f32⟩ : BufTy).Contents (Elt F) → (⟨S64x64, .f32⟩ : BufTy).Contents (Elt F)),
    StableHlo.binary main_v240 main_v239 main_v241 (mulf : (⟨S64x64, .f32⟩ : BufTy).Contents (Elt F) → (⟨S64x64, .f32⟩ : BufTy).Contents (Elt F) → (⟨S64x64, .f32⟩ : BufTy).Contents (Elt F)),
    StableHlo.binary main_arg1 main_v241 main_v242 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_21 (constant S_ .f32 0x40000000#32),
    StableHlo.unary main_cst_21 main_v243 (broadcastInDim S10000x64 ![] bcast_S_S10000x64 : (⟨S_, .f32⟩ : BufTy).Contents (Elt F) → (⟨S10000x64, .f32⟩ : BufTy).Contents (Elt F)),
    StableHlo.binary main_v243 main_v242 main_v244 (mulf : (⟨S10000x64, .f32⟩ : BufTy).Contents (Elt F) → (⟨S10000x64, .f32⟩ : BufTy).Contents (Elt F) → (⟨S10000x64, .f32⟩ : BufTy).Contents (Elt F)),
    StableHlo.binary main_v244 main_v221 main_v245 (subf : (⟨S10000x64, .f32⟩ : BufTy).Contents (Elt F) → (⟨S10000x64, .f32⟩ : BufTy).Contents (Elt F) → (⟨S10000x64, .f32⟩ : BufTy).Contents (Elt F)),
    StableHlo.unary main_arg16 main_v246 ((extractStridedSlice S1x64x128 ![5, 0, 0] · slices_S6x64x128_S1x64x128_5_0_0) : (⟨S6x64x128, .f32⟩ : BufTy).Contents (Elt F) → (⟨S1x64x128, .f32⟩ : BufTy).Contents (Elt F)),
    StableHlo.reshape main_v246 main_v247 rfl shapeCasts_S1x64x128_S64x128,
    StableHlo.binary main_v245 main_v247 main_v248 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v237 main_v248 main_v249 (addf : (⟨S10000x128, .f32⟩ : BufTy).Contents (Elt F) → (⟨S10000x128, .f32⟩ : BufTy).Contents (Elt F) → (⟨S10000x128, .f32⟩ : BufTy).Contents (Elt F)),
    StableHlo.unary main_arg17 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S10000x128 ![0, 1] bcast_S1x128_S10000x128_0_1 : (⟨S1x128, .f32⟩ : BufTy).Contents (Elt F) → (⟨S10000x128, .f32⟩ : BufTy).Contents (Elt F)),
    StableHlo.binary main_v249 main_v251 main_v252 (addf : (⟨S10000x128, .f32⟩ : BufTy).Contents (Elt F) → (⟨S10000x128, .f32⟩ : BufTy).Contents (Elt F) → (⟨S10000x128, .f32⟩ : BufTy).Contents (Elt F)),
    StableHlo.nullary main_cst_22 (constant S_ .f32 0x00000000#32),
    StableHlo.binary main_v252 main_cst_22 main_v253 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_23 (constant S_ .f32 0x461C4000#32),
    StableHlo.unary main_cst_23 main_v254 (broadcastInDim S128 ![] bcast_S_S128 : (⟨S_, .f32⟩ : BufTy).Contents (Elt F) → (⟨S128, .f32⟩ : BufTy).Contents (Elt F)),
    StableHlo.binary main_v253 main_v254 main_v255 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (.of main_v252 : StableHlo.TRef sig ⟨S10000x128, .f32⟩) main_call6.cst main_call6.v0 (fun x v => Host.reduceAdd x v reducesTo_S10000x128_S128_d0 h_S_),
    StableHlo.TRef.unary main_call6.v0 main_call6.v1 (broadcastInDim S1x128 ![1] bcast_S128_S1x128_1),
    StableHlo.TRef.nullary main_call6.cst_0 (constant S_ .f32 0x461C4000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S10000x128 ![0, 1] bcast_S1x128_S10000x128_0_1),
    StableHlo.TRef.binary (.of main_v252 : StableHlo.TRef sig ⟨S10000x128, .f32⟩) main_call6.v4 main_call6.v5 subf,
    StableHlo.TRef.binary main_call6.v5 main_call6.v5 main_call6.v6 mulf,
    StableHlo.TRef.unary (.of main_c_24 : StableHlo.TRef sig ⟨S_, .i32⟩) main_call6.v7 (sitofp .f32),
    StableHlo.TRef.nullary main_call6.cst_1 (constant S_ .f32 0x461C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S10000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v255 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S10000x128 ![0, 1] bcast_S1x128_S10000x128_0_1 : (⟨S1x128, .f32⟩ : BufTy).Contents (Elt F) → (⟨S10000x128, .f32⟩ : BufTy).Contents (Elt F)),
    StableHlo.binary main_v252 main_v258 main_v259 (subf : (⟨S10000x128, .f32⟩ : BufTy).Contents (Elt F) → (⟨S10000x128, .f32⟩ : BufTy).Contents (Elt F) → (⟨S10000x128, .f32⟩ : BufTy).Contents (Elt F)),
    StableHlo.nullary main_cst_25 (constant S_ .f32 0x3A83126F#32),
    StableHlo.unary main_cst_25 main_v260 (broadcastInDim S128 ![] bcast_S_S128 : (⟨S_, .f32⟩ : BufTy).Contents (Elt F) → (⟨S128, .f32⟩ : BufTy).Contents (Elt F)),
    StableHlo.binary main_v256 main_v260 main_v261 (addf : (⟨S128, .f32⟩ : BufTy).Contents (Elt F) → (⟨S128, .f32⟩ : BufTy).Contents (Elt F) → (⟨S128, .f32⟩ : BufTy).Contents (Elt F)),
    StableHlo.unary main_v261 main_v262 (Host.rsqrt : (⟨S128, .f32⟩ : BufTy).Contents (Elt F) → (⟨S128, .f32⟩ : BufTy).Contents (Elt F)),
    StableHlo.unary main_v262 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S10000x128 ![0, 1] bcast_S1x128_S10000x128_0_1 : (⟨S1x128, .f32⟩ : BufTy).Contents (Elt F) → (⟨S10000x128, .f32⟩ : BufTy).Contents (Elt F)),
    StableHlo.binary main_v259 main_v264 main_v265 (mulf : (⟨S10000x128, .f32⟩ : BufTy).Contents (Elt F) → (⟨S10000x128, .f32⟩ : BufTy).Contents (Elt F) → (⟨S10000x128, .f32⟩ : BufTy).Contents (Elt F)),
    StableHlo.unary main_arg18 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S10000x128 ![0, 1] bcast_S1x128_S10000x128_0_1 : (⟨S1x128, .f32⟩ : BufTy).Contents (Elt F) → (⟨S10000x128, .f32⟩ : BufTy).Contents (Elt F)),
    StableHlo.binary main_v265 main_v267 main_v268 (mulf : (⟨S10000x128, .f32⟩ : BufTy).Contents (Elt F) → (⟨S10000x128, .f32⟩ : BufTy).Contents (Elt F) → (⟨S10000x128, .f32⟩ : BufTy).Contents (Elt F)),
    StableHlo.unary main_arg19 main_v269 (broadcastInDim S1x128 ![1] bcast_S128_S1x128_1 : (⟨S128, .f32⟩ : BufTy).Contents (Elt F) → (⟨S1x128, .f32⟩ : BufTy).Contents (Elt F)),
    StableHlo.unary main_v269 main_v270 (broadcastInDim S10000x128 ![0, 1] bcast_S1x128_S10000x128_0_1 : (⟨S1x128, .f32⟩ : BufTy).Contents (Elt F) → (⟨S10000x128, .f32⟩ : BufTy).Contents (Elt F)),
    StableHlo.binary main_v268 main_v270 main_v271 (addf : (⟨S10000x128, .f32⟩ : BufTy).Contents (Elt F) → (⟨S10000x128, .f32⟩ : BufTy).Contents (Elt F) → (⟨S10000x128, .f32⟩ : BufTy).Contents (Elt F)) ]

/-- The reference each of those operations writes, in the same order. -/
abbrev ops4_W : List (Ref sig .tc) :=
  [ main_cst_19,
    main_v219,
    main_v220,
    main_v221,
    main_v222,
    main_v223,
    main_v224,
    main_v225,
    main_v226,
    main_v227,
    main_v228,
    main_v229,
    main_v230,
    main_cst_20,
    main_v231,
    main_v232,
    main_v233,
    main_v234,
    main_v235,
    main_v236,
    main_v237,
    main_v238,
    main_v239,
    main_v240,
    main_v241,
    main_v242,
    main_cst_21,
    main_v243,
    main_v244,
    main_v245,
    main_v246,
    main_v247,
    main_v248,
    main_v249,
    main_v250,
    main_v251,
    main_v252,
    main_cst_22,
    main_v253,
    main_cst_23,
    main_v254,
    main_v255,
    main_c_24,
    main_call6.cst.ref,
    main_call6.v0.ref,
    main_call6.v1.ref,
    main_call6.cst_0.ref,
    main_call6.v2.ref,
    main_call6.v3.ref,
    main_call6.v4.ref,
    main_call6.v5.ref,
    main_call6.v6.ref,
    main_call6.v7.ref,
    main_call6.cst_1.ref,
    main_call6.v8.ref,
    main_call6.cst_2.ref,
    main_call6.v9.ref,
    main_call6.v10.ref,
    main_call6.v11.ref,
    main_call6.cst_3.ref,
    main_call6.v12.ref,
    main_call6.cst_4.ref,
    main_call6.call0.v0.ref,
    main_call6.call0.v1.ref,
    main_call6.call0.v2.ref,
    main_v257,
    main_v258,
    main_v259,
    main_cst_25,
    main_v260,
    main_v261,
    main_v262,
    main_v263,
    main_v264,
    main_v265,
    main_v266,
    main_v267,
    main_v268,
    main_v269,
    main_v270,
    main_v271 ]

set_option maxRecDepth 8192 in
/-- Every operation of the window touches TensorCore references only. -/
theorem ops4_sub : (ops4 : List (HloOp τ sig (Elt F))).Forall fun op => op.bufs ⊆ tcRefs τ sig :=
  ⟨nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   binary_bufs_sub ..,
   unary_bufs_sub ..,
   binary_bufs_sub ..,
   binary_bufs_sub ..,
   nullary_bufs_sub ..,
   unary_bufs_sub ..,
   binary_bufs_sub ..,
   binary_bufs_sub ..,
   unary_bufs_sub ..,
   reshape_bufs_sub ..,
   binary_bufs_sub ..,
   binary_bufs_sub ..,
   unary_bufs_sub ..,
   unary_bufs_sub ..,
   binary_bufs_sub ..,
   nullary_bufs_sub ..,
   binary_bufs_sub ..,
   nullary_bufs_sub ..,
   unary_bufs_sub ..,
   binary_bufs_sub ..,
   nullary_bufs_sub ..,
   nullary_bufs_sub ..,
   binary_bufs_sub ..,
   unary_bufs_sub ..,
   nullary_bufs_sub ..,
   unary_bufs_sub ..,
   binary_bufs_sub ..,
   unary_bufs_sub ..,
   binary_bufs_sub ..,
   binary_bufs_sub ..,
   unary_bufs_sub ..,
   nullary_bufs_sub ..,
   binary_bufs_sub ..,
   nullary_bufs_sub ..,
   binary_bufs_sub ..,
   unary_bufs_sub ..,
   binary_bufs_sub ..,
   nullary_bufs_sub ..,
   binary_bufs_sub ..,
   nullary_bufs_sub ..,
   unary_bufs_sub ..,
   unary_bufs_sub ..,
   ternary_bufs_sub ..,
   unary_bufs_sub ..,
   unary_bufs_sub ..,
   binary_bufs_sub ..,
   nullary_bufs_sub ..,
   unary_bufs_sub ..,
   binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..⟩

end Cert.ReferenceIdeal.RefRun

end
-- ==== Proof.RefRunEq4.lean ====
/-
  Window 4 of the reference program's @main (`main_part4`) is the straight line of the operations `ops4`:
  a call of a module-local function means its body, substituted (the printed form's meaning of a call), so
  unfolding each function's definition at its call sites, and the calls' records at their fields, leaves one
  chain of `hlo` steps; reassociating the sequencing (`bind_assoc`, `pure_bind`) makes it `seq ops4`.
  None of the operations leaves a buffer undetermined (`fresh` is empty for every builder used here), each
  writes exactly one reference, the one listed at its place in `ops4_W`, and so a reference that is not in
  that list holds after the window what it held before it.
-/
import proofs.«135777_j83262236000435_2_alg».proof.Proof.RefRunOps4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is the straight line of its operations. -/
theorem part4_eq (c : Dev nD) : main_part4 (F := F) c = seq ops4 := by
  simp only [main_part4, fn_where.body, fn_var.body, fn_relu.body, fn_where_1.body, fn_var_0.body, fn_relu_2.body, fn_where_4.body, fn_var_3.body, fn_relu_5.body, fn_log_softmax.body,
    seq, bind_assoc, pure_bind]
  rfl

set_option maxRecDepth 16384 in
/-- Every operation of the window determines all that it writes. -/
theorem ops4_fresh : (ops4 : List (HloOp τ sig (Elt F))).Forall fun op => op.fresh = ∅ := by
  simp only [ops4, List.Forall]
  repeat' constructor

set_option maxRecDepth 16384 in
set_option maxHeartbeats 4000000 in
/-- Each operation writes the one reference listed at its place in `ops4_W`. -/
theorem ops4_writes : (ops4 : List (HloOp τ sig (Elt F))).Forall fun op =>
    op.writes ⊆ (ops4_W.map (Proc.devRef (τ := τ) .tc)).toFinset := by
  simp only [ops4, List.Forall]
  repeat' apply And.intro
  all_goals
    simp only [nullary_writes, unary_writes, binary_writes, ternary_writes, reshape_writes,
      Finset.singleton_subset_iff, List.mem_toFinset]
    exact List.mem_map_of_mem (by decide)

/-- A reference the window does not write holds after it what it held before. -/
theorem ops4_keeps (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.RefRunOps5.lean ====
/- Window main_part5 of the reference program's @main as a table: its 73 operations in order, each call of a
   module-local function replaced by the callee's operations over that call's record of buffers (a callee's own call
   likewise), the operations' text as the program states them; the reference each operation writes; and, operation by
   operation, the lemma placing its buffers among the TensorCore's references. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 5, in order, the calls unfolded. -/
abbrev ops5 : List (HloOp τ sig (Elt F)) :=
  [ StableHlo.TRef.nullary main_call7.cst (constant S_ .f32 0x00000000#32),
    StableHlo.TRef.unary main_call7.cst main_call7.v0 (broadcastInDim S10000x128 ![] bcast_S_S10000x128),
    StableHlo.TRef.binary (.of main_v271 : StableHlo.TRef sig ⟨S10000x128, .f32⟩) main_call7.v0 main_call7.v1 maximumf,
    StableHlo.binary main_v272 main_arg20 main_v273 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.unary main_arg21 main_v274 (broadcastInDim S1x256 ![1] bcast_S256_S1x256_1 : (⟨S256, .f32⟩ : BufTy).Contents (Elt F) → (⟨S1x256, .f32⟩ : BufTy).Contents (Elt F)),
    StableHlo.unary main_v274 main_v275 (broadcastInDim S10000x256 ![0, 1] bcast_S1x256_S10000x256_0_1 : (⟨S1x256, .f32⟩ : BufTy).Contents (Elt F) → (⟨S10000x256, .f32⟩ : BufTy).Contents (Elt F)),
    StableHlo.binary main_v273 main_v275 main_v276 (addf : (⟨S10000x256, .f32⟩ : BufTy).Contents (Elt F) → (⟨S10000x256, .f32⟩ : BufTy).Contents (Elt F) → (⟨S10000x256, .f32⟩ : BufTy).Contents (Elt F)),
    StableHlo.nullary main_cst_26 (constant S_ .f32 0x00000000#32),
    StableHlo.binary main_v276 main_cst_26 main_v277 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_27 (constant S_ .f32 0x461C4000#32),
    StableHlo.unary main_cst_27 main_v278 (broadcastInDim S256 ![] bcast_S_S256 : (⟨S_, .f32⟩ : BufTy).Contents (Elt F) → (⟨S256, .f32⟩ : BufTy).Contents (Elt F)),
    StableHlo.binary main_v277 main_v278 main_v279 (Host.divf : (⟨S256, .f32⟩ : BufTy).Contents (Elt F) → (⟨S256, .f32⟩ : BufTy).Contents (Elt F) → (⟨S256, .f32⟩ : BufTy).Contents (Elt F)),
    StableHlo.nullary main_c_28 (constantI S_ 32 0#32),
    StableHlo.TRef.nullary main_call8.cst (constant S_ .f32 0x00000000#32),
    StableHlo.TRef.binary (.of main_v276 : StableHlo.TRef sig ⟨S10000x256, .f32⟩) main_call8.cst main_call8.v0 (fun x v => Host.reduceAdd x v reducesTo_S10000x256_S256_d0 h_S_),
    StableHlo.TRef.unary main_call8.v0 main_call8.v1 (broadcastInDim S1x256 ![1] bcast_S256_S1x256_1),
    StableHlo.TRef.nullary main_call8.cst_0 (constant S_ .f32 0x461C4000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S10000x256 ![0, 1] bcast_S1x256_S10000x256_0_1),
    StableHlo.TRef.binary (.of main_v276 : StableHlo.TRef sig ⟨S10000x256, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x461C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S10000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v279 main_v281 (broadcastInDim S1x256 ![1] bcast_S256_S1x256_1 : (⟨S256, .f32⟩ : BufTy).Contents (Elt F) → (⟨S1x256, .f32⟩ : BufTy).Contents (Elt F)),
    StableHlo.unary main_v281 main_v282 (broadcastInDim S10000x256 ![0, 1] bcast_S1x256_S10000x256_0_1 : (⟨S1x256, .f32⟩ : BufTy).Contents (Elt F) → (⟨S10000x256, .f32⟩ : BufTy).Contents (Elt F)),
    StableHlo.binary main_v276 main_v282 main_v283 (subf : (⟨S10000x256, .f32⟩ : BufTy).Contents (Elt F) → (⟨S10000x256, .f32⟩ : BufTy).Contents (Elt F) → (⟨S10000x256, .f32⟩ : BufTy).Contents (Elt F)),
    StableHlo.nullary main_cst_29 (constant S_ .f32 0x3A83126F#32),
    StableHlo.unary main_cst_29 main_v284 (broadcastInDim S256 ![] bcast_S_S256 : (⟨S_, .f32⟩ : BufTy).Contents (Elt F) → (⟨S256, .f32⟩ : BufTy).Contents (Elt F)),
    StableHlo.binary main_v280 main_v284 main_v285 (addf : (⟨S256, .f32⟩ : BufTy).Contents (Elt F) → (⟨S256, .f32⟩ : BufTy).Contents (Elt F) → (⟨S256, .f32⟩ : BufTy).Contents (Elt F)),
    StableHlo.unary main_v285 main_v286 (Host.rsqrt : (⟨S256, .f32⟩ : BufTy).Contents (Elt F) → (⟨S256, .f32⟩ : BufTy).Contents (Elt F)),
    StableHlo.unary main_v286 main_v287 (broadcastInDim S1x256 ![1] bcast_S256_S1x256_1 : (⟨S256, .f32⟩ : BufTy).Contents (Elt F) → (⟨S1x256, .f32⟩ : BufTy).Contents (Elt F)),
    StableHlo.unary main_v287 main_v288 (broadcastInDim S10000x256 ![0, 1] bcast_S1x256_S10000x256_0_1 : (⟨S1x256, .f32⟩ : BufTy).Contents (Elt F) → (⟨S10000x256, .f32⟩ : BufTy).Contents (Elt F)),
    StableHlo.binary main_v283 main_v288 main_v289 (mulf : (⟨S10000x256, .f32⟩ : BufTy).Contents (Elt F) → (⟨S10000x256, .f32⟩ : BufTy).Contents (Elt F) → (⟨S10000x256, .f32⟩ : BufTy).Contents (Elt F)),
    StableHlo.unary main_arg22 main_v290 (broadcastInDim S1x256 ![1] bcast_S256_S1x256_1 : (⟨S256, .f32⟩ : BufTy).Contents (Elt F) → (⟨S1x256, .f32⟩ : BufTy).Contents (Elt F)),
    StableHlo.unary main_v290 main_v291 (broadcastInDim S10000x256 ![0, 1] bcast_S1x256_S10000x256_0_1 : (⟨S1x256, .f32⟩ : BufTy).Contents (Elt F) → (⟨S10000x256, .f32⟩ : BufTy).Contents (Elt F)),
    StableHlo.binary main_v289 main_v291 main_v292 (mulf : (⟨S10000x256, .f32⟩ : BufTy).Contents (Elt F) → (⟨S10000x256, .f32⟩ : BufTy).Contents (Elt F) → (⟨S10000x256, .f32⟩ : BufTy).Contents (Elt F)),
    StableHlo.unary main_arg23 main_v293 (broadcastInDim S1x256 ![1] bcast_S256_S1x256_1 : (⟨S256, .f32⟩ : BufTy).Contents (Elt F) → (⟨S1x256, .f32⟩ : BufTy).Contents (Elt F)),
    StableHlo.unary main_v293 main_v294 (broadcastInDim S10000x256 ![0, 1] bcast_S1x256_S10000x256_0_1 : (⟨S1x256, .f32⟩ : BufTy).Contents (Elt F) → (⟨S10000x256, .f32⟩ : BufTy).Contents (Elt F)),
    StableHlo.binary main_v292 main_v294 main_v295 (addf : (⟨S10000x256, .f32⟩ : BufTy).Contents (Elt F) → (⟨S10000x256, .f32⟩ : BufTy).Contents (Elt F) → (⟨S10000x256, .f32⟩ : BufTy).Contents (Elt F)),
    StableHlo.TRef.nullary main_call9.cst (constant S_ .f32 0x00000000#32),
    StableHlo.TRef.unary main_call9.cst main_call9.v0 (broadcastInDim S10000x256 ![] bcast_S_S10000x256),
    StableHlo.TRef.binary (.of main_v295 : StableHlo.TRef sig ⟨S10000x256, .f32⟩) main_call9.v0 main_call9.v1 maximumf,
    StableHlo.binary main_v296 main_arg24 main_v297 ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)),
    StableHlo.unary main_arg25 main_v298 (broadcastInDim S1x10000 ![1] bcast_S10000_S1x10000_1 : (⟨S10000, .f32⟩ : BufTy).Contents (Elt F) → (⟨S1x10000, .f32⟩ : BufTy).Contents (Elt F)),
    StableHlo.unary main_v298 main_v299 (broadcastInDim S10000x10000 ![0, 1] bcast_S1x10000_S10000x10000_0_1 : (⟨S1x10000, .f32⟩ : BufTy).Contents (Elt F) → (⟨S10000x10000, .f32⟩ : BufTy).Contents (Elt F)),
    StableHlo.binary main_v297 main_v299 main_v300 (addf : (⟨S10000x10000, .f32⟩ : BufTy).Contents (Elt F) → (⟨S10000x10000, .f32⟩ : BufTy).Contents (Elt F) → (⟨S10000x10000, .f32⟩ : BufTy).Contents (Elt F)),
    StableHlo.TRef.nullary main_call10.cst (constant S_ .f32 0xFF800000#32),
    StableHlo.TRef.binary (.of main_v300 : StableHlo.TRef sig ⟨S10000x10000, .f32⟩) main_call10.cst main_call10.v0 (fun x v => Host.reduce FloatOps.maximumf x v reducesTo_S10000x10000_S10000_d1 h_S_),
    StableHlo.TRef.nullary main_call10.cst_0 (constant S_ .f32 0xFF800000#32),
    StableHlo.TRef.unary main_call10.cst_0 main_call10.v1 (broadcastInDim S10000 ![] bcast_S_S10000),
    StableHlo.TRef.binary main_call10.v1 main_call10.v0 main_call10.v2 maximumf,
    StableHlo.TRef.unary main_call10.v2 main_call10.v3 (broadcastInDim S10000x1 ![0] bcast_S10000_S10000x1_0),
    StableHlo.TRef.unary main_call10.v3 main_call10.v4 (broadcastInDim S10000x10000 ![0, 1] bcast_S10000x1_S10000x10000_0_1),
    StableHlo.TRef.binary (.of main_v300 : StableHlo.TRef sig ⟨S10000x10000, .f32⟩) main_call10.v4 main_call10.v5 subf,
    StableHlo.TRef.unary main_call10.v5 main_call10.v6 Host.exp,
    StableHlo.TRef.nullary main_call10.cst_1 (constant S_ .f32 0x00000000#32),
    StableHlo.TRef.binary main_call10.v6 main_call10.cst_1 main_call10.v7 (fun x v => Host.reduceAdd x v reducesTo_S10000x10000_S10000_d1 h_S_),
    StableHlo.TRef.unary main_call10.v7 main_call10.v8 (broadcastInDim S10000x1 ![0] bcast_S10000_S10000x1_0),
    StableHlo.TRef.unary main_call10.v8 main_call10.v9 Host.log,
    StableHlo.TRef.unary main_call10.v9 main_call10.v10 (broadcastInDim S10000x10000 ![0, 1] bcast_S10000x1_S10000x10000_0_1),
    StableHlo.TRef.binary main_call10.v5 main_call10.v10 main_call10.v11 subf ]

/-- The reference each of those operations writes, in the same order. -/
abbrev ops5_W : List (Ref sig .tc) :=
  [ main_call7.cst.ref,
    main_call7.v0.ref,
    main_call7.v1.ref,
    main_v273,
    main_v274,
    main_v275,
    main_v276,
    main_cst_26,
    main_v277,
    main_cst_27,
    main_v278,
    main_v279,
    main_c_28,
    main_call8.cst.ref,
    main_call8.v0.ref,
    main_call8.v1.ref,
    main_call8.cst_0.ref,
    main_call8.v2.ref,
    main_call8.v3.ref,
    main_call8.v4.ref,
    main_call8.v5.ref,
    main_call8.v6.ref,
    main_call8.v7.ref,
    main_call8.cst_1.ref,
    main_call8.v8.ref,
    main_call8.cst_2.ref,
    main_call8.v9.ref,
    main_call8.v10.ref,
    main_call8.v11.ref,
    main_call8.cst_3.ref,
    main_call8.v12.ref,
    main_call8.cst_4.ref,
    main_call8.call0.v0.ref,
    main_call8.call0.v1.ref,
    main_call8.call0.v2.ref,
    main_v281,
    main_v282,
    main_v283,
    main_cst_29,
    main_v284,
    main_v285,
    main_v286,
    main_v287,
    main_v288,
    main_v289,
    main_v290,
    main_v291,
    main_v292,
    main_v293,
    main_v294,
    main_v295,
    main_call9.cst.ref,
    main_call9.v0.ref,
    main_call9.v1.ref,
    main_v297,
    main_v298,
    main_v299,
    main_v300,
    main_call10.cst.ref,
    main_call10.v0.ref,
    main_call10.cst_0.ref,
    main_call10.v1.ref,
    main_call10.v2.ref,
    main_call10.v3.ref,
    main_call10.v4.ref,
    main_call10.v5.ref,
    main_call10.v6.ref,
    main_call10.cst_1.ref,
    main_call10.v7.ref,
    main_call10.v8.ref,
    main_call10.v9.ref,
    main_call10.v10.ref,
    main_call10.v11.ref ]

set_option maxRecDepth 8192 in
/-- Every operation of the window touches TensorCore references only. -/
theorem ops5_sub : (ops5 : List (HloOp τ sig (Elt F))).Forall fun op => op.bufs ⊆ tcRefs τ sig :=
  ⟨nullary_bufs_sub ..,
   unary_bufs_sub ..,
   binary_bufs_sub ..,
   binary_bufs_sub ..,
   unary_bufs_sub ..,
   unary_bufs_sub ..,
   binary_bufs_sub ..,
   nullary_bufs_sub ..,
   binary_bufs_sub ..,
   nullary_bufs_sub ..,
   unary_bufs_sub ..,
   binary_bufs_sub ..,
   nullary_bufs_sub ..,
   nullary_bufs_sub ..,
   binary_bufs_sub ..,
   unary_bufs_sub ..,
   nullary_bufs_sub ..,
   unary_bufs_sub ..,
   binary_bufs_sub ..,
   unary_bufs_sub ..,
   binary_bufs_sub ..,
   binary_bufs_sub ..,
   unary_bufs_sub ..,
   nullary_bufs_sub ..,
   binary_bufs_sub ..,
   nullary_bufs_sub ..,
   binary_bufs_sub ..,
   unary_bufs_sub ..,
   binary_bufs_sub ..,
   nullary_bufs_sub ..,
   binary_bufs_sub ..,
   nullary_bufs_sub ..,
   unary_bufs_sub ..,
   unary_bufs_sub ..,
   ternary_bufs_sub ..,
   unary_bufs_sub ..,
   unary_bufs_sub ..,
   binary_bufs_sub ..,
   nullary_bufs_sub ..,
   unary_bufs_sub ..,
   binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..,
   nullary_bufs_sub ..,
   unary_bufs_sub ..,
   binary_bufs_sub ..,
   binary_bufs_sub ..,
   unary_bufs_sub ..,
   unary_bufs_sub ..,
   binary_bufs_sub ..,
   nullary_bufs_sub ..,
   binary_bufs_sub ..,
   nullary_bufs_sub ..,
   unary_bufs_sub ..,
   binary_bufs_sub ..,
   unary_bufs_sub ..,
   unary_bufs_sub ..,
   binary_bufs_sub ..,
   unary_bufs_sub ..,
   nullary_bufs_sub ..,
   binary_bufs_sub ..,
   unary_bufs_sub ..,
   unary_bufs_sub ..,
   unary_bufs_sub ..,
   binary_bufs_sub ..⟩

end Cert.ReferenceIdeal.RefRun

end
-- ==== Proof.RefRunEq5.lean ====
/-
  Window 5 of the reference program's @main (`main_part5`) is the straight line of the operations `ops5`:
  a call of a module-local function means its body, substituted (the printed form's meaning of a call), so
  unfolding each function's definition at its call sites, and the calls' records at their fields, leaves one
  chain of `hlo` steps; reassociating the sequencing (`bind_assoc`, `pure_bind`) makes it `seq ops5` (this last window
  ends in the program's return, so the two sides then coincide as written).
  None of the operations leaves a buffer undetermined (`fresh` is empty for every builder used here), each
  writes exactly one reference, the one listed at its place in `ops5_W`, and so a reference that is not in
  that list holds after the window what it held before it.
-/
import proofs.«135777_j83262236000435_2_alg».proof.Proof.RefRunOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is the straight line of its operations. -/
theorem part5_eq (c : Dev nD) : main_part5 (F := F) c = seq ops5 := by
  simp only [main_part5, fn_where.body, fn_var.body, fn_relu.body, fn_where_1.body, fn_var_0.body, fn_relu_2.body, fn_where_4.body, fn_var_3.body, fn_relu_5.body, fn_log_softmax.body,
    seq, bind_assoc, pure_bind]

set_option maxRecDepth 16384 in
/-- Every operation of the window determines all that it writes. -/
theorem ops5_fresh : (ops5 : List (HloOp τ sig (Elt F))).Forall fun op => op.fresh = ∅ := by
  simp only [ops5, List.Forall]
  repeat' constructor

set_option maxRecDepth 16384 in
set_option maxHeartbeats 4000000 in
/-- Each operation writes the one reference listed at its place in `ops5_W`. -/
theorem ops5_writes : (ops5 : List (HloOp τ sig (Elt F))).Forall fun op =>
    op.writes ⊆ (ops5_W.map (Proc.devRef (τ := τ) .tc)).toFinset := by
  simp only [ops5, List.Forall]
  repeat' apply And.intro
  all_goals
    simp only [nullary_writes, unary_writes, binary_writes, ternary_writes, reshape_writes,
      Finset.singleton_subset_iff, List.mem_toFinset]
    exact List.mem_map_of_mem (by decide)

/-- A reference the window does not write holds after it what it held before. -/
theorem ops5_keeps (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.RefRun.lean ====
/-
  The reference program's run, by hand. @main is six windows run in order, window K the straight line of `opsK`
  (RefRunEqK: `partK_eq`), so @main is the straight line of their concatenation `ops` — two lines run one after the
  other are their concatenation run as one (`seq_append`). The signature scopes no buffer and no semaphore, every
  operation touches TensorCore references only and determines what it writes: so (`StableHlo.run_seq`) every weakly
  fair execution of @main on the TensorCores terminates with each TensorCore buffer at the fold of the operations'
  results over its launch contents (`after ops`). The fold over a concatenation is the folds composed
  (`after_append`), a window leaves a reference it does not write as it was (`opsK_keeps`), and no window writes
  an argument: each of the 26 argument buffers ends at its launch contents (`kept_argK`).
-/
import proofs.«135777_j83262236000435_2_alg».proof.Proof.RefRunEq0
import proofs.«135777_j83262236000435_2_alg».proof.Proof.RefRunEq1
import proofs.«135777_j83262236000435_2_alg».proof.Proof.RefRunEq2
import proofs.«135777_j83262236000435_2_alg».proof.Proof.RefRunEq3
import proofs.«135777_j83262236000435_2_alg».proof.Proof.RefRunEq4
import proofs.«135777_j83262236000435_2_alg».proof.Proof.RefRunEq5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the six windows' lists, concatenated. -/
abbrev ops : List (HloOp τ sig (Elt F)) :=
  ops0 ++ (ops1 ++ (ops2 ++ (ops3 ++ (ops4 ++ ops5))))

/-- @main is the straight line of its operations: each window is (`partK_eq`), and lines run in order concatenate. -/
theorem main_eq (c : Dev nD) : main (F := F) c = seq ops := by
  simp only [ops, seq_append, ← part0_eq c, ← part1_eq c, ← part2_eq c, ← part3_eq c, ← part4_eq c, ← part5_eq c]
  rfl

set_option maxRecDepth 16384 in
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

/-- Every operation determines all that it writes: window by window. -/
theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole program, window by window. -/
theorem after_ops (V : Valuation τ sig (Elt F)) :
    after ops V = after ops5 (after ops4 (after ops3 (after ops2 (after ops1 (after ops0 V))))) := by
  simp only [ops, after_append]

/-- A reference that no window writes holds after the whole program what it held at launch. -/
theorem ops_keeps (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) :
    after ops V (Proc.devRef .tc r) = V (Proc.devRef .tc r) := by
  simp only [ops, after_append]
  rw [ops5_keeps _ r h5, ops4_keeps _ r h4, ops3_keeps _ r h3, ops2_keeps _ r h2, ops1_keeps _ r h1, ops0_keeps _ r h0]

/-! ## No operation writes an argument -/

theorem kept_arg0 (V : Valuation τ sig (Elt F)) :
    after ops V (main_arg0 : DevRef τ sig) = V (main_arg0 : DevRef τ sig) :=
  ops_keeps V main_arg0 (by decide) (by decide) (by decide) (by decide) (by decide) (by decide)
theorem kept_arg1 (V : Valuation τ sig (Elt F)) :
    after ops V (main_arg1 : DevRef τ sig) = V (main_arg1 : DevRef τ sig) :=
  ops_keeps V main_arg1 (by decide) (by decide) (by decide) (by decide) (by decide) (by decide)
theorem kept_arg2 (V : Valuation τ sig (Elt F)) :
    after ops V (main_arg2 : DevRef τ sig) = V (main_arg2 : DevRef τ sig) :=
  ops_keeps V main_arg2 (by decide) (by decide) (by decide) (by decide) (by decide) (by decide)
theorem kept_arg3 (V : Valuation τ sig (Elt F)) :
    after ops V (main_arg3 : DevRef τ sig) = V (main_arg3 : DevRef τ sig) :=
  ops_keeps V main_arg3 (by decide) (by decide) (by decide) (by decide) (by decide) (by decide)
theorem kept_arg4 (V : Valuation τ sig (Elt F)) :
    after ops V (main_arg4 : DevRef τ sig) = V (main_arg4 : DevRef τ sig) :=
  ops_keeps V main_arg4 (by decide) (by decide) (by decide) (by decide) (by decide) (by decide)
theorem kept_arg5 (V : Valuation τ sig (Elt F)) :
    after ops V (main_arg5 : DevRef τ sig) = V (main_arg5 : DevRef τ sig) :=
  ops_keeps V main_arg5 (by decide) (by decide) (by decide) (by decide) (by decide) (by decide)
theorem kept_arg6 (V : Valuation τ sig (Elt F)) :
    after ops V (main_arg6 : DevRef τ sig) = V (main_arg6 : DevRef τ sig) :=
  ops_keeps V main_arg6 (by decide) (by decide) (by decide) (by decide) (by decide) (by decide)
theorem kept_arg7 (V : Valuation τ sig (Elt F)) :
    after ops V (main_arg7 : DevRef τ sig) = V (main_arg7 : DevRef τ sig) :=
  ops_keeps V main_arg7 (by decide) (by decide) (by decide) (by decide) (by decide) (by decide)
theorem kept_arg8 (V : Valuation τ sig (Elt F)) :
    after ops V (main_arg8 : DevRef τ sig) = V (main_arg8 : DevRef τ sig) :=
  ops_keeps V main_arg8 (by decide) (by decide) (by decide) (by decide) (by decide) (by decide)
theorem kept_arg9 (V : Valuation τ sig (Elt F)) :
    after ops V (main_arg9 : DevRef τ sig) = V (main_arg9 : DevRef τ sig) :=
  ops_keeps V main_arg9 (by decide) (by decide) (by decide) (by decide) (by decide) (by decide)
theorem kept_arg10 (V : Valuation τ sig (Elt F)) :
    after ops V (main_arg10 : DevRef τ sig) = V (main_arg10 : DevRef τ sig) :=
  ops_keeps V main_arg10 (by decide) (by decide) (by decide) (by decide) (by decide) (by decide)
theorem kept_arg11 (V : Valuation τ sig (Elt F)) :
    after ops V (main_arg11 : DevRef τ sig) = V (main_arg11 : DevRef τ sig) :=
  ops_keeps V main_arg11 (by decide) (by decide) (by decide) (by decide) (by decide) (by decide)
theorem kept_arg12 (V : Valuation τ sig (Elt F)) :
    after ops V (main_arg12 : DevRef τ sig) = V (main_arg12 : DevRef τ sig) :=
  ops_keeps V main_arg12 (by decide) (by decide) (by decide) (by decide) (by decide) (by decide)
theorem kept_arg13 (V : Valuation τ sig (Elt F)) :
    after ops V (main_arg13 : DevRef τ sig) = V (main_arg13 : DevRef τ sig) :=
  ops_keeps V main_arg13 (by decide) (by decide) (by decide) (by decide) (by decide) (by decide)
theorem kept_arg14 (V : Valuation τ sig (Elt F)) :
    after ops V (main_arg14 : DevRef τ sig) = V (main_arg14 : DevRef τ sig) :=
  ops_keeps V main_arg14 (by decide) (by decide) (by decide) (by decide) (by decide) (by decide)
theorem kept_arg15 (V : Valuation τ sig (Elt F)) :
    after ops V (main_arg15 : DevRef τ sig) = V (main_arg15 : DevRef τ sig) :=
  ops_keeps V main_arg15 (by decide) (by decide) (by decide) (by decide) (by decide) (by decide)
theorem kept_arg16 (V : Valuation τ sig (Elt F)) :
    after ops V (main_arg16 : DevRef τ sig) = V (main_arg16 : DevRef τ sig) :=
  ops_keeps V main_arg16 (by decide) (by decide) (by decide) (by decide) (by decide) (by decide)
theorem kept_arg17 (V : Valuation τ sig (Elt F)) :
    after ops V (main_arg17 : DevRef τ sig) = V (main_arg17 : DevRef τ sig) :=
  ops_keeps V main_arg17 (by decide) (by decide) (by decide) (by decide) (by decide) (by decide)
theorem kept_arg18 (V : Valuation τ sig (Elt F)) :
    after ops V (main_arg18 : DevRef τ sig) = V (main_arg18 : DevRef τ sig) :=
  ops_keeps V main_arg18 (by decide) (by decide) (by decide) (by decide) (by decide) (by decide)
theorem kept_arg19 (V : Valuation τ sig (Elt F)) :
    after ops V (main_arg19 : DevRef τ sig) = V (main_arg19 : DevRef τ sig) :=
  ops_keeps V main_arg19 (by decide) (by decide) (by decide) (by decide) (by decide) (by decide)
theorem kept_arg20 (V : Valuation τ sig (Elt F)) :
    after ops V (main_arg20 : DevRef τ sig) = V (main_arg20 : DevRef τ sig) :=
  ops_keeps V main_arg20 (by decide) (by decide) (by decide) (by decide) (by decide) (by decide)
theorem kept_arg21 (V : Valuation τ sig (Elt F)) :
    after ops V (main_arg21 : DevRef τ sig) = V (main_arg21 : DevRef τ sig) :=
  ops_keeps V main_arg21 (by decide) (by decide) (by decide) (by decide) (by decide) (by decide)
theorem kept_arg22 (V : Valuation τ sig (Elt F)) :
    after ops V (main_arg22 : DevRef τ sig) = V (main_arg22 : DevRef τ sig) :=
  ops_keeps V main_arg22 (by decide) (by decide) (by decide) (by decide) (by decide) (by decide)
theorem kept_arg23 (V : Valuation τ sig (Elt F)) :
    after ops V (main_arg23 : DevRef τ sig) = V (main_arg23 : DevRef τ sig) :=
  ops_keeps V main_arg23 (by decide) (by decide) (by decide) (by decide) (by decide) (by decide)
theorem kept_arg24 (V : Valuation τ sig (Elt F)) :
    after ops V (main_arg24 : DevRef τ sig) = V (main_arg24 : DevRef τ sig) :=
  ops_keeps V main_arg24 (by decide) (by decide) (by decide) (by decide) (by decide) (by decide)
theorem kept_arg25 (V : Valuation τ sig (Elt F)) :
    after ops V (main_arg25 : DevRef τ sig) = V (main_arg25 : DevRef τ sig) :=
  ops_keeps V main_arg25 (by decide) (by decide) (by decide) (by decide) (by decide) (by decide)

end Cert.ReferenceIdeal.RefRun

end
-- ==== Proof.RefRunFrame.lean ====
/-
  The reference's frame claim. For any launch memory with zero counters (the precondition on the inputs is not
  needed for this), every weakly fair execution of the reference's @main terminates, and in every final state each
  TensorCore buffer holds the fold of @main's operations over the launch contents (`RefRun.run_main`, at the ideal
  float values); at an argument buffer that fold is the launch contents themselves, since no operation writes an
  argument (`RefRun.kept_argK`), and the launch contents of a TensorCore reference are the launch memory at its
  location. So the 26 argument buffers end as they were launched.
-/
import proofs.«135777_j83262236000435_2_alg».proof.Defs
import proofs.«135777_j83262236000435_2_alg».proof.Proof.Gen.ReferenceIdeal
import proofs.«135777_j83262236000435_2_alg».proof.Proof.Gen.Pre_finite_inputs
import proofs.«135777_j83262236000435_2_alg».proof.Proof.RefRun

noncomputable section

namespace Cert.Proof.RefFrame

open Cert.ReferenceIdeal Cert.ReferenceIdeal.Gen Idealize.ShloMosaic Idealize.ShloMosaic.TcCoe Idealize.SL.Sem Idealize.ShloMosaic.StableHlo
open Cert.ReferenceIdeal.RefRun

/-- The reference program leaves its 26 argument buffers as launched. -/
theorem frame_ri : Cert.frame_ReferenceIdeal := fun m g _ =>
  (θ_run (Cert.ReferenceIdeal.defs (F := Ideal)) _ _).mono
    (fun r h c =>
      ⟨(h c main_arg0).trans (kept_arg0 _),
       (h c main_arg1).trans (kept_arg1 _),
       (h c main_arg2).trans (kept_arg2 _),
       (h c main_arg3).trans (kept_arg3 _),
       (h c main_arg4).trans (kept_arg4 _),
       (h c main_arg5).trans (kept_arg5 _),
       (h c main_arg6).trans (kept_arg6 _),
       (h c main_arg7).trans (kept_arg7 _),
       (h c main_arg8).trans (kept_arg8 _),
       (h c main_arg9).trans (kept_arg9 _),
       (h c main_arg10).trans (kept_arg10 _),
       (h c main_arg11).trans (kept_arg11 _),
       (h c main_arg12).trans (kept_arg12 _),
       (h c main_arg13).trans (kept_arg13 _),
       (h c main_arg14).trans (kept_arg14 _),
       (h c main_arg15).trans (kept_arg15 _),
       (h c main_arg16).trans (kept_arg16 _),
       (h c main_arg17).trans (kept_arg17 _),
       (h c main_arg18).trans (kept_arg18 _),
       (h c main_arg19).trans (kept_arg19 _),
       (h c main_arg20).trans (kept_arg20 _),
       (h c main_arg21).trans (kept_arg21 _),
       (h c main_arg22).trans (kept_arg22 _),
       (h c main_arg23).trans (kept_arg23 _),
       (h c main_arg24).trans (kept_arg24 _),
       (h c main_arg25).trans (kept_arg25 _)⟩)
    (run_main (F := Ideal) m g)

end Cert.Proof.RefFrame

end
-- ==== Proof.Algebraic.lean ====
/-
  The algebraic claim reduced to one equation between values.

  Both idealized programs run to completion from any memory (the kernel program through its twelve segments, the
  reference through its straight line of host operations), and each leaves its two results at a pure function of
  its own launch memory: the kernel program at the last boundary's contents of its fold, the reference at the fold
  of its operation list. So the claim "both end with equal results" is exactly the statement that these two
  functions agree — on memories that agree on the twenty-six arguments and satisfy the precondition (every input
  finite) — at the two result buffers: the log-probabilities (10000 × 10000) and the descriptors (10000 × 256).
  That statement is `ResultsAgree` below; `algebraic_of_results` derives the claim from it.
-/
import proofs.«135777_j83262236000435_2_alg».proof.Defs
import proofs.«135777_j83262236000435_2_alg».proof.Proof.KernelRun
import proofs.«135777_j83262236000435_2_alg».proof.Proof.RefRun

set_option maxRecDepth 16384

noncomputable section

namespace Cert.Proof.Values

open Idealize.ShloMosaic Idealize.ShloMosaic.TcCoe Idealize.SL.Sem Idealize.ShloMosaic.StableHlo

variable [hKernelIdeal : Cert.KernelIdeal.Facts] [hReferenceIdeal : Cert.ReferenceIdeal.Facts] [hPre_finite_inputs : Cert.Pre_finite_inputs.Facts]

/-- The two result functions agree: for launch memories `m` (kernel program) and `m'` (reference) that agree on every
    argument array, with every input of `m` finite, the reference's operation fold at its two result buffers equals
    the kernel program's last-boundary contents at its two result buffers, on every device. -/
def ResultsAgree : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ), Cert.Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∀ c : Dev Cert.KernelIdeal.nD,
      after (Cert.ReferenceIdeal.RefRun.ops (F := Ideal)) (launchContents m' c) (Cert.ReferenceIdeal.main_v301 : DevRef Cert.ReferenceIdeal.τ Cert.ReferenceIdeal.sig)
          = Cert.KernelIdeal.Gen.W12 (F := Ideal) m g c (Proc.devRef .tc Cert.KernelIdeal.main_v61)
      ∧ after (Cert.ReferenceIdeal.RefRun.ops (F := Ideal)) (launchContents m' c) (Cert.ReferenceIdeal.main_v296 : DevRef Cert.ReferenceIdeal.τ Cert.ReferenceIdeal.sig)
          = Cert.KernelIdeal.Gen.W12 (F := Ideal) m g c (Proc.devRef .tc Cert.KernelIdeal.main_v58)

/-- Equal result functions give the algebraic claim: the witnesses are the kernel program's last-boundary contents;
    the kernel program's run names every unscoped buffer there and its arguments read back to the launch memory;
    the reference's run names every buffer at its fold, whose result buffers are the witnesses by hypothesis and
    whose argument buffers are untouched. -/
theorem algebraic_of_results (h : ResultsAgree) : Cert.algebraic_KernelIdeal_ReferenceIdeal := by
  intro m g m' g' hpre hagree
  refine ⟨fun c => Cert.KernelIdeal.Gen.W12 (F := Ideal) m g c (Proc.devRef .tc Cert.KernelIdeal.main_v61),
    fun c => Cert.KernelIdeal.Gen.W12 (F := Ideal) m g c (Proc.devRef .tc Cert.KernelIdeal.main_v58), ?_, ?_⟩
  · refine (θ_run Cert.KernelIdeal.defs _ _).mono (fun r hr c => ?_) (Cert.KernelIdeal.NamedRun.run_all (F := Ideal) m g)
    exact ⟨hr c Cert.KernelIdeal.main_v61 (by decide), hr c Cert.KernelIdeal.main_v58 (by decide),
      (hr c Cert.KernelIdeal.main_arg0 (by decide)).trans (Cert.KernelIdeal.Gen.W12_main_arg0 m g c),
      (hr c Cert.KernelIdeal.main_arg1 (by decide)).trans (Cert.KernelIdeal.Gen.W12_main_arg1 m g c),
      (hr c Cert.KernelIdeal.main_arg2 (by decide)).trans (Cert.KernelIdeal.Gen.W12_main_arg2 m g c),
      (hr c Cert.KernelIdeal.main_arg3 (by decide)).trans (Cert.KernelIdeal.Gen.W12_main_arg3 m g c),
      (hr c Cert.KernelIdeal.main_arg4 (by decide)).trans (Cert.KernelIdeal.Gen.W12_main_arg4 m g c),
      (hr c Cert.KernelIdeal.main_arg5 (by decide)).trans (Cert.KernelIdeal.Gen.W12_main_arg5 m g c),
      (hr c Cert.KernelIdeal.main_arg6 (by decide)).trans (Cert.KernelIdeal.Gen.W12_main_arg6 m g c),
      (hr c Cert.KernelIdeal.main_arg7 (by decide)).trans (Cert.KernelIdeal.Gen.W12_main_arg7 m g c),
      (hr c Cert.KernelIdeal.main_arg8 (by decide)).trans (Cert.KernelIdeal.Gen.W12_main_arg8 m g c),
      (hr c Cert.KernelIdeal.main_arg9 (by decide)).trans (Cert.KernelIdeal.Gen.W12_main_arg9 m g c),
      (hr c Cert.KernelIdeal.main_arg10 (by decide)).trans (Cert.KernelIdeal.Gen.W12_main_arg10 m g c),
      (hr c Cert.KernelIdeal.main_arg11 (by decide)).trans (Cert.KernelIdeal.Gen.W12_main_arg11 m g c),
      (hr c Cert.KernelIdeal.main_arg12 (by decide)).trans (Cert.KernelIdeal.Gen.W12_main_arg12 m g c),
      (hr c Cert.KernelIdeal.main_arg13 (by decide)).trans (Cert.KernelIdeal.Gen.W12_main_arg13 m g c),
      (hr c Cert.KernelIdeal.main_arg14 (by decide)).trans (Cert.KernelIdeal.Gen.W12_main_arg14 m g c),
      (hr c Cert.KernelIdeal.main_arg15 (by decide)).trans (Cert.KernelIdeal.Gen.W12_main_arg15 m g c),
      (hr c Cert.KernelIdeal.main_arg16 (by decide)).trans (Cert.KernelIdeal.Gen.W12_main_arg16 m g c),
      (hr c Cert.KernelIdeal.main_arg17 (by decide)).trans (Cert.KernelIdeal.Gen.W12_main_arg17 m g c),
      (hr c Cert.KernelIdeal.main_arg18 (by decide)).trans (Cert.KernelIdeal.Gen.W12_main_arg18 m g c),
      (hr c Cert.KernelIdeal.main_arg19 (by decide)).trans (Cert.KernelIdeal.Gen.W12_main_arg19 m g c),
      (hr c Cert.KernelIdeal.main_arg20 (by decide)).trans (Cert.KernelIdeal.Gen.W12_main_arg20 m g c),
      (hr c Cert.KernelIdeal.main_arg21 (by decide)).trans (Cert.KernelIdeal.Gen.W12_main_arg21 m g c),
      (hr c Cert.KernelIdeal.main_arg22 (by decide)).trans (Cert.KernelIdeal.Gen.W12_main_arg22 m g c),
      (hr c Cert.KernelIdeal.main_arg23 (by decide)).trans (Cert.KernelIdeal.Gen.W12_main_arg23 m g c),
      (hr c Cert.KernelIdeal.main_arg24 (by decide)).trans (Cert.KernelIdeal.Gen.W12_main_arg24 m g c),
      (hr c Cert.KernelIdeal.main_arg25 (by decide)).trans (Cert.KernelIdeal.Gen.W12_main_arg25 m g c)⟩
  · refine (θ_run Cert.ReferenceIdeal.defs _ _).mono (fun r hr c => ?_) (Cert.ReferenceIdeal.RefRun.run_main (F := Ideal) m' g')
    exact ⟨(hr c Cert.ReferenceIdeal.main_v301).trans (h m g m' hpre hagree c).1, (hr c Cert.ReferenceIdeal.main_v296).trans (h m g m' hpre hagree c).2,
      (hr c Cert.ReferenceIdeal.main_arg0).trans (Cert.ReferenceIdeal.RefRun.kept_arg0 _),
      (hr c Cert.ReferenceIdeal.main_arg1).trans (Cert.ReferenceIdeal.RefRun.kept_arg1 _),
      (hr c Cert.ReferenceIdeal.main_arg2).trans (Cert.ReferenceIdeal.RefRun.kept_arg2 _),
      (hr c Cert.ReferenceIdeal.main_arg3).trans (Cert.ReferenceIdeal.RefRun.kept_arg3 _),
      (hr c Cert.ReferenceIdeal.main_arg4).trans (Cert.ReferenceIdeal.RefRun.kept_arg4 _),
      (hr c Cert.ReferenceIdeal.main_arg5).trans (Cert.ReferenceIdeal.RefRun.kept_arg5 _),
      (hr c Cert.ReferenceIdeal.main_arg6).trans (Cert.ReferenceIdeal.RefRun.kept_arg6 _),
      (hr c Cert.ReferenceIdeal.main_arg7).trans (Cert.ReferenceIdeal.RefRun.kept_arg7 _),
      (hr c Cert.ReferenceIdeal.main_arg8).trans (Cert.ReferenceIdeal.RefRun.kept_arg8 _),
      (hr c Cert.ReferenceIdeal.main_arg9).trans (Cert.ReferenceIdeal.RefRun.kept_arg9 _),
      (hr c Cert.ReferenceIdeal.main_arg10).trans (Cert.ReferenceIdeal.RefRun.kept_arg10 _),
      (hr c Cert.ReferenceIdeal.main_arg11).trans (Cert.ReferenceIdeal.RefRun.kept_arg11 _),
      (hr c Cert.ReferenceIdeal.main_arg12).trans (Cert.ReferenceIdeal.RefRun.kept_arg12 _),
      (hr c Cert.ReferenceIdeal.main_arg13).trans (Cert.ReferenceIdeal.RefRun.kept_arg13 _),
      (hr c Cert.ReferenceIdeal.main_arg14).trans (Cert.ReferenceIdeal.RefRun.kept_arg14 _),
      (hr c Cert.ReferenceIdeal.main_arg15).trans (Cert.ReferenceIdeal.RefRun.kept_arg15 _),
      (hr c Cert.ReferenceIdeal.main_arg16).trans (Cert.ReferenceIdeal.RefRun.kept_arg16 _),
      (hr c Cert.ReferenceIdeal.main_arg17).trans (Cert.ReferenceIdeal.RefRun.kept_arg17 _),
      (hr c Cert.ReferenceIdeal.main_arg18).trans (Cert.ReferenceIdeal.RefRun.kept_arg18 _),
      (hr c Cert.ReferenceIdeal.main_arg19).trans (Cert.ReferenceIdeal.RefRun.kept_arg19 _),
      (hr c Cert.ReferenceIdeal.main_arg20).trans (Cert.ReferenceIdeal.RefRun.kept_arg20 _),
      (hr c Cert.ReferenceIdeal.main_arg21).trans (Cert.ReferenceIdeal.RefRun.kept_arg21 _),
      (hr c Cert.ReferenceIdeal.main_arg22).trans (Cert.ReferenceIdeal.RefRun.kept_arg22 _),
      (hr c Cert.ReferenceIdeal.main_arg23).trans (Cert.ReferenceIdeal.RefRun.kept_arg23 _),
      (hr c Cert.ReferenceIdeal.main_arg24).trans (Cert.ReferenceIdeal.RefRun.kept_arg24 _),
      (hr c Cert.ReferenceIdeal.main_arg25).trans (Cert.ReferenceIdeal.RefRun.kept_arg25 _)⟩

end Cert.Proof.Values

end
-- ==== Proof.Region0.lean ====
/-
  What the first region leaves in its output array.

  The first region runs its body at a single grid point, and every window's block at that point is its whole array
  (the three layers need every row at once: batch normalisation reduces over all ten thousand rows). The body writes
  the output window's buffer once, with the third layer's result as a function of the sixteen input blocks, and the one
  write-back copies that buffer over the whole output array. So the output array after the region is that function of
  the input windows' blocks, each block being its array as the region found it.
-/
import proofs.«135777_j83262236000435_2_alg».proof.Proof.Gen.KernelIdeal.Frame
import Idealize.ShloMosaic.Lib.Pipeline.Value

set_option maxRecDepth 16384
set_option pp.maxSteps 5000
set_option pp.deepTerms false

noncomputable section

namespace Cert.KernelIdeal.Region0

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The grid of the first region has one point. -/
theorem N_eq : cfg0.N = 1 := N_0

/-- That point. -/
def t0 : Fin cfg0.N := ⟨0, by rw [N_eq]; exact Nat.one_pos⟩

theorem eq_t0 (t : Fin cfg0.N) : t = t0 := Fin.ext (by have h1 := t.isLt; have h2 : cfg0.N = 1 := N_eq; show t.val = 0; omega)

/-- The third layer's result as the body leaves it: a function of the sixteen input blocks at the one point. -/
def out (c : Dev nD) : Vec F S10000x128 .f32 :=
  out0_16 (iblk0 (V5 m ρ) c 0 t0) (iblk0 (V5 m ρ) c 1 t0) (iblk0 (V5 m ρ) c 2 t0) (iblk0 (V5 m ρ) c 3 t0) (iblk0 (V5 m ρ) c 4 t0) (iblk0 (V5 m ρ) c 5 t0) (iblk0 (V5 m ρ) c 6 t0) (iblk0 (V5 m ρ) c 7 t0) (iblk0 (V5 m ρ) c 8 t0) (iblk0 (V5 m ρ) c 9 t0) (iblk0 (V5 m ρ) c 10 t0) (iblk0 (V5 m ρ) c 11 t0) (iblk0 (V5 m ρ) c 12 t0) (iblk0 (V5 m ρ) c 13 t0) (iblk0 (V5 m ρ) c 14 t0) (iblk0 (V5 m ρ) c 15 t0)

/-- The one write-back writes `out`: the output's block at the point is the whole array, read through zero offsets. -/
theorem flushed_eq (c : Dev nD) (t : Fin cfg0.N) (hf : (cfg0.win 16).flush t = true) :
    (dat0 (V5 m ρ) c).flushed 16 t = ((cfg0.win 16).blk t).view.read (Elt F) (out m ρ c) := by
  obtain rfl : t = t0 := eq_t0 t
  show (cfg0.win 16).cut (grid0.coords t0) ((dat0 (V5 m ρ) c).after 16 t0) = _
  rw [after0_16]
  have hz' : (fun a => win0_16.index t0 a * main_v34.ty.shape.size a) = fun _ => 0 := funext fun a => by fin_cases a <;> decide
  exact (Memref.read_access_unit_zero (Elt F) main_v34 hz' (fun a => by rw [congrFun hz' a]; simp) (out m ρ c)).symm

/-- The output array after the region is `out`: the point's block covers the whole array. -/
theorem arr_eq (c : Dev nD) : (dat0 (V5 m ρ) c).arrAt 16 cfg0.N = out m ρ c :=
  (dat0 (V5 m ρ) c).arrAt_eq_of_cover 16 (out m ρ c) (flushed_eq m ρ c) fun i =>
    ⟨t0, flush0_16 t0, by
      show i ∈ ((View.whole main_v34).slice (win0_16.rect t0)).set
      rw [View.set_slice_whole, Rect.mem_set_unit]
      intro a
      have h0 : (i 0 : Nat) < 10000 := (i 0).isLt
      have h1 : (i 1 : Nat) < 128 := (i 1).isLt
      match a with
      | ⟨0, _⟩ => show win0_16.index t0 0 * win0_16.size 0 ≤ (i 0 : Nat) ∧ (i 0 : Nat) < win0_16.index t0 0 * win0_16.size 0 + win0_16.xsize (grid0.coords t0) 0
                  rw [show win0_16.index t0 0 * win0_16.size 0 = 0 from by decide +kernel, show win0_16.xsize (grid0.coords t0) 0 = 10000 from by decide +kernel]; omega
      | ⟨1, _⟩ => show win0_16.index t0 1 * win0_16.size 1 ≤ (i 1 : Nat) ∧ (i 1 : Nat) < win0_16.index t0 1 * win0_16.size 1 + win0_16.xsize (grid0.coords t0) 1
                  rw [show win0_16.index t0 1 * win0_16.size 1 = 0 from by decide +kernel, show win0_16.xsize (grid0.coords t0) 1 = 128 from by decide +kernel]; omega⟩

/-- The buffer of the third layer's result, after the region, holds `out`. -/
theorem W6_out (c : Dev nD) : W6 m ρ c (Proc.devRef .tc (Pipeline.arrRef spec0 16)) = out m ρ c :=
  (W6_arr m ρ c 16).trans (arr_eq m ρ c)

end Cert.KernelIdeal.Region0

end
-- ==== Proof.Region0Blocks.lean ====
/-
  The first region's input blocks are its windows' whole arrays.

  At the region's one grid point every window's block starts at offset zero and has its array's full extent, so reading
  the block off the array returns the array. Hence the third layer's result, after the region, is the body's function
  of the sixteen arrays as the region found them: the first dense layer's output, the spectral basis and its dual, the
  eigenvalues as a column, and for each of the three layers its six weight matrices and its bias, scale and shift rows.
-/
import proofs.«135777_j83262236000435_2_alg».proof.Proof.Region0

set_option maxRecDepth 16384
set_option pp.maxSteps 5000
set_option pp.deepTerms false

noncomputable section

namespace Cert.KernelIdeal.Region0

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Window 0's block at the one point is its whole array. -/
theorem iblk_0 (c : Dev nD) : iblk0 (V5 m ρ) c 0 t0 = V5 m ρ c main_v23 := by
  have hz' : (fun a => win0_0.index t0 a * main_v23.ty.shape.size a) = fun _ => 0 := funext fun a => by fin_cases a <;> decide
  exact Memref.read_access_unit_zero (Elt F) main_v23 hz' (fun a => by rw [congrFun hz' a]; simp) (V5 m ρ c main_v23)
/-- Window 1's block at the one point is its whole array. -/
theorem iblk_1 (c : Dev nD) : iblk0 (V5 m ρ) c 1 t0 = V5 m ρ c main_arg1 := by
  have hz' : (fun a => win0_1.index t0 a * main_arg1.ty.shape.size a) = fun _ => 0 := funext fun a => by fin_cases a <;> decide
  exact Memref.read_access_unit_zero (Elt F) main_arg1 hz' (fun a => by rw [congrFun hz' a]; simp) (V5 m ρ c main_arg1)
/-- Window 2's block at the one point is its whole array. -/
theorem iblk_2 (c : Dev nD) : iblk0 (V5 m ρ) c 2 t0 = V5 m ρ c main_arg2 := by
  have hz' : (fun a => win0_2.index t0 a * main_arg2.ty.shape.size a) = fun _ => 0 := funext fun a => by fin_cases a <;> decide
  exact Memref.read_access_unit_zero (Elt F) main_arg2 hz' (fun a => by rw [congrFun hz' a]; simp) (V5 m ρ c main_arg2)
/-- Window 3's block at the one point is its whole array. -/
theorem iblk_3 (c : Dev nD) : iblk0 (V5 m ρ) c 3 t0 = V5 m ρ c main_v24 := by
  have hz' : (fun a => win0_3.index t0 a * main_v24.ty.shape.size a) = fun _ => 0 := funext fun a => by fin_cases a <;> decide
  exact Memref.read_access_unit_zero (Elt F) main_v24 hz' (fun a => by rw [congrFun hz' a]; simp) (V5 m ρ c main_v24)
/-- Window 4's block at the one point is its whole array. -/
theorem iblk_4 (c : Dev nD) : iblk0 (V5 m ρ) c 4 t0 = V5 m ρ c main_arg8 := by
  have hz' : (fun a => win0_4.index t0 a * main_arg8.ty.shape.size a) = fun _ => 0 := funext fun a => by fin_cases a <;> decide
  exact Memref.read_access_unit_zero (Elt F) main_arg8 hz' (fun a => by rw [congrFun hz' a]; simp) (V5 m ρ c main_arg8)
/-- Window 5's block at the one point is its whole array. -/
theorem iblk_5 (c : Dev nD) : iblk0 (V5 m ρ) c 5 t0 = V5 m ρ c main_v25 := by
  have hz' : (fun a => win0_5.index t0 a * main_v25.ty.shape.size a) = fun _ => 0 := funext fun a => by fin_cases a <;> decide
  exact Memref.read_access_unit_zero (Elt F) main_v25 hz' (fun a => by rw [congrFun hz' a]; simp) (V5 m ρ c main_v25)
/-- Window 6's block at the one point is its whole array. -/
theorem iblk_6 (c : Dev nD) : iblk0 (V5 m ρ) c 6 t0 = V5 m ρ c main_v26 := by
  have hz' : (fun a => win0_6.index t0 a * main_v26.ty.shape.size a) = fun _ => 0 := funext fun a => by fin_cases a <;> decide
  exact Memref.read_access_unit_zero (Elt F) main_v26 hz' (fun a => by rw [congrFun hz' a]; simp) (V5 m ρ c main_v26)
/-- Window 7's block at the one point is its whole array. -/
theorem iblk_7 (c : Dev nD) : iblk0 (V5 m ρ) c 7 t0 = V5 m ρ c main_v27 := by
  have hz' : (fun a => win0_7.index t0 a * main_v27.ty.shape.size a) = fun _ => 0 := funext fun a => by fin_cases a <;> decide
  exact Memref.read_access_unit_zero (Elt F) main_v27 hz' (fun a => by rw [congrFun hz' a]; simp) (V5 m ρ c main_v27)
/-- Window 8's block at the one point is its whole array. -/
theorem iblk_8 (c : Dev nD) : iblk0 (V5 m ρ) c 8 t0 = V5 m ρ c main_arg12 := by
  have hz' : (fun a => win0_8.index t0 a * main_arg12.ty.shape.size a) = fun _ => 0 := funext fun a => by fin_cases a <;> decide
  exact Memref.read_access_unit_zero (Elt F) main_arg12 hz' (fun a => by rw [congrFun hz' a]; simp) (V5 m ρ c main_arg12)
/-- Window 9's block at the one point is its whole array. -/
theorem iblk_9 (c : Dev nD) : iblk0 (V5 m ρ) c 9 t0 = V5 m ρ c main_v28 := by
  have hz' : (fun a => win0_9.index t0 a * main_v28.ty.shape.size a) = fun _ => 0 := funext fun a => by fin_cases a <;> decide
  exact Memref.read_access_unit_zero (Elt F) main_v28 hz' (fun a => by rw [congrFun hz' a]; simp) (V5 m ρ c main_v28)
/-- Window 10's block at the one point is its whole array. -/
theorem iblk_10 (c : Dev nD) : iblk0 (V5 m ρ) c 10 t0 = V5 m ρ c main_v29 := by
  have hz' : (fun a => win0_10.index t0 a * main_v29.ty.shape.size a) = fun _ => 0 := funext fun a => by fin_cases a <;> decide
  exact Memref.read_access_unit_zero (Elt F) main_v29 hz' (fun a => by rw [congrFun hz' a]; simp) (V5 m ρ c main_v29)
/-- Window 11's block at the one point is its whole array. -/
theorem iblk_11 (c : Dev nD) : iblk0 (V5 m ρ) c 11 t0 = V5 m ρ c main_v30 := by
  have hz' : (fun a => win0_11.index t0 a * main_v30.ty.shape.size a) = fun _ => 0 := funext fun a => by fin_cases a <;> decide
  exact Memref.read_access_unit_zero (Elt F) main_v30 hz' (fun a => by rw [congrFun hz' a]; simp) (V5 m ρ c main_v30)
/-- Window 12's block at the one point is its whole array. -/
theorem iblk_12 (c : Dev nD) : iblk0 (V5 m ρ) c 12 t0 = V5 m ρ c main_arg16 := by
  have hz' : (fun a => win0_12.index t0 a * main_arg16.ty.shape.size a) = fun _ => 0 := funext fun a => by fin_cases a <;> decide
  exact Memref.read_access_unit_zero (Elt F) main_arg16 hz' (fun a => by rw [congrFun hz' a]; simp) (V5 m ρ c main_arg16)
/-- Window 13's block at the one point is its whole array. -/
theorem iblk_13 (c : Dev nD) : iblk0 (V5 m ρ) c 13 t0 = V5 m ρ c main_v31 := by
  have hz' : (fun a => win0_13.index t0 a * main_v31.ty.shape.size a) = fun _ => 0 := funext fun a => by fin_cases a <;> decide
  exact Memref.read_access_unit_zero (Elt F) main_v31 hz' (fun a => by rw [congrFun hz' a]; simp) (V5 m ρ c main_v31)
/-- Window 14's block at the one point is its whole array. -/
theorem iblk_14 (c : Dev nD) : iblk0 (V5 m ρ) c 14 t0 = V5 m ρ c main_v32 := by
  have hz' : (fun a => win0_14.index t0 a * main_v32.ty.shape.size a) = fun _ => 0 := funext fun a => by fin_cases a <;> decide
  exact Memref.read_access_unit_zero (Elt F) main_v32 hz' (fun a => by rw [congrFun hz' a]; simp) (V5 m ρ c main_v32)
/-- Window 15's block at the one point is its whole array. -/
theorem iblk_15 (c : Dev nD) : iblk0 (V5 m ρ) c 15 t0 = V5 m ρ c main_v33 := by
  have hz' : (fun a => win0_15.index t0 a * main_v33.ty.shape.size a) = fun _ => 0 := funext fun a => by fin_cases a <;> decide
  exact Memref.read_access_unit_zero (Elt F) main_v33 hz' (fun a => by rw [congrFun hz' a]; simp) (V5 m ρ c main_v33)

/-- The third layer's result after the region, as the body's function of the sixteen arrays at the region's entry. -/
theorem out_eq (c : Dev nD) : out m ρ c = out0_16 (V5 m ρ c main_v23) (V5 m ρ c main_arg1) (V5 m ρ c main_arg2) (V5 m ρ c main_v24) (V5 m ρ c main_arg8) (V5 m ρ c main_v25) (V5 m ρ c main_v26) (V5 m ρ c main_v27) (V5 m ρ c main_arg12) (V5 m ρ c main_v28) (V5 m ρ c main_v29) (V5 m ρ c main_v30) (V5 m ρ c main_arg16) (V5 m ρ c main_v31) (V5 m ρ c main_v32) (V5 m ρ c main_v33) := by
  unfold out
  rw [iblk_0 m ρ c, iblk_1 m ρ c, iblk_2 m ρ c, iblk_3 m ρ c, iblk_4 m ρ c, iblk_5 m ρ c, iblk_6 m ρ c, iblk_7 m ρ c, iblk_8 m ρ c, iblk_9 m ρ c, iblk_10 m ρ c, iblk_11 m ρ c, iblk_12 m ρ c, iblk_13 m ρ c, iblk_14 m ρ c, iblk_15 m ρ c]

end Cert.KernelIdeal.Region0

end
-- ==== Proof.RefStages.lean ====
/- The reference program's stages as pure functions of the arrays they read. @main's operations, its calls of
   module-local functions unfolded, are in order: a dense layer, a batch normalisation with the rectifier, three
   Chebyshev layers each followed by a batch normalisation with the rectifier, a dense layer with its batch
   normalisation and rectifier (the descriptor, the program's second result), the last dense layer and the
   log-softmax (its first result). Each definition below is one of those parts: one 'have' line per operation, in
   the program's order, the operation's function as the program states it applied to the lines of its operands; the
   three normalisations at width 64 are the same operations, and so are the first two Chebyshev layers, so one
   definition serves each. The five stages compose them. -/
import proofs.«135777_j83262236000435_2_alg».proof.ReferenceIdeal

noncomputable section

namespace Cert.ReferenceIdeal.Stages

open Idealize.ShloMosaic Idealize.SL.Sem
open Cert.ReferenceIdeal Cert.ReferenceIdeal.Facts₀ Cert.ReferenceIdeal.Facts

variable {F : FTy → Type} [FloatOps F] [Facts]

/-- The first dense layer: the product with the weights and the bias added along the rows. -/
def dense0 (x : (⟨S10000x352, .f32⟩ : BufTy).Contents (Elt F)) (w : (⟨S352x64, .f32⟩ : BufTy).Contents (Elt F)) (b : (⟨S64, .f32⟩ : BufTy).Contents (Elt F)) :
    (⟨S10000x64, .f32⟩ : BufTy).Contents (Elt F) :=
  have t0 : (⟨S10000x64, .f32⟩ : BufTy).Contents (Elt F) := ((fun l r => Host.dotGeneral dot_S10000x352_S352x64_S10000x64_1_0_0_1_n_n none l r) : (⟨S10000x352, .f32⟩ : BufTy).Contents (Elt F) → (⟨S352x64, .f32⟩ : BufTy).Contents (Elt F) → (⟨S10000x64, .f32⟩ : BufTy).Contents (Elt F)) x w
  have t1 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  have t2 : (⟨S10000x64, .f32⟩ : BufTy).Contents (Elt F) := (broadcastInDim S10000x64 ![0, 1] bcast_S1x64_S10000x64_0_1 : (⟨S1x64, .f32⟩ : BufTy).Contents (Elt F) → (⟨S10000x64, .f32⟩ : BufTy).Contents (Elt F)) t1
  have t3 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t0 t2
  t3

/-- Batch normalisation over the rows (mean, the variance by the outlined variance function with its guarded select, the reciprocal square root of variance plus epsilon, scale and shift), then the rectifier; width 64. -/
def bnRelu64 (y : (⟨S10000x64, .f32⟩ : BufTy).Contents (Elt F)) (g : (⟨S64, .f32⟩ : BufTy).Contents (Elt F)) (b : (⟨S64, .f32⟩ : BufTy).Contents (Elt F)) :
    (⟨S10000x64, .f32⟩ : BufTy).Contents (Elt F) :=
  have t0 : (⟨S_, .f32⟩ : BufTy).Contents (Elt F) := (constant S_ .f32 0x00000000#32)
  have t1 : (⟨S64, .f32⟩ : BufTy).Contents (Elt F) := ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)) y t0
  have t2 : (⟨S_, .f32⟩ : BufTy).Contents (Elt F) := (constant S_ .f32 0x461C4000#32)
  have t3 : (⟨S64, .f32⟩ : BufTy).Contents (Elt F) := (broadcastInDim S64 ![] bcast_S_S64 : (⟨S_, .f32⟩ : BufTy).Contents (Elt F) → (⟨S64, .f32⟩ : BufTy).Contents (Elt F)) t2
  have t4 : (⟨S64, .f32⟩ : BufTy).Contents (Elt F) := (Host.divf : (⟨S64, .f32⟩ : BufTy).Contents (Elt F) → (⟨S64, .f32⟩ : BufTy).Contents (Elt F) → (⟨S64, .f32⟩ : BufTy).Contents (Elt F)) t1 t3
  have t5 : (⟨S_, .i32⟩ : BufTy).Contents (Elt F) := (constantI S_ 32 0#32)
  have t6 : (⟨S_, .f32⟩ : BufTy).Contents (Elt F) := (constant S_ .f32 0x00000000#32)
  have t7 : (⟨S64, .f32⟩ : BufTy).Contents (Elt F) := (fun x v => Host.reduceAdd x v reducesTo_S10000x64_S64_d0 h_S_) y t6
  have t8 : (⟨S1x64, .f32⟩ : BufTy).Contents (Elt F) := (broadcastInDim S1x64 ![1] bcast_S64_S1x64_1) t7
  have t9 : (⟨S_, .f32⟩ : BufTy).Contents (Elt F) := (constant S_ .f32 0x461C4000#32)
  have t10 : (⟨S1x64, .f32⟩ : BufTy).Contents (Elt F) := (broadcastInDim S1x64 ![] bcast_S_S1x64) t9
  have t11 : (⟨S1x64, .f32⟩ : BufTy).Contents (Elt F) := Host.divf t8 t10
  have t12 : (⟨S10000x64, .f32⟩ : BufTy).Contents (Elt F) := (broadcastInDim S10000x64 ![0, 1] bcast_S1x64_S10000x64_0_1) t11
  have t13 : (⟨S10000x64, .f32⟩ : BufTy).Contents (Elt F) := subf y t12
  have t14 : (⟨S10000x64, .f32⟩ : BufTy).Contents (Elt F) := mulf t13 t13
  have t15 : (⟨S_, .f32⟩ : BufTy).Contents (Elt F) := (sitofp .f32) t5
  have t16 : (⟨S_, .f32⟩ : BufTy).Contents (Elt F) := (constant S_ .f32 0x461C4000#32)
  have t17 : (⟨S_, .f32⟩ : BufTy).Contents (Elt F) := subf t16 t15
  have t18 : (⟨S_, .f32⟩ : BufTy).Contents (Elt F) := (constant S_ .f32 0x00000000#32)
  have t19 : (⟨S64, .f32⟩ : BufTy).Contents (Elt F) := (fun x v => Host.reduceAdd x v reducesTo_S10000x64_S64_d0 h_S_) t14 t18
  have t20 : (⟨S64, .f32⟩ : BufTy).Contents (Elt F) := (broadcastInDim S64 ![] bcast_S_S64) t17
  have t21 : (⟨S64, .f32⟩ : BufTy).Contents (Elt F) := Host.divf t19 t20
  have t22 : (⟨S_, .f32⟩ : BufTy).Contents (Elt F) := (constant S_ .f32 0x00000000#32)
  have t23 : (⟨S_, .i1⟩ : BufTy).Contents (Elt F) := (cmpf .ogt) t17 t22
  have t24 : (⟨S_, .f32⟩ : BufTy).Contents (Elt F) := (constant S_ .f32 0x7FC00000#32)
  have t25 : (⟨S_, .f32⟩ : BufTy).Contents (Elt F) := id t24
  have t26 : (⟨S64, .f32⟩ : BufTy).Contents (Elt F) := (broadcastInDim S64 ![] bcast_S_S64) t25
  have t27 : (⟨S64, .f32⟩ : BufTy).Contents (Elt F) := (fun p a b => select (broadcastInDim S64 ![] bcast_S_S64 p) a b) t23 t21 t26
  have t28 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) t4
  have t29 : (⟨S10000x64, .f32⟩ : BufTy).Contents (Elt F) := (broadcastInDim S10000x64 ![0, 1] bcast_S1x64_S10000x64_0_1 : (⟨S1x64, .f32⟩ : BufTy).Contents (Elt F) → (⟨S10000x64, .f32⟩ : BufTy).Contents (Elt F)) t28
  have t30 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) y t29
  have t31 : (⟨S_, .f32⟩ : BufTy).Contents (Elt F) := (constant S_ .f32 0x3A83126F#32)
  have t32 : (⟨S64, .f32⟩ : BufTy).Contents (Elt F) := (broadcastInDim S64 ![] bcast_S_S64 : (⟨S_, .f32⟩ : BufTy).Contents (Elt F) → (⟨S64, .f32⟩ : BufTy).Contents (Elt F)) t31
  have t33 : (⟨S64, .f32⟩ : BufTy).Contents (Elt F) := (addf : (⟨S64, .f32⟩ : BufTy).Contents (Elt F) → (⟨S64, .f32⟩ : BufTy).Contents (Elt F) → (⟨S64, .f32⟩ : BufTy).Contents (Elt F)) t27 t32
  have t34 : (⟨S64, .f32⟩ : BufTy).Contents (Elt F) := (Host.rsqrt : (⟨S64, .f32⟩ : BufTy).Contents (Elt F) → (⟨S64, .f32⟩ : BufTy).Contents (Elt F)) t33
  have t35 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) t34
  have t36 : (⟨S10000x64, .f32⟩ : BufTy).Contents (Elt F) := (broadcastInDim S10000x64 ![0, 1] bcast_S1x64_S10000x64_0_1 : (⟨S1x64, .f32⟩ : BufTy).Contents (Elt F) → (⟨S10000x64, .f32⟩ : BufTy).Contents (Elt F)) t35
  have t37 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t30 t36
  have t38 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) g
  have t39 : (⟨S10000x64, .f32⟩ : BufTy).Contents (Elt F) := (broadcastInDim S10000x64 ![0, 1] bcast_S1x64_S10000x64_0_1 : (⟨S1x64, .f32⟩ : BufTy).Contents (Elt F) → (⟨S10000x64, .f32⟩ : BufTy).Contents (Elt F)) t38
  have t40 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t37 t39
  have t41 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) b
  have t42 : (⟨S10000x64, .f32⟩ : BufTy).Contents (Elt F) := (broadcastInDim S10000x64 ![0, 1] bcast_S1x64_S10000x64_0_1 : (⟨S1x64, .f32⟩ : BufTy).Contents (Elt F) → (⟨S10000x64, .f32⟩ : BufTy).Contents (Elt F)) t41
  have t43 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t40 t42
  have t44 : (⟨S_, .f32⟩ : BufTy).Contents (Elt F) := (constant S_ .f32 0x00000000#32)
  have t45 : (⟨S10000x64, .f32⟩ : BufTy).Contents (Elt F) := (broadcastInDim S10000x64 ![] bcast_S_S10000x64) t44
  have t46 : (⟨S10000x64, .f32⟩ : BufTy).Contents (Elt F) := maximumf t43 t45
  t46

/-- One Chebyshev layer before its normalisation: six terms of the recurrence through the spectral product, each multiplied by its slice of the weights, summed, the bias added; width 64 to 64. -/
def cheb64 (h : (⟨S10000x64, .f32⟩ : BufTy).Contents (Elt F)) (V : (⟨S10000x64, .f32⟩ : BufTy).Contents (Elt F)) (D : (⟨S64x10000, .f32⟩ : BufTy).Contents (Elt F)) (eigs : (⟨S64, .f32⟩ : BufTy).Contents (Elt F)) (W : (⟨S6x64x64, .f32⟩ : BufTy).Contents (Elt F)) (cb : (⟨S64, .f32⟩ : BufTy).Contents (Elt F)) :
    (⟨S10000x64, .f32⟩ : BufTy).Contents (Elt F) :=
  have t0 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t1 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D h
  have t2 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t0
  have t3 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t2 t1
  have t4 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t3
  have t5 : (⟨S1x64x64, .f32⟩ : BufTy).Contents (Elt F) := ((extractStridedSlice S1x64x64 ![0, 0, 0] · slices_S6x64x64_S1x64x64_0_0_0) : (⟨S6x64x64, .f32⟩ : BufTy).Contents (Elt F) → (⟨S1x64x64, .f32⟩ : BufTy).Contents (Elt F)) W
  have t6 : (⟨S64x64, .f32⟩ : BufTy).Contents (Elt F) := shapeCast S64x64 t5 shapeCasts_S1x64x64_S64x64
  have t7 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) h t6
  have t8 : (⟨S1x64x64, .f32⟩ : BufTy).Contents (Elt F) := ((extractStridedSlice S1x64x64 ![1, 0, 0] · slices_S6x64x64_S1x64x64_1_0_0) : (⟨S6x64x64, .f32⟩ : BufTy).Contents (Elt F) → (⟨S1x64x64, .f32⟩ : BufTy).Contents (Elt F)) W
  have t9 : (⟨S64x64, .f32⟩ : BufTy).Contents (Elt F) := shapeCast S64x64 t8 shapeCasts_S1x64x64_S64x64
  have t10 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) t4 t9
  have t11 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t7 t10
  have t12 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t13 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t4
  have t14 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t12
  have t15 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t14 t13
  have t16 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t15
  have t17 : (⟨S_, .f32⟩ : BufTy).Contents (Elt F) := (constant S_ .f32 0x40000000#32)
  have t18 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t17
  have t19 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t18 t16
  have t20 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t19 h
  have t21 : (⟨S1x64x64, .f32⟩ : BufTy).Contents (Elt F) := ((extractStridedSlice S1x64x64 ![2, 0, 0] · slices_S6x64x64_S1x64x64_2_0_0) : (⟨S6x64x64, .f32⟩ : BufTy).Contents (Elt F) → (⟨S1x64x64, .f32⟩ : BufTy).Contents (Elt F)) W
  have t22 : (⟨S64x64, .f32⟩ : BufTy).Contents (Elt F) := shapeCast S64x64 t21 shapeCasts_S1x64x64_S64x64
  have t23 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) t20 t22
  have t24 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t11 t23
  have t25 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t26 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t20
  have t27 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t25
  have t28 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t27 t26
  have t29 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t28
  have t30 : (⟨S_, .f32⟩ : BufTy).Contents (Elt F) := (constant S_ .f32 0x40000000#32)
  have t31 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t30
  have t32 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t31 t29
  have t33 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t32 t4
  have t34 : (⟨S1x64x64, .f32⟩ : BufTy).Contents (Elt F) := ((extractStridedSlice S1x64x64 ![3, 0, 0] · slices_S6x64x64_S1x64x64_3_0_0) : (⟨S6x64x64, .f32⟩ : BufTy).Contents (Elt F) → (⟨S1x64x64, .f32⟩ : BufTy).Contents (Elt F)) W
  have t35 : (⟨S64x64, .f32⟩ : BufTy).Contents (Elt F) := shapeCast S64x64 t34 shapeCasts_S1x64x64_S64x64
  have t36 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) t33 t35
  have t37 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t24 t36
  have t38 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t39 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t33
  have t40 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t38
  have t41 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t40 t39
  have t42 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t41
  have t43 : (⟨S_, .f32⟩ : BufTy).Contents (Elt F) := (constant S_ .f32 0x40000000#32)
  have t44 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t43
  have t45 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t44 t42
  have t46 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t45 t20
  have t47 : (⟨S1x64x64, .f32⟩ : BufTy).Contents (Elt F) := ((extractStridedSlice S1x64x64 ![4, 0, 0] · slices_S6x64x64_S1x64x64_4_0_0) : (⟨S6x64x64, .f32⟩ : BufTy).Contents (Elt F) → (⟨S1x64x64, .f32⟩ : BufTy).Contents (Elt F)) W
  have t48 : (⟨S64x64, .f32⟩ : BufTy).Contents (Elt F) := shapeCast S64x64 t47 shapeCasts_S1x64x64_S64x64
  have t49 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) t46 t48
  have t50 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t37 t49
  have t51 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t52 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t46
  have t53 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t51
  have t54 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t53 t52
  have t55 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t54
  have t56 : (⟨S_, .f32⟩ : BufTy).Contents (Elt F) := (constant S_ .f32 0x40000000#32)
  have t57 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t56
  have t58 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t57 t55
  have t59 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t58 t33
  have t60 : (⟨S1x64x64, .f32⟩ : BufTy).Contents (Elt F) := ((extractStridedSlice S1x64x64 ![5, 0, 0] · slices_S6x64x64_S1x64x64_5_0_0) : (⟨S6x64x64, .f32⟩ : BufTy).Contents (Elt F) → (⟨S1x64x64, .f32⟩ : BufTy).Contents (Elt F)) W
  have t61 : (⟨S64x64, .f32⟩ : BufTy).Contents (Elt F) := shapeCast S64x64 t60 shapeCasts_S1x64x64_S64x64
  have t62 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) t59 t61
  have t63 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t50 t62
  have t64 : (⟨S1x64, .f32⟩ : BufTy).Contents (Elt F) := (broadcastInDim S1x64 ![1] bcast_S64_S1x64_1 : (⟨S64, .f32⟩ : BufTy).Contents (Elt F) → (⟨S1x64, .f32⟩ : BufTy).Contents (Elt F)) cb
  have t65 : (⟨S10000x64, .f32⟩ : BufTy).Contents (Elt F) := (broadcastInDim S10000x64 ![0, 1] bcast_S1x64_S10000x64_0_1 : (⟨S1x64, .f32⟩ : BufTy).Contents (Elt F) → (⟨S10000x64, .f32⟩ : BufTy).Contents (Elt F)) t64
  have t66 : (⟨S10000x64, .f32⟩ : BufTy).Contents (Elt F) := (addf : (⟨S10000x64, .f32⟩ : BufTy).Contents (Elt F) → (⟨S10000x64, .f32⟩ : BufTy).Contents (Elt F) → (⟨S10000x64, .f32⟩ : BufTy).Contents (Elt F)) t63 t65
  t66

/-- One Chebyshev layer before its normalisation, as at width 64; width 64 to 128. -/
def cheb128 (h : (⟨S10000x64, .f32⟩ : BufTy).Contents (Elt F)) (V : (⟨S10000x64, .f32⟩ : BufTy).Contents (Elt F)) (D : (⟨S64x10000, .f32⟩ : BufTy).Contents (Elt F)) (eigs : (⟨S64, .f32⟩ : BufTy).Contents (Elt F)) (W : (⟨S6x64x128, .f32⟩ : BufTy).Contents (Elt F)) (cb : (⟨S128, .f32⟩ : BufTy).Contents (Elt F)) :
    (⟨S10000x128, .f32⟩ : BufTy).Contents (Elt F) :=
  have t0 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t1 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D h
  have t2 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t0
  have t3 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t2 t1
  have t4 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t3
  have t5 : (⟨S1x64x128, .f32⟩ : BufTy).Contents (Elt F) := ((extractStridedSlice S1x64x128 ![0, 0, 0] · slices_S6x64x128_S1x64x128_0_0_0) : (⟨S6x64x128, .f32⟩ : BufTy).Contents (Elt F) → (⟨S1x64x128, .f32⟩ : BufTy).Contents (Elt F)) W
  have t6 : (⟨S64x128, .f32⟩ : BufTy).Contents (Elt F) := shapeCast S64x128 t5 shapeCasts_S1x64x128_S64x128
  have t7 : (⟨S10000x128, .f32⟩ : BufTy).Contents (Elt F) := ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)) h t6
  have t8 : (⟨S1x64x128, .f32⟩ : BufTy).Contents (Elt F) := ((extractStridedSlice S1x64x128 ![1, 0, 0] · slices_S6x64x128_S1x64x128_1_0_0) : (⟨S6x64x128, .f32⟩ : BufTy).Contents (Elt F) → (⟨S1x64x128, .f32⟩ : BufTy).Contents (Elt F)) W
  have t9 : (⟨S64x128, .f32⟩ : BufTy).Contents (Elt F) := shapeCast S64x128 t8 shapeCasts_S1x64x128_S64x128
  have t10 : (⟨S10000x128, .f32⟩ : BufTy).Contents (Elt F) := ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)) t4 t9
  have t11 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t7 t10
  have t12 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t13 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t4
  have t14 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t12
  have t15 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t14 t13
  have t16 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t15
  have t17 : (⟨S_, .f32⟩ : BufTy).Contents (Elt F) := (constant S_ .f32 0x40000000#32)
  have t18 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t17
  have t19 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t18 t16
  have t20 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t19 h
  have t21 : (⟨S1x64x128, .f32⟩ : BufTy).Contents (Elt F) := ((extractStridedSlice S1x64x128 ![2, 0, 0] · slices_S6x64x128_S1x64x128_2_0_0) : (⟨S6x64x128, .f32⟩ : BufTy).Contents (Elt F) → (⟨S1x64x128, .f32⟩ : BufTy).Contents (Elt F)) W
  have t22 : (⟨S64x128, .f32⟩ : BufTy).Contents (Elt F) := shapeCast S64x128 t21 shapeCasts_S1x64x128_S64x128
  have t23 : (⟨S10000x128, .f32⟩ : BufTy).Contents (Elt F) := ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)) t20 t22
  have t24 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t11 t23
  have t25 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t26 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t20
  have t27 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t25
  have t28 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t27 t26
  have t29 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t28
  have t30 : (⟨S_, .f32⟩ : BufTy).Contents (Elt F) := (constant S_ .f32 0x40000000#32)
  have t31 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t30
  have t32 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t31 t29
  have t33 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t32 t4
  have t34 : (⟨S1x64x128, .f32⟩ : BufTy).Contents (Elt F) := ((extractStridedSlice S1x64x128 ![3, 0, 0] · slices_S6x64x128_S1x64x128_3_0_0) : (⟨S6x64x128, .f32⟩ : BufTy).Contents (Elt F) → (⟨S1x64x128, .f32⟩ : BufTy).Contents (Elt F)) W
  have t35 : (⟨S64x128, .f32⟩ : BufTy).Contents (Elt F) := shapeCast S64x128 t34 shapeCasts_S1x64x128_S64x128
  have t36 : (⟨S10000x128, .f32⟩ : BufTy).Contents (Elt F) := ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)) t33 t35
  have t37 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t24 t36
  have t38 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t39 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t33
  have t40 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t38
  have t41 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t40 t39
  have t42 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t41
  have t43 : (⟨S_, .f32⟩ : BufTy).Contents (Elt F) := (constant S_ .f32 0x40000000#32)
  have t44 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t43
  have t45 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t44 t42
  have t46 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t45 t20
  have t47 : (⟨S1x64x128, .f32⟩ : BufTy).Contents (Elt F) := ((extractStridedSlice S1x64x128 ![4, 0, 0] · slices_S6x64x128_S1x64x128_4_0_0) : (⟨S6x64x128, .f32⟩ : BufTy).Contents (Elt F) → (⟨S1x64x128, .f32⟩ : BufTy).Contents (Elt F)) W
  have t48 : (⟨S64x128, .f32⟩ : BufTy).Contents (Elt F) := shapeCast S64x128 t47 shapeCasts_S1x64x128_S64x128
  have t49 : (⟨S10000x128, .f32⟩ : BufTy).Contents (Elt F) := ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)) t46 t48
  have t50 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t37 t49
  have t51 : (⟨S64x1, .f32⟩ : BufTy).Contents (Elt F) := (broadcastInDim S64x1 ![0] bcast_S64_S64x1_0 : (⟨S64, .f32⟩ : BufTy).Contents (Elt F) → (⟨S64x1, .f32⟩ : BufTy).Contents (Elt F)) eigs
  have t52 : (⟨S64x64, .f32⟩ : BufTy).Contents (Elt F) := ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)) D t46
  have t53 : (⟨S64x64, .f32⟩ : BufTy).Contents (Elt F) := (broadcastInDim S64x64 ![0, 1] bcast_S64x1_S64x64_0_1 : (⟨S64x1, .f32⟩ : BufTy).Contents (Elt F) → (⟨S64x64, .f32⟩ : BufTy).Contents (Elt F)) t51
  have t54 : (⟨S64x64, .f32⟩ : BufTy).Contents (Elt F) := (mulf : (⟨S64x64, .f32⟩ : BufTy).Contents (Elt F) → (⟨S64x64, .f32⟩ : BufTy).Contents (Elt F) → (⟨S64x64, .f32⟩ : BufTy).Contents (Elt F)) t53 t52
  have t55 : (⟨S10000x64, .f32⟩ : BufTy).Contents (Elt F) := ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) V t54
  have t56 : (⟨S_, .f32⟩ : BufTy).Contents (Elt F) := (constant S_ .f32 0x40000000#32)
  have t57 : (⟨S10000x64, .f32⟩ : BufTy).Contents (Elt F) := (broadcastInDim S10000x64 ![] bcast_S_S10000x64 : (⟨S_, .f32⟩ : BufTy).Contents (Elt F) → (⟨S10000x64, .f32⟩ : BufTy).Contents (Elt F)) t56
  have t58 : (⟨S10000x64, .f32⟩ : BufTy).Contents (Elt F) := (mulf : (⟨S10000x64, .f32⟩ : BufTy).Contents (Elt F) → (⟨S10000x64, .f32⟩ : BufTy).Contents (Elt F) → (⟨S10000x64, .f32⟩ : BufTy).Contents (Elt F)) t57 t55
  have t59 : (⟨S10000x64, .f32⟩ : BufTy).Contents (Elt F) := (subf : (⟨S10000x64, .f32⟩ : BufTy).Contents (Elt F) → (⟨S10000x64, .f32⟩ : BufTy).Contents (Elt F) → (⟨S10000x64, .f32⟩ : BufTy).Contents (Elt F)) t58 t33
  have t60 : (⟨S1x64x128, .f32⟩ : BufTy).Contents (Elt F) := ((extractStridedSlice S1x64x128 ![5, 0, 0] · slices_S6x64x128_S1x64x128_5_0_0) : (⟨S6x64x128, .f32⟩ : BufTy).Contents (Elt F) → (⟨S1x64x128, .f32⟩ : BufTy).Contents (Elt F)) W
  have t61 : (⟨S64x128, .f32⟩ : BufTy).Contents (Elt F) := shapeCast S64x128 t60 shapeCasts_S1x64x128_S64x128
  have t62 : (⟨S10000x128, .f32⟩ : BufTy).Contents (Elt F) := ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)) t59 t61
  have t63 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t50 t62
  have t64 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) cb
  have t65 : (⟨S10000x128, .f32⟩ : BufTy).Contents (Elt F) := (broadcastInDim S10000x128 ![0, 1] bcast_S1x128_S10000x128_0_1 : (⟨S1x128, .f32⟩ : BufTy).Contents (Elt F) → (⟨S10000x128, .f32⟩ : BufTy).Contents (Elt F)) t64
  have t66 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t63 t65
  t66

/-- Batch normalisation over the rows, then the rectifier, as at width 64; width 128. -/
def bnRelu128 (y : (⟨S10000x128, .f32⟩ : BufTy).Contents (Elt F)) (g : (⟨S128, .f32⟩ : BufTy).Contents (Elt F)) (b : (⟨S128, .f32⟩ : BufTy).Contents (Elt F)) :
    (⟨S10000x128, .f32⟩ : BufTy).Contents (Elt F) :=
  have t0 : (⟨S_, .f32⟩ : BufTy).Contents (Elt F) := (constant S_ .f32 0x00000000#32)
  have t1 : (⟨S128, .f32⟩ : BufTy).Contents (Elt F) := ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)) y t0
  have t2 : (⟨S_, .f32⟩ : BufTy).Contents (Elt F) := (constant S_ .f32 0x461C4000#32)
  have t3 : (⟨S128, .f32⟩ : BufTy).Contents (Elt F) := (broadcastInDim S128 ![] bcast_S_S128 : (⟨S_, .f32⟩ : BufTy).Contents (Elt F) → (⟨S128, .f32⟩ : BufTy).Contents (Elt F)) t2
  have t4 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) t1 t3
  have t5 : (⟨S_, .i32⟩ : BufTy).Contents (Elt F) := (constantI S_ 32 0#32)
  have t6 : (⟨S_, .f32⟩ : BufTy).Contents (Elt F) := (constant S_ .f32 0x00000000#32)
  have t7 : (⟨S128, .f32⟩ : BufTy).Contents (Elt F) := (fun x v => Host.reduceAdd x v reducesTo_S10000x128_S128_d0 h_S_) y t6
  have t8 : (⟨S1x128, .f32⟩ : BufTy).Contents (Elt F) := (broadcastInDim S1x128 ![1] bcast_S128_S1x128_1) t7
  have t9 : (⟨S_, .f32⟩ : BufTy).Contents (Elt F) := (constant S_ .f32 0x461C4000#32)
  have t10 : (⟨S1x128, .f32⟩ : BufTy).Contents (Elt F) := (broadcastInDim S1x128 ![] bcast_S_S1x128) t9
  have t11 : (⟨S1x128, .f32⟩ : BufTy).Contents (Elt F) := Host.divf t8 t10
  have t12 : (⟨S10000x128, .f32⟩ : BufTy).Contents (Elt F) := (broadcastInDim S10000x128 ![0, 1] bcast_S1x128_S10000x128_0_1) t11
  have t13 : (⟨S10000x128, .f32⟩ : BufTy).Contents (Elt F) := subf y t12
  have t14 : (⟨S10000x128, .f32⟩ : BufTy).Contents (Elt F) := mulf t13 t13
  have t15 : (⟨S_, .f32⟩ : BufTy).Contents (Elt F) := (sitofp .f32) t5
  have t16 : (⟨S_, .f32⟩ : BufTy).Contents (Elt F) := (constant S_ .f32 0x461C4000#32)
  have t17 : (⟨S_, .f32⟩ : BufTy).Contents (Elt F) := subf t16 t15
  have t18 : (⟨S_, .f32⟩ : BufTy).Contents (Elt F) := (constant S_ .f32 0x00000000#32)
  have t19 : (⟨S128, .f32⟩ : BufTy).Contents (Elt F) := (fun x v => Host.reduceAdd x v reducesTo_S10000x128_S128_d0 h_S_) t14 t18
  have t20 : (⟨S128, .f32⟩ : BufTy).Contents (Elt F) := (broadcastInDim S128 ![] bcast_S_S128) t17
  have t21 : (⟨S128, .f32⟩ : BufTy).Contents (Elt F) := Host.divf t19 t20
  have t22 : (⟨S_, .f32⟩ : BufTy).Contents (Elt F) := (constant S_ .f32 0x00000000#32)
  have t23 : (⟨S_, .i1⟩ : BufTy).Contents (Elt F) := (cmpf .ogt) t17 t22
  have t24 : (⟨S_, .f32⟩ : BufTy).Contents (Elt F) := (constant S_ .f32 0x7FC00000#32)
  have t25 : (⟨S_, .f32⟩ : BufTy).Contents (Elt F) := id t24
  have t26 : (⟨S128, .f32⟩ : BufTy).Contents (Elt F) := (broadcastInDim S128 ![] bcast_S_S128) t25
  have t27 : (⟨S128, .f32⟩ : BufTy).Contents (Elt F) := (fun p a b => select (broadcastInDim S128 ![] bcast_S_S128 p) a b) t23 t21 t26
  have t28 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) t4
  have t29 : (⟨S10000x128, .f32⟩ : BufTy).Contents (Elt F) := (broadcastInDim S10000x128 ![0, 1] bcast_S1x128_S10000x128_0_1 : (⟨S1x128, .f32⟩ : BufTy).Contents (Elt F) → (⟨S10000x128, .f32⟩ : BufTy).Contents (Elt F)) t28
  have t30 : (⟨S10000x128, .f32⟩ : BufTy).Contents (Elt F) := (subf : (⟨S10000x128, .f32⟩ : BufTy).Contents (Elt F) → (⟨S10000x128, .f32⟩ : BufTy).Contents (Elt F) → (⟨S10000x128, .f32⟩ : BufTy).Contents (Elt F)) y t29
  have t31 : (⟨S_, .f32⟩ : BufTy).Contents (Elt F) := (constant S_ .f32 0x3A83126F#32)
  have t32 : (⟨S128, .f32⟩ : BufTy).Contents (Elt F) := (broadcastInDim S128 ![] bcast_S_S128 : (⟨S_, .f32⟩ : BufTy).Contents (Elt F) → (⟨S128, .f32⟩ : BufTy).Contents (Elt F)) t31
  have t33 : (⟨S128, .f32⟩ : BufTy).Contents (Elt F) := (addf : (⟨S128, .f32⟩ : BufTy).Contents (Elt F) → (⟨S128, .f32⟩ : BufTy).Contents (Elt F) → (⟨S128, .f32⟩ : BufTy).Contents (Elt F)) t27 t32
  have t34 : (⟨S128, .f32⟩ : BufTy).Contents (Elt F) := (Host.rsqrt : (⟨S128, .f32⟩ : BufTy).Contents (Elt F) → (⟨S128, .f32⟩ : BufTy).Contents (Elt F)) t33
  have t35 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) t34
  have t36 : (⟨S10000x128, .f32⟩ : BufTy).Contents (Elt F) := (broadcastInDim S10000x128 ![0, 1] bcast_S1x128_S10000x128_0_1 : (⟨S1x128, .f32⟩ : BufTy).Contents (Elt F) → (⟨S10000x128, .f32⟩ : BufTy).Contents (Elt F)) t35
  have t37 : (⟨S10000x128, .f32⟩ : BufTy).Contents (Elt F) := (mulf : (⟨S10000x128, .f32⟩ : BufTy).Contents (Elt F) → (⟨S10000x128, .f32⟩ : BufTy).Contents (Elt F) → (⟨S10000x128, .f32⟩ : BufTy).Contents (Elt F)) t30 t36
  have t38 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) g
  have t39 : (⟨S10000x128, .f32⟩ : BufTy).Contents (Elt F) := (broadcastInDim S10000x128 ![0, 1] bcast_S1x128_S10000x128_0_1 : (⟨S1x128, .f32⟩ : BufTy).Contents (Elt F) → (⟨S10000x128, .f32⟩ : BufTy).Contents (Elt F)) t38
  have t40 : (⟨S10000x128, .f32⟩ : BufTy).Contents (Elt F) := (mulf : (⟨S10000x128, .f32⟩ : BufTy).Contents (Elt F) → (⟨S10000x128, .f32⟩ : BufTy).Contents (Elt F) → (⟨S10000x128, .f32⟩ : BufTy).Contents (Elt F)) t37 t39
  have t41 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  have t42 : (⟨S10000x128, .f32⟩ : BufTy).Contents (Elt F) := (broadcastInDim S10000x128 ![0, 1] bcast_S1x128_S10000x128_0_1 : (⟨S1x128, .f32⟩ : BufTy).Contents (Elt F) → (⟨S10000x128, .f32⟩ : BufTy).Contents (Elt F)) t41
  have t43 : (⟨S10000x128, .f32⟩ : BufTy).Contents (Elt F) := (addf : (⟨S10000x128, .f32⟩ : BufTy).Contents (Elt F) → (⟨S10000x128, .f32⟩ : BufTy).Contents (Elt F) → (⟨S10000x128, .f32⟩ : BufTy).Contents (Elt F)) t40 t42
  have t44 : (⟨S_, .f32⟩ : BufTy).Contents (Elt F) := (constant S_ .f32 0x00000000#32)
  have t45 : (⟨S10000x128, .f32⟩ : BufTy).Contents (Elt F) := (broadcastInDim S10000x128 ![] bcast_S_S10000x128) t44
  have t46 : (⟨S10000x128, .f32⟩ : BufTy).Contents (Elt F) := maximumf t43 t45
  t46

/-- The dense layer before the descriptor's normalisation: the product with the weights and the bias added along the rows. -/
def denseDesc (x : (⟨S10000x128, .f32⟩ : BufTy).Contents (Elt F)) (w : (⟨S128x256, .f32⟩ : BufTy).Contents (Elt F)) (b : (⟨S256, .f32⟩ : BufTy).Contents (Elt F)) :
    (⟨S10000x256, .f32⟩ : BufTy).Contents (Elt F) :=
  have t0 : (⟨S10000x256, .f32⟩ : BufTy).Contents (Elt F) := ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)) x w
  have t1 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) b
  have t2 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) t1
  have t3 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) t0 t2
  t3

/-- Batch normalisation over the rows, then the rectifier, as at width 64; width 256. -/
def bnRelu256 (y : (⟨S10000x256, .f32⟩ : BufTy).Contents (Elt F)) (g : (⟨S256, .f32⟩ : BufTy).Contents (Elt F)) (b : (⟨S256, .f32⟩ : BufTy).Contents (Elt F)) :
    (⟨S10000x256, .f32⟩ : BufTy).Contents (Elt F) :=
  have t0 : (⟨S_, .f32⟩ : BufTy).Contents (Elt F) := (constant S_ .f32 0x00000000#32)
  have t1 : (⟨S256, .f32⟩ : BufTy).Contents (Elt F) := ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)) y t0
  have t2 : (⟨S_, .f32⟩ : BufTy).Contents (Elt F) := (constant S_ .f32 0x461C4000#32)
  have t3 : (⟨S256, .f32⟩ : BufTy).Contents (Elt F) := (broadcastInDim S256 ![] bcast_S_S256 : (⟨S_, .f32⟩ : BufTy).Contents (Elt F) → (⟨S256, .f32⟩ : BufTy).Contents (Elt F)) t2
  have t4 : (⟨S256, .f32⟩ : BufTy).Contents (Elt F) := (Host.divf : (⟨S256, .f32⟩ : BufTy).Contents (Elt F) → (⟨S256, .f32⟩ : BufTy).Contents (Elt F) → (⟨S256, .f32⟩ : BufTy).Contents (Elt F)) t1 t3
  have t5 : (⟨S_, .i32⟩ : BufTy).Contents (Elt F) := (constantI S_ 32 0#32)
  have t6 : (⟨S_, .f32⟩ : BufTy).Contents (Elt F) := (constant S_ .f32 0x00000000#32)
  have t7 : (⟨S256, .f32⟩ : BufTy).Contents (Elt F) := (fun x v => Host.reduceAdd x v reducesTo_S10000x256_S256_d0 h_S_) y t6
  have t8 : (⟨S1x256, .f32⟩ : BufTy).Contents (Elt F) := (broadcastInDim S1x256 ![1] bcast_S256_S1x256_1) t7
  have t9 : (⟨S_, .f32⟩ : BufTy).Contents (Elt F) := (constant S_ .f32 0x461C4000#32)
  have t10 : (⟨S1x256, .f32⟩ : BufTy).Contents (Elt F) := (broadcastInDim S1x256 ![] bcast_S_S1x256) t9
  have t11 : (⟨S1x256, .f32⟩ : BufTy).Contents (Elt F) := Host.divf t8 t10
  have t12 : (⟨S10000x256, .f32⟩ : BufTy).Contents (Elt F) := (broadcastInDim S10000x256 ![0, 1] bcast_S1x256_S10000x256_0_1) t11
  have t13 : (⟨S10000x256, .f32⟩ : BufTy).Contents (Elt F) := subf y t12
  have t14 : (⟨S10000x256, .f32⟩ : BufTy).Contents (Elt F) := mulf t13 t13
  have t15 : (⟨S_, .f32⟩ : BufTy).Contents (Elt F) := (sitofp .f32) t5
  have t16 : (⟨S_, .f32⟩ : BufTy).Contents (Elt F) := (constant S_ .f32 0x461C4000#32)
  have t17 : (⟨S_, .f32⟩ : BufTy).Contents (Elt F) := subf t16 t15
  have t18 : (⟨S_, .f32⟩ : BufTy).Contents (Elt F) := (constant S_ .f32 0x00000000#32)
  have t19 : (⟨S256, .f32⟩ : BufTy).Contents (Elt F) := (fun x v => Host.reduceAdd x v reducesTo_S10000x256_S256_d0 h_S_) t14 t18
  have t20 : (⟨S256, .f32⟩ : BufTy).Contents (Elt F) := (broadcastInDim S256 ![] bcast_S_S256) t17
  have t21 : (⟨S256, .f32⟩ : BufTy).Contents (Elt F) := Host.divf t19 t20
  have t22 : (⟨S_, .f32⟩ : BufTy).Contents (Elt F) := (constant S_ .f32 0x00000000#32)
  have t23 : (⟨S_, .i1⟩ : BufTy).Contents (Elt F) := (cmpf .ogt) t17 t22
  have t24 : (⟨S_, .f32⟩ : BufTy).Contents (Elt F) := (constant S_ .f32 0x7FC00000#32)
  have t25 : (⟨S_, .f32⟩ : BufTy).Contents (Elt F) := id t24
  have t26 : (⟨S256, .f32⟩ : BufTy).Contents (Elt F) := (broadcastInDim S256 ![] bcast_S_S256) t25
  have t27 : (⟨S256, .f32⟩ : BufTy).Contents (Elt F) := (fun p a b => select (broadcastInDim S256 ![] bcast_S_S256 p) a b) t23 t21 t26
  have t28 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) t4
  have t29 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) t28
  have t30 : (⟨S10000x256, .f32⟩ : BufTy).Contents (Elt F) := (subf : (⟨S10000x256, .f32⟩ : BufTy).Contents (Elt F) → (⟨S10000x256, .f32⟩ : BufTy).Contents (Elt F) → (⟨S10000x256, .f32⟩ : BufTy).Contents (Elt F)) y t29
  have t31 : (⟨S_, .f32⟩ : BufTy).Contents (Elt F) := (constant S_ .f32 0x3A83126F#32)
  have t32 : (⟨S256, .f32⟩ : BufTy).Contents (Elt F) := (broadcastInDim S256 ![] bcast_S_S256 : (⟨S_, .f32⟩ : BufTy).Contents (Elt F) → (⟨S256, .f32⟩ : BufTy).Contents (Elt F)) t31
  have t33 : (⟨S256, .f32⟩ : BufTy).Contents (Elt F) := (addf : (⟨S256, .f32⟩ : BufTy).Contents (Elt F) → (⟨S256, .f32⟩ : BufTy).Contents (Elt F) → (⟨S256, .f32⟩ : BufTy).Contents (Elt F)) t27 t32
  have t34 : (⟨S256, .f32⟩ : BufTy).Contents (Elt F) := (Host.rsqrt : (⟨S256, .f32⟩ : BufTy).Contents (Elt F) → (⟨S256, .f32⟩ : BufTy).Contents (Elt F)) t33
  have t35 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) t34
  have t36 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) t35
  have t37 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) t30 t36
  have t38 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) g
  have t39 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) t38
  have t40 : (⟨S10000x256, .f32⟩ : BufTy).Contents (Elt F) := (mulf : (⟨S10000x256, .f32⟩ : BufTy).Contents (Elt F) → (⟨S10000x256, .f32⟩ : BufTy).Contents (Elt F) → (⟨S10000x256, .f32⟩ : BufTy).Contents (Elt F)) t37 t39
  have t41 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) b
  have t42 : (⟨S10000x256, .f32⟩ : BufTy).Contents (Elt F) := (broadcastInDim S10000x256 ![0, 1] bcast_S1x256_S10000x256_0_1 : (⟨S1x256, .f32⟩ : BufTy).Contents (Elt F) → (⟨S10000x256, .f32⟩ : BufTy).Contents (Elt F)) t41
  have t43 : (⟨S10000x256, .f32⟩ : BufTy).Contents (Elt F) := (addf : (⟨S10000x256, .f32⟩ : BufTy).Contents (Elt F) → (⟨S10000x256, .f32⟩ : BufTy).Contents (Elt F) → (⟨S10000x256, .f32⟩ : BufTy).Contents (Elt F)) t40 t42
  have t44 : (⟨S_, .f32⟩ : BufTy).Contents (Elt F) := (constant S_ .f32 0x00000000#32)
  have t45 : (⟨S10000x256, .f32⟩ : BufTy).Contents (Elt F) := (broadcastInDim S10000x256 ![] bcast_S_S10000x256) t44
  have t46 : (⟨S10000x256, .f32⟩ : BufTy).Contents (Elt F) := maximumf t43 t45
  t46

/-- The last dense layer: the product with the weights and the bias added along the rows. -/
def denseLogp (x : (⟨S10000x256, .f32⟩ : BufTy).Contents (Elt F)) (w : (⟨S256x10000, .f32⟩ : BufTy).Contents (Elt F)) (b : (⟨S10000, .f32⟩ : BufTy).Contents (Elt F)) :
    (⟨S10000x10000, .f32⟩ : BufTy).Contents (Elt F) :=
  have t0 : (⟨S10000x10000, .f32⟩ : BufTy).Contents (Elt F) := ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)) x w
  have t1 : (⟨S1x10000, .f32⟩ : BufTy).Contents (Elt F) := (broadcastInDim S1x10000 ![1] bcast_S10000_S1x10000_1 : (⟨S10000, .f32⟩ : BufTy).Contents (Elt F) → (⟨S1x10000, .f32⟩ : BufTy).Contents (Elt F)) b
  have t2 : (⟨S10000x10000, .f32⟩ : BufTy).Contents (Elt F) := (broadcastInDim S10000x10000 ![0, 1] bcast_S1x10000_S10000x10000_0_1 : (⟨S1x10000, .f32⟩ : BufTy).Contents (Elt F) → (⟨S10000x10000, .f32⟩ : BufTy).Contents (Elt F)) t1
  have t3 : (⟨S10000x10000, .f32⟩ : BufTy).Contents (Elt F) := (addf : (⟨S10000x10000, .f32⟩ : BufTy).Contents (Elt F) → (⟨S10000x10000, .f32⟩ : BufTy).Contents (Elt F) → (⟨S10000x10000, .f32⟩ : BufTy).Contents (Elt F)) t0 t2
  t3

/-- The outlined log-softmax over the columns: subtract the row maximum, then the logarithm of the row sum of exponentials. -/
def logSoftmax (z : (⟨S10000x10000, .f32⟩ : BufTy).Contents (Elt F)) :
    (⟨S10000x10000, .f32⟩ : BufTy).Contents (Elt F) :=
  have t0 : (⟨S_, .f32⟩ : BufTy).Contents (Elt F) := (constant S_ .f32 0xFF800000#32)
  have t1 : (⟨S10000, .f32⟩ : BufTy).Contents (Elt F) := (fun x v => Host.reduce FloatOps.maximumf x v reducesTo_S10000x10000_S10000_d1 h_S_) z t0
  have t2 : (⟨S_, .f32⟩ : BufTy).Contents (Elt F) := (constant S_ .f32 0xFF800000#32)
  have t3 : (⟨S10000, .f32⟩ : BufTy).Contents (Elt F) := (broadcastInDim S10000 ![] bcast_S_S10000) t2
  have t4 : (⟨S10000, .f32⟩ : BufTy).Contents (Elt F) := maximumf t3 t1
  have t5 : (⟨S10000x1, .f32⟩ : BufTy).Contents (Elt F) := (broadcastInDim S10000x1 ![0] bcast_S10000_S10000x1_0) t4
  have t6 : (⟨S10000x10000, .f32⟩ : BufTy).Contents (Elt F) := (broadcastInDim S10000x10000 ![0, 1] bcast_S10000x1_S10000x10000_0_1) t5
  have t7 : (⟨S10000x10000, .f32⟩ : BufTy).Contents (Elt F) := subf z t6
  have t8 : (⟨S10000x10000, .f32⟩ : BufTy).Contents (Elt F) := Host.exp t7
  have t9 : (⟨S_, .f32⟩ : BufTy).Contents (Elt F) := (constant S_ .f32 0x00000000#32)
  have t10 : (⟨S10000, .f32⟩ : BufTy).Contents (Elt F) := (fun x v => Host.reduceAdd x v reducesTo_S10000x10000_S10000_d1 h_S_) t8 t9
  have t11 : (⟨S10000x1, .f32⟩ : BufTy).Contents (Elt F) := (broadcastInDim S10000x1 ![0] bcast_S10000_S10000x1_0) t10
  have t12 : (⟨S10000x1, .f32⟩ : BufTy).Contents (Elt F) := Host.log t11
  have t13 : (⟨S10000x10000, .f32⟩ : BufTy).Contents (Elt F) := (broadcastInDim S10000x10000 ![0, 1] bcast_S10000x1_S10000x10000_0_1) t12
  have t14 : (⟨S10000x10000, .f32⟩ : BufTy).Contents (Elt F) := subf t7 t13
  t14

/-- The first stage: the dense layer, its batch normalisation and the rectifier. -/
def stage0 (x : (⟨S10000x352, .f32⟩ : BufTy).Contents (Elt F)) (fc1_w : (⟨S352x64, .f32⟩ : BufTy).Contents (Elt F)) (fc1_b g b : (⟨S64, .f32⟩ : BufTy).Contents (Elt F)) :
    (⟨S10000x64, .f32⟩ : BufTy).Contents (Elt F) :=
  bnRelu64 (dense0 x fc1_w fc1_b) g b

/-- One Chebyshev layer at width 64 with its batch normalisation and the rectifier. -/
def layer64 (h : (⟨S10000x64, .f32⟩ : BufTy).Contents (Elt F)) (V : (⟨S10000x64, .f32⟩ : BufTy).Contents (Elt F)) (D : (⟨S64x10000, .f32⟩ : BufTy).Contents (Elt F)) (eigs : (⟨S64, .f32⟩ : BufTy).Contents (Elt F))
    (W : (⟨S6x64x64, .f32⟩ : BufTy).Contents (Elt F)) (cb g b : (⟨S64, .f32⟩ : BufTy).Contents (Elt F)) :
    (⟨S10000x64, .f32⟩ : BufTy).Contents (Elt F) :=
  bnRelu64 (cheb64 h V D eigs W cb) g b

/-- The Chebyshev layer from width 64 to width 128 with its batch normalisation and the rectifier. -/
def layer128 (h : (⟨S10000x64, .f32⟩ : BufTy).Contents (Elt F)) (V : (⟨S10000x64, .f32⟩ : BufTy).Contents (Elt F)) (D : (⟨S64x10000, .f32⟩ : BufTy).Contents (Elt F)) (eigs : (⟨S64, .f32⟩ : BufTy).Contents (Elt F))
    (W : (⟨S6x64x128, .f32⟩ : BufTy).Contents (Elt F)) (cb g b : (⟨S128, .f32⟩ : BufTy).Contents (Elt F)) :
    (⟨S10000x128, .f32⟩ : BufTy).Contents (Elt F) :=
  bnRelu128 (cheb128 h V D eigs W cb) g b

/-- The descriptor: the dense layer to width 256, its batch normalisation and the rectifier. -/
def stageDesc (h3 : (⟨S10000x128, .f32⟩ : BufTy).Contents (Elt F)) (fc2_w : (⟨S128x256, .f32⟩ : BufTy).Contents (Elt F)) (fc2_b g b : (⟨S256, .f32⟩ : BufTy).Contents (Elt F)) :
    (⟨S10000x256, .f32⟩ : BufTy).Contents (Elt F) :=
  bnRelu256 (denseDesc h3 fc2_w fc2_b) g b

/-- The log-probabilities: the last dense layer and the log-softmax over the columns. -/
def stageLogp (desc : (⟨S10000x256, .f32⟩ : BufTy).Contents (Elt F)) (fc3_w : (⟨S256x10000, .f32⟩ : BufTy).Contents (Elt F)) (fc3_b : (⟨S10000, .f32⟩ : BufTy).Contents (Elt F)) :
    (⟨S10000x10000, .f32⟩ : BufTy).Contents (Elt F) :=
  logSoftmax (denseLogp desc fc3_w fc3_b)

end Cert.ReferenceIdeal.Stages

end
-- ==== Proof.KernelHost.lean ====
/-
  The kernel program's host operations, read.

  Before the first region the program computes, on the host, the first dense layer with its batch normalisation and
  rectifier — operation for operation the reference's first stage, applied to the kernel program's own launch arrays —
  and reshapes the eigenvalues to a column and each layer's bias, scale and shift to a row. The spectral basis, its
  dual and the three weight stacks reach the region untouched. After the first region the host computes the second
  dense layer with its batch normalisation and rectifier from the region's result — again the reference's stage,
  operation for operation — which is the program's second result and the second region's first input; it rounds the last
  weight matrix to bf16 and reshapes the last bias to a row for the second region.
-/
import proofs.«135777_j83262236000435_2_alg».proof.Proof.Region0Blocks
import proofs.«135777_j83262236000435_2_alg».proof.Proof.RefStages
import proofs.«135777_j83262236000435_2_alg».proof.Proof.Gen.ReferenceIdeal
import Idealize.ShloMosaic.Lib.StableHlo.Run

set_option maxRecDepth 16384
set_option pp.maxSteps 3000
set_option pp.deepTerms false

noncomputable section

namespace Cert.KernelIdeal.Host

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

set_option maxHeartbeats 2000000 in
/-- The first region's feature input is the reference's first stage of the launch arrays. -/
theorem V5_main_v23 (c : Dev nD) : V5 m ρ c main_v23 = Cert.ReferenceIdeal.Stages.stage0 (F := F)
    (m ((c : Thread nD τ).loc main_arg0)) (m ((c : Thread nD τ).loc main_arg4)) (m ((c : Thread nD τ).loc main_arg5)) (m ((c : Thread nD τ).loc main_arg6)) (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_v23) = _
  after_results_simp <;> rfl

/-- No host operation before the first region writes this argument. -/
theorem V5_main_arg1 (c : Dev nD) : V5 m ρ c main_arg1 = (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl
/-- No host operation before the first region writes this argument. -/
theorem V5_main_arg2 (c : Dev nD) : V5 m ρ c main_arg2 = (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl
/-- No host operation before the first region writes this argument. -/
theorem V5_main_arg8 (c : Dev nD) : V5 m ρ c main_arg8 = (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_arg8) = _
  after_results_simp <;> rfl
/-- No host operation before the first region writes this argument. -/
theorem V5_main_arg12 (c : Dev nD) : V5 m ρ c main_arg12 = (m ((c : Thread nD τ).loc main_arg12)) := by
  show StableHlo.after hostOps0_4 (StableHlo.after hostOps0_3 (StableHlo.after hostOps0_2 (StableHlo.after hostOps0_1 (StableHlo.after hostOps0 (W0 m ρ c))))) (Proc.devRef .tc main_arg12) = _
  after_results_simp <;> rfl
/-- No host operation before the first region writes this argument. -/
theorem V5_main_arg16 (c : Dev nD) : V5 m ρ c main_arg16 = (m ((c : Thread nD τ).loc main_arg16)) := by
  show StableHlo.after hostOps0_4 (StableHlo.after hostOps0_3 (StableHlo.after hostOps0_2 (StableHlo.after hostOps0_1 (StableHlo.after hostOps0 (W0 m ρ c))))) (Proc.devRef .tc main_arg16) = _
  after_results_simp <;> rfl

/-- The reshaped copy of a vector argument that the first region reads as a one-row (or one-column) array. -/
theorem V5_main_v24 (c : Dev nD) : V5 m ρ c main_v24 = shapeCast S64x1 (m ((c : Thread nD τ).loc main_arg3)) shapeCasts_S64_S64x1 := by
  show StableHlo.after hostOps0_4 (StableHlo.after hostOps0_3 (StableHlo.after hostOps0_2 (StableHlo.after hostOps0_1 (StableHlo.after hostOps0 (W0 m ρ c))))) (Proc.devRef .tc main_v24) = _
  after_results_simp <;> rfl
/-- The reshaped copy of a vector argument that the first region reads as a one-row (or one-column) array. -/
theorem V5_main_v25 (c : Dev nD) : V5 m ρ c main_v25 = shapeCast S1x64 (m ((c : Thread nD τ).loc main_arg9)) shapeCasts_S64_S1x64 := by
  show StableHlo.after hostOps0_4 (StableHlo.after hostOps0_3 (StableHlo.after hostOps0_2 (StableHlo.after hostOps0_1 (StableHlo.after hostOps0 (W0 m ρ c))))) (Proc.devRef .tc main_v25) = _
  after_results_simp <;> rfl
/-- The reshaped copy of a vector argument that the first region reads as a one-row (or one-column) array. -/
theorem V5_main_v26 (c : Dev nD) : V5 m ρ c main_v26 = shapeCast S1x64 (m ((c : Thread nD τ).loc main_arg10)) shapeCasts_S64_S1x64 := by
  show StableHlo.after hostOps0_4 (StableHlo.after hostOps0_3 (StableHlo.after hostOps0_2 (StableHlo.after hostOps0_1 (StableHlo.after hostOps0 (W0 m ρ c))))) (Proc.devRef .tc main_v26) = _
  after_results_simp <;> rfl
/-- The reshaped copy of a vector argument that the first region reads as a one-row (or one-column) array. -/
theorem V5_main_v27 (c : Dev nD) : V5 m ρ c main_v27 = shapeCast S1x64 (m ((c : Thread nD τ).loc main_arg11)) shapeCasts_S64_S1x64 := by
  show StableHlo.after hostOps0_4 (StableHlo.after hostOps0_3 (StableHlo.after hostOps0_2 (StableHlo.after hostOps0_1 (StableHlo.after hostOps0 (W0 m ρ c))))) (Proc.devRef .tc main_v27) = _
  after_results_simp <;> rfl
/-- The reshaped copy of a vector argument that the first region reads as a one-row (or one-column) array. -/
theorem V5_main_v28 (c : Dev nD) : V5 m ρ c main_v28 = shapeCast S1x64 (m ((c : Thread nD τ).loc main_arg13)) shapeCasts_S64_S1x64 := by
  show StableHlo.after hostOps0_4 (StableHlo.after hostOps0_3 (StableHlo.after hostOps0_2 (StableHlo.after hostOps0_1 (StableHlo.after hostOps0 (W0 m ρ c))))) (Proc.devRef .tc main_v28) = _
  after_results_simp <;> rfl
/-- The reshaped copy of a vector argument that the first region reads as a one-row (or one-column) array. -/
theorem V5_main_v29 (c : Dev nD) : V5 m ρ c main_v29 = shapeCast S1x64 (m ((c : Thread nD τ).loc main_arg14)) shapeCasts_S64_S1x64 := by
  show StableHlo.after hostOps0_4 (StableHlo.after hostOps0_3 (StableHlo.after hostOps0_2 (StableHlo.after hostOps0_1 (StableHlo.after hostOps0 (W0 m ρ c))))) (Proc.devRef .tc main_v29) = _
  after_results_simp <;> rfl
/-- The reshaped copy of a vector argument that the first region reads as a one-row (or one-column) array. -/
theorem V5_main_v30 (c : Dev nD) : V5 m ρ c main_v30 = shapeCast S1x64 (m ((c : Thread nD τ).loc main_arg15)) shapeCasts_S64_S1x64 := by
  show StableHlo.after hostOps0_4 (StableHlo.after hostOps0_3 (StableHlo.after hostOps0_2 (StableHlo.after hostOps0_1 (StableHlo.after hostOps0 (W0 m ρ c))))) (Proc.devRef .tc main_v30) = _
  after_results_simp <;> rfl
/-- The reshaped copy of a vector argument that the first region reads as a one-row (or one-column) array. -/
theorem V5_main_v31 (c : Dev nD) : V5 m ρ c main_v31 = shapeCast S1x128 (m ((c : Thread nD τ).loc main_arg17)) shapeCasts_S128_S1x128 := by
  show StableHlo.after hostOps0_4 (StableHlo.after hostOps0_3 (StableHlo.after hostOps0_2 (StableHlo.after hostOps0_1 (StableHlo.after hostOps0 (W0 m ρ c))))) (Proc.devRef .tc main_v31) = _
  after_results_simp <;> rfl
/-- The reshaped copy of a vector argument that the first region reads as a one-row (or one-column) array. -/
theorem V5_main_v32 (c : Dev nD) : V5 m ρ c main_v32 = shapeCast S1x128 (m ((c : Thread nD τ).loc main_arg18)) shapeCasts_S128_S1x128 := by
  show StableHlo.after hostOps0_4 (StableHlo.after hostOps0_3 (StableHlo.after hostOps0_2 (StableHlo.after hostOps0_1 (StableHlo.after hostOps0 (W0 m ρ c))))) (Proc.devRef .tc main_v32) = _
  after_results_simp <;> rfl
/-- The reshaped copy of a vector argument that the first region reads as a one-row (or one-column) array. -/
theorem V5_main_v33 (c : Dev nD) : V5 m ρ c main_v33 = shapeCast S1x128 (m ((c : Thread nD τ).loc main_arg19)) shapeCasts_S128_S1x128 := by
  show StableHlo.after hostOps0_4 (StableHlo.after hostOps0_3 (StableHlo.after hostOps0_2 (StableHlo.after hostOps0_1 (StableHlo.after hostOps0 (W0 m ρ c))))) (Proc.devRef .tc main_v33) = _
  after_results_simp <;> rfl

/-- Neither the host operations before the first region nor the region write this argument. -/
theorem W6_main_arg20 (c : Dev nD) : W6 m ρ c (Proc.devRef .tc main_arg20) = (m ((c : Thread nD τ).loc main_arg20)) := by
  rw [W6_of_ne m ρ c main_arg20 (by decide)]
  show StableHlo.after hostOps0_4 (StableHlo.after hostOps0_3 (StableHlo.after hostOps0_2 (StableHlo.after hostOps0_1 (StableHlo.after hostOps0 (W0 m ρ c))))) (Proc.devRef .tc main_arg20) = _
  after_results_simp <;> rfl
/-- Neither the host operations before the first region nor the region write this argument. -/
theorem W6_main_arg21 (c : Dev nD) : W6 m ρ c (Proc.devRef .tc main_arg21) = (m ((c : Thread nD τ).loc main_arg21)) := by
  rw [W6_of_ne m ρ c main_arg21 (by decide)]
  show StableHlo.after hostOps0_4 (StableHlo.after hostOps0_3 (StableHlo.after hostOps0_2 (StableHlo.after hostOps0_1 (StableHlo.after hostOps0 (W0 m ρ c))))) (Proc.devRef .tc main_arg21) = _
  after_results_simp <;> rfl
/-- Neither the host operations before the first region nor the region write this argument. -/
theorem W6_main_arg22 (c : Dev nD) : W6 m ρ c (Proc.devRef .tc main_arg22) = (m ((c : Thread nD τ).loc main_arg22)) := by
  rw [W6_of_ne m ρ c main_arg22 (by decide)]
  show StableHlo.after hostOps0_4 (StableHlo.after hostOps0_3 (StableHlo.after hostOps0_2 (StableHlo.after hostOps0_1 (StableHlo.after hostOps0 (W0 m ρ c))))) (Proc.devRef .tc main_arg22) = _
  after_results_simp <;> rfl
/-- Neither the host operations before the first region nor the region write this argument. -/
theorem W6_main_arg23 (c : Dev nD) : W6 m ρ c (Proc.devRef .tc main_arg23) = (m ((c : Thread nD τ).loc main_arg23)) := by
  rw [W6_of_ne m ρ c main_arg23 (by decide)]
  show StableHlo.after hostOps0_4 (StableHlo.after hostOps0_3 (StableHlo.after hostOps0_2 (StableHlo.after hostOps0_1 (StableHlo.after hostOps0 (W0 m ρ c))))) (Proc.devRef .tc main_arg23) = _
  after_results_simp <;> rfl
/-- Neither the host operations before the first region nor the region write this argument. -/
theorem W6_main_arg24 (c : Dev nD) : W6 m ρ c (Proc.devRef .tc main_arg24) = (m ((c : Thread nD τ).loc main_arg24)) := by
  rw [W6_of_ne m ρ c main_arg24 (by decide)]
  show StableHlo.after hostOps0_4 (StableHlo.after hostOps0_3 (StableHlo.after hostOps0_2 (StableHlo.after hostOps0_1 (StableHlo.after hostOps0 (W0 m ρ c))))) (Proc.devRef .tc main_arg24) = _
  after_results_simp <;> rfl
/-- Neither the host operations before the first region nor the region write this argument. -/
theorem W6_main_arg25 (c : Dev nD) : W6 m ρ c (Proc.devRef .tc main_arg25) = (m ((c : Thread nD τ).loc main_arg25)) := by
  rw [W6_of_ne m ρ c main_arg25 (by decide)]
  show StableHlo.after hostOps0_4 (StableHlo.after hostOps0_3 (StableHlo.after hostOps0_2 (StableHlo.after hostOps0_1 (StableHlo.after hostOps0 (W0 m ρ c))))) (Proc.devRef .tc main_arg25) = _
  after_results_simp <;> rfl

set_option maxHeartbeats 2000000 in
/-- The descriptors: the reference's descriptor stage of the first region's result and the launch arrays. -/
theorem W11_main_v58 (c : Dev nD) : W11 m ρ c (Proc.devRef .tc main_v58) = Cert.ReferenceIdeal.Stages.stageDesc (F := F)
    (W6 m ρ c (Proc.devRef .tc main_v34)) (m ((c : Thread nD τ).loc main_arg20)) (m ((c : Thread nD τ).loc main_arg21)) (m ((c : Thread nD τ).loc main_arg22)) (m ((c : Thread nD τ).loc main_arg23)) := by
  rw [← W6_main_arg20 m ρ c, ← W6_main_arg21 m ρ c, ← W6_main_arg22 m ρ c, ← W6_main_arg23 m ρ c]
  show StableHlo.after hostOps1_4 (StableHlo.after hostOps1_3 (StableHlo.after hostOps1_2 (StableHlo.after hostOps1_1 (StableHlo.after hostOps1 (W6 m ρ c))))) (Proc.devRef .tc main_v58) = _
  after_results_simp <;> rfl

/-- The second region reads the descriptors and does not write them. -/
theorem W12_main_v58 (c : Dev nD) : W12 m ρ c (Proc.devRef .tc main_v58) = W11 m ρ c (Proc.devRef .tc main_v58) :=
  (W12_arr m ρ c 0).trans (((dat1 (V11 m ρ) c).arrAt_in 0 rfl _).trans (A_eq1 (V11 m ρ) c 0))

/-- The second region's weight input: the last weight matrix rounded to bf16. -/
theorem W11_main_v59 (c : Dev nD) : W11 m ρ c (Proc.devRef .tc main_v59) = truncf .bf16 (m ((c : Thread nD τ).loc main_arg24)) bitsLt_bf16_f32 := by
  rw [← W6_main_arg24 m ρ c]
  show StableHlo.after hostOps1_4 (StableHlo.after hostOps1_3 (StableHlo.after hostOps1_2 (StableHlo.after hostOps1_1 (StableHlo.after hostOps1 (W6 m ρ c))))) (Proc.devRef .tc main_v59) = _
  after_results_simp <;> rfl

/-- The second region's bias input: the last bias as a row. -/
theorem W11_main_v60 (c : Dev nD) : W11 m ρ c (Proc.devRef .tc main_v60) = shapeCast S1x10000 (m ((c : Thread nD τ).loc main_arg25)) shapeCasts_S10000_S1x10000 := by
  rw [← W6_main_arg25 m ρ c]
  show StableHlo.after hostOps1_4 (StableHlo.after hostOps1_3 (StableHlo.after hostOps1_2 (StableHlo.after hostOps1_1 (StableHlo.after hostOps1 (W6 m ρ c))))) (Proc.devRef .tc main_v60) = _
  after_results_simp <;> rfl

end Cert.KernelIdeal.Host

end
-- ==== Proof.Assembly.lean ====
/-
  The results agree, from three facts about values.

  The reference's two results are its stages composed: descriptors = stageDesc (layer128 (layer64 (layer64 (stage0 …)))),
  log-probabilities = stageLogp of the descriptors. The kernel program's descriptors are the same stageDesc applied to
  what the first region leaves, and the first region leaves its body's function of the prologue's value (the same
  stage0 of the same arrays) and of the weights; its log-probabilities are what the second region leaves. So the two
  programs' results agree as soon as (i) the reference's buffers hold those compositions, (ii) the second region
  computes stageLogp of the descriptors, and (iii) the first region's body computes the three reference layers on
  finite inputs. This module derives the agreement from (i)–(iii).
-/
import proofs.«135777_j83262236000435_2_alg».proof.Proof.Algebraic
import proofs.«135777_j83262236000435_2_alg».proof.Proof.KernelHost

set_option maxRecDepth 16384
set_option pp.maxSteps 4000
set_option pp.deepTerms false

noncomputable section

namespace Cert.Proof.Values

open Idealize.ShloMosaic Idealize.ShloMosaic.TcCoe Idealize.SL.Sem Idealize.ShloMosaic.StableHlo

/-- (i) The reference's descriptor buffer holds the composition of its stages. -/
def RefDesc : Prop := ∀ V : Valuation Cert.ReferenceIdeal.τ Cert.ReferenceIdeal.sig (Elt Ideal),
  after (Cert.ReferenceIdeal.RefRun.ops (F := Ideal)) V (Cert.ReferenceIdeal.main_v296 : DevRef Cert.ReferenceIdeal.τ Cert.ReferenceIdeal.sig) = (Cert.ReferenceIdeal.Stages.stageDesc (F := Ideal) (Cert.ReferenceIdeal.Stages.layer128 (F := Ideal) (Cert.ReferenceIdeal.Stages.layer64 (F := Ideal) (Cert.ReferenceIdeal.Stages.layer64 (F := Ideal) (Cert.ReferenceIdeal.Stages.stage0 (F := Ideal) (V (Cert.ReferenceIdeal.main_arg0 : DevRef Cert.ReferenceIdeal.τ Cert.ReferenceIdeal.sig)) (V (Cert.ReferenceIdeal.main_arg4 : DevRef Cert.ReferenceIdeal.τ Cert.ReferenceIdeal.sig)) (V (Cert.ReferenceIdeal.main_arg5 : DevRef Cert.ReferenceIdeal.τ Cert.ReferenceIdeal.sig)) (V (Cert.ReferenceIdeal.main_arg6 : DevRef Cert.ReferenceIdeal.τ Cert.ReferenceIdeal.sig)) (V (Cert.ReferenceIdeal.main_arg7 : DevRef Cert.ReferenceIdeal.τ Cert.ReferenceIdeal.sig))) (V (Cert.ReferenceIdeal.main_arg1 : DevRef Cert.ReferenceIdeal.τ Cert.ReferenceIdeal.sig)) (V (Cert.ReferenceIdeal.main_arg2 : DevRef Cert.ReferenceIdeal.τ Cert.ReferenceIdeal.sig)) (V (Cert.ReferenceIdeal.main_arg3 : DevRef Cert.ReferenceIdeal.τ Cert.ReferenceIdeal.sig)) (V (Cert.ReferenceIdeal.main_arg8 : DevRef Cert.ReferenceIdeal.τ Cert.ReferenceIdeal.sig)) (V (Cert.ReferenceIdeal.main_arg9 : DevRef Cert.ReferenceIdeal.τ Cert.ReferenceIdeal.sig)) (V (Cert.ReferenceIdeal.main_arg10 : DevRef Cert.ReferenceIdeal.τ Cert.ReferenceIdeal.sig)) (V (Cert.ReferenceIdeal.main_arg11 : DevRef Cert.ReferenceIdeal.τ Cert.ReferenceIdeal.sig))) (V (Cert.ReferenceIdeal.main_arg1 : DevRef Cert.ReferenceIdeal.τ Cert.ReferenceIdeal.sig)) (V (Cert.ReferenceIdeal.main_arg2 : DevRef Cert.ReferenceIdeal.τ Cert.ReferenceIdeal.sig)) (V (Cert.ReferenceIdeal.main_arg3 : DevRef Cert.ReferenceIdeal.τ Cert.ReferenceIdeal.sig)) (V (Cert.ReferenceIdeal.main_arg12 : DevRef Cert.ReferenceIdeal.τ Cert.ReferenceIdeal.sig)) (V (Cert.ReferenceIdeal.main_arg13 : DevRef Cert.ReferenceIdeal.τ Cert.ReferenceIdeal.sig)) (V (Cert.ReferenceIdeal.main_arg14 : DevRef Cert.ReferenceIdeal.τ Cert.ReferenceIdeal.sig)) (V (Cert.ReferenceIdeal.main_arg15 : DevRef Cert.ReferenceIdeal.τ Cert.ReferenceIdeal.sig))) (V (Cert.ReferenceIdeal.main_arg1 : DevRef Cert.ReferenceIdeal.τ Cert.ReferenceIdeal.sig)) (V (Cert.ReferenceIdeal.main_arg2 : DevRef Cert.ReferenceIdeal.τ Cert.ReferenceIdeal.sig)) (V (Cert.ReferenceIdeal.main_arg3 : DevRef Cert.ReferenceIdeal.τ Cert.ReferenceIdeal.sig)) (V (Cert.ReferenceIdeal.main_arg16 : DevRef Cert.ReferenceIdeal.τ Cert.ReferenceIdeal.sig)) (V (Cert.ReferenceIdeal.main_arg17 : DevRef Cert.ReferenceIdeal.τ Cert.ReferenceIdeal.sig)) (V (Cert.ReferenceIdeal.main_arg18 : DevRef Cert.ReferenceIdeal.τ Cert.ReferenceIdeal.sig)) (V (Cert.ReferenceIdeal.main_arg19 : DevRef Cert.ReferenceIdeal.τ Cert.ReferenceIdeal.sig))) (V (Cert.ReferenceIdeal.main_arg20 : DevRef Cert.ReferenceIdeal.τ Cert.ReferenceIdeal.sig)) (V (Cert.ReferenceIdeal.main_arg21 : DevRef Cert.ReferenceIdeal.τ Cert.ReferenceIdeal.sig)) (V (Cert.ReferenceIdeal.main_arg22 : DevRef Cert.ReferenceIdeal.τ Cert.ReferenceIdeal.sig)) (V (Cert.ReferenceIdeal.main_arg23 : DevRef Cert.ReferenceIdeal.τ Cert.ReferenceIdeal.sig)))

/-- (i) The reference's log-probability buffer holds the last stage of its descriptor buffer. -/
def RefLogp : Prop := ∀ V : Valuation Cert.ReferenceIdeal.τ Cert.ReferenceIdeal.sig (Elt Ideal),
  after (Cert.ReferenceIdeal.RefRun.ops (F := Ideal)) V (Cert.ReferenceIdeal.main_v301 : DevRef Cert.ReferenceIdeal.τ Cert.ReferenceIdeal.sig)
    = Cert.ReferenceIdeal.Stages.stageLogp (F := Ideal) (after (Cert.ReferenceIdeal.RefRun.ops (F := Ideal)) V (Cert.ReferenceIdeal.main_v296 : DevRef Cert.ReferenceIdeal.τ Cert.ReferenceIdeal.sig)) (V (Cert.ReferenceIdeal.main_arg24 : DevRef Cert.ReferenceIdeal.τ Cert.ReferenceIdeal.sig)) (V (Cert.ReferenceIdeal.main_arg25 : DevRef Cert.ReferenceIdeal.τ Cert.ReferenceIdeal.sig))

/-- (ii) The second region leaves the last stage of the descriptors. -/
def Region1Logp : Prop := ∀ (m : (ℓ : Loc Cert.KernelIdeal.nD Cert.KernelIdeal.τ Cert.KernelIdeal.sig) → Buf (Elt Ideal) ℓ) (g : Dev Cert.KernelIdeal.nD → PrngReg) (c : Dev Cert.KernelIdeal.nD),
  Cert.KernelIdeal.Gen.W12 (F := Ideal) m g c (Proc.devRef .tc Cert.KernelIdeal.main_v61)
    = Cert.ReferenceIdeal.Stages.stageLogp (F := Ideal) (Cert.KernelIdeal.Gen.W11 (F := Ideal) m g c (Proc.devRef .tc Cert.KernelIdeal.main_v58)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))

/-- (iii) On finite inputs the first region leaves the three reference layers of the prologue's value. -/
def Region0Layers [hPre_finite_inputs : Cert.Pre_finite_inputs.Facts] : Prop := ∀ (m : (ℓ : Loc Cert.KernelIdeal.nD Cert.KernelIdeal.τ Cert.KernelIdeal.sig) → Buf (Elt Ideal) ℓ) (g : Dev Cert.KernelIdeal.nD → PrngReg), Cert.Pre_KernelIdeal m → ∀ c : Dev Cert.KernelIdeal.nD,
  Cert.KernelIdeal.Gen.W6 (F := Ideal) m g c (Proc.devRef .tc Cert.KernelIdeal.main_v34) = (Cert.ReferenceIdeal.Stages.layer128 (F := Ideal) (Cert.ReferenceIdeal.Stages.layer64 (F := Ideal) (Cert.ReferenceIdeal.Stages.layer64 (F := Ideal) (Cert.ReferenceIdeal.Stages.stage0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))

variable [hPre_finite_inputs : Cert.Pre_finite_inputs.Facts]

theorem results_of (h1 : RefDesc) (h2 : RefLogp) (h3 : Region1Logp) (h4 : Region0Layers) : ResultsAgree := by
  intro m g m' hpre hagree c
  obtain ⟨e0, e1, e2, e3, e4, e5, e6, e7, e8, e9, e10, e11, e12, e13, e14, e15, e16, e17, e18, e19, e20, e21, e22, e23, e24, e25⟩ := hagree c
  have hdesc : after (Cert.ReferenceIdeal.RefRun.ops (F := Ideal)) (launchContents m' c) (Cert.ReferenceIdeal.main_v296 : DevRef Cert.ReferenceIdeal.τ Cert.ReferenceIdeal.sig)
      = Cert.KernelIdeal.Gen.W12 (F := Ideal) m g c (Proc.devRef .tc Cert.KernelIdeal.main_v58) := by
    rw [h1 (launchContents m' c), Cert.KernelIdeal.Host.W12_main_v58 m g c, Cert.KernelIdeal.Host.W11_main_v58 m g c, h4 m g hpre c]
    show (Cert.ReferenceIdeal.Stages.stageDesc (F := Ideal) (Cert.ReferenceIdeal.Stages.layer128 (F := Ideal) (Cert.ReferenceIdeal.Stages.layer64 (F := Ideal) (Cert.ReferenceIdeal.Stages.layer64 (F := Ideal) (Cert.ReferenceIdeal.Stages.stage0 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))) = _
    rw [e0, e1, e2, e3, e4, e5, e6, e7, e8, e9, e10, e11, e12, e13, e14, e15, e16, e17, e18, e19, e20, e21, e22, e23]
  refine ⟨?_, hdesc⟩
  rw [h2 (launchContents m' c), hdesc, h3 m g c, Cert.KernelIdeal.Host.W12_main_v58 m g c]
  show Cert.ReferenceIdeal.Stages.stageLogp (F := Ideal) _ (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) = _
  rw [e24, e25]

end Cert.Proof.Values

end
-- ==== Proof.RefRunSegsA.lean ====
/- Parts 0 to 2 of the twelve consecutive parts of @main's operations (the calls unfolded) that the stages of
   RefStages.lean transcribe: each part's operations in order, their text as the program states them, and the
   reference each operation writes. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 0 (the operations of Stages.dense0, ending at main_v3). -/
abbrev seg0 : List (HloOp τ sig (Elt F)) :=
  [ StableHlo.binary main_arg0 main_arg4 main_v0 ((fun l r => Host.dotGeneral dot_S10000x352_S352x64_S10000x64_1_0_0_1_n_n none l r) : (⟨S10000x352, .f32⟩ : BufTy).Contents (Elt F) → (⟨S352x64, .f32⟩ : BufTy).Contents (Elt F) → (⟨S10000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S10000x64 ![0, 1] bcast_S1x64_S10000x64_0_1 : (⟨S1x64, .f32⟩ : BufTy).Contents (Elt F) → (⟨S10000x64, .f32⟩ : BufTy).Contents (Elt F)),
    StableHlo.binary main_v0 main_v2 main_v3 (addf : (⟨S10000x64, .f32⟩ : BufTy).Contents (Elt F) → (⟨S10000x64, .f32⟩ : BufTy).Contents (Elt F) → (⟨S10000x64, .f32⟩ : BufTy).Contents (Elt F)) ]

/-- The reference each operation of part 0 writes, in the same order. -/
abbrev seg0_W : List (Ref sig .tc) :=
  [ main_v0,
    main_v1,
    main_v2,
    main_v3 ]

/-- Part 1 (the operations of Stages.bnRelu64, ending at main_v23). -/
abbrev seg1 : List (HloOp τ sig (Elt F)) :=
  [ StableHlo.nullary main_cst (constant S_ .f32 0x00000000#32),
    StableHlo.binary main_v3 main_cst main_v4 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_0 (constant S_ .f32 0x461C4000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S10000x64, .f32⟩) main_call0.cst main_call0.v0 (fun x v => Host.reduceAdd x v reducesTo_S10000x64_S64_d0 h_S_),
    StableHlo.TRef.unary main_call0.v0 main_call0.v1 (broadcastInDim S1x64 ![1] bcast_S64_S1x64_1),
    StableHlo.TRef.nullary main_call0.cst_0 (constant S_ .f32 0x461C4000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S10000x64 ![0, 1] bcast_S1x64_S10000x64_0_1),
    StableHlo.TRef.binary (.of main_v3 : StableHlo.TRef sig ⟨S10000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S10000x64 ![0, 1] bcast_S1x64_S10000x64_0_1 : (⟨S1x64, .f32⟩ : BufTy).Contents (Elt F) → (⟨S10000x64, .f32⟩ : BufTy).Contents (Elt F)),
    StableHlo.binary main_v3 main_v9 main_v10 (subf : (⟨S10000x64, .f32⟩ : BufTy).Contents (Elt F) → (⟨S10000x64, .f32⟩ : BufTy).Contents (Elt F) → (⟨S10000x64, .f32⟩ : BufTy).Contents (Elt F)),
    StableHlo.nullary main_cst_1 (constant S_ .f32 0x3A83126F#32),
    StableHlo.unary main_cst_1 main_v11 (broadcastInDim S64 ![] bcast_S_S64 : (⟨S_, .f32⟩ : BufTy).Contents (Elt F) → (⟨S64, .f32⟩ : BufTy).Contents (Elt F)),
    StableHlo.binary main_v7 main_v11 main_v12 (addf : (⟨S64, .f32⟩ : BufTy).Contents (Elt F) → (⟨S64, .f32⟩ : BufTy).Contents (Elt F) → (⟨S64, .f32⟩ : BufTy).Contents (Elt F)),
    StableHlo.unary main_v12 main_v13 (Host.rsqrt : (⟨S64, .f32⟩ : BufTy).Contents (Elt F) → (⟨S64, .f32⟩ : BufTy).Contents (Elt F)),
    StableHlo.unary main_v13 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S10000x64 ![0, 1] bcast_S1x64_S10000x64_0_1 : (⟨S1x64, .f32⟩ : BufTy).Contents (Elt F) → (⟨S10000x64, .f32⟩ : BufTy).Contents (Elt F)),
    StableHlo.binary main_v10 main_v15 main_v16 (mulf : (⟨S10000x64, .f32⟩ : BufTy).Contents (Elt F) → (⟨S10000x64, .f32⟩ : BufTy).Contents (Elt F) → (⟨S10000x64, .f32⟩ : BufTy).Contents (Elt F)),
    StableHlo.unary main_arg6 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S10000x64 ![0, 1] bcast_S1x64_S10000x64_0_1 : (⟨S1x64, .f32⟩ : BufTy).Contents (Elt F) → (⟨S10000x64, .f32⟩ : BufTy).Contents (Elt F)),
    StableHlo.binary main_v16 main_v18 main_v19 (mulf : (⟨S10000x64, .f32⟩ : BufTy).Contents (Elt F) → (⟨S10000x64, .f32⟩ : BufTy).Contents (Elt F) → (⟨S10000x64, .f32⟩ : BufTy).Contents (Elt F)),
    StableHlo.unary main_arg7 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S10000x64 ![0, 1] bcast_S1x64_S10000x64_0_1 : (⟨S1x64, .f32⟩ : BufTy).Contents (Elt F) → (⟨S10000x64, .f32⟩ : BufTy).Contents (Elt F)),
    StableHlo.binary main_v19 main_v21 main_v22 (addf : (⟨S10000x64, .f32⟩ : BufTy).Contents (Elt F) → (⟨S10000x64, .f32⟩ : BufTy).Contents (Elt F) → (⟨S10000x64, .f32⟩ : BufTy).Contents (Elt F)),
    StableHlo.TRef.nullary main_call1.cst (constant S_ .f32 0x00000000#32),
    StableHlo.TRef.unary main_call1.cst main_call1.v0 (broadcastInDim S10000x64 ![] bcast_S_S10000x64),
    StableHlo.TRef.binary (.of main_v22 : StableHlo.TRef sig ⟨S10000x64, .f32⟩) main_call1.v0 main_call1.v1 maximumf ]

/-- The reference each operation of part 1 writes, in the same order. -/
abbrev seg1_W : List (Ref sig .tc) :=
  [ main_cst,
    main_v4,
    main_cst_0,
    main_v5,
    main_v6,
    main_c,
    main_call0.cst.ref,
    main_call0.v0.ref,
    main_call0.v1.ref,
    main_call0.cst_0.ref,
    main_call0.v2.ref,
    main_call0.v3.ref,
    main_call0.v4.ref,
    main_call0.v5.ref,
    main_call0.v6.ref,
    main_call0.v7.ref,
    main_call0.cst_1.ref,
    main_call0.v8.ref,
    main_call0.cst_2.ref,
    main_call0.v9.ref,
    main_call0.v10.ref,
    main_call0.v11.ref,
    main_call0.cst_3.ref,
    main_call0.v12.ref,
    main_call0.cst_4.ref,
    main_call0.call0.v0.ref,
    main_call0.call0.v1.ref,
    main_call0.call0.v2.ref,
    main_v8,
    main_v9,
    main_v10,
    main_cst_1,
    main_v11,
    main_v12,
    main_v13,
    main_v14,
    main_v15,
    main_v16,
    main_v17,
    main_v18,
    main_v19,
    main_v20,
    main_v21,
    main_v22,
    main_call1.cst.ref,
    main_call1.v0.ref,
    main_call1.v1.ref ]

/-- Part 2 (the operations of Stages.cheb64, ending at main_v86). -/
abbrev seg2 : List (HloOp τ sig (Elt F)) :=
  [ StableHlo.unary main_arg3 main_v24 (broadcastInDim S64x1 ![0] bcast_S64_S64x1_0 : (⟨S64, .f32⟩ : BufTy).Contents (Elt F) → (⟨S64x1, .f32⟩ : BufTy).Contents (Elt F)),
    StableHlo.binary main_arg2 main_v23 main_v25 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v24 main_v26 (broadcastInDim S64x64 ![0, 1] bcast_S64x1_S64x64_0_1 : (⟨S64x1, .f32⟩ : BufTy).Contents (Elt F) → (⟨S64x64, .f32⟩ : BufTy).Contents (Elt F)),
    StableHlo.binary main_v26 main_v25 main_v27 (mulf : (⟨S64x64, .f32⟩ : BufTy).Contents (Elt F) → (⟨S64x64, .f32⟩ : BufTy).Contents (Elt F) → (⟨S64x64, .f32⟩ : BufTy).Contents (Elt F)),
    StableHlo.binary main_arg1 main_v27 main_v28 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg8 main_v29 ((extractStridedSlice S1x64x64 ![0, 0, 0] · slices_S6x64x64_S1x64x64_0_0_0) : (⟨S6x64x64, .f32⟩ : BufTy).Contents (Elt F) → (⟨S1x64x64, .f32⟩ : BufTy).Contents (Elt F)),
    StableHlo.reshape main_v29 main_v30 rfl shapeCasts_S1x64x64_S64x64,
    StableHlo.binary main_v23 main_v30 main_v31 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg8 main_v32 ((extractStridedSlice S1x64x64 ![1, 0, 0] · slices_S6x64x64_S1x64x64_1_0_0) : (⟨S6x64x64, .f32⟩ : BufTy).Contents (Elt F) → (⟨S1x64x64, .f32⟩ : BufTy).Contents (Elt F)),
    StableHlo.reshape main_v32 main_v33 rfl shapeCasts_S1x64x64_S64x64,
    StableHlo.binary main_v28 main_v33 main_v34 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v31 main_v34 main_v35 (addf : (⟨S10000x64, .f32⟩ : BufTy).Contents (Elt F) → (⟨S10000x64, .f32⟩ : BufTy).Contents (Elt F) → (⟨S10000x64, .f32⟩ : BufTy).Contents (Elt F)),
    StableHlo.unary main_arg3 main_v36 (broadcastInDim S64x1 ![0] bcast_S64_S64x1_0 : (⟨S64, .f32⟩ : BufTy).Contents (Elt F) → (⟨S64x1, .f32⟩ : BufTy).Contents (Elt F)),
    StableHlo.binary main_arg2 main_v28 main_v37 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v36 main_v38 (broadcastInDim S64x64 ![0, 1] bcast_S64x1_S64x64_0_1 : (⟨S64x1, .f32⟩ : BufTy).Contents (Elt F) → (⟨S64x64, .f32⟩ : BufTy).Contents (Elt F)),
    StableHlo.binary main_v38 main_v37 main_v39 (mulf : (⟨S64x64, .f32⟩ : BufTy).Contents (Elt F) → (⟨S64x64, .f32⟩ : BufTy).Contents (Elt F) → (⟨S64x64, .f32⟩ : BufTy).Contents (Elt F)),
    StableHlo.binary main_arg1 main_v39 main_v40 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_2 (constant S_ .f32 0x40000000#32),
    StableHlo.unary main_cst_2 main_v41 (broadcastInDim S10000x64 ![] bcast_S_S10000x64 : (⟨S_, .f32⟩ : BufTy).Contents (Elt F) → (⟨S10000x64, .f32⟩ : BufTy).Contents (Elt F)),
    StableHlo.binary main_v41 main_v40 main_v42 (mulf : (⟨S10000x64, .f32⟩ : BufTy).Contents (Elt F) → (⟨S10000x64, .f32⟩ : BufTy).Contents (Elt F) → (⟨S10000x64, .f32⟩ : BufTy).Contents (Elt F)),
    StableHlo.binary main_v42 main_v23 main_v43 (subf : (⟨S10000x64, .f32⟩ : BufTy).Contents (Elt F) → (⟨S10000x64, .f32⟩ : BufTy).Contents (Elt F) → (⟨S10000x64, .f32⟩ : BufTy).Contents (Elt F)),
    StableHlo.unary main_arg8 main_v44 ((extractStridedSlice S1x64x64 ![2, 0, 0] · slices_S6x64x64_S1x64x64_2_0_0) : (⟨S6x64x64, .f32⟩ : BufTy).Contents (Elt F) → (⟨S1x64x64, .f32⟩ : BufTy).Contents (Elt F)),
    StableHlo.reshape main_v44 main_v45 rfl shapeCasts_S1x64x64_S64x64,
    StableHlo.binary main_v43 main_v45 main_v46 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v35 main_v46 main_v47 (addf : (⟨S10000x64, .f32⟩ : BufTy).Contents (Elt F) → (⟨S10000x64, .f32⟩ : BufTy).Contents (Elt F) → (⟨S10000x64, .f32⟩ : BufTy).Contents (Elt F)),
    StableHlo.unary main_arg3 main_v48 (broadcastInDim S64x1 ![0] bcast_S64_S64x1_0 : (⟨S64, .f32⟩ : BufTy).Contents (Elt F) → (⟨S64x1, .f32⟩ : BufTy).Contents (Elt F)),
    StableHlo.binary main_arg2 main_v43 main_v49 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v48 main_v50 (broadcastInDim S64x64 ![0, 1] bcast_S64x1_S64x64_0_1 : (⟨S64x1, .f32⟩ : BufTy).Contents (Elt F) → (⟨S64x64, .f32⟩ : BufTy).Contents (Elt F)),
    StableHlo.binary main_v50 main_v49 main_v51 (mulf : (⟨S64x64, .f32⟩ : BufTy).Contents (Elt F) → (⟨S64x64, .f32⟩ : BufTy).Contents (Elt F) → (⟨S64x64, .f32⟩ : BufTy).Contents (Elt F)),
    StableHlo.binary main_arg1 main_v51 main_v52 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_3 (constant S_ .f32 0x40000000#32),
    StableHlo.unary main_cst_3 main_v53 (broadcastInDim S10000x64 ![] bcast_S_S10000x64 : (⟨S_, .f32⟩ : BufTy).Contents (Elt F) → (⟨S10000x64, .f32⟩ : BufTy).Contents (Elt F)),
    StableHlo.binary main_v53 main_v52 main_v54 (mulf : (⟨S10000x64, .f32⟩ : BufTy).Contents (Elt F) → (⟨S10000x64, .f32⟩ : BufTy).Contents (Elt F) → (⟨S10000x64, .f32⟩ : BufTy).Contents (Elt F)),
    StableHlo.binary main_v54 main_v28 main_v55 (subf : (⟨S10000x64, .f32⟩ : BufTy).Contents (Elt F) → (⟨S10000x64, .f32⟩ : BufTy).Contents (Elt F) → (⟨S10000x64, .f32⟩ : BufTy).Contents (Elt F)),
    StableHlo.unary main_arg8 main_v56 ((extractStridedSlice S1x64x64 ![3, 0, 0] · slices_S6x64x64_S1x64x64_3_0_0) : (⟨S6x64x64, .f32⟩ : BufTy).Contents (Elt F) → (⟨S1x64x64, .f32⟩ : BufTy).Contents (Elt F)),
    StableHlo.reshape main_v56 main_v57 rfl shapeCasts_S1x64x64_S64x64,
    StableHlo.binary main_v55 main_v57 main_v58 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v47 main_v58 main_v59 (addf : (⟨S10000x64, .f32⟩ : BufTy).Contents (Elt F) → (⟨S10000x64, .f32⟩ : BufTy).Contents (Elt F) → (⟨S10000x64, .f32⟩ : BufTy).Contents (Elt F)),
    StableHlo.unary main_arg3 main_v60 (broadcastInDim S64x1 ![0] bcast_S64_S64x1_0 : (⟨S64, .f32⟩ : BufTy).Contents (Elt F) → (⟨S64x1, .f32⟩ : BufTy).Contents (Elt F)),
    StableHlo.binary main_arg2 main_v55 main_v61 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v60 main_v62 (broadcastInDim S64x64 ![0, 1] bcast_S64x1_S64x64_0_1 : (⟨S64x1, .f32⟩ : BufTy).Contents (Elt F) → (⟨S64x64, .f32⟩ : BufTy).Contents (Elt F)),
    StableHlo.binary main_v62 main_v61 main_v63 (mulf : (⟨S64x64, .f32⟩ : BufTy).Contents (Elt F) → (⟨S64x64, .f32⟩ : BufTy).Contents (Elt F) → (⟨S64x64, .f32⟩ : BufTy).Contents (Elt F)),
    StableHlo.binary main_arg1 main_v63 main_v64 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_4 (constant S_ .f32 0x40000000#32),
    StableHlo.unary main_cst_4 main_v65 (broadcastInDim S10000x64 ![] bcast_S_S10000x64 : (⟨S_, .f32⟩ : BufTy).Contents (Elt F) → (⟨S10000x64, .f32⟩ : BufTy).Contents (Elt F)),
    StableHlo.binary main_v65 main_v64 main_v66 (mulf : (⟨S10000x64, .f32⟩ : BufTy).Contents (Elt F) → (⟨S10000x64, .f32⟩ : BufTy).Contents (Elt F) → (⟨S10000x64, .f32⟩ : BufTy).Contents (Elt F)),
    StableHlo.binary main_v66 main_v43 main_v67 (subf : (⟨S10000x64, .f32⟩ : BufTy).Contents (Elt F) → (⟨S10000x64, .f32⟩ : BufTy).Contents (Elt F) → (⟨S10000x64, .f32⟩ : BufTy).Contents (Elt F)),
    StableHlo.unary main_arg8 main_v68 ((extractStridedSlice S1x64x64 ![4, 0, 0] · slices_S6x64x64_S1x64x64_4_0_0) : (⟨S6x64x64, .f32⟩ : BufTy).Contents (Elt F) → (⟨S1x64x64, .f32⟩ : BufTy).Contents (Elt F)),
    StableHlo.reshape main_v68 main_v69 rfl shapeCasts_S1x64x64_S64x64,
    StableHlo.binary main_v67 main_v69 main_v70 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v59 main_v70 main_v71 (addf : (⟨S10000x64, .f32⟩ : BufTy).Contents (Elt F) → (⟨S10000x64, .f32⟩ : BufTy).Contents (Elt F) → (⟨S10000x64, .f32⟩ : BufTy).Contents (Elt F)),
    StableHlo.unary main_arg3 main_v72 (broadcastInDim S64x1 ![0] bcast_S64_S64x1_0 : (⟨S64, .f32⟩ : BufTy).Contents (Elt F) → (⟨S64x1, .f32⟩ : BufTy).Contents (Elt F)),
    StableHlo.binary main_arg2 main_v67 main_v73 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v72 main_v74 (broadcastInDim S64x64 ![0, 1] bcast_S64x1_S64x64_0_1 : (⟨S64x1, .f32⟩ : BufTy).Contents (Elt F) → (⟨S64x64, .f32⟩ : BufTy).Contents (Elt F)),
    StableHlo.binary main_v74 main_v73 main_v75 (mulf : (⟨S64x64, .f32⟩ : BufTy).Contents (Elt F) → (⟨S64x64, .f32⟩ : BufTy).Contents (Elt F) → (⟨S64x64, .f32⟩ : BufTy).Contents (Elt F)),
    StableHlo.binary main_arg1 main_v75 main_v76 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_5 (constant S_ .f32 0x40000000#32),
    StableHlo.unary main_cst_5 main_v77 (broadcastInDim S10000x64 ![] bcast_S_S10000x64 : (⟨S_, .f32⟩ : BufTy).Contents (Elt F) → (⟨S10000x64, .f32⟩ : BufTy).Contents (Elt F)),
    StableHlo.binary main_v77 main_v76 main_v78 (mulf : (⟨S10000x64, .f32⟩ : BufTy).Contents (Elt F) → (⟨S10000x64, .f32⟩ : BufTy).Contents (Elt F) → (⟨S10000x64, .f32⟩ : BufTy).Contents (Elt F)),
    StableHlo.binary main_v78 main_v55 main_v79 (subf : (⟨S10000x64, .f32⟩ : BufTy).Contents (Elt F) → (⟨S10000x64, .f32⟩ : BufTy).Contents (Elt F) → (⟨S10000x64, .f32⟩ : BufTy).Contents (Elt F)),
    StableHlo.unary main_arg8 main_v80 ((extractStridedSlice S1x64x64 ![5, 0, 0] · slices_S6x64x64_S1x64x64_5_0_0) : (⟨S6x64x64, .f32⟩ : BufTy).Contents (Elt F) → (⟨S1x64x64, .f32⟩ : BufTy).Contents (Elt F)),
    StableHlo.reshape main_v80 main_v81 rfl shapeCasts_S1x64x64_S64x64,
    StableHlo.binary main_v79 main_v81 main_v82 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v71 main_v82 main_v83 (addf : (⟨S10000x64, .f32⟩ : BufTy).Contents (Elt F) → (⟨S10000x64, .f32⟩ : BufTy).Contents (Elt F) → (⟨S10000x64, .f32⟩ : BufTy).Contents (Elt F)),
    StableHlo.unary main_arg9 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S10000x64 ![0, 1] bcast_S1x64_S10000x64_0_1 : (⟨S1x64, .f32⟩ : BufTy).Contents (Elt F) → (⟨S10000x64, .f32⟩ : BufTy).Contents (Elt F)),
    StableHlo.binary main_v83 main_v85 main_v86 (addf : (⟨S10000x64, .f32⟩ : BufTy).Contents (Elt F) → (⟨S10000x64, .f32⟩ : BufTy).Contents (Elt F) → (⟨S10000x64, .f32⟩ : BufTy).Contents (Elt F)) ]

/-- The reference each operation of part 2 writes, in the same order. -/
abbrev seg2_W : List (Ref sig .tc) :=
  [ main_v24,
    main_v25,
    main_v26,
    main_v27,
    main_v28,
    main_v29,
    main_v30,
    main_v31,
    main_v32,
    main_v33,
    main_v34,
    main_v35,
    main_v36,
    main_v37,
    main_v38,
    main_v39,
    main_v40,
    main_cst_2,
    main_v41,
    main_v42,
    main_v43,
    main_v44,
    main_v45,
    main_v46,
    main_v47,
    main_v48,
    main_v49,
    main_v50,
    main_v51,
    main_v52,
    main_cst_3,
    main_v53,
    main_v54,
    main_v55,
    main_v56,
    main_v57,
    main_v58,
    main_v59,
    main_v60,
    main_v61,
    main_v62,
    main_v63,
    main_v64,
    main_cst_4,
    main_v65,
    main_v66,
    main_v67,
    main_v68,
    main_v69,
    main_v70,
    main_v71,
    main_v72,
    main_v73,
    main_v74,
    main_v75,
    main_v76,
    main_cst_5,
    main_v77,
    main_v78,
    main_v79,
    main_v80,
    main_v81,
    main_v82,
    main_v83,
    main_v84,
    main_v85,
    main_v86 ]

end Cert.ReferenceIdeal.RefRun

end
-- ==== Proof.RefValA.lean ====
/-
  Parts 0 to 2 of @main's operations, read back. Each part is a straight line of operations over literal
  references; each operation writes exactly one reference (`segJ_W` lists them in order), so a reference outside
  that list is left as it was (`segJ_keeps`). The fold of a part's operations at its last result is computed by
  unrolling it: at the reference an operation writes, the fold is the operation's function of the fold at its
  operands one step earlier; at any other reference it is the fold one step earlier; the references are literals,
  so which case applies is decided. What remains at the end is the composition of the operations' functions over
  the contents the part started from, which is the stage's definition in RefStages.lean line by line (the typed
  references of a module-local function's operations carry their contents along an equation that is `rfl` at
  these literal references, so the transports are the identity).
-/
import proofs.«135777_j83262236000435_2_alg».proof.Proof.RefRunSegsA
import proofs.«135777_j83262236000435_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Each operation of part 0 writes the one reference listed at its place in `seg0_W`. -/
theorem seg0_writes : (seg0 : List (HloOp τ sig (Elt F))).Forall fun op =>
    op.writes ⊆ (seg0_W.map (Proc.devRef (τ := τ) .tc)).toFinset := by
  simp only [seg0, List.Forall]
  repeat' apply And.intro
  all_goals
    simp only [nullary_writes, unary_writes, binary_writes, ternary_writes, reshape_writes,
      Finset.singleton_subset_iff, List.mem_toFinset]
    exact List.mem_map_of_mem (by decide)

/-- A reference part 0 does not write holds after it what it held before. -/
theorem seg0_keeps (W : Valuation τ sig (Elt F)) (r : Ref sig .tc) (h : r ∉ seg0_W) :
    after seg0 W (Proc.devRef .tc r) = W (Proc.devRef .tc r) :=
  after_of_writes_sub seg0 W seg0_writes h

set_option maxRecDepth 16384 in
set_option maxHeartbeats 4000000 in
/-- Part 0 leaves at its last result the stage's function of the contents it started from. -/
theorem seg0_val (W : Valuation τ sig (Elt F)) :
    after seg0 W (main_v3 : DevRef τ sig)
      = Stages.dense0 (W (main_arg0 : DevRef τ sig)) (W (main_arg4 : DevRef τ sig)) (W (main_arg5 : DevRef τ sig)) := by
  simp only [seg0]
  after_results_simp
  rfl

set_option maxRecDepth 16384 in
set_option maxHeartbeats 4000000 in
/-- Each operation of part 1 writes the one reference listed at its place in `seg1_W`. -/
theorem seg1_writes : (seg1 : List (HloOp τ sig (Elt F))).Forall fun op =>
    op.writes ⊆ (seg1_W.map (Proc.devRef (τ := τ) .tc)).toFinset := by
  simp only [seg1, List.Forall]
  repeat' apply And.intro
  all_goals
    simp only [nullary_writes, unary_writes, binary_writes, ternary_writes, reshape_writes,
      Finset.singleton_subset_iff, List.mem_toFinset]
    exact List.mem_map_of_mem (by decide)

/-- A reference part 1 does not write holds after it what it held before. -/
theorem seg1_keeps (W : Valuation τ sig (Elt F)) (r : Ref sig .tc) (h : r ∉ seg1_W) :
    after seg1 W (Proc.devRef .tc r) = W (Proc.devRef .tc r) :=
  after_of_writes_sub seg1 W seg1_writes h

set_option maxRecDepth 16384 in
set_option maxHeartbeats 4000000 in
/-- Part 1 leaves at its last result the stage's function of the contents it started from. -/
theorem seg1_val (W : Valuation τ sig (Elt F)) :
    after seg1 W (main_v23 : DevRef τ sig)
      = Stages.bnRelu64 (W (main_v3 : DevRef τ sig)) (W (main_arg6 : DevRef τ sig)) (W (main_arg7 : DevRef τ sig)) := by
  simp only [seg1]
  after_results_simp
  rfl

set_option maxRecDepth 16384 in
set_option maxHeartbeats 4000000 in
/-- Each operation of part 2 writes the one reference listed at its place in `seg2_W`. -/
theorem seg2_writes : (seg2 : List (HloOp τ sig (Elt F))).Forall fun op =>
    op.writes ⊆ (seg2_W.map (Proc.devRef (τ := τ) .tc)).toFinset := by
  simp only [seg2, List.Forall]
  repeat' apply And.intro
  all_goals
    simp only [nullary_writes, unary_writes, binary_writes, ternary_writes, reshape_writes,
      Finset.singleton_subset_iff, List.mem_toFinset]
    exact List.mem_map_of_mem (by decide)

/-- A reference part 2 does not write holds after it what it held before. -/
theorem seg2_keeps (W : Valuation τ sig (Elt F)) (r : Ref sig .tc) (h : r ∉ seg2_W) :
    after seg2 W (Proc.devRef .tc r) = W (Proc.devRef .tc r) :=
  after_of_writes_sub seg2 W seg2_writes h

set_option maxRecDepth 16384 in
set_option maxHeartbeats 4000000 in
/-- Part 2 leaves at its last result the stage's function of the contents it started from. -/
theorem seg2_val (W : Valuation τ sig (Elt F)) :
    after seg2 W (main_v86 : DevRef τ sig)
      = Stages.cheb64 (W (main_v23 : DevRef τ sig)) (W (main_arg1 : DevRef τ sig)) (W (main_arg2 : DevRef τ sig)) (W (main_arg3 : DevRef τ sig)) (W (main_arg8 : DevRef τ sig)) (W (main_arg9 : DevRef τ sig)) := by
  simp only [seg2]
  after_results_simp
  rfl

end Cert.ReferenceIdeal.RefRun

end
-- ==== Proof.RefRunSegsB.lean ====
/- Parts 3 to 5 of the twelve consecutive parts of @main's operations (the calls unfolded) that the stages of
   RefStages.lean transcribe: each part's operations in order, their text as the program states them, and the
   reference each operation writes. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 3 (the operations of Stages.bnRelu64, ending at main_v106). -/
abbrev seg3 : List (HloOp τ sig (Elt F)) :=
  [ StableHlo.nullary main_cst_6 (constant S_ .f32 0x00000000#32),
    StableHlo.binary main_v86 main_cst_6 main_v87 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_7 (constant S_ .f32 0x461C4000#32),
    StableHlo.unary main_cst_7 main_v88 (broadcastInDim S64 ![] bcast_S_S64 : (⟨S_, .f32⟩ : BufTy).Contents (Elt F) → (⟨S64, .f32⟩ : BufTy).Contents (Elt F)),
    StableHlo.binary main_v87 main_v88 main_v89 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call2.cst (constant S_ .f32 0x00000000#32),
    StableHlo.TRef.binary (.of main_v86 : StableHlo.TRef sig ⟨S10000x64, .f32⟩) main_call2.cst main_call2.v0 (fun x v => Host.reduceAdd x v reducesTo_S10000x64_S64_d0 h_S_),
    StableHlo.TRef.unary main_call2.v0 main_call2.v1 (broadcastInDim S1x64 ![1] bcast_S64_S1x64_1),
    StableHlo.TRef.nullary main_call2.cst_0 (constant S_ .f32 0x461C4000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S10000x64 ![0, 1] bcast_S1x64_S10000x64_0_1),
    StableHlo.TRef.binary (.of main_v86 : StableHlo.TRef sig ⟨S10000x64, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v89 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S10000x64 ![0, 1] bcast_S1x64_S10000x64_0_1 : (⟨S1x64, .f32⟩ : BufTy).Contents (Elt F) → (⟨S10000x64, .f32⟩ : BufTy).Contents (Elt F)),
    StableHlo.binary main_v86 main_v92 main_v93 (subf : (⟨S10000x64, .f32⟩ : BufTy).Contents (Elt F) → (⟨S10000x64, .f32⟩ : BufTy).Contents (Elt F) → (⟨S10000x64, .f32⟩ : BufTy).Contents (Elt F)),
    StableHlo.nullary main_cst_9 (constant S_ .f32 0x3A83126F#32),
    StableHlo.unary main_cst_9 main_v94 (broadcastInDim S64 ![] bcast_S_S64 : (⟨S_, .f32⟩ : BufTy).Contents (Elt F) → (⟨S64, .f32⟩ : BufTy).Contents (Elt F)),
    StableHlo.binary main_v90 main_v94 main_v95 (addf : (⟨S64, .f32⟩ : BufTy).Contents (Elt F) → (⟨S64, .f32⟩ : BufTy).Contents (Elt F) → (⟨S64, .f32⟩ : BufTy).Contents (Elt F)),
    StableHlo.unary main_v95 main_v96 (Host.rsqrt : (⟨S64, .f32⟩ : BufTy).Contents (Elt F) → (⟨S64, .f32⟩ : BufTy).Contents (Elt F)),
    StableHlo.unary main_v96 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S10000x64 ![0, 1] bcast_S1x64_S10000x64_0_1 : (⟨S1x64, .f32⟩ : BufTy).Contents (Elt F) → (⟨S10000x64, .f32⟩ : BufTy).Contents (Elt F)),
    StableHlo.binary main_v93 main_v98 main_v99 (mulf : (⟨S10000x64, .f32⟩ : BufTy).Contents (Elt F) → (⟨S10000x64, .f32⟩ : BufTy).Contents (Elt F) → (⟨S10000x64, .f32⟩ : BufTy).Contents (Elt F)),
    StableHlo.unary main_arg10 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S10000x64 ![0, 1] bcast_S1x64_S10000x64_0_1 : (⟨S1x64, .f32⟩ : BufTy).Contents (Elt F) → (⟨S10000x64, .f32⟩ : BufTy).Contents (Elt F)),
    StableHlo.binary main_v99 main_v101 main_v102 (mulf : (⟨S10000x64, .f32⟩ : BufTy).Contents (Elt F) → (⟨S10000x64, .f32⟩ : BufTy).Contents (Elt F) → (⟨S10000x64, .f32⟩ : BufTy).Contents (Elt F)),
    StableHlo.unary main_arg11 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S10000x64 ![0, 1] bcast_S1x64_S10000x64_0_1 : (⟨S1x64, .f32⟩ : BufTy).Contents (Elt F) → (⟨S10000x64, .f32⟩ : BufTy).Contents (Elt F)),
    StableHlo.binary main_v102 main_v104 main_v105 (addf : (⟨S10000x64, .f32⟩ : BufTy).Contents (Elt F) → (⟨S10000x64, .f32⟩ : BufTy).Contents (Elt F) → (⟨S10000x64, .f32⟩ : BufTy).Contents (Elt F)),
    StableHlo.TRef.nullary main_call3.cst (constant S_ .f32 0x00000000#32),
    StableHlo.TRef.unary main_call3.cst main_call3.v0 (broadcastInDim S10000x64 ![] bcast_S_S10000x64),
    StableHlo.TRef.binary (.of main_v105 : StableHlo.TRef sig ⟨S10000x64, .f32⟩) main_call3.v0 main_call3.v1 maximumf ]

/-- The reference each operation of part 3 writes, in the same order. -/
abbrev seg3_W : List (Ref sig .tc) :=
  [ main_cst_6,
    main_v87,
    main_cst_7,
    main_v88,
    main_v89,
    main_c_8,
    main_call2.cst.ref,
    main_call2.v0.ref,
    main_call2.v1.ref,
    main_call2.cst_0.ref,
    main_call2.v2.ref,
    main_call2.v3.ref,
    main_call2.v4.ref,
    main_call2.v5.ref,
    main_call2.v6.ref,
    main_call2.v7.ref,
    main_call2.cst_1.ref,
    main_call2.v8.ref,
    main_call2.cst_2.ref,
    main_call2.v9.ref,
    main_call2.v10.ref,
    main_call2.v11.ref,
    main_call2.cst_3.ref,
    main_call2.v12.ref,
    main_call2.cst_4.ref,
    main_call2.call0.v0.ref,
    main_call2.call0.v1.ref,
    main_call2.call0.v2.ref,
    main_v91,
    main_v92,
    main_v93,
    main_cst_9,
    main_v94,
    main_v95,
    main_v96,
    main_v97,
    main_v98,
    main_v99,
    main_v100,
    main_v101,
    main_v102,
    main_v103,
    main_v104,
    main_v105,
    main_call3.cst.ref,
    main_call3.v0.ref,
    main_call3.v1.ref ]

/-- Part 4 (the operations of Stages.cheb64, ending at main_v169). -/
abbrev seg4 : List (HloOp τ sig (Elt F)) :=
  [ StableHlo.unary main_arg3 main_v107 (broadcastInDim S64x1 ![0] bcast_S64_S64x1_0 : (⟨S64, .f32⟩ : BufTy).Contents (Elt F) → (⟨S64x1, .f32⟩ : BufTy).Contents (Elt F)),
    StableHlo.binary main_arg2 main_v106 main_v108 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v107 main_v109 (broadcastInDim S64x64 ![0, 1] bcast_S64x1_S64x64_0_1 : (⟨S64x1, .f32⟩ : BufTy).Contents (Elt F) → (⟨S64x64, .f32⟩ : BufTy).Contents (Elt F)),
    StableHlo.binary main_v109 main_v108 main_v110 (mulf : (⟨S64x64, .f32⟩ : BufTy).Contents (Elt F) → (⟨S64x64, .f32⟩ : BufTy).Contents (Elt F) → (⟨S64x64, .f32⟩ : BufTy).Contents (Elt F)),
    StableHlo.binary main_arg1 main_v110 main_v111 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg12 main_v112 ((extractStridedSlice S1x64x64 ![0, 0, 0] · slices_S6x64x64_S1x64x64_0_0_0) : (⟨S6x64x64, .f32⟩ : BufTy).Contents (Elt F) → (⟨S1x64x64, .f32⟩ : BufTy).Contents (Elt F)),
    StableHlo.reshape main_v112 main_v113 rfl shapeCasts_S1x64x64_S64x64,
    StableHlo.binary main_v106 main_v113 main_v114 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg12 main_v115 ((extractStridedSlice S1x64x64 ![1, 0, 0] · slices_S6x64x64_S1x64x64_1_0_0) : (⟨S6x64x64, .f32⟩ : BufTy).Contents (Elt F) → (⟨S1x64x64, .f32⟩ : BufTy).Contents (Elt F)),
    StableHlo.reshape main_v115 main_v116 rfl shapeCasts_S1x64x64_S64x64,
    StableHlo.binary main_v111 main_v116 main_v117 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v114 main_v117 main_v118 (addf : (⟨S10000x64, .f32⟩ : BufTy).Contents (Elt F) → (⟨S10000x64, .f32⟩ : BufTy).Contents (Elt F) → (⟨S10000x64, .f32⟩ : BufTy).Contents (Elt F)),
    StableHlo.unary main_arg3 main_v119 (broadcastInDim S64x1 ![0] bcast_S64_S64x1_0 : (⟨S64, .f32⟩ : BufTy).Contents (Elt F) → (⟨S64x1, .f32⟩ : BufTy).Contents (Elt F)),
    StableHlo.binary main_arg2 main_v111 main_v120 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v119 main_v121 (broadcastInDim S64x64 ![0, 1] bcast_S64x1_S64x64_0_1 : (⟨S64x1, .f32⟩ : BufTy).Contents (Elt F) → (⟨S64x64, .f32⟩ : BufTy).Contents (Elt F)),
    StableHlo.binary main_v121 main_v120 main_v122 (mulf : (⟨S64x64, .f32⟩ : BufTy).Contents (Elt F) → (⟨S64x64, .f32⟩ : BufTy).Contents (Elt F) → (⟨S64x64, .f32⟩ : BufTy).Contents (Elt F)),
    StableHlo.binary main_arg1 main_v122 main_v123 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_10 (constant S_ .f32 0x40000000#32),
    StableHlo.unary main_cst_10 main_v124 (broadcastInDim S10000x64 ![] bcast_S_S10000x64 : (⟨S_, .f32⟩ : BufTy).Contents (Elt F) → (⟨S10000x64, .f32⟩ : BufTy).Contents (Elt F)),
    StableHlo.binary main_v124 main_v123 main_v125 (mulf : (⟨S10000x64, .f32⟩ : BufTy).Contents (Elt F) → (⟨S10000x64, .f32⟩ : BufTy).Contents (Elt F) → (⟨S10000x64, .f32⟩ : BufTy).Contents (Elt F)),
    StableHlo.binary main_v125 main_v106 main_v126 (subf : (⟨S10000x64, .f32⟩ : BufTy).Contents (Elt F) → (⟨S10000x64, .f32⟩ : BufTy).Contents (Elt F) → (⟨S10000x64, .f32⟩ : BufTy).Contents (Elt F)),
    StableHlo.unary main_arg12 main_v127 ((extractStridedSlice S1x64x64 ![2, 0, 0] · slices_S6x64x64_S1x64x64_2_0_0) : (⟨S6x64x64, .f32⟩ : BufTy).Contents (Elt F) → (⟨S1x64x64, .f32⟩ : BufTy).Contents (Elt F)),
    StableHlo.reshape main_v127 main_v128 rfl shapeCasts_S1x64x64_S64x64,
    StableHlo.binary main_v126 main_v128 main_v129 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v118 main_v129 main_v130 (addf : (⟨S10000x64, .f32⟩ : BufTy).Contents (Elt F) → (⟨S10000x64, .f32⟩ : BufTy).Contents (Elt F) → (⟨S10000x64, .f32⟩ : BufTy).Contents (Elt F)),
    StableHlo.unary main_arg3 main_v131 (broadcastInDim S64x1 ![0] bcast_S64_S64x1_0 : (⟨S64, .f32⟩ : BufTy).Contents (Elt F) → (⟨S64x1, .f32⟩ : BufTy).Contents (Elt F)),
    StableHlo.binary main_arg2 main_v126 main_v132 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v131 main_v133 (broadcastInDim S64x64 ![0, 1] bcast_S64x1_S64x64_0_1 : (⟨S64x1, .f32⟩ : BufTy).Contents (Elt F) → (⟨S64x64, .f32⟩ : BufTy).Contents (Elt F)),
    StableHlo.binary main_v133 main_v132 main_v134 (mulf : (⟨S64x64, .f32⟩ : BufTy).Contents (Elt F) → (⟨S64x64, .f32⟩ : BufTy).Contents (Elt F) → (⟨S64x64, .f32⟩ : BufTy).Contents (Elt F)),
    StableHlo.binary main_arg1 main_v134 main_v135 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_11 (constant S_ .f32 0x40000000#32),
    StableHlo.unary main_cst_11 main_v136 (broadcastInDim S10000x64 ![] bcast_S_S10000x64 : (⟨S_, .f32⟩ : BufTy).Contents (Elt F) → (⟨S10000x64, .f32⟩ : BufTy).Contents (Elt F)),
    StableHlo.binary main_v136 main_v135 main_v137 (mulf : (⟨S10000x64, .f32⟩ : BufTy).Contents (Elt F) → (⟨S10000x64, .f32⟩ : BufTy).Contents (Elt F) → (⟨S10000x64, .f32⟩ : BufTy).Contents (Elt F)),
    StableHlo.binary main_v137 main_v111 main_v138 (subf : (⟨S10000x64, .f32⟩ : BufTy).Contents (Elt F) → (⟨S10000x64, .f32⟩ : BufTy).Contents (Elt F) → (⟨S10000x64, .f32⟩ : BufTy).Contents (Elt F)),
    StableHlo.unary main_arg12 main_v139 ((extractStridedSlice S1x64x64 ![3, 0, 0] · slices_S6x64x64_S1x64x64_3_0_0) : (⟨S6x64x64, .f32⟩ : BufTy).Contents (Elt F) → (⟨S1x64x64, .f32⟩ : BufTy).Contents (Elt F)),
    StableHlo.reshape main_v139 main_v140 rfl shapeCasts_S1x64x64_S64x64,
    StableHlo.binary main_v138 main_v140 main_v141 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v130 main_v141 main_v142 (addf : (⟨S10000x64, .f32⟩ : BufTy).Contents (Elt F) → (⟨S10000x64, .f32⟩ : BufTy).Contents (Elt F) → (⟨S10000x64, .f32⟩ : BufTy).Contents (Elt F)),
    StableHlo.unary main_arg3 main_v143 (broadcastInDim S64x1 ![0] bcast_S64_S64x1_0 : (⟨S64, .f32⟩ : BufTy).Contents (Elt F) → (⟨S64x1, .f32⟩ : BufTy).Contents (Elt F)),
    StableHlo.binary main_arg2 main_v138 main_v144 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v143 main_v145 (broadcastInDim S64x64 ![0, 1] bcast_S64x1_S64x64_0_1 : (⟨S64x1, .f32⟩ : BufTy).Contents (Elt F) → (⟨S64x64, .f32⟩ : BufTy).Contents (Elt F)),
    StableHlo.binary main_v145 main_v144 main_v146 (mulf : (⟨S64x64, .f32⟩ : BufTy).Contents (Elt F) → (⟨S64x64, .f32⟩ : BufTy).Contents (Elt F) → (⟨S64x64, .f32⟩ : BufTy).Contents (Elt F)),
    StableHlo.binary main_arg1 main_v146 main_v147 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_12 (constant S_ .f32 0x40000000#32),
    StableHlo.unary main_cst_12 main_v148 (broadcastInDim S10000x64 ![] bcast_S_S10000x64 : (⟨S_, .f32⟩ : BufTy).Contents (Elt F) → (⟨S10000x64, .f32⟩ : BufTy).Contents (Elt F)),
    StableHlo.binary main_v148 main_v147 main_v149 (mulf : (⟨S10000x64, .f32⟩ : BufTy).Contents (Elt F) → (⟨S10000x64, .f32⟩ : BufTy).Contents (Elt F) → (⟨S10000x64, .f32⟩ : BufTy).Contents (Elt F)),
    StableHlo.binary main_v149 main_v126 main_v150 (subf : (⟨S10000x64, .f32⟩ : BufTy).Contents (Elt F) → (⟨S10000x64, .f32⟩ : BufTy).Contents (Elt F) → (⟨S10000x64, .f32⟩ : BufTy).Contents (Elt F)),
    StableHlo.unary main_arg12 main_v151 ((extractStridedSlice S1x64x64 ![4, 0, 0] · slices_S6x64x64_S1x64x64_4_0_0) : (⟨S6x64x64, .f32⟩ : BufTy).Contents (Elt F) → (⟨S1x64x64, .f32⟩ : BufTy).Contents (Elt F)),
    StableHlo.reshape main_v151 main_v152 rfl shapeCasts_S1x64x64_S64x64,
    StableHlo.binary main_v150 main_v152 main_v153 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v142 main_v153 main_v154 (addf : (⟨S10000x64, .f32⟩ : BufTy).Contents (Elt F) → (⟨S10000x64, .f32⟩ : BufTy).Contents (Elt F) → (⟨S10000x64, .f32⟩ : BufTy).Contents (Elt F)),
    StableHlo.unary main_arg3 main_v155 (broadcastInDim S64x1 ![0] bcast_S64_S64x1_0 : (⟨S64, .f32⟩ : BufTy).Contents (Elt F) → (⟨S64x1, .f32⟩ : BufTy).Contents (Elt F)),
    StableHlo.binary main_arg2 main_v150 main_v156 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v155 main_v157 (broadcastInDim S64x64 ![0, 1] bcast_S64x1_S64x64_0_1 : (⟨S64x1, .f32⟩ : BufTy).Contents (Elt F) → (⟨S64x64, .f32⟩ : BufTy).Contents (Elt F)),
    StableHlo.binary main_v157 main_v156 main_v158 (mulf : (⟨S64x64, .f32⟩ : BufTy).Contents (Elt F) → (⟨S64x64, .f32⟩ : BufTy).Contents (Elt F) → (⟨S64x64, .f32⟩ : BufTy).Contents (Elt F)),
    StableHlo.binary main_arg1 main_v158 main_v159 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_13 (constant S_ .f32 0x40000000#32),
    StableHlo.unary main_cst_13 main_v160 (broadcastInDim S10000x64 ![] bcast_S_S10000x64 : (⟨S_, .f32⟩ : BufTy).Contents (Elt F) → (⟨S10000x64, .f32⟩ : BufTy).Contents (Elt F)),
    StableHlo.binary main_v160 main_v159 main_v161 (mulf : (⟨S10000x64, .f32⟩ : BufTy).Contents (Elt F) → (⟨S10000x64, .f32⟩ : BufTy).Contents (Elt F) → (⟨S10000x64, .f32⟩ : BufTy).Contents (Elt F)),
    StableHlo.binary main_v161 main_v138 main_v162 (subf : (⟨S10000x64, .f32⟩ : BufTy).Contents (Elt F) → (⟨S10000x64, .f32⟩ : BufTy).Contents (Elt F) → (⟨S10000x64, .f32⟩ : BufTy).Contents (Elt F)),
    StableHlo.unary main_arg12 main_v163 ((extractStridedSlice S1x64x64 ![5, 0, 0] · slices_S6x64x64_S1x64x64_5_0_0) : (⟨S6x64x64, .f32⟩ : BufTy).Contents (Elt F) → (⟨S1x64x64, .f32⟩ : BufTy).Contents (Elt F)),
    StableHlo.reshape main_v163 main_v164 rfl shapeCasts_S1x64x64_S64x64,
    StableHlo.binary main_v162 main_v164 main_v165 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v154 main_v165 main_v166 (addf : (⟨S10000x64, .f32⟩ : BufTy).Contents (Elt F) → (⟨S10000x64, .f32⟩ : BufTy).Contents (Elt F) → (⟨S10000x64, .f32⟩ : BufTy).Contents (Elt F)),
    StableHlo.unary main_arg13 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S10000x64 ![0, 1] bcast_S1x64_S10000x64_0_1 : (⟨S1x64, .f32⟩ : BufTy).Contents (Elt F) → (⟨S10000x64, .f32⟩ : BufTy).Contents (Elt F)),
    StableHlo.binary main_v166 main_v168 main_v169 (addf : (⟨S10000x64, .f32⟩ : BufTy).Contents (Elt F) → (⟨S10000x64, .f32⟩ : BufTy).Contents (Elt F) → (⟨S10000x64, .f32⟩ : BufTy).Contents (Elt F)) ]

/-- The reference each operation of part 4 writes, in the same order. -/
abbrev seg4_W : List (Ref sig .tc) :=
  [ main_v107,
    main_v108,
    main_v109,
    main_v110,
    main_v111,
    main_v112,
    main_v113,
    main_v114,
    main_v115,
    main_v116,
    main_v117,
    main_v118,
    main_v119,
    main_v120,
    main_v121,
    main_v122,
    main_v123,
    main_cst_10,
    main_v124,
    main_v125,
    main_v126,
    main_v127,
    main_v128,
    main_v129,
    main_v130,
    main_v131,
    main_v132,
    main_v133,
    main_v134,
    main_v135,
    main_cst_11,
    main_v136,
    main_v137,
    main_v138,
    main_v139,
    main_v140,
    main_v141,
    main_v142,
    main_v143,
    main_v144,
    main_v145,
    main_v146,
    main_v147,
    main_cst_12,
    main_v148,
    main_v149,
    main_v150,
    main_v151,
    main_v152,
    main_v153,
    main_v154,
    main_v155,
    main_v156,
    main_v157,
    main_v158,
    main_v159,
    main_cst_13,
    main_v160,
    main_v161,
    main_v162,
    main_v163,
    main_v164,
    main_v165,
    main_v166,
    main_v167,
    main_v168,
    main_v169 ]

/-- Part 5 (the operations of Stages.bnRelu64, ending at main_v189). -/
abbrev seg5 : List (HloOp τ sig (Elt F)) :=
  [ StableHlo.nullary main_cst_14 (constant S_ .f32 0x00000000#32),
    StableHlo.binary main_v169 main_cst_14 main_v170 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_15 (constant S_ .f32 0x461C4000#32),
    StableHlo.unary main_cst_15 main_v171 (broadcastInDim S64 ![] bcast_S_S64 : (⟨S_, .f32⟩ : BufTy).Contents (Elt F) → (⟨S64, .f32⟩ : BufTy).Contents (Elt F)),
    StableHlo.binary main_v170 main_v171 main_v172 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call4.cst (constant S_ .f32 0x00000000#32),
    StableHlo.TRef.binary (.of main_v169 : StableHlo.TRef sig ⟨S10000x64, .f32⟩) main_call4.cst main_call4.v0 (fun x v => Host.reduceAdd x v reducesTo_S10000x64_S64_d0 h_S_),
    StableHlo.TRef.unary main_call4.v0 main_call4.v1 (broadcastInDim S1x64 ![1] bcast_S64_S1x64_1),
    StableHlo.TRef.nullary main_call4.cst_0 (constant S_ .f32 0x461C4000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S10000x64 ![0, 1] bcast_S1x64_S10000x64_0_1),
    StableHlo.TRef.binary (.of main_v169 : StableHlo.TRef sig ⟨S10000x64, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x461C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S10000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v172 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S10000x64 ![0, 1] bcast_S1x64_S10000x64_0_1 : (⟨S1x64, .f32⟩ : BufTy).Contents (Elt F) → (⟨S10000x64, .f32⟩ : BufTy).Contents (Elt F)),
    StableHlo.binary main_v169 main_v175 main_v176 (subf : (⟨S10000x64, .f32⟩ : BufTy).Contents (Elt F) → (⟨S10000x64, .f32⟩ : BufTy).Contents (Elt F) → (⟨S10000x64, .f32⟩ : BufTy).Contents (Elt F)),
    StableHlo.nullary main_cst_17 (constant S_ .f32 0x3A83126F#32),
    StableHlo.unary main_cst_17 main_v177 (broadcastInDim S64 ![] bcast_S_S64 : (⟨S_, .f32⟩ : BufTy).Contents (Elt F) → (⟨S64, .f32⟩ : BufTy).Contents (Elt F)),
    StableHlo.binary main_v173 main_v177 main_v178 (addf : (⟨S64, .f32⟩ : BufTy).Contents (Elt F) → (⟨S64, .f32⟩ : BufTy).Contents (Elt F) → (⟨S64, .f32⟩ : BufTy).Contents (Elt F)),
    StableHlo.unary main_v178 main_v179 (Host.rsqrt : (⟨S64, .f32⟩ : BufTy).Contents (Elt F) → (⟨S64, .f32⟩ : BufTy).Contents (Elt F)),
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S10000x64 ![0, 1] bcast_S1x64_S10000x64_0_1 : (⟨S1x64, .f32⟩ : BufTy).Contents (Elt F) → (⟨S10000x64, .f32⟩ : BufTy).Contents (Elt F)),
    StableHlo.binary main_v176 main_v181 main_v182 (mulf : (⟨S10000x64, .f32⟩ : BufTy).Contents (Elt F) → (⟨S10000x64, .f32⟩ : BufTy).Contents (Elt F) → (⟨S10000x64, .f32⟩ : BufTy).Contents (Elt F)),
    StableHlo.unary main_arg14 main_v183 (broadcastInDim S1x64 ![1] bcast_S64_S1x64_1 : (⟨S64, .f32⟩ : BufTy).Contents (Elt F) → (⟨S1x64, .f32⟩ : BufTy).Contents (Elt F)),
    StableHlo.unary main_v183 main_v184 (broadcastInDim S10000x64 ![0, 1] bcast_S1x64_S10000x64_0_1 : (⟨S1x64, .f32⟩ : BufTy).Contents (Elt F) → (⟨S10000x64, .f32⟩ : BufTy).Contents (Elt F)),
    StableHlo.binary main_v182 main_v184 main_v185 (mulf : (⟨S10000x64, .f32⟩ : BufTy).Contents (Elt F) → (⟨S10000x64, .f32⟩ : BufTy).Contents (Elt F) → (⟨S10000x64, .f32⟩ : BufTy).Contents (Elt F)),
    StableHlo.unary main_arg15 main_v186 (broadcastInDim S1x64 ![1] bcast_S64_S1x64_1 : (⟨S64, .f32⟩ : BufTy).Contents (Elt F) → (⟨S1x64, .f32⟩ : BufTy).Contents (Elt F)),
    StableHlo.unary main_v186 main_v187 (broadcastInDim S10000x64 ![0, 1] bcast_S1x64_S10000x64_0_1 : (⟨S1x64, .f32⟩ : BufTy).Contents (Elt F) → (⟨S10000x64, .f32⟩ : BufTy).Contents (Elt F)),
    StableHlo.binary main_v185 main_v187 main_v188 (addf : (⟨S10000x64, .f32⟩ : BufTy).Contents (Elt F) → (⟨S10000x64, .f32⟩ : BufTy).Contents (Elt F) → (⟨S10000x64, .f32⟩ : BufTy).Contents (Elt F)),
    StableHlo.TRef.nullary main_call5.cst (constant S_ .f32 0x00000000#32),
    StableHlo.TRef.unary main_call5.cst main_call5.v0 (broadcastInDim S10000x64 ![] bcast_S_S10000x64),
    StableHlo.TRef.binary (.of main_v188 : StableHlo.TRef sig ⟨S10000x64, .f32⟩) main_call5.v0 main_call5.v1 maximumf ]

/-- The reference each operation of part 5 writes, in the same order. -/
abbrev seg5_W : List (Ref sig .tc) :=
  [ main_cst_14,
    main_v170,
    main_cst_15,
    main_v171,
    main_v172,
    main_c_16,
    main_call4.cst.ref,
    main_call4.v0.ref,
    main_call4.v1.ref,
    main_call4.cst_0.ref,
    main_call4.v2.ref,
    main_call4.v3.ref,
    main_call4.v4.ref,
    main_call4.v5.ref,
    main_call4.v6.ref,
    main_call4.v7.ref,
    main_call4.cst_1.ref,
    main_call4.v8.ref,
    main_call4.cst_2.ref,
    main_call4.v9.ref,
    main_call4.v10.ref,
    main_call4.v11.ref,
    main_call4.cst_3.ref,
    main_call4.v12.ref,
    main_call4.cst_4.ref,
    main_call4.call0.v0.ref,
    main_call4.call0.v1.ref,
    main_call4.call0.v2.ref,
    main_v174,
    main_v175,
    main_v176,
    main_cst_17,
    main_v177,
    main_v178,
    main_v179,
    main_v180,
    main_v181,
    main_v182,
    main_v183,
    main_v184,
    main_v185,
    main_v186,
    main_v187,
    main_v188,
    main_call5.cst.ref,
    main_call5.v0.ref,
    main_call5.v1.ref ]

end Cert.ReferenceIdeal.RefRun

end
-- ==== Proof.RefValB.lean ====
/-
  Parts 3 to 5 of @main's operations, read back. Each part is a straight line of operations over literal
  references; each operation writes exactly one reference (`segJ_W` lists them in order), so a reference outside
  that list is left as it was (`segJ_keeps`). The fold of a part's operations at its last result is computed by
  unrolling it: at the reference an operation writes, the fold is the operation's function of the fold at its
  operands one step earlier; at any other reference it is the fold one step earlier; the references are literals,
  so which case applies is decided. What remains at the end is the composition of the operations' functions over
  the contents the part started from, which is the stage's definition in RefStages.lean line by line (the typed
  references of a module-local function's operations carry their contents along an equation that is `rfl` at
  these literal references, so the transports are the identity).
-/
import proofs.«135777_j83262236000435_2_alg».proof.Proof.RefRunSegsB
import proofs.«135777_j83262236000435_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Each operation of part 3 writes the one reference listed at its place in `seg3_W`. -/
theorem seg3_writes : (seg3 : List (HloOp τ sig (Elt F))).Forall fun op =>
    op.writes ⊆ (seg3_W.map (Proc.devRef (τ := τ) .tc)).toFinset := by
  simp only [seg3, List.Forall]
  repeat' apply And.intro
  all_goals
    simp only [nullary_writes, unary_writes, binary_writes, ternary_writes, reshape_writes,
      Finset.singleton_subset_iff, List.mem_toFinset]
    exact List.mem_map_of_mem (by decide)

/-- A reference part 3 does not write holds after it what it held before. -/
theorem seg3_keeps (W : Valuation τ sig (Elt F)) (r : Ref sig .tc) (h : r ∉ seg3_W) :
    after seg3 W (Proc.devRef .tc r) = W (Proc.devRef .tc r) :=
  after_of_writes_sub seg3 W seg3_writes h

set_option maxRecDepth 16384 in
set_option maxHeartbeats 4000000 in
/-- Part 3 leaves at its last result the stage's function of the contents it started from. -/
theorem seg3_val (W : Valuation τ sig (Elt F)) :
    after seg3 W (main_v106 : DevRef τ sig)
      = Stages.bnRelu64 (W (main_v86 : DevRef τ sig)) (W (main_arg10 : DevRef τ sig)) (W (main_arg11 : DevRef τ sig)) := by
  simp only [seg3]
  after_results_simp
  rfl

set_option maxRecDepth 16384 in
set_option maxHeartbeats 4000000 in
/-- Each operation of part 4 writes the one reference listed at its place in `seg4_W`. -/
theorem seg4_writes : (seg4 : List (HloOp τ sig (Elt F))).Forall fun op =>
    op.writes ⊆ (seg4_W.map (Proc.devRef (τ := τ) .tc)).toFinset := by
  simp only [seg4, List.Forall]
  repeat' apply And.intro
  all_goals
    simp only [nullary_writes, unary_writes, binary_writes, ternary_writes, reshape_writes,
      Finset.singleton_subset_iff, List.mem_toFinset]
    exact List.mem_map_of_mem (by decide)

/-- A reference part 4 does not write holds after it what it held before. -/
theorem seg4_keeps (W : Valuation τ sig (Elt F)) (r : Ref sig .tc) (h : r ∉ seg4_W) :
    after seg4 W (Proc.devRef .tc r) = W (Proc.devRef .tc r) :=
  after_of_writes_sub seg4 W seg4_writes h

set_option maxRecDepth 16384 in
set_option maxHeartbeats 4000000 in
/-- Part 4 leaves at its last result the stage's function of the contents it started from. -/
theorem seg4_val (W : Valuation τ sig (Elt F)) :
    after seg4 W (main_v169 : DevRef τ sig)
      = Stages.cheb64 (W (main_v106 : DevRef τ sig)) (W (main_arg1 : DevRef τ sig)) (W (main_arg2 : DevRef τ sig)) (W (main_arg3 : DevRef τ sig)) (W (main_arg12 : DevRef τ sig)) (W (main_arg13 : DevRef τ sig)) := by
  simp only [seg4]
  after_results_simp
  rfl

set_option maxRecDepth 16384 in
set_option maxHeartbeats 4000000 in
/-- Each operation of part 5 writes the one reference listed at its place in `seg5_W`. -/
theorem seg5_writes : (seg5 : List (HloOp τ sig (Elt F))).Forall fun op =>
    op.writes ⊆ (seg5_W.map (Proc.devRef (τ := τ) .tc)).toFinset := by
  simp only [seg5, List.Forall]
  repeat' apply And.intro
  all_goals
    simp only [nullary_writes, unary_writes, binary_writes, ternary_writes, reshape_writes,
      Finset.singleton_subset_iff, List.mem_toFinset]
    exact List.mem_map_of_mem (by decide)

/-- A reference part 5 does not write holds after it what it held before. -/
theorem seg5_keeps (W : Valuation τ sig (Elt F)) (r : Ref sig .tc) (h : r ∉ seg5_W) :
    after seg5 W (Proc.devRef .tc r) = W (Proc.devRef .tc r) :=
  after_of_writes_sub seg5 W seg5_writes h

set_option maxRecDepth 16384 in
set_option maxHeartbeats 4000000 in
/-- Part 5 leaves at its last result the stage's function of the contents it started from. -/
theorem seg5_val (W : Valuation τ sig (Elt F)) :
    after seg5 W (main_v189 : DevRef τ sig)
      = Stages.bnRelu64 (W (main_v169 : DevRef τ sig)) (W (main_arg14 : DevRef τ sig)) (W (main_arg15 : DevRef τ sig)) := by
  simp only [seg5]
  after_results_simp
  rfl

end Cert.ReferenceIdeal.RefRun

end
-- ==== Proof.RefRunSegsC.lean ====
/- Parts 6 to 8 of the twelve consecutive parts of @main's operations (the calls unfolded) that the stages of
   RefStages.lean transcribe: each part's operations in order, their text as the program states them, and the
   reference each operation writes. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 6 (the operations of Stages.cheb128, ending at main_v252). -/
abbrev seg6 : List (HloOp τ sig (Elt F)) :=
  [ StableHlo.unary main_arg3 main_v190 (broadcastInDim S64x1 ![0] bcast_S64_S64x1_0 : (⟨S64, .f32⟩ : BufTy).Contents (Elt F) → (⟨S64x1, .f32⟩ : BufTy).Contents (Elt F)),
    StableHlo.binary main_arg2 main_v189 main_v191 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v190 main_v192 (broadcastInDim S64x64 ![0, 1] bcast_S64x1_S64x64_0_1 : (⟨S64x1, .f32⟩ : BufTy).Contents (Elt F) → (⟨S64x64, .f32⟩ : BufTy).Contents (Elt F)),
    StableHlo.binary main_v192 main_v191 main_v193 (mulf : (⟨S64x64, .f32⟩ : BufTy).Contents (Elt F) → (⟨S64x64, .f32⟩ : BufTy).Contents (Elt F) → (⟨S64x64, .f32⟩ : BufTy).Contents (Elt F)),
    StableHlo.binary main_arg1 main_v193 main_v194 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg16 main_v195 ((extractStridedSlice S1x64x128 ![0, 0, 0] · slices_S6x64x128_S1x64x128_0_0_0) : (⟨S6x64x128, .f32⟩ : BufTy).Contents (Elt F) → (⟨S1x64x128, .f32⟩ : BufTy).Contents (Elt F)),
    StableHlo.reshape main_v195 main_v196 rfl shapeCasts_S1x64x128_S64x128,
    StableHlo.binary main_v189 main_v196 main_v197 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.unary main_arg16 main_v198 ((extractStridedSlice S1x64x128 ![1, 0, 0] · slices_S6x64x128_S1x64x128_1_0_0) : (⟨S6x64x128, .f32⟩ : BufTy).Contents (Elt F) → (⟨S1x64x128, .f32⟩ : BufTy).Contents (Elt F)),
    StableHlo.reshape main_v198 main_v199 rfl shapeCasts_S1x64x128_S64x128,
    StableHlo.binary main_v194 main_v199 main_v200 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v197 main_v200 main_v201 (addf : (⟨S10000x128, .f32⟩ : BufTy).Contents (Elt F) → (⟨S10000x128, .f32⟩ : BufTy).Contents (Elt F) → (⟨S10000x128, .f32⟩ : BufTy).Contents (Elt F)),
    StableHlo.unary main_arg3 main_v202 (broadcastInDim S64x1 ![0] bcast_S64_S64x1_0 : (⟨S64, .f32⟩ : BufTy).Contents (Elt F) → (⟨S64x1, .f32⟩ : BufTy).Contents (Elt F)),
    StableHlo.binary main_arg2 main_v194 main_v203 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v202 main_v204 (broadcastInDim S64x64 ![0, 1] bcast_S64x1_S64x64_0_1 : (⟨S64x1, .f32⟩ : BufTy).Contents (Elt F) → (⟨S64x64, .f32⟩ : BufTy).Contents (Elt F)),
    StableHlo.binary main_v204 main_v203 main_v205 (mulf : (⟨S64x64, .f32⟩ : BufTy).Contents (Elt F) → (⟨S64x64, .f32⟩ : BufTy).Contents (Elt F) → (⟨S64x64, .f32⟩ : BufTy).Contents (Elt F)),
    StableHlo.binary main_arg1 main_v205 main_v206 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_18 (constant S_ .f32 0x40000000#32),
    StableHlo.unary main_cst_18 main_v207 (broadcastInDim S10000x64 ![] bcast_S_S10000x64 : (⟨S_, .f32⟩ : BufTy).Contents (Elt F) → (⟨S10000x64, .f32⟩ : BufTy).Contents (Elt F)),
    StableHlo.binary main_v207 main_v206 main_v208 (mulf : (⟨S10000x64, .f32⟩ : BufTy).Contents (Elt F) → (⟨S10000x64, .f32⟩ : BufTy).Contents (Elt F) → (⟨S10000x64, .f32⟩ : BufTy).Contents (Elt F)),
    StableHlo.binary main_v208 main_v189 main_v209 (subf : (⟨S10000x64, .f32⟩ : BufTy).Contents (Elt F) → (⟨S10000x64, .f32⟩ : BufTy).Contents (Elt F) → (⟨S10000x64, .f32⟩ : BufTy).Contents (Elt F)),
    StableHlo.unary main_arg16 main_v210 ((extractStridedSlice S1x64x128 ![2, 0, 0] · slices_S6x64x128_S1x64x128_2_0_0) : (⟨S6x64x128, .f32⟩ : BufTy).Contents (Elt F) → (⟨S1x64x128, .f32⟩ : BufTy).Contents (Elt F)),
    StableHlo.reshape main_v210 main_v211 rfl shapeCasts_S1x64x128_S64x128,
    StableHlo.binary main_v209 main_v211 main_v212 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v201 main_v212 main_v213 (addf : (⟨S10000x128, .f32⟩ : BufTy).Contents (Elt F) → (⟨S10000x128, .f32⟩ : BufTy).Contents (Elt F) → (⟨S10000x128, .f32⟩ : BufTy).Contents (Elt F)),
    StableHlo.unary main_arg3 main_v214 (broadcastInDim S64x1 ![0] bcast_S64_S64x1_0 : (⟨S64, .f32⟩ : BufTy).Contents (Elt F) → (⟨S64x1, .f32⟩ : BufTy).Contents (Elt F)),
    StableHlo.binary main_arg2 main_v209 main_v215 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v214 main_v216 (broadcastInDim S64x64 ![0, 1] bcast_S64x1_S64x64_0_1 : (⟨S64x1, .f32⟩ : BufTy).Contents (Elt F) → (⟨S64x64, .f32⟩ : BufTy).Contents (Elt F)),
    StableHlo.binary main_v216 main_v215 main_v217 (mulf : (⟨S64x64, .f32⟩ : BufTy).Contents (Elt F) → (⟨S64x64, .f32⟩ : BufTy).Contents (Elt F) → (⟨S64x64, .f32⟩ : BufTy).Contents (Elt F)),
    StableHlo.binary main_arg1 main_v217 main_v218 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_19 (constant S_ .f32 0x40000000#32),
    StableHlo.unary main_cst_19 main_v219 (broadcastInDim S10000x64 ![] bcast_S_S10000x64 : (⟨S_, .f32⟩ : BufTy).Contents (Elt F) → (⟨S10000x64, .f32⟩ : BufTy).Contents (Elt F)),
    StableHlo.binary main_v219 main_v218 main_v220 (mulf : (⟨S10000x64, .f32⟩ : BufTy).Contents (Elt F) → (⟨S10000x64, .f32⟩ : BufTy).Contents (Elt F) → (⟨S10000x64, .f32⟩ : BufTy).Contents (Elt F)),
    StableHlo.binary main_v220 main_v194 main_v221 (subf : (⟨S10000x64, .f32⟩ : BufTy).Contents (Elt F) → (⟨S10000x64, .f32⟩ : BufTy).Contents (Elt F) → (⟨S10000x64, .f32⟩ : BufTy).Contents (Elt F)),
    StableHlo.unary main_arg16 main_v222 ((extractStridedSlice S1x64x128 ![3, 0, 0] · slices_S6x64x128_S1x64x128_3_0_0) : (⟨S6x64x128, .f32⟩ : BufTy).Contents (Elt F) → (⟨S1x64x128, .f32⟩ : BufTy).Contents (Elt F)),
    StableHlo.reshape main_v222 main_v223 rfl shapeCasts_S1x64x128_S64x128,
    StableHlo.binary main_v221 main_v223 main_v224 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v213 main_v224 main_v225 (addf : (⟨S10000x128, .f32⟩ : BufTy).Contents (Elt F) → (⟨S10000x128, .f32⟩ : BufTy).Contents (Elt F) → (⟨S10000x128, .f32⟩ : BufTy).Contents (Elt F)),
    StableHlo.unary main_arg3 main_v226 (broadcastInDim S64x1 ![0] bcast_S64_S64x1_0 : (⟨S64, .f32⟩ : BufTy).Contents (Elt F) → (⟨S64x1, .f32⟩ : BufTy).Contents (Elt F)),
    StableHlo.binary main_arg2 main_v221 main_v227 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v226 main_v228 (broadcastInDim S64x64 ![0, 1] bcast_S64x1_S64x64_0_1 : (⟨S64x1, .f32⟩ : BufTy).Contents (Elt F) → (⟨S64x64, .f32⟩ : BufTy).Contents (Elt F)),
    StableHlo.binary main_v228 main_v227 main_v229 (mulf : (⟨S64x64, .f32⟩ : BufTy).Contents (Elt F) → (⟨S64x64, .f32⟩ : BufTy).Contents (Elt F) → (⟨S64x64, .f32⟩ : BufTy).Contents (Elt F)),
    StableHlo.binary main_arg1 main_v229 main_v230 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_20 (constant S_ .f32 0x40000000#32),
    StableHlo.unary main_cst_20 main_v231 (broadcastInDim S10000x64 ![] bcast_S_S10000x64 : (⟨S_, .f32⟩ : BufTy).Contents (Elt F) → (⟨S10000x64, .f32⟩ : BufTy).Contents (Elt F)),
    StableHlo.binary main_v231 main_v230 main_v232 (mulf : (⟨S10000x64, .f32⟩ : BufTy).Contents (Elt F) → (⟨S10000x64, .f32⟩ : BufTy).Contents (Elt F) → (⟨S10000x64, .f32⟩ : BufTy).Contents (Elt F)),
    StableHlo.binary main_v232 main_v209 main_v233 (subf : (⟨S10000x64, .f32⟩ : BufTy).Contents (Elt F) → (⟨S10000x64, .f32⟩ : BufTy).Contents (Elt F) → (⟨S10000x64, .f32⟩ : BufTy).Contents (Elt F)),
    StableHlo.unary main_arg16 main_v234 ((extractStridedSlice S1x64x128 ![4, 0, 0] · slices_S6x64x128_S1x64x128_4_0_0) : (⟨S6x64x128, .f32⟩ : BufTy).Contents (Elt F) → (⟨S1x64x128, .f32⟩ : BufTy).Contents (Elt F)),
    StableHlo.reshape main_v234 main_v235 rfl shapeCasts_S1x64x128_S64x128,
    StableHlo.binary main_v233 main_v235 main_v236 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v225 main_v236 main_v237 (addf : (⟨S10000x128, .f32⟩ : BufTy).Contents (Elt F) → (⟨S10000x128, .f32⟩ : BufTy).Contents (Elt F) → (⟨S10000x128, .f32⟩ : BufTy).Contents (Elt F)),
    StableHlo.unary main_arg3 main_v238 (broadcastInDim S64x1 ![0] bcast_S64_S64x1_0 : (⟨S64, .f32⟩ : BufTy).Contents (Elt F) → (⟨S64x1, .f32⟩ : BufTy).Contents (Elt F)),
    StableHlo.binary main_arg2 main_v233 main_v239 ((fun l r => Host.dotGeneral dot_S64x10000_S10000x64_S64x64_1_0_0_1_n_n none l r) : (⟨S64x10000, .f32⟩ : BufTy).Contents (Elt F) → (⟨S10000x64, .f32⟩ : BufTy).Contents (Elt F) → (⟨S64x64, .f32⟩ : BufTy).Contents (Elt F)),
    StableHlo.unary main_v238 main_v240 (broadcastInDim S64x64 ![0, 1] bcast_S64x1_S64x64_0_1 : (⟨S64x1, .f32⟩ : BufTy).Contents (Elt F) → (⟨S64x64, .f32⟩ : BufTy).Contents (Elt F)),
    StableHlo.binary main_v240 main_v239 main_v241 (mulf : (⟨S64x64, .f32⟩ : BufTy).Contents (Elt F) → (⟨S64x64, .f32⟩ : BufTy).Contents (Elt F) → (⟨S64x64, .f32⟩ : BufTy).Contents (Elt F)),
    StableHlo.binary main_arg1 main_v241 main_v242 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.nullary main_cst_21 (constant S_ .f32 0x40000000#32),
    StableHlo.unary main_cst_21 main_v243 (broadcastInDim S10000x64 ![] bcast_S_S10000x64 : (⟨S_, .f32⟩ : BufTy).Contents (Elt F) → (⟨S10000x64, .f32⟩ : BufTy).Contents (Elt F)),
    StableHlo.binary main_v243 main_v242 main_v244 (mulf : (⟨S10000x64, .f32⟩ : BufTy).Contents (Elt F) → (⟨S10000x64, .f32⟩ : BufTy).Contents (Elt F) → (⟨S10000x64, .f32⟩ : BufTy).Contents (Elt F)),
    StableHlo.binary main_v244 main_v221 main_v245 (subf : (⟨S10000x64, .f32⟩ : BufTy).Contents (Elt F) → (⟨S10000x64, .f32⟩ : BufTy).Contents (Elt F) → (⟨S10000x64, .f32⟩ : BufTy).Contents (Elt F)),
    StableHlo.unary main_arg16 main_v246 ((extractStridedSlice S1x64x128 ![5, 0, 0] · slices_S6x64x128_S1x64x128_5_0_0) : (⟨S6x64x128, .f32⟩ : BufTy).Contents (Elt F) → (⟨S1x64x128, .f32⟩ : BufTy).Contents (Elt F)),
    StableHlo.reshape main_v246 main_v247 rfl shapeCasts_S1x64x128_S64x128,
    StableHlo.binary main_v245 main_v247 main_v248 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    StableHlo.binary main_v237 main_v248 main_v249 (addf : (⟨S10000x128, .f32⟩ : BufTy).Contents (Elt F) → (⟨S10000x128, .f32⟩ : BufTy).Contents (Elt F) → (⟨S10000x128, .f32⟩ : BufTy).Contents (Elt F)),
    StableHlo.unary main_arg17 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S10000x128 ![0, 1] bcast_S1x128_S10000x128_0_1 : (⟨S1x128, .f32⟩ : BufTy).Contents (Elt F) → (⟨S10000x128, .f32⟩ : BufTy).Contents (Elt F)),
    StableHlo.binary main_v249 main_v251 main_v252 (addf : (⟨S10000x128, .f32⟩ : BufTy).Contents (Elt F) → (⟨S10000x128, .f32⟩ : BufTy).Contents (Elt F) → (⟨S10000x128, .f32⟩ : BufTy).Contents (Elt F)) ]

/-- The reference each operation of part 6 writes, in the same order. -/
abbrev seg6_W : List (Ref sig .tc) :=
  [ main_v190,
    main_v191,
    main_v192,
    main_v193,
    main_v194,
    main_v195,
    main_v196,
    main_v197,
    main_v198,
    main_v199,
    main_v200,
    main_v201,
    main_v202,
    main_v203,
    main_v204,
    main_v205,
    main_v206,
    main_cst_18,
    main_v207,
    main_v208,
    main_v209,
    main_v210,
    main_v211,
    main_v212,
    main_v213,
    main_v214,
    main_v215,
    main_v216,
    main_v217,
    main_v218,
    main_cst_19,
    main_v219,
    main_v220,
    main_v221,
    main_v222,
    main_v223,
    main_v224,
    main_v225,
    main_v226,
    main_v227,
    main_v228,
    main_v229,
    main_v230,
    main_cst_20,
    main_v231,
    main_v232,
    main_v233,
    main_v234,
    main_v235,
    main_v236,
    main_v237,
    main_v238,
    main_v239,
    main_v240,
    main_v241,
    main_v242,
    main_cst_21,
    main_v243,
    main_v244,
    main_v245,
    main_v246,
    main_v247,
    main_v248,
    main_v249,
    main_v250,
    main_v251,
    main_v252 ]

/-- Part 7 (the operations of Stages.bnRelu128, ending at main_v272). -/
abbrev seg7 : List (HloOp τ sig (Elt F)) :=
  [ StableHlo.nullary main_cst_22 (constant S_ .f32 0x00000000#32),
    StableHlo.binary main_v252 main_cst_22 main_v253 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_23 (constant S_ .f32 0x461C4000#32),
    StableHlo.unary main_cst_23 main_v254 (broadcastInDim S128 ![] bcast_S_S128 : (⟨S_, .f32⟩ : BufTy).Contents (Elt F) → (⟨S128, .f32⟩ : BufTy).Contents (Elt F)),
    StableHlo.binary main_v253 main_v254 main_v255 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (.of main_v252 : StableHlo.TRef sig ⟨S10000x128, .f32⟩) main_call6.cst main_call6.v0 (fun x v => Host.reduceAdd x v reducesTo_S10000x128_S128_d0 h_S_),
    StableHlo.TRef.unary main_call6.v0 main_call6.v1 (broadcastInDim S1x128 ![1] bcast_S128_S1x128_1),
    StableHlo.TRef.nullary main_call6.cst_0 (constant S_ .f32 0x461C4000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S10000x128 ![0, 1] bcast_S1x128_S10000x128_0_1),
    StableHlo.TRef.binary (.of main_v252 : StableHlo.TRef sig ⟨S10000x128, .f32⟩) main_call6.v4 main_call6.v5 subf,
    StableHlo.TRef.binary main_call6.v5 main_call6.v5 main_call6.v6 mulf,
    StableHlo.TRef.unary (.of main_c_24 : StableHlo.TRef sig ⟨S_, .i32⟩) main_call6.v7 (sitofp .f32),
    StableHlo.TRef.nullary main_call6.cst_1 (constant S_ .f32 0x461C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S10000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v255 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S10000x128 ![0, 1] bcast_S1x128_S10000x128_0_1 : (⟨S1x128, .f32⟩ : BufTy).Contents (Elt F) → (⟨S10000x128, .f32⟩ : BufTy).Contents (Elt F)),
    StableHlo.binary main_v252 main_v258 main_v259 (subf : (⟨S10000x128, .f32⟩ : BufTy).Contents (Elt F) → (⟨S10000x128, .f32⟩ : BufTy).Contents (Elt F) → (⟨S10000x128, .f32⟩ : BufTy).Contents (Elt F)),
    StableHlo.nullary main_cst_25 (constant S_ .f32 0x3A83126F#32),
    StableHlo.unary main_cst_25 main_v260 (broadcastInDim S128 ![] bcast_S_S128 : (⟨S_, .f32⟩ : BufTy).Contents (Elt F) → (⟨S128, .f32⟩ : BufTy).Contents (Elt F)),
    StableHlo.binary main_v256 main_v260 main_v261 (addf : (⟨S128, .f32⟩ : BufTy).Contents (Elt F) → (⟨S128, .f32⟩ : BufTy).Contents (Elt F) → (⟨S128, .f32⟩ : BufTy).Contents (Elt F)),
    StableHlo.unary main_v261 main_v262 (Host.rsqrt : (⟨S128, .f32⟩ : BufTy).Contents (Elt F) → (⟨S128, .f32⟩ : BufTy).Contents (Elt F)),
    StableHlo.unary main_v262 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S10000x128 ![0, 1] bcast_S1x128_S10000x128_0_1 : (⟨S1x128, .f32⟩ : BufTy).Contents (Elt F) → (⟨S10000x128, .f32⟩ : BufTy).Contents (Elt F)),
    StableHlo.binary main_v259 main_v264 main_v265 (mulf : (⟨S10000x128, .f32⟩ : BufTy).Contents (Elt F) → (⟨S10000x128, .f32⟩ : BufTy).Contents (Elt F) → (⟨S10000x128, .f32⟩ : BufTy).Contents (Elt F)),
    StableHlo.unary main_arg18 main_v266 (broadcastInDim S1x128 ![1] bcast_S128_S1x128_1 : (⟨S128, .f32⟩ : BufTy).Contents (Elt F) → (⟨S1x128, .f32⟩ : BufTy).Contents (Elt F)),
    StableHlo.unary main_v266 main_v267 (broadcastInDim S10000x128 ![0, 1] bcast_S1x128_S10000x128_0_1 : (⟨S1x128, .f32⟩ : BufTy).Contents (Elt F) → (⟨S10000x128, .f32⟩ : BufTy).Contents (Elt F)),
    StableHlo.binary main_v265 main_v267 main_v268 (mulf : (⟨S10000x128, .f32⟩ : BufTy).Contents (Elt F) → (⟨S10000x128, .f32⟩ : BufTy).Contents (Elt F) → (⟨S10000x128, .f32⟩ : BufTy).Contents (Elt F)),
    StableHlo.unary main_arg19 main_v269 (broadcastInDim S1x128 ![1] bcast_S128_S1x128_1 : (⟨S128, .f32⟩ : BufTy).Contents (Elt F) → (⟨S1x128, .f32⟩ : BufTy).Contents (Elt F)),
    StableHlo.unary main_v269 main_v270 (broadcastInDim S10000x128 ![0, 1] bcast_S1x128_S10000x128_0_1 : (⟨S1x128, .f32⟩ : BufTy).Contents (Elt F) → (⟨S10000x128, .f32⟩ : BufTy).Contents (Elt F)),
    StableHlo.binary main_v268 main_v270 main_v271 (addf : (⟨S10000x128, .f32⟩ : BufTy).Contents (Elt F) → (⟨S10000x128, .f32⟩ : BufTy).Contents (Elt F) → (⟨S10000x128, .f32⟩ : BufTy).Contents (Elt F)),
    StableHlo.TRef.nullary main_call7.cst (constant S_ .f32 0x00000000#32),
    StableHlo.TRef.unary main_call7.cst main_call7.v0 (broadcastInDim S10000x128 ![] bcast_S_S10000x128),
    StableHlo.TRef.binary (.of main_v271 : StableHlo.TRef sig ⟨S10000x128, .f32⟩) main_call7.v0 main_call7.v1 maximumf ]

/-- The reference each operation of part 7 writes, in the same order. -/
abbrev seg7_W : List (Ref sig .tc) :=
  [ main_cst_22,
    main_v253,
    main_cst_23,
    main_v254,
    main_v255,
    main_c_24,
    main_call6.cst.ref,
    main_call6.v0.ref,
    main_call6.v1.ref,
    main_call6.cst_0.ref,
    main_call6.v2.ref,
    main_call6.v3.ref,
    main_call6.v4.ref,
    main_call6.v5.ref,
    main_call6.v6.ref,
    main_call6.v7.ref,
    main_call6.cst_1.ref,
    main_call6.v8.ref,
    main_call6.cst_2.ref,
    main_call6.v9.ref,
    main_call6.v10.ref,
    main_call6.v11.ref,
    main_call6.cst_3.ref,
    main_call6.v12.ref,
    main_call6.cst_4.ref,
    main_call6.call0.v0.ref,
    main_call6.call0.v1.ref,
    main_call6.call0.v2.ref,
    main_v257,
    main_v258,
    main_v259,
    main_cst_25,
    main_v260,
    main_v261,
    main_v262,
    main_v263,
    main_v264,
    main_v265,
    main_v266,
    main_v267,
    main_v268,
    main_v269,
    main_v270,
    main_v271,
    main_call7.cst.ref,
    main_call7.v0.ref,
    main_call7.v1.ref ]

/-- Part 8 (the operations of Stages.denseDesc, ending at main_v276). -/
abbrev seg8 : List (HloOp τ sig (Elt F)) :=
  [ StableHlo.binary main_v272 main_arg20 main_v273 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.unary main_arg21 main_v274 (broadcastInDim S1x256 ![1] bcast_S256_S1x256_1 : (⟨S256, .f32⟩ : BufTy).Contents (Elt F) → (⟨S1x256, .f32⟩ : BufTy).Contents (Elt F)),
    StableHlo.unary main_v274 main_v275 (broadcastInDim S10000x256 ![0, 1] bcast_S1x256_S10000x256_0_1 : (⟨S1x256, .f32⟩ : BufTy).Contents (Elt F) → (⟨S10000x256, .f32⟩ : BufTy).Contents (Elt F)),
    StableHlo.binary main_v273 main_v275 main_v276 (addf : (⟨S10000x256, .f32⟩ : BufTy).Contents (Elt F) → (⟨S10000x256, .f32⟩ : BufTy).Contents (Elt F) → (⟨S10000x256, .f32⟩ : BufTy).Contents (Elt F)) ]

/-- The reference each operation of part 8 writes, in the same order. -/
abbrev seg8_W : List (Ref sig .tc) :=
  [ main_v273,
    main_v274,
    main_v275,
    main_v276 ]

end Cert.ReferenceIdeal.RefRun

end
-- ==== Proof.RefValC.lean ====
/-
  Parts 6 to 8 of @main's operations, read back. Each part is a straight line of operations over literal
  references; each operation writes exactly one reference (`segJ_W` lists them in order), so a reference outside
  that list is left as it was (`segJ_keeps`). The fold of a part's operations at its last result is computed by
  unrolling it: at the reference an operation writes, the fold is the operation's function of the fold at its
  operands one step earlier; at any other reference it is the fold one step earlier; the references are literals,
  so which case applies is decided. What remains at the end is the composition of the operations' functions over
  the contents the part started from, which is the stage's definition in RefStages.lean line by line (the typed
  references of a module-local function's operations carry their contents along an equation that is `rfl` at
  these literal references, so the transports are the identity).
-/
import proofs.«135777_j83262236000435_2_alg».proof.Proof.RefRunSegsC
import proofs.«135777_j83262236000435_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Each operation of part 6 writes the one reference listed at its place in `seg6_W`. -/
theorem seg6_writes : (seg6 : List (HloOp τ sig (Elt F))).Forall fun op =>
    op.writes ⊆ (seg6_W.map (Proc.devRef (τ := τ) .tc)).toFinset := by
  simp only [seg6, List.Forall]
  repeat' apply And.intro
  all_goals
    simp only [nullary_writes, unary_writes, binary_writes, ternary_writes, reshape_writes,
      Finset.singleton_subset_iff, List.mem_toFinset]
    exact List.mem_map_of_mem (by decide)

/-- A reference part 6 does not write holds after it what it held before. -/
theorem seg6_keeps (W : Valuation τ sig (Elt F)) (r : Ref sig .tc) (h : r ∉ seg6_W) :
    after seg6 W (Proc.devRef .tc r) = W (Proc.devRef .tc r) :=
  after_of_writes_sub seg6 W seg6_writes h

set_option maxRecDepth 16384 in
set_option maxHeartbeats 4000000 in
/-- Part 6 leaves at its last result the stage's function of the contents it started from. -/
theorem seg6_val (W : Valuation τ sig (Elt F)) :
    after seg6 W (main_v252 : DevRef τ sig)
      = Stages.cheb128 (W (main_v189 : DevRef τ sig)) (W (main_arg1 : DevRef τ sig)) (W (main_arg2 : DevRef τ sig)) (W (main_arg3 : DevRef τ sig)) (W (main_arg16 : DevRef τ sig)) (W (main_arg17 : DevRef τ sig)) := by
  simp only [seg6]
  after_results_simp
  rfl

set_option maxRecDepth 16384 in
set_option maxHeartbeats 4000000 in
/-- Each operation of part 7 writes the one reference listed at its place in `seg7_W`. -/
theorem seg7_writes : (seg7 : List (HloOp τ sig (Elt F))).Forall fun op =>
    op.writes ⊆ (seg7_W.map (Proc.devRef (τ := τ) .tc)).toFinset := by
  simp only [seg7, List.Forall]
  repeat' apply And.intro
  all_goals
    simp only [nullary_writes, unary_writes, binary_writes, ternary_writes, reshape_writes,
      Finset.singleton_subset_iff, List.mem_toFinset]
    exact List.mem_map_of_mem (by decide)

/-- A reference part 7 does not write holds after it what it held before. -/
theorem seg7_keeps (W : Valuation τ sig (Elt F)) (r : Ref sig .tc) (h : r ∉ seg7_W) :
    after seg7 W (Proc.devRef .tc r) = W (Proc.devRef .tc r) :=
  after_of_writes_sub seg7 W seg7_writes h

set_option maxRecDepth 16384 in
set_option maxHeartbeats 4000000 in
/-- Part 7 leaves at its last result the stage's function of the contents it started from. -/
theorem seg7_val (W : Valuation τ sig (Elt F)) :
    after seg7 W (main_v272 : DevRef τ sig)
      = Stages.bnRelu128 (W (main_v252 : DevRef τ sig)) (W (main_arg18 : DevRef τ sig)) (W (main_arg19 : DevRef τ sig)) := by
  simp only [seg7]
  after_results_simp
  rfl

set_option maxRecDepth 16384 in
set_option maxHeartbeats 4000000 in
/-- Each operation of part 8 writes the one reference listed at its place in `seg8_W`. -/
theorem seg8_writes : (seg8 : List (HloOp τ sig (Elt F))).Forall fun op =>
    op.writes ⊆ (seg8_W.map (Proc.devRef (τ := τ) .tc)).toFinset := by
  simp only [seg8, List.Forall]
  repeat' apply And.intro
  all_goals
    simp only [nullary_writes, unary_writes, binary_writes, ternary_writes, reshape_writes,
      Finset.singleton_subset_iff, List.mem_toFinset]
    exact List.mem_map_of_mem (by decide)

/-- A reference part 8 does not write holds after it what it held before. -/
theorem seg8_keeps (W : Valuation τ sig (Elt F)) (r : Ref sig .tc) (h : r ∉ seg8_W) :
    after seg8 W (Proc.devRef .tc r) = W (Proc.devRef .tc r) :=
  after_of_writes_sub seg8 W seg8_writes h

set_option maxRecDepth 16384 in
set_option maxHeartbeats 4000000 in
/-- Part 8 leaves at its last result the stage's function of the contents it started from. -/
theorem seg8_val (W : Valuation τ sig (Elt F)) :
    after seg8 W (main_v276 : DevRef τ sig)
      = Stages.denseDesc (W (main_v272 : DevRef τ sig)) (W (main_arg20 : DevRef τ sig)) (W (main_arg21 : DevRef τ sig)) := by
  simp only [seg8]
  after_results_simp
  rfl

end Cert.ReferenceIdeal.RefRun

end
-- ==== Proof.RefRunSegsD.lean ====
/- Parts 9 to 11 of the twelve consecutive parts of @main's operations (the calls unfolded) that the stages of
   RefStages.lean transcribe: each part's operations in order, their text as the program states them, and the
   reference each operation writes. -/
import proofs.«135777_j83262236000435_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 9 (the operations of Stages.bnRelu256, ending at main_v296). -/
abbrev seg9 : List (HloOp τ sig (Elt F)) :=
  [ StableHlo.nullary main_cst_26 (constant S_ .f32 0x00000000#32),
    StableHlo.binary main_v276 main_cst_26 main_v277 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_27 (constant S_ .f32 0x461C4000#32),
    StableHlo.unary main_cst_27 main_v278 (broadcastInDim S256 ![] bcast_S_S256 : (⟨S_, .f32⟩ : BufTy).Contents (Elt F) → (⟨S256, .f32⟩ : BufTy).Contents (Elt F)),
    StableHlo.binary main_v277 main_v278 main_v279 (Host.divf : (⟨S256, .f32⟩ : BufTy).Contents (Elt F) → (⟨S256, .f32⟩ : BufTy).Contents (Elt F) → (⟨S256, .f32⟩ : BufTy).Contents (Elt F)),
    StableHlo.nullary main_c_28 (constantI S_ 32 0#32),
    StableHlo.TRef.nullary main_call8.cst (constant S_ .f32 0x00000000#32),
    StableHlo.TRef.binary (.of main_v276 : StableHlo.TRef sig ⟨S10000x256, .f32⟩) main_call8.cst main_call8.v0 (fun x v => Host.reduceAdd x v reducesTo_S10000x256_S256_d0 h_S_),
    StableHlo.TRef.unary main_call8.v0 main_call8.v1 (broadcastInDim S1x256 ![1] bcast_S256_S1x256_1),
    StableHlo.TRef.nullary main_call8.cst_0 (constant S_ .f32 0x461C4000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S10000x256 ![0, 1] bcast_S1x256_S10000x256_0_1),
    StableHlo.TRef.binary (.of main_v276 : StableHlo.TRef sig ⟨S10000x256, .f32⟩) main_call8.v4 main_call8.v5 subf,
    StableHlo.TRef.binary main_call8.v5 main_call8.v5 main_call8.v6 mulf,
    StableHlo.TRef.unary (.of main_c_28 : StableHlo.TRef sig ⟨S_, .i32⟩) main_call8.v7 (sitofp .f32),
    StableHlo.TRef.nullary main_call8.cst_1 (constant S_ .f32 0x461C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S10000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v279 main_v281 (broadcastInDim S1x256 ![1] bcast_S256_S1x256_1 : (⟨S256, .f32⟩ : BufTy).Contents (Elt F) → (⟨S1x256, .f32⟩ : BufTy).Contents (Elt F)),
    StableHlo.unary main_v281 main_v282 (broadcastInDim S10000x256 ![0, 1] bcast_S1x256_S10000x256_0_1 : (⟨S1x256, .f32⟩ : BufTy).Contents (Elt F) → (⟨S10000x256, .f32⟩ : BufTy).Contents (Elt F)),
    StableHlo.binary main_v276 main_v282 main_v283 (subf : (⟨S10000x256, .f32⟩ : BufTy).Contents (Elt F) → (⟨S10000x256, .f32⟩ : BufTy).Contents (Elt F) → (⟨S10000x256, .f32⟩ : BufTy).Contents (Elt F)),
    StableHlo.nullary main_cst_29 (constant S_ .f32 0x3A83126F#32),
    StableHlo.unary main_cst_29 main_v284 (broadcastInDim S256 ![] bcast_S_S256 : (⟨S_, .f32⟩ : BufTy).Contents (Elt F) → (⟨S256, .f32⟩ : BufTy).Contents (Elt F)),
    StableHlo.binary main_v280 main_v284 main_v285 (addf : (⟨S256, .f32⟩ : BufTy).Contents (Elt F) → (⟨S256, .f32⟩ : BufTy).Contents (Elt F) → (⟨S256, .f32⟩ : BufTy).Contents (Elt F)),
    StableHlo.unary main_v285 main_v286 (Host.rsqrt : (⟨S256, .f32⟩ : BufTy).Contents (Elt F) → (⟨S256, .f32⟩ : BufTy).Contents (Elt F)),
    StableHlo.unary main_v286 main_v287 (broadcastInDim S1x256 ![1] bcast_S256_S1x256_1 : (⟨S256, .f32⟩ : BufTy).Contents (Elt F) → (⟨S1x256, .f32⟩ : BufTy).Contents (Elt F)),
    StableHlo.unary main_v287 main_v288 (broadcastInDim S10000x256 ![0, 1] bcast_S1x256_S10000x256_0_1 : (⟨S1x256, .f32⟩ : BufTy).Contents (Elt F) → (⟨S10000x256, .f32⟩ : BufTy).Contents (Elt F)),
    StableHlo.binary main_v283 main_v288 main_v289 (mulf : (⟨S10000x256, .f32⟩ : BufTy).Contents (Elt F) → (⟨S10000x256, .f32⟩ : BufTy).Contents (Elt F) → (⟨S10000x256, .f32⟩ : BufTy).Contents (Elt F)),
    StableHlo.unary main_arg22 main_v290 (broadcastInDim S1x256 ![1] bcast_S256_S1x256_1 : (⟨S256, .f32⟩ : BufTy).Contents (Elt F) → (⟨S1x256, .f32⟩ : BufTy).Contents (Elt F)),
    StableHlo.unary main_v290 main_v291 (broadcastInDim S10000x256 ![0, 1] bcast_S1x256_S10000x256_0_1 : (⟨S1x256, .f32⟩ : BufTy).Contents (Elt F) → (⟨S10000x256, .f32⟩ : BufTy).Contents (Elt F)),
    StableHlo.binary main_v289 main_v291 main_v292 (mulf : (⟨S10000x256, .f32⟩ : BufTy).Contents (Elt F) → (⟨S10000x256, .f32⟩ : BufTy).Contents (Elt F) → (⟨S10000x256, .f32⟩ : BufTy).Contents (Elt F)),
    StableHlo.unary main_arg23 main_v293 (broadcastInDim S1x256 ![1] bcast_S256_S1x256_1 : (⟨S256, .f32⟩ : BufTy).Contents (Elt F) → (⟨S1x256, .f32⟩ : BufTy).Contents (Elt F)),
    StableHlo.unary main_v293 main_v294 (broadcastInDim S10000x256 ![0, 1] bcast_S1x256_S10000x256_0_1 : (⟨S1x256, .f32⟩ : BufTy).Contents (Elt F) → (⟨S10000x256, .f32⟩ : BufTy).Contents (Elt F)),
    StableHlo.binary main_v292 main_v294 main_v295 (addf : (⟨S10000x256, .f32⟩ : BufTy).Contents (Elt F) → (⟨S10000x256, .f32⟩ : BufTy).Contents (Elt F) → (⟨S10000x256, .f32⟩ : BufTy).Contents (Elt F)),
    StableHlo.TRef.nullary main_call9.cst (constant S_ .f32 0x00000000#32),
    StableHlo.TRef.unary main_call9.cst main_call9.v0 (broadcastInDim S10000x256 ![] bcast_S_S10000x256),
    StableHlo.TRef.binary (.of main_v295 : StableHlo.TRef sig ⟨S10000x256, .f32⟩) main_call9.v0 main_call9.v1 maximumf ]

/-- The reference each operation of part 9 writes, in the same order. -/
abbrev seg9_W : List (Ref sig .tc) :=
  [ main_cst_26,
    main_v277,
    main_cst_27,
    main_v278,
    main_v279,
    main_c_28,
    main_call8.cst.ref,
    main_call8.v0.ref,
    main_call8.v1.ref,
    main_call8.cst_0.ref,
    main_call8.v2.ref,
    main_call8.v3.ref,
    main_call8.v4.ref,
    main_call8.v5.ref,
    main_call8.v6.ref,
    main_call8.v7.ref,
    main_call8.cst_1.ref,
    main_call8.v8.ref,
    main_call8.cst_2.ref,
    main_call8.v9.ref,
    main_call8.v10.ref,
    main_call8.v11.ref,
    main_call8.cst_3.ref,
    main_call8.v12.ref,
    main_call8.cst_4.ref,
    main_call8.call0.v0.ref,
    main_call8.call0.v1.ref,
    main_call8.call0.v2.ref,
    main_v281,
    main_v282,
    main_v283,
    main_cst_29,
    main_v284,
    main_v285,
    main_v286,
    main_v287,
    main_v288,
    main_v289,
    main_v290,
    main_v291,
    main_v292,
    main_v293,
    main_v294,
    main_v295,
    main_call9.cst.ref,
    main_call9.v0.ref,
    main_call9.v1.ref ]

/-- Part 10 (the operations of Stages.denseLogp, ending at main_v300). -/
abbrev seg10 : List (HloOp τ sig (Elt F)) :=
  [ StableHlo.binary main_v296 main_arg24 main_v297 ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)),
    StableHlo.unary main_arg25 main_v298 (broadcastInDim S1x10000 ![1] bcast_S10000_S1x10000_1 : (⟨S10000, .f32⟩ : BufTy).Contents (Elt F) → (⟨S1x10000, .f32⟩ : BufTy).Contents (Elt F)),
    StableHlo.unary main_v298 main_v299 (broadcastInDim S10000x10000 ![0, 1] bcast_S1x10000_S10000x10000_0_1 : (⟨S1x10000, .f32⟩ : BufTy).Contents (Elt F) → (⟨S10000x10000, .f32⟩ : BufTy).Contents (Elt F)),
    StableHlo.binary main_v297 main_v299 main_v300 (addf : (⟨S10000x10000, .f32⟩ : BufTy).Contents (Elt F) → (⟨S10000x10000, .f32⟩ : BufTy).Contents (Elt F) → (⟨S10000x10000, .f32⟩ : BufTy).Contents (Elt F)) ]

/-- The reference each operation of part 10 writes, in the same order. -/
abbrev seg10_W : List (Ref sig .tc) :=
  [ main_v297,
    main_v298,
    main_v299,
    main_v300 ]

/-- Part 11 (the operations of Stages.logSoftmax, ending at main_v301). -/
abbrev seg11 : List (HloOp τ sig (Elt F)) :=
  [ StableHlo.TRef.nullary main_call10.cst (constant S_ .f32 0xFF800000#32),
    StableHlo.TRef.binary (.of main_v300 : StableHlo.TRef sig ⟨S10000x10000, .f32⟩) main_call10.cst main_call10.v0 (fun x v => Host.reduce FloatOps.maximumf x v reducesTo_S10000x10000_S10000_d1 h_S_),
    StableHlo.TRef.nullary main_call10.cst_0 (constant S_ .f32 0xFF800000#32),
    StableHlo.TRef.unary main_call10.cst_0 main_call10.v1 (broadcastInDim S10000 ![] bcast_S_S10000),
    StableHlo.TRef.binary main_call10.v1 main_call10.v0 main_call10.v2 maximumf,
    StableHlo.TRef.unary main_call10.v2 main_call10.v3 (broadcastInDim S10000x1 ![0] bcast_S10000_S10000x1_0),
    StableHlo.TRef.unary main_call10.v3 main_call10.v4 (broadcastInDim S10000x10000 ![0, 1] bcast_S10000x1_S10000x10000_0_1),
    StableHlo.TRef.binary (.of main_v300 : StableHlo.TRef sig ⟨S10000x10000, .f32⟩) main_call10.v4 main_call10.v5 subf,
    StableHlo.TRef.unary main_call10.v5 main_call10.v6 Host.exp,
    StableHlo.TRef.nullary main_call10.cst_1 (constant S_ .f32 0x00000000#32),
    StableHlo.TRef.binary main_call10.v6 main_call10.cst_1 main_call10.v7 (fun x v => Host.reduceAdd x v reducesTo_S10000x10000_S10000_d1 h_S_),
    StableHlo.TRef.unary main_call10.v7 main_call10.v8 (broadcastInDim S10000x1 ![0] bcast_S10000_S10000x1_0),
    StableHlo.TRef.unary main_call10.v8 main_call10.v9 Host.log,
    StableHlo.TRef.unary main_call10.v9 main_call10.v10 (broadcastInDim S10000x10000 ![0, 1] bcast_S10000x1_S10000x10000_0_1),
    StableHlo.TRef.binary main_call10.v5 main_call10.v10 main_call10.v11 subf ]

/-- The reference each operation of part 11 writes, in the same order. -/
abbrev seg11_W : List (Ref sig .tc) :=
  [ main_call10.cst.ref,
    main_call10.v0.ref,
    main_call10.cst_0.ref,
    main_call10.v1.ref,
    main_call10.v2.ref,
    main_call10.v3.ref,
    main_call10.v4.ref,
    main_call10.v5.ref,
    main_call10.v6.ref,
    main_call10.cst_1.ref,
    main_call10.v7.ref,
    main_call10.v8.ref,
    main_call10.v9.ref,
    main_call10.v10.ref,
    main_call10.v11.ref ]

end Cert.ReferenceIdeal.RefRun

end
-- ==== Proof.RefValD.lean ====
/-
  Parts 9 to 11 of @main's operations, read back (the walk of part 11, the log-softmax, is in RefValE.lean). Each part is a straight line of operations over literal
  references; each operation writes exactly one reference (`segJ_W` lists them in order), so a reference outside
  that list is left as it was (`segJ_keeps`). The fold of a part's operations at its last result is computed by
  unrolling it: at the reference an operation writes, the fold is the operation's function of the fold at its
  operands one step earlier; at any other reference it is the fold one step earlier; the references are literals,
  so which case applies is decided. What remains at the end is the composition of the operations' functions over
  the contents the part started from, which is the stage's definition in RefStages.lean line by line (the typed
  references of a module-local function's operations carry their contents along an equation that is `rfl` at
  these literal references, so the transports are the identity).
-/
import proofs.«135777_j83262236000435_2_alg».proof.Proof.RefRunSegsD
import proofs.«135777_j83262236000435_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Each operation of part 9 writes the one reference listed at its place in `seg9_W`. -/
theorem seg9_writes : (seg9 : List (HloOp τ sig (Elt F))).Forall fun op =>
    op.writes ⊆ (seg9_W.map (Proc.devRef (τ := τ) .tc)).toFinset := by
  simp only [seg9, List.Forall]
  repeat' apply And.intro
  all_goals
    simp only [nullary_writes, unary_writes, binary_writes, ternary_writes, reshape_writes,
      Finset.singleton_subset_iff, List.mem_toFinset]
    exact List.mem_map_of_mem (by decide)

/-- A reference part 9 does not write holds after it what it held before. -/
theorem seg9_keeps (W : Valuation τ sig (Elt F)) (r : Ref sig .tc) (h : r ∉ seg9_W) :
    after seg9 W (Proc.devRef .tc r) = W (Proc.devRef .tc r) :=
  after_of_writes_sub seg9 W seg9_writes h

set_option maxRecDepth 16384 in
set_option maxHeartbeats 4000000 in
/-- Part 9 leaves at its last result the stage's function of the contents it started from. -/
theorem seg9_val (W : Valuation τ sig (Elt F)) :
    after seg9 W (main_v296 : DevRef τ sig)
      = Stages.bnRelu256 (W (main_v276 : DevRef τ sig)) (W (main_arg22 : DevRef τ sig)) (W (main_arg23 : DevRef τ sig)) := by
  simp only [seg9]
  after_results_simp
  rfl

set_option maxRecDepth 16384 in
set_option maxHeartbeats 4000000 in
/-- Each operation of part 10 writes the one reference listed at its place in `seg10_W`. -/
theorem seg10_writes : (seg10 : List (HloOp τ sig (Elt F))).Forall fun op =>
    op.writes ⊆ (seg10_W.map (Proc.devRef (τ := τ) .tc)).toFinset := by
  simp only [seg10, List.Forall]
  repeat' apply And.intro
  all_goals
    simp only [nullary_writes, unary_writes, binary_writes, ternary_writes, reshape_writes,
      Finset.singleton_subset_iff, List.mem_toFinset]
    exact List.mem_map_of_mem (by decide)

/-- A reference part 10 does not write holds after it what it held before. -/
theorem seg10_keeps (W : Valuation τ sig (Elt F)) (r : Ref sig .tc) (h : r ∉ seg10_W) :
    after seg10 W (Proc.devRef .tc r) = W (Proc.devRef .tc r) :=
  after_of_writes_sub seg10 W seg10_writes h

set_option maxRecDepth 16384 in
set_option maxHeartbeats 4000000 in
/-- Part 10 leaves at its last result the stage's function of the contents it started from. -/
theorem seg10_val (W : Valuation τ sig (Elt F)) :
    after seg10 W (main_v300 : DevRef τ sig)
      = Stages.denseLogp (W (main_v296 : DevRef τ sig)) (W (main_arg24 : DevRef τ sig)) (W (main_arg25 : DevRef τ sig)) := by
  simp only [seg10]
  after_results_simp
  rfl

set_option maxRecDepth 16384 in
set_option maxHeartbeats 4000000 in
/-- Each operation of part 11 writes the one reference listed at its place in `seg11_W`. -/
theorem seg11_writes : (seg11 : List (HloOp τ sig (Elt F))).Forall fun op =>
    op.writes ⊆ (seg11_W.map (Proc.devRef (τ := τ) .tc)).toFinset := by
  simp only [seg11, List.Forall]
  repeat' apply And.intro
  all_goals
    simp only [nullary_writes, unary_writes, binary_writes, ternary_writes, reshape_writes,
      Finset.singleton_subset_iff, List.mem_toFinset]
    exact List.mem_map_of_mem (by decide)

/-- A reference part 11 does not write holds after it what it held before. -/
theorem seg11_keeps (W : Valuation τ sig (Elt F)) (r : Ref sig .tc) (h : r ∉ seg11_W) :
    after seg11 W (Proc.devRef .tc r) = W (Proc.devRef .tc r) :=
  after_of_writes_sub seg11 W seg11_writes h

end Cert.ReferenceIdeal.RefRun

end
-- ==== Proof.RefValE.lean ====
/-
  Part 11 of @main's operations (the outlined log-softmax), read back. As for the other parts the fold is unrolled
  operation by operation; what differs is how the result is then compared with the stage's definition. The typed
  references of a module-local function's operations carry contents along the equation between the reference's
  type and the value's; written back and read again through the same reference the contents are unchanged
  (`ofBuf_toBuf`, for any typed reference), and at the part's first operand and last result, literal references
  whose type is the value's by computation, the transport is the identity on any contents (`ofBuf_in`,
  `toBuf_out`: stated at a variable, so nothing is computed). With the transports removed by these equations the
  two sides are the same term, the stage's definition line by line. The row maximum `Host.reduce` is a fold over
  every element of a 10000 × 10000 operand: it is never opened.
-/
import proofs.«135777_j83262236000435_2_alg».proof.Proof.RefRunSegsD
import proofs.«135777_j83262236000435_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Contents written through a typed reference and read back through it are unchanged. -/
theorem ofBuf_toBuf {T : BufTy} (x : TRef sig T) (v : T.Contents (Elt F)) : x.ofBuf (x.toBuf v) = v := by
  obtain ⟨r, h, _, _⟩ := x
  subst h
  rfl

/-- Reading the part's operand through its typed reference is the identity: the reference's type is the value's. -/
theorem ofBuf_in (h1 : main_v300.ty = (⟨S10000x10000, .f32⟩ : BufTy)) (h2 : main_v300.space ≠ .host)
    (h3 : main_v300.isScoped = false) (u : main_v300.ty.Contents (Elt F)) :
    (TRef.of main_v300 h1 h2 h3).ofBuf u = u := rfl

/-- Writing the part's result through its typed reference is the identity: the reference's type is the value's. -/
theorem toBuf_out (h1 : main_v301.ty = (⟨S10000x10000, .f32⟩ : BufTy)) (h2 : main_v301.space ≠ .host)
    (h3 : main_v301.isScoped = false) (v : (⟨S10000x10000, .f32⟩ : BufTy).Contents (Elt F)) :
    (TRef.of main_v301 h1 h2 h3).toBuf v = v := rfl

set_option maxRecDepth 16384 in
set_option maxHeartbeats 4000000 in
/-- Part 11 leaves at its last result the stage's function of the contents it started from. -/
theorem seg11_val (W : Valuation τ sig (Elt F)) :
    after seg11 W (main_v301 : DevRef τ sig)
      = Stages.logSoftmax (W (main_v300 : DevRef τ sig)) := by
  simp only [seg11]
  after_results_simp
  simp only [ofBuf_toBuf, ofBuf_in, toBuf_out]
  rfl

end Cert.ReferenceIdeal.RefRun

end
-- ==== Proof.RefValues.lean ====
/-
  The reference program's values, stage by stage. @main's operations `ops` (RefRun.lean: the six printed windows,
  concatenated) are also the twelve consecutive parts `seg0 … seg11` concatenated — the same operations in the same
  order, cut at the stages' boundaries instead of the windows' — so the fold over `ops` is the twelve parts' folds
  composed (`after_segs`). A stage is two consecutive parts. Its result buffer is written by the second of them and
  by no later part, so the fold over the whole program there is the fold of those two parts from the contents
  before them (`segJ_keeps`); the two parts' walks (`segJ_val`) give the stage's function of those contents at
  the buffers the stage reads; of these, the previous stage's result is not written again, so it holds there what
  it holds at the end, and an argument is never written, so it holds its launch contents.
-/
import proofs.«135777_j83262236000435_2_alg».proof.Proof.RefRun
import proofs.«135777_j83262236000435_2_alg».proof.Proof.RefStages
import proofs.«135777_j83262236000435_2_alg».proof.Proof.RefValA
import proofs.«135777_j83262236000435_2_alg».proof.Proof.RefValB
import proofs.«135777_j83262236000435_2_alg».proof.Proof.RefValC
import proofs.«135777_j83262236000435_2_alg».proof.Proof.RefValD
import proofs.«135777_j83262236000435_2_alg».proof.Proof.RefValE

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The twelve parts in order are @main's operations: the same list, cut elsewhere. -/
theorem ops_eq_segs : (ops : List (HloOp τ sig (Elt F)))
    = seg0 ++ (seg1 ++ (seg2 ++ (seg3 ++ (seg4 ++ (seg5 ++ (seg6 ++ (seg7 ++ (seg8 ++ (seg9 ++ (seg10 ++ seg11)))))))))) :=
  rfl

/-- The fold over the whole program, part by part. -/
theorem after_segs (V : Valuation τ sig (Elt F)) :
    after ops V = after seg11 (after seg10 (after seg9 (after seg8 (after seg7 (after seg6 (after seg5 (after seg4 (after seg3 (after seg2 (after seg1 (after seg0 V))))))))))) := by
  rw [ops_eq_segs]
  simp only [after_append]

/-- The first stage's result: parts 0 and 1 walked from the contents before them; the later parts do not write it, and no part writes an argument. -/
theorem val_h0 (V : Valuation τ sig (Elt F)) :
    after ops V (main_v23 : DevRef τ sig)
      = Stages.stage0 (V (main_arg0 : DevRef τ sig)) (V (main_arg4 : DevRef τ sig)) (V (main_arg5 : DevRef τ sig)) (V (main_arg6 : DevRef τ sig)) (V (main_arg7 : DevRef τ sig)) := by
  rw [after_segs]
  rw [seg11_keeps _ main_v23 (by decide), seg10_keeps _ main_v23 (by decide), seg9_keeps _ main_v23 (by decide),
    seg8_keeps _ main_v23 (by decide), seg7_keeps _ main_v23 (by decide), seg6_keeps _ main_v23 (by decide),
    seg5_keeps _ main_v23 (by decide), seg4_keeps _ main_v23 (by decide), seg3_keeps _ main_v23 (by decide),
    seg2_keeps _ main_v23 (by decide)]
  rw [seg1_val, seg0_val]
  rw [seg0_keeps _ main_arg6 (by decide), seg0_keeps _ main_arg7 (by decide)]
  rfl

/-- The first Chebyshev layer's result: parts 2 and 3 walked from the contents before them; the later parts do not write it, and no part writes an argument. -/
theorem val_h1 (V : Valuation τ sig (Elt F)) :
    after ops V (main_v106 : DevRef τ sig)
      = Stages.layer64 (after ops V (main_v23 : DevRef τ sig)) (V (main_arg1 : DevRef τ sig)) (V (main_arg2 : DevRef τ sig)) (V (main_arg3 : DevRef τ sig)) (V (main_arg8 : DevRef τ sig)) (V (main_arg9 : DevRef τ sig)) (V (main_arg10 : DevRef τ sig)) (V (main_arg11 : DevRef τ sig)) := by
  rw [after_segs]
  rw [seg11_keeps _ main_v106 (by decide), seg10_keeps _ main_v106 (by decide), seg9_keeps _ main_v106 (by decide),
    seg8_keeps _ main_v106 (by decide), seg7_keeps _ main_v106 (by decide), seg6_keeps _ main_v106 (by decide),
    seg5_keeps _ main_v106 (by decide), seg4_keeps _ main_v106 (by decide)]
  rw [seg11_keeps _ main_v23 (by decide), seg10_keeps _ main_v23 (by decide), seg9_keeps _ main_v23 (by decide),
    seg8_keeps _ main_v23 (by decide), seg7_keeps _ main_v23 (by decide), seg6_keeps _ main_v23 (by decide),
    seg5_keeps _ main_v23 (by decide), seg4_keeps _ main_v23 (by decide), seg3_keeps _ main_v23 (by decide),
    seg2_keeps _ main_v23 (by decide)]
  rw [seg3_val, seg2_val]
  rw [seg2_keeps _ main_arg10 (by decide), seg2_keeps _ main_arg11 (by decide)]
  rw [seg1_keeps _ main_arg1 (by decide), seg0_keeps _ main_arg1 (by decide), seg1_keeps _ main_arg2 (by decide),
    seg0_keeps _ main_arg2 (by decide), seg1_keeps _ main_arg3 (by decide), seg0_keeps _ main_arg3 (by decide),
    seg1_keeps _ main_arg8 (by decide), seg0_keeps _ main_arg8 (by decide), seg1_keeps _ main_arg9 (by decide),
    seg0_keeps _ main_arg9 (by decide), seg1_keeps _ main_arg10 (by decide), seg0_keeps _ main_arg10 (by decide),
    seg1_keeps _ main_arg11 (by decide), seg0_keeps _ main_arg11 (by decide)]
  rfl

/-- The second Chebyshev layer's result: parts 4 and 5 walked from the contents before them; the later parts do not write it, and no part writes an argument. -/
theorem val_h2 (V : Valuation τ sig (Elt F)) :
    after ops V (main_v189 : DevRef τ sig)
      = Stages.layer64 (after ops V (main_v106 : DevRef τ sig)) (V (main_arg1 : DevRef τ sig)) (V (main_arg2 : DevRef τ sig)) (V (main_arg3 : DevRef τ sig)) (V (main_arg12 : DevRef τ sig)) (V (main_arg13 : DevRef τ sig)) (V (main_arg14 : DevRef τ sig)) (V (main_arg15 : DevRef τ sig)) := by
  rw [after_segs]
  rw [seg11_keeps _ main_v189 (by decide), seg10_keeps _ main_v189 (by decide), seg9_keeps _ main_v189 (by decide),
    seg8_keeps _ main_v189 (by decide), seg7_keeps _ main_v189 (by decide), seg6_keeps _ main_v189 (by decide)]
  rw [seg11_keeps _ main_v106 (by decide), seg10_keeps _ main_v106 (by decide), seg9_keeps _ main_v106 (by decide),
    seg8_keeps _ main_v106 (by decide), seg7_keeps _ main_v106 (by decide), seg6_keeps _ main_v106 (by decide),
    seg5_keeps _ main_v106 (by decide), seg4_keeps _ main_v106 (by decide)]
  rw [seg5_val, seg4_val]
  rw [seg4_keeps _ main_arg14 (by decide), seg4_keeps _ main_arg15 (by decide)]
  rw [seg3_keeps _ main_arg1 (by decide), seg2_keeps _ main_arg1 (by decide), seg1_keeps _ main_arg1 (by decide),
    seg0_keeps _ main_arg1 (by decide), seg3_keeps _ main_arg2 (by decide), seg2_keeps _ main_arg2 (by decide),
    seg1_keeps _ main_arg2 (by decide), seg0_keeps _ main_arg2 (by decide), seg3_keeps _ main_arg3 (by decide),
    seg2_keeps _ main_arg3 (by decide), seg1_keeps _ main_arg3 (by decide), seg0_keeps _ main_arg3 (by decide),
    seg3_keeps _ main_arg12 (by decide), seg2_keeps _ main_arg12 (by decide), seg1_keeps _ main_arg12 (by decide),
    seg0_keeps _ main_arg12 (by decide), seg3_keeps _ main_arg13 (by decide), seg2_keeps _ main_arg13 (by decide),
    seg1_keeps _ main_arg13 (by decide), seg0_keeps _ main_arg13 (by decide), seg3_keeps _ main_arg14 (by decide),
    seg2_keeps _ main_arg14 (by decide), seg1_keeps _ main_arg14 (by decide), seg0_keeps _ main_arg14 (by decide),
    seg3_keeps _ main_arg15 (by decide), seg2_keeps _ main_arg15 (by decide), seg1_keeps _ main_arg15 (by decide),
    seg0_keeps _ main_arg15 (by decide)]
  rfl

/-- The third Chebyshev layer's result: parts 6 and 7 walked from the contents before them; the later parts do not write it, and no part writes an argument. -/
theorem val_h3 (V : Valuation τ sig (Elt F)) :
    after ops V (main_v272 : DevRef τ sig)
      = Stages.layer128 (after ops V (main_v189 : DevRef τ sig)) (V (main_arg1 : DevRef τ sig)) (V (main_arg2 : DevRef τ sig)) (V (main_arg3 : DevRef τ sig)) (V (main_arg16 : DevRef τ sig)) (V (main_arg17 : DevRef τ sig)) (V (main_arg18 : DevRef τ sig)) (V (main_arg19 : DevRef τ sig)) := by
  rw [after_segs]
  rw [seg11_keeps _ main_v272 (by decide), seg10_keeps _ main_v272 (by decide), seg9_keeps _ main_v272 (by decide),
    seg8_keeps _ main_v272 (by decide)]
  rw [seg11_keeps _ main_v189 (by decide), seg10_keeps _ main_v189 (by decide), seg9_keeps _ main_v189 (by decide),
    seg8_keeps _ main_v189 (by decide), seg7_keeps _ main_v189 (by decide), seg6_keeps _ main_v189 (by decide)]
  rw [seg7_val, seg6_val]
  rw [seg6_keeps _ main_arg18 (by decide), seg6_keeps _ main_arg19 (by decide)]
  rw [seg5_keeps _ main_arg1 (by decide), seg4_keeps _ main_arg1 (by decide), seg3_keeps _ main_arg1 (by decide),
    seg2_keeps _ main_arg1 (by decide), seg1_keeps _ main_arg1 (by decide), seg0_keeps _ main_arg1 (by decide),
    seg5_keeps _ main_arg2 (by decide), seg4_keeps _ main_arg2 (by decide), seg3_keeps _ main_arg2 (by decide),
    seg2_keeps _ main_arg2 (by decide), seg1_keeps _ main_arg2 (by decide), seg0_keeps _ main_arg2 (by decide),
    seg5_keeps _ main_arg3 (by decide), seg4_keeps _ main_arg3 (by decide), seg3_keeps _ main_arg3 (by decide),
    seg2_keeps _ main_arg3 (by decide), seg1_keeps _ main_arg3 (by decide), seg0_keeps _ main_arg3 (by decide),
    seg5_keeps _ main_arg16 (by decide), seg4_keeps _ main_arg16 (by decide), seg3_keeps _ main_arg16 (by decide),
    seg2_keeps _ main_arg16 (by decide), seg1_keeps _ main_arg16 (by decide), seg0_keeps _ main_arg16 (by decide),
    seg5_keeps _ main_arg17 (by decide), seg4_keeps _ main_arg17 (by decide), seg3_keeps _ main_arg17 (by decide),
    seg2_keeps _ main_arg17 (by decide), seg1_keeps _ main_arg17 (by decide), seg0_keeps _ main_arg17 (by decide),
    seg5_keeps _ main_arg18 (by decide), seg4_keeps _ main_arg18 (by decide), seg3_keeps _ main_arg18 (by decide),
    seg2_keeps _ main_arg18 (by decide), seg1_keeps _ main_arg18 (by decide), seg0_keeps _ main_arg18 (by decide),
    seg5_keeps _ main_arg19 (by decide), seg4_keeps _ main_arg19 (by decide), seg3_keeps _ main_arg19 (by decide),
    seg2_keeps _ main_arg19 (by decide), seg1_keeps _ main_arg19 (by decide), seg0_keeps _ main_arg19 (by decide)]
  rfl

/-- The descriptor (the program's second result): parts 8 and 9 walked from the contents before them; the later parts do not write it, and no part writes an argument. -/
theorem val_desc (V : Valuation τ sig (Elt F)) :
    after ops V (main_v296 : DevRef τ sig)
      = Stages.stageDesc (after ops V (main_v272 : DevRef τ sig)) (V (main_arg20 : DevRef τ sig)) (V (main_arg21 : DevRef τ sig)) (V (main_arg22 : DevRef τ sig)) (V (main_arg23 : DevRef τ sig)) := by
  rw [after_segs]
  rw [seg11_keeps _ main_v296 (by decide), seg10_keeps _ main_v296 (by decide)]
  rw [seg11_keeps _ main_v272 (by decide), seg10_keeps _ main_v272 (by decide), seg9_keeps _ main_v272 (by decide),
    seg8_keeps _ main_v272 (by decide)]
  rw [seg9_val, seg8_val]
  rw [seg8_keeps _ main_arg22 (by decide), seg8_keeps _ main_arg23 (by decide)]
  rw [seg7_keeps _ main_arg20 (by decide), seg6_keeps _ main_arg20 (by decide), seg5_keeps _ main_arg20 (by decide),
    seg4_keeps _ main_arg20 (by decide), seg3_keeps _ main_arg20 (by decide), seg2_keeps _ main_arg20 (by decide),
    seg1_keeps _ main_arg20 (by decide), seg0_keeps _ main_arg20 (by decide), seg7_keeps _ main_arg21 (by decide),
    seg6_keeps _ main_arg21 (by decide), seg5_keeps _ main_arg21 (by decide), seg4_keeps _ main_arg21 (by decide),
    seg3_keeps _ main_arg21 (by decide), seg2_keeps _ main_arg21 (by decide), seg1_keeps _ main_arg21 (by decide),
    seg0_keeps _ main_arg21 (by decide), seg7_keeps _ main_arg22 (by decide), seg6_keeps _ main_arg22 (by decide),
    seg5_keeps _ main_arg22 (by decide), seg4_keeps _ main_arg22 (by decide), seg3_keeps _ main_arg22 (by decide),
    seg2_keeps _ main_arg22 (by decide), seg1_keeps _ main_arg22 (by decide), seg0_keeps _ main_arg22 (by decide),
    seg7_keeps _ main_arg23 (by decide), seg6_keeps _ main_arg23 (by decide), seg5_keeps _ main_arg23 (by decide),
    seg4_keeps _ main_arg23 (by decide), seg3_keeps _ main_arg23 (by decide), seg2_keeps _ main_arg23 (by decide),
    seg1_keeps _ main_arg23 (by decide), seg0_keeps _ main_arg23 (by decide)]
  rfl

/-- The log-probabilities (the program's first result): parts 10 and 11 walked from the contents before them; the later parts do not write it, and no part writes an argument. -/
theorem val_logp (V : Valuation τ sig (Elt F)) :
    after ops V (main_v301 : DevRef τ sig)
      = Stages.stageLogp (after ops V (main_v296 : DevRef τ sig)) (V (main_arg24 : DevRef τ sig)) (V (main_arg25 : DevRef τ sig)) := by
  rw [after_segs]
  rw [seg11_keeps _ main_v296 (by decide), seg10_keeps _ main_v296 (by decide)]
  rw [seg11_val, seg10_val]
  rw [seg9_keeps _ main_arg24 (by decide), seg8_keeps _ main_arg24 (by decide), seg7_keeps _ main_arg24 (by decide),
    seg6_keeps _ main_arg24 (by decide), seg5_keeps _ main_arg24 (by decide), seg4_keeps _ main_arg24 (by decide),
    seg3_keeps _ main_arg24 (by decide), seg2_keeps _ main_arg24 (by decide), seg1_keeps _ main_arg24 (by decide),
    seg0_keeps _ main_arg24 (by decide), seg9_keeps _ main_arg25 (by decide), seg8_keeps _ main_arg25 (by decide),
    seg7_keeps _ main_arg25 (by decide), seg6_keeps _ main_arg25 (by decide), seg5_keeps _ main_arg25 (by decide),
    seg4_keeps _ main_arg25 (by decide), seg3_keeps _ main_arg25 (by decide), seg2_keeps _ main_arg25 (by decide),
    seg1_keeps _ main_arg25 (by decide), seg0_keeps _ main_arg25 (by decide)]
  rfl

end Cert.ReferenceIdeal.RefRun

end
-- ==== Proof.RefGlue.lean ====
/-
  The reference's two results as compositions of its stages.

  Stage by stage, each of the reference's result buffers holds its stage's function of the previous stage's buffer
  and of the arguments; chaining the six equations gives the descriptors as the descriptor stage of the three
  Chebyshev layers of the first stage, and the log-probabilities as the last stage of the descriptors.
-/
import proofs.«135777_j83262236000435_2_alg».proof.Proof.Assembly
import proofs.«135777_j83262236000435_2_alg».proof.Proof.RefValues

set_option maxRecDepth 16384
set_option pp.maxSteps 4000
set_option pp.deepTerms false

noncomputable section

namespace Cert.Proof.Values

open Idealize.ShloMosaic Idealize.ShloMosaic.TcCoe Idealize.SL.Sem Idealize.ShloMosaic.StableHlo
open Cert.ReferenceIdeal.RefRun

/-- The descriptor buffer holds the composition of the five stages before it. -/
theorem refDesc : RefDesc := fun V => by
  rw [val_desc (F := Ideal) V, val_h3 (F := Ideal) V, val_h2 (F := Ideal) V, val_h1 (F := Ideal) V, val_h0 (F := Ideal) V]

/-- The log-probability buffer holds the last stage of the descriptor buffer. -/
theorem refLogp : RefLogp := fun V => val_logp (F := Ideal) V

end Cert.Proof.Values

end
-- ==== Proof.Region1Block.lean ====
/-
  What the second region's body leaves in its output block at one grid point.

  The body keeps one scratch buffer of the block's shape. It stores the block's logits there (the 200 descriptor rows,
  rounded to bf16, times the weight matrix, plus the bias row), loads them back twice and stores the logits minus each
  row's maximum, loads those back twice and stores into the output block the shifted logits minus the logarithm of each
  row's sum of exponentials. Each load reads the scratch buffer through the rectangle of the store before it, so it
  reads that store's value whatever the buffer held earlier: the output block is the third payload of the second of the
  first, a function of the point's three input blocks alone.
-/
import proofs.«135777_j83262236000435_2_alg».proof.Proof.Gen.KernelIdeal.Frame
import Idealize.ShloMosaic.Lib.Pipeline.Value
import Idealize.ShloMosaic.Lib.Tactic

set_option maxRecDepth 16384
set_option pp.maxSteps 5000
set_option pp.deepTerms false

noncomputable section

namespace Cert.KernelIdeal.Region1

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a rank-2 rectangle, as the printed program spells them. -/
theorem hz : (![0, 0] : Fin 2 → Nat) = fun _ => 0 := funext fun a => by fin_cases a <;> rfl

/-- The block's logits: the first payload of the three input blocks. -/
def blockLogits (x0 : Vec F S200x256 .f32) (x1 : Vec F S256x10000 .bf16) (x2 : Vec F S1x10000 .f32) : Vec F S200x10000 .f32 :=
  k1_pay1 x0 x1 x2

/-- The logits minus their row maxima: the second payload, which takes the stored logits twice. -/
def blockShifted (z : Vec F S200x10000 .f32) : Vec F S200x10000 .f32 := k1_pay2 z z

/-- The shifted logits minus the logarithm of their row sums of exponentials: the third payload, which takes them twice. -/
def blockNormalised (s : Vec F S200x10000 .f32) : Vec F S200x10000 .f32 := k1_pay3 s s

/-- The row-wise log-softmax of the block's logits, as the body computes it from its three input blocks. -/
def blockLogp (x0 : Vec F S200x256 .f32) (x1 : Vec F S256x10000 .bf16) (x2 : Vec F S1x10000 .f32) : Vec F S200x10000 .f32 :=
  blockNormalised (blockShifted (blockLogits x0 x1 x2))

/-- What the body leaves in the output block, on any whole staging memrefs, is `blockLogp` of the input blocks: the one
    store into the output covers it, and each load of the scratch buffer reads the store before it. -/
theorem out_eq (c : Dev nD) (i : grid1.Coords) (arg1 : Memref sig .tc .vmem S200x256 .f32) (harg1 : arg1.IsWhole) (arg2 : Memref sig .tc .vmem S256x10000 .bf16) (harg2 : arg2.IsWhole) (arg3 : Memref sig .tc .vmem S1x10000 .f32) (harg3 : arg3.IsWhole) (arg4 : Memref sig .tc .vmem S200x10000 .f32) (harg4 : arg4.IsWhole) (arg5 : Memref sig .tc .vmem S200x10000 .f32) (harg5 : arg5.IsWhole)
    (x0 : Vec F S200x256 .f32) (x1 : Vec F S256x10000 .bf16) (x2 : Vec F S1x10000 .f32) :
    out1_A_3 c i arg1 harg1 arg2 harg2 arg3 harg3 arg4 harg4 arg5 harg5 x0 x1 x2 = blockLogp x0 x1 x2 := by
  unfold out1_A_3
  rw [View.read_writes_eq_canon _ _ _ (cover1_A_3 c i arg1 harg1 arg2 harg2 arg3 harg3 arg4 harg4 arg5 harg5 x0 x1 x2)]
  unfold kernelRun1_A
  dsimp only
  try sl_unfold_words
  rw [View.canon_unit_zero hz]
  simp only [View.readCov_cons_toLoadRect, View.readAt_eq_ld, harg1.read_unread, harg2.read_unread, harg3.read_unread,
    View.ld_unit_zero (S := S200x256) hz, View.ld_unit_zero (S := S256x10000) hz, View.ld_unit_zero (S := S1x10000) hz]
  rfl

variable (V : (c : Dev nD) → (b : Ref sig .tc) → Buf (Elt F) ((c : Thread nD τ).loc b))

/-- So the output's staging buffer after the body at point `t` holds `blockLogp` of the point's three input blocks. -/
theorem outsAt_eq (c : Dev nD) (t : Fin cfg1.N) :
    outsAt1 V c t = blockLogp (iblk1 V c 0 t) (iblk1 V c 1 t) (iblk1 V c 2 t) := by
  unfold outsAt1
  exact out_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

end Cert.KernelIdeal.Region1

end
-- ==== Proof.Region1Inputs.lean ====
/-
  The second region's input blocks, read off their arrays.

  The region's grid has fifty points. At point t the first window's block is rows 200·t … 200·t + 199 of the descriptor
  array (its index map returns (t, 0) and its block is 200 × 256); the second and third windows' index maps return
  (0, 0) at every point and their blocks have their arrays' full extents, so their blocks are the whole weight matrix
  and the whole bias row. The output window's index map returns (t, 0) with blocks of 200 × 10000.
-/
import proofs.«135777_j83262236000435_2_alg».proof.Proof.Gen.KernelIdeal.Frame
import Idealize.ShloMosaic.Lib.Pipeline.Value
import Idealize.ShloMosaic.Lib.ValueIdx

set_option maxRecDepth 16384
set_option pp.maxSteps 5000
set_option pp.deepTerms false

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-- The grid of the second region has fifty points. -/
theorem N_eq : cfg1.N = 50 := N_1

/-- The four windows' block indices at every point, decided over the grid: the descriptor window and the output window
    move down one block of rows per point; the weight and bias windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Rows 200·q … 200·q + 199 of a 10000 × 256 array, as a 200 × 256 array. -/
def rowBlock (desc : Vec F S10000x256 .f32) (q : Fin 50) : Vec F S200x256 .f32 :=
  fun x => desc (ix2 (⟨200 * q.val + (x 0).val, by have := idx2_lt0 x; have := q.isLt; omega⟩ : Fin 10000)
    (⟨(x 1).val, idx2_lt1 x⟩ : Fin 256))

variable (V : (c : Dev nD) → (b : Ref sig .tc) → Buf (Elt F) ((c : Thread nD τ).loc b))

/-- An entry of the descriptor window's block at point `t` is the array's entry 200·t rows further down. -/
theorem iblk0_apply (c : Dev nD) (t : Fin cfg1.N) (x : S200x256.Idx) (k : S10000x256.Idx)
    (hk0 : (k 0).val = 200 * t.val + (x 0).val) (hk1 : (k 1).val = (x 1).val) :
    (iblk1 V c 0 t : Vec F S200x256 .f32) x = (V c main_v58 : S10000x256.Idx → Elt F .f32) k := by
  obtain ⟨e0, e1, -⟩ := idx_facts t
  unfold iblk1
  rw [View.read_apply]
  show V c main_v58 _ = V c main_v58 _
  refine congrArg (V c main_v58) ?_
  funext a
  apply Fin.ext
  match a with
  | ⟨0, _⟩ => show win1_0.index t 0 * 200 + 1 * (x 0).val = (k 0).val; rw [e0, hk0]; omega
  | ⟨1, _⟩ => show win1_0.index t 1 * 256 + 1 * (x 1).val = (k 1).val; rw [e1, hk1]; omega

/-- The descriptor window's block at point `t` is the `t`-th block of 200 rows of the descriptor array. -/
theorem iblk_0 (c : Dev nD) (t : Fin cfg1.N) (q : Fin 50) (hq : q.val = t.val) :
    iblk1 V c 0 t = rowBlock (V c main_v58) q :=
  funext fun x => iblk0_apply V c t x _ (by show 200 * q.val + (x 0).val = _; rw [hq]) rfl

/-- The weight window's block at every point is the whole weight matrix. -/
theorem iblk_1 (c : Dev nD) (t : Fin cfg1.N) : iblk1 V c 1 t = V c main_v59 := by
  obtain ⟨-, -, e0, e1, -⟩ := idx_facts t
  have hz' : (fun a => win1_1.index t a * main_v59.ty.shape.size a) = fun _ => 0 := funext fun a => by
    match a with
    | ⟨0, _⟩ => show win1_1.index t 0 * _ = 0; rw [e0, Nat.zero_mul]
    | ⟨1, _⟩ => show win1_1.index t 1 * _ = 0; rw [e1, Nat.zero_mul]
  exact Memref.read_access_unit_zero (Elt F) main_v59 hz' (fun a => by rw [congrFun hz' a]; simp) (V c main_v59)

/-- The bias window's block at every point is the whole bias row. -/
theorem iblk_2 (c : Dev nD) (t : Fin cfg1.N) : iblk1 V c 2 t = V c main_v60 := by
  obtain ⟨-, -, -, -, e0, e1, -⟩ := idx_facts t
  have hz' : (fun a => win1_2.index t a * main_v60.ty.shape.size a) = fun _ => 0 := funext fun a => by
    match a with
    | ⟨0, _⟩ => show win1_2.index t 0 * _ = 0; rw [e0, Nat.zero_mul]
    | ⟨1, _⟩ => show win1_2.index t 1 * _ = 0; rw [e1, Nat.zero_mul]
  exact Memref.read_access_unit_zero (Elt F) main_v60 hz' (fun a => by rw [congrFun hz' a]; simp) (V c main_v60)

end Cert.KernelIdeal.Region1

end
-- ==== Proof.Region1Array.lean ====
/-
  The second region's output array after its fifty points: the row-wise log-softmax of the last dense layer, block by
  block of 200 rows.

  The log-softmax of a row uses that row alone, and the dense layer's row i uses row i of the descriptors alone. So the
  whole 10000 × 10000 result is one function of the three arrays: its entry (i, j) is entry (i mod 200, j) of the body's
  result on rows 200·(i div 200) … of the descriptors. Point t writes back the block of rows 200·t … 200·t + 199, which is
  exactly that function read through the block's rectangle; every row lies in the block of point (row div 200); hence
  after the last point the array holds the function everywhere.
-/
import proofs.«135777_j83262236000435_2_alg».proof.Proof.Region1Block
import proofs.«135777_j83262236000435_2_alg».proof.Proof.Region1Inputs

set_option maxRecDepth 16384
set_option pp.maxSteps 5000
set_option pp.deepTerms false

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

/-- The block of 200 rows that holds row `i 0`. -/
def blockOf (i : S10000x10000.Idx) : Fin 50 := ⟨(i 0).val / 200, by have := idx2_lt0 i; omega⟩

/-- The position of an entry of the array inside its block of 200 rows. -/
def inBlock (i : S10000x10000.Idx) : S200x10000.Idx :=
  ix2 (⟨(i 0).val % 200, Nat.mod_lt _ (by omega)⟩ : Fin 200) (⟨(i 1).val, idx2_lt1 i⟩ : Fin 10000)

/-- The whole result as one function of the descriptors, the weights and the bias row: entry `i` is the body's result on
    the block of 200 descriptor rows that holds row `i 0`, at the entry's position inside the block. -/
def arrayLogp (desc : Vec F S10000x256 .f32) (w : Vec F S256x10000 .bf16) (b : Vec F S1x10000 .f32) : Vec F S10000x10000 .f32 :=
  fun i => blockLogp (rowBlock desc (blockOf i)) w b (inBlock i)

/-- At an entry of block `q`, the whole result is the body's result on block `q` of the descriptors. -/
theorem arrayLogp_apply (desc : Vec F S10000x256 .f32) (w : Vec F S256x10000 .bf16) (b : Vec F S1x10000 .f32)
    (i : S10000x10000.Idx) (q : Fin 50) (y : S200x10000.Idx)
    (h0 : (i 0).val = 200 * q.val + (y 0).val) (h1 : (i 1).val = (y 1).val) :
    arrayLogp desc w b i = blockLogp (rowBlock desc q) w b y := by
  have hy0 := idx2_lt0 y
  have hq : blockOf i = q := Fin.ext (by show (i 0).val / 200 = q.val; omega)
  have hy : inBlock i = y := funext fun a => Fin.ext (by
    match a with
    | ⟨0, _⟩ => show (i 0).val % 200 = (y 0).val; omega
    | ⟨1, _⟩ => exact h1)
  unfold arrayLogp
  rw [hq, hy]

variable (V : (c : Dev nD) → (b : Ref sig .tc) → Buf (Elt F) ((c : Thread nD τ).loc b))

/-- The whole result at the arrays as the region finds them. -/
def result (c : Dev nD) : Vec F S10000x10000 .f32 := arrayLogp (V c main_v58) (V c main_v59) (V c main_v60)

/-- What point `t` writes back is the block of rows 200·t … 200·t + 199 of the whole result. -/
theorem flushed_eq (c : Dev nD) (t : Fin cfg1.N) (hf : (cfg1.win 3).flush t = true) :
    (dat1 V c).flushed 3 t = ((cfg1.win 3).blk t).view.read (Elt F) (result V c) := by
  obtain ⟨-, -, -, -, -, -, e0, e1⟩ := idx_facts t
  have hN : cfg1.N = 50 := N_eq
  have ht : t.val < 50 := by have := t.isLt; omega
  show (cfg1.win 3).cut (grid1.coords t) ((dat1 V c).after 3 t) = _
  rw [after1_3, outsAt_eq V c t, iblk_0 V c t ⟨t.val, ht⟩ rfl, iblk_1 V c t, iblk_2 V c t]
  funext y
  rw [View.read_apply]
  show blockLogp (rowBlock (V c main_v58) ⟨t.val, ht⟩) (V c main_v59) (V c main_v60) _ = result V c _
  refine (arrayLogp_apply (V c main_v58) (V c main_v59) (V c main_v60) _ ⟨t.val, ht⟩ _ ?_ ?_).symm
  · show win1_3.index t 0 * 200 + 1 * (y 0).val = 200 * t.val + (y 0).val; rw [e0]; omega
  · show win1_3.index t 1 * 10000 + 1 * (y 1).val = (y 1).val; rw [e1]; omega

/-- Every entry of the array lies in the block written back at point (row div 200). -/
theorem covered (i : S10000x10000.Idx) :
    ∃ t : Fin cfg1.N, (cfg1.win 3).flush t = true ∧ i ∈ ((cfg1.win 3).blk t).view.set := by
  have hN : cfg1.N = 50 := N_eq
  have h0 : (i 0).val < 10000 := idx2_lt0 i
  have h1 : (i 1).val < 10000 := idx2_lt1 i
  let t : Fin cfg1.N := ⟨(i 0).val / 200, by rw [hN]; omega⟩
  obtain ⟨-, -, -, -, -, -, e0, e1⟩ := idx_facts t
  have e0' : win1_3.index t 0 = (i 0).val / 200 := e0
  refine ⟨t, flush1_3 t, ?_⟩
  show i ∈ ((View.whole main_v61).slice (win1_3.rect t)).set
  rw [View.set_slice_whole, Rect.mem_set_unit]
  intro a
  match a with
  | ⟨0, _⟩ => show win1_3.index t 0 * 200 ≤ (i 0).val ∧ (i 0).val < win1_3.index t 0 * 200 + 200
              rw [e0']; omega
  | ⟨1, _⟩ => show win1_3.index t 1 * 10000 ≤ (i 1).val ∧ (i 1).val < win1_3.index t 1 * 10000 + 10000
              rw [e1]; omega

/-- The output array after the region's last point is the whole result. -/
theorem arr_eq (c : Dev nD) : (dat1 V c).arrAt 3 cfg1.N = result V c :=
  (dat1 V c).arrAt_eq_of_cover 3 (result V c) (flushed_eq V c) covered

variable (m : (ℓ : Loc nD τ sig) → Buf (Elt F) ℓ) (ρ : Dev nD → PrngReg)

/-- The program's first result buffer, after the second region, holds the whole result at the arrays the region finds. -/
theorem W12_out (c : Dev nD) : W12 m ρ c (Proc.devRef .tc main_v61) = result (V11 m ρ) c :=
  (W12_arr m ρ c 3).trans (arr_eq (V11 m ρ) c)

end Cert.KernelIdeal.Region1

end
-- ==== Proof.KerReadOps.lean ====
/-
  The operations of the kernel's first Chebyshev layer, each read at an index, over the extended reals.

  The layer is written with a handful of operation forms: products of matrices into a zero accumulator (a 64 × 10000 by
  10000 × 64 product, 64 × 64 by 64 × 64 products, and 10000 × 64 by 64 × 64 products), a column of 64 numbers spread over
  the 64 columns of a matrix, a row of 64 numbers spread over 10000 rows, one 64 × 64 slab of a stack viewed as a matrix, a
  vector of 64 numbers viewed as a row, the sum of the rows of a 10000 × 64 matrix, a number spread over an array, and the
  entrywise arithmetic. Over the extended reals a change of number format is the identity, a product of matrices is the
  plain sum of products over the contracted position, and the layout operations only rename the position read. Each lemma
  below says so for one form, at a position written by its coordinates. The number literals the layer uses (1, 0, −1, −0,
  2, −2, the row count 10000 and the ε of batch normalisation) are evaluated from their bit patterns.
-/
import proofs.«135777_j83262236000435_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.KerRead

open Idealize.ShloMosaic Idealize.ShloMosaic.ValueIdx

/-! ## Arrays read by coordinates -/

/-- A rank-2 array read as a matrix: entry `(a, b)`. -/
def mat2 {m n : ℕ} (v : (⟨2, ![m, n]⟩ : Shape).Idx → EReal) : Fin m → Fin n → EReal := fun a b => v (ix2 a b)
/-- A one-column array read as a vector: entry `a` of the column. -/
def col {m : ℕ} (v : (⟨2, ![m, 1]⟩ : Shape).Idx → EReal) : Fin m → EReal := fun a => v (ix2 a (0 : Fin 1))
/-- A one-row array read as a vector: entry `j` of the row. -/
def row {n : ℕ} (v : (⟨2, ![1, n]⟩ : Shape).Idx → EReal) : Fin n → EReal := fun j => v (ix2 (0 : Fin 1) j)
/-- A stack of one matrix read as that matrix: entry `(a, b)` of slab `0`. -/
def slab {m n : ℕ} (w : (⟨3, ![1, m, n]⟩ : Shape).Idx → EReal) : Fin m → Fin n → EReal := fun a b => w (ix3 (0 : Fin 1) a b)

theorem mat2_apply {m n : ℕ} (v : (⟨2, ![m, n]⟩ : Shape).Idx → EReal) (a : Fin m) (b : Fin n) : mat2 v a b = v (ix2 a b) := rfl
theorem col_apply {m : ℕ} (v : (⟨2, ![m, 1]⟩ : Shape).Idx → EReal) (a : Fin m) : col v a = v (ix2 a (0 : Fin 1)) := rfl
theorem row_apply {n : ℕ} (v : (⟨2, ![1, n]⟩ : Shape).Idx → EReal) (j : Fin n) : row v j = v (ix2 (0 : Fin 1) j) := rfl
theorem slab_apply {m n : ℕ} (w : (⟨3, ![1, m, n]⟩ : Shape).Idx → EReal) (a : Fin m) (b : Fin n) :
    slab w a b = w (ix3 (0 : Fin 1) a b) := rfl

/-- Six arrays as one family indexed by the filter order `k = 0, …, 5`. -/
def wsel {α : Type} (w0 w1 w2 w3 w4 w5 : α) : Fin 6 → α := ![w0, w1, w2, w3, w4, w5]
/-- Six one-matrix stacks as the family of their matrices: entry `(a, b)` of slab `0` of the `k`-th. -/
def wslab {m n : ℕ} (w0 w1 w2 w3 w4 w5 : (⟨3, ![1, m, n]⟩ : Shape).Idx → EReal) : Fin 6 → Fin m → Fin n → EReal :=
  fun k => slab (wsel w0 w1 w2 w3 w4 w5 k)

theorem wslab_apply {m n : ℕ} (w0 w1 w2 w3 w4 w5 : (⟨3, ![1, m, n]⟩ : Shape).Idx → EReal) (k : Fin 6) (a : Fin m) (b : Fin n) :
    wslab w0 w1 w2 w3 w4 w5 k a b = wsel w0 w1 w2 w3 w4 w5 k (ix3 (0 : Fin 1) a b) := rfl
theorem wslab_0 {m n : ℕ} (w0 w1 w2 w3 w4 w5 : (⟨3, ![1, m, n]⟩ : Shape).Idx → EReal) : wslab w0 w1 w2 w3 w4 w5 0 = slab w0 := rfl
theorem wslab_1 {m n : ℕ} (w0 w1 w2 w3 w4 w5 : (⟨3, ![1, m, n]⟩ : Shape).Idx → EReal) : wslab w0 w1 w2 w3 w4 w5 1 = slab w1 := rfl
theorem wslab_2 {m n : ℕ} (w0 w1 w2 w3 w4 w5 : (⟨3, ![1, m, n]⟩ : Shape).Idx → EReal) : wslab w0 w1 w2 w3 w4 w5 2 = slab w2 := rfl
theorem wslab_3 {m n : ℕ} (w0 w1 w2 w3 w4 w5 : (⟨3, ![1, m, n]⟩ : Shape).Idx → EReal) : wslab w0 w1 w2 w3 w4 w5 3 = slab w3 := rfl
theorem wslab_4 {m n : ℕ} (w0 w1 w2 w3 w4 w5 : (⟨3, ![1, m, n]⟩ : Shape).Idx → EReal) : wslab w0 w1 w2 w3 w4 w5 4 = slab w4 := rfl
theorem wslab_5 {m n : ℕ} (w0 w1 w2 w3 w4 w5 : (⟨3, ![1, m, n]⟩ : Shape).Idx → EReal) : wslab w0 w1 w2 w3 w4 w5 5 = slab w5 := rfl

/-! ## The number literals

An f32 bit pattern denotes the extended real its sign, exponent and significand fields give. Both zero patterns denote 0. -/

theorem lit_one : Ideal.ofBits .f32 0x3F800000#32 = ((1 : ℝ) : EReal) := by
  simp [Ideal.ofBits, Ideal.ieee, -EReal.coe_mul] <;> norm_num
theorem lit_zero : Ideal.ofBits .f32 0x00000000#32 = ((0 : ℝ) : EReal) := by
  simp [Ideal.ofBits, Ideal.ieee]
theorem lit_negOne : Ideal.ofBits .f32 0xBF800000#32 = ((-1 : ℝ) : EReal) := by
  simp [Ideal.ofBits, Ideal.ieee, -EReal.coe_mul] <;> norm_num
theorem lit_negZero : Ideal.ofBits .f32 0x80000000#32 = ((0 : ℝ) : EReal) := by
  simp [Ideal.ofBits, Ideal.ieee]
theorem lit_two : Ideal.ofBits .f32 0x40000000#32 = ((2 : ℝ) : EReal) := by
  simp [Ideal.ofBits, Ideal.ieee, -EReal.coe_mul] <;> norm_num
theorem lit_negTwo : Ideal.ofBits .f32 0xC0000000#32 = ((-2 : ℝ) : EReal) := by
  simp [Ideal.ofBits, Ideal.ieee, -EReal.coe_mul] <;> norm_num
/-- The row count: the pattern of 1.0e4 denotes exactly 10000. -/
theorem lit_N : Ideal.ofBits .f32 0x461C4000#32 = ((10000 : ℝ) : EReal) := by
  simp [Ideal.ofBits, Ideal.ieee, -EReal.coe_mul] <;> norm_num
/-- The ε of batch normalisation: the pattern nearest to 1.0e-3 denotes 8589935 · 2⁻³³. -/
theorem lit_eps : Ideal.ofBits .f32 0x3A83126F#32 = (((8589935 : ℝ) / 2 ^ 33 : ℝ) : EReal) := by
  simp [Ideal.ofBits, Ideal.ieee, -EReal.coe_mul] <;> norm_num
theorem lit_N_pos : (0 : ℝ) < 10000 := by norm_num
theorem lit_eps_pos : (0 : ℝ) < (8589935 : ℝ) / 2 ^ 33 := by positivity

/-- A scalar literal at the extended reals is what its pattern denotes. -/
theorem scalar_ofBits (w : BitVec 32) : Scalar.ofBits (F := Ideal) .f32 w = Ideal.ofBits .f32 w := rfl

/-- A number spread over an array reads that number everywhere. -/
theorem splat_apply {s : Shape} (w : BitVec 32) (i : s.Idx) :
    broadcast s (Scalar.ofBits (F := Ideal) .f32 w) i = Ideal.ofBits .f32 w := rfl

/-! ## Changes of format, and the entrywise operations

Over the extended reals a narrowing or widening of the format does nothing. -/

theorem truncf_eq {s : Shape} {φ ψ : FTy} (v : FVec Ideal s φ) (h : ψ.bits < φ.bits) : (truncf ψ v h : s.Idx → EReal) = v := rfl
theorem extf_eq {s : Shape} {φ ψ : FTy} (v : FVec Ideal s φ) (h : φ.bits < ψ.bits) : (extf ψ v h : s.Idx → EReal) = v := rfl
theorem rsqrt_apply {s : Shape} {φ : FTy} (v : FVec Ideal s φ) (i : s.Idx) : rsqrt v i = Ideal.rsqrt (v i) := rfl

/-! ### The 64 × 10000 by 10000 × 64 product -/

theorem lhsA_0 (i : S64x64.Idx) (q : dot_S64x10000_S10000x64_S64x64_1_0_0_1_n_n.contr.Idx) :
    (dot_S64x10000_S10000x64_S64x64_1_0_0_1_n_n.lhsIdx i q 0).val = (i 0).val := by
  unfold DotDims.lhsIdx
  rw [dif_neg (show ¬(0 : Fin S64x10000.rank) ∈ dot_S64x10000_S10000x64_S64x64_1_0_0_1_n_n.lhsBatch by decide),
    dif_pos (show (0 : Fin S64x10000.rank) ∈ dot_S64x10000_S10000x64_S64x64_1_0_0_1_n_n.lhsNonContracting by decide)]
  rfl

theorem lhsA_1 (i : S64x64.Idx) (q : dot_S64x10000_S10000x64_S64x64_1_0_0_1_n_n.contr.Idx) :
    (dot_S64x10000_S10000x64_S64x64_1_0_0_1_n_n.lhsIdx i q 1).val = (q ⟨0, by decide⟩).val :=
  dot_S64x10000_S10000x64_S64x64_1_0_0_1_n_n.lhsIdx_val_of_single rfl i q

theorem rhsA_0 (i : S64x64.Idx) (q : dot_S64x10000_S10000x64_S64x64_1_0_0_1_n_n.contr.Idx) :
    (dot_S64x10000_S10000x64_S64x64_1_0_0_1_n_n.rhsIdx i q 0).val = (q ⟨0, by decide⟩).val :=
  dot_S64x10000_S10000x64_S64x64_1_0_0_1_n_n.rhsIdx_val_of_single rfl i q

theorem rhsA_1 (i : S64x64.Idx) (q : dot_S64x10000_S10000x64_S64x64_1_0_0_1_n_n.contr.Idx) :
    (dot_S64x10000_S10000x64_S64x64_1_0_0_1_n_n.rhsIdx i q 1).val = (i 1).val := by
  unfold DotDims.rhsIdx
  rw [dif_neg (show ¬(1 : Fin S10000x64.rank) ∈ dot_S64x10000_S10000x64_S64x64_1_0_0_1_n_n.rhsBatch by decide),
    dif_pos (show (1 : Fin S10000x64.rank) ∈ dot_S64x10000_S10000x64_S64x64_1_0_0_1_n_n.rhsNonContracting by decide)]
  rfl

/-- The product into a zero accumulator, read at `(a, b)`: the sum over the 10000 contracted positions of the left
    operand's row `a` times the right operand's column `b`, whatever the precision attribute and the operands' formats. -/
theorem matmulA_apply {φ₁ φ₂ : FTy} (p : Option ContractPrecision) (l : FVec Ideal S64x10000 φ₁) (r : FVec Ideal S10000x64 φ₂)
    (a : Fin 64) (b : Fin 64) :
    matmul dot_S64x10000_S10000x64_S64x64_1_0_0_1_n_n p l r (constant (F := Ideal) S64x64 .f32 0x00000000#32) (ix2 a b)
      = ∑ k : Fin 10000, l (ix2 a k) * r (ix2 k b) := by
  simp only [matmul]
  rw [Ideal.matmul_constant_zero_apply, ← Equiv.sum_comp (contrEquiv1 dot_S64x10000_S10000x64_S64x64_1_0_0_1_n_n 10000 rfl rfl).symm]
  refine Finset.sum_congr rfl fun k _ => ?_
  have hk := contrEquiv1_symm_val dot_S64x10000_S10000x64_S64x64_1_0_0_1_n_n 10000 rfl rfl k
  have el : dot_S64x10000_S10000x64_S64x64_1_0_0_1_n_n.lhsIdx (ix2 a b) ((contrEquiv1 dot_S64x10000_S10000x64_S64x64_1_0_0_1_n_n 10000 rfl rfl).symm k) = ix2 a k :=
    funext fun c => Fin.ext (by
      match c with
      | ⟨0, _⟩ => exact lhsA_0 _ _
      | ⟨1, _⟩ => exact (lhsA_1 _ _).trans hk)
  have er : dot_S64x10000_S10000x64_S64x64_1_0_0_1_n_n.rhsIdx (ix2 a b) ((contrEquiv1 dot_S64x10000_S10000x64_S64x64_1_0_0_1_n_n 10000 rfl rfl).symm k) = ix2 k b :=
    funext fun c => Fin.ext (by
      match c with
      | ⟨0, _⟩ => exact (rhsA_0 _ _).trans hk
      | ⟨1, _⟩ => exact rhsA_1 _ _)
  rw [el, er]

/-! ### The 64 × 64 by 64 × 64 product -/

theorem lhsB_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide),
    dif_pos (show (0 : Fin S64x64.rank) ∈ dot_S64x64_S64x64_S64x64_1_0_0_1_n_n.lhsNonContracting by decide)]
  rfl

theorem lhsB_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q

theorem rhsB_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q

theorem rhsB_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide),
    dif_pos (show (1 : Fin S64x64.rank) ∈ dot_S64x64_S64x64_S64x64_1_0_0_1_n_n.rhsNonContracting by decide)]
  rfl

/-- The product into a zero accumulator, read at `(a, b)`: the sum over the 64 contracted positions of the left
    operand's row `a` times the right operand's column `b`, whatever the precision attribute and the operands' formats. -/
theorem matmulB_apply {φ₁ φ₂ : FTy} (p : Option ContractPrecision) (l : FVec Ideal S64x64 φ₁) (r : FVec Ideal S64x64 φ₂)
    (a : Fin 64) (b : Fin 64) :
    matmul dot_S64x64_S64x64_S64x64_1_0_0_1_n_n p l r (constant (F := Ideal) S64x64 .f32 0x00000000#32) (ix2 a b)
      = ∑ k : Fin 64, l (ix2 a k) * r (ix2 k b) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 a b) ((contrEquiv1 dot_S64x64_S64x64_S64x64_1_0_0_1_n_n 64 rfl rfl).symm k) = ix2 a k :=
    funext fun c => Fin.ext (by
      match c with
      | ⟨0, _⟩ => exact lhsB_0 _ _
      | ⟨1, _⟩ => exact (lhsB_1 _ _).trans hk)
  have er : dot_S64x64_S64x64_S64x64_1_0_0_1_n_n.rhsIdx (ix2 a b) ((contrEquiv1 dot_S64x64_S64x64_S64x64_1_0_0_1_n_n 64 rfl rfl).symm k) = ix2 k b :=
    funext fun c => Fin.ext (by
      match c with
      | ⟨0, _⟩ => exact (rhsB_0 _ _).trans hk
      | ⟨1, _⟩ => exact rhsB_1 _ _)
  rw [el, er]

/-! ### The 10000 × 64 by 64 × 64 product -/

theorem lhsC_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem lhsC_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem rhsC_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem rhsC_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product into a zero accumulator, read at `(a, b)`: the sum over the 64 contracted positions of the left
    operand's row `a` times the right operand's column `b`, whatever the precision attribute and the operands' formats. -/
theorem matmulC_apply {φ₁ φ₂ : FTy} (p : Option ContractPrecision) (l : FVec Ideal S10000x64 φ₁) (r : FVec Ideal S64x64 φ₂)
    (a : Fin 10000) (b : Fin 64) :
    matmul dot_S10000x64_S64x64_S10000x64_1_0_0_1_n_n p l r (constant (F := Ideal) S10000x64 .f32 0x00000000#32) (ix2 a b)
      = ∑ k : Fin 64, l (ix2 a k) * r (ix2 k b) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 a b) ((contrEquiv1 dot_S10000x64_S64x64_S10000x64_1_0_0_1_n_n 64 rfl rfl).symm k) = ix2 a k :=
    funext fun c => Fin.ext (by
      match c with
      | ⟨0, _⟩ => exact lhsC_0 _ _
      | ⟨1, _⟩ => exact (lhsC_1 _ _).trans hk)
  have er : dot_S10000x64_S64x64_S10000x64_1_0_0_1_n_n.rhsIdx (ix2 a b) ((contrEquiv1 dot_S10000x64_S64x64_S10000x64_1_0_0_1_n_n 64 rfl rfl).symm k) = ix2 k b :=
    funext fun c => Fin.ext (by
      match c with
      | ⟨0, _⟩ => exact (rhsC_0 _ _).trans hk
      | ⟨1, _⟩ => exact rhsC_1 _ _)
  rw [el, er]

/-! ## Layout operations -/

/-- A column `[a, 1]` spread to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column of 64 numbers spread over the 64 columns of a matrix. -/
theorem bcastCol_apply {α : Type} (v : S64x1.Idx → α) (h : S64x1.Broadcasts S64x64) (a b : Fin 64) :
    broadcastTo S64x64 v h (ix2 a b) = v (ix2 a (0 : Fin 1)) :=
  broadcastTo_a1_ab_apply v h a b

/-- The row of 64 numbers spread over 10000 rows. -/
theorem bcastRow_apply {α : Type} (v : S1x64.Idx → α) (h : S1x64.Broadcasts S10000x64) (i : Fin 10000) (j : Fin 64) :
    broadcastTo S10000x64 v h (ix2 i j) = v (ix2 (0 : Fin 1) j) :=
  broadcastTo_1b_ab_apply v h i j

/-- One 64 × 64 slab of a stack viewed as a matrix. -/
theorem castSlab_apply {α : Type} (w : S1x64x64.Idx → α) (h : S1x64x64.ShapeCasts S64x64) (a b : Fin 64) :
    shapeCast S64x64 w h (ix2 a b) = w (ix3 (0 : Fin 1) a b) :=
  shapeCast_1ab_ab_apply w h a b

/-- A vector of 64 numbers viewed as a row. -/
theorem castRow_apply {α : Type} (v : S64.Idx → α) (h : S64.ShapeCasts S1x64) (u : Fin 1) (j : Fin 64) :
    shapeCast S1x64 v h (ix2 u j) = v (ix1 j) :=
  shapeCast_a_1a_apply v h u j

/-! ## The sum of the rows -/

/-- The sum over the 10000 rows of a 10000 × 64 matrix, as a vector of 64 numbers. -/
def colSum (v : FVec Ideal S10000x64 .f32) : FVec Ideal S64 .f32 := fun jj => ∑ i : Fin 10000, v (ix2 i (jj 0))

theorem colSum_apply (v : FVec Ideal S10000x64 .f32) (j : Fin 64) : colSum v (ix1 j) = ∑ i : Fin 10000, v (ix2 i j) := rfl

/-- The row-sum operation from the zero pattern, read at column `j`: the sum over the 10000 rows. The side condition on
    the starting pattern is the statement that the zero pattern is the zero pattern, among words of the format's width. -/
theorem sumRows_apply (v : FVec Ideal S10000x64 .f32) (h : S10000x64.Reduces [0] S64) (hφ : FKind.Formats .f32)
    (hacc : (0x00000000#32 : BitVec FTy.f32.bits) = 0x00000000#32) (j : Fin 64) :
    multiReduction (F := Ideal) .add [0] S64 v 0x00000000#32 h hφ hacc (ix1 j) = ∑ i : Fin 10000, v (ix2 i j) := by
  refine (Ideal.multiReduction_add_single v 0x00000000#32 h hφ hacc (ix1 j)).trans ?_
  refine Finset.sum_congr rfl fun k _ => ?_
  exact congrArg v (funext fun c => Fin.ext (by match c with | ⟨0, _⟩ => rfl | ⟨1, _⟩ => rfl))

/-- As a vector, the row-sum operation is `colSum`. -/
theorem multiReduction_eq_colSum (v : FVec Ideal S10000x64 .f32) (h : S10000x64.Reduces [0] S64) (hφ : FKind.Formats .f32)
    (hacc : (0x00000000#32 : BitVec FTy.f32.bits) = 0x00000000#32) :
    multiReduction (F := Ideal) .add [0] S64 v 0x00000000#32 h hφ hacc = colSum v := by
  funext jj
  rw [eq_ix1 jj]
  exact sumRows_apply v h hφ hacc (jj 0)

end Cert.KernelIdeal.KerRead

end
-- ==== Proof.Region1Ops.lean ====
/-
  The operations of the second region's body, each read at one entry, over the extended reals.

  The body multiplies a 200 × 256 block by the 256 × 10000 weight matrix into a zero accumulator, spreads the one bias row
  over the 200 rows, takes each row's maximum starting from −∞ and each row's sum starting from 0, views a vector of 200
  numbers as a column and spreads that column over the 10000 columns. Over the extended reals the product is the plain
  sum of products over the 256 contracted positions, the bit pattern of −∞ denotes ⊥ and that of 0 denotes 0, a row's
  maximum is the fold of max over the row from ⊥ and a row's sum is the sum over the row, and the layout operations only
  rename the entry read.
-/
import proofs.«135777_j83262236000435_2_alg».proof.Proof.KerReadOps
import Idealize.ShloMosaic.Lib.KernelVsHost
import Idealize.ShloMosaic.Lib.StackMember

set_option maxRecDepth 16384
set_option pp.maxSteps 5000
set_option pp.deepTerms false

noncomputable section

open scoped BigOperators

namespace Cert.KernelIdeal.Region1

open Idealize.ShloMosaic Idealize.ShloMosaic.ValueIdx
open Cert.KernelIdeal

/-- The bit pattern of −∞ denotes the least extended real. -/
theorem lit_negInf : Ideal.ofBits .f32 0xFF800000#32 = (⊥ : EReal) := by
  simp [Ideal.ofBits, Ideal.ieee]

/-- The product of a 200 × 256 block by the 256 × 10000 matrix into a zero accumulator, read at (a, b): the sum over the
    256 contracted positions of the block's row a times the matrix's column b, whatever the operands' formats. -/
theorem matmulRows_apply {φ₁ φ₂ : FTy} (p : Option ContractPrecision) (l : FVec Ideal S200x256 φ₁) (r : FVec Ideal S256x10000 φ₂)
    (a : Fin 200) (b : Fin 10000) :
    matmul dot_S200x256_S256x10000_S200x10000_1_0_0_1_n_n p l r (constant (F := Ideal) S200x10000 .f32 0x00000000#32) (ix2 a b)
      = ∑ k : Fin 256, l (ix2 a k) * r (ix2 k b) :=
  (congrFun (matmul_zero_eq_dotGeneral dot_S200x256_S256x10000_S200x10000_1_0_0_1_n_n p l r) (ix2 a b)).trans
    (StackMember.dotGeneral_plain_apply (m := 200) (n := 10000) (k := 256) p l r a b)

/-- The one bias row spread over the 200 rows reads, at (a, b), the row's entry b. -/
theorem bcastBias_apply {α : Type} (v : S1x10000.Idx → α) (h : S1x10000.Broadcasts S200x10000) (a : Fin 200) (b : Fin 10000) :
    broadcastTo S200x10000 v h (ix2 a b) = v (ix2 (0 : Fin 1) b) :=
  broadcastTo_1b_ab_apply v h a b

/-- A vector of a numbers viewed as a column reads, at (i, 0), the vector's entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of 200 numbers viewed as a column and spread over the 10000 columns reads, at (a, b), the vector's entry a. -/
theorem bcastCol_apply {α : Type} (v : S200.Idx → α) (hc : S200.ShapeCasts S200x1) (hb : S200x1.Broadcasts S200x10000)
    (a : Fin 200) (b : Fin 10000) :
    broadcastTo S200x10000 (shapeCast S200x1 v hc) hb (ix2 a b) = v (ix1 a) :=
  (KerRead.broadcastTo_a1_ab_apply (shapeCast S200x1 v hc) hb a b).trans (shapeCast_a_a1_apply v hc a (0 : Fin 1))

/-- The maxima of the rows of a 200 × 10000 block from −∞, read at row a: the fold of max from ⊥ over the row. -/
theorem maxRows_apply (v : FVec Ideal S200x10000 .f32) (h : S200x10000.Reduces [1] S200) (hφ : FKind.Formats .f32)
    (hacc : (0xFF800000#32 : BitVec 32) = 0xFF800000#32) (a : Fin 200) :
    multiReduction (F := Ideal) .maximumf [1] S200 v 0xFF800000#32 h hφ hacc (ix1 a)
      = (Finset.univ : Finset (Fin 10000)).fold max (⊥ : EReal) (fun j => v (ix2 a j)) := by
  refine (Ideal.multiReduction_maximumf_single v 0xFF800000#32 h hφ hacc (ix1 a)).trans ?_
  show (Finset.univ : Finset (Fin 10000)).fold max (Ideal.ofBits .f32 0xFF800000#32) (v ∘ h.lift (ix1 a)) = _
  rw [lit_negInf]
  refine congrArg (fun f => Finset.fold max (⊥ : EReal) f Finset.univ) ?_
  funext k
  exact congrArg v (funext fun c => Fin.ext (by match c with | ⟨0, _⟩ => rfl | ⟨1, _⟩ => rfl))

/-- The sums of the rows of a 200 × 10000 block from 0, read at row a: the sum over the row. -/
theorem sumRows_apply (v : FVec Ideal S200x10000 .f32) (h : S200x10000.Reduces [1] S200) (hφ : FKind.Formats .f32)
    (hacc : (0x00000000#32 : BitVec 32) = 0x00000000#32) (a : Fin 200) :
    multiReduction (F := Ideal) .add [1] S200 v 0x00000000#32 h hφ hacc (ix1 a) = ∑ j : Fin 10000, v (ix2 a j) := by
  refine (Ideal.multiReduction_add_single v 0x00000000#32 h hφ hacc (ix1 a)).trans ?_
  refine Finset.sum_congr rfl fun k _ => ?_
  exact congrArg v (funext fun c => Fin.ext (by match c with | ⟨0, _⟩ => rfl | ⟨1, _⟩ => rfl))

/-- The exponential and the logarithm at an entry are the idealized ones of the entry. -/
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

end Cert.KernelIdeal.Region1

end
-- ==== Proof.LibLogSoftmaxRow.lean ====
/-
  One row of a log-softmax over the extended reals, with the row maximum taken in two ways.

  For a row z over a finite index, the stabilised log-softmax is  z j − m − log (Σ_{j'} exp (z j' − m))  with m the
  maximum of the row. The maximum of a finite row is the fold of max over its entries starting from ⊥, the least
  extended real. Taking max ⊥ of that fold once more changes nothing, because ⊥ is the least element: max ⊥ a = a.
  Hence the formula with m = fold and the formula with m = max ⊥ fold are the same function of the row. No
  finiteness of the entries is involved: both sides are literally the same operations on the same values.
-/
import Mathlib.Data.EReal.Basic
import Mathlib.Data.EReal.Operations
import Mathlib.Data.Finset.Fold
import Mathlib.Data.Finset.Lattice.Fold
import Mathlib.Data.Fintype.Basic
import Idealize.ShloMosaic.PureOps.Ideal

noncomputable section

open scoped BigOperators

namespace Cert.Lib.LogSoftmax

open Idealize.ShloMosaic

variable {k : Type*} [Fintype k]

/-- The least extended real is neutral for max on the left: max ⊥ a = a. -/
theorem max_bot_left' (a : EReal) : max (⊥ : EReal) a = a :=
  max_eq_right bot_le

/-- The least extended real is neutral for max on the right: max a ⊥ = a. -/
theorem max_bot_right' (a : EReal) : max a (⊥ : EReal) = a :=
  max_eq_left bot_le

/-- The maximum of a finite row: the fold of max over its entries, starting from ⊥. -/
def rowMax (z : k → EReal) : EReal := Finset.univ.fold max ⊥ z

/-- The fold of max from ⊥ is the supremum of the row. -/
theorem rowMax_eq_sup (z : k → EReal) : rowMax z = Finset.univ.sup z := rfl

/-- Every entry of a row is at most the row maximum. -/
theorem le_rowMax (z : k → EReal) (j : k) : z j ≤ rowMax z := by
  rw [rowMax_eq_sup]; exact Finset.le_sup (f := z) (Finset.mem_univ j)

/-- The stabilised log-softmax of a row with a given shift m:
    entry j is  z j − m − log (Σ_{j'} exp (z j' − m)), with the idealized exp and log. -/
def logSoftmaxRow (m : EReal) (z : k → EReal) : k → EReal :=
  fun j => z j - m - Ideal.log (∑ j', Ideal.exp (z j' - m))

/-- Shifting by max ⊥ m is shifting by m. -/
theorem logSoftmaxRow_max_bot (m : EReal) (z : k → EReal) :
    logSoftmaxRow (max ⊥ m) z = logSoftmaxRow m z := by
  rw [max_bot_left']

/-- The row formula with the row maximum as the shift. -/
def logSoftmaxKer (z : k → EReal) : k → EReal := logSoftmaxRow (rowMax z) z

/-- The row formula with max ⊥ (row maximum) as the shift. -/
def logSoftmaxRef (z : k → EReal) : k → EReal := logSoftmaxRow (max ⊥ (rowMax z)) z

/-- The two row formulas are the same function of the row. -/
theorem logSoftmaxRef_eq_logSoftmaxKer (z : k → EReal) : logSoftmaxRef z = logSoftmaxKer z :=
  logSoftmaxRow_max_bot (rowMax z) z

/-- The same statement entry by entry, with the formulas written out. -/
theorem logSoftmax_entry_max_bot (m : EReal) (z : k → EReal) (j : k) :
    z j - max ⊥ m - Ideal.log (∑ j', Ideal.exp (z j' - max ⊥ m))
      = z j - m - Ideal.log (∑ j', Ideal.exp (z j' - m)) := by
  rw [max_bot_left']

end Cert.Lib.LogSoftmax

end
-- ==== Proof.Region1Value.lean ====
/-
  One entry of the second region's result, over the extended reals.

  Row r of a block's logits is  z j = Σ_k x (r, k) · w (k, j) + b (0, j): the rounding of the descriptor block to bf16 is
  the identity over the extended reals. The body subtracts from the row its maximum, the fold of max over the row from ⊥,
  and then the logarithm of the sum of the exponentials of the shifted row: entry (r, j) of the block is the stabilised
  log-softmax of row r at j. In the whole array, row i is row i mod 200 of block i div 200, whose descriptor rows are rows
  200·(i div 200) … of the descriptor array: entry (i, j) is the log-softmax at j of
  z j = Σ_k desc (i, k) · w (k, j) + b (0, j).
-/
import proofs.«135777_j83262236000435_2_alg».proof.Proof.Region1Array
import proofs.«135777_j83262236000435_2_alg».proof.Proof.Region1Ops
import proofs.«135777_j83262236000435_2_alg».proof.Proof.LibLogSoftmaxRow

set_option maxRecDepth 16384
set_option pp.maxSteps 5000
set_option pp.deepTerms false

noncomputable section

open scoped BigOperators

namespace Cert.KernelIdeal.Region1

open Idealize.ShloMosaic Idealize.ShloMosaic.ValueIdx
open Cert.KernelIdeal Cert.KernelIdeal.Gen
open Cert.Lib.LogSoftmax

/-- Row r of a block's logits: the products of the block's row r with the weight matrix's columns, plus the bias row. -/
def blockRow (x0 : FVec Ideal S200x256 .f32) (x1 : FVec Ideal S256x10000 .bf16) (x2 : FVec Ideal S1x10000 .f32) (r : Fin 200) :
    Fin 10000 → EReal :=
  fun j => (∑ k : Fin 256, x0 (ix2 r k) * x1 (ix2 k j)) + x2 (ix2 (0 : Fin 1) j)

/-- The block's logits at (r, j). -/
theorem blockLogits_apply (x0 : FVec Ideal S200x256 .f32) (x1 : FVec Ideal S256x10000 .bf16) (x2 : FVec Ideal S1x10000 .f32)
    (r : Fin 200) (j : Fin 10000) : blockLogits (F := Ideal) x0 x1 x2 (ix2 r j) = blockRow x0 x1 x2 r j := by
  unfold blockLogits k1_pay1 blockRow
  simp only [shapeCast_self]
  rw [addf_apply, matmulRows_apply, bcastBias_apply]
  rfl

/-- The shifted block at (r, j): the entry minus the maximum of its row. -/
theorem blockShifted_apply (z : FVec Ideal S200x10000 .f32) (r : Fin 200) (j : Fin 10000) :
    blockShifted (F := Ideal) z (ix2 r j) = z (ix2 r j) - rowMax (fun j' => z (ix2 r j')) := by
  unfold blockShifted k1_pay2
  simp only [shapeCast_self]
  rw [subf_apply, bcastCol_apply, maxRows_apply]
  rfl

/-- The normalised block at (r, j): the entry minus the logarithm of the sum of the exponentials of its row. -/
theorem blockNormalised_apply (s : FVec Ideal S200x10000 .f32) (r : Fin 200) (j : Fin 10000) :
    blockNormalised (F := Ideal) s (ix2 r j) = s (ix2 r j) - Ideal.log (∑ j', Ideal.exp (s (ix2 r j'))) := by
  unfold blockNormalised k1_pay3
  rw [subf_apply, KerRead.broadcastTo_a1_ab_apply, log_apply, shapeCast_a_a1_apply, sumRows_apply]
  rfl

/-- Entry (r, j) of the body's result is the stabilised log-softmax of row r of the block's logits, at j. -/
theorem blockLogp_apply (x0 : FVec Ideal S200x256 .f32) (x1 : FVec Ideal S256x10000 .bf16) (x2 : FVec Ideal S1x10000 .f32)
    (r : Fin 200) (j : Fin 10000) : blockLogp (F := Ideal) x0 x1 x2 (ix2 r j) = logSoftmaxKer (blockRow x0 x1 x2 r) j := by
  unfold blockLogp
  rw [blockNormalised_apply]
  simp only [blockShifted_apply, blockLogits_apply]
  rfl

/-- Row i of the whole array's logits. -/
def arrayRow (desc : FVec Ideal S10000x256 .f32) (w : FVec Ideal S256x10000 .bf16) (b : FVec Ideal S1x10000 .f32) (i : Fin 10000) :
    Fin 10000 → EReal :=
  fun j => (∑ k : Fin 256, desc (ix2 i k) * w (ix2 k j)) + b (ix2 (0 : Fin 1) j)

/-- Row i mod 200 of the logits of block i div 200 is row i of the whole array's logits. -/
theorem blockRow_rowBlock (desc : FVec Ideal S10000x256 .f32) (w : FVec Ideal S256x10000 .bf16) (b : FVec Ideal S1x10000 .f32)
    (i : Fin 10000) (q : Fin 50) (r : Fin 200) (h : i.val = 200 * q.val + r.val) :
    blockRow (rowBlock (F := Ideal) desc q) w b r = arrayRow desc w b i := by
  funext j
  unfold blockRow arrayRow
  refine congrArg (· + b (ix2 (0 : Fin 1) j)) (Finset.sum_congr rfl fun k _ => congrArg (· * w (ix2 k j)) ?_)
  unfold rowBlock
  refine congrArg desc (funext fun a => Fin.ext ?_)
  match a with
  | ⟨0, _⟩ => show 200 * q.val + r.val = i.val; omega
  | ⟨1, _⟩ => rfl

/-- Entry (i, j) of the whole result is the stabilised log-softmax of row i of the logits, at j. -/
theorem arrayLogp_entry (desc : FVec Ideal S10000x256 .f32) (w : FVec Ideal S256x10000 .bf16) (b : FVec Ideal S1x10000 .f32)
    (i j : Fin 10000) : arrayLogp (F := Ideal) desc w b (ix2 i j) = logSoftmaxKer (arrayRow desc w b i) j := by
  have hi := i.isLt
  have hdm : i.val = 200 * (i.val / 200) + i.val % 200 := (Nat.div_add_mod i.val 200).symm
  refine (arrayLogp_apply (F := Ideal) desc w b (ix2 i j) ⟨i.val / 200, by omega⟩
    (ix2 (⟨i.val % 200, Nat.mod_lt _ (by omega)⟩ : Fin 200) j) hdm rfl).trans ?_
  rw [blockLogp_apply, blockRow_rowBlock desc w b i ⟨i.val / 200, by omega⟩ ⟨i.val % 200, Nat.mod_lt _ (by omega)⟩ hdm]

end Cert.KernelIdeal.Region1

end
-- ==== Proof.RefOpsRead.lean ====
/-
  The operations of the reference's layers, each read at one index.

  A matrix product at (a, b) is the sum over the contracted coordinate of the products of the entries; a vector
  broadcast along rows or columns reads the vector's entry at the column or at the row; a scalar broadcast reads
  the scalar; a column sum is the initial value plus the sum of the column's entries, and a row sum likewise; a
  slice of a stack of matrices followed by the removal of the unit axis reads the stack's entry; the pointwise
  operations read entry by entry. Every index is built from coordinates of literal extents.
-/
import proofs.«135777_j83262236000435_2_alg».proof.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.ReduceAll
import Idealize.ShloMosaic.Lib.IdealHost
import Idealize.ShloMosaic.Lib.KernelVsHost
import Idealize.ShloMosaic.Lib.StackMember

noncomputable section

open scoped BigOperators

namespace Cert.ReferenceIdeal.OpsRead

open Idealize.ShloMosaic Idealize.ShloMosaic.ValueIdx Cert.ReferenceIdeal
open Cert.ReferenceIdeal.Facts₀

/-! ## Generic forms, over any extents -/

section Generic
variable {α : Type} {m n : Nat}

/-- A vector placed as the one row of a 1 × n matrix reads, at (0, j), the vector at j. -/
theorem bcast_vec_row (h : (⟨1, ![n]⟩ : Shape).BroadcastsInDim ⟨2, ![1, n]⟩ ![1])
    (v : (⟨1, ![n]⟩ : Shape).Idx → α) (u : Fin 1) (j : Fin n) :
    broadcastInDim ⟨2, ![1, n]⟩ ![1] h v (ix2 u j) = v (ix1 j) := by
  refine broadcastInDim_apply ![1] h v (ix2 u j) (ix1 j) ?_
  intro a
  match a with
  | ⟨0, _⟩ =>
    show j.val = if n = 1 then 0 else j.val
    split_ifs with hn
    · have := j.isLt; omega
    · rfl

/-- A vector placed as the one column of an m × 1 matrix reads, at (a, 0), the vector at a. -/
theorem bcast_vec_col (h : (⟨1, ![m]⟩ : Shape).BroadcastsInDim ⟨2, ![m, 1]⟩ ![0])
    (v : (⟨1, ![m]⟩ : Shape).Idx → α) (a : Fin m) (u : Fin 1) :
    broadcastInDim ⟨2, ![m, 1]⟩ ![0] h v (ix2 a u) = v (ix1 a) := by
  refine broadcastInDim_apply ![0] h v (ix2 a u) (ix1 a) ?_
  intro c
  match c with
  | ⟨0, _⟩ =>
    show a.val = if m = 1 then 0 else a.val
    split_ifs with hm
    · have := a.isLt; omega
    · rfl

/-- A one-column matrix broadcast along n columns reads, at (a, b), the column at (a, 0). -/
theorem bcast_col_mat (h : (⟨2, ![m, 1]⟩ : Shape).BroadcastsInDim ⟨2, ![m, n]⟩ ![0, 1])
    (y : (⟨2, ![m, 1]⟩ : Shape).Idx → α) (a : Fin m) (b : Fin n) :
    broadcastInDim ⟨2, ![m, n]⟩ ![0, 1] h y (ix2 a b) = y (ix2 a (0 : Fin 1)) := by
  refine broadcastInDim_apply ![0, 1] h y (ix2 a b) (ix2 a (0 : Fin 1)) ?_
  intro c
  match c with
  | ⟨0, _⟩ =>
    show a.val = if m = 1 then 0 else a.val
    split_ifs with hm
    · have := a.isLt; omega
    · rfl
  | ⟨1, _⟩ =>
    show (0 : ℕ) = if (1 : ℕ) = 1 then 0 else _
    simp

/-- A vector broadcast down the rows of an m × n matrix (through a one-row matrix) reads, at (i, j), the vector
    at j. -/
theorem bcast_vec_rows (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (i : Fin m) (j : Fin n) :
    broadcastInDim ⟨2, ![m, n]⟩ ![0, 1] h2 (broadcastInDim ⟨2, ![1, n]⟩ ![1] h1 v) (ix2 i j) = v (ix1 j) :=
  (broadcastInDim_oneRow_apply h2 _ i j).trans (bcast_vec_row h1 v 0 j)

/-- A vector broadcast along the columns of an m × n matrix (through a one-column matrix) reads, at (a, b), the
    vector at a. -/
theorem bcast_vec_cols (h1 : (⟨1, ![m]⟩ : Shape).BroadcastsInDim ⟨2, ![m, 1]⟩ ![0])
    (h2 : (⟨2, ![m, 1]⟩ : Shape).BroadcastsInDim ⟨2, ![m, n]⟩ ![0, 1])
    (v : (⟨1, ![m]⟩ : Shape).Idx → α) (a : Fin m) (b : Fin n) :
    broadcastInDim ⟨2, ![m, n]⟩ ![0, 1] h2 (broadcastInDim ⟨2, ![m, 1]⟩ ![0] h1 v) (ix2 a b) = v (ix1 a) :=
  (bcast_col_mat h2 _ a b).trans (bcast_vec_col h1 v a 0)

/-- The sum of the columns of an m × n array from an initial scalar: at j, the initial value plus the sum over
    the rows i of the entry (i, j). -/
theorem reduceAdd_cols (h' : (⟨2, ![m, n]⟩ : Shape).ReducesTo [0] ⟨1, ![n]⟩)
    (hu : 0 < (⟨0, ![]⟩ : Shape).numel) (x : FVec Ideal ⟨2, ![m, n]⟩ .f32) (v : FVec Ideal ⟨0, ![]⟩ .f32)
    (j : Fin n) :
    Host.reduceAdd (F := Ideal) x v h' hu (ix1 j) = v ix0 + ∑ i : Fin m, x (ix2 i j) := by
  have h : (⟨2, ![m, n]⟩ : Shape).Reduces [0] ⟨1, ![n]⟩ := ⟨h'.1, Nat.one_pos, h'.2⟩
  rw [hostReduceAdd_apply, Ideal.hostReduceAdd_single h' h, eq_ix0 (Shape.Idx.first hu)]
  refine congrArg (v ix0 + ·) ?_
  show ∑ k : Fin m, x (h.lift (ix1 j) k) = _
  refine Finset.sum_congr rfl fun k _ => congrArg x ?_
  funext c
  apply Fin.ext
  match c with
  | ⟨0, _⟩ => rfl
  | ⟨1, _⟩ => rfl

/-- The sum of the rows of an m × n array from an initial scalar: at i, the initial value plus the sum over the
    columns j of the entry (i, j). -/
theorem reduceAdd_rows (h' : (⟨2, ![m, n]⟩ : Shape).ReducesTo [1] ⟨1, ![m]⟩)
    (hu : 0 < (⟨0, ![]⟩ : Shape).numel) (x : FVec Ideal ⟨2, ![m, n]⟩ .f32) (v : FVec Ideal ⟨0, ![]⟩ .f32)
    (i : Fin m) :
    Host.reduceAdd (F := Ideal) x v h' hu (ix1 i) = v ix0 + ∑ j : Fin n, x (ix2 i j) := by
  have h : (⟨2, ![m, n]⟩ : Shape).Reduces [1] ⟨1, ![m]⟩ := ⟨h'.1, Nat.one_pos, h'.2⟩
  rw [hostReduceAdd_apply, Ideal.hostReduceAdd_single h' h, eq_ix0 (Shape.Idx.first hu)]
  refine congrArg (v ix0 + ·) ?_
  show ∑ k : Fin n, x (h.lift (ix1 i) k) = _
  refine Finset.sum_congr rfl fun k _ => congrArg x ?_
  funext c
  apply Fin.ext
  match c with
  | ⟨0, _⟩ => rfl
  | ⟨1, _⟩ => rfl

/-- Member k of a stack of G matrices, taken as a slice of unit height and then viewed without the unit axis,
    reads, at (a, b), the stack at (k, a, b). -/
theorem slice_member {G : Nat} (k : Fin G) (hs : (⟨3, ![G, m, n]⟩ : Shape).Slices ![k.val, 0, 0] ⟨3, ![1, m, n]⟩)
    (hc : (⟨3, ![1, m, n]⟩ : Shape).ShapeCasts ⟨2, ![m, n]⟩)
    (W : (⟨3, ![G, m, n]⟩ : Shape).Idx → α) (a : Fin m) (b : Fin n) :
    shapeCast ⟨2, ![m, n]⟩ (extractStridedSlice ⟨3, ![1, m, n]⟩ ![k.val, 0, 0] W hs) hc (ix2 a b)
      = W (ix3 k a b) := by
  rw [shapeCast_1ab_ab_apply]
  refine extractStridedSlice_apply ![k.val, 0, 0] W hs (ix3 (0 : Fin 1) a b) (ix3 k a b) ?_
  intro c
  match c with
  | ⟨0, _⟩ => rfl
  | ⟨1, _⟩ => exact (Nat.zero_add _).symm
  | ⟨2, _⟩ => exact (Nat.zero_add _).symm

end Generic

section Printed
variable [Facts] {α : Type}

/-! ## Matrix products -/

/-- The product of a 10000 × 352 by a 352 × 64 matrix at (a, b): the sum over c of l (a, c) · r (c, b). -/
theorem dot_S10000x352_S352x64 (l : FVec Ideal S10000x352 .f32) (r : FVec Ideal S352x64 .f32) (a : Fin 10000) (b : Fin 64) :
    Host.dotGeneral (F := Ideal) dot_S10000x352_S352x64_S10000x64_1_0_0_1_n_n none l r (ix2 a b)
      = ∑ c : Fin 352, l (ix2 a c) * r (ix2 c b) :=
  StackMember.dotGeneral_plain_apply (m := 10000) (n := 64) (k := 352) none l r a b

/-- The product of a 64 × 10000 by a 10000 × 64 matrix at (a, b): the sum over c of l (a, c) · r (c, b). -/
theorem dot_S64x10000_S10000x64 (l : FVec Ideal S64x10000 .f32) (r : FVec Ideal S10000x64 .f32) (a : Fin 64) (b : Fin 64) :
    Host.dotGeneral (F := Ideal) dot_S64x10000_S10000x64_S64x64_1_0_0_1_n_n none l r (ix2 a b)
      = ∑ c : Fin 10000, l (ix2 a c) * r (ix2 c b) :=
  StackMember.dotGeneral_plain_apply (m := 64) (n := 64) (k := 10000) none l r a b

/-- The product of a 10000 × 64 by a 64 × 64 matrix at (a, b): the sum over c of l (a, c) · r (c, b). -/
theorem dot_S10000x64_S64x64 (l : FVec Ideal S10000x64 .f32) (r : FVec Ideal S64x64 .f32) (a : Fin 10000) (b : Fin 64) :
    Host.dotGeneral (F := Ideal) dot_S10000x64_S64x64_S10000x64_1_0_0_1_n_n none l r (ix2 a b)
      = ∑ c : Fin 64, l (ix2 a c) * r (ix2 c b) :=
  StackMember.dotGeneral_plain_apply (m := 10000) (n := 64) (k := 64) none l r a b

/-- The product of a 10000 × 64 by a 64 × 128 matrix at (a, b): the sum over c of l (a, c) · r (c, b). -/
theorem dot_S10000x64_S64x128 (l : FVec Ideal S10000x64 .f32) (r : FVec Ideal S64x128 .f32) (a : Fin 10000) (b : Fin 128) :
    Host.dotGeneral (F := Ideal) dot_S10000x64_S64x128_S10000x128_1_0_0_1_n_n none l r (ix2 a b)
      = ∑ c : Fin 64, l (ix2 a c) * r (ix2 c b) :=
  StackMember.dotGeneral_plain_apply (m := 10000) (n := 128) (k := 64) none l r a b

/-- The product of a 10000 × 128 by a 128 × 256 matrix at (a, b): the sum over c of l (a, c) · r (c, b). -/
theorem dot_S10000x128_S128x256 (l : FVec Ideal S10000x128 .f32) (r : FVec Ideal S128x256 .f32) (a : Fin 10000) (b : Fin 256) :
    Host.dotGeneral (F := Ideal) dot_S10000x128_S128x256_S10000x256_1_0_0_1_n_n none l r (ix2 a b)
      = ∑ c : Fin 128, l (ix2 a c) * r (ix2 c b) :=
  StackMember.dotGeneral_plain_apply (m := 10000) (n := 256) (k := 128) none l r a b

/-- The product of a 10000 × 256 by a 256 × 10000 matrix at (a, b): the sum over c of l (a, c) · r (c, b). -/
theorem dot_S10000x256_S256x10000 (l : FVec Ideal S10000x256 .f32) (r : FVec Ideal S256x10000 .f32) (a : Fin 10000) (b : Fin 10000) :
    Host.dotGeneral (F := Ideal) dot_S10000x256_S256x10000_S10000x10000_1_0_0_1_n_n none l r (ix2 a b)
      = ∑ c : Fin 256, l (ix2 a c) * r (ix2 c b) :=
  StackMember.dotGeneral_plain_apply (m := 10000) (n := 10000) (k := 256) none l r a b

/-! ## Broadcasts of a vector down the rows -/

/-- A vector of 64 entries as the one row of a 1 × 64 matrix: at (0, j), the vector at j. -/
theorem bcast_S64_S1x64_apply (v : S64.Idx → α) (u : Fin 1) (j : Fin 64) :
    broadcastInDim S1x64 ![1] bcast_S64_S1x64_1 v (ix2 u j) = v (ix1 j) :=
  bcast_vec_row bcast_S64_S1x64_1 v u j

/-- A 1 × 64 matrix broadcast down 10000 rows: at (i, j), the row at (0, j). -/
theorem bcast_S1x64_S10000x64_apply (y : S1x64.Idx → α) (i : Fin 10000) (j : Fin 64) :
    broadcastInDim S10000x64 ![0, 1] bcast_S1x64_S10000x64_0_1 y (ix2 i j) = y (ix2 (0 : Fin 1) j) :=
  broadcastInDim_oneRow_apply bcast_S1x64_S10000x64_0_1 y i j

/-- A vector of 64 entries broadcast down the rows of a 10000 × 64 matrix: at (i, j), the vector at j. -/
theorem bcast_S64_S10000x64_apply (v : S64.Idx → α) (i : Fin 10000) (j : Fin 64) :
    broadcastInDim S10000x64 ![0, 1] bcast_S1x64_S10000x64_0_1
        (broadcastInDim S1x64 ![1] bcast_S64_S1x64_1 v) (ix2 i j) = v (ix1 j) :=
  bcast_vec_rows bcast_S64_S1x64_1 bcast_S1x64_S10000x64_0_1 v i j

/-- A vector of 128 entries as the one row of a 1 × 128 matrix: at (0, j), the vector at j. -/
theorem bcast_S128_S1x128_apply (v : S128.Idx → α) (u : Fin 1) (j : Fin 128) :
    broadcastInDim S1x128 ![1] bcast_S128_S1x128_1 v (ix2 u j) = v (ix1 j) :=
  bcast_vec_row bcast_S128_S1x128_1 v u j

/-- A 1 × 128 matrix broadcast down 10000 rows: at (i, j), the row at (0, j). -/
theorem bcast_S1x128_S10000x128_apply (y : S1x128.Idx → α) (i : Fin 10000) (j : Fin 128) :
    broadcastInDim S10000x128 ![0, 1] bcast_S1x128_S10000x128_0_1 y (ix2 i j) = y (ix2 (0 : Fin 1) j) :=
  broadcastInDim_oneRow_apply bcast_S1x128_S10000x128_0_1 y i j

/-- A vector of 128 entries broadcast down the rows of a 10000 × 128 matrix: at (i, j), the vector at j. -/
theorem bcast_S128_S10000x128_apply (v : S128.Idx → α) (i : Fin 10000) (j : Fin 128) :
    broadcastInDim S10000x128 ![0, 1] bcast_S1x128_S10000x128_0_1
        (broadcastInDim S1x128 ![1] bcast_S128_S1x128_1 v) (ix2 i j) = v (ix1 j) :=
  bcast_vec_rows bcast_S128_S1x128_1 bcast_S1x128_S10000x128_0_1 v i j

/-- A vector of 256 entries as the one row of a 1 × 256 matrix: at (0, j), the vector at j. -/
theorem bcast_S256_S1x256_apply (v : S256.Idx → α) (u : Fin 1) (j : Fin 256) :
    broadcastInDim S1x256 ![1] bcast_S256_S1x256_1 v (ix2 u j) = v (ix1 j) :=
  bcast_vec_row bcast_S256_S1x256_1 v u j

/-- A 1 × 256 matrix broadcast down 10000 rows: at (i, j), the row at (0, j). -/
theorem bcast_S1x256_S10000x256_apply (y : S1x256.Idx → α) (i : Fin 10000) (j : Fin 256) :
    broadcastInDim S10000x256 ![0, 1] bcast_S1x256_S10000x256_0_1 y (ix2 i j) = y (ix2 (0 : Fin 1) j) :=
  broadcastInDim_oneRow_apply bcast_S1x256_S10000x256_0_1 y i j

/-- A vector of 256 entries broadcast down the rows of a 10000 × 256 matrix: at (i, j), the vector at j. -/
theorem bcast_S256_S10000x256_apply (v : S256.Idx → α) (i : Fin 10000) (j : Fin 256) :
    broadcastInDim S10000x256 ![0, 1] bcast_S1x256_S10000x256_0_1
        (broadcastInDim S1x256 ![1] bcast_S256_S1x256_1 v) (ix2 i j) = v (ix1 j) :=
  bcast_vec_rows bcast_S256_S1x256_1 bcast_S1x256_S10000x256_0_1 v i j

/-- A vector of 10000 entries as the one row of a 1 × 10000 matrix: at (0, j), the vector at j. -/
theorem bcast_S10000_S1x10000_apply (v : S10000.Idx → α) (u : Fin 1) (j : Fin 10000) :
    broadcastInDim S1x10000 ![1] bcast_S10000_S1x10000_1 v (ix2 u j) = v (ix1 j) :=
  bcast_vec_row bcast_S10000_S1x10000_1 v u j

/-- A 1 × 10000 matrix broadcast down 10000 rows: at (i, j), the row at (0, j). -/
theorem bcast_S1x10000_S10000x10000_apply (y : S1x10000.Idx → α) (i : Fin 10000) (j : Fin 10000) :
    broadcastInDim S10000x10000 ![0, 1] bcast_S1x10000_S10000x10000_0_1 y (ix2 i j) = y (ix2 (0 : Fin 1) j) :=
  broadcastInDim_oneRow_apply bcast_S1x10000_S10000x10000_0_1 y i j

/-- A vector of 10000 entries broadcast down the rows of a 10000 × 10000 matrix: at (i, j), the vector at j. -/
theorem bcast_S10000_S10000x10000_apply (v : S10000.Idx → α) (i : Fin 10000) (j : Fin 10000) :
    broadcastInDim S10000x10000 ![0, 1] bcast_S1x10000_S10000x10000_0_1
        (broadcastInDim S1x10000 ![1] bcast_S10000_S1x10000_1 v) (ix2 i j) = v (ix1 j) :=
  bcast_vec_rows bcast_S10000_S1x10000_1 bcast_S1x10000_S10000x10000_0_1 v i j

/-! ## Broadcasts of a vector along the columns -/

/-- A vector of 64 entries as the one column of a 64 × 1 matrix: at (a, 0), the vector at a. -/
theorem bcast_S64_S64x1_apply (v : S64.Idx → α) (a : Fin 64) (u : Fin 1) :
    broadcastInDim S64x1 ![0] bcast_S64_S64x1_0 v (ix2 a u) = v (ix1 a) :=
  bcast_vec_col bcast_S64_S64x1_0 v a u

/-- A 64 × 1 matrix broadcast along 64 columns: at (a, b), the column at (a, 0). -/
theorem bcast_S64x1_S64x64_apply (y : S64x1.Idx → α) (a : Fin 64) (b : Fin 64) :
    broadcastInDim S64x64 ![0, 1] bcast_S64x1_S64x64_0_1 y (ix2 a b) = y (ix2 a (0 : Fin 1)) :=
  bcast_col_mat bcast_S64x1_S64x64_0_1 y a b

/-- A vector of 64 entries broadcast along the columns of a 64 × 64 matrix: at (a, b), the vector at a. -/
theorem bcast_S64_S64x64_cols_apply (v : S64.Idx → α) (a : Fin 64) (b : Fin 64) :
    broadcastInDim S64x64 ![0, 1] bcast_S64x1_S64x64_0_1
        (broadcastInDim S64x1 ![0] bcast_S64_S64x1_0 v) (ix2 a b) = v (ix1 a) :=
  bcast_vec_cols bcast_S64_S64x1_0 bcast_S64x1_S64x64_0_1 v a b

/-- A vector of 10000 entries as the one column of a 10000 × 1 matrix: at (a, 0), the vector at a. -/
theorem bcast_S10000_S10000x1_apply (v : S10000.Idx → α) (a : Fin 10000) (u : Fin 1) :
    broadcastInDim S10000x1 ![0] bcast_S10000_S10000x1_0 v (ix2 a u) = v (ix1 a) :=
  bcast_vec_col bcast_S10000_S10000x1_0 v a u

/-- A 10000 × 1 matrix broadcast along 10000 columns: at (a, b), the column at (a, 0). -/
theorem bcast_S10000x1_S10000x10000_apply (y : S10000x1.Idx → α) (a : Fin 10000) (b : Fin 10000) :
    broadcastInDim S10000x10000 ![0, 1] bcast_S10000x1_S10000x10000_0_1 y (ix2 a b) = y (ix2 a (0 : Fin 1)) :=
  bcast_col_mat bcast_S10000x1_S10000x10000_0_1 y a b

/-- A vector of 10000 entries broadcast along the columns of a 10000 × 10000 matrix: at (a, b), the vector at a. -/
theorem bcast_S10000_S10000x10000_cols_apply (v : S10000.Idx → α) (a : Fin 10000) (b : Fin 10000) :
    broadcastInDim S10000x10000 ![0, 1] bcast_S10000x1_S10000x10000_0_1
        (broadcastInDim S10000x1 ![0] bcast_S10000_S10000x1_0 v) (ix2 a b) = v (ix1 a) :=
  bcast_vec_cols bcast_S10000_S10000x1_0 bcast_S10000x1_S10000x10000_0_1 v a b

/-! ## Broadcasts of a scalar -/

/-- A scalar broadcast to the shape 64 reads the scalar at every index. -/
theorem bcast_S_S64_apply (x : S_.Idx → α) (j : S64.Idx) :
    broadcastInDim S64 ![] bcast_S_S64 x j = x ix0 :=
  broadcastInDim_scalar_apply bcast_S_S64 x j

/-- A scalar broadcast to the shape 1x64 reads the scalar at every index. -/
theorem bcast_S_S1x64_apply (x : S_.Idx → α) (j : S1x64.Idx) :
    broadcastInDim S1x64 ![] bcast_S_S1x64 x j = x ix0 :=
  broadcastInDim_scalar_apply bcast_S_S1x64 x j

/-- A scalar broadcast to the shape 10000x64 reads the scalar at every index. -/
theorem bcast_S_S10000x64_apply (x : S_.Idx → α) (j : S10000x64.Idx) :
    broadcastInDim S10000x64 ![] bcast_S_S10000x64 x j = x ix0 :=
  broadcastInDim_scalar_apply bcast_S_S10000x64 x j

/-- A scalar broadcast to the shape 128 reads the scalar at every index. -/
theorem bcast_S_S128_apply (x : S_.Idx → α) (j : S128.Idx) :
    broadcastInDim S128 ![] bcast_S_S128 x j = x ix0 :=
  broadcastInDim_scalar_apply bcast_S_S128 x j

/-- A scalar broadcast to the shape 1x128 reads the scalar at every index. -/
theorem bcast_S_S1x128_apply (x : S_.Idx → α) (j : S1x128.Idx) :
    broadcastInDim S1x128 ![] bcast_S_S1x128 x j = x ix0 :=
  broadcastInDim_scalar_apply bcast_S_S1x128 x j

/-- A scalar broadcast to the shape 10000x128 reads the scalar at every index. -/
theorem bcast_S_S10000x128_apply (x : S_.Idx → α) (j : S10000x128.Idx) :
    broadcastInDim S10000x128 ![] bcast_S_S10000x128 x j = x ix0 :=
  broadcastInDim_scalar_apply bcast_S_S10000x128 x j

/-- A scalar broadcast to the shape 256 reads the scalar at every index. -/
theorem bcast_S_S256_apply (x : S_.Idx → α) (j : S256.Idx) :
    broadcastInDim S256 ![] bcast_S_S256 x j = x ix0 :=
  broadcastInDim_scalar_apply bcast_S_S256 x j

/-- A scalar broadcast to the shape 1x256 reads the scalar at every index. -/
theorem bcast_S_S1x256_apply (x : S_.Idx → α) (j : S1x256.Idx) :
    broadcastInDim S1x256 ![] bcast_S_S1x256 x j = x ix0 :=
  broadcastInDim_scalar_apply bcast_S_S1x256 x j

/-- A scalar broadcast to the shape 10000x256 reads the scalar at every index. -/
theorem bcast_S_S10000x256_apply (x : S_.Idx → α) (j : S10000x256.Idx) :
    broadcastInDim S10000x256 ![] bcast_S_S10000x256 x j = x ix0 :=
  broadcastInDim_scalar_apply bcast_S_S10000x256 x j

/-- A scalar broadcast to the shape 10000 reads the scalar at every index. -/
theorem bcast_S_S10000_apply (x : S_.Idx → α) (j : S10000.Idx) :
    broadcastInDim S10000 ![] bcast_S_S10000 x j = x ix0 :=
  broadcastInDim_scalar_apply bcast_S_S10000 x j

/-! ## Sums over the rows of a column, and over the columns of a row -/

/-- The column sums of a 10000 × 64 array from an initial scalar: at j, the initial value plus the sum over
    i of the entry (i, j). -/
theorem reduceAdd_S10000x64 (x : FVec Ideal S10000x64 .f32) (v : FVec Ideal S_ .f32) (j : Fin 64) :
    Host.reduceAdd (F := Ideal) x v reducesTo_S10000x64_S64_d0 h_S_ (ix1 j)
      = v ix0 + ∑ i : Fin 10000, x (ix2 i j) :=
  reduceAdd_cols reducesTo_S10000x64_S64_d0 h_S_ x v j

/-- The column sums of a 10000 × 128 array from an initial scalar: at j, the initial value plus the sum over
    i of the entry (i, j). -/
theorem reduceAdd_S10000x128 (x : FVec Ideal S10000x128 .f32) (v : FVec Ideal S_ .f32) (j : Fin 128) :
    Host.reduceAdd (F := Ideal) x v reducesTo_S10000x128_S128_d0 h_S_ (ix1 j)
      = v ix0 + ∑ i : Fin 10000, x (ix2 i j) :=
  reduceAdd_cols reducesTo_S10000x128_S128_d0 h_S_ x v j

/-- The column sums of a 10000 × 256 array from an initial scalar: at j, the initial value plus the sum over
    i of the entry (i, j). -/
theorem reduceAdd_S10000x256 (x : FVec Ideal S10000x256 .f32) (v : FVec Ideal S_ .f32) (j : Fin 256) :
    Host.reduceAdd (F := Ideal) x v reducesTo_S10000x256_S256_d0 h_S_ (ix1 j)
      = v ix0 + ∑ i : Fin 10000, x (ix2 i j) :=
  reduceAdd_cols reducesTo_S10000x256_S256_d0 h_S_ x v j

/-- The row sums of a 10000 × 10000 array from an initial scalar: at i, the initial value plus the sum over j
    of the entry (i, j). -/
theorem reduceAdd_S10000x10000_rows (x : FVec Ideal S10000x10000 .f32) (v : FVec Ideal S_ .f32) (i : Fin 10000) :
    Host.reduceAdd (F := Ideal) x v reducesTo_S10000x10000_S10000_d1 h_S_ (ix1 i)
      = v ix0 + ∑ j : Fin 10000, x (ix2 i j) :=
  reduceAdd_rows reducesTo_S10000x10000_S10000_d1 h_S_ x v i

/-- The row maxima of a 10000 × 10000 array from an initial scalar: at i, the fold of max from the initial
    value over the entries (i, j) of the row. -/
theorem reduceMax_S10000x10000_rows (x : FVec Ideal S10000x10000 .f32) (v : FVec Ideal S_ .f32) (i : Fin 10000) :
    Host.reduce (FloatOps.maximumf (F := Ideal) (φ := .f32)) x v reducesTo_S10000x10000_S10000_d1 h_S_ (ix1 i)
      = (Finset.univ : Finset (Fin 10000)).fold max (v ix0) (fun j => x (ix2 i j)) := by
  have h' := reducesTo_S10000x10000_S10000_d1
  have h : S10000x10000.Reduces [1] S10000 := ⟨h'.1, Nat.one_pos, h'.2⟩
  rw [Host.reduce_eq_fold_single _ x v h' h h_S_ (ix1 i), eq_ix0 (Shape.Idx.first h_S_)]
  show (Finset.univ : Finset (Fin 10000)).fold max (v ix0) (x ∘ h.lift (ix1 i)) = _
  refine congrArg (fun f => Finset.fold max (v ix0) f Finset.univ) ?_
  funext k
  refine congrArg x ?_
  funext c
  apply Fin.ext
  match c with
  | ⟨0, _⟩ => rfl
  | ⟨1, _⟩ => rfl

/-! ## Members of the stacks of weight matrices -/

/-- Member 0 of the stack of six 64 × 64 matrices, sliced and viewed without the unit axis: at (a, b), the
    stack at (0, a, b). -/
theorem slice_S6x64x64_0 (W : S6x64x64.Idx → α) (a : Fin 64) (b : Fin 64) :
    shapeCast S64x64 (extractStridedSlice S1x64x64 ![0, 0, 0] W slices_S6x64x64_S1x64x64_0_0_0)
        shapeCasts_S1x64x64_S64x64 (ix2 a b) = W (ix3 (0 : Fin 6) a b) :=
  slice_member (0 : Fin 6) slices_S6x64x64_S1x64x64_0_0_0 shapeCasts_S1x64x64_S64x64 W a b

/-- Member 1 of the stack of six 64 × 64 matrices, sliced and viewed without the unit axis: at (a, b), the
    stack at (1, a, b). -/
theorem slice_S6x64x64_1 (W : S6x64x64.Idx → α) (a : Fin 64) (b : Fin 64) :
    shapeCast S64x64 (extractStridedSlice S1x64x64 ![1, 0, 0] W slices_S6x64x64_S1x64x64_1_0_0)
        shapeCasts_S1x64x64_S64x64 (ix2 a b) = W (ix3 (1 : Fin 6) a b) :=
  slice_member (1 : Fin 6) slices_S6x64x64_S1x64x64_1_0_0 shapeCasts_S1x64x64_S64x64 W a b

/-- Member 2 of the stack of six 64 × 64 matrices, sliced and viewed without the unit axis: at (a, b), the
    stack at (2, a, b). -/
theorem slice_S6x64x64_2 (W : S6x64x64.Idx → α) (a : Fin 64) (b : Fin 64) :
    shapeCast S64x64 (extractStridedSlice S1x64x64 ![2, 0, 0] W slices_S6x64x64_S1x64x64_2_0_0)
        shapeCasts_S1x64x64_S64x64 (ix2 a b) = W (ix3 (2 : Fin 6) a b) :=
  slice_member (2 : Fin 6) slices_S6x64x64_S1x64x64_2_0_0 shapeCasts_S1x64x64_S64x64 W a b

/-- Member 3 of the stack of six 64 × 64 matrices, sliced and viewed without the unit axis: at (a, b), the
    stack at (3, a, b). -/
theorem slice_S6x64x64_3 (W : S6x64x64.Idx → α) (a : Fin 64) (b : Fin 64) :
    shapeCast S64x64 (extractStridedSlice S1x64x64 ![3, 0, 0] W slices_S6x64x64_S1x64x64_3_0_0)
        shapeCasts_S1x64x64_S64x64 (ix2 a b) = W (ix3 (3 : Fin 6) a b) :=
  slice_member (3 : Fin 6) slices_S6x64x64_S1x64x64_3_0_0 shapeCasts_S1x64x64_S64x64 W a b

/-- Member 4 of the stack of six 64 × 64 matrices, sliced and viewed without the unit axis: at (a, b), the
    stack at (4, a, b). -/
theorem slice_S6x64x64_4 (W : S6x64x64.Idx → α) (a : Fin 64) (b : Fin 64) :
    shapeCast S64x64 (extractStridedSlice S1x64x64 ![4, 0, 0] W slices_S6x64x64_S1x64x64_4_0_0)
        shapeCasts_S1x64x64_S64x64 (ix2 a b) = W (ix3 (4 : Fin 6) a b) :=
  slice_member (4 : Fin 6) slices_S6x64x64_S1x64x64_4_0_0 shapeCasts_S1x64x64_S64x64 W a b

/-- Member 5 of the stack of six 64 × 64 matrices, sliced and viewed without the unit axis: at (a, b), the
    stack at (5, a, b). -/
theorem slice_S6x64x64_5 (W : S6x64x64.Idx → α) (a : Fin 64) (b : Fin 64) :
    shapeCast S64x64 (extractStridedSlice S1x64x64 ![5, 0, 0] W slices_S6x64x64_S1x64x64_5_0_0)
        shapeCasts_S1x64x64_S64x64 (ix2 a b) = W (ix3 (5 : Fin 6) a b) :=
  slice_member (5 : Fin 6) slices_S6x64x64_S1x64x64_5_0_0 shapeCasts_S1x64x64_S64x64 W a b

/-- Member 0 of the stack of six 64 × 128 matrices, sliced and viewed without the unit axis: at (a, b), the
    stack at (0, a, b). -/
theorem slice_S6x64x128_0 (W : S6x64x128.Idx → α) (a : Fin 64) (b : Fin 128) :
    shapeCast S64x128 (extractStridedSlice S1x64x128 ![0, 0, 0] W slices_S6x64x128_S1x64x128_0_0_0)
        shapeCasts_S1x64x128_S64x128 (ix2 a b) = W (ix3 (0 : Fin 6) a b) :=
  slice_member (0 : Fin 6) slices_S6x64x128_S1x64x128_0_0_0 shapeCasts_S1x64x128_S64x128 W a b

/-- Member 1 of the stack of six 64 × 128 matrices, sliced and viewed without the unit axis: at (a, b), the
    stack at (1, a, b). -/
theorem slice_S6x64x128_1 (W : S6x64x128.Idx → α) (a : Fin 64) (b : Fin 128) :
    shapeCast S64x128 (extractStridedSlice S1x64x128 ![1, 0, 0] W slices_S6x64x128_S1x64x128_1_0_0)
        shapeCasts_S1x64x128_S64x128 (ix2 a b) = W (ix3 (1 : Fin 6) a b) :=
  slice_member (1 : Fin 6) slices_S6x64x128_S1x64x128_1_0_0 shapeCasts_S1x64x128_S64x128 W a b

/-- Member 2 of the stack of six 64 × 128 matrices, sliced and viewed without the unit axis: at (a, b), the
    stack at (2, a, b). -/
theorem slice_S6x64x128_2 (W : S6x64x128.Idx → α) (a : Fin 64) (b : Fin 128) :
    shapeCast S64x128 (extractStridedSlice S1x64x128 ![2, 0, 0] W slices_S6x64x128_S1x64x128_2_0_0)
        shapeCasts_S1x64x128_S64x128 (ix2 a b) = W (ix3 (2 : Fin 6) a b) :=
  slice_member (2 : Fin 6) slices_S6x64x128_S1x64x128_2_0_0 shapeCasts_S1x64x128_S64x128 W a b

/-- Member 3 of the stack of six 64 × 128 matrices, sliced and viewed without the unit axis: at (a, b), the
    stack at (3, a, b). -/
theorem slice_S6x64x128_3 (W : S6x64x128.Idx → α) (a : Fin 64) (b : Fin 128) :
    shapeCast S64x128 (extractStridedSlice S1x64x128 ![3, 0, 0] W slices_S6x64x128_S1x64x128_3_0_0)
        shapeCasts_S1x64x128_S64x128 (ix2 a b) = W (ix3 (3 : Fin 6) a b) :=
  slice_member (3 : Fin 6) slices_S6x64x128_S1x64x128_3_0_0 shapeCasts_S1x64x128_S64x128 W a b

/-- Member 4 of the stack of six 64 × 128 matrices, sliced and viewed without the unit axis: at (a, b), the
    stack at (4, a, b). -/
theorem slice_S6x64x128_4 (W : S6x64x128.Idx → α) (a : Fin 64) (b : Fin 128) :
    shapeCast S64x128 (extractStridedSlice S1x64x128 ![4, 0, 0] W slices_S6x64x128_S1x64x128_4_0_0)
        shapeCasts_S1x64x128_S64x128 (ix2 a b) = W (ix3 (4 : Fin 6) a b) :=
  slice_member (4 : Fin 6) slices_S6x64x128_S1x64x128_4_0_0 shapeCasts_S1x64x128_S64x128 W a b

/-- Member 5 of the stack of six 64 × 128 matrices, sliced and viewed without the unit axis: at (a, b), the
    stack at (5, a, b). -/
theorem slice_S6x64x128_5 (W : S6x64x128.Idx → α) (a : Fin 64) (b : Fin 128) :
    shapeCast S64x128 (extractStridedSlice S1x64x128 ![5, 0, 0] W slices_S6x64x128_S1x64x128_5_0_0)
        shapeCasts_S1x64x128_S64x128 (ix2 a b) = W (ix3 (5 : Fin 6) a b) :=
  slice_member (5 : Fin 6) slices_S6x64x128_S1x64x128_5_0_0 shapeCasts_S1x64x128_S64x128 W a b

/-! ## Pointwise operations -/

/-- The host's quotient at an index is the idealized quotient of the entries. -/
theorem hostDivf_apply {s : Shape} (x y : FVec Ideal s .f32) (i : s.Idx) :
    Host.divf (F := Ideal) x y i = Ideal.div (x i) (y i) := rfl

/-- The host's inverse square root at an index is the idealized one of the entry. -/
theorem hostRsqrt_apply {s : Shape} (x : FVec Ideal s .f32) (i : s.Idx) :
    Host.rsqrt (F := Ideal) x i = Ideal.rsqrt (x i) := rfl

/-- The host's exponential at an index is the idealized one of the entry. -/
theorem hostExp_apply {s : Shape} (x : FVec Ideal s .f32) (i : s.Idx) :
    Host.exp (F := Ideal) x i = Ideal.exp (x i) := rfl

/-- The host's logarithm at an index is the idealized one of the entry. -/
theorem hostLog_apply {s : Shape} (x : FVec Ideal s .f32) (i : s.Idx) :
    Host.log (F := Ideal) x i = Ideal.log (x i) := rfl

/-! ## The float literals of the layers -/

/-- The word 0x461C4000 denotes the real 10000. -/
theorem ofBits_10000 : Ideal.ofBits .f32 0x461C4000#32 = ((10000 : ℝ) : EReal) := by
  simp [Ideal.ofBits, Ideal.ieee, -EReal.coe_mul]
  norm_num

/-- The word 0x3A83126F (the format's nearest value to one thousandth) denotes the dyadic 8589935 / 2³³. -/
theorem ofBits_eps : Ideal.ofBits .f32 0x3A83126F#32 = (((8589935 : ℝ) / 8589934592 : ℝ) : EReal) := by
  simp [Ideal.ofBits, Ideal.ieee, -EReal.coe_mul]
  norm_num

/-- That dyadic is positive. -/
theorem eps_pos : (0 : ℝ) < (8589935 : ℝ) / 8589934592 := by norm_num

/-- The real 10000 is positive. -/
theorem tenThousand_pos : (0 : ℝ) < 10000 := by norm_num

/-- The word 0x40000000 denotes the real 2. -/
theorem ofBits_two : Ideal.ofBits .f32 0x40000000#32 = ((2 : ℝ) : EReal) := by
  simp [Ideal.ofBits, Ideal.ieee, -EReal.coe_mul]
  norm_num

/-- The integer word 0 converts to the extended real 0. -/
theorem sitofp_zero : FloatOps.sitofp (F := Ideal) .f32 (0#32) = (0 : EReal) := by
  show (((0#32 : BitVec 32).toInt : ℝ) : EReal) = 0
  simp

end Printed

end Cert.ReferenceIdeal.OpsRead

end
-- ==== Proof.Region1Ref.lean ====
/-
  One entry of the reference's last stage, over the extended reals.

  The last dense layer's row i is  z j = Σ_k desc (i, k) · w (k, j) + b j. The outlined log-softmax takes each row's
  maximum by a reduction from −∞ and then once more the maximum of −∞ and that, subtracts it from the row, and subtracts
  the logarithm of the row's sum, from 0, of the exponentials of the shifted row. The bit pattern of −∞ denotes ⊥ and
  that of 0 denotes 0: entry (i, j) is the stabilised log-softmax of row i at j with the shift max ⊥ (row maximum).
-/
import proofs.«135777_j83262236000435_2_alg».proof.Proof.RefStages
import proofs.«135777_j83262236000435_2_alg».proof.Proof.RefOpsRead
import proofs.«135777_j83262236000435_2_alg».proof.Proof.LibLogSoftmaxRow

set_option maxRecDepth 16384
set_option pp.maxSteps 5000
set_option pp.deepTerms false

noncomputable section

open scoped BigOperators

namespace Cert.ReferenceIdeal.Region1

open Idealize.ShloMosaic Idealize.ShloMosaic.ValueIdx
open Cert.ReferenceIdeal Cert.ReferenceIdeal.Facts₀ Cert.ReferenceIdeal.Facts
open Cert.ReferenceIdeal.OpsRead Cert.ReferenceIdeal.Stages
open Cert.Lib.LogSoftmax

variable [Facts]

/-- The bit pattern of −∞ denotes the least extended real. -/
theorem lit_negInf : Ideal.ofBits .f32 0xFF800000#32 = (⊥ : EReal) := by
  simp [Ideal.ofBits, Ideal.ieee]

/-- Row i of the last dense layer: the products of the descriptors' row i with the weight matrix's columns, plus the bias. -/
def denseRow (desc : FVec Ideal S10000x256 .f32) (w : FVec Ideal S256x10000 .f32) (b : FVec Ideal S10000 .f32) (i : Fin 10000) :
    Fin 10000 → EReal :=
  fun j => (∑ k : Fin 256, desc (ix2 i k) * w (ix2 k j)) + b (ix1 j)

/-- The last dense layer at (i, j). -/
theorem denseLogp_apply (desc : FVec Ideal S10000x256 .f32) (w : FVec Ideal S256x10000 .f32) (b : FVec Ideal S10000 .f32)
    (i j : Fin 10000) : denseLogp (F := Ideal) desc w b (ix2 i j) = denseRow desc w b i j := by
  unfold denseLogp denseRow
  beta_reduce
  rw [addf_apply, dot_S10000x256_S256x10000, bcast_S10000_S10000x10000_apply]

/-- The outlined log-softmax at (i, j): the stabilised log-softmax of row i at j, shifted by max ⊥ (row maximum). -/
theorem logSoftmax_apply (z : FVec Ideal S10000x10000 .f32) (i j : Fin 10000) :
    logSoftmax (F := Ideal) z (ix2 i j) = logSoftmaxRef (fun j' => z (ix2 i j')) j := by
  unfold logSoftmax
  beta_reduce
  rw [subf_apply, subf_apply, bcast_S10000_S10000x10000_cols_apply, maximumf_apply, bcast_S_S10000_apply, constant_apply,
    reduceMax_S10000x10000_rows, constant_apply, lit_negInf]
  rw [bcast_S10000x1_S10000x10000_apply, hostLog_apply, bcast_S10000_S10000x1_apply, reduceAdd_S10000x10000_rows,
    constant_apply, Ideal.ofBits_zero_f32, zero_add]
  unfold logSoftmaxRef logSoftmaxRow rowMax
  refine congrArg (fun s => z (ix2 i j) - max ⊥ (Finset.fold max ⊥ (fun j' => z (ix2 i j')) Finset.univ) - Ideal.log s)
    (Finset.sum_congr rfl fun j' _ => ?_)
  rw [hostExp_apply, subf_apply, bcast_S10000_S10000x10000_cols_apply, maximumf_apply, bcast_S_S10000_apply, constant_apply,
    reduceMax_S10000x10000_rows, constant_apply, lit_negInf]

/-- Entry (i, j) of the reference's last stage. -/
theorem stageLogp_apply (desc : FVec Ideal S10000x256 .f32) (w : FVec Ideal S256x10000 .f32) (b : FVec Ideal S10000 .f32)
    (i j : Fin 10000) : stageLogp (F := Ideal) desc w b (ix2 i j) = logSoftmaxRef (denseRow desc w b i) j := by
  unfold stageLogp
  rw [logSoftmax_apply]
  simp only [denseLogp_apply]

end Cert.ReferenceIdeal.Region1

end
-- ==== Proof.Region1Agree.lean ====
/-
  The second region's whole result is the reference's last stage, over the extended reals.

  Entry (i, j) of the kernel's result is the stabilised log-softmax, shifted by the row maximum, of the row
  z j = Σ_k desc (i, k) · w' (k, j) + b' (0, j), where w' is the weight matrix rounded to bf16 and b' the bias as a row.
  Over the extended reals the rounding is the identity and the row b' reads the bias, so this is the reference's row
  Σ_k desc (i, k) · w (k, j) + b j. The reference shifts by max ⊥ (row maximum), which is the row maximum: ⊥ is least.
  Every entry agrees, so the two arrays are equal. No finiteness of any entry is used.
-/
import proofs.«135777_j83262236000435_2_alg».proof.Proof.Region1Value
import proofs.«135777_j83262236000435_2_alg».proof.Proof.Region1Ref
import proofs.«135777_j83262236000435_2_alg».proof.Proof.Gen.ReferenceIdeal

set_option maxRecDepth 16384
set_option pp.maxSteps 5000
set_option pp.deepTerms false

noncomputable section

open scoped BigOperators

namespace Cert.KernelIdeal.Region1

open Idealize.ShloMosaic Idealize.ShloMosaic.ValueIdx
open Cert.KernelIdeal Cert.KernelIdeal.Gen
open Cert.Lib.LogSoftmax

/-- Row i of the kernel's logits, with the rounded weights and the bias as a row, is row i of the reference's dense layer. -/
theorem arrayRow_eq_denseRow (desc : FVec Ideal S10000x256 .f32) (w : FVec Ideal S256x10000 .f32) (b : FVec Ideal S10000 .f32)
    (hw : FTy.bits .bf16 < FTy.bits .f32) (hb : S10000.ShapeCasts S1x10000) (i : Fin 10000) :
    arrayRow desc (truncf .bf16 w hw) (shapeCast S1x10000 b hb) i = Cert.ReferenceIdeal.Region1.denseRow desc w b i := by
  funext j
  unfold arrayRow Cert.ReferenceIdeal.Region1.denseRow
  rw [shapeCast_a_1a_apply b hb (0 : Fin 1) j]
  rfl

/-- The kernel's whole result at the rounded weights and the bias row is the reference's last stage. -/
theorem arrayLogp_eq_stageLogp (desc : FVec Ideal S10000x256 .f32) (w : FVec Ideal S256x10000 .f32) (b : FVec Ideal S10000 .f32)
    (hw : FTy.bits .bf16 < FTy.bits .f32) (hb : S10000.ShapeCasts S1x10000) :
    arrayLogp (F := Ideal) desc (truncf .bf16 w hw) (shapeCast S1x10000 b hb)
      = Cert.ReferenceIdeal.Stages.stageLogp (F := Ideal) desc w b := by
  funext idx
  obtain ⟨i, j, rfl⟩ : ∃ (i j : Fin 10000), idx = ix2 i j := ⟨idx 0, idx 1, eq_ix2 idx⟩
  rw [arrayLogp_entry, Cert.ReferenceIdeal.Region1.stageLogp_apply, arrayRow_eq_denseRow, logSoftmaxRef_eq_logSoftmaxKer]

end Cert.KernelIdeal.Region1

end
-- ==== Proof.Region1Logp.lean ====
/-
  The kernel program's first result buffer ends at the reference's last stage of the descriptors.

  After the second region the buffer holds the region's whole result at the three arrays the region finds: the
  descriptors, the last weight matrix rounded to bf16 and the last bias as a row. That result is the reference's last
  stage applied to the descriptors, the weight matrix and the bias.
-/
import proofs.«135777_j83262236000435_2_alg».proof.Proof.Region1Agree
import proofs.«135777_j83262236000435_2_alg».proof.Proof.KernelHost
import proofs.«135777_j83262236000435_2_alg».proof.Proof.Assembly

set_option maxRecDepth 16384
set_option pp.maxSteps 5000
set_option pp.deepTerms false

noncomputable section

namespace Cert.KernelIdeal.Region1

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first result buffer after the second region: the reference's last stage of the descriptors as the region finds
    them and of the launch's last weight matrix and bias. -/
theorem W12_logp (c : Dev nD) :
    W12 m ρ c (Proc.devRef .tc main_v61)
      = Cert.ReferenceIdeal.Stages.stageLogp (F := Ideal) (W11 m ρ c (Proc.devRef .tc main_v58))
          (m ((c : Thread nD τ).loc main_arg24)) (m ((c : Thread nD τ).loc main_arg25)) := by
  rw [W12_out m ρ c]
  show arrayLogp (W11 m ρ c (Proc.devRef .tc main_v58)) (W11 m ρ c (Proc.devRef .tc main_v59)) (W11 m ρ c (Proc.devRef .tc main_v60)) = _
  rw [Host.W11_main_v59 m ρ c, Host.W11_main_v60 m ρ c]
  exact arrayLogp_eq_stageLogp _ _ _ _ _

end Cert.KernelIdeal.Region1

namespace Cert.Proof.Values

/-- The second region leaves the reference's last stage of the descriptors. -/
theorem region1Logp : Region1Logp := fun m g c => Cert.KernelIdeal.Region1.W12_logp m g c

end Cert.Proof.Values

end
-- ==== Proof.Region0Core.lean ====
/-
  The first region's result reduced to the core equation.

  After the first region the third layer's buffer holds the body's function of the region's sixteen entry arrays, and
  those are: the prologue's value (the reference's first stage of the launch arrays), the spectral basis, its dual,
  the eigenvalues reshaped to a column, and per layer the weight stack and the bias, scale and shift reshaped to rows.
  So "the first region leaves the three reference layers" is the equation between the body's function of those arrays
  and the reference's three layers of the same prologue value — the core equation, stated here over the launch memory
  alone — and follows from it.
-/
import proofs.«135777_j83262236000435_2_alg».proof.Proof.Assembly

set_option maxRecDepth 16384
set_option pp.maxSteps 4000
set_option pp.deepTerms false

noncomputable section

namespace Cert.Proof.Values

open Idealize.ShloMosaic Idealize.ShloMosaic.TcCoe Idealize.SL.Sem Idealize.ShloMosaic.StableHlo
open Cert.KernelIdeal Cert.KernelIdeal.Gen

variable [hPre_finite_inputs : Cert.Pre_finite_inputs.Facts]

/-- The core equation: on finite inputs the first region's body, applied to the prologue's value, the spectral data
    and the three layers' weights, computes the reference's three Chebyshev layers of the same prologue value. -/
def Core : Prop := ∀ (m : (ℓ : Loc nD τ sig) → Buf (Elt Ideal) ℓ), Cert.Pre_KernelIdeal m → ∀ c : Dev nD,
  out0_16 (F := Ideal) (Cert.ReferenceIdeal.Stages.stage0 (F := Ideal) (m ((c : Thread nD τ).loc main_arg0)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (shapeCast S64x1 (m ((c : Thread nD τ).loc main_arg3)) shapeCasts_S64_S64x1) (m ((c : Thread nD τ).loc main_arg8)) (shapeCast S1x64 (m ((c : Thread nD τ).loc main_arg9)) shapeCasts_S64_S1x64) (shapeCast S1x64 (m ((c : Thread nD τ).loc main_arg10)) shapeCasts_S64_S1x64) (shapeCast S1x64 (m ((c : Thread nD τ).loc main_arg11)) shapeCasts_S64_S1x64) (m ((c : Thread nD τ).loc main_arg12)) (shapeCast S1x64 (m ((c : Thread nD τ).loc main_arg13)) shapeCasts_S64_S1x64) (shapeCast S1x64 (m ((c : Thread nD τ).loc main_arg14)) shapeCasts_S64_S1x64) (shapeCast S1x64 (m ((c : Thread nD τ).loc main_arg15)) shapeCasts_S64_S1x64) (m ((c : Thread nD τ).loc main_arg16)) (shapeCast S1x128 (m ((c : Thread nD τ).loc main_arg17)) shapeCasts_S128_S1x128) (shapeCast S1x128 (m ((c : Thread nD τ).loc main_arg18)) shapeCasts_S128_S1x128) (shapeCast S1x128 (m ((c : Thread nD τ).loc main_arg19)) shapeCasts_S128_S1x128)
    = (Cert.ReferenceIdeal.Stages.layer128 (F := Ideal) (Cert.ReferenceIdeal.Stages.layer64 (F := Ideal) (Cert.ReferenceIdeal.Stages.layer64 (F := Ideal) (Cert.ReferenceIdeal.Stages.stage0 (F := Ideal) (m ((c : Thread nD τ).loc main_arg0)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg3)) (m ((c : Thread nD τ).loc main_arg12)) (m ((c : Thread nD τ).loc main_arg13)) (m ((c : Thread nD τ).loc main_arg14)) (m ((c : Thread nD τ).loc main_arg15))) (m ((c : Thread nD τ).loc main_arg1)) (m ((c : Thread nD τ).loc main_arg2)) (m ((c : Thread nD τ).loc main_arg3)) (m ((c : Thread nD τ).loc main_arg16)) (m ((c : Thread nD τ).loc main_arg17)) (m ((c : Thread nD τ).loc main_arg18)) (m ((c : Thread nD τ).loc main_arg19)))

theorem region0Layers_of_core (h : Core) : Region0Layers := by
  intro m g hpre c
  refine (Cert.KernelIdeal.Region0.W6_out m g c).trans ?_
  rw [Cert.KernelIdeal.Region0.out_eq m g c,
    Cert.KernelIdeal.Host.V5_main_v23 m g c, Cert.KernelIdeal.Host.V5_main_arg1 m g c, Cert.KernelIdeal.Host.V5_main_arg2 m g c, Cert.KernelIdeal.Host.V5_main_arg8 m g c, Cert.KernelIdeal.Host.V5_main_arg12 m g c, Cert.KernelIdeal.Host.V5_main_arg16 m g c,
    Cert.KernelIdeal.Host.V5_main_v24 m g c, Cert.KernelIdeal.Host.V5_main_v25 m g c, Cert.KernelIdeal.Host.V5_main_v26 m g c, Cert.KernelIdeal.Host.V5_main_v27 m g c, Cert.KernelIdeal.Host.V5_main_v28 m g c, Cert.KernelIdeal.Host.V5_main_v29 m g c, Cert.KernelIdeal.Host.V5_main_v30 m g c, Cert.KernelIdeal.Host.V5_main_v31 m g c, Cert.KernelIdeal.Host.V5_main_v32 m g c, Cert.KernelIdeal.Host.V5_main_v33 m g c]
  exact h m hpre c

end Cert.Proof.Values

end
-- ==== Proof.LibChebSpectral.lean ====
import Mathlib.Data.Matrix.Basic
import Mathlib.Data.Matrix.Mul
import Mathlib.Data.Matrix.Diagonal
import Mathlib.Data.Real.Basic
import Mathlib.Algebra.BigOperators.Ring.Finset
import Mathlib.Tactic.Module
import Mathlib.Tactic.Ring

/-!
# A Chebyshev filter computed in the vertex domain and in the spectral domain

With `V : n × s`, `D : s × n`, a diagonal `eigs : s`, a signal `x : n × p` and the operator
`L z = V * (diag eigs * (D * z))`, the Chebyshev terms in the vertex domain are
`T 0 = x`, `T 1 = L x`, `T (k+2) = 2 • L (T (k+1)) - T k`.
The same terms can be carried in the `s`-dimensional spectral domain: with `M = D * V`,
`xhat = diag eigs * (D * x)`, scalars `c 0 = 1`, `c 1 = 0`, `c (k+2) = - c k` and
`S 0 = 0`, `S 1 = xhat`, `S (k+2) = 2 • (diag eigs * (M * S (k+1))) + (2 * c (k+1)) • xhat - S k`,
one has `T k = V * S k + c k • x` for every `k`, because `D * (V * S) = (D * V) * S` and
everything is linear.  Consequently
`∑ k < N, T k * W k = V * (∑ k < N, S k * W k) + x * (∑ k < N, c k • W k)`.
-/

namespace Cert.Lib.ChebSpectral

open Matrix

variable {n s p q : Type*} [Fintype n] [Fintype s] [Fintype p] [Fintype q]

section Development

variable [DecidableEq s]

/-- The vertex-domain operator `L z = V * (diag eigs * (D * z))`. -/
def L (V : Matrix n s ℝ) (D : Matrix s n ℝ) (eigs : s → ℝ) (z : Matrix n p ℝ) : Matrix n p ℝ :=
  V * (Matrix.diagonal eigs * (D * z))

/-- The operator `L` is additive. -/
theorem L_add (V : Matrix n s ℝ) (D : Matrix s n ℝ) (eigs : s → ℝ) (y z : Matrix n p ℝ) :
    L V D eigs (y + z) = L V D eigs y + L V D eigs z := by
  simp only [L, Matrix.mul_add]

/-- The operator `L` commutes with multiplication by a real scalar. -/
theorem L_smul (V : Matrix n s ℝ) (D : Matrix s n ℝ) (eigs : s → ℝ) (a : ℝ) (z : Matrix n p ℝ) :
    L V D eigs (a • z) = a • L V D eigs z := by
  simp only [L, Matrix.mul_smul]

/-- On the range of `V` the operator `L` acts through the small matrix `D * V`:
`L (V * y) = V * (diag eigs * ((D * V) * y))`. -/
theorem L_mul (V : Matrix n s ℝ) (D : Matrix s n ℝ) (eigs : s → ℝ) (y : Matrix s p ℝ) :
    L V D eigs (V * y) = V * (Matrix.diagonal eigs * ((D * V) * y)) := by
  simp only [L, Matrix.mul_assoc]

/-- The Chebyshev terms in the vertex domain:
`T 0 = x`, `T 1 = L x`, `T (k+2) = 2 • L (T (k+1)) - T k`. -/
def T (V : Matrix n s ℝ) (D : Matrix s n ℝ) (eigs : s → ℝ) (x : Matrix n p ℝ) :
    ℕ → Matrix n p ℝ
  | 0 => x
  | 1 => L V D eigs x
  | (k + 2) => (2 : ℝ) • L V D eigs (T V D eigs x (k + 1)) - T V D eigs x k

/-- The scalar sequence `c 0 = 1`, `c 1 = 0`, `c (k+2) = - c k`, that is `1, 0, -1, 0, 1, 0, …`:
the coefficient of `x` itself in the `k`-th Chebyshev term. -/
def c : ℕ → ℝ
  | 0 => 1
  | 1 => 0
  | (k + 2) => - c k

/-- The spectral image of the signal, `xhat = diag eigs * (D * x)`. -/
def xhat (D : Matrix s n ℝ) (eigs : s → ℝ) (x : Matrix n p ℝ) : Matrix s p ℝ :=
  Matrix.diagonal eigs * (D * x)

/-- The Chebyshev terms carried in the spectral domain:
`S 0 = 0`, `S 1 = xhat`,
`S (k+2) = 2 • (diag eigs * ((D * V) * S (k+1))) + (2 * c (k+1)) • xhat - S k`. -/
def S (V : Matrix n s ℝ) (D : Matrix s n ℝ) (eigs : s → ℝ) (x : Matrix n p ℝ) :
    ℕ → Matrix s p ℝ
  | 0 => 0
  | 1 => xhat D eigs x
  | (k + 2) =>
      (2 : ℝ) • (Matrix.diagonal eigs * ((D * V) * S V D eigs x (k + 1)))
        + (2 * c (k + 1)) • xhat D eigs x - S V D eigs x k

/-- `c 0 = 1`. -/
@[simp] theorem c_zero : c 0 = 1 := rfl
/-- `c 1 = 0`. -/
@[simp] theorem c_one : c 1 = 0 := rfl
/-- `c 2 = -1`. -/
@[simp] theorem c_two : c 2 = -1 := by simp [c]
/-- `c 3 = 0`. -/
@[simp] theorem c_three : c 3 = 0 := by simp [c]
/-- `c 4 = 1`. -/
@[simp] theorem c_four : c 4 = 1 := by simp [c]
/-- `c 5 = 0`. -/
@[simp] theorem c_five : c 5 = 0 := by simp [c]

/-- `L x = V * xhat`. -/
theorem L_eq_mul_xhat (V : Matrix n s ℝ) (D : Matrix s n ℝ) (eigs : s → ℝ) (x : Matrix n p ℝ) :
    L V D eigs x = V * xhat D eigs x := rfl

/-- The invariant: the `k`-th vertex-domain term is the lift of the `k`-th spectral term plus
`c k` times the signal, `T k = V * S k + c k • x`. -/
theorem T_eq (V : Matrix n s ℝ) (D : Matrix s n ℝ) (eigs : s → ℝ) (x : Matrix n p ℝ) :
    ∀ k : ℕ, T V D eigs x k = V * S V D eigs x k + c k • x := by
  intro k
  induction k using Nat.twoStepInduction with
  | zero => simp [T, S, c]
  | one => simp [T, S, c, L_eq_mul_xhat]
  | more k ih0 ih1 =>
    have hL : L V D eigs (T V D eigs x (k + 1))
        = V * (Matrix.diagonal eigs * ((D * V) * S V D eigs x (k + 1)))
          + c (k + 1) • (V * xhat D eigs x) := by
      rw [ih1, L_add, L_smul, L_mul, L_eq_mul_xhat]
    rw [T, S, c, hL, ih0]
    simp only [Matrix.mul_add, Matrix.mul_sub, Matrix.mul_smul]
    module

/-- The filter output in both domains, for any number `N` of terms and any weights:
`∑ k < N, T k * W k = V * (∑ k < N, S k * W k) + x * (∑ k < N, c k • W k)`. -/
theorem sum_T_mul (V : Matrix n s ℝ) (D : Matrix s n ℝ) (eigs : s → ℝ) (x : Matrix n p ℝ)
    (W : ℕ → Matrix p q ℝ) (N : ℕ) :
    ∑ k ∈ Finset.range N, T V D eigs x k * W k
      = V * (∑ k ∈ Finset.range N, S V D eigs x k * W k)
        + x * (∑ k ∈ Finset.range N, c k • W k) := by
  simp only [T_eq, Matrix.add_mul, Finset.sum_add_distrib, Matrix.mul_sum, Matrix.mul_assoc,
    Matrix.smul_mul, Matrix.mul_smul]

/-! ## The same statements entry by entry, on plain functions of indices

Below nothing is a `Matrix`: arrays are functions of their indices, a product of arrays is
`fun i j => ∑ k, a i k * b k j` and the diagonal scaling is `fun a j => eigs a * z a j`. -/

/-- The entries of `L z`: `(L z) i j = ∑ a, V i a * (eigs a * ∑ m, D a m * z m j)`. -/
theorem L_apply (V : Matrix n s ℝ) (D : Matrix s n ℝ) (eigs : s → ℝ) (z : Matrix n p ℝ)
    (i : n) (j : p) :
    L V D eigs z i j = ∑ a, V i a * (eigs a * ∑ m, D a m * z m j) := by
  rw [L, Matrix.mul_apply]
  simp_rw [Matrix.diagonal_mul, Matrix.mul_apply]

/-- The entries of `xhat`: `xhat a j = eigs a * ∑ m, D a m * x m j`. -/
theorem xhat_apply (D : Matrix s n ℝ) (eigs : s → ℝ) (x : Matrix n p ℝ) (a : s) (j : p) :
    xhat D eigs x a j = eigs a * ∑ m, D a m * x m j := by
  rw [xhat, Matrix.diagonal_mul, Matrix.mul_apply]

section Entrywise

variable (V : n → s → ℝ) (D : s → n → ℝ) (eigs : s → ℝ) (x : n → p → ℝ)

/-- The operator `L` on arrays given as functions of indices:
`(Lf z) i j = ∑ a, V i a * (eigs a * ∑ m, D a m * z m j)`. -/
def Lf (z : n → p → ℝ) : n → p → ℝ :=
  fun i j => ∑ a, V i a * (eigs a * ∑ m, D a m * z m j)

/-- The vertex-domain Chebyshev terms as functions of indices:
`Tf 0 = x`, `Tf 1 = Lf x`, `Tf (k+2) i j = 2 * Lf (Tf (k+1)) i j - Tf k i j`. -/
def Tf : ℕ → n → p → ℝ
  | 0 => x
  | 1 => Lf V D eigs x
  | (k + 2) => fun i j => 2 * Lf V D eigs (Tf (k + 1)) i j - Tf k i j

/-- The small matrix `D * V` as a function of indices: `Mf a b = ∑ m, D a m * V m b`. -/
def Mf : s → s → ℝ := fun a b => ∑ m, D a m * V m b

/-- The spectral image of the signal as a function of indices:
`xhatf a j = eigs a * ∑ m, D a m * x m j`. -/
def xhatf : s → p → ℝ := fun a j => eigs a * ∑ m, D a m * x m j

/-- The spectral-domain Chebyshev terms as functions of indices: `Sf 0 = 0`, `Sf 1 = xhatf`,
`Sf (k+2) a j = 2 * (eigs a * ∑ b, Mf a b * Sf (k+1) b j) + (2 * c (k+1)) * xhatf a j - Sf k a j`. -/
def Sf : ℕ → s → p → ℝ
  | 0 => fun _ _ => 0
  | 1 => xhatf D eigs x
  | (k + 2) => fun a j =>
      2 * (eigs a * ∑ b, Mf V D a b * Sf (k + 1) b j)
        + (2 * c (k + 1)) * xhatf D eigs x a j - Sf k a j

/-- The terms `Tf` are the entries of the matrix terms `T`. -/
theorem Tf_apply_eq_T (k : ℕ) :
    ∀ (i : n) (j : p),
      Tf V D eigs x k i j = T (Matrix.of V) (Matrix.of D) eigs (Matrix.of x) k i j := by
  induction k using Nat.twoStepInduction with
  | zero => intro i j; rfl
  | one => intro i j; rw [T, L_apply]; rfl
  | more k ih0 ih1 =>
    intro i j
    simp only [Tf, T, Lf, Matrix.sub_apply, Matrix.smul_apply, smul_eq_mul, L_apply,
      Matrix.of_apply, ih0, ih1]

/-- The terms `Sf` are the entries of the matrix terms `S`. -/
theorem Sf_apply_eq_S (k : ℕ) :
    ∀ (a : s) (j : p),
      Sf V D eigs x k a j = S (Matrix.of V) (Matrix.of D) eigs (Matrix.of x) k a j := by
  induction k using Nat.twoStepInduction with
  | zero => intro a j; rfl
  | one => intro a j; rw [S, xhat_apply]; rfl
  | more k ih0 ih1 =>
    intro a j
    simp only [Sf, S, Mf, xhatf, Matrix.sub_apply, Matrix.add_apply, Matrix.smul_apply,
      smul_eq_mul, xhat_apply, Matrix.diagonal_mul, Matrix.of_apply, ih0, ih1]
    simp only [Matrix.mul_apply, Matrix.of_apply]

/-- The invariant entry by entry: `Tf k i j = ∑ a, V i a * Sf k a j + c k * x i j`. -/
theorem Tf_apply (k : ℕ) (i : n) (j : p) :
    Tf V D eigs x k i j = ∑ a, V i a * Sf V D eigs x k a j + c k * x i j := by
  rw [Tf_apply_eq_T, T_eq]
  simp only [Matrix.add_apply, Matrix.mul_apply, Matrix.smul_apply, smul_eq_mul, Matrix.of_apply,
    Sf_apply_eq_S]

/-- The filter output in both domains entry by entry, for any number `N` of terms:
`∑ k < N, ∑ t, Tf k i t * W k t j
   = ∑ a, V i a * (∑ k < N, ∑ t, Sf k a t * W k t j) + ∑ t, x i t * (∑ k < N, c k * W k t j)`. -/
theorem sum_Tf_mul (W : ℕ → p → q → ℝ) (N : ℕ) (i : n) (j : q) :
    ∑ k ∈ Finset.range N, ∑ t, Tf V D eigs x k i t * W k t j
      = ∑ a, V i a * (∑ k ∈ Finset.range N, ∑ t, Sf V D eigs x k a t * W k t j)
        + ∑ t, x i t * (∑ k ∈ Finset.range N, c k * W k t j) := by
  have h := congrFun (congrFun
    (sum_T_mul (Matrix.of V) (Matrix.of D) eigs (Matrix.of x) (fun k => Matrix.of (W k)) N) i) j
  simp only [Matrix.add_apply, Matrix.mul_apply, Matrix.sum_apply, Matrix.smul_apply, smul_eq_mul,
    Matrix.of_apply, ← Tf_apply_eq_T, ← Sf_apply_eq_S] at h
  exact h

end Entrywise

/-! ### The six terms of the filter, unrolled

The statements below name every intermediate array and assume only its entrywise defining
equation, so that they apply to any arrays that satisfy these equations, however they were
produced.  The scalars `2 * c k` of the spectral recursion and the coefficients `c k` are also
parameters, given by their values `0, -2, 0, 2` and `1, 0, -1, 0, 1, 0`. -/

section Unrolled

variable (V : n → s → ℝ) (D : s → n → ℝ) (eigs : s → ℝ) (x : n → p → ℝ)

/-- The vertex-domain term of index `0` is the signal itself. -/
theorem Tf_zero (i : n) (j : p) : Tf V D eigs x 0 i j = x i j := rfl

/-- The vertex-domain term of index `1` is `L x`, entry by entry. -/
theorem Tf_one (i : n) (j : p) :
    Tf V D eigs x 1 i j = ∑ a, V i a * (eigs a * ∑ m, D a m * x m j) := rfl

/-- The recursion of the vertex-domain terms, entry by entry. -/
theorem Tf_add_two (k : ℕ) (i : n) (j : p) :
    Tf V D eigs x (k + 2) i j
      = 2 * (∑ a, V i a * (eigs a * ∑ m, D a m * Tf V D eigs x (k + 1) m j))
        - Tf V D eigs x k i j := rfl

/-- The spectral-domain term of index `0` is zero. -/
theorem Sf_zero (a : s) (j : p) : Sf V D eigs x 0 a j = 0 := rfl

/-- The spectral-domain term of index `1` is the spectral image of the signal. -/
theorem Sf_one (a : s) (j : p) :
    Sf V D eigs x 1 a j = eigs a * ∑ m, D a m * x m j := rfl

/-- The recursion of the spectral-domain terms, entry by entry. -/
theorem Sf_add_two (k : ℕ) (a : s) (j : p) :
    Sf V D eigs x (k + 2) a j
      = 2 * (eigs a * ∑ b, (∑ m, D a m * V m b) * Sf V D eigs x (k + 1) b j)
        + (2 * c (k + 1)) * (eigs a * ∑ m, D a m * x m j) - Sf V D eigs x k a j := rfl

/-- The invariant for the six unrolled terms.  Given arrays `T0 … T5` that satisfy the
vertex-domain recursion entry by entry and arrays `M`, `xh`, `S0 … S5` that satisfy the
spectral-domain recursion entry by entry (with the scalars `d1 … d4` standing for
`2 * c 1, …, 2 * c 4`, that is `0, -2, 0, 2`), each `T k` is `V` times `S k` plus `c k` times `x`:
`T0 = V·S0 + x`, `T1 = V·S1`, `T2 = V·S2 - x`, `T3 = V·S3`, `T4 = V·S4 + x`, `T5 = V·S5`. -/
theorem cheb6_terms
    (T0 T1 T2 T3 T4 T5 : n → p → ℝ) (M : s → s → ℝ) (xh S0 S1 S2 S3 S4 S5 : s → p → ℝ)
    (d1 d2 d3 d4 : ℝ)
    (hT0 : ∀ i j, T0 i j = x i j)
    (hT1 : ∀ i j, T1 i j = ∑ a, V i a * (eigs a * ∑ m, D a m * T0 m j))
    (hT2 : ∀ i j, T2 i j = 2 * (∑ a, V i a * (eigs a * ∑ m, D a m * T1 m j)) - T0 i j)
    (hT3 : ∀ i j, T3 i j = 2 * (∑ a, V i a * (eigs a * ∑ m, D a m * T2 m j)) - T1 i j)
    (hT4 : ∀ i j, T4 i j = 2 * (∑ a, V i a * (eigs a * ∑ m, D a m * T3 m j)) - T2 i j)
    (hT5 : ∀ i j, T5 i j = 2 * (∑ a, V i a * (eigs a * ∑ m, D a m * T4 m j)) - T3 i j)
    (hM : ∀ a b, M a b = ∑ m, D a m * V m b)
    (hxh : ∀ a j, xh a j = eigs a * ∑ m, D a m * x m j)
    (hS0 : ∀ a j, S0 a j = 0)
    (hS1 : ∀ a j, S1 a j = xh a j)
    (hS2 : ∀ a j, S2 a j = 2 * (eigs a * ∑ b, M a b * S1 b j) + d1 * xh a j - S0 a j)
    (hS3 : ∀ a j, S3 a j = 2 * (eigs a * ∑ b, M a b * S2 b j) + d2 * xh a j - S1 a j)
    (hS4 : ∀ a j, S4 a j = 2 * (eigs a * ∑ b, M a b * S3 b j) + d3 * xh a j - S2 a j)
    (hS5 : ∀ a j, S5 a j = 2 * (eigs a * ∑ b, M a b * S4 b j) + d4 * xh a j - S3 a j)
    (hd1 : d1 = 0) (hd2 : d2 = -2) (hd3 : d3 = 0) (hd4 : d4 = 2) :
    (∀ i j, T0 i j = ∑ a, V i a * S0 a j + x i j) ∧
    (∀ i j, T1 i j = ∑ a, V i a * S1 a j) ∧
    (∀ i j, T2 i j = ∑ a, V i a * S2 a j - x i j) ∧
    (∀ i j, T3 i j = ∑ a, V i a * S3 a j) ∧
    (∀ i j, T4 i j = ∑ a, V i a * S4 a j + x i j) ∧
    (∀ i j, T5 i j = ∑ a, V i a * S5 a j) := by
  have e0 : ∀ i j, T0 i j = Tf V D eigs x 0 i j := hT0
  have e1 : ∀ i j, T1 i j = Tf V D eigs x 1 i j := by
    intro i j; rw [hT1, Tf_one]; simp only [hT0]
  have e2 : ∀ i j, T2 i j = Tf V D eigs x 2 i j := by
    intro i j; rw [hT2, Tf_add_two V D eigs x 0]; simp only [e1, e0]
  have e3 : ∀ i j, T3 i j = Tf V D eigs x 3 i j := by
    intro i j; rw [hT3, Tf_add_two V D eigs x 1]; simp only [e2, e1]
  have e4 : ∀ i j, T4 i j = Tf V D eigs x 4 i j := by
    intro i j; rw [hT4, Tf_add_two V D eigs x 2]; simp only [e3, e2]
  have e5 : ∀ i j, T5 i j = Tf V D eigs x 5 i j := by
    intro i j; rw [hT5, Tf_add_two V D eigs x 3]; simp only [e4, e3]
  have f0 : ∀ a j, S0 a j = Sf V D eigs x 0 a j := hS0
  have f1 : ∀ a j, S1 a j = Sf V D eigs x 1 a j := by
    intro a j; rw [hS1, hxh, Sf_one]
  have f2 : ∀ a j, S2 a j = Sf V D eigs x 2 a j := by
    intro a j; rw [hS2, Sf_add_two V D eigs x 0]
    simp only [f1, f0, hM, hxh, hd1, Nat.reduceAdd, c_one]; ring
  have f3 : ∀ a j, S3 a j = Sf V D eigs x 3 a j := by
    intro a j; rw [hS3, Sf_add_two V D eigs x 1]
    simp only [f2, f1, hM, hxh, hd2, Nat.reduceAdd, c_two]; ring
  have f4 : ∀ a j, S4 a j = Sf V D eigs x 4 a j := by
    intro a j; rw [hS4, Sf_add_two V D eigs x 2]
    simp only [f3, f2, hM, hxh, hd3, Nat.reduceAdd, c_three]; ring
  have f5 : ∀ a j, S5 a j = Sf V D eigs x 5 a j := by
    intro a j; rw [hS5, Sf_add_two V D eigs x 3]
    simp only [f4, f3, hM, hxh, hd4, Nat.reduceAdd, c_four]; ring
  refine ⟨fun i j => ?_, fun i j => ?_, fun i j => ?_, fun i j => ?_, fun i j => ?_,
    fun i j => ?_⟩
  · rw [e0, Tf_apply]; simp only [f0, c_zero, one_mul]
  · rw [e1, Tf_apply]; simp only [f1, c_one, zero_mul, add_zero]
  · rw [e2, Tf_apply]; simp only [f2, c_two]; ring
  · rw [e3, Tf_apply]; simp only [f3, c_three, zero_mul, add_zero]
  · rw [e4, Tf_apply]; simp only [f4, c_four, one_mul]
  · rw [e5, Tf_apply]; simp only [f5, c_five, zero_mul, add_zero]

/-- The six-term filter output in both domains, entry by entry.  With the arrays of
`cheb6_terms`, weights `W0 … W5`, the spectral accumulator
`Sacc = S0·W0 + S1·W1 + S2·W2 + S3·W3 + S4·W4 + S5·W5` and the combined weight
`Wbar = c0 W0 + c1 W1 + c2 W2 + c3 W3 + c4 W4 + c5 W5` with `c = 1, 0, -1, 0, 1, 0`,
`T0·W0 + T1·W1 + T2·W2 + T3·W3 + T4·W4 + T5·W5 = V·Sacc + x·Wbar`. -/
theorem cheb6_out {q : Type*}
    (T0 T1 T2 T3 T4 T5 : n → p → ℝ) (M : s → s → ℝ) (xh S0 S1 S2 S3 S4 S5 : s → p → ℝ)
    (d1 d2 d3 d4 : ℝ)
    (W0 W1 W2 W3 W4 W5 : p → q → ℝ) (Sacc : s → q → ℝ) (Wbar : p → q → ℝ)
    (c0 c1 c2 c3 c4 c5 : ℝ)
    (hT0 : ∀ i j, T0 i j = x i j)
    (hT1 : ∀ i j, T1 i j = ∑ a, V i a * (eigs a * ∑ m, D a m * T0 m j))
    (hT2 : ∀ i j, T2 i j = 2 * (∑ a, V i a * (eigs a * ∑ m, D a m * T1 m j)) - T0 i j)
    (hT3 : ∀ i j, T3 i j = 2 * (∑ a, V i a * (eigs a * ∑ m, D a m * T2 m j)) - T1 i j)
    (hT4 : ∀ i j, T4 i j = 2 * (∑ a, V i a * (eigs a * ∑ m, D a m * T3 m j)) - T2 i j)
    (hT5 : ∀ i j, T5 i j = 2 * (∑ a, V i a * (eigs a * ∑ m, D a m * T4 m j)) - T3 i j)
    (hM : ∀ a b, M a b = ∑ m, D a m * V m b)
    (hxh : ∀ a j, xh a j = eigs a * ∑ m, D a m * x m j)
    (hS0 : ∀ a j, S0 a j = 0)
    (hS1 : ∀ a j, S1 a j = xh a j)
    (hS2 : ∀ a j, S2 a j = 2 * (eigs a * ∑ b, M a b * S1 b j) + d1 * xh a j - S0 a j)
    (hS3 : ∀ a j, S3 a j = 2 * (eigs a * ∑ b, M a b * S2 b j) + d2 * xh a j - S1 a j)
    (hS4 : ∀ a j, S4 a j = 2 * (eigs a * ∑ b, M a b * S3 b j) + d3 * xh a j - S2 a j)
    (hS5 : ∀ a j, S5 a j = 2 * (eigs a * ∑ b, M a b * S4 b j) + d4 * xh a j - S3 a j)
    (hd1 : d1 = 0) (hd2 : d2 = -2) (hd3 : d3 = 0) (hd4 : d4 = 2)
    (hSacc : ∀ a j, Sacc a j = ∑ t, S0 a t * W0 t j + ∑ t, S1 a t * W1 t j
        + ∑ t, S2 a t * W2 t j + ∑ t, S3 a t * W3 t j + ∑ t, S4 a t * W4 t j
        + ∑ t, S5 a t * W5 t j)
    (hWbar : ∀ t j, Wbar t j = c0 * W0 t j + c1 * W1 t j + c2 * W2 t j + c3 * W3 t j
        + c4 * W4 t j + c5 * W5 t j)
    (hc0 : c0 = 1) (hc1 : c1 = 0) (hc2 : c2 = -1) (hc3 : c3 = 0) (hc4 : c4 = 1) (hc5 : c5 = 0) :
    ∀ i j, ∑ t, T0 i t * W0 t j + ∑ t, T1 i t * W1 t j + ∑ t, T2 i t * W2 t j
        + ∑ t, T3 i t * W3 t j + ∑ t, T4 i t * W4 t j + ∑ t, T5 i t * W5 t j
      = ∑ a, V i a * Sacc a j + ∑ t, x i t * Wbar t j := by
  obtain ⟨g0, g1, g2, g3, g4, g5⟩ := cheb6_terms V D eigs x T0 T1 T2 T3 T4 T5 M xh S0 S1 S2 S3 S4 S5
    d1 d2 d3 d4 hT0 hT1 hT2 hT3 hT4 hT5 hM hxh hS0 hS1 hS2 hS3 hS4 hS5 hd1 hd2 hd3 hd4
  intro i j
  simp only [g0, g1, g2, g3, g4, g5, hSacc, hWbar, hc0, hc1, hc2, hc3, hc4, hc5]
  simp only [add_mul, sub_mul, mul_add, Finset.sum_add_distrib, Finset.sum_sub_distrib,
    Finset.sum_mul, Finset.mul_sum, zero_mul, mul_zero, one_mul, Finset.sum_const_zero,
    add_zero, neg_mul, mul_neg, Finset.sum_neg_distrib]
  rw [Finset.sum_comm (f := fun t a => V i a * S0 a t * W0 t j),
    Finset.sum_comm (f := fun t a => V i a * S1 a t * W1 t j),
    Finset.sum_comm (f := fun t a => V i a * S2 a t * W2 t j),
    Finset.sum_comm (f := fun t a => V i a * S3 a t * W3 t j),
    Finset.sum_comm (f := fun t a => V i a * S4 a t * W4 t j),
    Finset.sum_comm (f := fun t a => V i a * S5 a t * W5 t j)]
  simp only [mul_assoc]
  ring

end Unrolled

end Development

/-! ## The two layer outputs as written by the two programs

The definitions below follow the order of operations of the two computations: the vertex-domain
one applies `V · (eigs ⊙ (D · z))` and sums `T₀W₀ + … + T₅W₅` from the left; the spectral-domain
one steps `2 · (eigs ⊙ (M · s)) + coef · xhat − s_prev` with `coef = 0, -2, 0, 2` and sums
`Sacc` and `Wbar` from the left with coefficients `1, 0, -1, 0, 1, 0`. -/

/-- Product of two arrays read as matrices: entry (i, j) is the sum over the shared index. -/
def mm {a b c : Type*} [Fintype b] (A : a → b → ℝ) (B : b → c → ℝ) : a → c → ℝ :=
  fun i j => ∑ k, A i k * B k j

/-- The spectral Laplacian applied to z: V · (eigs ⊙ (D · z)). -/
def lap (V : n → s → ℝ) (D : s → n → ℝ) (e : s → ℝ) (z : n → p → ℝ) : n → p → ℝ :=
  mm V (fun a j => e a * mm D z a j)

/-- One step of the vertex-domain recurrence: 2 · L(T_cur) − T_prev. -/
def stepT (V : n → s → ℝ) (D : s → n → ℝ) (e : s → ℝ) (Tprev Tcur : n → p → ℝ) : n → p → ℝ :=
  fun i j => 2 * lap V D e Tcur i j - Tprev i j

/-- The reference's layer output before the bias: T₀W₀ + T₁W₁ + … + T₅W₅, left-nested. -/
def refOut (V : n → s → ℝ) (D : s → n → ℝ) (e : s → ℝ) (x : n → p → ℝ)
    (W : Fin 6 → p → q → ℝ) : n → q → ℝ :=
  let T0 := x
  let T1 := lap V D e T0
  let T2 := stepT V D e T0 T1
  let T3 := stepT V D e T1 T2
  let T4 := stepT V D e T2 T3
  let T5 := stepT V D e T3 T4
  fun i j => mm T0 (W 0) i j + mm T1 (W 1) i j + mm T2 (W 2) i j + mm T3 (W 3) i j
    + mm T4 (W 4) i j + mm T5 (W 5) i j

/-- One step of the spectral-domain recurrence: 2 · (eigs ⊙ (M · s_cur)) + coef · xhat − s_prev. -/
def stepS (M : s → s → ℝ) (e : s → ℝ) (xh : s → p → ℝ) (coef : ℝ) (sprev scur : s → p → ℝ) :
    s → p → ℝ :=
  fun a j => 2 * (e a * mm M scur a j) + coef * xh a j - sprev a j

/-- The kernel's layer output before the bias: V · (Σ s_k W_k) + x · (Σ c_k W_k). -/
def kerOut (V : n → s → ℝ) (D : s → n → ℝ) (e : s → ℝ) (x : n → p → ℝ)
    (W : Fin 6 → p → q → ℝ) : n → q → ℝ :=
  let M := mm D V
  let xh : s → p → ℝ := fun a j => e a * mm D x a j
  let s0 : s → p → ℝ := fun _ _ => 0
  let s1 := xh
  let s2 := stepS M e xh 0 s0 s1
  let s3 := stepS M e xh (-2) s1 s2
  let s4 := stepS M e xh 0 s2 s3
  let s5 := stepS M e xh 2 s3 s4
  let Sacc : s → q → ℝ := fun a j => mm s0 (W 0) a j + mm s1 (W 1) a j + mm s2 (W 2) a j
    + mm s3 (W 3) a j + mm s4 (W 4) a j + mm s5 (W 5) a j
  let Wbar : p → q → ℝ := fun k j => 1 * W 0 k j + 0 * W 1 k j + (-1) * W 2 k j + 0 * W 3 k j
    + 1 * W 4 k j + 0 * W 5 k j
  fun i j => mm V Sacc i j + mm x Wbar i j

/-- The six-term Chebyshev filter computed in the vertex domain equals the one computed in the
spectral domain: `T₀W₀ + … + T₅W₅ = V · (Σ s_k W_k) + x · (Σ c_k W_k)`, because
`T_k = V · s_k + c_k · x` for every `k`. -/
theorem refOut_eq_kerOut (V : n → s → ℝ) (D : s → n → ℝ) (e : s → ℝ) (x : n → p → ℝ)
    (W : Fin 6 → p → q → ℝ) : refOut V D e x W = kerOut V D e x W := by
  classical
  funext i j
  let T1 := lap V D e x
  let T2 := stepT V D e x T1
  let T3 := stepT V D e T1 T2
  let T4 := stepT V D e T2 T3
  let T5 := stepT V D e T3 T4
  let M := mm D V
  let xh : s → p → ℝ := fun a j => e a * mm D x a j
  let s0 : s → p → ℝ := fun _ _ => 0
  let s2 := stepS M e xh 0 s0 xh
  let s3 := stepS M e xh (-2) xh s2
  let s4 := stepS M e xh 0 s2 s3
  let s5 := stepS M e xh 2 s3 s4
  exact cheb6_out V D e x x T1 T2 T3 T4 T5 M xh s0 xh s2 s3 s4 s5 0 (-2) 0 2
    (W 0) (W 1) (W 2) (W 3) (W 4) (W 5)
    (fun a j => mm s0 (W 0) a j + mm xh (W 1) a j + mm s2 (W 2) a j
      + mm s3 (W 3) a j + mm s4 (W 4) a j + mm s5 (W 5) a j)
    (fun k j => 1 * W 0 k j + 0 * W 1 k j + (-1) * W 2 k j + 0 * W 3 k j
      + 1 * W 4 k j + 0 * W 5 k j)
    1 0 (-1) 0 1 0
    (fun _ _ => rfl) (fun _ _ => rfl) (fun _ _ => rfl) (fun _ _ => rfl) (fun _ _ => rfl)
    (fun _ _ => rfl)
    (fun _ _ => rfl) (fun _ _ => rfl)
    (fun _ _ => rfl) (fun _ _ => rfl) (fun _ _ => rfl) (fun _ _ => rfl) (fun _ _ => rfl)
    (fun _ _ => rfl)
    rfl rfl rfl rfl
    (fun _ _ => rfl) (fun _ _ => rfl)
    rfl rfl rfl rfl rfl rfl i j

end Cert.Lib.ChebSpectral
-- ==== Proof.LibChebSpectralEReal.lean ====
/-
  The Chebyshev filter layer in its two forms, over the extended reals.

  A filter of order six over the spectral Laplacian L z = V (eigs ⊙ (D z)) can be evaluated in the vertex domain — the
  three-term recurrence T₀ = x, T₁ = L x, T_{k+1} = 2 L T_k − T_{k−1} on arrays with one row per vertex, summing T_k W_k —
  or in the spectral domain, carrying T_k = V s_k + c_k x with s_{k+1} = 2 eigs ⊙ (M s_k) + 2 c_k x̂ − s_{k−1}, M = D V,
  x̂ = eigs ⊙ (D x), c = 1, 0, −1, 0, 1, 0, and forming V (Σ s_k W_k) + x (Σ c_k W_k). Over the reals the two are equal
  by associativity and distributivity of matrix products. Over the extended reals those laws fail at the infinities,
  but on arrays all of whose entries are reals every operation of either form returns the coercion of the real
  operation; so each form is the coercion of its real counterpart and the two agree. The definitions follow the order
  of operations of the two programs: left-nested sums, the scalar 2 applied after the eigenvalue scaling, the
  coefficient term added before the previous iterate is subtracted.
-/
import proofs.«135777_j83262236000435_2_alg».proof.Proof.LibChebSpectral
import Mathlib.Data.EReal.Basic
import Mathlib.Data.EReal.Operations

noncomputable section

open scoped BigOperators

namespace Cert.Lib.ChebSpectralE

open Cert.Lib.ChebSpectral

/-! ## The same layer over the extended reals

The idealized programs compute with extended reals. On arrays all of whose entries are (coercions of) reals, every
operation of the layer — products, sums over a finite index, differences, the scalar multiples by 2, −2, ±1 and 0 —
returns the coercion of the corresponding real operation, so the layer's two forms are the coercions of their
real counterparts and agree because those do. -/

variable {n s p q : Type*} [Fintype n] [Fintype s] [Fintype p] [Fintype q]

/-- Product of two extended-real arrays read as matrices. -/
def mmE {a b c : Type*} [Fintype b] (A : a → b → EReal) (B : b → c → EReal) : a → c → EReal := fun i j => ∑ k, A i k * B k j
/-- The spectral Laplacian over the extended reals: V · (eigs ⊙ (D · z)). -/
def lapE (V : n → s → EReal) (D : s → n → EReal) (e : s → EReal) (z : n → p → EReal) : n → p → EReal := mmE V (fun a j => e a * mmE D z a j)
/-- One step of the vertex-domain recurrence over the extended reals: 2 · L(T_cur) − T_prev. -/
def stepTE (V : n → s → EReal) (D : s → n → EReal) (e : s → EReal) (Tprev Tcur : n → p → EReal) : n → p → EReal :=
  fun i j => ((2 : ℝ) : EReal) * lapE V D e Tcur i j - Tprev i j
/-- The reference's layer output before the bias, over the extended reals. -/
def refOutE (V : n → s → EReal) (D : s → n → EReal) (e : s → EReal) (x : n → p → EReal) (W : Fin 6 → p → q → EReal) : n → q → EReal :=
  let T0 := x; let T1 := lapE V D e T0; let T2 := stepTE V D e T0 T1; let T3 := stepTE V D e T1 T2; let T4 := stepTE V D e T2 T3; let T5 := stepTE V D e T3 T4
  fun i j => mmE T0 (W 0) i j + mmE T1 (W 1) i j + mmE T2 (W 2) i j + mmE T3 (W 3) i j + mmE T4 (W 4) i j + mmE T5 (W 5) i j
/-- One step of the spectral-domain recurrence over the extended reals. -/
def stepSE (M : s → s → EReal) (e : s → EReal) (xh : s → p → EReal) (coef : ℝ) (sprev scur : s → p → EReal) : s → p → EReal :=
  fun a j => ((2 : ℝ) : EReal) * (e a * mmE M scur a j) + (coef : EReal) * xh a j - sprev a j
/-- The kernel's layer output before the bias, over the extended reals. -/
def kerOutE (V : n → s → EReal) (D : s → n → EReal) (e : s → EReal) (x : n → p → EReal) (W : Fin 6 → p → q → EReal) : n → q → EReal :=
  let M := mmE D V; let xh : s → p → EReal := fun a j => e a * mmE D x a j
  let s0 : s → p → EReal := fun _ _ => ((0 : ℝ) : EReal); let s1 := xh; let s2 := stepSE M e xh 0 s0 s1; let s3 := stepSE M e xh (-2) s1 s2; let s4 := stepSE M e xh 0 s2 s3; let s5 := stepSE M e xh 2 s3 s4
  let Sacc : s → q → EReal := fun a j => mmE s0 (W 0) a j + mmE s1 (W 1) a j + mmE s2 (W 2) a j + mmE s3 (W 3) a j + mmE s4 (W 4) a j + mmE s5 (W 5) a j
  let Wbar : p → q → EReal := fun k j => ((1 : ℝ) : EReal) * W 0 k j + ((0 : ℝ) : EReal) * W 1 k j + (((-1 : ℝ)) : EReal) * W 2 k j + ((0 : ℝ) : EReal) * W 3 k j + ((1 : ℝ) : EReal) * W 4 k j + ((0 : ℝ) : EReal) * W 5 k j
  fun i j => mmE V Sacc i j + mmE x Wbar i j

/-- The coercion of a finite sum of reals is the sum of the coercions. -/
theorem coe_sum' {ι : Type*} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- A product of coerced arrays is the coercion of the real product. -/
theorem mmE_coe {a b c : Type*} [Fintype b] (A : a → b → ℝ) (B : b → c → ℝ) :
    mmE (fun i k => ((A i k : ℝ) : EReal)) (fun k j => ((B k j : ℝ) : EReal)) = fun i j => ((mm A B i j : ℝ) : EReal) := by
  funext i j
  simp only [mmE, mm, coe_sum', EReal.coe_mul]

theorem lapE_coe (V : n → s → ℝ) (D : s → n → ℝ) (e : s → ℝ) (z : n → p → ℝ) :
    lapE (fun i a => ((V i a : ℝ) : EReal)) (fun a l => ((D a l : ℝ) : EReal)) (fun a => ((e a : ℝ) : EReal)) (fun l j => ((z l j : ℝ) : EReal))
      = fun i j => ((lap V D e z i j : ℝ) : EReal) := by
  unfold lapE lap
  rw [mmE_coe D z]
  simp only [← EReal.coe_mul]
  exact mmE_coe V (fun a j => e a * mm D z a j)

theorem stepTE_coe (V : n → s → ℝ) (D : s → n → ℝ) (e : s → ℝ) (Tp Tc : n → p → ℝ) :
    stepTE (fun i a => ((V i a : ℝ) : EReal)) (fun a l => ((D a l : ℝ) : EReal)) (fun a => ((e a : ℝ) : EReal)) (fun l j => ((Tp l j : ℝ) : EReal)) (fun l j => ((Tc l j : ℝ) : EReal))
      = fun i j => ((stepT V D e Tp Tc i j : ℝ) : EReal) := by
  unfold stepTE stepT
  rw [lapE_coe V D e Tc]
  funext i j
  simp only [← EReal.coe_mul, ← EReal.coe_sub]

theorem stepSE_coe (M : s → s → ℝ) (e : s → ℝ) (xh : s → p → ℝ) (coef : ℝ) (sp sc : s → p → ℝ) :
    stepSE (fun a b => ((M a b : ℝ) : EReal)) (fun a => ((e a : ℝ) : EReal)) (fun a j => ((xh a j : ℝ) : EReal)) coef (fun a j => ((sp a j : ℝ) : EReal)) (fun a j => ((sc a j : ℝ) : EReal))
      = fun a j => ((stepS M e xh coef sp sc a j : ℝ) : EReal) := by
  unfold stepSE stepS
  rw [mmE_coe M sc]
  funext a j
  simp only [← EReal.coe_mul, ← EReal.coe_add, ← EReal.coe_sub]

/-- The reference's form of the layer on coerced arrays is the coercion of its real form. -/
theorem refOutE_coe (V : n → s → ℝ) (D : s → n → ℝ) (e : s → ℝ) (x : n → p → ℝ) (W : Fin 6 → p → q → ℝ) :
    refOutE (fun i a => ((V i a : ℝ) : EReal)) (fun a l => ((D a l : ℝ) : EReal)) (fun a => ((e a : ℝ) : EReal)) (fun l j => ((x l j : ℝ) : EReal)) (fun k a b => ((W k a b : ℝ) : EReal))
      = fun i j => ((refOut V D e x W i j : ℝ) : EReal) := by
  unfold refOutE refOut
  simp only [lapE_coe, stepTE_coe, mmE_coe]
  funext i j
  simp only [← EReal.coe_add]

/-- The kernel's form of the layer on coerced arrays is the coercion of its real form. -/
theorem kerOutE_coe (V : n → s → ℝ) (D : s → n → ℝ) (e : s → ℝ) (x : n → p → ℝ) (W : Fin 6 → p → q → ℝ) :
    kerOutE (fun i a => ((V i a : ℝ) : EReal)) (fun a l => ((D a l : ℝ) : EReal)) (fun a => ((e a : ℝ) : EReal)) (fun l j => ((x l j : ℝ) : EReal)) (fun k a b => ((W k a b : ℝ) : EReal))
      = fun i j => ((kerOut V D e x W i j : ℝ) : EReal) := by
  unfold kerOutE kerOut
  simp only [mmE_coe, ← EReal.coe_mul, stepSE_coe, ← EReal.coe_add]

/-- On arrays of reals the two forms of the layer agree over the extended reals. -/
theorem refOutE_eq_kerOutE (V : n → s → ℝ) (D : s → n → ℝ) (e : s → ℝ) (x : n → p → ℝ) (W : Fin 6 → p → q → ℝ) :
    refOutE (fun i a => ((V i a : ℝ) : EReal)) (fun a l => ((D a l : ℝ) : EReal)) (fun a => ((e a : ℝ) : EReal)) (fun l j => ((x l j : ℝ) : EReal)) (fun k a b => ((W k a b : ℝ) : EReal))
      = kerOutE (fun i a => ((V i a : ℝ) : EReal)) (fun a l => ((D a l : ℝ) : EReal)) (fun a => ((e a : ℝ) : EReal)) (fun l j => ((x l j : ℝ) : EReal)) (fun k a b => ((W k a b : ℝ) : EReal)) := by
  rw [refOutE_coe, kerOutE_coe, refOut_eq_kerOut]

end Cert.Lib.ChebSpectralE

end
-- ==== Proof.LibBatchNormReal.lean ====
/-
  Batch normalisation followed by the rectifier keeps arrays of reals real.

  The idealized programs compute over the extended reals, where division by zero and the inverse square root of a
  non-positive number have conventional values. Batch normalisation over the rows of an array divides by the row
  count and takes the inverse square root of variance plus ε. On an array whose entries are all reals, with a positive
  row count and a positive ε, the variance is a nonnegative real, so variance plus ε is a positive real and neither
  convention is met: the output is the coercion of the usual real formula. This is what lets a network of such
  layers be compared over the reals, where matrix products associate and distribute.
-/
import Mathlib.Data.EReal.Basic
import Mathlib.Data.EReal.Operations
import Mathlib.Analysis.SpecialFunctions.Pow.Real
import Idealize.ShloMosaic.PureOps.Ideal

noncomputable section

open scoped BigOperators

namespace Cert.Lib.BatchNorm

open Idealize.ShloMosaic

/-! ## Batch normalisation followed by the rectifier, entrywise over the extended reals

For a column j of an n-row array y: the mean μ = (Σᵢ yᵢⱼ) / N, the centred entries dᵢⱼ = yᵢⱼ − μ, the variance
v = (Σᵢ dᵢⱼ²) / N, and the output max (dᵢⱼ · (v + ε)^(−1/2) · gⱼ + bⱼ) 0. Division and the inverse square root are the
idealized ones (division by zero and the root of a negative number have conventional values there). On arrays of
reals with N ≠ 0 and ε > 0 none of the conventional values is met — v is a mean of squares scaled by 1/N, so with
N > 0 it is nonnegative and v + ε > 0 — and the output is the coercion of the real formula. -/

variable {n q : Type*} [Fintype n]

/-- Batch normalisation and rectifier over the extended reals, with the idealized division and inverse root. -/
def bnReluE (y : n → q → EReal) (N eps : EReal) (g b : q → EReal) : n → q → EReal := fun i j =>
  max ((y i j - Ideal.div (∑ i', y i' j) N)
        * Ideal.rsqrt (Ideal.div (∑ i', (y i' j - Ideal.div (∑ i'', y i'' j) N) * (y i' j - Ideal.div (∑ i'', y i'' j) N)) N + eps)
        * g j + b j) 0

/-- The same formula over the reals. -/
def bnReluR (y : n → q → ℝ) (N eps : ℝ) (g b : q → ℝ) : n → q → ℝ := fun i j =>
  max ((y i j - (∑ i', y i' j) * (1 / N))
        * (Real.sqrt ((∑ i', (y i' j - (∑ i'', y i'' j) * (1 / N)) * (y i' j - (∑ i'', y i'' j) * (1 / N))) * (1 / N) + eps))⁻¹
        * g j + b j) 0

theorem coe_sum'' {ι : Type*} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- On arrays of reals, with a positive row count and a positive ε, batch normalisation followed by the rectifier
    is the coercion of the real formula: in particular every entry of the result is again a real. -/
theorem bnReluE_coe (y : n → q → ℝ) (N eps : ℝ) (hN : 0 < N) (heps : 0 < eps) (g b : q → ℝ) :
    bnReluE (fun i j => ((y i j : ℝ) : EReal)) (N : EReal) (eps : EReal) (fun j => ((g j : ℝ) : EReal)) (fun j => ((b j : ℝ) : EReal))
      = fun i j => ((bnReluR y N eps g b i j : ℝ) : EReal) := by
  funext i j
  unfold bnReluE bnReluR
  have hN0 : N ≠ 0 := ne_of_gt hN
  simp only [Ideal.div_coe hN0, ← coe_sum'', ← EReal.coe_mul, ← EReal.coe_sub, ← EReal.coe_add]
  set μ : ℝ := (∑ i', y i' j) * (1 / N) with hμ
  set v : ℝ := (∑ i', (y i' j - μ) * (y i' j - μ)) * (1 / N) with hv
  have hv0 : 0 ≤ v := by
    rw [hv]
    exact mul_nonneg (Finset.sum_nonneg fun i' _ => mul_self_nonneg _) (by positivity)
  have hpos : 0 < v + eps := by linarith
  rw [Ideal.rsqrt_coe, if_neg (not_lt.mpr hpos.le), if_neg (ne_of_gt hpos)]
  simp only [← EReal.coe_mul, ← EReal.coe_add]
  rw [show (0 : EReal) = ((0 : ℝ) : EReal) from rfl]
  exact (EReal.coe_strictMono.monotone.map_max).symm

end Cert.Lib.BatchNorm

end
-- ==== Proof.LibChebLayers.lean ====
/-
  A stack of Chebyshev filter layers, each followed by a bias, batch normalisation and the rectifier, in its two forms.

  One layer is: the six-term Chebyshev filter output (computed in the vertex domain, or in the spectral domain), plus a
  bias row, then batch normalisation over the rows and the rectifier. Over the extended reals the two filter forms agree
  on arrays of reals, and the rest of the layer is the same function of the filter output, so the two layers agree on
  arrays of reals. Moreover, with a positive row count and a positive ε, the layer's output on arrays of reals is again
  an array of reals (the coercion of the real layer), so the agreement propagates through a chain of layers: the output
  of one layer is a legitimate real input of the next.
-/
import proofs.«135777_j83262236000435_2_alg».proof.Proof.LibChebSpectralEReal
import proofs.«135777_j83262236000435_2_alg».proof.Proof.LibBatchNormReal

noncomputable section

open scoped BigOperators

namespace Cert.Lib.ChebLayers

open Cert.Lib.ChebSpectral Cert.Lib.ChebSpectralE Cert.Lib.BatchNorm

variable {n s p q : Type*} [Fintype n] [Fintype s] [Fintype p] [Fintype q]

/-! ## One layer -/

/-- One layer with the filter in its vertex-domain form, over the extended reals:
    batch normalisation and rectifier of (filter output + bias row). -/
def layerRefE (V : n → s → EReal) (D : s → n → EReal) (e : s → EReal) (x : n → p → EReal)
    (W : Fin 6 → p → q → EReal) (cb : q → EReal) (N eps : EReal) (g b : q → EReal) : n → q → EReal :=
  bnReluE (fun i j => refOutE V D e x W i j + cb j) N eps g b

/-- One layer with the filter in its spectral-domain form, over the extended reals:
    batch normalisation and rectifier of (filter output + bias row). -/
def layerKerE (V : n → s → EReal) (D : s → n → EReal) (e : s → EReal) (x : n → p → EReal)
    (W : Fin 6 → p → q → EReal) (cb : q → EReal) (N eps : EReal) (g b : q → EReal) : n → q → EReal :=
  bnReluE (fun i j => kerOutE V D e x W i j + cb j) N eps g b

/-- One layer over the reals (the filter in its spectral-domain form):
    batch normalisation and rectifier of (filter output + bias row). -/
def layerR (V : n → s → ℝ) (D : s → n → ℝ) (e : s → ℝ) (x : n → p → ℝ)
    (W : Fin 6 → p → q → ℝ) (cb : q → ℝ) (N eps : ℝ) (g b : q → ℝ) : n → q → ℝ :=
  bnReluR (fun i j => kerOut V D e x W i j + cb j) N eps g b

/-- On arrays of reals, with a positive row count and a positive ε, the spectral-domain layer over the
    extended reals is the coercion of the real layer: every entry of its output is again a real. -/
theorem layerKerE_coe (V : n → s → ℝ) (D : s → n → ℝ) (e : s → ℝ) (x : n → p → ℝ)
    (W : Fin 6 → p → q → ℝ) (cb : q → ℝ) (N eps : ℝ) (hN : 0 < N) (heps : 0 < eps) (g b : q → ℝ) :
    layerKerE (fun i a => ((V i a : ℝ) : EReal)) (fun a l => ((D a l : ℝ) : EReal))
        (fun a => ((e a : ℝ) : EReal)) (fun l j => ((x l j : ℝ) : EReal))
        (fun k a b => ((W k a b : ℝ) : EReal)) (fun j => ((cb j : ℝ) : EReal)) (N : EReal) (eps : EReal)
        (fun j => ((g j : ℝ) : EReal)) (fun j => ((b j : ℝ) : EReal))
      = fun i j => ((layerR V D e x W cb N eps g b i j : ℝ) : EReal) := by
  unfold layerKerE layerR
  rw [kerOutE_coe]
  simp only [← EReal.coe_add]
  exact bnReluE_coe (fun i j => kerOut V D e x W i j + cb j) N eps hN heps g b

/-- On arrays of reals the vertex-domain layer and the spectral-domain layer agree over the extended
    reals: their filter outputs are equal arrays and the rest of the layer is the same function of them. -/
theorem layerRefE_eq_layerKerE (V : n → s → ℝ) (D : s → n → ℝ) (e : s → ℝ) (x : n → p → ℝ)
    (W : Fin 6 → p → q → ℝ) (cb : q → EReal) (N eps : EReal) (g b : q → EReal) :
    layerRefE (fun i a => ((V i a : ℝ) : EReal)) (fun a l => ((D a l : ℝ) : EReal))
        (fun a => ((e a : ℝ) : EReal)) (fun l j => ((x l j : ℝ) : EReal))
        (fun k a b => ((W k a b : ℝ) : EReal)) cb N eps g b
      = layerKerE (fun i a => ((V i a : ℝ) : EReal)) (fun a l => ((D a l : ℝ) : EReal))
        (fun a => ((e a : ℝ) : EReal)) (fun l j => ((x l j : ℝ) : EReal))
        (fun k a b => ((W k a b : ℝ) : EReal)) cb N eps g b := by
  unfold layerRefE layerKerE
  rw [refOutE_eq_kerOutE]

/-- On arrays of reals, with a positive row count and a positive ε, the vertex-domain layer over the
    extended reals is also the coercion of the real layer. -/
theorem layerRefE_coe (V : n → s → ℝ) (D : s → n → ℝ) (e : s → ℝ) (x : n → p → ℝ)
    (W : Fin 6 → p → q → ℝ) (cb : q → ℝ) (N eps : ℝ) (hN : 0 < N) (heps : 0 < eps) (g b : q → ℝ) :
    layerRefE (fun i a => ((V i a : ℝ) : EReal)) (fun a l => ((D a l : ℝ) : EReal))
        (fun a => ((e a : ℝ) : EReal)) (fun l j => ((x l j : ℝ) : EReal))
        (fun k a b => ((W k a b : ℝ) : EReal)) (fun j => ((cb j : ℝ) : EReal)) (N : EReal) (eps : EReal)
        (fun j => ((g j : ℝ) : EReal)) (fun j => ((b j : ℝ) : EReal))
      = fun i j => ((layerR V D e x W cb N eps g b i j : ℝ) : EReal) := by
  rw [layerRefE_eq_layerKerE, layerKerE_coe V D e x W cb N eps hN heps g b]

/-! ## A chain of three layers

The three layers share V, D, the eigenvalues, the row count and ε; the widths are p0 → p1 → p2 → p3 and each layer
has its own weights, bias row, scale and shift. The output of one layer is the input of the next. -/

variable {p0 p1 p2 p3 : Type*} [Fintype p0] [Fintype p1] [Fintype p2] [Fintype p3]

/-- Three vertex-domain layers in a chain, over the extended reals. -/
def net3RefE (V : n → s → EReal) (D : s → n → EReal) (e : s → EReal) (x : n → p0 → EReal) (N eps : EReal)
    (W1 : Fin 6 → p0 → p1 → EReal) (cb1 g1 b1 : p1 → EReal)
    (W2 : Fin 6 → p1 → p2 → EReal) (cb2 g2 b2 : p2 → EReal)
    (W3 : Fin 6 → p2 → p3 → EReal) (cb3 g3 b3 : p3 → EReal) : n → p3 → EReal :=
  layerRefE V D e (layerRefE V D e (layerRefE V D e x W1 cb1 N eps g1 b1) W2 cb2 N eps g2 b2)
    W3 cb3 N eps g3 b3

/-- Three spectral-domain layers in a chain, over the extended reals. -/
def net3KerE (V : n → s → EReal) (D : s → n → EReal) (e : s → EReal) (x : n → p0 → EReal) (N eps : EReal)
    (W1 : Fin 6 → p0 → p1 → EReal) (cb1 g1 b1 : p1 → EReal)
    (W2 : Fin 6 → p1 → p2 → EReal) (cb2 g2 b2 : p2 → EReal)
    (W3 : Fin 6 → p2 → p3 → EReal) (cb3 g3 b3 : p3 → EReal) : n → p3 → EReal :=
  layerKerE V D e (layerKerE V D e (layerKerE V D e x W1 cb1 N eps g1 b1) W2 cb2 N eps g2 b2)
    W3 cb3 N eps g3 b3

/-- Three layers in a chain, over the reals. -/
def net3R (V : n → s → ℝ) (D : s → n → ℝ) (e : s → ℝ) (x : n → p0 → ℝ) (N eps : ℝ)
    (W1 : Fin 6 → p0 → p1 → ℝ) (cb1 g1 b1 : p1 → ℝ)
    (W2 : Fin 6 → p1 → p2 → ℝ) (cb2 g2 b2 : p2 → ℝ)
    (W3 : Fin 6 → p2 → p3 → ℝ) (cb3 g3 b3 : p3 → ℝ) : n → p3 → ℝ :=
  layerR V D e (layerR V D e (layerR V D e x W1 cb1 N eps g1 b1) W2 cb2 N eps g2 b2)
    W3 cb3 N eps g3 b3

/-- On arrays of reals, with a positive row count and a positive ε, the chain of three spectral-domain
    layers over the extended reals is the coercion of the real chain: each layer's output is an array of
    reals and is therefore a legitimate real input of the next layer. -/
theorem net3KerE_coe (V : n → s → ℝ) (D : s → n → ℝ) (e : s → ℝ) (x : n → p0 → ℝ) (N eps : ℝ)
    (hN : 0 < N) (heps : 0 < eps)
    (W1 : Fin 6 → p0 → p1 → ℝ) (cb1 g1 b1 : p1 → ℝ)
    (W2 : Fin 6 → p1 → p2 → ℝ) (cb2 g2 b2 : p2 → ℝ)
    (W3 : Fin 6 → p2 → p3 → ℝ) (cb3 g3 b3 : p3 → ℝ) :
    net3KerE (fun i a => ((V i a : ℝ) : EReal)) (fun a l => ((D a l : ℝ) : EReal))
        (fun a => ((e a : ℝ) : EReal)) (fun l j => ((x l j : ℝ) : EReal)) (N : EReal) (eps : EReal)
        (fun k a b => ((W1 k a b : ℝ) : EReal)) (fun j => ((cb1 j : ℝ) : EReal))
        (fun j => ((g1 j : ℝ) : EReal)) (fun j => ((b1 j : ℝ) : EReal))
        (fun k a b => ((W2 k a b : ℝ) : EReal)) (fun j => ((cb2 j : ℝ) : EReal))
        (fun j => ((g2 j : ℝ) : EReal)) (fun j => ((b2 j : ℝ) : EReal))
        (fun k a b => ((W3 k a b : ℝ) : EReal)) (fun j => ((cb3 j : ℝ) : EReal))
        (fun j => ((g3 j : ℝ) : EReal)) (fun j => ((b3 j : ℝ) : EReal))
      = fun i j => ((net3R V D e x N eps W1 cb1 g1 b1 W2 cb2 g2 b2 W3 cb3 g3 b3 i j : ℝ) : EReal) := by
  unfold net3KerE net3R
  rw [layerKerE_coe V D e x W1 cb1 N eps hN heps g1 b1,
    layerKerE_coe V D e (layerR V D e x W1 cb1 N eps g1 b1) W2 cb2 N eps hN heps g2 b2,
    layerKerE_coe V D e (layerR V D e (layerR V D e x W1 cb1 N eps g1 b1) W2 cb2 N eps g2 b2)
      W3 cb3 N eps hN heps g3 b3]

/-- On arrays of reals, with a positive row count and a positive ε, the chain of three vertex-domain layers
    over the extended reals is the coercion of the same real chain. -/
theorem net3RefE_coe (V : n → s → ℝ) (D : s → n → ℝ) (e : s → ℝ) (x : n → p0 → ℝ) (N eps : ℝ)
    (hN : 0 < N) (heps : 0 < eps)
    (W1 : Fin 6 → p0 → p1 → ℝ) (cb1 g1 b1 : p1 → ℝ)
    (W2 : Fin 6 → p1 → p2 → ℝ) (cb2 g2 b2 : p2 → ℝ)
    (W3 : Fin 6 → p2 → p3 → ℝ) (cb3 g3 b3 : p3 → ℝ) :
    net3RefE (fun i a => ((V i a : ℝ) : EReal)) (fun a l => ((D a l : ℝ) : EReal))
        (fun a => ((e a : ℝ) : EReal)) (fun l j => ((x l j : ℝ) : EReal)) (N : EReal) (eps : EReal)
        (fun k a b => ((W1 k a b : ℝ) : EReal)) (fun j => ((cb1 j : ℝ) : EReal))
        (fun j => ((g1 j : ℝ) : EReal)) (fun j => ((b1 j : ℝ) : EReal))
        (fun k a b => ((W2 k a b : ℝ) : EReal)) (fun j => ((cb2 j : ℝ) : EReal))
        (fun j => ((g2 j : ℝ) : EReal)) (fun j => ((b2 j : ℝ) : EReal))
        (fun k a b => ((W3 k a b : ℝ) : EReal)) (fun j => ((cb3 j : ℝ) : EReal))
        (fun j => ((g3 j : ℝ) : EReal)) (fun j => ((b3 j : ℝ) : EReal))
      = fun i j => ((net3R V D e x N eps W1 cb1 g1 b1 W2 cb2 g2 b2 W3 cb3 g3 b3 i j : ℝ) : EReal) := by
  unfold net3RefE net3R
  rw [layerRefE_coe V D e x W1 cb1 N eps hN heps g1 b1,
    layerRefE_coe V D e (layerR V D e x W1 cb1 N eps g1 b1) W2 cb2 N eps hN heps g2 b2,
    layerRefE_coe V D e (layerR V D e (layerR V D e x W1 cb1 N eps g1 b1) W2 cb2 N eps g2 b2)
      W3 cb3 N eps hN heps g3 b3]

/-- On arrays of reals, with a positive row count and a positive ε, the chain of three vertex-domain layers
    and the chain of three spectral-domain layers agree over the extended reals. -/
theorem net3RefE_eq_net3KerE (V : n → s → ℝ) (D : s → n → ℝ) (e : s → ℝ) (x : n → p0 → ℝ) (N eps : ℝ)
    (hN : 0 < N) (heps : 0 < eps)
    (W1 : Fin 6 → p0 → p1 → ℝ) (cb1 g1 b1 : p1 → ℝ)
    (W2 : Fin 6 → p1 → p2 → ℝ) (cb2 g2 b2 : p2 → ℝ)
    (W3 : Fin 6 → p2 → p3 → ℝ) (cb3 g3 b3 : p3 → ℝ) :
    net3RefE (fun i a => ((V i a : ℝ) : EReal)) (fun a l => ((D a l : ℝ) : EReal))
        (fun a => ((e a : ℝ) : EReal)) (fun l j => ((x l j : ℝ) : EReal)) (N : EReal) (eps : EReal)
        (fun k a b => ((W1 k a b : ℝ) : EReal)) (fun j => ((cb1 j : ℝ) : EReal))
        (fun j => ((g1 j : ℝ) : EReal)) (fun j => ((b1 j : ℝ) : EReal))
        (fun k a b => ((W2 k a b : ℝ) : EReal)) (fun j => ((cb2 j : ℝ) : EReal))
        (fun j => ((g2 j : ℝ) : EReal)) (fun j => ((b2 j : ℝ) : EReal))
        (fun k a b => ((W3 k a b : ℝ) : EReal)) (fun j => ((cb3 j : ℝ) : EReal))
        (fun j => ((g3 j : ℝ) : EReal)) (fun j => ((b3 j : ℝ) : EReal))
      = net3KerE (fun i a => ((V i a : ℝ) : EReal)) (fun a l => ((D a l : ℝ) : EReal))
        (fun a => ((e a : ℝ) : EReal)) (fun l j => ((x l j : ℝ) : EReal)) (N : EReal) (eps : EReal)
        (fun k a b => ((W1 k a b : ℝ) : EReal)) (fun j => ((cb1 j : ℝ) : EReal))
        (fun j => ((g1 j : ℝ) : EReal)) (fun j => ((b1 j : ℝ) : EReal))
        (fun k a b => ((W2 k a b : ℝ) : EReal)) (fun j => ((cb2 j : ℝ) : EReal))
        (fun j => ((g2 j : ℝ) : EReal)) (fun j => ((b2 j : ℝ) : EReal))
        (fun k a b => ((W3 k a b : ℝ) : EReal)) (fun j => ((cb3 j : ℝ) : EReal))
        (fun j => ((g3 j : ℝ) : EReal)) (fun j => ((b3 j : ℝ) : EReal)) := by
  rw [net3RefE_coe V D e x N eps hN heps W1 cb1 g1 b1 W2 cb2 g2 b2 W3 cb3 g3 b3,
    net3KerE_coe V D e x N eps hN heps W1 cb1 g1 b1 W2 cb2 g2 b2 W3 cb3 g3 b3]

end Cert.Lib.ChebLayers

end
-- ==== Proof.RefLayerRead.lean ====
/-
  One Chebyshev layer of the reference, read at an index.

  The layer's filter applies, six times over, the spectral Laplacian z ↦ V (eigs ⊙ (D z)) and the three-term
  recurrence T_{k+1} = 2 L T_k − T_{k−1}, multiplies each T_k by member k of the stack of weights and sums from the
  left, then adds the bias along the rows. Read entry by entry, each of these operations is the corresponding
  operation on arrays indexed by coordinates, so the filter's output at (i, j) is the vertex-domain form of the
  filter at (i, j) plus the bias at j. The batch normalisation that follows computes the column mean twice (once
  for the centring, once inside the variance) and guards the variance by a comparison of the row count with zero
  that is true; read entry by entry it is the usual formula.
-/
import proofs.«135777_j83262236000435_2_alg».proof.Proof.RefStages
import proofs.«135777_j83262236000435_2_alg».proof.Proof.RefOpsRead
import proofs.«135777_j83262236000435_2_alg».proof.Proof.LibChebLayers

noncomputable section

open scoped BigOperators

namespace Cert.ReferenceIdeal.LayerRead

open Idealize.ShloMosaic Idealize.ShloMosaic.ValueIdx Cert.ReferenceIdeal
open Cert.ReferenceIdeal.Facts₀
open Cert.Lib.ChebSpectralE Cert.Lib.BatchNorm Cert.Lib.ChebLayers

variable [Facts]

/-! ## The filter -/

/-- The spectral Laplacian as the program applies it: V · (eigs ⊙ (D · z)), the eigenvalues broadcast along the
    columns. -/
def lapP (V : FVec Ideal S10000x64 .f32) (D : FVec Ideal S64x10000 .f32) (eigs : FVec Ideal S64 .f32)
    (z : FVec Ideal S10000x64 .f32) : FVec Ideal S10000x64 .f32 :=
  Host.dotGeneral (F := Ideal) dot_S10000x64_S64x64_S10000x64_1_0_0_1_n_n none V
    (mulf (broadcastInDim S64x64 ![0, 1] bcast_S64x1_S64x64_0_1 (broadcastInDim S64x1 ![0] bcast_S64_S64x1_0 eigs))
      (Host.dotGeneral (F := Ideal) dot_S64x10000_S10000x64_S64x64_1_0_0_1_n_n none D z))

/-- One step of the recurrence as the program applies it: 2 · L(T_cur) − T_prev, the scalar 2 broadcast. -/
def stepP (V : FVec Ideal S10000x64 .f32) (D : FVec Ideal S64x10000 .f32) (eigs : FVec Ideal S64 .f32)
    (Tp Tc : FVec Ideal S10000x64 .f32) : FVec Ideal S10000x64 .f32 :=
  subf (mulf (broadcastInDim S10000x64 ![] bcast_S_S10000x64 (constant (F := Ideal) S_ .f32 0x40000000#32))
    (lapP V D eigs Tc)) Tp

/-- The program's Laplacian at (i, j) is the Laplacian of the arrays indexed by coordinates. -/
theorem lapP_read (V : FVec Ideal S10000x64 .f32) (D : FVec Ideal S64x10000 .f32) (eigs : FVec Ideal S64 .f32)
    (z : FVec Ideal S10000x64 .f32) (zE : Fin 10000 → Fin 64 → EReal) (hz : ∀ l j, z (ix2 l j) = zE l j)
    (i : Fin 10000) (j : Fin 64) :
    lapP V D eigs z (ix2 i j)
      = lapE (fun i a => V (ix2 i a)) (fun a l => D (ix2 a l)) (fun a => eigs (ix1 a)) zE i j := by
  unfold lapP lapE mmE
  rw [OpsRead.dot_S10000x64_S64x64]
  refine Finset.sum_congr rfl fun a _ => ?_
  rw [mulf_apply, OpsRead.bcast_S64_S64x64_cols_apply, OpsRead.dot_S64x10000_S10000x64]
  simp only [hz]

/-- The program's recurrence step at (i, j) is the step on the arrays indexed by coordinates. -/
theorem stepP_read (V : FVec Ideal S10000x64 .f32) (D : FVec Ideal S64x10000 .f32) (eigs : FVec Ideal S64 .f32)
    (Tp Tc : FVec Ideal S10000x64 .f32) (TpE TcE : Fin 10000 → Fin 64 → EReal)
    (hp : ∀ l j, Tp (ix2 l j) = TpE l j) (hc : ∀ l j, Tc (ix2 l j) = TcE l j) (i : Fin 10000) (j : Fin 64) :
    stepP V D eigs Tp Tc (ix2 i j)
      = stepTE (fun i a => V (ix2 i a)) (fun a l => D (ix2 a l)) (fun a => eigs (ix1 a)) TpE TcE i j := by
  unfold stepP stepTE
  rw [subf_apply, mulf_apply, OpsRead.bcast_S_S10000x64_apply, constant_apply, OpsRead.ofBits_two,
    lapP_read V D eigs Tc TcE hc, hp]

/-- A product with a 64 × 64 matrix at (i, j), both factors indexed by coordinates. -/
theorem mmP_read (T : FVec Ideal S10000x64 .f32) (Wk : FVec Ideal S64x64 .f32)
    (TE : Fin 10000 → Fin 64 → EReal) (WE : Fin 64 → Fin 64 → EReal)
    (hT : ∀ l a, T (ix2 l a) = TE l a) (hW : ∀ a b, Wk (ix2 a b) = WE a b) (i : Fin 10000) (j : Fin 64) :
    Host.dotGeneral (F := Ideal) dot_S10000x64_S64x64_S10000x64_1_0_0_1_n_n none T Wk (ix2 i j)
      = mmE TE WE i j := by
  unfold mmE
  rw [OpsRead.dot_S10000x64_S64x64]
  simp only [hT, hW]

/-- The filter with its bias as the program computes it, over the Laplacian and the recurrence step named above:
    the six products summed from the left, then the bias broadcast down the rows. -/
def cheb64P (h V : FVec Ideal S10000x64 .f32) (D : FVec Ideal S64x10000 .f32) (eigs : FVec Ideal S64 .f32)
    (W : FVec Ideal S6x64x64 .f32) (cb : FVec Ideal S64 .f32) : FVec Ideal S10000x64 .f32 :=
  addf (addf (addf (addf (addf (addf
      (Host.dotGeneral (F := Ideal) dot_S10000x64_S64x64_S10000x64_1_0_0_1_n_n none h (shapeCast S64x64 (extractStridedSlice S1x64x64 ![0, 0, 0] W slices_S6x64x64_S1x64x64_0_0_0) shapeCasts_S1x64x64_S64x64))
      (Host.dotGeneral (F := Ideal) dot_S10000x64_S64x64_S10000x64_1_0_0_1_n_n none (lapP V D eigs h) (shapeCast S64x64 (extractStridedSlice S1x64x64 ![1, 0, 0] W slices_S6x64x64_S1x64x64_1_0_0) shapeCasts_S1x64x64_S64x64)))
      (Host.dotGeneral (F := Ideal) dot_S10000x64_S64x64_S10000x64_1_0_0_1_n_n none (stepP V D eigs h (lapP V D eigs h)) (shapeCast S64x64 (extractStridedSlice S1x64x64 ![2, 0, 0] W slices_S6x64x64_S1x64x64_2_0_0) shapeCasts_S1x64x64_S64x64)))
      (Host.dotGeneral (F := Ideal) dot_S10000x64_S64x64_S10000x64_1_0_0_1_n_n none (stepP V D eigs (lapP V D eigs h) (stepP V D eigs h (lapP V D eigs h))) (shapeCast S64x64 (extractStridedSlice S1x64x64 ![3, 0, 0] W slices_S6x64x64_S1x64x64_3_0_0) shapeCasts_S1x64x64_S64x64)))
      (Host.dotGeneral (F := Ideal) dot_S10000x64_S64x64_S10000x64_1_0_0_1_n_n none (stepP V D eigs (stepP V D eigs h (lapP V D eigs h)) (stepP V D eigs (lapP V D eigs h) (stepP V D eigs h (lapP V D eigs h)))) (shapeCast S64x64 (extractStridedSlice S1x64x64 ![4, 0, 0] W slices_S6x64x64_S1x64x64_4_0_0) shapeCasts_S1x64x64_S64x64)))
      (Host.dotGeneral (F := Ideal) dot_S10000x64_S64x64_S10000x64_1_0_0_1_n_n none (stepP V D eigs (stepP V D eigs (lapP V D eigs h) (stepP V D eigs h (lapP V D eigs h))) (stepP V D eigs (stepP V D eigs h (lapP V D eigs h)) (stepP V D eigs (lapP V D eigs h) (stepP V D eigs h (lapP V D eigs h))))) (shapeCast S64x64 (extractStridedSlice S1x64x64 ![5, 0, 0] W slices_S6x64x64_S1x64x64_5_0_0) shapeCasts_S1x64x64_S64x64)))
    (broadcastInDim S10000x64 ![0, 1] bcast_S1x64_S10000x64_0_1 (broadcastInDim S1x64 ![1] bcast_S64_S1x64_1 cb))

/-- The program's filter stage is that composition. -/
theorem cheb64_eq (h V : FVec Ideal S10000x64 .f32) (D : FVec Ideal S64x10000 .f32) (eigs : FVec Ideal S64 .f32)
    (W : FVec Ideal S6x64x64 .f32) (cb : FVec Ideal S64 .f32) :
    Stages.cheb64 (F := Ideal) h V D eigs W cb = cheb64P h V D eigs W cb := rfl

/-- The filter stage at (i, j): the vertex-domain form of the six-term filter on the arrays indexed by
    coordinates, plus the bias at j. -/
theorem cheb64_read (h V : FVec Ideal S10000x64 .f32) (D : FVec Ideal S64x10000 .f32) (eigs : FVec Ideal S64 .f32)
    (W : FVec Ideal S6x64x64 .f32) (cb : FVec Ideal S64 .f32) (i : Fin 10000) (j : Fin 64) :
    Stages.cheb64 (F := Ideal) h V D eigs W cb (ix2 i j)
      = refOutE (fun i a => V (ix2 i a)) (fun a l => D (ix2 a l)) (fun a => eigs (ix1 a))
          (fun l j => h (ix2 l j)) (fun k a b => W (ix3 k a b)) i j + cb (ix1 j) := by
  rw [cheb64_eq]
  unfold cheb64P
  simp only [addf_apply]
  rw [OpsRead.bcast_S64_S10000x64_apply]
  refine congrArg (· + cb (ix1 j)) ?_
  have h0 : ∀ l a, h (ix2 l a) = (fun l j => h (ix2 l j)) l a := fun _ _ => rfl
  have h1 := fun l a => lapP_read V D eigs h _ h0 l a
  have h2 := fun l a => stepP_read V D eigs h (lapP V D eigs h) _ _ h0 h1 l a
  have h3 := fun l a => stepP_read V D eigs (lapP V D eigs h) (stepP V D eigs h (lapP V D eigs h)) _ _ h1 h2 l a
  have h4 := fun l a => stepP_read V D eigs (stepP V D eigs h (lapP V D eigs h))
    (stepP V D eigs (lapP V D eigs h) (stepP V D eigs h (lapP V D eigs h))) _ _ h2 h3 l a
  have h5 := fun l a => stepP_read V D eigs (stepP V D eigs (lapP V D eigs h) (stepP V D eigs h (lapP V D eigs h)))
    (stepP V D eigs (stepP V D eigs h (lapP V D eigs h))
      (stepP V D eigs (lapP V D eigs h) (stepP V D eigs h (lapP V D eigs h)))) _ _ h3 h4 l a
  rw [mmP_read _ _ _ _ h0 (OpsRead.slice_S6x64x64_0 W), mmP_read _ _ _ _ h1 (OpsRead.slice_S6x64x64_1 W),
    mmP_read _ _ _ _ h2 (OpsRead.slice_S6x64x64_2 W), mmP_read _ _ _ _ h3 (OpsRead.slice_S6x64x64_3 W),
    mmP_read _ _ _ _ h4 (OpsRead.slice_S6x64x64_4 W), mmP_read _ _ _ _ h5 (OpsRead.slice_S6x64x64_5 W)]
  rfl

/-! ## The batch normalisation and the rectifier -/

/-- The comparison "10000 > 0" the variance guard makes is true. -/
theorem cmp_guard : FloatOps.cmpf (F := Ideal) (φ := .f32) .ogt ((10000 : ℝ) : EReal) (0 : EReal) = 1#1 := by
  show Ideal.cmp .ogt ((10000 : ℝ) : EReal) 0 = 1#1
  have h : (0 : EReal) < ((10000 : ℝ) : EReal) := by
    rw [← EReal.coe_zero, EReal.coe_lt_coe_iff]; norm_num
  simp [Ideal.cmp, h]

/-- The scalar zero. -/
def c0 : FVec Ideal S_ .f32 := constant (F := Ideal) S_ .f32 0x00000000#32
/-- The scalar 10000. -/
def cN : FVec Ideal S_ .f32 := constant (F := Ideal) S_ .f32 0x461C4000#32
/-- The scalar ε. -/
def cEps : FVec Ideal S_ .f32 := constant (F := Ideal) S_ .f32 0x3A83126F#32

/-- A vector of 64 entries broadcast down the 10000 rows. -/
def rowsP (v : FVec Ideal S64 .f32) : FVec Ideal S10000x64 .f32 :=
  broadcastInDim S10000x64 ![0, 1] bcast_S1x64_S10000x64_0_1 (broadcastInDim S1x64 ![1] bcast_S64_S1x64_1 v)

/-- The column means as the program computes them for the centring: the column sums divided by 10000. -/
def meanP (y : FVec Ideal S10000x64 .f32) : FVec Ideal S64 .f32 :=
  Host.divf (F := Ideal) (Host.reduceAdd (F := Ideal) y c0 reducesTo_S10000x64_S64_d0 h_S_)
    (broadcastInDim S64 ![] bcast_S_S64 cN)

/-- The column means as the variance computes them again: as a one-row matrix. -/
def meanRowP (y : FVec Ideal S10000x64 .f32) : FVec Ideal S1x64 .f32 :=
  Host.divf (F := Ideal)
    (broadcastInDim S1x64 ![1] bcast_S64_S1x64_1 (Host.reduceAdd (F := Ideal) y c0 reducesTo_S10000x64_S64_d0 h_S_))
    (broadcastInDim S1x64 ![] bcast_S_S1x64 cN)

/-- The entries centred by the column means, inside the variance. -/
def centredP (y : FVec Ideal S10000x64 .f32) : FVec Ideal S10000x64 .f32 :=
  subf y (broadcastInDim S10000x64 ![0, 1] bcast_S1x64_S10000x64_0_1 (meanRowP y))

/-- The row count as the variance computes it: 10000 minus the integer 0 converted. -/
def countP : FVec Ideal S_ .f32 := subf cN (sitofp (F := Ideal) .f32 (constantI S_ 32 0#32))

/-- The column variances as the program computes them: the sums of the squared centred entries divided by the row
    count, kept when the row count is positive and replaced by a junk constant otherwise. -/
def varP (y : FVec Ideal S10000x64 .f32) : FVec Ideal S64 .f32 :=
  select (broadcastInDim S64 ![] bcast_S_S64 (cmpf .ogt countP c0))
    (Host.divf (F := Ideal)
      (Host.reduceAdd (F := Ideal) (mulf (centredP y) (centredP y)) c0 reducesTo_S10000x64_S64_d0 h_S_)
      (broadcastInDim S64 ![] bcast_S_S64 countP))
    (broadcastInDim S64 ![] bcast_S_S64 (id (constant (F := Ideal) S_ .f32 0x7FC00000#32)))

/-- The batch normalisation and the rectifier as the program computes them. -/
def bnRelu64P (y : FVec Ideal S10000x64 .f32) (g b : FVec Ideal S64 .f32) : FVec Ideal S10000x64 .f32 :=
  maximumf
    (addf
      (mulf
        (mulf (subf y (rowsP (meanP y)))
          (rowsP (Host.rsqrt (F := Ideal) (addf (varP y) (broadcastInDim S64 ![] bcast_S_S64 cEps)))))
        (rowsP g))
      (rowsP b))
    (broadcastInDim S10000x64 ![] bcast_S_S10000x64 c0)

/-- The program's normalisation stage is that composition. -/
theorem bnRelu64_eq (y : FVec Ideal S10000x64 .f32) (g b : FVec Ideal S64 .f32) :
    Stages.bnRelu64 (F := Ideal) y g b = bnRelu64P y g b := rfl

/-- A vector broadcast down the rows reads the vector at the column. -/
theorem rowsP_read (v : FVec Ideal S64 .f32) (i : Fin 10000) (j : Fin 64) : rowsP v (ix2 i j) = v (ix1 j) :=
  OpsRead.bcast_S64_S10000x64_apply v i j

/-- The scalar zero is 0. -/
theorem c0_read : c0 ix0 = (0 : EReal) := Ideal.ofBits_zero_f32
/-- The scalar 10000 is 10000. -/
theorem cN_read : cN ix0 = ((10000 : ℝ) : EReal) := OpsRead.ofBits_10000
/-- The scalar ε is the dyadic its word denotes. -/
theorem cEps_read : cEps ix0 = (((8589935 : ℝ) / 8589934592 : ℝ) : EReal) := OpsRead.ofBits_eps

/-- The row count the variance computes is 10000. -/
theorem countP_read : countP ix0 = ((10000 : ℝ) : EReal) := by
  unfold countP
  rw [subf_apply, cN_read]
  show ((10000 : ℝ) : EReal) - FloatOps.sitofp (F := Ideal) .f32 (0#32) = _
  rw [OpsRead.sitofp_zero, sub_zero]

/-- The column mean at j: the column sum divided by 10000. -/
theorem meanP_read (y : FVec Ideal S10000x64 .f32) (j : Fin 64) :
    meanP y (ix1 j) = Ideal.div (∑ i : Fin 10000, y (ix2 i j)) ((10000 : ℝ) : EReal) := by
  unfold meanP
  rw [OpsRead.hostDivf_apply, OpsRead.reduceAdd_S10000x64, OpsRead.bcast_S_S64_apply, c0_read, cN_read, zero_add]

/-- The column mean inside the variance, at (0, j): the same quotient. -/
theorem meanRowP_read (y : FVec Ideal S10000x64 .f32) (u : Fin 1) (j : Fin 64) :
    meanRowP y (ix2 u j) = Ideal.div (∑ i : Fin 10000, y (ix2 i j)) ((10000 : ℝ) : EReal) := by
  unfold meanRowP
  rw [OpsRead.hostDivf_apply, OpsRead.bcast_S64_S1x64_apply, OpsRead.reduceAdd_S10000x64,
    OpsRead.bcast_S_S1x64_apply, c0_read, cN_read, zero_add]

/-- The centred entry at (i, j). -/
theorem centredP_read (y : FVec Ideal S10000x64 .f32) (i : Fin 10000) (j : Fin 64) :
    centredP y (ix2 i j)
      = y (ix2 i j) - Ideal.div (∑ i' : Fin 10000, y (ix2 i' j)) ((10000 : ℝ) : EReal) := by
  unfold centredP
  rw [subf_apply, OpsRead.bcast_S1x64_S10000x64_apply, meanRowP_read]

/-- The column variance at j: the sum of the squared centred entries divided by 10000 (the guard is true). -/
theorem varP_read (y : FVec Ideal S10000x64 .f32) (j : Fin 64) :
    varP y (ix1 j)
      = Ideal.div (∑ i : Fin 10000,
          (y (ix2 i j) - Ideal.div (∑ i' : Fin 10000, y (ix2 i' j)) ((10000 : ℝ) : EReal))
            * (y (ix2 i j) - Ideal.div (∑ i' : Fin 10000, y (ix2 i' j)) ((10000 : ℝ) : EReal)))
          ((10000 : ℝ) : EReal) := by
  unfold varP
  rw [select_apply, OpsRead.bcast_S_S64_apply, cmpf_apply, countP_read, c0_read, cmp_guard, select_one,
    OpsRead.hostDivf_apply, OpsRead.reduceAdd_S10000x64, OpsRead.bcast_S_S64_apply, countP_read, c0_read, zero_add]
  refine congrArg (fun s => Ideal.div s ((10000 : ℝ) : EReal)) ?_
  refine Finset.sum_congr rfl fun i _ => ?_
  rw [mulf_apply, centredP_read]

/-- The batch normalisation with the rectifier at (i, j): the formula of the normalisation on the array indexed by
    coordinates, with the row count 10000 and the ε the program's literal denotes. -/
theorem bnRelu64_read (y : FVec Ideal S10000x64 .f32) (g b : FVec Ideal S64 .f32) (i : Fin 10000) (j : Fin 64) :
    Stages.bnRelu64 (F := Ideal) y g b (ix2 i j)
      = bnReluE (fun i j => y (ix2 i j)) ((10000 : ℝ) : EReal) (((8589935 : ℝ) / 8589934592 : ℝ) : EReal)
          (fun j => g (ix1 j)) (fun j => b (ix1 j)) i j := by
  rw [bnRelu64_eq]
  unfold bnRelu64P bnReluE
  rw [maximumf_apply, addf_apply, mulf_apply, mulf_apply, subf_apply, rowsP_read, rowsP_read, rowsP_read,
    rowsP_read, meanP_read, OpsRead.hostRsqrt_apply, addf_apply, varP_read, OpsRead.bcast_S_S64_apply, cEps_read,
    OpsRead.bcast_S_S10000x64_apply, c0_read]

/-! ## The layer -/

/-- One Chebyshev layer at width 64 with its normalisation and rectifier, at (i, j): the vertex-domain layer over
    the extended reals on the arrays indexed by coordinates, with the row count 10000 and the ε the program's
    literal denotes. -/
theorem layer64_read (h V : FVec Ideal S10000x64 .f32) (D : FVec Ideal S64x10000 .f32) (eigs : FVec Ideal S64 .f32)
    (W : FVec Ideal S6x64x64 .f32) (cb g b : FVec Ideal S64 .f32) (i : Fin 10000) (j : Fin 64) :
    Stages.layer64 (F := Ideal) h V D eigs W cb g b (ix2 i j)
      = layerRefE (fun i a => V (ix2 i a)) (fun a l => D (ix2 a l)) (fun a => eigs (ix1 a))
          (fun l j => h (ix2 l j)) (fun k a b => W (ix3 k a b)) (fun j => cb (ix1 j))
          ((10000 : ℝ) : EReal) (((8589935 : ℝ) / 8589934592 : ℝ) : EReal)
          (fun j => g (ix1 j)) (fun j => b (ix1 j)) i j := by
  unfold Stages.layer64 layerRefE
  rw [bnRelu64_read]
  have e : (fun i j => Stages.cheb64 (F := Ideal) h V D eigs W cb (ix2 i j))
      = fun i j => refOutE (fun i a => V (ix2 i a)) (fun a l => D (ix2 a l)) (fun a => eigs (ix1 a))
          (fun l j => h (ix2 l j)) (fun k a b => W (ix3 k a b)) i j + cb (ix1 j) :=
    funext fun i => funext fun j => cheb64_read h V D eigs W cb i j
  rw [e]

end Cert.ReferenceIdeal.LayerRead

end
-- ==== Proof.RefLayerRead128.lean ====
/-
  The Chebyshev layer of the reference from width 64 to width 128, read at an index.

  The same operations as at width 64: the Laplacian and the recurrence act on arrays of width 64; the six weight
  matrices are 64 × 128, and the bias, the batch normalisation and the rectifier act at width 128.
-/
import proofs.«135777_j83262236000435_2_alg».proof.Proof.RefLayerRead

noncomputable section

open scoped BigOperators

namespace Cert.ReferenceIdeal.LayerRead

open Idealize.ShloMosaic Idealize.ShloMosaic.ValueIdx Cert.ReferenceIdeal
open Cert.ReferenceIdeal.Facts₀
open Cert.Lib.ChebSpectralE Cert.Lib.BatchNorm Cert.Lib.ChebLayers

variable [Facts]

/-! ## The filter from width 64 to width 128 -/

/-- A product with a 64 × 128 matrix at (i, j), both factors indexed by coordinates. -/
theorem mmP128_read (T : FVec Ideal S10000x64 .f32) (Wk : FVec Ideal S64x128 .f32)
    (TE : Fin 10000 → Fin 64 → EReal) (WE : Fin 64 → Fin 128 → EReal)
    (hT : ∀ l a, T (ix2 l a) = TE l a) (hW : ∀ a b, Wk (ix2 a b) = WE a b) (i : Fin 10000) (j : Fin 128) :
    Host.dotGeneral (F := Ideal) dot_S10000x64_S64x128_S10000x128_1_0_0_1_n_n none T Wk (ix2 i j)
      = mmE TE WE i j := by
  unfold mmE
  rw [OpsRead.dot_S10000x64_S64x128]
  simp only [hT, hW]

/-- The filter with its bias as the program computes it, from width 64 to width 128: the six products summed from
    the left, then the bias broadcast down the rows. -/
def cheb128P (h V : FVec Ideal S10000x64 .f32) (D : FVec Ideal S64x10000 .f32) (eigs : FVec Ideal S64 .f32)
    (W : FVec Ideal S6x64x128 .f32) (cb : FVec Ideal S128 .f32) : FVec Ideal S10000x128 .f32 :=
  addf (addf (addf (addf (addf (addf
      (Host.dotGeneral (F := Ideal) dot_S10000x64_S64x128_S10000x128_1_0_0_1_n_n none h (shapeCast S64x128 (extractStridedSlice S1x64x128 ![0, 0, 0] W slices_S6x64x128_S1x64x128_0_0_0) shapeCasts_S1x64x128_S64x128))
      (Host.dotGeneral (F := Ideal) dot_S10000x64_S64x128_S10000x128_1_0_0_1_n_n none (lapP V D eigs h) (shapeCast S64x128 (extractStridedSlice S1x64x128 ![1, 0, 0] W slices_S6x64x128_S1x64x128_1_0_0) shapeCasts_S1x64x128_S64x128)))
      (Host.dotGeneral (F := Ideal) dot_S10000x64_S64x128_S10000x128_1_0_0_1_n_n none (stepP V D eigs h (lapP V D eigs h)) (shapeCast S64x128 (extractStridedSlice S1x64x128 ![2, 0, 0] W slices_S6x64x128_S1x64x128_2_0_0) shapeCasts_S1x64x128_S64x128)))
      (Host.dotGeneral (F := Ideal) dot_S10000x64_S64x128_S10000x128_1_0_0_1_n_n none (stepP V D eigs (lapP V D eigs h) (stepP V D eigs h (lapP V D eigs h))) (shapeCast S64x128 (extractStridedSlice S1x64x128 ![3, 0, 0] W slices_S6x64x128_S1x64x128_3_0_0) shapeCasts_S1x64x128_S64x128)))
      (Host.dotGeneral (F := Ideal) dot_S10000x64_S64x128_S10000x128_1_0_0_1_n_n none (stepP V D eigs (stepP V D eigs h (lapP V D eigs h)) (stepP V D eigs (lapP V D eigs h) (stepP V D eigs h (lapP V D eigs h)))) (shapeCast S64x128 (extractStridedSlice S1x64x128 ![4, 0, 0] W slices_S6x64x128_S1x64x128_4_0_0) shapeCasts_S1x64x128_S64x128)))
      (Host.dotGeneral (F := Ideal) dot_S10000x64_S64x128_S10000x128_1_0_0_1_n_n none (stepP V D eigs (stepP V D eigs (lapP V D eigs h) (stepP V D eigs h (lapP V D eigs h))) (stepP V D eigs (stepP V D eigs h (lapP V D eigs h)) (stepP V D eigs (lapP V D eigs h) (stepP V D eigs h (lapP V D eigs h))))) (shapeCast S64x128 (extractStridedSlice S1x64x128 ![5, 0, 0] W slices_S6x64x128_S1x64x128_5_0_0) shapeCasts_S1x64x128_S64x128)))
    (broadcastInDim S10000x128 ![0, 1] bcast_S1x128_S10000x128_0_1 (broadcastInDim S1x128 ![1] bcast_S128_S1x128_1 cb))

/-- The program's filter stage is that composition. -/
theorem cheb128_eq (h V : FVec Ideal S10000x64 .f32) (D : FVec Ideal S64x10000 .f32) (eigs : FVec Ideal S64 .f32)
    (W : FVec Ideal S6x64x128 .f32) (cb : FVec Ideal S128 .f32) :
    Stages.cheb128 (F := Ideal) h V D eigs W cb = cheb128P h V D eigs W cb := rfl

/-- The filter stage at (i, j): the vertex-domain form of the six-term filter on the arrays indexed by
    coordinates, plus the bias at j. -/
theorem cheb128_read (h V : FVec Ideal S10000x64 .f32) (D : FVec Ideal S64x10000 .f32) (eigs : FVec Ideal S64 .f32)
    (W : FVec Ideal S6x64x128 .f32) (cb : FVec Ideal S128 .f32) (i : Fin 10000) (j : Fin 128) :
    Stages.cheb128 (F := Ideal) h V D eigs W cb (ix2 i j)
      = refOutE (fun i a => V (ix2 i a)) (fun a l => D (ix2 a l)) (fun a => eigs (ix1 a))
          (fun l j => h (ix2 l j)) (fun k a b => W (ix3 k a b)) i j + cb (ix1 j) := by
  rw [cheb128_eq]
  unfold cheb128P
  simp only [addf_apply]
  rw [OpsRead.bcast_S128_S10000x128_apply]
  refine congrArg (· + cb (ix1 j)) ?_
  have h0 : ∀ l a, h (ix2 l a) = (fun l j => h (ix2 l j)) l a := fun _ _ => rfl
  have h1 := fun l a => lapP_read V D eigs h _ h0 l a
  have h2 := fun l a => stepP_read V D eigs h (lapP V D eigs h) _ _ h0 h1 l a
  have h3 := fun l a => stepP_read V D eigs (lapP V D eigs h) (stepP V D eigs h (lapP V D eigs h)) _ _ h1 h2 l a
  have h4 := fun l a => stepP_read V D eigs (stepP V D eigs h (lapP V D eigs h)) (stepP V D eigs (lapP V D eigs h) (stepP V D eigs h (lapP V D eigs h))) _ _ h2 h3 l a
  have h5 := fun l a => stepP_read V D eigs (stepP V D eigs (lapP V D eigs h) (stepP V D eigs h (lapP V D eigs h))) (stepP V D eigs (stepP V D eigs h (lapP V D eigs h)) (stepP V D eigs (lapP V D eigs h) (stepP V D eigs h (lapP V D eigs h)))) _ _ h3 h4 l a
  rw [mmP128_read _ _ _ _ h0 (OpsRead.slice_S6x64x128_0 W), mmP128_read _ _ _ _ h1 (OpsRead.slice_S6x64x128_1 W),
    mmP128_read _ _ _ _ h2 (OpsRead.slice_S6x64x128_2 W), mmP128_read _ _ _ _ h3 (OpsRead.slice_S6x64x128_3 W),
    mmP128_read _ _ _ _ h4 (OpsRead.slice_S6x64x128_4 W), mmP128_read _ _ _ _ h5 (OpsRead.slice_S6x64x128_5 W)]
  rfl

/-! ## The batch normalisation and the rectifier at width 128 -/

/-- A vector of 128 entries broadcast down the 10000 rows. -/
def rowsP128 (v : FVec Ideal S128 .f32) : FVec Ideal S10000x128 .f32 :=
  broadcastInDim S10000x128 ![0, 1] bcast_S1x128_S10000x128_0_1 (broadcastInDim S1x128 ![1] bcast_S128_S1x128_1 v)

/-- The column means as the program computes them for the centring: the column sums divided by 10000. -/
def meanP128 (y : FVec Ideal S10000x128 .f32) : FVec Ideal S128 .f32 :=
  Host.divf (F := Ideal) (Host.reduceAdd (F := Ideal) y c0 reducesTo_S10000x128_S128_d0 h_S_)
    (broadcastInDim S128 ![] bcast_S_S128 cN)

/-- The column means as the variance computes them again: as a one-row matrix. -/
def meanRowP128 (y : FVec Ideal S10000x128 .f32) : FVec Ideal S1x128 .f32 :=
  Host.divf (F := Ideal)
    (broadcastInDim S1x128 ![1] bcast_S128_S1x128_1 (Host.reduceAdd (F := Ideal) y c0 reducesTo_S10000x128_S128_d0 h_S_))
    (broadcastInDim S1x128 ![] bcast_S_S1x128 cN)

/-- The entries centred by the column means, inside the variance. -/
def centredP128 (y : FVec Ideal S10000x128 .f32) : FVec Ideal S10000x128 .f32 :=
  subf y (broadcastInDim S10000x128 ![0, 1] bcast_S1x128_S10000x128_0_1 (meanRowP128 y))

/-- The column variances as the program computes them: the sums of the squared centred entries divided by the row
    count, kept when the row count is positive and replaced by a junk constant otherwise. -/
def varP128 (y : FVec Ideal S10000x128 .f32) : FVec Ideal S128 .f32 :=
  select (broadcastInDim S128 ![] bcast_S_S128 (cmpf .ogt countP c0))
    (Host.divf (F := Ideal)
      (Host.reduceAdd (F := Ideal) (mulf (centredP128 y) (centredP128 y)) c0 reducesTo_S10000x128_S128_d0 h_S_)
      (broadcastInDim S128 ![] bcast_S_S128 countP))
    (broadcastInDim S128 ![] bcast_S_S128 (id (constant (F := Ideal) S_ .f32 0x7FC00000#32)))

/-- The batch normalisation and the rectifier as the program computes them. -/
def bnRelu128P (y : FVec Ideal S10000x128 .f32) (g b : FVec Ideal S128 .f32) : FVec Ideal S10000x128 .f32 :=
  maximumf
    (addf
      (mulf
        (mulf (subf y (rowsP128 (meanP128 y)))
          (rowsP128 (Host.rsqrt (F := Ideal) (addf (varP128 y) (broadcastInDim S128 ![] bcast_S_S128 cEps)))))
        (rowsP128 g))
      (rowsP128 b))
    (broadcastInDim S10000x128 ![] bcast_S_S10000x128 c0)

/-- The program's normalisation stage is that composition. -/
theorem bnRelu128_eq (y : FVec Ideal S10000x128 .f32) (g b : FVec Ideal S128 .f32) :
    Stages.bnRelu128 (F := Ideal) y g b = bnRelu128P y g b := rfl

/-- A vector broadcast down the rows reads the vector at the column. -/
theorem rowsP128_read (v : FVec Ideal S128 .f32) (i : Fin 10000) (j : Fin 128) : rowsP128 v (ix2 i j) = v (ix1 j) :=
  OpsRead.bcast_S128_S10000x128_apply v i j

/-- The column mean at j: the column sum divided by 10000. -/
theorem meanP128_read (y : FVec Ideal S10000x128 .f32) (j : Fin 128) :
    meanP128 y (ix1 j) = Ideal.div (∑ i : Fin 10000, y (ix2 i j)) ((10000 : ℝ) : EReal) := by
  unfold meanP128
  rw [OpsRead.hostDivf_apply, OpsRead.reduceAdd_S10000x128, OpsRead.bcast_S_S128_apply, c0_read, cN_read, zero_add]

/-- The column mean inside the variance, at (0, j): the same quotient. -/
theorem meanRowP128_read (y : FVec Ideal S10000x128 .f32) (u : Fin 1) (j : Fin 128) :
    meanRowP128 y (ix2 u j) = Ideal.div (∑ i : Fin 10000, y (ix2 i j)) ((10000 : ℝ) : EReal) := by
  unfold meanRowP128
  rw [OpsRead.hostDivf_apply, OpsRead.bcast_S128_S1x128_apply, OpsRead.reduceAdd_S10000x128,
    OpsRead.bcast_S_S1x128_apply, c0_read, cN_read, zero_add]

/-- The centred entry at (i, j). -/
theorem centredP128_read (y : FVec Ideal S10000x128 .f32) (i : Fin 10000) (j : Fin 128) :
    centredP128 y (ix2 i j)
      = y (ix2 i j) - Ideal.div (∑ i' : Fin 10000, y (ix2 i' j)) ((10000 : ℝ) : EReal) := by
  unfold centredP128
  rw [subf_apply, OpsRead.bcast_S1x128_S10000x128_apply, meanRowP128_read]

/-- The column variance at j: the sum of the squared centred entries divided by 10000 (the guard is true). -/
theorem varP128_read (y : FVec Ideal S10000x128 .f32) (j : Fin 128) :
    varP128 y (ix1 j)
      = Ideal.div (∑ i : Fin 10000,
          (y (ix2 i j) - Ideal.div (∑ i' : Fin 10000, y (ix2 i' j)) ((10000 : ℝ) : EReal))
            * (y (ix2 i j) - Ideal.div (∑ i' : Fin 10000, y (ix2 i' j)) ((10000 : ℝ) : EReal)))
          ((10000 : ℝ) : EReal) := by
  unfold varP128
  rw [select_apply, OpsRead.bcast_S_S128_apply, cmpf_apply, countP_read, c0_read, cmp_guard, select_one,
    OpsRead.hostDivf_apply, OpsRead.reduceAdd_S10000x128, OpsRead.bcast_S_S128_apply, countP_read, c0_read, zero_add]
  refine congrArg (fun s => Ideal.div s ((10000 : ℝ) : EReal)) ?_
  refine Finset.sum_congr rfl fun i _ => ?_
  rw [mulf_apply, centredP128_read]

/-- The batch normalisation with the rectifier at (i, j): the formula of the normalisation on the array indexed by
    coordinates, with the row count 10000 and the ε the program's literal denotes. -/
theorem bnRelu128_read (y : FVec Ideal S10000x128 .f32) (g b : FVec Ideal S128 .f32) (i : Fin 10000) (j : Fin 128) :
    Stages.bnRelu128 (F := Ideal) y g b (ix2 i j)
      = bnReluE (fun i j => y (ix2 i j)) ((10000 : ℝ) : EReal) (((8589935 : ℝ) / 8589934592 : ℝ) : EReal)
          (fun j => g (ix1 j)) (fun j => b (ix1 j)) i j := by
  rw [bnRelu128_eq]
  unfold bnRelu128P bnReluE
  rw [maximumf_apply, addf_apply, mulf_apply, mulf_apply, subf_apply, rowsP128_read, rowsP128_read, rowsP128_read,
    rowsP128_read, meanP128_read, OpsRead.hostRsqrt_apply, addf_apply, varP128_read, OpsRead.bcast_S_S128_apply, cEps_read,
    OpsRead.bcast_S_S10000x128_apply, c0_read]

/-! ## The layer from width 64 to width 128 -/

/-- The Chebyshev layer from width 64 to width 128 with its normalisation and rectifier, at (i, j): the
    vertex-domain layer over the extended reals on the arrays indexed by coordinates, with the row count 10000 and
    the ε the program's literal denotes. -/
theorem layer128_read (h V : FVec Ideal S10000x64 .f32) (D : FVec Ideal S64x10000 .f32) (eigs : FVec Ideal S64 .f32)
    (W : FVec Ideal S6x64x128 .f32) (cb g b : FVec Ideal S128 .f32) (i : Fin 10000) (j : Fin 128) :
    Stages.layer128 (F := Ideal) h V D eigs W cb g b (ix2 i j)
      = layerRefE (fun i a => V (ix2 i a)) (fun a l => D (ix2 a l)) (fun a => eigs (ix1 a))
          (fun l j => h (ix2 l j)) (fun k a b => W (ix3 k a b)) (fun j => cb (ix1 j))
          ((10000 : ℝ) : EReal) (((8589935 : ℝ) / 8589934592 : ℝ) : EReal)
          (fun j => g (ix1 j)) (fun j => b (ix1 j)) i j := by
  unfold Stages.layer128 layerRefE
  rw [bnRelu128_read]
  have e : (fun i j => Stages.cheb128 (F := Ideal) h V D eigs W cb (ix2 i j))
      = fun i j => refOutE (fun i a => V (ix2 i a)) (fun a l => D (ix2 a l)) (fun a => eigs (ix1 a))
          (fun l j => h (ix2 l j)) (fun k a b => W (ix3 k a b)) i j + cb (ix1 j) :=
    funext fun i => funext fun j => cheb128_read h V D eigs W cb i j
  rw [e]

end Cert.ReferenceIdeal.LayerRead

end
-- ==== Proof.RefNet3Read.lean ====
/-
  The reference's three Chebyshev layers composed, read at an index.

  Each layer's output, viewed as an array indexed by coordinates, is the vertex-domain layer over the extended reals
  applied to the views of its operands; the input of the second and third layers is the output of the one before.
  So the composition read at (i, j) is the chain of three vertex-domain layers on the views of the arguments.
-/
import proofs.«135777_j83262236000435_2_alg».proof.Proof.RefLayerRead128

noncomputable section

open scoped BigOperators

namespace Cert.ReferenceIdeal.LayerRead

open Idealize.ShloMosaic Idealize.ShloMosaic.ValueIdx Cert.ReferenceIdeal
open Cert.ReferenceIdeal.Facts₀
open Cert.Lib.ChebSpectralE Cert.Lib.BatchNorm Cert.Lib.ChebLayers

variable [Facts]

/-- The three reference layers composed, at (i, j): the chain of three vertex-domain layers over the extended
    reals on the arrays indexed by coordinates. -/
theorem net3_read (h0 V : FVec Ideal S10000x64 .f32) (D : FVec Ideal S64x10000 .f32) (eigs : FVec Ideal S64 .f32)
    (W1 : FVec Ideal S6x64x64 .f32) (cb1 g1 b1 : FVec Ideal S64 .f32)
    (W2 : FVec Ideal S6x64x64 .f32) (cb2 g2 b2 : FVec Ideal S64 .f32)
    (W3 : FVec Ideal S6x64x128 .f32) (cb3 g3 b3 : FVec Ideal S128 .f32) (i : Fin 10000) (j : Fin 128) :
    Stages.layer128 (F := Ideal)
        (Stages.layer64 (F := Ideal) (Stages.layer64 (F := Ideal) h0 V D eigs W1 cb1 g1 b1) V D eigs W2 cb2 g2 b2)
        V D eigs W3 cb3 g3 b3 (ix2 i j)
      = net3RefE (fun i a => V (ix2 i a)) (fun a l => D (ix2 a l)) (fun a => eigs (ix1 a))
          (fun l j => h0 (ix2 l j)) ((10000 : ℝ) : EReal) (((8589935 : ℝ) / 8589934592 : ℝ) : EReal)
          (fun k a b => W1 (ix3 k a b)) (fun j => cb1 (ix1 j)) (fun j => g1 (ix1 j)) (fun j => b1 (ix1 j))
          (fun k a b => W2 (ix3 k a b)) (fun j => cb2 (ix1 j)) (fun j => g2 (ix1 j)) (fun j => b2 (ix1 j))
          (fun k a b => W3 (ix3 k a b)) (fun j => cb3 (ix1 j)) (fun j => g3 (ix1 j)) (fun j => b3 (ix1 j)) i j := by
  have e1 : (fun l j => Stages.layer64 (F := Ideal) h0 V D eigs W1 cb1 g1 b1 (ix2 l j))
      = layerRefE (fun i a => V (ix2 i a)) (fun a l => D (ix2 a l)) (fun a => eigs (ix1 a))
          (fun l j => h0 (ix2 l j)) (fun k a b => W1 (ix3 k a b)) (fun j => cb1 (ix1 j)) ((10000 : ℝ) : EReal) (((8589935 : ℝ) / 8589934592 : ℝ) : EReal)
          (fun j => g1 (ix1 j)) (fun j => b1 (ix1 j)) :=
    funext fun l => funext fun j => layer64_read h0 V D eigs W1 cb1 g1 b1 l j
  have e2 : (fun l j => Stages.layer64 (F := Ideal) (Stages.layer64 (F := Ideal) h0 V D eigs W1 cb1 g1 b1)
        V D eigs W2 cb2 g2 b2 (ix2 l j))
      = layerRefE (fun i a => V (ix2 i a)) (fun a l => D (ix2 a l)) (fun a => eigs (ix1 a))
          (layerRefE (fun i a => V (ix2 i a)) (fun a l => D (ix2 a l)) (fun a => eigs (ix1 a))
            (fun l j => h0 (ix2 l j)) (fun k a b => W1 (ix3 k a b)) (fun j => cb1 (ix1 j)) ((10000 : ℝ) : EReal) (((8589935 : ℝ) / 8589934592 : ℝ) : EReal)
            (fun j => g1 (ix1 j)) (fun j => b1 (ix1 j)))
          (fun k a b => W2 (ix3 k a b)) (fun j => cb2 (ix1 j)) ((10000 : ℝ) : EReal) (((8589935 : ℝ) / 8589934592 : ℝ) : EReal)
          (fun j => g2 (ix1 j)) (fun j => b2 (ix1 j)) := by
    funext l j
    rw [layer64_read, e1]
  rw [layer128_read, e2]
  rfl

end Cert.ReferenceIdeal.LayerRead

end
-- ==== Proof.LibERealFiniteMatrix.lean ====
import Mathlib.Data.EReal.Inv
import Mathlib.Data.EReal.Operations
import Mathlib.Algebra.BigOperators.Ring.Finset
import Mathlib.Algebra.Order.BigOperators.Ring.Finset
import Mathlib.Analysis.SpecialFunctions.Pow.Real
import Mathlib.Analysis.SpecialFunctions.Sqrt
import Idealize.ShloMosaic.PureOps.Ideal

/-!
# Finite real computations inside the extended reals

In `EReal` addition and multiplication are not distributive and subtraction does not cancel at
`⊥` and `⊤`, so an algebraic identity between two computations is only available where every
intermediate value is a real number.  This file moves the coercion `ℝ → EReal` through the
operations a finite computation uses (finite sums, products, differences, matrix products,
`max` with `0`, division by a nonzero real, the reciprocal square root of a positive real, `exp`,
`log` of a positive real), states the same facts as closure properties of the predicate
"is a real", and records that a mean of squares is nonnegative.
-/

namespace Cert.Lib.ERealFinite

open Idealize.ShloMosaic

/-! ### (a) The coercion of a finite sum -/

/-- The coercion `ℝ → EReal` commutes with finite sums:
`↑(∑ i ∈ s, f i) = ∑ i ∈ s, ↑(f i)`. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of coerced reals is the coercion of the real sum. -/
theorem sum_coe {ι : Type*} (s : Finset ι) (f : ι → ℝ) :
    ∑ i ∈ s, (f i : EReal) = ((∑ i ∈ s, f i : ℝ) : EReal) :=
  (coe_finset_sum s f).symm

/-! ### (b) Sums of products, sums of sums, differences, scalar multiples -/

/-- A finite sum of products of coerced reals is the coercion of the real sum of products. -/
theorem sum_coe_mul_coe {ι : Type*} (s : Finset ι) (a b : ι → ℝ) :
    ∑ k ∈ s, (a k : EReal) * (b k : EReal) = ((∑ k ∈ s, a k * b k : ℝ) : EReal) := by
  rw [coe_finset_sum]; simp only [EReal.coe_mul]

/-- A double finite sum of coerced reals is the coercion of the real double sum. -/
theorem sum_sum_coe {ι κ : Type*} (s : Finset ι) (t : Finset κ) (f : ι → κ → ℝ) :
    ∑ i ∈ s, ∑ j ∈ t, (f i j : EReal) = ((∑ i ∈ s, ∑ j ∈ t, f i j : ℝ) : EReal) := by
  simp only [coe_finset_sum]

/-- A double finite sum of products of coerced reals. -/
theorem sum_sum_coe_mul_coe {ι κ : Type*} (s : Finset ι) (t : Finset κ) (a b : ι → κ → ℝ) :
    ∑ i ∈ s, ∑ j ∈ t, (a i j : EReal) * (b i j : EReal)
      = ((∑ i ∈ s, ∑ j ∈ t, a i j * b i j : ℝ) : EReal) := by
  simp only [coe_finset_sum, EReal.coe_mul]

/-- `↑a + ↑b = ↑(a + b)`. -/
theorem coe_add_coe (a b : ℝ) : (a : EReal) + (b : EReal) = ((a + b : ℝ) : EReal) :=
  (EReal.coe_add a b).symm

/-- `↑a - ↑b = ↑(a - b)`. -/
theorem coe_sub_coe (a b : ℝ) : (a : EReal) - (b : EReal) = ((a - b : ℝ) : EReal) :=
  (EReal.coe_sub a b).symm

/-- `↑a * ↑b = ↑(a * b)`. -/
theorem coe_mul_coe (a b : ℝ) : (a : EReal) * (b : EReal) = ((a * b : ℝ) : EReal) :=
  (EReal.coe_mul a b).symm

/-- `-↑a = ↑(-a)`. -/
theorem neg_coe (a : ℝ) : -(a : EReal) = ((-a : ℝ) : EReal) :=
  (EReal.coe_neg a).symm

/-- A real scalar times a finite sum of coerced reals. -/
theorem coe_mul_sum_coe {ι : Type*} (c : ℝ) (s : Finset ι) (f : ι → ℝ) :
    (c : EReal) * ∑ i ∈ s, (f i : EReal) = ((c * ∑ i ∈ s, f i : ℝ) : EReal) := by
  rw [sum_coe, coe_mul_coe]

/-- The entry of a matrix product of arrays of coerced reals:
`∑ k, ↑(a i k) * ↑(b k j) = ↑(∑ k, a i k * b k j)`. -/
theorem matmul_coe {ι κ μ : Type*} [Fintype κ] (a : ι → κ → ℝ) (b : κ → μ → ℝ) (i : ι) (j : μ) :
    ∑ k, (a i k : EReal) * (b k j : EReal) = ((∑ k, a i k * b k j : ℝ) : EReal) :=
  sum_coe_mul_coe Finset.univ (fun k => a i k) (fun k => b k j)

/-- The numeral `2` of `EReal` is the coercion of the real `2`. -/
theorem two_eq_coe : (2 : EReal) = ((2 : ℝ) : EReal) := by norm_cast

/-! ### (c) The operations of the idealized programs on reals -/

/-- `max ↑a ↑b = ↑(max a b)`. -/
theorem max_coe_coe (a b : ℝ) : max (a : EReal) (b : EReal) = ((max a b : ℝ) : EReal) :=
  (EReal.coe_strictMono.monotone.map_max).symm

/-- The rectifier on a real: `max ↑a 0 = ↑(max a 0)`. -/
theorem max_coe_zero (a : ℝ) : max (a : EReal) 0 = ((max a 0 : ℝ) : EReal) := by
  rw [← EReal.coe_zero, max_coe_coe]

/-- `min ↑a ↑b = ↑(min a b)`. -/
theorem min_coe_coe (a b : ℝ) : min (a : EReal) (b : EReal) = ((min a b : ℝ) : EReal) :=
  (EReal.coe_strictMono.monotone.map_min).symm

/-- The idealized division of a real by a nonzero real is the real quotient. -/
theorem div_coe_coe (a c : ℝ) (hc : c ≠ 0) :
    Ideal.div (a : EReal) (c : EReal) = ((a / c : ℝ) : EReal) := by
  have h : (c : EReal) ≠ 0 := EReal.coe_ne_zero.mpr hc
  rw [Ideal.div, if_neg h, ← EReal.coe_inv, ← EReal.coe_mul, div_eq_mul_inv]

/-- The idealized reciprocal square root of a positive real is `(√r)⁻¹`. -/
theorem rsqrt_coe_of_pos (r : ℝ) (hr : 0 < r) :
    Ideal.rsqrt (r : EReal) = (((Real.sqrt r)⁻¹ : ℝ) : EReal) := by
  rw [Ideal.rsqrt_coe, if_neg (not_lt.mpr hr.le), if_neg hr.ne']

/-- The idealized reciprocal square root of a positive real is `r ^ (-(1/2))`. -/
theorem rsqrt_coe_eq_rpow (r : ℝ) (hr : 0 < r) :
    Ideal.rsqrt (r : EReal) = ((r ^ (-(1 / 2) : ℝ) : ℝ) : EReal) := by
  rw [rsqrt_coe_of_pos r hr, Real.rpow_neg hr.le, ← Real.sqrt_eq_rpow]

/-- The reciprocal square root of a positive real is positive. -/
theorem inv_sqrt_pos (r : ℝ) (hr : 0 < r) : 0 < (Real.sqrt r)⁻¹ :=
  inv_pos.mpr (Real.sqrt_pos.mpr hr)

/-- The idealized exponential of a real is the real exponential. -/
theorem exp_coe (r : ℝ) : Ideal.exp (r : EReal) = ((Real.exp r : ℝ) : EReal) :=
  Ideal.exp_coe r

/-- The idealized logarithm of a positive real is the real logarithm. -/
theorem log_coe_of_pos (r : ℝ) (hr : 0 < r) :
    Ideal.log (r : EReal) = ((Real.log r : ℝ) : EReal) := by
  rw [Ideal.log_coe, if_neg (not_le.mpr hr)]

/-- The idealized square root of a nonnegative real is the real square root. -/
theorem sqrt_coe_of_nonneg (r : ℝ) (hr : 0 ≤ r) :
    Ideal.sqrt (r : EReal) = ((Real.sqrt r : ℝ) : EReal) := by
  rw [Ideal.sqrt_coe, if_neg (not_lt.mpr hr)]

/-! ### (c') The predicate "is a real" and its closure properties -/

/-- An extended real that is (the coercion of) a real number. -/
def IsReal (v : EReal) : Prop := ∃ r : ℝ, v = (r : EReal)

/-- Every entry of an `EReal`-valued array is a real: the array is the coercion of a real array. -/
def AllReal {ι : Type*} (v : ι → EReal) : Prop := ∃ r : ι → ℝ, v = fun i => (r i : EReal)

/-- Every entry of a two-index `EReal`-valued array is a real. -/
def AllReal₂ {ι κ : Type*} (v : ι → κ → EReal) : Prop :=
  ∃ r : ι → κ → ℝ, v = fun i k => (r i k : EReal)

/-- A coerced real is a real. -/
theorem isReal_coe (r : ℝ) : IsReal (r : EReal) := ⟨r, rfl⟩

/-- `0` is a real. -/
theorem isReal_zero : IsReal 0 := ⟨0, rfl⟩

/-- `1` is a real. -/
theorem isReal_one : IsReal 1 := ⟨1, rfl⟩

/-- An extended real is a real exactly when it is neither `⊥` nor `⊤`. -/
theorem isReal_iff (v : EReal) : IsReal v ↔ v ≠ ⊥ ∧ v ≠ ⊤ := by
  constructor
  · rintro ⟨r, rfl⟩; exact ⟨EReal.coe_ne_bot r, EReal.coe_ne_top r⟩
  · rintro ⟨hb, ht⟩; exact ⟨v.toReal, (EReal.coe_toReal ht hb).symm⟩

/-- A real is the coercion of its `toReal`. -/
theorem IsReal.coe_toReal {v : EReal} (h : IsReal v) : ((v.toReal : ℝ) : EReal) = v := by
  obtain ⟨r, rfl⟩ := h; rw [EReal.toReal_coe]

/-- An array is real entry by entry exactly when it is the coercion of a real array. -/
theorem allReal_iff {ι : Type*} (v : ι → EReal) : AllReal v ↔ ∀ i, IsReal (v i) := by
  constructor
  · rintro ⟨r, rfl⟩ i; exact ⟨r i, rfl⟩
  · intro h; exact ⟨fun i => (v i).toReal, funext fun i => ((h i).coe_toReal).symm⟩

/-- A two-index array is real entry by entry exactly when it is the coercion of a real array. -/
theorem allReal₂_iff {ι κ : Type*} (v : ι → κ → EReal) : AllReal₂ v ↔ ∀ i k, IsReal (v i k) := by
  constructor
  · rintro ⟨r, rfl⟩ i k; exact ⟨r i k, rfl⟩
  · intro h
    exact ⟨fun i k => (v i k).toReal, funext fun i => funext fun k => ((h i k).coe_toReal).symm⟩

/-- The sum of two reals is a real. -/
theorem IsReal.add {a b : EReal} (ha : IsReal a) (hb : IsReal b) : IsReal (a + b) := by
  obtain ⟨x, rfl⟩ := ha; obtain ⟨y, rfl⟩ := hb; exact ⟨x + y, coe_add_coe x y⟩

/-- The difference of two reals is a real. -/
theorem IsReal.sub {a b : EReal} (ha : IsReal a) (hb : IsReal b) : IsReal (a - b) := by
  obtain ⟨x, rfl⟩ := ha; obtain ⟨y, rfl⟩ := hb; exact ⟨x - y, coe_sub_coe x y⟩

/-- The product of two reals is a real. -/
theorem IsReal.mul {a b : EReal} (ha : IsReal a) (hb : IsReal b) : IsReal (a * b) := by
  obtain ⟨x, rfl⟩ := ha; obtain ⟨y, rfl⟩ := hb; exact ⟨x * y, coe_mul_coe x y⟩

/-- The opposite of a real is a real. -/
theorem IsReal.neg {a : EReal} (ha : IsReal a) : IsReal (-a) := by
  obtain ⟨x, rfl⟩ := ha; exact ⟨-x, neg_coe x⟩

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A finite sum of products of reals is a real. -/
theorem IsReal.sum_mul {ι : Type*} (s : Finset ι) (a b : ι → EReal)
    (ha : ∀ k ∈ s, IsReal (a k)) (hb : ∀ k ∈ s, IsReal (b k)) :
    IsReal (∑ k ∈ s, a k * b k) :=
  IsReal.sum s _ fun k hk => (ha k hk).mul (hb k hk)

/-- The maximum of two reals is a real. -/
theorem IsReal.max {a b : EReal} (ha : IsReal a) (hb : IsReal b) : IsReal (max a b) := by
  obtain ⟨x, rfl⟩ := ha; obtain ⟨y, rfl⟩ := hb; exact ⟨_, max_coe_coe x y⟩

/-- The rectifier `max · 0` of a real is a real. -/
theorem IsReal.max_zero {a : EReal} (ha : IsReal a) : IsReal (Max.max a 0) :=
  ha.max isReal_zero

/-- The idealized quotient of a real by a nonzero real constant is a real. -/
theorem IsReal.div_coe {a : EReal} (ha : IsReal a) (c : ℝ) (hc : c ≠ 0) :
    IsReal (Ideal.div a (c : EReal)) := by
  obtain ⟨x, rfl⟩ := ha; exact ⟨_, div_coe_coe x c hc⟩

/-- The idealized reciprocal square root of a positive real is a real. -/
theorem isReal_rsqrt_coe (r : ℝ) (hr : 0 < r) : IsReal (Ideal.rsqrt (r : EReal)) :=
  ⟨_, rsqrt_coe_of_pos r hr⟩

/-- The idealized exponential of a real is a real. -/
theorem IsReal.exp {a : EReal} (ha : IsReal a) : IsReal (Ideal.exp a) := by
  obtain ⟨x, rfl⟩ := ha; exact ⟨_, exp_coe x⟩

/-- The idealized logarithm of a positive real is a real. -/
theorem isReal_log_coe (r : ℝ) (hr : 0 < r) : IsReal (Ideal.log (r : EReal)) :=
  ⟨_, log_coe_of_pos r hr⟩

/-- The entrywise sum of two real arrays is the coercion of the real entrywise sum. -/
theorem AllReal.add {ι : Type*} {u v : ι → EReal} (hu : AllReal u) (hv : AllReal v) :
    AllReal (fun i => u i + v i) := by
  obtain ⟨x, rfl⟩ := hu; obtain ⟨y, rfl⟩ := hv
  exact ⟨fun i => x i + y i, funext fun i => coe_add_coe _ _⟩

/-- The entrywise difference of two real arrays is real. -/
theorem AllReal.sub {ι : Type*} {u v : ι → EReal} (hu : AllReal u) (hv : AllReal v) :
    AllReal (fun i => u i - v i) := by
  obtain ⟨x, rfl⟩ := hu; obtain ⟨y, rfl⟩ := hv
  exact ⟨fun i => x i - y i, funext fun i => coe_sub_coe _ _⟩

/-- The entrywise product of two real arrays is real. -/
theorem AllReal.mul {ι : Type*} {u v : ι → EReal} (hu : AllReal u) (hv : AllReal v) :
    AllReal (fun i => u i * v i) := by
  obtain ⟨x, rfl⟩ := hu; obtain ⟨y, rfl⟩ := hv
  exact ⟨fun i => x i * y i, funext fun i => coe_mul_coe _ _⟩

/-- The entrywise rectifier of a real array is real. -/
theorem AllReal.max_zero {ι : Type*} {u : ι → EReal} (hu : AllReal u) :
    AllReal (fun i => max (u i) 0) := by
  obtain ⟨x, rfl⟩ := hu
  exact ⟨fun i => max (x i) 0, funext fun i => max_coe_zero _⟩

/-- The sum of a real array over a finite index set is a real. -/
theorem AllReal.sum {ι : Type*} {u : ι → EReal} (hu : AllReal u) (s : Finset ι) :
    IsReal (∑ i ∈ s, u i) := by
  obtain ⟨x, rfl⟩ := hu; exact ⟨_, sum_coe s x⟩

/-- The matrix product of two real arrays is the coercion of the real matrix product. -/
theorem AllReal₂.matmul {ι κ μ : Type*} [Fintype κ] {a : ι → κ → EReal} {b : κ → μ → EReal}
    (ha : AllReal₂ a) (hb : AllReal₂ b) : AllReal₂ (fun i j => ∑ k, a i k * b k j) := by
  obtain ⟨x, rfl⟩ := ha; obtain ⟨y, rfl⟩ := hb
  exact ⟨fun i j => ∑ k, x i k * y k j, funext fun i => funext fun j => matmul_coe x y i j⟩

/-- The entrywise sum of two real two-index arrays is real. -/
theorem AllReal₂.add {ι κ : Type*} {u v : ι → κ → EReal} (hu : AllReal₂ u) (hv : AllReal₂ v) :
    AllReal₂ (fun i k => u i k + v i k) := by
  obtain ⟨x, rfl⟩ := hu; obtain ⟨y, rfl⟩ := hv
  exact ⟨fun i k => x i k + y i k, funext fun i => funext fun k => coe_add_coe _ _⟩

/-- The entrywise difference of two real two-index arrays is real. -/
theorem AllReal₂.sub {ι κ : Type*} {u v : ι → κ → EReal} (hu : AllReal₂ u) (hv : AllReal₂ v) :
    AllReal₂ (fun i k => u i k - v i k) := by
  obtain ⟨x, rfl⟩ := hu; obtain ⟨y, rfl⟩ := hv
  exact ⟨fun i k => x i k - y i k, funext fun i => funext fun k => coe_sub_coe _ _⟩

/-- The entrywise product of two real two-index arrays is real. -/
theorem AllReal₂.mul {ι κ : Type*} {u v : ι → κ → EReal} (hu : AllReal₂ u) (hv : AllReal₂ v) :
    AllReal₂ (fun i k => u i k * v i k) := by
  obtain ⟨x, rfl⟩ := hu; obtain ⟨y, rfl⟩ := hv
  exact ⟨fun i k => x i k * y i k, funext fun i => funext fun k => coe_mul_coe _ _⟩

/-- The entrywise rectifier of a real two-index array is real. -/
theorem AllReal₂.max_zero {ι κ : Type*} {u : ι → κ → EReal} (hu : AllReal₂ u) :
    AllReal₂ (fun i k => max (u i k) 0) := by
  obtain ⟨x, rfl⟩ := hu
  exact ⟨fun i k => max (x i k) 0, funext fun i => funext fun k => max_coe_zero _⟩

/-! ### (d) A mean of squares is nonnegative -/

/-- A finite sum of squares `f i * f i` of reals is nonnegative. -/
theorem sum_mul_self_nonneg {ι : Type*} (s : Finset ι) (f : ι → ℝ) :
    0 ≤ ∑ i ∈ s, f i * f i :=
  Finset.sum_nonneg fun i _ => mul_self_nonneg (f i)

/-- A finite sum of squares `f i ^ 2` of reals is nonnegative. -/
theorem sum_sq_nonneg {ι : Type*} (s : Finset ι) (f : ι → ℝ) :
    0 ≤ ∑ i ∈ s, f i ^ 2 :=
  Finset.sum_nonneg fun i _ => sq_nonneg (f i)

/-- A mean of squares of reals is nonnegative: `0 ≤ (∑ i ∈ s, f i * f i) / N` for `0 ≤ N`. -/
theorem mean_mul_self_nonneg {ι : Type*} (s : Finset ι) (f : ι → ℝ) (N : ℝ) (hN : 0 ≤ N) :
    0 ≤ (∑ i ∈ s, f i * f i) / N :=
  div_nonneg (sum_mul_self_nonneg s f) hN

/-- A mean of squares of reals plus a positive constant is positive (a variance plus `ε`). -/
theorem mean_mul_self_add_pos {ι : Type*} (s : Finset ι) (f : ι → ℝ) (N ε : ℝ) (hN : 0 ≤ N)
    (hε : 0 < ε) : 0 < (∑ i ∈ s, f i * f i) / N + ε :=
  add_pos_of_nonneg_of_pos (mean_mul_self_nonneg s f N hN) hε

/-- The same with the squares written `f i ^ 2`. -/
theorem mean_sq_add_pos {ι : Type*} (s : Finset ι) (f : ι → ℝ) (N ε : ℝ) (hN : 0 ≤ N)
    (hε : 0 < ε) : 0 < (∑ i ∈ s, f i ^ 2) / N + ε :=
  add_pos_of_nonneg_of_pos (div_nonneg (sum_sq_nonneg s f) hN) hε

/-- A nonnegative real plus a positive constant has a real idealized reciprocal square root:
`rsqrt (↑v + ↑ε) = ↑((√(v + ε))⁻¹)` for `0 ≤ v`, `0 < ε`. -/
theorem rsqrt_coe_add_coe (v ε : ℝ) (hv : 0 ≤ v) (hε : 0 < ε) :
    Ideal.rsqrt ((v : EReal) + (ε : EReal)) = (((Real.sqrt (v + ε))⁻¹ : ℝ) : EReal) := by
  rw [coe_add_coe, rsqrt_coe_of_pos _ (add_pos_of_nonneg_of_pos hv hε)]

end Cert.Lib.ERealFinite
-- ==== Proof.RefCoreReal.lean ====
/-
  The reference's three Chebyshev layers on arrays of reals: the vertex-domain chain equals the spectral-domain
  chain.

  Read at an index, the three layers are the chain of vertex-domain layers over the extended reals on the views of
  the arguments. When every entry of every argument is a real, the views are coercions of real arrays; on those the
  vertex-domain chain and the spectral-domain chain agree (with the positive row count and the positive ε, each
  layer's output is again an array of reals, so the agreement passes from layer to layer).
-/
import proofs.«135777_j83262236000435_2_alg».proof.Proof.RefNet3Read
import proofs.«135777_j83262236000435_2_alg».proof.Proof.LibERealFiniteMatrix

noncomputable section

open scoped BigOperators

namespace Cert.ReferenceIdeal.LayerRead

open Idealize.ShloMosaic Idealize.ShloMosaic.ValueIdx Cert.ReferenceIdeal
open Cert.ReferenceIdeal.Facts₀
open Cert.Lib.ChebSpectralE Cert.Lib.BatchNorm Cert.Lib.ChebLayers Cert.Lib.ERealFinite

variable [Facts]

/-- A three-index array all of whose entries are reals is the coercion of a real array. -/
theorem view3_real {a b c : Nat} (W : (⟨3, ![a, b, c]⟩ : Shape).Idx → EReal) (h : ∀ q, IsReal (W q)) :
    ∃ r : Fin a → Fin b → Fin c → ℝ, (fun k x y => W (ix3 k x y)) = fun k x y => ((r k x y : ℝ) : EReal) :=
  ⟨fun k x y => (W (ix3 k x y)).toReal, funext fun k => funext fun x => funext fun y => ((h _).coe_toReal).symm⟩

/-- The reference half of the core equation. When the views of all arguments of the three Chebyshev layers are
    coercions of real arrays, the three reference layers composed, read at (i, j), equal the chain of three
    spectral-domain layers over the extended reals on the same views and constants. -/
theorem core_ref_eq_ker (h0 V : FVec Ideal S10000x64 .f32) (D : FVec Ideal S64x10000 .f32) (eigs : FVec Ideal S64 .f32)
    (W1 : FVec Ideal S6x64x64 .f32) (cb1 g1 b1 : FVec Ideal S64 .f32)
    (W2 : FVec Ideal S6x64x64 .f32) (cb2 g2 b2 : FVec Ideal S64 .f32)
    (W3 : FVec Ideal S6x64x128 .f32) (cb3 g3 b3 : FVec Ideal S128 .f32)
    (hh0 : ∃ r : Fin 10000 → Fin 64 → ℝ, (fun l j => h0 (ix2 l j)) = fun l j => ((r l j : ℝ) : EReal))
    (hV : ∃ r : Fin 10000 → Fin 64 → ℝ, (fun i a => V (ix2 i a)) = fun i a => ((r i a : ℝ) : EReal))
    (hD : ∃ r : Fin 64 → Fin 10000 → ℝ, (fun a l => D (ix2 a l)) = fun a l => ((r a l : ℝ) : EReal))
    (he : ∃ r : Fin 64 → ℝ, (fun a => eigs (ix1 a)) = fun a => ((r a : ℝ) : EReal))
    (hW1 : ∃ r : Fin 6 → Fin 64 → Fin 64 → ℝ, (fun k a b => W1 (ix3 k a b)) = fun k a b => ((r k a b : ℝ) : EReal))
    (hcb1 : ∃ r : Fin 64 → ℝ, (fun j => cb1 (ix1 j)) = fun j => ((r j : ℝ) : EReal))
    (hg1 : ∃ r : Fin 64 → ℝ, (fun j => g1 (ix1 j)) = fun j => ((r j : ℝ) : EReal))
    (hb1 : ∃ r : Fin 64 → ℝ, (fun j => b1 (ix1 j)) = fun j => ((r j : ℝ) : EReal))
    (hW2 : ∃ r : Fin 6 → Fin 64 → Fin 64 → ℝ, (fun k a b => W2 (ix3 k a b)) = fun k a b => ((r k a b : ℝ) : EReal))
    (hcb2 : ∃ r : Fin 64 → ℝ, (fun j => cb2 (ix1 j)) = fun j => ((r j : ℝ) : EReal))
    (hg2 : ∃ r : Fin 64 → ℝ, (fun j => g2 (ix1 j)) = fun j => ((r j : ℝ) : EReal))
    (hb2 : ∃ r : Fin 64 → ℝ, (fun j => b2 (ix1 j)) = fun j => ((r j : ℝ) : EReal))
    (hW3 : ∃ r : Fin 6 → Fin 64 → Fin 128 → ℝ, (fun k a b => W3 (ix3 k a b)) = fun k a b => ((r k a b : ℝ) : EReal))
    (hcb3 : ∃ r : Fin 128 → ℝ, (fun j => cb3 (ix1 j)) = fun j => ((r j : ℝ) : EReal))
    (hg3 : ∃ r : Fin 128 → ℝ, (fun j => g3 (ix1 j)) = fun j => ((r j : ℝ) : EReal))
    (hb3 : ∃ r : Fin 128 → ℝ, (fun j => b3 (ix1 j)) = fun j => ((r j : ℝ) : EReal))
    (i : Fin 10000) (j : Fin 128) :
    Stages.layer128 (F := Ideal)
        (Stages.layer64 (F := Ideal) (Stages.layer64 (F := Ideal) h0 V D eigs W1 cb1 g1 b1) V D eigs W2 cb2 g2 b2)
        V D eigs W3 cb3 g3 b3 (ix2 i j)
      = net3KerE (fun i a => V (ix2 i a)) (fun a l => D (ix2 a l)) (fun a => eigs (ix1 a))
          (fun l j => h0 (ix2 l j)) ((10000 : ℝ) : EReal) (((8589935 : ℝ) / 8589934592 : ℝ) : EReal)
          (fun k a b => W1 (ix3 k a b)) (fun j => cb1 (ix1 j)) (fun j => g1 (ix1 j)) (fun j => b1 (ix1 j))
          (fun k a b => W2 (ix3 k a b)) (fun j => cb2 (ix1 j)) (fun j => g2 (ix1 j)) (fun j => b2 (ix1 j))
          (fun k a b => W3 (ix3 k a b)) (fun j => cb3 (ix1 j)) (fun j => g3 (ix1 j)) (fun j => b3 (ix1 j)) i j := by
  rw [net3_read]
  obtain ⟨rh0, hh0⟩ := hh0
  obtain ⟨rV, hV⟩ := hV
  obtain ⟨rD, hD⟩ := hD
  obtain ⟨re, he⟩ := he
  obtain ⟨rW1, hW1⟩ := hW1
  obtain ⟨rcb1, hcb1⟩ := hcb1
  obtain ⟨rg1, hg1⟩ := hg1
  obtain ⟨rb1, hb1⟩ := hb1
  obtain ⟨rW2, hW2⟩ := hW2
  obtain ⟨rcb2, hcb2⟩ := hcb2
  obtain ⟨rg2, hg2⟩ := hg2
  obtain ⟨rb2, hb2⟩ := hb2
  obtain ⟨rW3, hW3⟩ := hW3
  obtain ⟨rcb3, hcb3⟩ := hcb3
  obtain ⟨rg3, hg3⟩ := hg3
  obtain ⟨rb3, hb3⟩ := hb3
  rw [hh0, hV, hD, he, hW1, hcb1, hg1, hb1, hW2, hcb2, hg2, hb2, hW3, hcb3, hg3, hb3]
  exact congrFun (congrFun (net3RefE_eq_net3KerE rV rD re rh0 10000 ((8589935 : ℝ) / 8589934592)
    OpsRead.tenThousand_pos OpsRead.eps_pos rW1 rcb1 rg1 rb1 rW2 rcb2 rg2 rb2 rW3 rcb3 rg3 rb3) i) j

/-- The same from the entries: when every entry of every argument is a real. -/
theorem core_ref_eq_ker_of_isReal (h0 V : FVec Ideal S10000x64 .f32) (D : FVec Ideal S64x10000 .f32)
    (eigs : FVec Ideal S64 .f32)
    (W1 : FVec Ideal S6x64x64 .f32) (cb1 g1 b1 : FVec Ideal S64 .f32)
    (W2 : FVec Ideal S6x64x64 .f32) (cb2 g2 b2 : FVec Ideal S64 .f32)
    (W3 : FVec Ideal S6x64x128 .f32) (cb3 g3 b3 : FVec Ideal S128 .f32)
    (hh0 : ∀ q, IsReal (h0 q)) (hV : ∀ q, IsReal (V q)) (hD : ∀ q, IsReal (D q)) (he : ∀ q, IsReal (eigs q))
    (hW1 : ∀ q, IsReal (W1 q)) (hcb1 : ∀ q, IsReal (cb1 q)) (hg1 : ∀ q, IsReal (g1 q)) (hb1 : ∀ q, IsReal (b1 q))
    (hW2 : ∀ q, IsReal (W2 q)) (hcb2 : ∀ q, IsReal (cb2 q)) (hg2 : ∀ q, IsReal (g2 q)) (hb2 : ∀ q, IsReal (b2 q))
    (hW3 : ∀ q, IsReal (W3 q)) (hcb3 : ∀ q, IsReal (cb3 q)) (hg3 : ∀ q, IsReal (g3 q)) (hb3 : ∀ q, IsReal (b3 q))
    (i : Fin 10000) (j : Fin 128) :
    Stages.layer128 (F := Ideal)
        (Stages.layer64 (F := Ideal) (Stages.layer64 (F := Ideal) h0 V D eigs W1 cb1 g1 b1) V D eigs W2 cb2 g2 b2)
        V D eigs W3 cb3 g3 b3 (ix2 i j)
      = net3KerE (fun i a => V (ix2 i a)) (fun a l => D (ix2 a l)) (fun a => eigs (ix1 a))
          (fun l j => h0 (ix2 l j)) ((10000 : ℝ) : EReal) (((8589935 : ℝ) / 8589934592 : ℝ) : EReal)
          (fun k a b => W1 (ix3 k a b)) (fun j => cb1 (ix1 j)) (fun j => g1 (ix1 j)) (fun j => b1 (ix1 j))
          (fun k a b => W2 (ix3 k a b)) (fun j => cb2 (ix1 j)) (fun j => g2 (ix1 j)) (fun j => b2 (ix1 j))
          (fun k a b => W3 (ix3 k a b)) (fun j => cb3 (ix1 j)) (fun j => g3 (ix1 j)) (fun j => b3 (ix1 j)) i j :=
  core_ref_eq_ker h0 V D eigs W1 cb1 g1 b1 W2 cb2 g2 b2 W3 cb3 g3 b3
    ((allReal₂_iff _).mpr fun l j => hh0 (ix2 l j)) ((allReal₂_iff _).mpr fun i a => hV (ix2 i a))
    ((allReal₂_iff _).mpr fun a l => hD (ix2 a l)) ((allReal_iff _).mpr fun a => he (ix1 a))
    (view3_real W1 hW1) ((allReal_iff _).mpr fun j => hcb1 (ix1 j)) ((allReal_iff _).mpr fun j => hg1 (ix1 j))
    ((allReal_iff _).mpr fun j => hb1 (ix1 j))
    (view3_real W2 hW2) ((allReal_iff _).mpr fun j => hcb2 (ix1 j)) ((allReal_iff _).mpr fun j => hg2 (ix1 j))
    ((allReal_iff _).mpr fun j => hb2 (ix1 j))
    (view3_real W3 hW3) ((allReal_iff _).mpr fun j => hcb3 (ix1 j)) ((allReal_iff _).mpr fun j => hg3 (ix1 j))
    ((allReal_iff _).mpr fun j => hb3 (ix1 j)) i j

end Cert.ReferenceIdeal.LayerRead

end
-- ==== Proof.RefStage0Read.lean ====
/-
  The reference's first stage, read at an index, and its realness.

  The first dense layer is a matrix product plus a bias along the rows; the batch normalisation with the rectifier
  follows. Read at (i, j) the stage is the normalisation formula applied to the array (Σ_k x_ik w_kj) + bias_j. When
  every entry of the operands is a real, that array is an array of reals, and so, with the positive row count and
  the positive ε, is the stage's output.
-/
import proofs.«135777_j83262236000435_2_alg».proof.Proof.RefLayerRead
import proofs.«135777_j83262236000435_2_alg».proof.Proof.LibERealFiniteMatrix

noncomputable section

open scoped BigOperators

namespace Cert.ReferenceIdeal.LayerRead

open Idealize.ShloMosaic Idealize.ShloMosaic.ValueIdx Cert.ReferenceIdeal
open Cert.ReferenceIdeal.Facts₀
open Cert.Lib.ChebSpectralE Cert.Lib.BatchNorm Cert.Lib.ChebLayers Cert.Lib.ERealFinite

variable [Facts]

/-- The first dense layer is the product with the weights plus the bias broadcast down the rows. -/
theorem dense0_eq (x : FVec Ideal S10000x352 .f32) (w : FVec Ideal S352x64 .f32) (bias : FVec Ideal S64 .f32) :
    Stages.dense0 (F := Ideal) x w bias
      = addf (Host.dotGeneral (F := Ideal) dot_S10000x352_S352x64_S10000x64_1_0_0_1_n_n none x w) (rowsP bias) := rfl

/-- The first dense layer at (i, j): Σ_k x (i, k) · w (k, j), plus the bias at j. -/
theorem dense0_read (x : FVec Ideal S10000x352 .f32) (w : FVec Ideal S352x64 .f32) (bias : FVec Ideal S64 .f32)
    (i : Fin 10000) (j : Fin 64) :
    Stages.dense0 (F := Ideal) x w bias (ix2 i j)
      = (∑ k : Fin 352, x (ix2 i k) * w (ix2 k j)) + bias (ix1 j) := by
  rw [dense0_eq, addf_apply, OpsRead.dot_S10000x352_S352x64, rowsP_read]

/-- The first stage at (i, j): the normalisation formula on the dense layer's array indexed by coordinates. -/
theorem stage0_read (x : FVec Ideal S10000x352 .f32) (w : FVec Ideal S352x64 .f32) (bias g b : FVec Ideal S64 .f32)
    (i : Fin 10000) (j : Fin 64) :
    Stages.stage0 (F := Ideal) x w bias g b (ix2 i j)
      = bnReluE (fun i j => (∑ k : Fin 352, x (ix2 i k) * w (ix2 k j)) + bias (ix1 j))
          ((10000 : ℝ) : EReal) (((8589935 : ℝ) / 8589934592 : ℝ) : EReal) (fun j => g (ix1 j)) (fun j => b (ix1 j)) i j := by
  unfold Stages.stage0
  rw [bnRelu64_read]
  have e : (fun i j => Stages.dense0 (F := Ideal) x w bias (ix2 i j))
      = fun i j => (∑ k : Fin 352, x (ix2 i k) * w (ix2 k j)) + bias (ix1 j) :=
    funext fun i => funext fun j => dense0_read x w bias i j
  rw [e]

/-- When the operands' views are arrays of reals, so is the first stage's output. -/
theorem stage0_real (x : FVec Ideal S10000x352 .f32) (w : FVec Ideal S352x64 .f32) (bias g b : FVec Ideal S64 .f32)
    (hx : ∃ r : Fin 10000 → Fin 352 → ℝ, (fun i k => x (ix2 i k)) = fun i k => ((r i k : ℝ) : EReal))
    (hw : ∃ r : Fin 352 → Fin 64 → ℝ, (fun k j => w (ix2 k j)) = fun k j => ((r k j : ℝ) : EReal))
    (hbias : ∃ r : Fin 64 → ℝ, (fun j => bias (ix1 j)) = fun j => ((r j : ℝ) : EReal))
    (hg : ∃ r : Fin 64 → ℝ, (fun j => g (ix1 j)) = fun j => ((r j : ℝ) : EReal))
    (hb : ∃ r : Fin 64 → ℝ, (fun j => b (ix1 j)) = fun j => ((r j : ℝ) : EReal)) :
    ∃ r : Fin 10000 → Fin 64 → ℝ,
      (fun l j => Stages.stage0 (F := Ideal) x w bias g b (ix2 l j)) = fun l j => ((r l j : ℝ) : EReal) := by
  obtain ⟨rx, hx⟩ := hx
  obtain ⟨rw, hw⟩ := hw
  obtain ⟨rbias, hbias⟩ := hbias
  obtain ⟨rg, hg⟩ := hg
  obtain ⟨rb, hb⟩ := hb
  refine ⟨bnReluR (fun i j => (∑ k : Fin 352, rx i k * rw k j) + rbias j) 10000 ((8589935 : ℝ) / 8589934592) rg rb, ?_⟩
  have hx' : ∀ i k, x (ix2 i k) = ((rx i k : ℝ) : EReal) := fun i k => congrFun (congrFun hx i) k
  have hw' : ∀ k j, w (ix2 k j) = ((rw k j : ℝ) : EReal) := fun k j => congrFun (congrFun hw k) j
  have hbias' : ∀ j, bias (ix1 j) = ((rbias j : ℝ) : EReal) := fun j => congrFun hbias j
  have e : (fun l j => Stages.stage0 (F := Ideal) x w bias g b (ix2 l j))
      = bnReluE (fun i j => (((∑ k : Fin 352, rx i k * rw k j) + rbias j : ℝ) : EReal))
          ((10000 : ℝ) : EReal) (((8589935 : ℝ) / 8589934592 : ℝ) : EReal) (fun j => ((rg j : ℝ) : EReal)) (fun j => ((rb j : ℝ) : EReal)) := by
    funext l j
    rw [stage0_read, hg, hb]
    have ey : (fun i j => (∑ k : Fin 352, x (ix2 i k) * w (ix2 k j)) + bias (ix1 j))
        = fun i j => (((∑ k : Fin 352, rx i k * rw k j) + rbias j : ℝ) : EReal) := by
      funext i j
      simp only [hx', hw', hbias']
      rw [sum_coe_mul_coe, coe_add_coe]
    rw [ey]
  rw [e]
  exact bnReluE_coe _ 10000 ((8589935 : ℝ) / 8589934592) OpsRead.tenThousand_pos OpsRead.eps_pos rg rb

/-- The same from the entries: when every entry of the operands is a real, the first stage's output is an array of
    reals. -/
theorem stage0_real_of_isReal (x : FVec Ideal S10000x352 .f32) (w : FVec Ideal S352x64 .f32)
    (bias g b : FVec Ideal S64 .f32)
    (hx : ∀ q, IsReal (x q)) (hw : ∀ q, IsReal (w q)) (hbias : ∀ q, IsReal (bias q))
    (hg : ∀ q, IsReal (g q)) (hb : ∀ q, IsReal (b q)) :
    ∃ r : Fin 10000 → Fin 64 → ℝ,
      (fun l j => Stages.stage0 (F := Ideal) x w bias g b (ix2 l j)) = fun l j => ((r l j : ℝ) : EReal) :=
  stage0_real x w bias g b
    ((allReal₂_iff _).mpr fun i k => hx (ix2 i k)) ((allReal₂_iff _).mpr fun k j => hw (ix2 k j))
    ((allReal_iff _).mpr fun j => hbias (ix1 j)) ((allReal_iff _).mpr fun j => hg (ix1 j))
    ((allReal_iff _).mpr fun j => hb (ix1 j))

end Cert.ReferenceIdeal.LayerRead

end
-- ==== Proof.PreFiniteLemmas.lean ====
/-
  Finiteness of a float array read out of an all-reduce of comparisons with +∞.

  At the extended-real instance a float is an element of `EReal`, the absolute value of `x` is
  `max x (-x)`, the f32 pattern `0x7F800000` denotes `⊤`, and the ordered comparison `a < b` is the
  one-bit word of the decision of `a < b`.  So the predicate "the conjunction, over all entries of `x`,
  of `|x| < +∞` is true" says that no entry of `x` is `⊥` or `⊤`: every entry is a real number
  (`all_real`).  The precondition `fn` is the conjunction of 26 such predicates, one per argument
  array; `fn_real` splits it and reads each conjunct.
-/
import proofs.«135777_j83262236000435_2_alg».proof.Pre_finite_inputs
import proofs.«135777_j83262236000435_2_alg».proof.Proof.LibERealFiniteMatrix
import Idealize.ShloMosaic.Lib.ReduceAll
import Idealize.ShloMosaic.Lib.IdealHost

noncomputable section

namespace Cert.Proof.PreFinite

open Idealize.ShloMosaic Idealize.ShloMosaic.ValueIdx Cert.Lib.ERealFinite Cert.Pre_finite_inputs

/-- The scalar shape has exactly one index. -/
instance : Subsingleton S_.Idx := ⟨fun a b => funext fun d => d.elim0⟩

/-- The f32 pattern `0x7F800000` (sign 0, exponent all ones, fraction 0) denotes `+∞`. -/
theorem ofBits_inf_f32 : Ideal.ofBits .f32 0x7F800000#32 = ⊤ := by
  simp [Ideal.ofBits, Ideal.ieee]

/-- The one-bit word of a Boolean is `1` exactly when the Boolean is true. -/
theorem ofBool_eq_one (b : Bool) : BitVec.ofBool b = 1#1 ↔ b = true := by cases b <;> decide

/-- An extended real whose absolute value `max x (-x)` is below `⊤` is a real:
    `x = ⊥` gives `-x = ⊤` and `x = ⊤` gives `x = ⊤`, and in both cases the maximum is `⊤`. -/
theorem isReal_of_abs_lt_top (x : EReal) (h : max x (-x) < ⊤) : IsReal x := by
  rw [isReal_iff]
  constructor
  · rintro rfl; simp at h
  · rintro rfl; simp at h

/-- If the conjunction over all entries of `x` of `|x| < +∞` is true, every entry of `x` is a real.
    The conjunction is the reduction by `and`, over all axes and from the constant `1`, of the array of
    one-bit comparisons of `|x|` with the scalar `+∞` broadcast to the shape of `x`. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, IsReal (x i) := by
  intro i
  -- every entry of the reduced array of comparisons is 1
  have hi := Host.reduce_andi_all _ _ hr hu j e i
  -- that entry is the comparison of max (x i) (-(x i)) with the broadcast scalar
  have h2 : Ideal.cmp .olt (max (x i) (-(x i)))
      (broadcastInDim s ![] hb (constant (F := Ideal) S_ .f32 0x7F800000#32) i) = 1#1 := hi
  rw [broadcastInDim_scalar_apply] at h2
  have h3 : Ideal.cmp .olt (max (x i) (-(x i))) (Ideal.ofBits .f32 0x7F800000#32) = 1#1 := h2
  rw [ofBits_inf_f32] at h3
  apply isReal_of_abs_lt_top
  unfold Ideal.cmp at h3
  exact of_decide_eq_true ((ofBool_eq_one _).1 h3)

/-- The precondition decoded: if `fn` of 26 arrays is the constant `1`, every entry of every one of the
    26 arrays is a real.  `fn` at its one index is a left-nested chain of 25 `and`s of the 26
    all-reductions; `a && b = 1` exactly when `a = 1` and `b = 1`, applied 25 times from the outside in. -/
theorem fn_real [Facts] (a0 : FVec Ideal S10000x352 .f32) (a1 : FVec Ideal S10000x64 .f32) (a2 : FVec Ideal S64x10000 .f32) (a3 : FVec Ideal S64 .f32) (a4 : FVec Ideal S352x64 .f32) (a5 : FVec Ideal S64 .f32) (a6 : FVec Ideal S64 .f32) (a7 : FVec Ideal S64 .f32) (a8 : FVec Ideal S6x64x64 .f32) (a9 : FVec Ideal S64 .f32) (a10 : FVec Ideal S64 .f32) (a11 : FVec Ideal S64 .f32) (a12 : FVec Ideal S6x64x64 .f32) (a13 : FVec Ideal S64 .f32) (a14 : FVec Ideal S64 .f32) (a15 : FVec Ideal S64 .f32) (a16 : FVec Ideal S6x64x128 .f32) (a17 : FVec Ideal S128 .f32) (a18 : FVec Ideal S128 .f32) (a19 : FVec Ideal S128 .f32) (a20 : FVec Ideal S128x256 .f32) (a21 : FVec Ideal S256 .f32) (a22 : FVec Ideal S256 .f32) (a23 : FVec Ideal S256 .f32) (a24 : FVec Ideal S256x10000 .f32) (a25 : FVec Ideal S10000 .f32)
    (h : fn (F := Ideal) a0 a1 a2 a3 a4 a5 a6 a7 a8 a9 a10 a11 a12 a13 a14 a15 a16 a17 a18 a19 a20 a21 a22 a23 a24 a25 = fun _ => 1#1) :
    (∀ i, IsReal (a0 i)) ∧
    (∀ i, IsReal (a1 i)) ∧
    (∀ i, IsReal (a2 i)) ∧
    (∀ i, IsReal (a3 i)) ∧
    (∀ i, IsReal (a4 i)) ∧
    (∀ i, IsReal (a5 i)) ∧
    (∀ i, IsReal (a6 i)) ∧
    (∀ i, IsReal (a7 i)) ∧
    (∀ i, IsReal (a8 i)) ∧
    (∀ i, IsReal (a9 i)) ∧
    (∀ i, IsReal (a10 i)) ∧
    (∀ i, IsReal (a11 i)) ∧
    (∀ i, IsReal (a12 i)) ∧
    (∀ i, IsReal (a13 i)) ∧
    (∀ i, IsReal (a14 i)) ∧
    (∀ i, IsReal (a15 i)) ∧
    (∀ i, IsReal (a16 i)) ∧
    (∀ i, IsReal (a17 i)) ∧
    (∀ i, IsReal (a18 i)) ∧
    (∀ i, IsReal (a19 i)) ∧
    (∀ i, IsReal (a20 i)) ∧
    (∀ i, IsReal (a21 i)) ∧
    (∀ i, IsReal (a22 i)) ∧
    (∀ i, IsReal (a23 i)) ∧
    (∀ i, IsReal (a24 i)) ∧
    (∀ i, IsReal (a25 i)) := by
  have h0 := congrFun h ix0
  dsimp only [fn, fn_part1, fn_part2, fn_part3, fn_part4, fn_part5, fn_part6, fn_part7, andi] at h0
  obtain ⟨h0, e25⟩ := IntOp.andi_eq_one.1 h0
  obtain ⟨h0, e24⟩ := IntOp.andi_eq_one.1 h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0,
    all_real a1 _ _ _ _ e1,
    all_real a2 _ _ _ _ e2,
    all_real a3 _ _ _ _ e3,
    all_real a4 _ _ _ _ e4,
    all_real a5 _ _ _ _ e5,
    all_real a6 _ _ _ _ e6,
    all_real a7 _ _ _ _ e7,
    all_real a8 _ _ _ _ e8,
    all_real a9 _ _ _ _ e9,
    all_real a10 _ _ _ _ e10,
    all_real a11 _ _ _ _ e11,
    all_real a12 _ _ _ _ e12,
    all_real a13 _ _ _ _ e13,
    all_real a14 _ _ _ _ e14,
    all_real a15 _ _ _ _ e15,
    all_real a16 _ _ _ _ e16,
    all_real a17 _ _ _ _ e17,
    all_real a18 _ _ _ _ e18,
    all_real a19 _ _ _ _ e19,
    all_real a20 _ _ _ _ e20,
    all_real a21 _ _ _ _ e21,
    all_real a22 _ _ _ _ e22,
    all_real a23 _ _ _ _ e23,
    all_real a24 _ _ _ _ e24,
    all_real a25 _ _ _ _ e25⟩

end Cert.Proof.PreFinite

end
-- ==== Proof.PreFinite.lean ====
/-
  Under the precondition of the idealized kernel's claim, every entry of each of the 26 argument
  arrays of the launch memory is a real number, on every device.

  The precondition says that the predicate `fn` (the conjunction over the 26 arguments of
  "all entries satisfy `|x| < +∞`") of the argument arrays is the constant `1`; `fn_real` decodes
  it (`real_all`).  `real_argK` is its K-th conjunct, and `coe_argK` restates it as: the array is the
  entrywise coercion of the real array `fun i => (x i).toReal`.
-/
import proofs.«135777_j83262236000435_2_alg».proof.Defs
import proofs.«135777_j83262236000435_2_alg».proof.Proof.Gen.Pre_finite_inputs
import proofs.«135777_j83262236000435_2_alg».proof.Proof.LibERealFiniteMatrix
import proofs.«135777_j83262236000435_2_alg».proof.Proof.PreFiniteLemmas

noncomputable section

namespace Cert.Proof.PreFinite

open Idealize.ShloMosaic Idealize.SL.Sem Cert.Lib.ERealFinite

/-- The precondition decoded on device `c`: all 26 argument arrays have only real entries. -/
theorem real_all (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i)) ∧
    (∀ i, IsReal ((m ((c.tc : Thread Cert.KernelIdeal.nD Cert.KernelIdeal.τ).loc Cert.KernelIdeal.main_arg1)) i)) ∧
    (∀ i, IsReal ((m ((c.tc : Thread Cert.KernelIdeal.nD Cert.KernelIdeal.τ).loc Cert.KernelIdeal.main_arg2)) i)) ∧
    (∀ i, IsReal ((m ((c.tc : Thread Cert.KernelIdeal.nD Cert.KernelIdeal.τ).loc Cert.KernelIdeal.main_arg3)) i)) ∧
    (∀ i, IsReal ((m ((c.tc : Thread Cert.KernelIdeal.nD Cert.KernelIdeal.τ).loc Cert.KernelIdeal.main_arg4)) i)) ∧
    (∀ i, IsReal ((m ((c.tc : Thread Cert.KernelIdeal.nD Cert.KernelIdeal.τ).loc Cert.KernelIdeal.main_arg5)) i)) ∧
    (∀ i, IsReal ((m ((c.tc : Thread Cert.KernelIdeal.nD Cert.KernelIdeal.τ).loc Cert.KernelIdeal.main_arg6)) i)) ∧
    (∀ i, IsReal ((m ((c.tc : Thread Cert.KernelIdeal.nD Cert.KernelIdeal.τ).loc Cert.KernelIdeal.main_arg7)) i)) ∧
    (∀ i, IsReal ((m ((c.tc : Thread Cert.KernelIdeal.nD Cert.KernelIdeal.τ).loc Cert.KernelIdeal.main_arg8)) i)) ∧
    (∀ i, IsReal ((m ((c.tc : Thread Cert.KernelIdeal.nD Cert.KernelIdeal.τ).loc Cert.KernelIdeal.main_arg9)) i)) ∧
    (∀ i, IsReal ((m ((c.tc : Thread Cert.KernelIdeal.nD Cert.KernelIdeal.τ).loc Cert.KernelIdeal.main_arg10)) i)) ∧
    (∀ i, IsReal ((m ((c.tc : Thread Cert.KernelIdeal.nD Cert.KernelIdeal.τ).loc Cert.KernelIdeal.main_arg11)) i)) ∧
    (∀ i, IsReal ((m ((c.tc : Thread Cert.KernelIdeal.nD Cert.KernelIdeal.τ).loc Cert.KernelIdeal.main_arg12)) i)) ∧
    (∀ i, IsReal ((m ((c.tc : Thread Cert.KernelIdeal.nD Cert.KernelIdeal.τ).loc Cert.KernelIdeal.main_arg13)) i)) ∧
    (∀ i, IsReal ((m ((c.tc : Thread Cert.KernelIdeal.nD Cert.KernelIdeal.τ).loc Cert.KernelIdeal.main_arg14)) i)) ∧
    (∀ i, IsReal ((m ((c.tc : Thread Cert.KernelIdeal.nD Cert.KernelIdeal.τ).loc Cert.KernelIdeal.main_arg15)) i)) ∧
    (∀ i, IsReal ((m ((c.tc : Thread Cert.KernelIdeal.nD Cert.KernelIdeal.τ).loc Cert.KernelIdeal.main_arg16)) i)) ∧
    (∀ i, IsReal ((m ((c.tc : Thread Cert.KernelIdeal.nD Cert.KernelIdeal.τ).loc Cert.KernelIdeal.main_arg17)) i)) ∧
    (∀ i, IsReal ((m ((c.tc : Thread Cert.KernelIdeal.nD Cert.KernelIdeal.τ).loc Cert.KernelIdeal.main_arg18)) i)) ∧
    (∀ i, IsReal ((m ((c.tc : Thread Cert.KernelIdeal.nD Cert.KernelIdeal.τ).loc Cert.KernelIdeal.main_arg19)) i)) ∧
    (∀ i, IsReal ((m ((c.tc : Thread Cert.KernelIdeal.nD Cert.KernelIdeal.τ).loc Cert.KernelIdeal.main_arg20)) i)) ∧
    (∀ i, IsReal ((m ((c.tc : Thread Cert.KernelIdeal.nD Cert.KernelIdeal.τ).loc Cert.KernelIdeal.main_arg21)) i)) ∧
    (∀ i, IsReal ((m ((c.tc : Thread Cert.KernelIdeal.nD Cert.KernelIdeal.τ).loc Cert.KernelIdeal.main_arg22)) i)) ∧
    (∀ i, IsReal ((m ((c.tc : Thread Cert.KernelIdeal.nD Cert.KernelIdeal.τ).loc Cert.KernelIdeal.main_arg23)) i)) ∧
    (∀ i, IsReal ((m ((c.tc : Thread Cert.KernelIdeal.nD Cert.KernelIdeal.τ).loc Cert.KernelIdeal.main_arg24)) i)) ∧
    (∀ i, IsReal ((m ((c.tc : Thread Cert.KernelIdeal.nD Cert.KernelIdeal.τ).loc Cert.KernelIdeal.main_arg25)) i)) :=
  fn_real _ _ _ _ _ _ _ _ _ _ _ _ _ _ _ _ _ _ _ _ _ _ _ _ _ _ (h c)

/-- Every entry of argument 0 (shape `10000 × 352`) is a real. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg0)) i) :=
  (real_all m h c).1

/-- Argument 0 is the coercion of a real array. -/
theorem coe_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S10000x352.Idx → ℝ, (m ((c.tc : Thread Cert.KernelIdeal.nD Cert.KernelIdeal.τ).loc Cert.KernelIdeal.main_arg0)) = fun i => ((r i : ℝ) : EReal) :=
  ⟨fun i => ((m ((c.tc : Thread Cert.KernelIdeal.nD Cert.KernelIdeal.τ).loc Cert.KernelIdeal.main_arg0)) i).toReal, funext fun i => ((real_arg0 m h c i).coe_toReal).symm⟩

/-- Every entry of argument 1 (shape `10000 × 64`) is a real. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg1)) i) :=
  (real_all m h c).2.1

/-- Argument 1 is the coercion of a real array. -/
theorem coe_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S10000x64.Idx → ℝ, (m ((c.tc : Thread Cert.KernelIdeal.nD Cert.KernelIdeal.τ).loc Cert.KernelIdeal.main_arg1)) = fun i => ((r i : ℝ) : EReal) :=
  ⟨fun i => ((m ((c.tc : Thread Cert.KernelIdeal.nD Cert.KernelIdeal.τ).loc Cert.KernelIdeal.main_arg1)) i).toReal, funext fun i => ((real_arg1 m h c i).coe_toReal).symm⟩

/-- Every entry of argument 2 (shape `64 × 10000`) is a real. -/
theorem real_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg2)) i) :=
  (real_all m h c).2.2.1

/-- Argument 2 is the coercion of a real array. -/
theorem coe_arg2 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64x10000.Idx → ℝ, (m ((c.tc : Thread Cert.KernelIdeal.nD Cert.KernelIdeal.τ).loc Cert.KernelIdeal.main_arg2)) = fun i => ((r i : ℝ) : EReal) :=
  ⟨fun i => ((m ((c.tc : Thread Cert.KernelIdeal.nD Cert.KernelIdeal.τ).loc Cert.KernelIdeal.main_arg2)) i).toReal, funext fun i => ((real_arg2 m h c i).coe_toReal).symm⟩

/-- Every entry of argument 3 (shape `64`) is a real. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg3)) i) :=
  (real_all m h c).2.2.2.1

/-- Argument 3 is the coercion of a real array. -/
theorem coe_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg3)) = fun i => ((r i : ℝ) : EReal) :=
  ⟨fun i => ((m ((c.tc : Thread Cert.KernelIdeal.nD Cert.KernelIdeal.τ).loc Cert.KernelIdeal.main_arg3)) i).toReal, funext fun i => ((real_arg3 m h c i).coe_toReal).symm⟩

/-- Every entry of argument 4 (shape `352 × 64`) is a real. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg4)) i) :=
  (real_all m h c).2.2.2.2.1

/-- Argument 4 is the coercion of a real array. -/
theorem coe_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S352x64.Idx → ℝ, (m ((c.tc : Thread Cert.KernelIdeal.nD Cert.KernelIdeal.τ).loc Cert.KernelIdeal.main_arg4)) = fun i => ((r i : ℝ) : EReal) :=
  ⟨fun i => ((m ((c.tc : Thread Cert.KernelIdeal.nD Cert.KernelIdeal.τ).loc Cert.KernelIdeal.main_arg4)) i).toReal, funext fun i => ((real_arg4 m h c i).coe_toReal).symm⟩

/-- Every entry of argument 5 (shape `64`) is a real. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg5)) i) :=
  (real_all m h c).2.2.2.2.2.1

/-- Argument 5 is the coercion of a real array. -/
theorem coe_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg5)) = fun i => ((r i : ℝ) : EReal) :=
  ⟨fun i => ((m ((c.tc : Thread Cert.KernelIdeal.nD Cert.KernelIdeal.τ).loc Cert.KernelIdeal.main_arg5)) i).toReal, funext fun i => ((real_arg5 m h c i).coe_toReal).symm⟩

/-- Every entry of argument 6 (shape `64`) is a real. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg6)) i) :=
  (real_all m h c).2.2.2.2.2.2.1

/-- Argument 6 is the coercion of a real array. -/
theorem coe_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg6)) = fun i => ((r i : ℝ) : EReal) :=
  ⟨fun i => ((m ((c.tc : Thread Cert.KernelIdeal.nD Cert.KernelIdeal.τ).loc Cert.KernelIdeal.main_arg6)) i).toReal, funext fun i => ((real_arg6 m h c i).coe_toReal).symm⟩

/-- Every entry of argument 7 (shape `64`) is a real. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg7)) i) :=
  (real_all m h c).2.2.2.2.2.2.2.1

/-- Argument 7 is the coercion of a real array. -/
theorem coe_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg7)) = fun i => ((r i : ℝ) : EReal) :=
  ⟨fun i => ((m ((c.tc : Thread Cert.KernelIdeal.nD Cert.KernelIdeal.τ).loc Cert.KernelIdeal.main_arg7)) i).toReal, funext fun i => ((real_arg7 m h c i).coe_toReal).symm⟩

/-- Every entry of argument 8 (shape `6 × 64 × 64`) is a real. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg8)) i) :=
  (real_all m h c).2.2.2.2.2.2.2.2.1

/-- Argument 8 is the coercion of a real array. -/
theorem coe_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S6x64x64.Idx → ℝ, (m ((c.tc : Thread Cert.KernelIdeal.nD Cert.KernelIdeal.τ).loc Cert.KernelIdeal.main_arg8)) = fun i => ((r i : ℝ) : EReal) :=
  ⟨fun i => ((m ((c.tc : Thread Cert.KernelIdeal.nD Cert.KernelIdeal.τ).loc Cert.KernelIdeal.main_arg8)) i).toReal, funext fun i => ((real_arg8 m h c i).coe_toReal).symm⟩

/-- Every entry of argument 9 (shape `64`) is a real. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg9)) i) :=
  (real_all m h c).2.2.2.2.2.2.2.2.2.1

/-- Argument 9 is the coercion of a real array. -/
theorem coe_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg9)) = fun i => ((r i : ℝ) : EReal) :=
  ⟨fun i => ((m ((c.tc : Thread Cert.KernelIdeal.nD Cert.KernelIdeal.τ).loc Cert.KernelIdeal.main_arg9)) i).toReal, funext fun i => ((real_arg9 m h c i).coe_toReal).symm⟩

/-- Every entry of argument 10 (shape `64`) is a real. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg10)) i) :=
  (real_all m h c).2.2.2.2.2.2.2.2.2.2.1

/-- Argument 10 is the coercion of a real array. -/
theorem coe_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg10)) = fun i => ((r i : ℝ) : EReal) :=
  ⟨fun i => ((m ((c.tc : Thread Cert.KernelIdeal.nD Cert.KernelIdeal.τ).loc Cert.KernelIdeal.main_arg10)) i).toReal, funext fun i => ((real_arg10 m h c i).coe_toReal).symm⟩

/-- Every entry of argument 11 (shape `64`) is a real. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg11)) i) :=
  (real_all m h c).2.2.2.2.2.2.2.2.2.2.2.1

/-- Argument 11 is the coercion of a real array. -/
theorem coe_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg11)) = fun i => ((r i : ℝ) : EReal) :=
  ⟨fun i => ((m ((c.tc : Thread Cert.KernelIdeal.nD Cert.KernelIdeal.τ).loc Cert.KernelIdeal.main_arg11)) i).toReal, funext fun i => ((real_arg11 m h c i).coe_toReal).symm⟩

/-- Every entry of argument 12 (shape `6 × 64 × 64`) is a real. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg12)) i) :=
  (real_all m h c).2.2.2.2.2.2.2.2.2.2.2.2.1

/-- Argument 12 is the coercion of a real array. -/
theorem coe_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S6x64x64.Idx → ℝ, (m ((c.tc : Thread Cert.KernelIdeal.nD Cert.KernelIdeal.τ).loc Cert.KernelIdeal.main_arg12)) = fun i => ((r i : ℝ) : EReal) :=
  ⟨fun i => ((m ((c.tc : Thread Cert.KernelIdeal.nD Cert.KernelIdeal.τ).loc Cert.KernelIdeal.main_arg12)) i).toReal, funext fun i => ((real_arg12 m h c i).coe_toReal).symm⟩

/-- Every entry of argument 13 (shape `64`) is a real. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg13)) i) :=
  (real_all m h c).2.2.2.2.2.2.2.2.2.2.2.2.2.1

/-- Argument 13 is the coercion of a real array. -/
theorem coe_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg13)) = fun i => ((r i : ℝ) : EReal) :=
  ⟨fun i => ((m ((c.tc : Thread Cert.KernelIdeal.nD Cert.KernelIdeal.τ).loc Cert.KernelIdeal.main_arg13)) i).toReal, funext fun i => ((real_arg13 m h c i).coe_toReal).symm⟩

/-- Every entry of argument 14 (shape `64`) is a real. -/
theorem real_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg14)) i) :=
  (real_all m h c).2.2.2.2.2.2.2.2.2.2.2.2.2.2.1

/-- Argument 14 is the coercion of a real array. -/
theorem coe_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg14)) = fun i => ((r i : ℝ) : EReal) :=
  ⟨fun i => ((m ((c.tc : Thread Cert.KernelIdeal.nD Cert.KernelIdeal.τ).loc Cert.KernelIdeal.main_arg14)) i).toReal, funext fun i => ((real_arg14 m h c i).coe_toReal).symm⟩

/-- Every entry of argument 15 (shape `64`) is a real. -/
theorem real_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg15)) i) :=
  (real_all m h c).2.2.2.2.2.2.2.2.2.2.2.2.2.2.2.1

/-- Argument 15 is the coercion of a real array. -/
theorem coe_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S64.Idx → ℝ, (m ((c.tc : Thread Cert.KernelIdeal.nD Cert.KernelIdeal.τ).loc Cert.KernelIdeal.main_arg15)) = fun i => ((r i : ℝ) : EReal) :=
  ⟨fun i => ((m ((c.tc : Thread Cert.KernelIdeal.nD Cert.KernelIdeal.τ).loc Cert.KernelIdeal.main_arg15)) i).toReal, funext fun i => ((real_arg15 m h c i).coe_toReal).symm⟩

/-- Every entry of argument 16 (shape `6 × 64 × 128`) is a real. -/
theorem real_arg16 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg16)) i) :=
  (real_all m h c).2.2.2.2.2.2.2.2.2.2.2.2.2.2.2.2.1

/-- Argument 16 is the coercion of a real array. -/
theorem coe_arg16 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S6x64x128.Idx → ℝ, (m ((c.tc : Thread Cert.KernelIdeal.nD Cert.KernelIdeal.τ).loc Cert.KernelIdeal.main_arg16)) = fun i => ((r i : ℝ) : EReal) :=
  ⟨fun i => ((m ((c.tc : Thread Cert.KernelIdeal.nD Cert.KernelIdeal.τ).loc Cert.KernelIdeal.main_arg16)) i).toReal, funext fun i => ((real_arg16 m h c i).coe_toReal).symm⟩

/-- Every entry of argument 17 (shape `128`) is a real. -/
theorem real_arg17 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg17)) i) :=
  (real_all m h c).2.2.2.2.2.2.2.2.2.2.2.2.2.2.2.2.2.1

/-- Argument 17 is the coercion of a real array. -/
theorem coe_arg17 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S128.Idx → ℝ, (m ((c.tc : Thread Cert.KernelIdeal.nD Cert.KernelIdeal.τ).loc Cert.KernelIdeal.main_arg17)) = fun i => ((r i : ℝ) : EReal) :=
  ⟨fun i => ((m ((c.tc : Thread Cert.KernelIdeal.nD Cert.KernelIdeal.τ).loc Cert.KernelIdeal.main_arg17)) i).toReal, funext fun i => ((real_arg17 m h c i).coe_toReal).symm⟩

/-- Every entry of argument 18 (shape `128`) is a real. -/
theorem real_arg18 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg18)) i) :=
  (real_all m h c).2.2.2.2.2.2.2.2.2.2.2.2.2.2.2.2.2.2.1

/-- Argument 18 is the coercion of a real array. -/
theorem coe_arg18 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S128.Idx → ℝ, (m ((c.tc : Thread Cert.KernelIdeal.nD Cert.KernelIdeal.τ).loc Cert.KernelIdeal.main_arg18)) = fun i => ((r i : ℝ) : EReal) :=
  ⟨fun i => ((m ((c.tc : Thread Cert.KernelIdeal.nD Cert.KernelIdeal.τ).loc Cert.KernelIdeal.main_arg18)) i).toReal, funext fun i => ((real_arg18 m h c i).coe_toReal).symm⟩

/-- Every entry of argument 19 (shape `128`) is a real. -/
theorem real_arg19 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg19)) i) :=
  (real_all m h c).2.2.2.2.2.2.2.2.2.2.2.2.2.2.2.2.2.2.2.1

/-- Argument 19 is the coercion of a real array. -/
theorem coe_arg19 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S128.Idx → ℝ, (m ((c.tc : Thread Cert.KernelIdeal.nD Cert.KernelIdeal.τ).loc Cert.KernelIdeal.main_arg19)) = fun i => ((r i : ℝ) : EReal) :=
  ⟨fun i => ((m ((c.tc : Thread Cert.KernelIdeal.nD Cert.KernelIdeal.τ).loc Cert.KernelIdeal.main_arg19)) i).toReal, funext fun i => ((real_arg19 m h c i).coe_toReal).symm⟩

/-- Every entry of argument 20 (shape `128 × 256`) is a real. -/
theorem real_arg20 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg20)) i) :=
  (real_all m h c).2.2.2.2.2.2.2.2.2.2.2.2.2.2.2.2.2.2.2.2.1

/-- Argument 20 is the coercion of a real array. -/
theorem coe_arg20 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S128x256.Idx → ℝ, (m ((c.tc : Thread Cert.KernelIdeal.nD Cert.KernelIdeal.τ).loc Cert.KernelIdeal.main_arg20)) = fun i => ((r i : ℝ) : EReal) :=
  ⟨fun i => ((m ((c.tc : Thread Cert.KernelIdeal.nD Cert.KernelIdeal.τ).loc Cert.KernelIdeal.main_arg20)) i).toReal, funext fun i => ((real_arg20 m h c i).coe_toReal).symm⟩

/-- Every entry of argument 21 (shape `256`) is a real. -/
theorem real_arg21 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg21)) i) :=
  (real_all m h c).2.2.2.2.2.2.2.2.2.2.2.2.2.2.2.2.2.2.2.2.2.1

/-- Argument 21 is the coercion of a real array. -/
theorem coe_arg21 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S256.Idx → ℝ, (m ((c.tc : Thread Cert.KernelIdeal.nD Cert.KernelIdeal.τ).loc Cert.KernelIdeal.main_arg21)) = fun i => ((r i : ℝ) : EReal) :=
  ⟨fun i => ((m ((c.tc : Thread Cert.KernelIdeal.nD Cert.KernelIdeal.τ).loc Cert.KernelIdeal.main_arg21)) i).toReal, funext fun i => ((real_arg21 m h c i).coe_toReal).symm⟩

/-- Every entry of argument 22 (shape `256`) is a real. -/
theorem real_arg22 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg22)) i) :=
  (real_all m h c).2.2.2.2.2.2.2.2.2.2.2.2.2.2.2.2.2.2.2.2.2.2.1

/-- Argument 22 is the coercion of a real array. -/
theorem coe_arg22 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S256.Idx → ℝ, (m ((c.tc : Thread Cert.KernelIdeal.nD Cert.KernelIdeal.τ).loc Cert.KernelIdeal.main_arg22)) = fun i => ((r i : ℝ) : EReal) :=
  ⟨fun i => ((m ((c.tc : Thread Cert.KernelIdeal.nD Cert.KernelIdeal.τ).loc Cert.KernelIdeal.main_arg22)) i).toReal, funext fun i => ((real_arg22 m h c i).coe_toReal).symm⟩

/-- Every entry of argument 23 (shape `256`) is a real. -/
theorem real_arg23 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg23)) i) :=
  (real_all m h c).2.2.2.2.2.2.2.2.2.2.2.2.2.2.2.2.2.2.2.2.2.2.2.1

/-- Argument 23 is the coercion of a real array. -/
theorem coe_arg23 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S256.Idx → ℝ, (m ((c.tc : Thread Cert.KernelIdeal.nD Cert.KernelIdeal.τ).loc Cert.KernelIdeal.main_arg23)) = fun i => ((r i : ℝ) : EReal) :=
  ⟨fun i => ((m ((c.tc : Thread Cert.KernelIdeal.nD Cert.KernelIdeal.τ).loc Cert.KernelIdeal.main_arg23)) i).toReal, funext fun i => ((real_arg23 m h c i).coe_toReal).symm⟩

/-- Every entry of argument 24 (shape `256 × 10000`) is a real. -/
theorem real_arg24 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg24)) i) :=
  (real_all m h c).2.2.2.2.2.2.2.2.2.2.2.2.2.2.2.2.2.2.2.2.2.2.2.2.1

/-- Argument 24 is the coercion of a real array. -/
theorem coe_arg24 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S256x10000.Idx → ℝ, (m ((c.tc : Thread Cert.KernelIdeal.nD Cert.KernelIdeal.τ).loc Cert.KernelIdeal.main_arg24)) = fun i => ((r i : ℝ) : EReal) :=
  ⟨fun i => ((m ((c.tc : Thread Cert.KernelIdeal.nD Cert.KernelIdeal.τ).loc Cert.KernelIdeal.main_arg24)) i).toReal, funext fun i => ((real_arg24 m h c i).coe_toReal).symm⟩

/-- Every entry of argument 25 (shape `10000`) is a real. -/
theorem real_arg25 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg25)) i) :=
  (real_all m h c).2.2.2.2.2.2.2.2.2.2.2.2.2.2.2.2.2.2.2.2.2.2.2.2.2

/-- Argument 25 is the coercion of a real array. -/
theorem coe_arg25 (m : (ℓ : Loc Cert.KernelIdeal.nD Cert.KernelIdeal.τ Cert.KernelIdeal.sig) → Buf (Elt Ideal) ℓ)
    (h : Cert.Pre_KernelIdeal m) (c : Dev Cert.KernelIdeal.nD) :
    ∃ r : Cert.Pre_finite_inputs.S10000.Idx → ℝ, (m ((c.tc : Thread Cert.KernelIdeal.nD Cert.KernelIdeal.τ).loc Cert.KernelIdeal.main_arg25)) = fun i => ((r i : ℝ) : EReal) :=
  ⟨fun i => ((m ((c.tc : Thread Cert.KernelIdeal.nD Cert.KernelIdeal.τ).loc Cert.KernelIdeal.main_arg25)) i).toReal, funext fun i => ((real_arg25 m h c i).coe_toReal).symm⟩

end Cert.Proof.PreFinite

end
-- ==== Proof.CoreFromReads.lean ====
/-
  The core equation from the two halves read at an index.

  The core equation says that the first region's body, applied to the prologue's value (the reference's first stage
  of the launch arrays), the spectral data and the three layers' weights, equals the reference's three Chebyshev
  layers of the same prologue value.  Both sides are arrays over the index set 10000 × 128, and every index is a pair
  (i, j).  Read at (i, j), the reference side equals the chain of three spectral-domain layers over the extended
  reals on the coordinate views of the arguments as soon as every entry of every argument is a real; the
  precondition gives that for the fifteen launch arrays directly, and for the prologue's value because the first
  stage of arrays of reals is an array of reals.  So the core equation follows from the one remaining fact, the
  kernel half: the body's function, read at (i, j), is that same chain on the same views and constants.
-/
import proofs.«135777_j83262236000435_2_alg».proof.Proof.Region0Core
import proofs.«135777_j83262236000435_2_alg».proof.Proof.RefCoreReal
import proofs.«135777_j83262236000435_2_alg».proof.Proof.RefStage0Read
import proofs.«135777_j83262236000435_2_alg».proof.Proof.PreFinite

set_option pp.maxSteps 4000
set_option pp.deepTerms false

noncomputable section

namespace Cert.Proof.Values

open Idealize.ShloMosaic Idealize.ShloMosaic.TcCoe Idealize.SL.Sem Idealize.ShloMosaic.ValueIdx
open Cert.KernelIdeal Cert.KernelIdeal.Gen
open Cert.Lib.ERealFinite

/-- The kernel half of the core equation: the first region's body, as a function of its sixteen entry arrays (the
    eigenvalues reshaped to a column and each bias, scale and shift reshaped to a row), read at (i, j), is the chain
    of three spectral-domain layers over the extended reals on the coordinate views of the arrays, with row count
    10000 and ε = 8589935 / 8589934592. -/
def KernelNet3Read : Prop :=
  ∀ (h0 V : FVec Ideal S10000x64 .f32) (D : FVec Ideal S64x10000 .f32) (eigs : FVec Ideal S64 .f32)
    (W1 W2 : FVec Ideal S6x64x64 .f32) (W3 : FVec Ideal S6x64x128 .f32)
    (cb1 g1 b1 cb2 g2 b2 : FVec Ideal S64 .f32) (cb3 g3 b3 : FVec Ideal S128 .f32)
    (i : Fin 10000) (j : Fin 128),
    out0_16 (F := Ideal) h0 V D (shapeCast S64x1 eigs shapeCasts_S64_S64x1)
        W1 (shapeCast S1x64 cb1 shapeCasts_S64_S1x64) (shapeCast S1x64 g1 shapeCasts_S64_S1x64) (shapeCast S1x64 b1 shapeCasts_S64_S1x64)
        W2 (shapeCast S1x64 cb2 shapeCasts_S64_S1x64) (shapeCast S1x64 g2 shapeCasts_S64_S1x64) (shapeCast S1x64 b2 shapeCasts_S64_S1x64)
        W3 (shapeCast S1x128 cb3 shapeCasts_S128_S1x128) (shapeCast S1x128 g3 shapeCasts_S128_S1x128) (shapeCast S1x128 b3 shapeCasts_S128_S1x128) (ix2 i j)
      = Cert.Lib.ChebLayers.net3KerE (fun i a => V (ix2 i a)) (fun a l => D (ix2 a l)) (fun a => eigs (ix1 a))
          (fun l j => h0 (ix2 l j)) ((10000 : ℝ) : EReal) (((8589935 : ℝ) / 8589934592 : ℝ) : EReal)
          (fun k a b => W1 (ix3 k a b)) (fun j => cb1 (ix1 j)) (fun j => g1 (ix1 j)) (fun j => b1 (ix1 j))
          (fun k a b => W2 (ix3 k a b)) (fun j => cb2 (ix1 j)) (fun j => g2 (ix1 j)) (fun j => b2 (ix1 j))
          (fun k a b => W3 (ix3 k a b)) (fun j => cb3 (ix1 j)) (fun j => g3 (ix1 j)) (fun j => b3 (ix1 j)) i j

/-- An array over 10000 × 64 whose coordinate view is the coercion of a real array has only real entries. -/
theorem isReal_of_view2 {a b : Nat} (x : (⟨2, ![a, b]⟩ : Shape).Idx → EReal)
    (h : ∃ r : Fin a → Fin b → ℝ, (fun l j => x (ix2 l j)) = fun l j => ((r l j : ℝ) : EReal)) :
    ∀ q, IsReal (x q) := by
  obtain ⟨r, hr⟩ := h
  intro q
  obtain ⟨l, j, rfl⟩ : ∃ (l : Fin a) (j : Fin b), q = ix2 l j := ⟨q 0, q 1, eq_ix2 q⟩
  exact ⟨r l j, congrFun (congrFun hr l) j⟩

/-- The core equation over arbitrary arrays of reals: from the kernel half, the body's function of the first stage
    of (x, w, bias, g, b) and of fifteen further arrays equals the reference's three layers of the same, when every
    entry of all twenty arrays is a real. -/
theorem core_arrays (hK : KernelNet3Read)
    (x : FVec Ideal S10000x352 .f32) (w : FVec Ideal S352x64 .f32) (bias g b : FVec Ideal S64 .f32)
    (V : FVec Ideal S10000x64 .f32) (D : FVec Ideal S64x10000 .f32) (eigs : FVec Ideal S64 .f32)
    (W1 : FVec Ideal S6x64x64 .f32) (cb1 g1 b1 : FVec Ideal S64 .f32)
    (W2 : FVec Ideal S6x64x64 .f32) (cb2 g2 b2 : FVec Ideal S64 .f32)
    (W3 : FVec Ideal S6x64x128 .f32) (cb3 g3 b3 : FVec Ideal S128 .f32)
    (hx : ∀ q, IsReal (x q)) (hw : ∀ q, IsReal (w q)) (hbias : ∀ q, IsReal (bias q))
    (hg : ∀ q, IsReal (g q)) (hb : ∀ q, IsReal (b q))
    (hV : ∀ q, IsReal (V q)) (hD : ∀ q, IsReal (D q)) (he : ∀ q, IsReal (eigs q))
    (hW1 : ∀ q, IsReal (W1 q)) (hcb1 : ∀ q, IsReal (cb1 q)) (hg1 : ∀ q, IsReal (g1 q)) (hb1 : ∀ q, IsReal (b1 q))
    (hW2 : ∀ q, IsReal (W2 q)) (hcb2 : ∀ q, IsReal (cb2 q)) (hg2 : ∀ q, IsReal (g2 q)) (hb2 : ∀ q, IsReal (b2 q))
    (hW3 : ∀ q, IsReal (W3 q)) (hcb3 : ∀ q, IsReal (cb3 q)) (hg3 : ∀ q, IsReal (g3 q)) (hb3 : ∀ q, IsReal (b3 q)) :
    out0_16 (F := Ideal) (Cert.ReferenceIdeal.Stages.stage0 (F := Ideal) x w bias g b) V D (shapeCast S64x1 eigs shapeCasts_S64_S64x1)
        W1 (shapeCast S1x64 cb1 shapeCasts_S64_S1x64) (shapeCast S1x64 g1 shapeCasts_S64_S1x64) (shapeCast S1x64 b1 shapeCasts_S64_S1x64)
        W2 (shapeCast S1x64 cb2 shapeCasts_S64_S1x64) (shapeCast S1x64 g2 shapeCasts_S64_S1x64) (shapeCast S1x64 b2 shapeCasts_S64_S1x64)
        W3 (shapeCast S1x128 cb3 shapeCasts_S128_S1x128) (shapeCast S1x128 g3 shapeCasts_S128_S1x128) (shapeCast S1x128 b3 shapeCasts_S128_S1x128)
      = Cert.ReferenceIdeal.Stages.layer128 (F := Ideal)
        (Cert.ReferenceIdeal.Stages.layer64 (F := Ideal) (Cert.ReferenceIdeal.Stages.layer64 (F := Ideal) (Cert.ReferenceIdeal.Stages.stage0 (F := Ideal) x w bias g b) V D eigs W1 cb1 g1 b1) V D eigs W2 cb2 g2 b2)
        V D eigs W3 cb3 g3 b3 := by
  have hh0 : ∀ q, IsReal ((Cert.ReferenceIdeal.Stages.stage0 (F := Ideal) x w bias g b) q) :=
    isReal_of_view2 _ (Cert.ReferenceIdeal.LayerRead.stage0_real_of_isReal x w bias g b hx hw hbias hg hb)
  funext q
  obtain ⟨i, j, rfl⟩ : ∃ (i : Fin 10000) (j : Fin 128), q = ix2 i j := ⟨q 0, q 1, eq_ix2 q⟩
  refine (hK (Cert.ReferenceIdeal.Stages.stage0 (F := Ideal) x w bias g b) V D eigs W1 W2 W3 cb1 g1 b1 cb2 g2 b2 cb3 g3 b3 i j).trans ?_
  exact (Cert.ReferenceIdeal.LayerRead.core_ref_eq_ker_of_isReal (Cert.ReferenceIdeal.Stages.stage0 (F := Ideal) x w bias g b) V D eigs W1 cb1 g1 b1 W2 cb2 g2 b2 W3 cb3 g3 b3
    hh0 hV hD he hW1 hcb1 hg1 hb1 hW2 hcb2 hg2 hb2 hW3 hcb3 hg3 hb3 i j).symm

/-- The core equation from the kernel half: under the precondition all twenty launch arrays that enter it have
    only real entries. -/
theorem core_of_reads (hK : KernelNet3Read) : Core := by
  intro m hpre c
  exact core_arrays hK (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
    (Cert.Proof.PreFinite.real_arg0 m hpre c) (Cert.Proof.PreFinite.real_arg4 m hpre c) (Cert.Proof.PreFinite.real_arg5 m hpre c) (Cert.Proof.PreFinite.real_arg6 m hpre c) (Cert.Proof.PreFinite.real_arg7 m hpre c) (Cert.Proof.PreFinite.real_arg1 m hpre c) (Cert.Proof.PreFinite.real_arg2 m hpre c) (Cert.Proof.PreFinite.real_arg3 m hpre c) (Cert.Proof.PreFinite.real_arg8 m hpre c) (Cert.Proof.PreFinite.real_arg9 m hpre c) (Cert.Proof.PreFinite.real_arg10 m hpre c) (Cert.Proof.PreFinite.real_arg11 m hpre c) (Cert.Proof.PreFinite.real_arg12 m hpre c) (Cert.Proof.PreFinite.real_arg13 m hpre c) (Cert.Proof.PreFinite.real_arg14 m hpre c) (Cert.Proof.PreFinite.real_arg15 m hpre c) (Cert.Proof.PreFinite.real_arg16 m hpre c) (Cert.Proof.PreFinite.real_arg17 m hpre c) (Cert.Proof.PreFinite.real_arg18 m hpre c) (Cert.Proof.PreFinite.real_arg19 m hpre c)

end Cert.Proof.Values

end
-- ==== Proof.Region0Dag.lean ====
/- What the first region's body leaves in its output buffer, with shared values named.

  The body's one store writes the third layer's result. As a function of the sixteen input blocks it is a composition of
  the body's pure values; many of them are used several times (the first layer's output feeds the second layer's
  recursion six times over, and so on), and written out in full each use repeats the whole computation beneath it.
  Here every distinct value is bound once, in order of first use, so the same function reads as eighty lines: the
  loads of the input blocks, then layer by layer the spectral recursion, the weight combinations, the two products
  with the previous layer's output and the spectral basis, and the normalisation with the rectifier.
-/
import proofs.«135777_j83262236000435_2_alg».proof.Proof.Gen.KernelIdeal.Frame

noncomputable section

namespace Cert.KernelIdeal.Region0

open Idealize.ShloMosaic Idealize.SL.Sem
open Cert.KernelIdeal Cert.KernelIdeal.Gen

variable {F : FTy → Type} [FloatOps F]

/-- The third layer's result as the body computes it from the sixteen input blocks, every shared value bound once. -/
def shared (x0 : Vec F S10000x64 .f32) (x1 : Vec F S10000x64 .f32) (x2 : Vec F S64x10000 .f32) (x3 : Vec F S64x1 .f32) (x4 : Vec F S6x64x64 .f32) (x5 : Vec F S1x64 .f32) (x6 : Vec F S1x64 .f32) (x7 : Vec F S1x64 .f32) (x8 : Vec F S6x64x64 .f32) (x9 : Vec F S1x64 .f32) (x10 : Vec F S1x64 .f32) (x11 : Vec F S1x64 .f32) (x12 : Vec F S6x64x128 .f32) (x13 : Vec F S1x128 .f32) (x14 : Vec F S1x128 .f32) (x15 : Vec F S1x128 .f32) : FVec F S10000x128 .f32 :=
  have t0 := View.ld x13 r0_16
  have t1 := k0_pay47 t0
  have t2 := View.ld x14 r0_16
  have t3 := k0_pay48 t2
  have t4 := View.ld x15 r0_16
  have t5 := k0_pay49 t4
  have t6 := View.ld x3 r0_2
  have t7 := k0_pay2 t6
  have t8 := View.ld x1 r0_0
  have t9 := k0_pay3 t8
  have t10 := View.ld x2 r0_1
  have t11 := k0_pay5 t8 t10
  have t12 := k0_pay4 t10
  have t13 := View.ld x10 r0_9
  have t14 := k0_pay34 t13
  have t15 := View.ld x11 r0_9
  have t16 := k0_pay35 t15
  have t17 := View.ld x0 r0_0
  have t18 := k0_pay6 t17
  have t19 := k0_pay7 t10 t6 t17
  have t20 := k0_pay8 (F := F)
  have t21 := k0_pay11 t8 t10 t6 t17
  have t22 := k0_pay12 t7 t19 t20 t21
  have t23 := k0_pay13 t7 t11 t19 t20 t21
  have t24 := View.ld x4 r0_3
  have t25 := View.ld x4 r0_4
  have t26 := k0_pay9 t10 t6 t17 t24 t25
  have t27 := View.ld x4 r0_5
  have t28 := View.ld x4 r0_6
  have t29 := k0_pay14 t7 t11 t19 t20 t26 t21 t27 t28
  have t30 := k0_pay16 t7 t11 t19 t20 t21
  have t31 := View.ld x4 r0_7
  have t32 := View.ld x4 r0_8
  have t33 := k0_pay17 t7 t11 t19 t22 t23 t29 t30 t31 t32
  have t34 := k0_pay10 t24 t25
  have t35 := k0_pay15 t34 t27 t28
  have t36 := k0_pay18 t35 t31 t32
  have t37 := View.ld x5 r0_9
  have t38 := k0_pay19 t37
  have t39 := View.ld x6 r0_9
  have t40 := View.ld x7 r0_9
  have t41 := k0_pay20 t9 t18 t33 t36 t38 t39 t40
  have t42 := k0_pay21 t7 t9 t12 t18 t33 t36 t38 t39 t40
  have t43 := k0_pay22 (F := F)
  have t44 := k0_pay27 t7 t11 t42 t43
  have t45 := k0_pay28 (F := F)
  have t46 := k0_pay29 t42 t44 t45
  have t47 := k0_pay24 t7 t11 t42 t43
  have t48 := View.ld x8 r0_3
  have t49 := k0_pay23 t48
  have t50 := View.ld x8 r0_4
  have t51 := View.ld x8 r0_5
  have t52 := k0_pay25 t7 t11 t42 t43 t49 t50 t51
  have t53 := View.ld x8 r0_6
  have t54 := View.ld x8 r0_7
  have t55 := k0_pay31 t7 t11 t42 t47 t52 t44 t45 t53 t54
  have t56 := k0_pay26 t48 t50 t51
  have t57 := k0_pay32 t56 t53 t54
  have t58 := k0_pay33 t7 t11 t42 t47 t44 t45
  have t59 := View.ld x8 r0_8
  have t60 := View.ld x9 r0_9
  have t61 := k0_pay36 t9 t41 t46 t55 t57 t58 t59 t59 t60
  have t62 := k0_pay38 t7 t12 t14 t16 t61
  have t63 := k0_pay42 t7 t12 t11 t14 t16 t61
  have t64 := k0_pay43 t7 t11 t62 t63
  have t65 := View.ld x12 r0_10
  have t66 := View.ld x12 r0_11
  have t67 := k0_pay40 t7 t12 t14 t16 t61 t65 t66
  have t68 := View.ld x12 r0_12
  have t69 := View.ld x12 r0_13
  have t70 := k0_pay44 t7 t11 t62 t67 t63 t68 t69
  have t71 := k0_pay46 t7 t11 t62 t63
  have t72 := View.ld x12 r0_14
  have t73 := View.ld x12 r0_15
  have t74 := k0_pay50 t7 t9 t11 t62 t64 t70 t71 t72 t73
  have t75 := k0_pay37 t14 t16 t61
  have t76 := k0_pay41 t65 t66
  have t77 := k0_pay45 t76 t68 t69
  have t78 := k0_pay51 t75 t77 t72 t73
  have t79 := k0_pay1 t1 t3 t5 t74 t78
  t79

end Cert.KernelIdeal.Region0

end
-- ==== Proof.Region0Fold.lean ====
/-
  What the first region's body leaves, with shared values named, is what the generated frame states.

  The body stores once, over the whole output buffer at zero offsets, so the buffer after the body is the stored value
  itself; and the stored value, written out in full by the frame, is the same composition as the one that binds each
  shared value once.
-/
import proofs.«135777_j83262236000435_2_alg».proof.Proof.Region0Dag
import Idealize.ShloMosaic.Lib.Pipeline.Value

set_option maxRecDepth 16384

noncomputable section

namespace Cert.KernelIdeal.Region0

open Idealize.ShloMosaic Idealize.SL.Sem
open Cert.KernelIdeal Cert.KernelIdeal.Gen

variable {F : FTy → Type} [FloatOps F]

/-- The zero offsets of a two-axis rectangle. -/
theorem zero_off2 : (![0, 0] : Fin 2 → Nat) = fun _ => 0 := funext fun a => by fin_cases a <;> rfl

/-- The output buffer after the body is the composition with every shared value bound once. -/
theorem out0_16_eq_shared (x0 : Vec F S10000x64 .f32) (x1 : Vec F S10000x64 .f32) (x2 : Vec F S64x10000 .f32) (x3 : Vec F S64x1 .f32) (x4 : Vec F S6x64x64 .f32) (x5 : Vec F S1x64 .f32) (x6 : Vec F S1x64 .f32) (x7 : Vec F S1x64 .f32) (x8 : Vec F S6x64x64 .f32) (x9 : Vec F S1x64 .f32) (x10 : Vec F S1x64 .f32) (x11 : Vec F S1x64 .f32) (x12 : Vec F S6x64x128 .f32) (x13 : Vec F S1x128 .f32) (x14 : Vec F S1x128 .f32) (x15 : Vec F S1x128 .f32) :
    Gen.out0_16 x0 x1 x2 x3 x4 x5 x6 x7 x8 x9 x10 x11 x12 x13 x14 x15 = shared x0 x1 x2 x3 x4 x5 x6 x7 x8 x9 x10 x11 x12 x13 x14 x15 := by
  unfold Gen.out0_16
  rw [View.canon_unit_zero zero_off2]
  rfl

end Cert.KernelIdeal.Region0

end
-- ==== Proof.Region0Views.lean ====
/-
  The first region's views of its operands, read at an index.

  The region's body reads each input block through a rectangle. Five of them are whole arrays at zero offsets: the load
  is the array. The loads of the two weight stacks take one matrix of the stack each: slab k read at (0, a, b) is the
  stack at (k, a, b). The eigenvalues enter as a column and the biases, scales and shifts as rows, by shape casts of
  the vectors: the column at (a, 0) is the vector at a, the row at (0, j) the vector at j.
-/
import proofs.«135777_j83262236000435_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.ValueIdx Idealize.SL.Sem
open Cert.KernelIdeal Cert.KernelIdeal.Gen

/-! ## Generic forms -/

section Generic
variable {α : Type} {Val : EltTy → Type} {e : EltTy}

/-- A vector of a entries cast to an a × 1 column reads, at (i, 0), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The load of matrix k of a stack of G matrices, read at (0, a, b), is the stack at (k, a, b). -/
theorem ld_slab {G m n : ℕ} (k : Fin G)
    (inb : ∀ c, (![k.val, 0, 0] : Fin 3 → Nat) c + (⟨3, ![1, m, n]⟩ : Shape).size c ≤ (⟨3, ![G, m, n]⟩ : Shape).size c)
    (W : (⟨3, ![G, m, n]⟩ : Shape).Idx → Val e) (a : Fin m) (b : Fin n) :
    View.ld W (Rect.unit (s := ⟨3, ![G, m, n]⟩) ![k.val, 0, 0] (⟨3, ![1, m, n]⟩ : Shape).size inb)
        (ix3 (0 : Fin 1) a b) = W (ix3 k a b) := by
  show W _ = W _
  refine congrArg W (funext fun c => Fin.ext ?_)
  match c with
  | ⟨0, _⟩ => show k.val + 1 * 0 = k.val; omega
  | ⟨1, _⟩ => show 0 + 1 * a.val = a.val; omega
  | ⟨2, _⟩ => show 0 + 1 * b.val = b.val; omega

/-- The zero offsets of a two-axis rectangle. -/
theorem zero_off2' : (![0, 0] : Fin 2 → Nat) = fun _ => 0 := funext fun a => by fin_cases a <;> rfl

end Generic

/-! ## The region's rectangles and casts -/

section Region
variable {F : FTy → Type} [FloatOps F]

/-- The whole-array load through r0_0 is the array. -/
theorem ld_r0_0 (x : Vec F S10000x64 .f32) : View.ld x r0_0 = x :=
  View.ld_unit_zero zero_off2' _ x

/-- The whole-array load through r0_1 is the array. -/
theorem ld_r0_1 (x : Vec F S64x10000 .f32) : View.ld x r0_1 = x :=
  View.ld_unit_zero zero_off2' _ x

/-- The whole-array load through r0_2 is the array. -/
theorem ld_r0_2 (x : Vec F S64x1 .f32) : View.ld x r0_2 = x :=
  View.ld_unit_zero zero_off2' _ x

/-- The whole-array load through r0_9 is the array. -/
theorem ld_r0_9 (x : Vec F S1x64 .f32) : View.ld x r0_9 = x :=
  View.ld_unit_zero zero_off2' _ x

/-- The whole-array load through r0_16 is the array. -/
theorem ld_r0_16 (x : Vec F S1x128 .f32) : View.ld x r0_16 = x :=
  View.ld_unit_zero zero_off2' _ x

/-- The whole-array load through r0_17 is the array. -/
theorem ld_r0_17 (x : Vec F S10000x128 .f32) : View.ld x r0_17 = x :=
  View.ld_unit_zero zero_off2' _ x

/-- The load of matrix 0 of a stack of six 64 × 64 matrices, at (0, a, b), is the stack at (0, a, b). -/
theorem ld_r0_3 (W : Vec F S6x64x64 .f32) (a b : Fin 64) :
    View.ld W r0_3 (ix3 (0 : Fin 1) a b) = W (ix3 (0 : Fin 6) a b) :=
  ld_slab (0 : Fin 6) inb_S6x64x64_S1x64x64_0_0_0 W a b

/-- The load of matrix 1 of a stack of six 64 × 64 matrices, at (0, a, b), is the stack at (1, a, b). -/
theorem ld_r0_4 (W : Vec F S6x64x64 .f32) (a b : Fin 64) :
    View.ld W r0_4 (ix3 (0 : Fin 1) a b) = W (ix3 (1 : Fin 6) a b) :=
  ld_slab (1 : Fin 6) inb_S6x64x64_S1x64x64_1_0_0 W a b

/-- The load of matrix 2 of a stack of six 64 × 64 matrices, at (0, a, b), is the stack at (2, a, b). -/
theorem ld_r0_5 (W : Vec F S6x64x64 .f32) (a b : Fin 64) :
    View.ld W r0_5 (ix3 (0 : Fin 1) a b) = W (ix3 (2 : Fin 6) a b) :=
  ld_slab (2 : Fin 6) inb_S6x64x64_S1x64x64_2_0_0 W a b

/-- The load of matrix 3 of a stack of six 64 × 64 matrices, at (0, a, b), is the stack at (3, a, b). -/
theorem ld_r0_6 (W : Vec F S6x64x64 .f32) (a b : Fin 64) :
    View.ld W r0_6 (ix3 (0 : Fin 1) a b) = W (ix3 (3 : Fin 6) a b) :=
  ld_slab (3 : Fin 6) inb_S6x64x64_S1x64x64_3_0_0 W a b

/-- The load of matrix 4 of a stack of six 64 × 64 matrices, at (0, a, b), is the stack at (4, a, b). -/
theorem ld_r0_7 (W : Vec F S6x64x64 .f32) (a b : Fin 64) :
    View.ld W r0_7 (ix3 (0 : Fin 1) a b) = W (ix3 (4 : Fin 6) a b) :=
  ld_slab (4 : Fin 6) inb_S6x64x64_S1x64x64_4_0_0 W a b

/-- The load of matrix 5 of a stack of six 64 × 64 matrices, at (0, a, b), is the stack at (5, a, b). -/
theorem ld_r0_8 (W : Vec F S6x64x64 .f32) (a b : Fin 64) :
    View.ld W r0_8 (ix3 (0 : Fin 1) a b) = W (ix3 (5 : Fin 6) a b) :=
  ld_slab (5 : Fin 6) inb_S6x64x64_S1x64x64_5_0_0 W a b

/-- The load of matrix 0 of a stack of six 64 × 128 matrices, at (0, a, b), is the stack at (0, a, b). -/
theorem ld_r0_10 (W : Vec F S6x64x128 .f32) (a : Fin 64) (b : Fin 128) :
    View.ld W r0_10 (ix3 (0 : Fin 1) a b) = W (ix3 (0 : Fin 6) a b) :=
  ld_slab (0 : Fin 6) inb_S6x64x128_S1x64x128_0_0_0 W a b

/-- The load of matrix 1 of a stack of six 64 × 128 matrices, at (0, a, b), is the stack at (1, a, b). -/
theorem ld_r0_11 (W : Vec F S6x64x128 .f32) (a : Fin 64) (b : Fin 128) :
    View.ld W r0_11 (ix3 (0 : Fin 1) a b) = W (ix3 (1 : Fin 6) a b) :=
  ld_slab (1 : Fin 6) inb_S6x64x128_S1x64x128_1_0_0 W a b

/-- The load of matrix 2 of a stack of six 64 × 128 matrices, at (0, a, b), is the stack at (2, a, b). -/
theorem ld_r0_12 (W : Vec F S6x64x128 .f32) (a : Fin 64) (b : Fin 128) :
    View.ld W r0_12 (ix3 (0 : Fin 1) a b) = W (ix3 (2 : Fin 6) a b) :=
  ld_slab (2 : Fin 6) inb_S6x64x128_S1x64x128_2_0_0 W a b

/-- The load of matrix 3 of a stack of six 64 × 128 matrices, at (0, a, b), is the stack at (3, a, b). -/
theorem ld_r0_13 (W : Vec F S6x64x128 .f32) (a : Fin 64) (b : Fin 128) :
    View.ld W r0_13 (ix3 (0 : Fin 1) a b) = W (ix3 (3 : Fin 6) a b) :=
  ld_slab (3 : Fin 6) inb_S6x64x128_S1x64x128_3_0_0 W a b

/-- The load of matrix 4 of a stack of six 64 × 128 matrices, at (0, a, b), is the stack at (4, a, b). -/
theorem ld_r0_14 (W : Vec F S6x64x128 .f32) (a : Fin 64) (b : Fin 128) :
    View.ld W r0_14 (ix3 (0 : Fin 1) a b) = W (ix3 (4 : Fin 6) a b) :=
  ld_slab (4 : Fin 6) inb_S6x64x128_S1x64x128_4_0_0 W a b

/-- The load of matrix 5 of a stack of six 64 × 128 matrices, at (0, a, b), is the stack at (5, a, b). -/
theorem ld_r0_15 (W : Vec F S6x64x128 .f32) (a : Fin 64) (b : Fin 128) :
    View.ld W r0_15 (ix3 (0 : Fin 1) a b) = W (ix3 (5 : Fin 6) a b) :=
  ld_slab (5 : Fin 6) inb_S6x64x128_S1x64x128_5_0_0 W a b

/-- The eigenvalues as a column: at (a, 0), the vector at a. -/
theorem castCol64_apply (v : FVec F S64 .f32) (a : Fin 64) (u : Fin 1) :
    shapeCast S64x1 v shapeCasts_S64_S64x1 (ix2 a u) = v (ix1 a) :=
  shapeCast_a_a1_apply v shapeCasts_S64_S64x1 a u

/-- A vector of 64 entries as a row: at (0, j), the vector at j. -/
theorem castRow64_apply (v : FVec F S64 .f32) (u : Fin 1) (j : Fin 64) :
    shapeCast S1x64 v shapeCasts_S64_S1x64 (ix2 u j) = v (ix1 j) :=
  shapeCast_a_1a_apply v shapeCasts_S64_S1x64 u j

/-- A vector of 128 entries as a row: at (0, j), the vector at j. -/
theorem castRow128_apply (v : FVec F S128 .f32) (u : Fin 1) (j : Fin 128) :
    shapeCast S1x128 v shapeCasts_S128_S1x128 (ix2 u j) = v (ix1 j) :=
  shapeCast_a_1a_apply v shapeCasts_S128_S1x128 u j

end Region

end Cert.KernelIdeal.Region0

end
-- ==== Proof.KerReadLayer1.lean ====
/-
  The kernel's first Chebyshev layer, read at an index, is the spectral-domain layer of the entrywise arrays.

  The layer's program computes, in order: M = D V and x̂ = eigs ⊙ (D x); the iterates of the spectral recurrence
  s₂ = 2 eigs ⊙ (M s₁) + 0 x̂ − s₀, s₃ = 2 eigs ⊙ (M s₂) − 2 x̂ − s₁, s₄ = 2 eigs ⊙ (M s₃) + 0 x̂ − s₂,
  s₅ = 2 eigs ⊙ (M s₄) + 2 x̂ − s₃ with s₀ = 0 and s₁ = x̂; the sum Σ s_k W_k and the combination
  1 W₀ + 0 W₁ − 1 W₂ + 0 W₃ + 1 W₄ + 0 W₅ of the weight slabs, both accumulated from the left; then V (Σ s_k W_k) + x (Σ c_k W_k), the
  bias row, batch normalisation over the 10000 rows and the rectifier. Each value is read at a position by the
  operation lemmas and identified with the corresponding piece of the spectral form; the order of operations is that of
  the definitions of the spectral form, so every identification is by unfolding.
-/
import proofs.«135777_j83262236000435_2_alg».proof.Proof.KerReadOps
import proofs.«135777_j83262236000435_2_alg».proof.Proof.LibChebLayers

noncomputable section

open scoped BigOperators

namespace Cert.KernelIdeal.KerRead

open Idealize.ShloMosaic Idealize.ShloMosaic.ValueIdx
open Cert.Lib.ChebSpectralE Cert.Lib.BatchNorm Cert.Lib.ChebLayers

theorem pay5_mat (x1 : Vec Ideal S10000x64 .f32) (x2 : Vec Ideal S64x10000 .f32) :
    mat2 (Gen.k0_pay5 (F := Ideal) x1 x2) = mmE (mat2 x2) (mat2 x1) := by
  funext a b
  simp only [mat2_apply, Gen.k0_pay5, matmulA_apply]
  rfl

theorem pay7_mat (x2 : Vec Ideal S64x10000 .f32) (x3 : Vec Ideal S64x1 .f32) (x0 : Vec Ideal S10000x64 .f32) :
    mat2 (Gen.k0_pay7 (F := Ideal) x2 x3 x0) = fun a j => col x3 a * mmE (mat2 x2) (mat2 x0) a j := by
  funext a b
  simp only [mat2_apply, Gen.k0_pay7, Gen.k0_pay2, Gen.k0_pay4, Gen.k0_pay6, mulf_apply, bcastCol_apply, matmulA_apply,
    shapeCast_self, truncf_apply]
  rfl

theorem pay8_mat : mat2 (Gen.k0_pay8 (F := Ideal)) = fun _ _ => ((0 : ℝ) : EReal) := by
  funext a b
  simp only [mat2_apply, Gen.k0_pay8, splat_apply, lit_zero]

theorem pay9_mat (x2 : Vec Ideal S64x10000 .f32) (x3 : Vec Ideal S64x1 .f32) (x0 : Vec Ideal S10000x64 .f32)
    (w0 w1 : Vec Ideal S1x64x64 .f32) :
    mat2 (Gen.k0_pay9 (F := Ideal) x2 x3 x0 w0 w1)
      = fun a j => mmE (mat2 (Gen.k0_pay8 (F := Ideal))) (slab w0) a j + mmE (mat2 (Gen.k0_pay7 (F := Ideal) x2 x3 x0)) (slab w1) a j := by
  funext a b
  simp only [mat2_apply, Gen.k0_pay9, addf_apply, matmulB_apply, castSlab_apply]
  rfl

theorem pay10_mat (w0 w1 : Vec Ideal S1x64x64 .f32) :
    mat2 (Gen.k0_pay10 (F := Ideal) w0 w1) = fun a j => ((1 : ℝ) : EReal) * slab w0 a j + ((0 : ℝ) : EReal) * slab w1 a j := by
  funext a b
  simp only [mat2_apply, Gen.k0_pay10, addf_apply, mulf_apply, splat_apply, castSlab_apply, lit_one, lit_zero]
  rfl

theorem pay11_mat (x1 : Vec Ideal S10000x64 .f32) (x2 : Vec Ideal S64x10000 .f32) (x3 : Vec Ideal S64x1 .f32) (x0 : Vec Ideal S10000x64 .f32) :
    mat2 (Gen.k0_pay11 (F := Ideal) x1 x2 x3 x0)
      = mmE (mat2 (Gen.k0_pay5 (F := Ideal) x1 x2)) (mat2 (Gen.k0_pay7 (F := Ideal) x2 x3 x0)) := by
  funext a b
  simp only [mat2_apply, Gen.k0_pay11, matmulB_apply]
  rfl

theorem pay12_mat (v3 : FVec Ideal S64x1 .f32) (v12 v13 v30 : FVec Ideal S64x64 .f32) :
    mat2 (Gen.k0_pay12 (F := Ideal) v3 v12 v13 v30)
      = fun a j => ((2 : ℝ) : EReal) * (col v3 a * mat2 v30 a j) + ((0 : ℝ) : EReal) * mat2 v12 a j - mat2 v13 a j := by
  funext a b
  simp only [mat2_apply, Gen.k0_pay12, subf_apply, addf_apply, mulf_apply, splat_apply, bcastCol_apply, lit_two, lit_zero]
  rfl

theorem pay13_mat (v3 : FVec Ideal S64x1 .f32) (v6 v12 v13 v30 : FVec Ideal S64x64 .f32) :
    mat2 (Gen.k0_pay13 (F := Ideal) v3 v6 v12 v13 v30)
      = fun a j => ((2 : ℝ) : EReal) * (col v3 a * mmE (mat2 v6) (mat2 (Gen.k0_pay12 (F := Ideal) v3 v12 v13 v30)) a j)
          + ((-2 : ℝ) : EReal) * mat2 v12 a j - mat2 v12 a j := by
  funext a b
  simp only [mat2_apply, Gen.k0_pay13, subf_apply, addf_apply, mulf_apply, splat_apply, bcastCol_apply, matmulB_apply,
    lit_two, lit_negTwo]
  rfl

theorem pay14_mat (v3 : FVec Ideal S64x1 .f32) (v6 v12 v13 v20 v30 : FVec Ideal S64x64 .f32) (w2 w3 : Vec Ideal S1x64x64 .f32) :
    mat2 (Gen.k0_pay14 (F := Ideal) v3 v6 v12 v13 v20 v30 w2 w3)
      = fun a j => mat2 v20 a j + mmE (mat2 (Gen.k0_pay12 (F := Ideal) v3 v12 v13 v30)) (slab w2) a j
          + mmE (mat2 (Gen.k0_pay13 (F := Ideal) v3 v6 v12 v13 v30)) (slab w3) a j := by
  funext a b
  simp only [mat2_apply, Gen.k0_pay14, addf_apply, matmulB_apply, castSlab_apply]
  rfl

theorem pay15_mat (v29 : FVec Ideal S64x64 .f32) (w2 w3 : Vec Ideal S1x64x64 .f32) :
    mat2 (Gen.k0_pay15 (F := Ideal) v29 w2 w3)
      = fun a j => mat2 v29 a j + ((-1 : ℝ) : EReal) * slab w2 a j + ((0 : ℝ) : EReal) * slab w3 a j := by
  funext a b
  simp only [mat2_apply, Gen.k0_pay15, addf_apply, mulf_apply, splat_apply, castSlab_apply, lit_negOne, lit_negZero]
  rfl

theorem pay16_mat (v3 : FVec Ideal S64x1 .f32) (v6 v12 v13 v30 : FVec Ideal S64x64 .f32) :
    mat2 (Gen.k0_pay16 (F := Ideal) v3 v6 v12 v13 v30)
      = fun a j => col v3 a * mmE (mat2 v6) (mat2 (Gen.k0_pay13 (F := Ideal) v3 v6 v12 v13 v30)) a j := by
  funext a b
  simp only [mat2_apply, Gen.k0_pay16, mulf_apply, bcastCol_apply, matmulB_apply]
  rfl

/-- The fourth and fifth iterates of the spectral recurrence inside the payload that closes the spectral sum. -/
def it4 (v12 v38 v68 : Fin 64 → Fin 64 → EReal) : Fin 64 → Fin 64 → EReal :=
  fun a j => ((2 : ℝ) : EReal) * v68 a j + ((0 : ℝ) : EReal) * v12 a j - v38 a j
def it5 (e : Fin 64 → EReal) (M v12 v56 s4 : Fin 64 → Fin 64 → EReal) : Fin 64 → Fin 64 → EReal :=
  fun a j => ((2 : ℝ) : EReal) * (e a * mmE M s4 a j) + ((2 : ℝ) : EReal) * v12 a j - v56 a j

theorem pay17_mat (v3 : FVec Ideal S64x1 .f32) (v6 v12 v38 v56 v60 v68 : FVec Ideal S64x64 .f32) (w4 w5 : Vec Ideal S1x64x64 .f32) :
    mat2 (Gen.k0_pay17 (F := Ideal) v3 v6 v12 v38 v56 v60 v68 w4 w5)
      = fun a j => mat2 v60 a j + mmE (it4 (mat2 v12) (mat2 v38) (mat2 v68)) (slab w4) a j
          + mmE (it5 (col v3) (mat2 v6) (mat2 v12) (mat2 v56) (it4 (mat2 v12) (mat2 v38) (mat2 v68))) (slab w5) a j := by
  funext a b
  simp only [mat2_apply, Gen.k0_pay17, subf_apply, addf_apply, mulf_apply, splat_apply, bcastCol_apply, matmulB_apply,
    castSlab_apply, lit_two, lit_negZero]
  rfl

theorem pay18_mat (v65 : FVec Ideal S64x64 .f32) (w4 w5 : Vec Ideal S1x64x64 .f32) :
    mat2 (Gen.k0_pay18 (F := Ideal) v65 w4 w5)
      = fun a j => mat2 v65 a j + ((1 : ℝ) : EReal) * slab w4 a j + ((0 : ℝ) : EReal) * slab w5 a j := by
  funext a b
  simp only [mat2_apply, Gen.k0_pay18, addf_apply, mulf_apply, splat_apply, castSlab_apply, lit_one, lit_zero]
  rfl

theorem pay2_col (x3 : Vec Ideal S64x1 .f32) : col (Gen.k0_pay2 (F := Ideal) x3) = col x3 := by
  simp only [Gen.k0_pay2, shapeCast_self]

theorem pay3_mat (x1 : Vec Ideal S10000x64 .f32) : mat2 (Gen.k0_pay3 (F := Ideal) x1) = mat2 x1 := rfl

theorem pay6_mat (x0 : Vec Ideal S10000x64 .f32) : mat2 (Gen.k0_pay6 (F := Ideal) x0) = mat2 x0 := by
  simp only [Gen.k0_pay6, shapeCast_self]
  rfl

theorem pay19_row (cbv : Vec Ideal S1x64 .f32) : row (Gen.k0_pay19 (F := Ideal) cbv) = row cbv := by
  simp only [Gen.k0_pay19, shapeCast_self]

theorem pay20_apply (v4 v9 : FVec Ideal S10000x64 .bf16) (v96 v101 : FVec Ideal S64x64 .f32) (v103 : FVec Ideal S1x64 .f32)
    (gv bv : Vec Ideal S1x64 .f32) (i : Fin 10000) (j : Fin 64) :
    Gen.k0_pay20 (F := Ideal) v4 v9 v96 v101 v103 gv bv (ix2 i j)
      = bnReluE (fun i j => mmE (mat2 v4) (mat2 v96) i j + mmE (mat2 v9) (mat2 v101) i j + row v103 j)
          (Ideal.ofBits .f32 0x461C4000#32) (Ideal.ofBits .f32 0x3A83126F#32) (row gv) (row bv) i j := by
  simp only [Gen.k0_pay20]
  rw [multiReduction_eq_colSum, multiReduction_eq_colSum]
  simp only [truncf_apply, maximumf_apply, addf_apply, mulf_apply, subf_apply, divf_apply, rsqrt_apply,
    splat_apply, bcastRow_apply, castRow_apply, colSum_apply, matmulC_apply, shapeCast_self, Ideal.ofBits_zero_f32]
  rfl

/-! ## The pieces of the spectral form

The spectral form of the filter is assembled from: M = D V; x̂ = eigs ⊙ (D x); the iterates s₀ = 0, s₁ = x̂,
s₂ … s₅ of the recurrence; the sum Σ s_k W_k; and the combination Σ c_k W_k of the weights. Named here so that each value
the layer computes can be identified with one of them. -/

section Pieces
variable {n s p q : Type*} [Fintype n] [Fintype s] [Fintype p] [Fintype q]

def specM (V : n → s → EReal) (D : s → n → EReal) : s → s → EReal := mmE D V
def specXh (D : s → n → EReal) (e : s → EReal) (X : n → p → EReal) : s → p → EReal := fun a j => e a * mmE D X a j
def specS0 : s → p → EReal := fun _ _ => ((0 : ℝ) : EReal)
def specS2 (V : n → s → EReal) (D : s → n → EReal) (e : s → EReal) (X : n → p → EReal) : s → p → EReal :=
  stepSE (specM V D) e (specXh D e X) 0 specS0 (specXh D e X)
def specS3 (V : n → s → EReal) (D : s → n → EReal) (e : s → EReal) (X : n → p → EReal) : s → p → EReal :=
  stepSE (specM V D) e (specXh D e X) (-2) (specXh D e X) (specS2 V D e X)
def specS4 (V : n → s → EReal) (D : s → n → EReal) (e : s → EReal) (X : n → p → EReal) : s → p → EReal :=
  stepSE (specM V D) e (specXh D e X) 0 (specS2 V D e X) (specS3 V D e X)
def specS5 (V : n → s → EReal) (D : s → n → EReal) (e : s → EReal) (X : n → p → EReal) : s → p → EReal :=
  stepSE (specM V D) e (specXh D e X) 2 (specS3 V D e X) (specS4 V D e X)
def specAcc (V : n → s → EReal) (D : s → n → EReal) (e : s → EReal) (X : n → p → EReal) (W : Fin 6 → p → q → EReal) : s → q → EReal :=
  fun a j => mmE (specS0 (s := s) (p := p)) (W 0) a j + mmE (specXh D e X) (W 1) a j + mmE (specS2 V D e X) (W 2) a j
    + mmE (specS3 V D e X) (W 3) a j + mmE (specS4 V D e X) (W 4) a j + mmE (specS5 V D e X) (W 5) a j
def specWbar (W : Fin 6 → p → q → EReal) : p → q → EReal :=
  fun k j => ((1 : ℝ) : EReal) * W 0 k j + ((0 : ℝ) : EReal) * W 1 k j + (((-1 : ℝ)) : EReal) * W 2 k j
    + ((0 : ℝ) : EReal) * W 3 k j + ((1 : ℝ) : EReal) * W 4 k j + ((0 : ℝ) : EReal) * W 5 k j

/-- The spectral form of the filter is the product of V with the accumulated sum plus the product of x with the combined weights. -/
theorem kerOutE_eq_pieces (V : n → s → EReal) (D : s → n → EReal) (e : s → EReal) (X : n → p → EReal) (W : Fin 6 → p → q → EReal) :
    kerOutE V D e X W = fun i j => mmE V (specAcc V D e X W) i j + mmE X (specWbar W) i j := rfl

end Pieces

/-! ## Each value of the layer is one of the pieces -/

section Chain
variable (x0 x1 : Vec Ideal S10000x64 .f32) (x2 : Vec Ideal S64x10000 .f32) (x3 : Vec Ideal S64x1 .f32) (w0 w1 w2 w3 w4 w5 : Vec Ideal S1x64x64 .f32)

theorem c5 : mat2 (Gen.k0_pay5 (F := Ideal) x1 x2) = specM (mat2 x1) (mat2 x2) := pay5_mat x1 x2
theorem c7 : mat2 (Gen.k0_pay7 (F := Ideal) x2 x3 x0) = specXh (mat2 x2) (col x3) (mat2 x0) := pay7_mat x2 x3 x0
theorem c8 : mat2 (Gen.k0_pay8 (F := Ideal)) = specS0 := pay8_mat
theorem c2 : col (Gen.k0_pay2 (F := Ideal) x3) = col x3 := pay2_col x3

theorem c11 : mat2 (Gen.k0_pay11 (F := Ideal) x1 x2 x3 x0) = mmE (specM (mat2 x1) (mat2 x2)) (specXh (mat2 x2) (col x3) (mat2 x0)) := by
  rw [pay11_mat, c5, c7]

theorem c12 : mat2 (Gen.k0_pay12 (F := Ideal) (Gen.k0_pay2 (F := Ideal) x3) (Gen.k0_pay7 (F := Ideal) x2 x3 x0) (Gen.k0_pay8 (F := Ideal)) (Gen.k0_pay11 (F := Ideal) x1 x2 x3 x0)) = specS2 (mat2 x1) (mat2 x2) (col x3) (mat2 x0) := by
  rw [pay12_mat, c2, c7, c8, c11]
  rfl

theorem c13 : mat2 (Gen.k0_pay13 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) = specS3 (mat2 x1) (mat2 x2) (col x3) (mat2 x0) := by
  rw [pay13_mat, c2, c5, c12, c7]
  rfl

theorem c16 : mat2 (Gen.k0_pay16 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) = fun a j => col x3 a * mmE (specM (mat2 x1) (mat2 x2)) (specS3 (mat2 x1) (mat2 x2) (col x3) (mat2 x0)) a j := by
  rw [pay16_mat, c2, c5, c13]

theorem c9 : mat2 (Gen.k0_pay9 (F := Ideal) x2 x3 x0 w0 w1)
    = fun a j => mmE (specS0 (s := Fin 64) (p := Fin 64)) (slab w0) a j + mmE (specXh (mat2 x2) (col x3) (mat2 x0)) (slab w1) a j := by
  rw [pay9_mat, c8, c7]

theorem c14 : mat2 (Gen.k0_pay14 (F := Ideal) (Gen.k0_pay2 (F := Ideal) x3) (Gen.k0_pay5 (F := Ideal) x1 x2) (Gen.k0_pay7 (F := Ideal) x2 x3 x0) (Gen.k0_pay8 (F := Ideal)) (Gen.k0_pay9 (F := Ideal) x2 x3 x0 w0 w1) (Gen.k0_pay11 (F := Ideal) x1 x2 x3 x0) w2 w3)
    = fun a j => mmE (specS0 (s := Fin 64) (p := Fin 64)) (slab w0) a j + mmE (specXh (mat2 x2) (col x3) (mat2 x0)) (slab w1) a j
        + mmE (specS2 (mat2 x1) (mat2 x2) (col x3) (mat2 x0)) (slab w2) a j + mmE (specS3 (mat2 x1) (mat2 x2) (col x3) (mat2 x0)) (slab w3) a j := by
  rw [pay14_mat, c9, c12, c13]

theorem c17 : mat2 (Gen.k0_pay17 (F := Ideal) (Gen.k0_pay2 (F := Ideal) x3) (Gen.k0_pay5 (F := Ideal) x1 x2) (Gen.k0_pay7 (F := Ideal) x2 x3 x0) (Gen.k0_pay12 (F := Ideal) (Gen.k0_pay2 (F := Ideal) x3) (Gen.k0_pay7 (F := Ideal) x2 x3 x0) (Gen.k0_pay8 (F := Ideal)) (Gen.k0_pay11 (F := Ideal) x1 x2 x3 x0)) (Gen.k0_pay13 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) (Gen.k0_pay14 (F := Ideal) (Gen.k0_pay2 (F := Ideal) x3) (Gen.k0_pay5 (F := Ideal) x1 x2) (Gen.k0_pay7 (F := Ideal) x2 x3 x0) (Gen.k0_pay8 (F := Ideal)) (Gen.k0_pay9 (F := Ideal) x2 x3 x0 w0 w1) (Gen.k0_pay11 (F := Ideal) x1 x2 x3 x0) w2 w3) (Gen.k0_pay16 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) w4 w5) = specAcc (mat2 x1) (mat2 x2) (col x3) (mat2 x0) (wslab w0 w1 w2 w3 w4 w5) := by
  rw [pay17_mat, c14, c7, c12, c16, c2, c5, c13]
  rfl

theorem c18 : mat2 (Gen.k0_pay18 (F := Ideal) (Gen.k0_pay15 (F := Ideal) (Gen.k0_pay10 (F := Ideal) w0 w1) w2 w3) w4 w5) = specWbar (wslab w0 w1 w2 w3 w4 w5) := by
  rw [pay18_mat, pay15_mat, pay10_mat]
  rfl

end Chain

/-! ## The layer -/

/-- The first layer's output as the layer's values compose: batch normalisation and rectifier of the spectral filter output plus bias. -/
def kerLayer1 (x0 x1 : Vec Ideal S10000x64 .f32) (x2 : Vec Ideal S64x10000 .f32) (x3 : Vec Ideal S64x1 .f32) (w0 w1 w2 w3 w4 w5 : Vec Ideal S1x64x64 .f32) (cbv gv bv : Vec Ideal S1x64 .f32) : FVec Ideal S10000x64 .bf16 :=
  Gen.k0_pay20 (F := Ideal) (Gen.k0_pay3 (F := Ideal) x1) (Gen.k0_pay6 (F := Ideal) x0) (Gen.k0_pay17 (F := Ideal) (Gen.k0_pay2 (F := Ideal) x3) (Gen.k0_pay5 (F := Ideal) x1 x2) (Gen.k0_pay7 (F := Ideal) x2 x3 x0) (Gen.k0_pay12 (F := Ideal) (Gen.k0_pay2 (F := Ideal) x3) (Gen.k0_pay7 (F := Ideal) x2 x3 x0) (Gen.k0_pay8 (F := Ideal)) (Gen.k0_pay11 (F := Ideal) x1 x2 x3 x0)) (Gen.k0_pay13 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) (Gen.k0_pay14 (F := Ideal) (Gen.k0_pay2 (F := Ideal) x3) (Gen.k0_pay5 (F := Ideal) x1 x2) (Gen.k0_pay7 (F := Ideal) x2 x3 x0) (Gen.k0_pay8 (F := Ideal)) (Gen.k0_pay9 (F := Ideal) x2 x3 x0 w0 w1) (Gen.k0_pay11 (F := Ideal) x1 x2 x3 x0) w2 w3) (Gen.k0_pay16 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) w4 w5) (Gen.k0_pay18 (F := Ideal) (Gen.k0_pay15 (F := Ideal) (Gen.k0_pay10 (F := Ideal) w0 w1) w2 w3) w4 w5) (Gen.k0_pay19 (F := Ideal) cbv) gv bv

/-- The first layer read at `(i, j)` is the spectral-domain layer of the entrywise arrays: V, D, the eigenvalue column, the
    input, the six weight slabs, the bias row, the row count 10000 and ε as their f32 patterns, the scale row and the shift row. -/
theorem kerLayer1_apply' (x0 x1 : Vec Ideal S10000x64 .f32) (x2 : Vec Ideal S64x10000 .f32) (x3 : Vec Ideal S64x1 .f32) (w0 w1 w2 w3 w4 w5 : Vec Ideal S1x64x64 .f32) (cbv gv bv : Vec Ideal S1x64 .f32) (i : Fin 10000) (j : Fin 64) :
    kerLayer1 x0 x1 x2 x3 w0 w1 w2 w3 w4 w5 cbv gv bv (ix2 i j)
      = layerKerE (mat2 x1) (mat2 x2) (col x3) (mat2 x0) (wslab w0 w1 w2 w3 w4 w5) (row cbv)
          (Ideal.ofBits .f32 0x461C4000#32) (Ideal.ofBits .f32 0x3A83126F#32) (row gv) (row bv) i j := by
  unfold kerLayer1
  rw [pay20_apply, pay3_mat, pay6_mat, pay19_row, c17, c18]
  rfl

/-- The same with every entrywise array written out. The weight family picks slab `k` of `![w0, …, w5]`. -/
theorem kerLayer1_apply (x0 x1 : Vec Ideal S10000x64 .f32) (x2 : Vec Ideal S64x10000 .f32) (x3 : Vec Ideal S64x1 .f32) (w0 w1 w2 w3 w4 w5 : Vec Ideal S1x64x64 .f32) (cbv gv bv : Vec Ideal S1x64 .f32) (i : Fin 10000) (j : Fin 64) :
    kerLayer1 x0 x1 x2 x3 w0 w1 w2 w3 w4 w5 cbv gv bv (ix2 i j)
      = layerKerE (fun i a => x1 (ix2 i a)) (fun a l => x2 (ix2 a l)) (fun a => x3 (ix2 a (0 : Fin 1))) (fun l j => x0 (ix2 l j))
          (fun k a b => wsel w0 w1 w2 w3 w4 w5 k (ix3 (0 : Fin 1) a b)) (fun j => cbv (ix2 (0 : Fin 1) j))
          (Ideal.ofBits .f32 0x461C4000#32) (Ideal.ofBits .f32 0x3A83126F#32)
          (fun j => gv (ix2 (0 : Fin 1) j)) (fun j => bv (ix2 (0 : Fin 1) j)) i j :=
  kerLayer1_apply' x0 x1 x2 x3 w0 w1 w2 w3 w4 w5 cbv gv bv i j

end Cert.KernelIdeal.KerRead

end
-- ==== Proof.KerReadLayer2Pay.lean ====
/-
  The values of the kernel's second Chebyshev layer, each read at an index, over the extended reals.

  The second layer is written like the first, over the first layer's output h and the projection x̂ = eigs ⊙ (D h) of it:
  the iterates s₂ = 2 eigs ⊙ (M x̂) + 0 x̂ − 0, s₃ = 2 eigs ⊙ (M s₂) − 2 x̂ − x̂, s₄ = 2 eigs ⊙ (M s₃) + 0 x̂ − s₂ and
  s₅ = 2 eigs ⊙ (M s₄) + 2 x̂ − s₃ of the spectral recurrence; the sum Σ s_k W_k and the combination
  1 W₀ + 0 W₁ − 1 W₂ + 0 W₃ + 1 W₄ + 0 W₅ of the weight slabs, accumulated from the left; y = V (Σ s_k W_k) + h (Σ c_k W_k) plus
  the bias row; the centred and rescaled array (y − μ) · (v + ε)^(−1/2) with μ and v the column mean and variance over the
  10000 rows; and finally the scale row, the shift row and the rectifier. The program groups these operations into
  values; each lemma below reads one value at a position, over arbitrary arguments.

-/
import proofs.«135777_j83262236000435_2_alg».proof.Proof.KerReadOps
import proofs.«135777_j83262236000435_2_alg».proof.Proof.LibChebLayers

noncomputable section

open scoped BigOperators

namespace Cert.KernelIdeal.KerRead

open Idealize.ShloMosaic Idealize.ShloMosaic.ValueIdx
open Cert.Lib.ChebSpectralE Cert.Lib.BatchNorm Cert.Lib.ChebLayers

/-! ## The projections x̂ of the second and third layers

Each is the eigenvalue column spread over the columns times the product of D with the previous layer's output. -/

theorem pay21_read (v3 : FVec Ideal S64x1 .f32) (v4 : FVec Ideal S10000x64 .bf16) (v5 : FVec Ideal S64x10000 .bf16)
    (v9 : FVec Ideal S10000x64 .bf16) (v96 v101 : FVec Ideal S64x64 .f32) (v103 : FVec Ideal S1x64 .f32)
    (v104 v106 : Vec Ideal S1x64 .f32) (a j : Fin 64) :
    Gen.k0_pay21 (F := Ideal) v3 v4 v5 v9 v96 v101 v103 v104 v106 (ix2 a j)
      = v3 (ix2 a (0 : Fin 1)) * ∑ l : Fin 10000, v5 (ix2 a l) * Gen.k0_pay20 (F := Ideal) v4 v9 v96 v101 v103 v104 v106 (ix2 l j) := by
  simp only [Gen.k0_pay21, mulf_apply, bcastCol_apply, matmulA_apply]

theorem pay38_read (v3 : FVec Ideal S64x1 .f32) (v5 : FVec Ideal S64x10000 .bf16) (v233 v235 : FVec Ideal S1x64 .f32)
    (v258 : FVec Ideal S10000x64 .f32) (a j : Fin 64) :
    Gen.k0_pay38 (F := Ideal) v3 v5 v233 v235 v258 (ix2 a j)
      = v3 (ix2 a (0 : Fin 1)) * ∑ l : Fin 10000, v5 (ix2 a l) * Gen.k0_pay37 (F := Ideal) v233 v235 v258 (ix2 l j) := by
  simp only [Gen.k0_pay38, mulf_apply, bcastCol_apply, matmulA_apply]

/-! ## The scale, the shift and the rectifier -/

theorem pay37_apply (gv bv : FVec Ideal S1x64 .f32) (z : FVec Ideal S10000x64 .f32) (i : Fin 10000) (j : Fin 64) :
    Gen.k0_pay37 (F := Ideal) gv bv z (ix2 i j) = max (z (ix2 i j) * row gv j + row bv j) 0 := by
  simp only [Gen.k0_pay37, truncf_apply, maximumf_apply, addf_apply, mulf_apply, splat_apply, bcastRow_apply,
    Ideal.ofBits_zero_f32]
  rfl

theorem pay34_row (gv : Vec Ideal S1x64 .f32) : row (Gen.k0_pay34 (F := Ideal) gv) = row gv := by
  simp only [Gen.k0_pay34, shapeCast_self]

theorem pay35_row (bv : Vec Ideal S1x64 .f32) : row (Gen.k0_pay35 (F := Ideal) bv) = row bv := by
  simp only [Gen.k0_pay35, shapeCast_self]

/-! ## The spectral recurrence and the two accumulations -/

theorem pay22_mat : mat2 (Gen.k0_pay22 (F := Ideal)) = fun _ _ => ((0 : ℝ) : EReal) := by
  funext a b
  simp only [mat2_apply, Gen.k0_pay22, splat_apply, lit_zero]

theorem pay28_mat : mat2 (Gen.k0_pay28 (F := Ideal)) = fun _ _ => ((-2 : ℝ) : EReal) := by
  funext a b
  simp only [mat2_apply, Gen.k0_pay28, splat_apply, lit_negTwo]

theorem pay23_mat (w0 : Vec Ideal S1x64x64 .f32) :
    mat2 (Gen.k0_pay23 (F := Ideal) w0) = mmE (mat2 (Gen.k0_pay22 (F := Ideal))) (slab w0) := by
  funext a b
  simp only [mat2_apply, Gen.k0_pay23, matmulB_apply, castSlab_apply]
  rfl

theorem pay24_mat (v3 : FVec Ideal S64x1 .f32) (v6 v140 v141 : FVec Ideal S64x64 .f32) :
    mat2 (Gen.k0_pay24 (F := Ideal) v3 v6 v140 v141)
      = fun a j => ((2 : ℝ) : EReal) * (col v3 a * mmE (mat2 v6) (mat2 v140) a j) + ((0 : ℝ) : EReal) * mat2 v140 a j - mat2 v141 a j := by
  funext a b
  simp only [mat2_apply, Gen.k0_pay24, subf_apply, addf_apply, mulf_apply, splat_apply, bcastCol_apply, matmulB_apply,
    lit_two, lit_zero]
  rfl

theorem pay25_mat (v3 : FVec Ideal S64x1 .f32) (v6 v140 v141 v144 : FVec Ideal S64x64 .f32) (w1 w2 : Vec Ideal S1x64x64 .f32) :
    mat2 (Gen.k0_pay25 (F := Ideal) v3 v6 v140 v141 v144 w1 w2)
      = fun a j => mat2 v144 a j + mmE (mat2 v140) (slab w1) a j
          + mmE (mat2 (Gen.k0_pay24 (F := Ideal) v3 v6 v140 v141)) (slab w2) a j := by
  funext a b
  simp only [mat2_apply, Gen.k0_pay25, addf_apply, matmulB_apply, castSlab_apply]
  rfl

theorem pay26_mat (w0 w1 w2 : Vec Ideal S1x64x64 .f32) :
    mat2 (Gen.k0_pay26 (F := Ideal) w0 w1 w2)
      = fun a j => ((1 : ℝ) : EReal) * slab w0 a j + ((0 : ℝ) : EReal) * slab w1 a j + ((-1 : ℝ) : EReal) * slab w2 a j := by
  funext a b
  simp only [mat2_apply, Gen.k0_pay26, addf_apply, mulf_apply, splat_apply, castSlab_apply, lit_one, lit_zero, lit_negOne]
  rfl

theorem pay27_mat (v3 : FVec Ideal S64x1 .f32) (v6 v140 v141 : FVec Ideal S64x64 .f32) :
    mat2 (Gen.k0_pay27 (F := Ideal) v3 v6 v140 v141)
      = fun a j => ((2 : ℝ) : EReal) * (col v3 a * mmE (mat2 v6) (mat2 (Gen.k0_pay24 (F := Ideal) v3 v6 v140 v141)) a j) := by
  funext a b
  simp only [mat2_apply, Gen.k0_pay27, mulf_apply, splat_apply, bcastCol_apply, matmulB_apply, lit_two]
  rfl

theorem pay29_mat (v140 v180 v181 : FVec Ideal S64x64 .f32) :
    mat2 (Gen.k0_pay29 (F := Ideal) v140 v180 v181)
      = fun a j => mat2 v180 a j + mat2 v181 a j * mat2 v140 a j - mat2 v140 a j := by
  funext a b
  simp only [mat2_apply, Gen.k0_pay29, subf_apply, addf_apply, mulf_apply]

theorem pay30_mat (v3 : FVec Ideal S64x1 .f32) (v6 v140 v166 v180 v181 : FVec Ideal S64x64 .f32) :
    mat2 (Gen.k0_pay30 (F := Ideal) v3 v6 v140 v166 v180 v181)
      = fun a j => ((2 : ℝ) : EReal) * (col v3 a * mmE (mat2 v6) (mat2 (Gen.k0_pay29 (F := Ideal) v140 v180 v181)) a j)
          + ((0 : ℝ) : EReal) * mat2 v140 a j - mat2 v166 a j := by
  funext a b
  simp only [mat2_apply, Gen.k0_pay30, subf_apply, addf_apply, mulf_apply, splat_apply, bcastCol_apply, matmulB_apply,
    lit_two, lit_negZero]
  rfl

theorem pay31_mat (v3 : FVec Ideal S64x1 .f32) (v6 v140 v166 v170 v180 v181 : FVec Ideal S64x64 .f32) (w3 w4 : Vec Ideal S1x64x64 .f32) :
    mat2 (Gen.k0_pay31 (F := Ideal) v3 v6 v140 v166 v170 v180 v181 w3 w4)
      = fun a j => mat2 v170 a j + mmE (mat2 (Gen.k0_pay29 (F := Ideal) v140 v180 v181)) (slab w3) a j
          + mmE (mat2 (Gen.k0_pay30 (F := Ideal) v3 v6 v140 v166 v180 v181)) (slab w4) a j := by
  funext a b
  simp only [mat2_apply, Gen.k0_pay31, addf_apply, matmulB_apply, castSlab_apply]
  rfl

theorem pay32_mat (v175 : FVec Ideal S64x64 .f32) (w3 w4 : Vec Ideal S1x64x64 .f32) :
    mat2 (Gen.k0_pay32 (F := Ideal) v175 w3 w4)
      = fun a j => mat2 v175 a j + ((0 : ℝ) : EReal) * slab w3 a j + ((1 : ℝ) : EReal) * slab w4 a j := by
  funext a b
  simp only [mat2_apply, Gen.k0_pay32, addf_apply, mulf_apply, splat_apply, castSlab_apply, lit_one, lit_negZero]
  rfl

theorem pay33_mat (v3 : FVec Ideal S64x1 .f32) (v6 v140 v166 v180 v181 : FVec Ideal S64x64 .f32) :
    mat2 (Gen.k0_pay33 (F := Ideal) v3 v6 v140 v166 v180 v181)
      = fun a j => ((2 : ℝ) : EReal) * (col v3 a * mmE (mat2 v6) (mat2 (Gen.k0_pay30 (F := Ideal) v3 v6 v140 v166 v180 v181)) a j)
          + ((2 : ℝ) : EReal) * mat2 v140 a j := by
  funext a b
  simp only [mat2_apply, Gen.k0_pay33, addf_apply, mulf_apply, splat_apply, bcastCol_apply, matmulB_apply, lit_two]
  rfl

end Cert.KernelIdeal.KerRead

end
-- ==== Proof.KerReadLayer2.lean ====
/-
  The kernel's second Chebyshev layer, read at an index, is the spectral-domain layer of the entrywise arrays.

  The layer takes the first layer's output h and a projection x̂ of it, assumed to be eigs ⊙ (D h) entry by entry. Each
  value the program computes is identified with one piece of the spectral form over the arrays V, D, eigs and h: the
  iterates s₂ … s₅ of the recurrence, the partial sums of Σ s_k W_k and of the combination Σ c_k W_k of the weight slabs.
  The last value of the filter part closes both sums, forms y = V (Σ s_k W_k) + h (Σ c_k W_k) plus the bias row, and returns the
  centred and rescaled array (y − μ) · (v + ε)^(−1/2); the scale, the shift and the rectifier follow in a separate
  value. Composed, they are batch normalisation and rectifier of the spectral filter output plus bias. The order of
  operations is that of the definitions of the spectral form, so every identification is by unfolding.

-/
import proofs.«135777_j83262236000435_2_alg».proof.Proof.KerReadLayer1
import proofs.«135777_j83262236000435_2_alg».proof.Proof.KerReadLayer2Pay

noncomputable section

open scoped BigOperators

namespace Cert.KernelIdeal.KerRead

open Idealize.ShloMosaic Idealize.ShloMosaic.ValueIdx
open Cert.Lib.ChebSpectralE Cert.Lib.BatchNorm Cert.Lib.ChebLayers

/-! ## Centring and rescaling over the rows

Batch normalisation without its scale and shift: (y − μ) · (v + ε)^(−1/2), with μ the column mean and v the column mean of
the squared centred entries, division and inverse root being the idealized ones. -/

section Norm
variable {n q : Type*} [Fintype n]

def bnNormE (y : n → q → EReal) (N eps : EReal) : n → q → EReal := fun i j =>
  (y i j - Ideal.div (∑ i', y i' j) N)
    * Ideal.rsqrt (Ideal.div (∑ i', (y i' j - Ideal.div (∑ i'', y i'' j) N) * (y i' j - Ideal.div (∑ i'', y i'' j) N)) N + eps)

/-- Batch normalisation followed by the rectifier is the rescaled array times the scale row plus the shift row, cut at 0. -/
theorem bnReluE_eq_bnNormE (y : n → q → EReal) (N eps : EReal) (g b : q → EReal) (i : n) (j : q) :
    bnReluE y N eps g b i j = max (bnNormE y N eps i j * g j + b j) 0 := rfl

end Norm

/-- The value that closes the two sums, forms the filter output plus bias and centres and rescales it, read at `(i, j)`. -/
theorem pay36_apply (v4 v137 : FVec Ideal S10000x64 .bf16) (v184 v206 v211 v219 : FVec Ideal S64x64 .f32)
    (w5 w5' : Vec Ideal S1x64x64 .f32) (cbv : Vec Ideal S1x64 .f32) (i : Fin 10000) (j : Fin 64) :
    Gen.k0_pay36 (F := Ideal) v4 v137 v184 v206 v211 v219 w5 w5' cbv (ix2 i j)
      = bnNormE (fun i j =>
            mmE (mat2 v4) (fun a j => mat2 v206 a j + mmE (fun a j => mat2 v219 a j - mat2 v184 a j) (slab w5) a j) i j
              + mmE (mat2 v137) (fun a j => mat2 v211 a j + ((0 : ℝ) : EReal) * slab w5' a j) i j + row cbv j)
          (Ideal.ofBits .f32 0x461C4000#32) (Ideal.ofBits .f32 0x3A83126F#32) i j := by
  simp only [Gen.k0_pay36]
  rw [multiReduction_eq_colSum, multiReduction_eq_colSum]
  simp only [truncf_apply, addf_apply, mulf_apply, subf_apply, divf_apply, rsqrt_apply,
    splat_apply, bcastRow_apply, castRow_apply, colSum_apply, matmulC_apply, matmulB_apply, castSlab_apply, shapeCast_self,
    lit_zero]
  rfl

/-! ## Each value of the layer is one of the pieces -/

section Chain2
variable (x1 : Vec Ideal S10000x64 .f32) (x2 : Vec Ideal S64x10000 .f32) (x3 : Vec Ideal S64x1 .f32)
  (hb : FVec Ideal S10000x64 .bf16) (xh : FVec Ideal S64x64 .f32) (w0 w1 w2 w3 w4 w5 : Vec Ideal S1x64x64 .f32)

local notation "e7" => Gen.k0_pay2 (F := Ideal) x3
local notation "Mk" => Gen.k0_pay5 (F := Ideal) x1 x2
local notation "z22" => Gen.k0_pay22 (F := Ideal)
local notation "m28" => Gen.k0_pay28 (F := Ideal)
local notation "n24" => Gen.k0_pay24 (F := Ideal) e7 Mk xh z22
local notation "n27" => Gen.k0_pay27 (F := Ideal) e7 Mk xh z22
local notation "n29" => Gen.k0_pay29 (F := Ideal) xh n27 m28
local notation "n30" => Gen.k0_pay30 (F := Ideal) e7 Mk xh n24 n27 m28
local notation "n33" => Gen.k0_pay33 (F := Ideal) e7 Mk xh n24 n27 m28
local notation "n23" => Gen.k0_pay23 (F := Ideal) w0
local notation "n25" => Gen.k0_pay25 (F := Ideal) e7 Mk xh z22 n23 w1 w2
local notation "n31" => Gen.k0_pay31 (F := Ideal) e7 Mk xh n24 n25 n27 m28 w3 w4
local notation "n26" => Gen.k0_pay26 (F := Ideal) w0 w1 w2
local notation "n32" => Gen.k0_pay32 (F := Ideal) n26 w3 w4
local notation "Vm" => mat2 x1
local notation "Dm" => mat2 x2
local notation "ev" => col x3
local notation "Xm" => mat2 hb

variable (hxh : mat2 xh = specXh (mat2 x2) (col x3) (mat2 hb))
include hxh

theorem d24 : mat2 n24 = specS2 Vm Dm ev Xm := by
  rw [pay24_mat, c2, c5, pay22_mat, hxh]
  rfl

theorem d27 : mat2 n27 = fun a j => ((2 : ℝ) : EReal) * (ev a * mmE (specM Vm Dm) (specS2 Vm Dm ev Xm) a j) := by
  rw [pay27_mat, c2, c5, d24 x1 x2 x3 hb xh hxh]

theorem d29 : mat2 n29 = specS3 Vm Dm ev Xm := by
  rw [pay29_mat, d27 x1 x2 x3 hb xh hxh, pay28_mat, hxh]
  rfl

theorem d30 : mat2 n30 = specS4 Vm Dm ev Xm := by
  rw [pay30_mat, c2, c5, d29 x1 x2 x3 hb xh hxh, d24 x1 x2 x3 hb xh hxh, hxh]
  rfl

theorem d33 : mat2 n33
    = fun a j => ((2 : ℝ) : EReal) * (ev a * mmE (specM Vm Dm) (specS4 Vm Dm ev Xm) a j) + ((2 : ℝ) : EReal) * specXh Dm ev Xm a j := by
  rw [pay33_mat, c2, c5, d30 x1 x2 x3 hb xh hxh, hxh]

theorem d25 : mat2 n25
    = fun a j => mmE (specS0 (s := Fin 64) (p := Fin 64)) (slab w0) a j + mmE (specXh Dm ev Xm) (slab w1) a j
        + mmE (specS2 Vm Dm ev Xm) (slab w2) a j := by
  rw [pay25_mat, pay23_mat, pay22_mat, d24 x1 x2 x3 hb xh hxh, hxh]
  rfl

theorem d31 : mat2 n31
    = fun a j => mmE (specS0 (s := Fin 64) (p := Fin 64)) (slab w0) a j + mmE (specXh Dm ev Xm) (slab w1) a j
        + mmE (specS2 Vm Dm ev Xm) (slab w2) a j + mmE (specS3 Vm Dm ev Xm) (slab w3) a j + mmE (specS4 Vm Dm ev Xm) (slab w4) a j := by
  rw [pay31_mat, d25 x1 x2 x3 hb xh w0 w1 w2 hxh, d29 x1 x2 x3 hb xh hxh, d30 x1 x2 x3 hb xh hxh]

omit hxh in
theorem d32 : mat2 n32
    = fun a j => ((1 : ℝ) : EReal) * slab w0 a j + ((0 : ℝ) : EReal) * slab w1 a j + ((-1 : ℝ) : EReal) * slab w2 a j
        + ((0 : ℝ) : EReal) * slab w3 a j + ((1 : ℝ) : EReal) * slab w4 a j := by
  rw [pay32_mat, pay26_mat]

end Chain2

/-! ## The layer -/

/-- The second layer's centred and rescaled filter output as the layer's values compose, over the first layer's output `hb`
    and its projection `xh`. -/
def kerOut2 (x1 : Vec Ideal S10000x64 .f32) (x2 : Vec Ideal S64x10000 .f32) (x3 : Vec Ideal S64x1 .f32)
    (hb : FVec Ideal S10000x64 .bf16) (xh : FVec Ideal S64x64 .f32) (w0 w1 w2 w3 w4 w5 : Vec Ideal S1x64x64 .f32)
    (cbv : Vec Ideal S1x64 .f32) : FVec Ideal S10000x64 .f32 :=
  Gen.k0_pay36 (F := Ideal) (Gen.k0_pay3 (F := Ideal) x1) hb
    (Gen.k0_pay29 (F := Ideal) xh (Gen.k0_pay27 (F := Ideal) (Gen.k0_pay2 (F := Ideal) x3) (Gen.k0_pay5 (F := Ideal) x1 x2) xh (Gen.k0_pay22 (F := Ideal))) (Gen.k0_pay28 (F := Ideal)))
    (Gen.k0_pay31 (F := Ideal) (Gen.k0_pay2 (F := Ideal) x3) (Gen.k0_pay5 (F := Ideal) x1 x2) xh
      (Gen.k0_pay24 (F := Ideal) (Gen.k0_pay2 (F := Ideal) x3) (Gen.k0_pay5 (F := Ideal) x1 x2) xh (Gen.k0_pay22 (F := Ideal)))
      (Gen.k0_pay25 (F := Ideal) (Gen.k0_pay2 (F := Ideal) x3) (Gen.k0_pay5 (F := Ideal) x1 x2) xh (Gen.k0_pay22 (F := Ideal)) (Gen.k0_pay23 (F := Ideal) w0) w1 w2)
      (Gen.k0_pay27 (F := Ideal) (Gen.k0_pay2 (F := Ideal) x3) (Gen.k0_pay5 (F := Ideal) x1 x2) xh (Gen.k0_pay22 (F := Ideal))) (Gen.k0_pay28 (F := Ideal)) w3 w4)
    (Gen.k0_pay32 (F := Ideal) (Gen.k0_pay26 (F := Ideal) w0 w1 w2) w3 w4)
    (Gen.k0_pay33 (F := Ideal) (Gen.k0_pay2 (F := Ideal) x3) (Gen.k0_pay5 (F := Ideal) x1 x2) xh
      (Gen.k0_pay24 (F := Ideal) (Gen.k0_pay2 (F := Ideal) x3) (Gen.k0_pay5 (F := Ideal) x1 x2) xh (Gen.k0_pay22 (F := Ideal)))
      (Gen.k0_pay27 (F := Ideal) (Gen.k0_pay2 (F := Ideal) x3) (Gen.k0_pay5 (F := Ideal) x1 x2) xh (Gen.k0_pay22 (F := Ideal))) (Gen.k0_pay28 (F := Ideal)))
    w5 w5 cbv

/-- The centred and rescaled filter output of the second layer read at `(i, j)`: the spectral filter output of the entrywise
    arrays plus the bias row, centred and rescaled over the 10000 rows. -/
theorem kerOut2_apply' (x1 : Vec Ideal S10000x64 .f32) (x2 : Vec Ideal S64x10000 .f32) (x3 : Vec Ideal S64x1 .f32)
    (hb : FVec Ideal S10000x64 .bf16) (xh : FVec Ideal S64x64 .f32) (w0 w1 w2 w3 w4 w5 : Vec Ideal S1x64x64 .f32)
    (cbv : Vec Ideal S1x64 .f32) (hxh : mat2 xh = specXh (mat2 x2) (col x3) (mat2 hb)) (i : Fin 10000) (j : Fin 64) :
    kerOut2 x1 x2 x3 hb xh w0 w1 w2 w3 w4 w5 cbv (ix2 i j)
      = bnNormE (fun i j => kerOutE (mat2 x1) (mat2 x2) (col x3) (mat2 hb) (wslab w0 w1 w2 w3 w4 w5) i j + row cbv j)
          (Ideal.ofBits .f32 0x461C4000#32) (Ideal.ofBits .f32 0x3A83126F#32) i j := by
  unfold kerOut2
  rw [pay36_apply, pay3_mat, d31 x1 x2 x3 hb xh w0 w1 w2 w3 w4 hxh, d32, d33 x1 x2 x3 hb xh hxh, d29 x1 x2 x3 hb xh hxh]
  rfl

/-- The second layer's output read at `(i, j)` is the spectral-domain layer of the entrywise arrays. -/
theorem kerLayer2_apply' (x1 : Vec Ideal S10000x64 .f32) (x2 : Vec Ideal S64x10000 .f32) (x3 : Vec Ideal S64x1 .f32)
    (hb : FVec Ideal S10000x64 .bf16) (xh : FVec Ideal S64x64 .f32) (w0 w1 w2 w3 w4 w5 : Vec Ideal S1x64x64 .f32)
    (cbv : Vec Ideal S1x64 .f32) (gv bv : FVec Ideal S1x64 .f32)
    (hxh : mat2 xh = specXh (mat2 x2) (col x3) (mat2 hb)) (i : Fin 10000) (j : Fin 64) :
    Gen.k0_pay37 (F := Ideal) gv bv (kerOut2 x1 x2 x3 hb xh w0 w1 w2 w3 w4 w5 cbv) (ix2 i j)
      = layerKerE (mat2 x1) (mat2 x2) (col x3) (mat2 hb) (wslab w0 w1 w2 w3 w4 w5) (row cbv)
          (Ideal.ofBits .f32 0x461C4000#32) (Ideal.ofBits .f32 0x3A83126F#32) (row gv) (row bv) i j := by
  rw [pay37_apply, kerOut2_apply' x1 x2 x3 hb xh w0 w1 w2 w3 w4 w5 cbv hxh]
  rfl

end Cert.KernelIdeal.KerRead

end
-- ==== Proof.KerReadOps128.lean ====
/-
  The operations of the kernel's third Chebyshev layer that involve the width 128, each read at an index, over the
  extended reals.

  The third layer maps 64 features to 128. Besides the operation forms of the 64-wide layers it uses: products of a
  64 × 64 matrix with a 64 × 128 matrix and of a 10000 × 64 matrix with a 64 × 128 matrix, both into a zero accumulator;
  a row of 128 numbers spread over 10000 rows; one 64 × 128 slab of a stack viewed as a matrix; a vector of 128 numbers
  viewed as a row; and the sum of the rows of a 10000 × 128 matrix. Over the extended reals a product of matrices is the
  plain sum of products over the contracted position, and the layout operations only rename the position read. Each lemma
  below says so for one form, at a position written by its coordinates.
-/
import proofs.«135777_j83262236000435_2_alg».proof.Proof.KerReadOps

noncomputable section

open scoped BigOperators

namespace Cert.KernelIdeal.KerRead

open Idealize.ShloMosaic Idealize.ShloMosaic.ValueIdx

/-! ### The 64 × 64 by 64 × 128 product -/

theorem lhsD_0 (i : S64x128.Idx) (q : dot_S64x64_S64x128_S64x128_1_0_0_1_n_n.contr.Idx) :
    (dot_S64x64_S64x128_S64x128_1_0_0_1_n_n.lhsIdx i q 0).val = (i 0).val := by
  unfold DotDims.lhsIdx
  rw [dif_neg (show ¬(0 : Fin S64x64.rank) ∈ dot_S64x64_S64x128_S64x128_1_0_0_1_n_n.lhsBatch by decide),
    dif_pos (show (0 : Fin S64x64.rank) ∈ dot_S64x64_S64x128_S64x128_1_0_0_1_n_n.lhsNonContracting by decide)]
  rfl

theorem lhsD_1 (i : S64x128.Idx) (q : dot_S64x64_S64x128_S64x128_1_0_0_1_n_n.contr.Idx) :
    (dot_S64x64_S64x128_S64x128_1_0_0_1_n_n.lhsIdx i q 1).val = (q ⟨0, by decide⟩).val :=
  dot_S64x64_S64x128_S64x128_1_0_0_1_n_n.lhsIdx_val_of_single rfl i q

theorem rhsD_0 (i : S64x128.Idx) (q : dot_S64x64_S64x128_S64x128_1_0_0_1_n_n.contr.Idx) :
    (dot_S64x64_S64x128_S64x128_1_0_0_1_n_n.rhsIdx i q 0).val = (q ⟨0, by decide⟩).val :=
  dot_S64x64_S64x128_S64x128_1_0_0_1_n_n.rhsIdx_val_of_single rfl i q

theorem rhsD_1 (i : S64x128.Idx) (q : dot_S64x64_S64x128_S64x128_1_0_0_1_n_n.contr.Idx) :
    (dot_S64x64_S64x128_S64x128_1_0_0_1_n_n.rhsIdx i q 1).val = (i 1).val := by
  unfold DotDims.rhsIdx
  rw [dif_neg (show ¬(1 : Fin S64x128.rank) ∈ dot_S64x64_S64x128_S64x128_1_0_0_1_n_n.rhsBatch by decide),
    dif_pos (show (1 : Fin S64x128.rank) ∈ dot_S64x64_S64x128_S64x128_1_0_0_1_n_n.rhsNonContracting by decide)]
  rfl

/-- The product into a zero accumulator, read at `(a, b)`: the sum over the 64 contracted positions of the left
    operand's row `a` times the right operand's column `b`, whatever the precision attribute and the operands' formats. -/
theorem matmulD_apply {φ₁ φ₂ : FTy} (p : Option ContractPrecision) (l : FVec Ideal S64x64 φ₁) (r : FVec Ideal S64x128 φ₂)
    (a : Fin 64) (b : Fin 128) :
    matmul dot_S64x64_S64x128_S64x128_1_0_0_1_n_n p l r (constant (F := Ideal) S64x128 .f32 0x00000000#32) (ix2 a b)
      = ∑ k : Fin 64, l (ix2 a k) * r (ix2 k b) := by
  simp only [matmul]
  rw [Ideal.matmul_constant_zero_apply, ← Equiv.sum_comp (contrEquiv1 dot_S64x64_S64x128_S64x128_1_0_0_1_n_n 64 rfl rfl).symm]
  refine Finset.sum_congr rfl fun k _ => ?_
  have hk := contrEquiv1_symm_val dot_S64x64_S64x128_S64x128_1_0_0_1_n_n 64 rfl rfl k
  have el : dot_S64x64_S64x128_S64x128_1_0_0_1_n_n.lhsIdx (ix2 a b) ((contrEquiv1 dot_S64x64_S64x128_S64x128_1_0_0_1_n_n 64 rfl rfl).symm k) = ix2 a k :=
    funext fun c => Fin.ext (by
      match c with
      | ⟨0, _⟩ => exact lhsD_0 _ _
      | ⟨1, _⟩ => exact (lhsD_1 _ _).trans hk)
  have er : dot_S64x64_S64x128_S64x128_1_0_0_1_n_n.rhsIdx (ix2 a b) ((contrEquiv1 dot_S64x64_S64x128_S64x128_1_0_0_1_n_n 64 rfl rfl).symm k) = ix2 k b :=
    funext fun c => Fin.ext (by
      match c with
      | ⟨0, _⟩ => exact (rhsD_0 _ _).trans hk
      | ⟨1, _⟩ => exact rhsD_1 _ _)
  rw [el, er]

/-! ### The 10000 × 64 by 64 × 128 product -/

theorem lhsE_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl

theorem lhsE_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q

theorem rhsE_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q

theorem rhsE_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- The product into a zero accumulator, read at `(a, b)`: the sum over the 64 contracted positions of the left
    operand's row `a` times the right operand's column `b`, whatever the precision attribute and the operands' formats. -/
theorem matmulE_apply {φ₁ φ₂ : FTy} (p : Option ContractPrecision) (l : FVec Ideal S10000x64 φ₁) (r : FVec Ideal S64x128 φ₂)
    (a : Fin 10000) (b : Fin 128) :
    matmul dot_S10000x64_S64x128_S10000x128_1_0_0_1_n_n p l r (constant (F := Ideal) S10000x128 .f32 0x00000000#32) (ix2 a b)
      = ∑ k : Fin 64, l (ix2 a k) * r (ix2 k b) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 a b) ((contrEquiv1 dot_S10000x64_S64x128_S10000x128_1_0_0_1_n_n 64 rfl rfl).symm k) = ix2 a k :=
    funext fun c => Fin.ext (by
      match c with
      | ⟨0, _⟩ => exact lhsE_0 _ _
      | ⟨1, _⟩ => exact (lhsE_1 _ _).trans hk)
  have er : dot_S10000x64_S64x128_S10000x128_1_0_0_1_n_n.rhsIdx (ix2 a b) ((contrEquiv1 dot_S10000x64_S64x128_S10000x128_1_0_0_1_n_n 64 rfl rfl).symm k) = ix2 k b :=
    funext fun c => Fin.ext (by
      match c with
      | ⟨0, _⟩ => exact (rhsE_0 _ _).trans hk
      | ⟨1, _⟩ => exact rhsE_1 _ _)
  rw [el, er]

/-! ## Layout operations -/

/-- The row of 128 numbers spread over 10000 rows. -/
theorem bcastRow128_apply {α : Type} (v : S1x128.Idx → α) (h : S1x128.Broadcasts S10000x128) (i : Fin 10000) (j : Fin 128) :
    broadcastTo S10000x128 v h (ix2 i j) = v (ix2 (0 : Fin 1) j) :=
  broadcastTo_1b_ab_apply v h i j

/-- One 64 × 128 slab of a stack viewed as a matrix. -/
theorem castSlab128_apply {α : Type} (w : S1x64x128.Idx → α) (h : S1x64x128.ShapeCasts S64x128) (a : Fin 64) (b : Fin 128) :
    shapeCast S64x128 w h (ix2 a b) = w (ix3 (0 : Fin 1) a b) :=
  shapeCast_1ab_ab_apply w h a b

/-- A vector of 128 numbers viewed as a row. -/
theorem castRow128_apply {α : Type} (v : S128.Idx → α) (h : S128.ShapeCasts S1x128) (u : Fin 1) (j : Fin 128) :
    shapeCast S1x128 v h (ix2 u j) = v (ix1 j) :=
  shapeCast_a_1a_apply v h u j

/-! ## The sum of the rows -/

/-- The sum over the 10000 rows of a 10000 × 128 matrix, as a vector of 128 numbers. -/
def colSum128 (v : FVec Ideal S10000x128 .f32) : FVec Ideal S128 .f32 := fun jj => ∑ i : Fin 10000, v (ix2 i (jj 0))

theorem colSum128_apply (v : FVec Ideal S10000x128 .f32) (j : Fin 128) : colSum128 v (ix1 j) = ∑ i : Fin 10000, v (ix2 i j) := rfl

/-- The row-sum operation from the zero pattern, read at column `j`: the sum over the 10000 rows. The side condition on
    the starting pattern is the statement that the zero pattern is the zero pattern, among words of the format's width. -/
theorem sumRows128_apply (v : FVec Ideal S10000x128 .f32) (h : S10000x128.Reduces [0] S128) (hφ : FKind.Formats .f32)
    (hacc : (0x00000000#32 : BitVec FTy.f32.bits) = 0x00000000#32) (j : Fin 128) :
    multiReduction (F := Ideal) .add [0] S128 v 0x00000000#32 h hφ hacc (ix1 j) = ∑ i : Fin 10000, v (ix2 i j) := by
  refine (Ideal.multiReduction_add_single v 0x00000000#32 h hφ hacc (ix1 j)).trans ?_
  refine Finset.sum_congr rfl fun k _ => ?_
  exact congrArg v (funext fun c => Fin.ext (by match c with | ⟨0, _⟩ => rfl | ⟨1, _⟩ => rfl))

/-- As a vector, the row-sum operation is `colSum128`. -/
theorem multiReduction_eq_colSum128 (v : FVec Ideal S10000x128 .f32) (h : S10000x128.Reduces [0] S128) (hφ : FKind.Formats .f32)
    (hacc : (0x00000000#32 : BitVec FTy.f32.bits) = 0x00000000#32) :
    multiReduction (F := Ideal) .add [0] S128 v 0x00000000#32 h hφ hacc = colSum128 v := by
  funext jj
  rw [eq_ix1 jj]
  exact sumRows128_apply v h hφ hacc (jj 0)

end Cert.KernelIdeal.KerRead

end
-- ==== Proof.KerReadLayer3Pay.lean ====
/-
  The values of the kernel's third Chebyshev layer (width 64 to 128), each read at an index over the extended reals.

  The layer's program computes, from the previous layer's output h (10000 × 64) and the shared M = D V: x̂ = eigs ⊙ (D h);
  the iterates s₂ = 2 eigs ⊙ (M x̂) + 0 x̂ − 0, s₃ = 2 eigs ⊙ (M s₂) − 2 x̂ − x̂, s₄ = 2 eigs ⊙ (M s₃) + 0 x̂ − s₂,
  s₅ = 2 eigs ⊙ (M s₄) + 2 x̂ − s₃ of the spectral recurrence; the sum 0 W₀ + x̂ W₁ + s₂ W₂ + s₃ W₃ + s₄ W₄ + s₅ W₅ and the
  combination 1 W₀ + 0 W₁ − 1 W₂ + 0 W₃ + 1 W₄ + 0 W₅ of the six 64 × 128 weight slabs, both accumulated from the left; the
  products of V with the sum and of h with the combination; and finally the bias row, batch normalisation over the
  10000 rows and the rectifier. Each lemma below reads one of these values at a position, over arbitrary arguments,
  as the corresponding expression in sums of products; the order of operations is kept as the program has it.
-/
import proofs.«135777_j83262236000435_2_alg».proof.Proof.KerReadOps128
import proofs.«135777_j83262236000435_2_alg».proof.Proof.LibChebLayers

noncomputable section

open scoped BigOperators

namespace Cert.KernelIdeal.KerRead.L3

open Idealize.ShloMosaic Idealize.ShloMosaic.ValueIdx
open Cert.Lib.ChebSpectralE Cert.Lib.BatchNorm Cert.Lib.ChebLayers
open Cert.KernelIdeal.KerRead

/-! ## The values shared with the other layers -/

theorem pay2_col (x3 : Vec Ideal S64x1 .f32) : col (Gen.k0_pay2 (F := Ideal) x3) = col x3 := by
  simp only [Gen.k0_pay2, shapeCast_self]

theorem pay3_mat (x1 : Vec Ideal S10000x64 .f32) : mat2 (Gen.k0_pay3 (F := Ideal) x1) = mat2 x1 := rfl

theorem pay4_mat (x2 : Vec Ideal S64x10000 .f32) : mat2 (Gen.k0_pay4 (F := Ideal) x2) = mat2 x2 := rfl

theorem pay5_mat (x1 : Vec Ideal S10000x64 .f32) (x2 : Vec Ideal S64x10000 .f32) :
    mat2 (Gen.k0_pay5 (F := Ideal) x1 x2) = mmE (mat2 x2) (mat2 x1) := by
  funext a b
  simp only [mat2_apply, Gen.k0_pay5, matmulA_apply]
  rfl

/-! ## The spectral input and the recurrence -/

/-- x̂ = eigs ⊙ (D h), with h the previous layer's output as the program forms it. -/
theorem pay38_mat (v3 : FVec Ideal S64x1 .f32) (v5 : FVec Ideal S64x10000 .bf16) (g b : FVec Ideal S1x64 .f32) (y : FVec Ideal S10000x64 .f32) :
    mat2 (Gen.k0_pay38 (F := Ideal) v3 v5 g b y)
      = fun a j => col v3 a * mmE (mat2 v5) (mat2 (Gen.k0_pay37 (F := Ideal) g b y)) a j := by
  funext a j
  simp only [mat2_apply, Gen.k0_pay38, mulf_apply, bcastCol_apply, matmulA_apply]
  rfl

theorem pay39_mat : mat2 (Gen.k0_pay39 (F := Ideal)) = fun _ _ => ((0 : ℝ) : EReal) := by
  funext a b
  simp only [mat2_apply, Gen.k0_pay39, splat_apply, lit_zero]

/-- s₂: one step of the recurrence from s₀ = 0 and s₁ = x̂, with coefficient 0. -/
theorem pay42_mat (v3 : FVec Ideal S64x1 .f32) (v5 : FVec Ideal S64x10000 .bf16) (v6 : FVec Ideal S64x64 .f32)
    (g b : FVec Ideal S1x64 .f32) (y : FVec Ideal S10000x64 .f32) :
    mat2 (Gen.k0_pay42 (F := Ideal) v3 v5 v6 g b y)
      = stepSE (mat2 v6) (col v3) (mat2 (Gen.k0_pay38 (F := Ideal) v3 v5 g b y)) 0
          (mat2 (Gen.k0_pay39 (F := Ideal))) (mat2 (Gen.k0_pay38 (F := Ideal) v3 v5 g b y)) := by
  funext a j
  simp only [mat2_apply, Gen.k0_pay42, subf_apply, addf_apply, mulf_apply, splat_apply, bcastCol_apply, matmulB_apply,
    lit_two, lit_zero]
  rfl

/-- s₃: one step of the recurrence from s₁ = x̂ and s₂, with coefficient −2. -/
theorem pay43_mat (v3 : FVec Ideal S64x1 .f32) (v6 v268 v294 : FVec Ideal S64x64 .f32) :
    mat2 (Gen.k0_pay43 (F := Ideal) v3 v6 v268 v294)
      = stepSE (mat2 v6) (col v3) (mat2 v268) (-2) (mat2 v268) (mat2 v294) := by
  funext a j
  simp only [mat2_apply, Gen.k0_pay43, subf_apply, addf_apply, mulf_apply, splat_apply, bcastCol_apply, matmulB_apply,
    lit_two, lit_negTwo]
  rfl

/-- s₄: one step of the recurrence from s₂ and s₃, with coefficient 0 (written −0 in the program). -/
theorem pay46_mat (v3 : FVec Ideal S64x1 .f32) (v6 v268 v294 : FVec Ideal S64x64 .f32) :
    mat2 (Gen.k0_pay46 (F := Ideal) v3 v6 v268 v294)
      = stepSE (mat2 v6) (col v3) (mat2 v268) 0 (mat2 v294) (mat2 (Gen.k0_pay43 (F := Ideal) v3 v6 v268 v294)) := by
  funext a j
  simp only [mat2_apply, Gen.k0_pay46, subf_apply, addf_apply, mulf_apply, splat_apply, bcastCol_apply, matmulB_apply,
    lit_two, lit_negZero]
  rfl

/-! ## The accumulated sum Σ s_k W_k -/

theorem pay40_mat (v3 : FVec Ideal S64x1 .f32) (v5 : FVec Ideal S64x10000 .bf16) (g b : FVec Ideal S1x64 .f32)
    (y : FVec Ideal S10000x64 .f32) (w0 w1 : Vec Ideal S1x64x128 .f32) :
    mat2 (Gen.k0_pay40 (F := Ideal) v3 v5 g b y w0 w1)
      = fun a j => mmE (mat2 (Gen.k0_pay39 (F := Ideal))) (slab w0) a j
          + mmE (mat2 (Gen.k0_pay38 (F := Ideal) v3 v5 g b y)) (slab w1) a j := by
  funext a j
  simp only [mat2_apply, Gen.k0_pay40, addf_apply, matmulD_apply, castSlab128_apply]
  rfl

theorem pay44_mat (v3 : FVec Ideal S64x1 .f32) (v6 v268 : FVec Ideal S64x64 .f32) (v276 : FVec Ideal S64x128 .f32)
    (v294 : FVec Ideal S64x64 .f32) (w2 w3 : Vec Ideal S1x64x128 .f32) :
    mat2 (Gen.k0_pay44 (F := Ideal) v3 v6 v268 v276 v294 w2 w3)
      = fun a j => mat2 v276 a j + mmE (mat2 v294) (slab w2) a j
          + mmE (mat2 (Gen.k0_pay43 (F := Ideal) v3 v6 v268 v294)) (slab w3) a j := by
  funext a j
  simp only [mat2_apply, Gen.k0_pay44, addf_apply, matmulD_apply, castSlab128_apply]
  rfl

/-- The product of V with the completed sum: the last two terms s₄ W₄ and s₅ W₅ are added inside this value, s₅ being one
    more step of the recurrence from s₃ and s₄ with coefficient 2. -/
theorem pay50_apply (v3 : FVec Ideal S64x1 .f32) (v4 : FVec Ideal S10000x64 .bf16) (v6 v268 v312 : FVec Ideal S64x64 .f32)
    (v316 : FVec Ideal S64x128 .f32) (v330 : FVec Ideal S64x64 .f32) (w4 w5 : Vec Ideal S1x64x128 .f32)
    (i : Fin 10000) (j : Fin 128) :
    Gen.k0_pay50 (F := Ideal) v3 v4 v6 v268 v312 v316 v330 w4 w5 (ix2 i j)
      = mmE (mat2 v4) (fun a j => mat2 v316 a j + mmE (mat2 v330) (slab w4) a j
          + mmE (stepSE (mat2 v6) (col v3) (mat2 v268) 2 (mat2 v312) (mat2 v330)) (slab w5) a j) i j := by
  simp only [Gen.k0_pay50, matmulE_apply, truncf_apply, subf_apply, addf_apply, mulf_apply, splat_apply, bcastCol_apply,
    matmulB_apply, matmulD_apply, castSlab128_apply, lit_two]
  rfl

/-! ## The combination Σ c_k W_k of the weights -/

theorem pay41_mat (w0 w1 : Vec Ideal S1x64x128 .f32) :
    mat2 (Gen.k0_pay41 (F := Ideal) w0 w1) = fun a j => ((1 : ℝ) : EReal) * slab w0 a j + ((0 : ℝ) : EReal) * slab w1 a j := by
  funext a j
  simp only [mat2_apply, Gen.k0_pay41, addf_apply, mulf_apply, splat_apply, castSlab128_apply, lit_one, lit_zero]
  rfl

theorem pay45_mat (v285 : FVec Ideal S64x128 .f32) (w2 w3 : Vec Ideal S1x64x128 .f32) :
    mat2 (Gen.k0_pay45 (F := Ideal) v285 w2 w3)
      = fun a j => mat2 v285 a j + ((-1 : ℝ) : EReal) * slab w2 a j + ((0 : ℝ) : EReal) * slab w3 a j := by
  funext a j
  simp only [mat2_apply, Gen.k0_pay45, addf_apply, mulf_apply, splat_apply, castSlab128_apply, lit_negOne, lit_negZero]
  rfl

/-- The product of the previous layer's output with the completed combination of the weights. -/
theorem pay51_apply (v265 : FVec Ideal S10000x64 .bf16) (v321 : FVec Ideal S64x128 .f32) (w4 w5 : Vec Ideal S1x64x128 .f32)
    (i : Fin 10000) (j : Fin 128) :
    Gen.k0_pay51 (F := Ideal) v265 v321 w4 w5 (ix2 i j)
      = mmE (mat2 v265) (fun a j => mat2 v321 a j + ((1 : ℝ) : EReal) * slab w4 a j + ((0 : ℝ) : EReal) * slab w5 a j) i j := by
  simp only [Gen.k0_pay51, matmulE_apply, truncf_apply, addf_apply, mulf_apply, splat_apply, castSlab128_apply, lit_one, lit_zero]
  rfl

/-! ## The bias, batch normalisation and the rectifier -/

theorem pay47_row (cbv : Vec Ideal S1x128 .f32) : row (Gen.k0_pay47 (F := Ideal) cbv) = row cbv := by
  simp only [Gen.k0_pay47, shapeCast_self]
theorem pay48_row (gv : Vec Ideal S1x128 .f32) : row (Gen.k0_pay48 (F := Ideal) gv) = row gv := by
  simp only [Gen.k0_pay48, shapeCast_self]
theorem pay49_row (bv : Vec Ideal S1x128 .f32) : row (Gen.k0_pay49 (F := Ideal) bv) = row bv := by
  simp only [Gen.k0_pay49, shapeCast_self]

/-- The layer's last value: the two products and the bias row added, then batch normalisation over the 10000 rows with
    the row count and ε as their f32 patterns, the scale row, the shift row, and the rectifier. -/
theorem pay1_apply (v359 v361 v363 : FVec Ideal S1x128 .f32) (v366 v367 : FVec Ideal S10000x128 .f32) (i : Fin 10000) (j : Fin 128) :
    Gen.k0_pay1 (F := Ideal) v359 v361 v363 v366 v367 (ix2 i j)
      = bnReluE (fun i j => mat2 v366 i j + mat2 v367 i j + row v359 j)
          (Ideal.ofBits .f32 0x461C4000#32) (Ideal.ofBits .f32 0x3A83126F#32) (row v361) (row v363) i j := by
  simp only [Gen.k0_pay1]
  rw [multiReduction_eq_colSum128, multiReduction_eq_colSum128]
  simp only [maximumf_apply, addf_apply, mulf_apply, subf_apply, divf_apply, rsqrt_apply,
    splat_apply, bcastRow128_apply, castRow128_apply, colSum128_apply, Ideal.ofBits_zero_f32]
  rfl

end Cert.KernelIdeal.KerRead.L3

end
-- ==== Proof.KerReadLayer3.lean ====
/-
  The kernel's third Chebyshev layer (width 64 to 128), read at an index, is the spectral-domain layer of the entrywise
  arrays, with the previous layer's output as its input.

  The previous layer's output h enters the third layer's program as the value the program forms from the second layer's
  filter output, scale row and shift row; it is kept as that value and never opened. Each value of the third layer is
  identified with one piece of the spectral form: x̂ = eigs ⊙ (D h), the iterates s₂ … s₅ of the recurrence, the
  accumulated sum Σ s_k W_k, the combination Σ c_k W_k of the weights. The products V (Σ s_k W_k) and h (Σ c_k W_k), the bias
  row, batch normalisation over the 10000 rows and the rectifier then give the layer in its spectral-domain form. The
  order of operations of the program is that of the definition of the spectral form, so every identification is by
  unfolding.
-/
import proofs.«135777_j83262236000435_2_alg».proof.Proof.KerReadLayer3Pay

noncomputable section

open scoped BigOperators

namespace Cert.KernelIdeal.KerRead.L3

open Idealize.ShloMosaic Idealize.ShloMosaic.ValueIdx
open Cert.Lib.ChebSpectralE Cert.Lib.BatchNorm Cert.Lib.ChebLayers
open Cert.KernelIdeal.KerRead

/-! ## The pieces of the spectral form

The spectral form of the filter is assembled from: M = D V; x̂ = eigs ⊙ (D x); the iterates s₀ = 0, s₁ = x̂,
s₂ … s₅ of the recurrence; the sum Σ s_k W_k; and the combination Σ c_k W_k of the weights. -/

section Pieces
variable {n s p q : Type*} [Fintype n] [Fintype s] [Fintype p] [Fintype q]

def specM (V : n → s → EReal) (D : s → n → EReal) : s → s → EReal := mmE D V
def specXh (D : s → n → EReal) (e : s → EReal) (X : n → p → EReal) : s → p → EReal := fun a j => e a * mmE D X a j
def specS0 : s → p → EReal := fun _ _ => ((0 : ℝ) : EReal)
def specS2 (V : n → s → EReal) (D : s → n → EReal) (e : s → EReal) (X : n → p → EReal) : s → p → EReal :=
  stepSE (specM V D) e (specXh D e X) 0 specS0 (specXh D e X)
def specS3 (V : n → s → EReal) (D : s → n → EReal) (e : s → EReal) (X : n → p → EReal) : s → p → EReal :=
  stepSE (specM V D) e (specXh D e X) (-2) (specXh D e X) (specS2 V D e X)
def specS4 (V : n → s → EReal) (D : s → n → EReal) (e : s → EReal) (X : n → p → EReal) : s → p → EReal :=
  stepSE (specM V D) e (specXh D e X) 0 (specS2 V D e X) (specS3 V D e X)
def specS5 (V : n → s → EReal) (D : s → n → EReal) (e : s → EReal) (X : n → p → EReal) : s → p → EReal :=
  stepSE (specM V D) e (specXh D e X) 2 (specS3 V D e X) (specS4 V D e X)
def specAcc (V : n → s → EReal) (D : s → n → EReal) (e : s → EReal) (X : n → p → EReal) (W : Fin 6 → p → q → EReal) : s → q → EReal :=
  fun a j => mmE (specS0 (s := s) (p := p)) (W 0) a j + mmE (specXh D e X) (W 1) a j + mmE (specS2 V D e X) (W 2) a j
    + mmE (specS3 V D e X) (W 3) a j + mmE (specS4 V D e X) (W 4) a j + mmE (specS5 V D e X) (W 5) a j
def specWbar (W : Fin 6 → p → q → EReal) : p → q → EReal :=
  fun k j => ((1 : ℝ) : EReal) * W 0 k j + ((0 : ℝ) : EReal) * W 1 k j + (((-1 : ℝ)) : EReal) * W 2 k j
    + ((0 : ℝ) : EReal) * W 3 k j + ((1 : ℝ) : EReal) * W 4 k j + ((0 : ℝ) : EReal) * W 5 k j

/-- The spectral form of the filter is the product of V with the accumulated sum plus the product of x with the combined weights. -/
theorem kerOutE_eq_pieces (V : n → s → EReal) (D : s → n → EReal) (e : s → EReal) (X : n → p → EReal) (W : Fin 6 → p → q → EReal) :
    kerOutE V D e X W = fun i j => mmE V (specAcc V D e X W) i j + mmE X (specWbar W) i j := rfl

end Pieces

/-! ## Each value of the layer is one of the pieces -/

section Chain
variable (x1 : Vec Ideal S10000x64 .f32) (x2 : Vec Ideal S64x10000 .f32) (x3 : Vec Ideal S64x1 .f32)
    (y2 : FVec Ideal S10000x64 .f32) (g2r b2r : FVec Ideal S1x64 .f32) (w0 w1 w2 w3 w4 w5 : Vec Ideal S1x64x128 .f32)

theorem c5 : mat2 (Gen.k0_pay5 (F := Ideal) x1 x2) = specM (mat2 x1) (mat2 x2) := pay5_mat x1 x2

theorem c39 : mat2 (Gen.k0_pay39 (F := Ideal)) = specS0 := pay39_mat

theorem c38 : mat2 (Gen.k0_pay38 (F := Ideal) (Gen.k0_pay2 (F := Ideal) x3) (Gen.k0_pay4 (F := Ideal) x2) g2r b2r y2) = specXh (mat2 x2) (col x3) (mat2 (Gen.k0_pay37 (F := Ideal) g2r b2r y2)) := by
  rw [pay38_mat, pay2_col, pay4_mat]
  rfl

theorem c42 : mat2 (Gen.k0_pay42 (F := Ideal) (Gen.k0_pay2 (F := Ideal) x3) (Gen.k0_pay4 (F := Ideal) x2) (Gen.k0_pay5 (F := Ideal) x1 x2) g2r b2r y2) = specS2 (mat2 x1) (mat2 x2) (col x3) (mat2 (Gen.k0_pay37 (F := Ideal) g2r b2r y2)) := by
  rw [pay42_mat, c5, pay2_col, c38, c39]
  rfl

theorem c43 : mat2 (Gen.k0_pay43 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay42 (F := Ideal) (Gen.k0_pay2 (F := Ideal) x3) (Gen.k0_pay4 (F := Ideal) x2) (Gen.k0_pay5 (F := Ideal) x1 x2) g2r b2r y2)) = specS3 (mat2 x1) (mat2 x2) (col x3) (mat2 (Gen.k0_pay37 (F := Ideal) g2r b2r y2)) := by
  rw [pay43_mat, c5, pay2_col, c38, c42]
  rfl

theorem c46 : mat2 (Gen.k0_pay46 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay42 (F := Ideal) (Gen.k0_pay2 (F := Ideal) x3) (Gen.k0_pay4 (F := Ideal) x2) (Gen.k0_pay5 (F := Ideal) x1 x2) g2r b2r y2)) = specS4 (mat2 x1) (mat2 x2) (col x3) (mat2 (Gen.k0_pay37 (F := Ideal) g2r b2r y2)) := by
  rw [pay46_mat, c5, pay2_col, c38, c42, c43]
  rfl

theorem c40 : mat2 (Gen.k0_pay40 (F := Ideal) (Gen.k0_pay2 (F := Ideal) x3) (Gen.k0_pay4 (F := Ideal) x2) g2r b2r y2 w0 w1)
    = fun a j => mmE (specS0 (s := Fin 64) (p := Fin 64)) (slab w0) a j + mmE (specXh (mat2 x2) (col x3) (mat2 (Gen.k0_pay37 (F := Ideal) g2r b2r y2))) (slab w1) a j := by
  rw [pay40_mat, c39, c38]

theorem c44 : mat2 (Gen.k0_pay44 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay40 (F := Ideal) (Gen.k0_pay2 (F := Ideal) x3) (Gen.k0_pay4 (F := Ideal) x2) g2r b2r y2 w0 w1) (Gen.k0_pay42 (F := Ideal) (Gen.k0_pay2 (F := Ideal) x3) (Gen.k0_pay4 (F := Ideal) x2) (Gen.k0_pay5 (F := Ideal) x1 x2) g2r b2r y2) w2 w3)
    = fun a j => mmE (specS0 (s := Fin 64) (p := Fin 64)) (slab w0) a j + mmE (specXh (mat2 x2) (col x3) (mat2 (Gen.k0_pay37 (F := Ideal) g2r b2r y2))) (slab w1) a j
        + mmE (specS2 (mat2 x1) (mat2 x2) (col x3) (mat2 (Gen.k0_pay37 (F := Ideal) g2r b2r y2))) (slab w2) a j + mmE (specS3 (mat2 x1) (mat2 x2) (col x3) (mat2 (Gen.k0_pay37 (F := Ideal) g2r b2r y2))) (slab w3) a j := by
  rw [pay44_mat, c40, c42, c43]

theorem c50 : mat2 (Gen.k0_pay50 (F := Ideal) (Gen.k0_pay2 (F := Ideal) x3) (Gen.k0_pay3 (F := Ideal) x1) (Gen.k0_pay5 (F := Ideal) x1 x2) (Gen.k0_pay38 (F := Ideal) (Gen.k0_pay2 (F := Ideal) x3) (Gen.k0_pay4 (F := Ideal) x2) g2r b2r y2) (Gen.k0_pay43 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay42 (F := Ideal) (Gen.k0_pay2 (F := Ideal) x3) (Gen.k0_pay4 (F := Ideal) x2) (Gen.k0_pay5 (F := Ideal) x1 x2) g2r b2r y2)) (Gen.k0_pay44 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay40 (F := Ideal) (Gen.k0_pay2 (F := Ideal) x3) (Gen.k0_pay4 (F := Ideal) x2) g2r b2r y2 w0 w1) (Gen.k0_pay42 (F := Ideal) (Gen.k0_pay2 (F := Ideal) x3) (Gen.k0_pay4 (F := Ideal) x2) (Gen.k0_pay5 (F := Ideal) x1 x2) g2r b2r y2) w2 w3) (Gen.k0_pay46 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay42 (F := Ideal) (Gen.k0_pay2 (F := Ideal) x3) (Gen.k0_pay4 (F := Ideal) x2) (Gen.k0_pay5 (F := Ideal) x1 x2) g2r b2r y2)) w4 w5)
    = mmE (mat2 x1) (specAcc (mat2 x1) (mat2 x2) (col x3) (mat2 (Gen.k0_pay37 (F := Ideal) g2r b2r y2)) (wslab w0 w1 w2 w3 w4 w5)) := by
  funext i j
  rw [mat2_apply, pay50_apply, pay3_mat, c44, c46, c5, pay2_col, c38, c43]
  rfl

theorem c51 : mat2 (Gen.k0_pay51 (F := Ideal) (Gen.k0_pay37 (F := Ideal) g2r b2r y2) (Gen.k0_pay45 (F := Ideal) (Gen.k0_pay41 (F := Ideal) w0 w1) w2 w3) w4 w5)
    = mmE (mat2 (Gen.k0_pay37 (F := Ideal) g2r b2r y2)) (specWbar (wslab w0 w1 w2 w3 w4 w5)) := by
  funext i j
  rw [mat2_apply, pay51_apply, pay45_mat, pay41_mat]
  rfl

end Chain

end Cert.KernelIdeal.KerRead.L3

namespace Cert.KernelIdeal.KerRead

open Idealize.ShloMosaic Idealize.ShloMosaic.ValueIdx
open Cert.Lib.ChebSpectralE Cert.Lib.BatchNorm Cert.Lib.ChebLayers

/-! ## The layer -/

/-- The third layer's output as the layer's values compose, over the second layer's filter output `y2`, scale row `g2r`
    and shift row `b2r`: batch normalisation and rectifier of the spectral filter output plus bias. -/
def kerLayer3 (x1 : Vec Ideal S10000x64 .f32) (x2 : Vec Ideal S64x10000 .f32) (x3 : Vec Ideal S64x1 .f32)
    (y2 : FVec Ideal S10000x64 .f32) (g2r b2r : FVec Ideal S1x64 .f32) (w0 w1 w2 w3 w4 w5 : Vec Ideal S1x64x128 .f32)
    (cbv gv bv : Vec Ideal S1x128 .f32) : FVec Ideal S10000x128 .f32 :=
  (Gen.k0_pay1 (F := Ideal) (Gen.k0_pay47 (F := Ideal) cbv) (Gen.k0_pay48 (F := Ideal) gv) (Gen.k0_pay49 (F := Ideal) bv) (Gen.k0_pay50 (F := Ideal) (Gen.k0_pay2 (F := Ideal) x3) (Gen.k0_pay3 (F := Ideal) x1) (Gen.k0_pay5 (F := Ideal) x1 x2) (Gen.k0_pay38 (F := Ideal) (Gen.k0_pay2 (F := Ideal) x3) (Gen.k0_pay4 (F := Ideal) x2) g2r b2r y2) (Gen.k0_pay43 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay42 (F := Ideal) (Gen.k0_pay2 (F := Ideal) x3) (Gen.k0_pay4 (F := Ideal) x2) (Gen.k0_pay5 (F := Ideal) x1 x2) g2r b2r y2)) (Gen.k0_pay44 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay40 (F := Ideal) (Gen.k0_pay2 (F := Ideal) x3) (Gen.k0_pay4 (F := Ideal) x2) g2r b2r y2 w0 w1) (Gen.k0_pay42 (F := Ideal) (Gen.k0_pay2 (F := Ideal) x3) (Gen.k0_pay4 (F := Ideal) x2) (Gen.k0_pay5 (F := Ideal) x1 x2) g2r b2r y2) w2 w3) (Gen.k0_pay46 (F := Ideal) (Gen.k0_pay2 (F := Ideal) x3) (Gen.k0_pay5 (F := Ideal) x1 x2) (Gen.k0_pay38 (F := Ideal) (Gen.k0_pay2 (F := Ideal) x3) (Gen.k0_pay4 (F := Ideal) x2) g2r b2r y2) (Gen.k0_pay42 (F := Ideal) (Gen.k0_pay2 (F := Ideal) x3) (Gen.k0_pay4 (F := Ideal) x2) (Gen.k0_pay5 (F := Ideal) x1 x2) g2r b2r y2)) w4 w5) (Gen.k0_pay51 (F := Ideal) (Gen.k0_pay37 (F := Ideal) g2r b2r y2) (Gen.k0_pay45 (F := Ideal) (Gen.k0_pay41 (F := Ideal) w0 w1) w2 w3) w4 w5))

/-- The third layer read at `(i, j)` is the spectral-domain layer of the entrywise arrays: V, D, the eigenvalue column, the
    previous layer's output, the six weight slabs, the bias row, the row count 10000 and ε as their f32 patterns, the
    scale row and the shift row. -/
theorem kerLayer3_apply' (x1 : Vec Ideal S10000x64 .f32) (x2 : Vec Ideal S64x10000 .f32) (x3 : Vec Ideal S64x1 .f32)
    (y2 : FVec Ideal S10000x64 .f32) (g2r b2r : FVec Ideal S1x64 .f32) (w0 w1 w2 w3 w4 w5 : Vec Ideal S1x64x128 .f32)
    (cbv gv bv : Vec Ideal S1x128 .f32) (i : Fin 10000) (j : Fin 128) :
    kerLayer3 x1 x2 x3 y2 g2r b2r w0 w1 w2 w3 w4 w5 cbv gv bv (ix2 i j)
      = layerKerE (mat2 x1) (mat2 x2) (col x3) (mat2 (Gen.k0_pay37 (F := Ideal) g2r b2r y2)) (wslab w0 w1 w2 w3 w4 w5) (row cbv)
          (Ideal.ofBits .f32 0x461C4000#32) (Ideal.ofBits .f32 0x3A83126F#32) (row gv) (row bv) i j := by
  unfold kerLayer3
  rw [L3.pay1_apply, L3.pay47_row, L3.pay48_row, L3.pay49_row, L3.c50, L3.c51]
  rfl

/-- The same with every entrywise array written out, the row count and ε as the numbers their patterns denote. The
    weight family picks slab `k` of `![w0, …, w5]`; the input is the previous layer's output as the program forms it. -/
theorem kerLayer3_read (x1 : Vec Ideal S10000x64 .f32) (x2 : Vec Ideal S64x10000 .f32) (x3 : Vec Ideal S64x1 .f32)
    (y2 : FVec Ideal S10000x64 .f32) (g2r b2r : FVec Ideal S1x64 .f32) (w0 w1 w2 w3 w4 w5 : Vec Ideal S1x64x128 .f32)
    (cbv gv bv : Vec Ideal S1x128 .f32) (i : Fin 10000) (j : Fin 128) :
    kerLayer3 x1 x2 x3 y2 g2r b2r w0 w1 w2 w3 w4 w5 cbv gv bv (ix2 i j)
      = layerKerE (fun i a => x1 (ix2 i a)) (fun a l => x2 (ix2 a l)) (fun a => x3 (ix2 a (0 : Fin 1)))
          (fun l j => (Gen.k0_pay37 (F := Ideal) g2r b2r y2) (ix2 l j))
          (fun k a b => wsel w0 w1 w2 w3 w4 w5 k (ix3 (0 : Fin 1) a b)) (fun j => cbv (ix2 (0 : Fin 1) j))
          ((10000 : ℝ) : EReal) (((8589935 : ℝ) / 2 ^ 33 : ℝ) : EReal)
          (fun j => gv (ix2 (0 : Fin 1) j)) (fun j => bv (ix2 (0 : Fin 1) j)) i j := by
  have h := kerLayer3_apply' x1 x2 x3 y2 g2r b2r w0 w1 w2 w3 w4 w5 cbv gv bv i j
  rw [lit_N, lit_eps] at h
  exact h

end Cert.KernelIdeal.KerRead

end
-- ==== Proof.KerCompose.lean ====
/-
  What the first region's body leaves in its output block, read at an index, is the chain of three spectral-domain layers.

  The body's result is the third layer's output. The third layer takes as its input the second layer's output, which it
  keeps as the value the program forms from the second layer's centred and rescaled filter output, scale row and shift
  row; the second layer takes the first layer's output h and the projection x̂ = eigs ⊙ (D h) the program forms of it.
  Written with the three layers' definitions the result is one composition over the sixteen loaded blocks, and it is the
  body's composition by unfolding. Each layer, read at an index, is the spectral-domain layer of the entrywise arrays with
  the previous layer's output as input; three arrays each of which is the layer of the one before make the chain of three
  layers. Finally each load is read: a whole block at zero offsets is the block, and slab k of a weight stack at (0, a, b)
  is the stack at (k, a, b); the row count's pattern denotes 10000 and ε's pattern denotes 8589935 / 2³³.
-/
import proofs.«135777_j83262236000435_2_alg».proof.Proof.KerReadLayer1
import proofs.«135777_j83262236000435_2_alg».proof.Proof.KerReadLayer2
import proofs.«135777_j83262236000435_2_alg».proof.Proof.KerReadLayer3
import proofs.«135777_j83262236000435_2_alg».proof.Proof.Region0Dag
import proofs.«135777_j83262236000435_2_alg».proof.Proof.Region0Views

set_option maxRecDepth 16384

noncomputable section

open scoped BigOperators

namespace Cert.KernelIdeal.KerRead

open Idealize.ShloMosaic Idealize.ShloMosaic.ValueIdx
open Cert.Lib.ChebSpectralE Cert.Lib.BatchNorm Cert.Lib.ChebLayers

/-! ## Three arrays, each the layer of the one before -/

/-- Three arrays, each the spectral-domain layer of the one before, make the chain of three layers. -/
theorem compose3 {n s p0 p1 p2 p3 : Type*} [Fintype n] [Fintype s] [Fintype p0] [Fintype p1] [Fintype p2] [Fintype p3]
    (V : n → s → EReal) (D : s → n → EReal) (e : s → EReal) (X : n → p0 → EReal) (N eps : EReal)
    (W1 : Fin 6 → p0 → p1 → EReal) (cb1 g1 b1 : p1 → EReal)
    (W2 : Fin 6 → p1 → p2 → EReal) (cb2 g2 b2 : p2 → EReal)
    (W3 : Fin 6 → p2 → p3 → EReal) (cb3 g3 b3 : p3 → EReal)
    (H1 : n → p1 → EReal) (H2 : n → p2 → EReal) (H3 : n → p3 → EReal)
    (h1 : ∀ i j, H1 i j = layerKerE V D e X W1 cb1 N eps g1 b1 i j)
    (h2 : ∀ i j, H2 i j = layerKerE V D e H1 W2 cb2 N eps g2 b2 i j)
    (h3 : ∀ i j, H3 i j = layerKerE V D e H2 W3 cb3 N eps g3 b3 i j) (i : n) (j : p3) :
    H3 i j = net3KerE V D e X N eps W1 cb1 g1 b1 W2 cb2 g2 b2 W3 cb3 g3 b3 i j := by
  have e1 : H1 = layerKerE V D e X W1 cb1 N eps g1 b1 := funext fun i => funext fun j => h1 i j
  have e2 : H2 = layerKerE V D e H1 W2 cb2 N eps g2 b2 := funext fun i => funext fun j => h2 i j
  rw [h3, e2, e1]
  rfl

/-! ## The second layer's projection of the first layer's output -/

/-- The projection x̂ = eigs ⊙ (D h) of the first layer's output h, as the program forms it. -/
def kerXh2 (x0 x1 : Vec Ideal S10000x64 .f32) (x2 : Vec Ideal S64x10000 .f32) (x3 : Vec Ideal S64x1 .f32) (w0 w1 w2 w3 w4 w5 : Vec Ideal S1x64x64 .f32) (cbv gv bv : Vec Ideal S1x64 .f32) : FVec Ideal S64x64 .f32 :=
  Gen.k0_pay21 (F := Ideal) (Gen.k0_pay2 (F := Ideal) x3) (Gen.k0_pay3 (F := Ideal) x1) (Gen.k0_pay4 (F := Ideal) x2) (Gen.k0_pay6 (F := Ideal) x0) (Gen.k0_pay17 (F := Ideal) (Gen.k0_pay2 (F := Ideal) x3) (Gen.k0_pay5 (F := Ideal) x1 x2) (Gen.k0_pay7 (F := Ideal) x2 x3 x0) (Gen.k0_pay12 (F := Ideal) (Gen.k0_pay2 (F := Ideal) x3) (Gen.k0_pay7 (F := Ideal) x2 x3 x0) (Gen.k0_pay8 (F := Ideal)) (Gen.k0_pay11 (F := Ideal) x1 x2 x3 x0)) (Gen.k0_pay13 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) (Gen.k0_pay14 (F := Ideal) (Gen.k0_pay2 (F := Ideal) x3) (Gen.k0_pay5 (F := Ideal) x1 x2) (Gen.k0_pay7 (F := Ideal) x2 x3 x0) (Gen.k0_pay8 (F := Ideal)) (Gen.k0_pay9 (F := Ideal) x2 x3 x0 w0 w1) (Gen.k0_pay11 (F := Ideal) x1 x2 x3 x0) w2 w3) (Gen.k0_pay16 (F := Ideal) (Gen.k0_pay2 (F := Ideal) x3) (Gen.k0_pay5 (F := Ideal) x1 x2) (Gen.k0_pay7 (F := Ideal) x2 x3 x0) (Gen.k0_pay8 (F := Ideal)) (Gen.k0_pay11 (F := Ideal) x1 x2 x3 x0)) w4 w5) (Gen.k0_pay18 (F := Ideal) (Gen.k0_pay15 (F := Ideal) (Gen.k0_pay10 (F := Ideal) w0 w1) w2 w3) w4 w5) (Gen.k0_pay19 (F := Ideal) cbv) gv bv

theorem kerXh2_mat (x0 x1 : Vec Ideal S10000x64 .f32) (x2 : Vec Ideal S64x10000 .f32) (x3 : Vec Ideal S64x1 .f32) (w0 w1 w2 w3 w4 w5 : Vec Ideal S1x64x64 .f32) (cbv gv bv : Vec Ideal S1x64 .f32) :
    mat2 (kerXh2 x0 x1 x2 x3 w0 w1 w2 w3 w4 w5 cbv gv bv)
      = specXh (mat2 x2) (col x3) (mat2 (kerLayer1 x0 x1 x2 x3 w0 w1 w2 w3 w4 w5 cbv gv bv)) := by
  funext a j
  rw [mat2_apply]
  unfold kerXh2
  rw [pay21_read]
  show col (Gen.k0_pay2 (F := Ideal) x3) a * _ = _
  rw [pay2_col]
  rfl

/-! ## The body's result over the loaded blocks -/

/-- The third layer's result as the three layers compose, over the loaded blocks. -/
def sharedCore (X0 X1 : Vec Ideal S10000x64 .f32) (X2 : Vec Ideal S64x10000 .f32) (X3 : Vec Ideal S64x1 .f32)
    (A0 A1 A2 A3 A4 A5 : Vec Ideal S1x64x64 .f32) (X5 X6 X7 : Vec Ideal S1x64 .f32)
    (B0 B1 B2 B3 B4 B5 : Vec Ideal S1x64x64 .f32) (X9 X10 X11 : Vec Ideal S1x64 .f32)
    (C0 C1 C2 C3 C4 C5 : Vec Ideal S1x64x128 .f32) (X13 X14 X15 : Vec Ideal S1x128 .f32) : FVec Ideal S10000x128 .f32 :=
  kerLayer3 X1 X2 X3
    (kerOut2 X1 X2 X3 (kerLayer1 X0 X1 X2 X3 A0 A1 A2 A3 A4 A5 X5 X6 X7) (kerXh2 X0 X1 X2 X3 A0 A1 A2 A3 A4 A5 X5 X6 X7) B0 B1 B2 B3 B4 B5 X9)
    (Gen.k0_pay34 (F := Ideal) X10) (Gen.k0_pay35 (F := Ideal) X11) C0 C1 C2 C3 C4 C5 X13 X14 X15

/-- What the body leaves is that composition of the three layers over its loads. -/
theorem shared_fold (x0 x1 : Vec Ideal S10000x64 .f32) (x2 : Vec Ideal S64x10000 .f32) (x3 : Vec Ideal S64x1 .f32) (x4 : Vec Ideal S6x64x64 .f32) (x5 x6 x7 : Vec Ideal S1x64 .f32) (x8 : Vec Ideal S6x64x64 .f32) (x9 x10 x11 : Vec Ideal S1x64 .f32) (x12 : Vec Ideal S6x64x128 .f32) (x13 x14 x15 : Vec Ideal S1x128 .f32) :
    Cert.KernelIdeal.Region0.shared (F := Ideal) x0 x1 x2 x3 x4 x5 x6 x7 x8 x9 x10 x11 x12 x13 x14 x15
      = sharedCore (View.ld x0 Gen.r0_0) (View.ld x1 Gen.r0_0) (View.ld x2 Gen.r0_1) (View.ld x3 Gen.r0_2) (View.ld x4 Gen.r0_3) (View.ld x4 Gen.r0_4) (View.ld x4 Gen.r0_5) (View.ld x4 Gen.r0_6) (View.ld x4 Gen.r0_7) (View.ld x4 Gen.r0_8) (View.ld x5 Gen.r0_9) (View.ld x6 Gen.r0_9) (View.ld x7 Gen.r0_9) (View.ld x8 Gen.r0_3) (View.ld x8 Gen.r0_4) (View.ld x8 Gen.r0_5) (View.ld x8 Gen.r0_6) (View.ld x8 Gen.r0_7) (View.ld x8 Gen.r0_8) (View.ld x9 Gen.r0_9) (View.ld x10 Gen.r0_9) (View.ld x11 Gen.r0_9) (View.ld x12 Gen.r0_10) (View.ld x12 Gen.r0_11) (View.ld x12 Gen.r0_12) (View.ld x12 Gen.r0_13) (View.ld x12 Gen.r0_14) (View.ld x12 Gen.r0_15) (View.ld x13 Gen.r0_16) (View.ld x14 Gen.r0_16) (View.ld x15 Gen.r0_16) := rfl

/-- Over the loaded blocks the result, read at `(i, j)`, is the chain of three spectral-domain layers of the entrywise arrays. -/
theorem sharedCore_read (X0 X1 : Vec Ideal S10000x64 .f32) (X2 : Vec Ideal S64x10000 .f32) (X3 : Vec Ideal S64x1 .f32)
    (A0 A1 A2 A3 A4 A5 : Vec Ideal S1x64x64 .f32) (X5 X6 X7 : Vec Ideal S1x64 .f32)
    (B0 B1 B2 B3 B4 B5 : Vec Ideal S1x64x64 .f32) (X9 X10 X11 : Vec Ideal S1x64 .f32)
    (C0 C1 C2 C3 C4 C5 : Vec Ideal S1x64x128 .f32) (X13 X14 X15 : Vec Ideal S1x128 .f32) (i : Fin 10000) (j : Fin 128) :
    sharedCore X0 X1 X2 X3 A0 A1 A2 A3 A4 A5 X5 X6 X7 B0 B1 B2 B3 B4 B5 X9 X10 X11 C0 C1 C2 C3 C4 C5 X13 X14 X15 (ix2 i j)
      = net3KerE (mat2 X1) (mat2 X2) (col X3) (mat2 X0) (Ideal.ofBits .f32 0x461C4000#32) (Ideal.ofBits .f32 0x3A83126F#32)
          (wslab A0 A1 A2 A3 A4 A5) (row X5) (row X6) (row X7)
          (wslab B0 B1 B2 B3 B4 B5) (row X9) (row X10) (row X11)
          (wslab C0 C1 C2 C3 C4 C5) (row X13) (row X14) (row X15) i j := by
  refine compose3 (mat2 X1) (mat2 X2) (col X3) (mat2 X0) (Ideal.ofBits .f32 0x461C4000#32) (Ideal.ofBits .f32 0x3A83126F#32)
    (wslab A0 A1 A2 A3 A4 A5) (row X5) (row X6) (row X7)
    (wslab B0 B1 B2 B3 B4 B5) (row X9) (row X10) (row X11)
    (wslab C0 C1 C2 C3 C4 C5) (row X13) (row X14) (row X15)
    (mat2 (kerLayer1 X0 X1 X2 X3 A0 A1 A2 A3 A4 A5 X5 X6 X7))
    (mat2 (Gen.k0_pay37 (F := Ideal) (Gen.k0_pay34 (F := Ideal) X10) (Gen.k0_pay35 (F := Ideal) X11) (kerOut2 X1 X2 X3 (kerLayer1 X0 X1 X2 X3 A0 A1 A2 A3 A4 A5 X5 X6 X7) (kerXh2 X0 X1 X2 X3 A0 A1 A2 A3 A4 A5 X5 X6 X7) B0 B1 B2 B3 B4 B5 X9)))
    (mat2 (sharedCore X0 X1 X2 X3 A0 A1 A2 A3 A4 A5 X5 X6 X7 B0 B1 B2 B3 B4 B5 X9 X10 X11 C0 C1 C2 C3 C4 C5 X13 X14 X15))
    (fun i j => kerLayer1_apply' X0 X1 X2 X3 A0 A1 A2 A3 A4 A5 X5 X6 X7 i j)
    (fun i j => ?_) (fun i j => ?_) i j
  · rw [mat2_apply, kerLayer2_apply' X1 X2 X3 (kerLayer1 X0 X1 X2 X3 A0 A1 A2 A3 A4 A5 X5 X6 X7) (kerXh2 X0 X1 X2 X3 A0 A1 A2 A3 A4 A5 X5 X6 X7) B0 B1 B2 B3 B4 B5 X9 _ _
      (kerXh2_mat X0 X1 X2 X3 A0 A1 A2 A3 A4 A5 X5 X6 X7) i j, pay34_row, pay35_row]
  · rw [mat2_apply]
    exact kerLayer3_apply' X1 X2 X3 _ _ _ C0 C1 C2 C3 C4 C5 X13 X14 X15 i j

/-! ## The loads -/

/-- The six slab loads of a stack of 64 × 64 matrices, as a family, are the stack's matrices. -/
theorem wslab_ld64 (W : Vec Ideal S6x64x64 .f32) :
    wslab (View.ld W Gen.r0_3) (View.ld W Gen.r0_4) (View.ld W Gen.r0_5) (View.ld W Gen.r0_6) (View.ld W Gen.r0_7) (View.ld W Gen.r0_8) = fun k a b => W (ix3 k a b) := by
  funext k a b
  fin_cases k
  · exact Cert.KernelIdeal.Region0.ld_r0_3 W a b
  · exact Cert.KernelIdeal.Region0.ld_r0_4 W a b
  · exact Cert.KernelIdeal.Region0.ld_r0_5 W a b
  · exact Cert.KernelIdeal.Region0.ld_r0_6 W a b
  · exact Cert.KernelIdeal.Region0.ld_r0_7 W a b
  · exact Cert.KernelIdeal.Region0.ld_r0_8 W a b

/-- The six slab loads of a stack of 64 × 128 matrices, as a family, are the stack's matrices. -/
theorem wslab_ld128 (W : Vec Ideal S6x64x128 .f32) :
    wslab (View.ld W Gen.r0_10) (View.ld W Gen.r0_11) (View.ld W Gen.r0_12) (View.ld W Gen.r0_13) (View.ld W Gen.r0_14) (View.ld W Gen.r0_15) = fun k a b => W (ix3 k a b) := by
  funext k a b
  fin_cases k
  · exact Cert.KernelIdeal.Region0.ld_r0_10 W a b
  · exact Cert.KernelIdeal.Region0.ld_r0_11 W a b
  · exact Cert.KernelIdeal.Region0.ld_r0_12 W a b
  · exact Cert.KernelIdeal.Region0.ld_r0_13 W a b
  · exact Cert.KernelIdeal.Region0.ld_r0_14 W a b
  · exact Cert.KernelIdeal.Region0.ld_r0_15 W a b

/-- ε as the reference side writes it. -/
theorem eps_spelling : ((8589935 : ℝ) / 2 ^ 33 : ℝ) = (8589935 : ℝ) / 8589934592 := by norm_num

/-! ## What the body leaves, read at an index -/

/-- What the first region's body leaves in its output block, read at `(i, j)`, is the chain of three spectral-domain layers of
    the sixteen input blocks read entrywise, with the row count 10000 and ε = 8589935 / 8589934592. -/
theorem shared_read (x0 x1 : Vec Ideal S10000x64 .f32) (x2 : Vec Ideal S64x10000 .f32) (x3 : Vec Ideal S64x1 .f32) (x4 : Vec Ideal S6x64x64 .f32) (x5 x6 x7 : Vec Ideal S1x64 .f32) (x8 : Vec Ideal S6x64x64 .f32) (x9 x10 x11 : Vec Ideal S1x64 .f32) (x12 : Vec Ideal S6x64x128 .f32) (x13 x14 x15 : Vec Ideal S1x128 .f32) (i : Fin 10000) (j : Fin 128) :
    Cert.KernelIdeal.Region0.shared (F := Ideal) x0 x1 x2 x3 x4 x5 x6 x7 x8 x9 x10 x11 x12 x13 x14 x15 (ix2 i j)
      = net3KerE (fun i a => x1 (ix2 i a)) (fun a l => x2 (ix2 a l)) (fun a => x3 (ix2 a (0 : Fin 1))) (fun l j => x0 (ix2 l j))
          ((10000 : ℝ) : EReal) (((8589935 : ℝ) / 8589934592 : ℝ) : EReal)
          (fun k a b => x4 (ix3 k a b)) (fun j => x5 (ix2 (0 : Fin 1) j)) (fun j => x6 (ix2 (0 : Fin 1) j)) (fun j => x7 (ix2 (0 : Fin 1) j))
          (fun k a b => x8 (ix3 k a b)) (fun j => x9 (ix2 (0 : Fin 1) j)) (fun j => x10 (ix2 (0 : Fin 1) j)) (fun j => x11 (ix2 (0 : Fin 1) j))
          (fun k a b => x12 (ix3 k a b)) (fun j => x13 (ix2 (0 : Fin 1) j)) (fun j => x14 (ix2 (0 : Fin 1) j)) (fun j => x15 (ix2 (0 : Fin 1) j)) i j := by
  rw [shared_fold, sharedCore_read, wslab_ld64, wslab_ld64, wslab_ld128,
    Cert.KernelIdeal.Region0.ld_r0_0, Cert.KernelIdeal.Region0.ld_r0_0, Cert.KernelIdeal.Region0.ld_r0_1,
    Cert.KernelIdeal.Region0.ld_r0_2, Cert.KernelIdeal.Region0.ld_r0_9, Cert.KernelIdeal.Region0.ld_r0_9,
    Cert.KernelIdeal.Region0.ld_r0_9, Cert.KernelIdeal.Region0.ld_r0_9, Cert.KernelIdeal.Region0.ld_r0_9,
    Cert.KernelIdeal.Region0.ld_r0_9, Cert.KernelIdeal.Region0.ld_r0_16, Cert.KernelIdeal.Region0.ld_r0_16,
    Cert.KernelIdeal.Region0.ld_r0_16, lit_N, lit_eps, eps_spelling]
  rfl

end Cert.KernelIdeal.KerRead

end
-- ==== Proof.KernelCore.lean ====
/-
  The kernel half of the core equation.

  What the first region leaves is its body's function of the sixteen entry arrays; with the shared values named it is the
  eighty-line composition; read at an index that composition is the three kernel-form layers of the views of those
  arrays; and the entry arrays that are reshaped copies of vectors — the eigenvalues as a column, each bias, scale and
  shift as a row — have the vectors' entries. So the body's function of (prologue value, basis, dual, eigenvalue column,
  weight stacks, rows) at row i and column j is the three kernel-form layers of the arrays' entries.
-/
import proofs.«135777_j83262236000435_2_alg».proof.Proof.CoreFromReads
import proofs.«135777_j83262236000435_2_alg».proof.Proof.Region0Fold
import proofs.«135777_j83262236000435_2_alg».proof.Proof.Region0Views
import proofs.«135777_j83262236000435_2_alg».proof.Proof.KerCompose

set_option maxRecDepth 16384
set_option pp.maxSteps 4000
set_option pp.deepTerms false

noncomputable section

namespace Cert.Proof.Values

open Idealize.ShloMosaic Idealize.ShloMosaic.TcCoe Idealize.SL.Sem Idealize.ShloMosaic.ValueIdx
open Cert.KernelIdeal Cert.KernelIdeal.Gen

/-- The first region's body, on the prologue's value, the spectral data and the weights, read at an index. -/
theorem kernel_net3_read : KernelNet3Read := by
  intro h0 V D eigs W1 W2 W3 cb1 g1 b1 cb2 g2 b2 cb3 g3 b3 i j
  rw [Cert.KernelIdeal.Region0.out0_16_eq_shared, Cert.KernelIdeal.KerRead.shared_read]
  simp only [Cert.KernelIdeal.Region0.castCol64_apply, Cert.KernelIdeal.Region0.castRow64_apply, Cert.KernelIdeal.Region0.castRow128_apply]

/-- The core equation. -/
theorem core : Core := core_of_reads kernel_net3_read

/-- On finite inputs the first region leaves the three reference layers of the prologue's value. -/
theorem region0Layers : Region0Layers := region0Layers_of_core core

end Cert.Proof.Values

end
-- ==== Proof.lean ====
/-
  Equivalence, over the extended reals, of a fused graph-network kernel program and its plain reference.

  Both programs map a vertex feature matrix x (10000 × 352), a spectral basis V (10000 × 64) with its dual D
  (64 × 10000) and eigenvalues, and the weights of five layers to the pair (log-probabilities 10000 × 10000,
  descriptors 10000 × 256): a dense layer with batch normalisation and a rectifier; three Chebyshev filter layers
  of order six over the Laplacian L z = V (eigs ⊙ (D z)), each with batch normalisation and a rectifier; a second
  dense layer with batch normalisation and a rectifier (the descriptors); and a last dense layer followed by a
  row-wise log-softmax. The reference applies the three-term recurrence T₀ = x, T₁ = L x, T_{k+1} = 2 L T_k − T_{k−1}
  to 10000-row matrices and sums T_k W_k. The kernel program carries the recurrence in the 64-dimensional spectral
  domain: with M = D V and x̂ = eigs ⊙ (D x) it keeps T_k = V s_k + c_k x, s_{k+1} = 2 eigs ⊙ (M s_k) + 2 c_k x̂ − s_{k−1},
  c_{k+1} = −c_{k−1}, and forms V (Σ s_k W_k) + x (Σ c_k W_k); its last layer is tiled by blocks of two hundred rows.
  The two agree wherever matrix products associate and distribute, that is, on finite inputs.

  The claim has five parts: each of the three programs terminates without a fault and leaves its arguments unchanged
  (the two kernel programs by their segment-wise run, the reference by the run of its operation list); the idealized
  kernel program is the kernel program's own text read over the extended reals (no rewrite was applied, so there is
  nothing to show); and the two idealized programs end with equal results.
-/
import proofs.«135777_j83262236000435_2_alg».proof.Defs
import proofs.«135777_j83262236000435_2_alg».proof.Proof.Gen.Kernel
import proofs.«135777_j83262236000435_2_alg».proof.Proof.Gen.Kernel.Skeleton
import proofs.«135777_j83262236000435_2_alg».proof.Proof.Gen.Kernel.Launch
import proofs.«135777_j83262236000435_2_alg».proof.Proof.Gen.Kernel.Points
import proofs.«135777_j83262236000435_2_alg».proof.Proof.Gen.Kernel.Frame
import proofs.«135777_j83262236000435_2_alg».proof.Proof.Gen.KernelIdeal
import proofs.«135777_j83262236000435_2_alg».proof.Proof.Gen.KernelIdeal.Skeleton
import proofs.«135777_j83262236000435_2_alg».proof.Proof.Gen.KernelIdeal.Launch
import proofs.«135777_j83262236000435_2_alg».proof.Proof.Gen.KernelIdeal.Points
import proofs.«135777_j83262236000435_2_alg».proof.Proof.Gen.KernelIdeal.Frame
import proofs.«135777_j83262236000435_2_alg».proof.Proof.Gen.ReferenceIdeal
import proofs.«135777_j83262236000435_2_alg».proof.Proof.Gen.Pre_finite_inputs
import proofs.«135777_j83262236000435_2_alg».proof.Proof.KernelRun
import proofs.«135777_j83262236000435_2_alg».proof.Proof.RefRunFrame
import proofs.«135777_j83262236000435_2_alg».proof.Proof.Algebraic
import proofs.«135777_j83262236000435_2_alg».proof.Proof.RefGlue
import proofs.«135777_j83262236000435_2_alg».proof.Proof.Region1Logp
import proofs.«135777_j83262236000435_2_alg».proof.Proof.KernelCore
import Idealize.ShloMosaic.Adequacy
import Idealize.ShloMosaic.Init

noncomputable section

namespace Cert.Proof

open Idealize.ShloMosaic Idealize.SL.Sem Cert.Kernel

/-- The kernel program, read at machine words, terminates without a fault and leaves its arguments unchanged. -/
theorem frame_kernel : @Cert.frame_Kernel Cert.Kernel.Gen.facts Cert.Pre_finite_inputs.Gen.facts :=
  fun m ρ _ => Cert.Kernel.Gen.frame m ρ

/-- The same program read over the extended reals terminates without a fault and leaves its arguments unchanged. -/
theorem frame_kernelIdeal : @Cert.frame_KernelIdeal Cert.KernelIdeal.Gen.facts Cert.Pre_finite_inputs.Gen.facts :=
  fun m ρ _ => Cert.KernelIdeal.Gen.frame m ρ

/-- No operation of the kernel program was rewritten when it was read over the extended reals. -/
theorem preserves : Cert.preserves_Kernel_KernelIdeal := trivial

/-- The reference terminates without a fault and leaves its arguments unchanged: its operation list run in order. -/
theorem frame_reference : @Cert.frame_ReferenceIdeal Cert.ReferenceIdeal.Gen.facts Cert.Pre_finite_inputs.Gen.facts :=
  Cert.Proof.RefFrame.frame_ri

/-- The two idealized programs' result functions agree on finite inputs: the mathematical content of the claim.
    The reference's buffers hold its stages composed; the kernel program's host operations are the same first and
    fifth stages; its second region computes the last stage (the row-tiled product and the row-wise log-softmax are
    the same operations row by row); and its first region computes the three Chebyshev layers: read at an index both
    forms of a layer are sums of products of the arrays' entries, every entry is a real on finite inputs and stays
    one through each batch normalisation (variance plus ε is positive), and over the reals the spectral recurrence
    T_k = V s_k + c_k x turns one form into the other. -/
theorem results_agree : Cert.Proof.Values.ResultsAgree :=
  Cert.Proof.Values.results_of Cert.Proof.Values.refDesc Cert.Proof.Values.refLogp Cert.Proof.Values.region1Logp
    Cert.Proof.Values.region0Layers

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves,
  Cert.Proof.Values.algebraic_of_results results_agree⟩

end Cert.Proof

end
